-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x32 : Shape := ⟨2, ![1000000, 32]⟩
abbrev S100000x32 : Shape := ⟨2, ![100000, 32]⟩
abbrev S16384 : Shape := ⟨1, ![16384]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg6 : IVec S16384 32) (main_v27 : IVec S_ 1) (main_v32 : IVec S16384 1) (main_c_12 : IVec S_ 1) : IVec S_ 1 :=
  let main_v33 : IVec S_ 1 := (fun x v => Host.reduce IntOp.andi x v reducesTo_S16384_S_d0 h_S_) main_v32 main_c_12
  let main_v34 : IVec S_ 1 := andi main_v27 main_v33
  let main_c_13 : IVec S_ 32 := constantI S_ 32 0#32
  let main_v35 : IVec S16384 32 := broadcastInDim S16384 ![] bcast_S_S16384 main_c_13
  let main_v36 : IVec S16384 1 := cmpi .sge main_arg6 main_v35
  let main_c_14 : IVec S_ 32 := constantI S_ 32 16383#32
  let main_v37 : IVec S16384 32 := broadcastInDim S16384 ![] bcast_S_S16384 main_c_14
  let main_v38 : IVec S16384 1 := cmpi .sle main_arg6 main_v37
  let main_v39 : IVec S16384 1 := andi main_v36 main_v38
  let main_c_15 : IVec S_ 1 := constantI S_ 1 1#1
  let main_v40 : IVec S_ 1 := (fun x v => Host.reduce IntOp.andi x v reducesTo_S16384_S_d0 h_S_) main_v39 main_c_15
  let main_v41 : IVec S_ 1 := andi main_v34 main_v40
  main_v41

def fn_part1 {F : FTy → Type} [FloatOps F] (main_arg3 : IVec S16384 32) (main_arg4 : IVec S16384 32) (main_arg5 : IVec S16384 32) (main_arg6 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg3 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  let main_c_7 : IVec S_ 32 := constantI S_ 32 0#32
  let main_v21 : IVec S16384 32 := broadcastInDim S16384 ![] bcast_S_S16384 main_c_7
  let main_v22 : IVec S16384 1 := cmpi .sge main_arg4 main_v21
  let main_c_8 : IVec S_ 32 := constantI S_ 32 99999#32
  let main_v23 : IVec S16384 32 := broadcastInDim S16384 ![] bcast_S_S16384 main_c_8
  let main_v24 : IVec S16384 1 := cmpi .sle main_arg4 main_v23
  let main_v25 : IVec S16384 1 := andi main_v22 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v20 main_v26
  let main_c_10 : IVec S_ 32 := constantI S_ 32 0#32
  let main_v28 : IVec S16384 32 := broadcastInDim S16384 ![] bcast_S_S16384 main_c_10
  let main_v29 : IVec S16384 1 := cmpi .sge main_arg5 main_v28
  let main_c_11 : IVec S_ 32 := constantI S_ 32 999999#32
  let main_v30 : IVec S16384 32 := broadcastInDim S16384 ![] bcast_S_S16384 main_c_11
  let main_v31 : IVec S16384 1 := cmpi .sle main_arg5 main_v30
  let main_v32 : IVec S16384 1 := andi main_v29 main_v31
  let main_c_12 : IVec S_ 1 := constantI S_ 1 1#1
  fn_part2 (F := F) main_arg6 main_v27 main_v32 main_c_12

def fn {F : FTy → Type} [FloatOps F] (main_arg0 : FVec F S1000000x32 .f32) (main_arg1 : FVec F S100000x32 .f32) (main_arg2 : FVec F S1000000x32 .f32) (main_arg3 : IVec S16384 32) (main_arg4 : IVec S16384 32) (main_arg5 : IVec S16384 32) (main_arg6 : IVec S16384 32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S1000000x32 .f32 := Host.absf main_arg2
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 32 := constantI S_ 32 999999#32
  fn_part1 (F := F) main_arg3 main_arg4 main_arg5 main_arg6 main_v13 main_v15 main_c_5
-- ==== Kernel.lean ====
abbrev S1000000x32 : Shape := ⟨2, ![1000000, 32]⟩
abbrev S100000x32 : Shape := ⟨2, ![100000, 32]⟩
abbrev S16384 : Shape := ⟨1, ![16384]⟩
abbrev S16384x32 : Shape := ⟨2, ![16384, 32]⟩
abbrev S512 : Shape := ⟨1, ![512]⟩
abbrev S256 : Shape := ⟨1, ![256]⟩
abbrev S2x16x8x32 : Shape := ⟨4, ![2, 16, 8, 32]⟩
abbrev S512x32 : Shape := ⟨2, ![512, 32]⟩
abbrev S_ : Shape := ⟨0, ![]⟩
abbrev S16 : Shape := ⟨1, ![16]⟩
abbrev S1 : Shape := ⟨1, ![1]⟩
abbrev S1x32 : Shape := ⟨2, ![1, 32]⟩
abbrev S32 : Shape := ⟨1, ![32]⟩
abbrev S1x1x8x32 : Shape := ⟨4, ![1, 1, 8, 32]⟩
abbrev S8x32 : Shape := ⟨2, ![8, 32]⟩
abbrev S125000x8x32 : Shape := ⟨3, ![125000, 8, 32]⟩
abbrev S1x8x32 : Shape := ⟨3, ![1, 8, 32]⟩
abbrev S1x16x8x32 : Shape := ⟨4, ![1, 16, 8, 32]⟩
abbrev S16x8x32 : Shape := ⟨3, ![16, 8, 32]⟩
abbrev S1x1x1x16 : Shape := ⟨4, ![1, 1, 1, 16]⟩
abbrev S1x16 : Shape := ⟨2, ![1, 16]⟩
abbrev S12500x8x32 : Shape := ⟨3, ![12500, 8, 32]⟩

abbrev nBuf : Table → Nat
  | .hbm => 10
  | .local .scVector .vmem => 4
  | _ => 0

abbrev bufTy : (tb : Table) → Fin (nBuf tb) → BufTy
  | .hbm, ⟨0, _⟩ => ⟨S1000000x32, .f32⟩
  | .hbm, ⟨1, _⟩ => ⟨S100000x32, .f32⟩
  | .hbm, ⟨2, _⟩ => ⟨S1000000x32, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384x32, .f32⟩
  | .hbm, ⟨8, _⟩ => ⟨S16384x32, .f32⟩
  | .hbm, ⟨9, _⟩ => ⟨S16384x32, .f32⟩
  | .local .scVector .vmem, ⟨0, _⟩ => ⟨S512, .i32⟩
  | .local .scVector .vmem, ⟨1, _⟩ => ⟨S256, .i32⟩
  | .local .scVector .vmem, ⟨2, _⟩ => ⟨S2x16x8x32, .f32⟩
  | .local .scVector .vmem, ⟨3, _⟩ => ⟨S512x32, .f32⟩
  | _, _ => ⟨S1000000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_0_scv : Ref sig .scVector := ⟨.hbm, 7, rfl⟩
abbrev main_v0_1_scv : Ref sig .scVector := ⟨.hbm, 8, rfl⟩
abbrev main_v0_2_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off2 (k0_t1 : Fin k0_t1_loop.trips) : Fin 1 → Nat :=
  let c0_i32_527 : BitVec 32 := 0#32
  let c0_i32 : BitVec 32 := 0#32
  let c1_i32 : BitVec 32 := 1#32
  let arg19 : BitVec 32 := Scf.iv c0_i32 c1_i32 k0_t1
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : Index := Scalar.indexCast v611
  ![v612.toNat]
def k0_off3 (k0_t1 : Fin k0_t1_loop.trips) : Fin 1 → Nat :=
  let c0_i32_527 : BitVec 32 := 0#32
  let c0_i32 : BitVec 32 := 0#32
  let c1_i32 : BitVec 32 := 1#32
  let arg19 : BitVec 32 := Scf.iv c0_i32 c1_i32 k0_t1
  let c1_i32_526 : BitVec 32 := 1#32
  let v609 : BitVec 32 := Scalar.muli arg19 c1_i32_526
  let v610 : BitVec 32 := Scalar.addi c0_i32_527 v609
  let c16_i32_530 : BitVec 32 := 16#32
  let v617 : BitVec 32 := Scalar.muli v610 c16_i32_530
  let v618 : Index := Scalar.indexCast v617
  ![v618.toNat]
@[reducible] def k0_t2_loop : Scf.Loop 32 :=
  let c0_i32_1 : BitVec 32 := 0#32
  let c16_i32_2 : BitVec 32 := 16#32
  let v4 : BitVec 32 := Scalar.addi c0_i32_1 c16_i32_2
  let c1_i32_3 : BitVec 32 := 1#32
  ⟨c0_i32_1, v4, c1_i32_3⟩
def k0_off4 (k0_t2 : Fin k0_t2_loop.trips) : Fin 1 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off5 (k0_t2 : Fin k0_t2_loop.trips) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off6 (v617 : BitVec 32) : Fin 2 → Nat :=
  let c0_i32_531 : BitVec 32 := 0#32
  ![v617.toNat, 0]

def k0_chk1 (v617 : BitVec 32) : Prop :=
  (∀ a, (k0_off6 v617) a + S1x32.size a ≤ S1000000x32.size a)
instance k0_chk1.dec : ∀ (v617 : BitVec 32), Decidable (k0_chk1 v617) := fun v617 => decidable_of_iff' _ (Iff.of_eq (k0_chk1.eq_1 v617))
theorem k0_off6_inb : ∀ (v617 : BitVec 32) (k0_hw1 : k0_chk1 v617), ∀ a, (k0_off6 v617) a + S1x32.size a ≤ S1000000x32.size a := fun v617 k0_hw1 => k0_hw1

def k0_off7 (k0_t2 : Fin k0_t2_loop.trips) (c0_i32_529 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off8 (v628 : BitVec 32) : Fin 2 → Nat :=
  let c0_i32_536 : BitVec 32 := 0#32
  ![v628.toNat, 0]

def k0_chk2 (v628 : BitVec 32) : Prop :=
  (∀ a, (k0_off8 v628) a + S1x32.size a ≤ S1000000x32.size a)
instance k0_chk2.dec : ∀ (v628 : BitVec 32), Decidable (k0_chk2 v628) := fun v628 => decidable_of_iff' _ (Iff.of_eq (k0_chk2.eq_1 v628))
theorem k0_off8_inb : ∀ (v628 : BitVec 32) (k0_hw2 : k0_chk2 v628), ∀ a, (k0_off8 v628) a + S1x32.size a ≤ S1000000x32.size a := fun v628 k0_hw2 => k0_hw2

def k0_off9 (k0_t2 : Fin k0_t2_loop.trips) (c1_i32_534 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off10 (v639 : BitVec 32) : Fin 2 → Nat :=
  let c0_i32_541 : BitVec 32 := 0#32
  ![v639.toNat, 0]

def k0_chk3 (v639 : BitVec 32) : Prop :=
  (∀ a, (k0_off10 v639) a + S1x32.size a ≤ S1000000x32.size a)
instance k0_chk3.dec : ∀ (v639 : BitVec 32), Decidable (k0_chk3 v639) := fun v639 => decidable_of_iff' _ (Iff.of_eq (k0_chk3.eq_1 v639))
theorem k0_off10_inb : ∀ (v639 : BitVec 32) (k0_hw3 : k0_chk3 v639), ∀ a, (k0_off10 v639) a + S1x32.size a ≤ S1000000x32.size a := fun v639 k0_hw3 => k0_hw3

def k0_off11 (k0_t2 : Fin k0_t2_loop.trips) (c2_i32_539 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off12 (v650 : BitVec 32) : Fin 2 → Nat :=
  let c0_i32_546 : BitVec 32 := 0#32
  ![v650.toNat, 0]

def k0_chk4 (v650 : BitVec 32) : Prop :=
  (∀ a, (k0_off12 v650) a + S1x32.size a ≤ S1000000x32.size a)
instance k0_chk4.dec : ∀ (v650 : BitVec 32), Decidable (k0_chk4 v650) := fun v650 => decidable_of_iff' _ (Iff.of_eq (k0_chk4.eq_1 v650))
theorem k0_off12_inb : ∀ (v650 : BitVec 32) (k0_hw4 : k0_chk4 v650), ∀ a, (k0_off12 v650) a + S1x32.size a ≤ S1000000x32.size a := fun v650 k0_hw4 => k0_hw4

def k0_off13 (k0_t2 : Fin k0_t2_loop.trips) (c3_i32_544 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off14 (v661 : BitVec 32) : Fin 2 → Nat :=
  let c0_i32_551 : BitVec 32 := 0#32
  ![v661.toNat, 0]

def k0_chk5 (v661 : BitVec 32) : Prop :=
  (∀ a, (k0_off14 v661) a + S1x32.size a ≤ S1000000x32.size a)
instance k0_chk5.dec : ∀ (v661 : BitVec 32), Decidable (k0_chk5 v661) := fun v661 => decidable_of_iff' _ (Iff.of_eq (k0_chk5.eq_1 v661))
theorem k0_off14_inb : ∀ (v661 : BitVec 32) (k0_hw5 : k0_chk5 v661), ∀ a, (k0_off14 v661) a + S1x32.size a ≤ S1000000x32.size a := fun v661 k0_hw5 => k0_hw5

def k0_off15 (k0_t2 : Fin k0_t2_loop.trips) (c4_i32_549 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off16 (v672 : BitVec 32) : Fin 2 → Nat :=
  let c0_i32_556 : BitVec 32 := 0#32
  ![v672.toNat, 0]

def k0_chk6 (v672 : BitVec 32) : Prop :=
  (∀ a, (k0_off16 v672) a + S1x32.size a ≤ S1000000x32.size a)
instance k0_chk6.dec : ∀ (v672 : BitVec 32), Decidable (k0_chk6 v672) := fun v672 => decidable_of_iff' _ (Iff.of_eq (k0_chk6.eq_1 v672))
theorem k0_off16_inb : ∀ (v672 : BitVec 32) (k0_hw6 : k0_chk6 v672), ∀ a, (k0_off16 v672) a + S1x32.size a ≤ S1000000x32.size a := fun v672 k0_hw6 => k0_hw6

def k0_off17 (k0_t2 : Fin k0_t2_loop.trips) (c5_i32_554 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off18 (v683 : BitVec 32) : Fin 2 → Nat :=
  let c0_i32_561 : BitVec 32 := 0#32
  ![v683.toNat, 0]

def k0_chk7 (v683 : BitVec 32) : Prop :=
  (∀ a, (k0_off18 v683) a + S1x32.size a ≤ S1000000x32.size a)
instance k0_chk7.dec : ∀ (v683 : BitVec 32), Decidable (k0_chk7 v683) := fun v683 => decidable_of_iff' _ (Iff.of_eq (k0_chk7.eq_1 v683))
theorem k0_off18_inb : ∀ (v683 : BitVec 32) (k0_hw7 : k0_chk7 v683), ∀ a, (k0_off18 v683) a + S1x32.size a ≤ S1000000x32.size a := fun v683 k0_hw7 => k0_hw7

def k0_off19 (k0_t2 : Fin k0_t2_loop.trips) (c6_i32_559 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off20 (v694 : BitVec 32) : Fin 2 → Nat :=
  let c0_i32_566 : BitVec 32 := 0#32
  ![v694.toNat, 0]

def k0_chk8 (v694 : BitVec 32) : Prop :=
  (∀ a, (k0_off20 v694) a + S1x32.size a ≤ S1000000x32.size a)
instance k0_chk8.dec : ∀ (v694 : BitVec 32), Decidable (k0_chk8 v694) := fun v694 => decidable_of_iff' _ (Iff.of_eq (k0_chk8.eq_1 v694))
theorem k0_off20_inb : ∀ (v694 : BitVec 32) (k0_hw8 : k0_chk8 v694), ∀ a, (k0_off20 v694) a + S1x32.size a ≤ S1000000x32.size a := fun v694 k0_hw8 => k0_hw8

def k0_off21 (k0_t2 : Fin k0_t2_loop.trips) (c7_i32_564 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off22 (v705 : BitVec 32) : Fin 2 → Nat :=
  let c0_i32_571 : BitVec 32 := 0#32
  ![v705.toNat, 0]

def k0_chk9 (v705 : BitVec 32) : Prop :=
  (∀ a, (k0_off22 v705) a + S1x32.size a ≤ S1000000x32.size a)
instance k0_chk9.dec : ∀ (v705 : BitVec 32), Decidable (k0_chk9 v705) := fun v705 => decidable_of_iff' _ (Iff.of_eq (k0_chk9.eq_1 v705))
theorem k0_off22_inb : ∀ (v705 : BitVec 32) (k0_hw9 : k0_chk9 v705), ∀ a, (k0_off22 v705) a + S1x32.size a ≤ S1000000x32.size a := fun v705 k0_hw9 => k0_hw9

def k0_off23 (k0_t2 : Fin k0_t2_loop.trips) (c8_i32_569 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off24 (v716 : BitVec 32) : Fin 2 → Nat :=
  let c0_i32_576 : BitVec 32 := 0#32
  ![v716.toNat, 0]

def k0_chk10 (v716 : BitVec 32) : Prop :=
  (∀ a, (k0_off24 v716) a + S1x32.size a ≤ S1000000x32.size a)
instance k0_chk10.dec : ∀ (v716 : BitVec 32), Decidable (k0_chk10 v716) := fun v716 => decidable_of_iff' _ (Iff.of_eq (k0_chk10.eq_1 v716))
theorem k0_off24_inb : ∀ (v716 : BitVec 32) (k0_hw10 : k0_chk10 v716), ∀ a, (k0_off24 v716) a + S1x32.size a ≤ S1000000x32.size a := fun v716 k0_hw10 => k0_hw10

def k0_off25 (k0_t2 : Fin k0_t2_loop.trips) (c9_i32_574 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off26 (v727 : BitVec 32) : Fin 2 → Nat :=
  let c0_i32_581 : BitVec 32 := 0#32
  ![v727.toNat, 0]

def k0_chk11 (v727 : BitVec 32) : Prop :=
  (∀ a, (k0_off26 v727) a + S1x32.size a ≤ S1000000x32.size a)
instance k0_chk11.dec : ∀ (v727 : BitVec 32), Decidable (k0_chk11 v727) := fun v727 => decidable_of_iff' _ (Iff.of_eq (k0_chk11.eq_1 v727))
theorem k0_off26_inb : ∀ (v727 : BitVec 32) (k0_hw11 : k0_chk11 v727), ∀ a, (k0_off26 v727) a + S1x32.size a ≤ S1000000x32.size a := fun v727 k0_hw11 => k0_hw11

def k0_off27 (k0_t2 : Fin k0_t2_loop.trips) (c10_i32_579 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off28 (v738 : BitVec 32) : Fin 2 → Nat :=
  let c0_i32_586 : BitVec 32 := 0#32
  ![v738.toNat, 0]

def k0_chk12 (v738 : BitVec 32) : Prop :=
  (∀ a, (k0_off28 v738) a + S1x32.size a ≤ S1000000x32.size a)
instance k0_chk12.dec : ∀ (v738 : BitVec 32), Decidable (k0_chk12 v738) := fun v738 => decidable_of_iff' _ (Iff.of_eq (k0_chk12.eq_1 v738))
theorem k0_off28_inb : ∀ (v738 : BitVec 32) (k0_hw12 : k0_chk12 v738), ∀ a, (k0_off28 v738) a + S1x32.size a ≤ S1000000x32.size a := fun v738 k0_hw12 => k0_hw12

def k0_off29 (k0_t2 : Fin k0_t2_loop.trips) (c11_i32_584 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off30 (v749 : BitVec 32) : Fin 2 → Nat :=
  let c0_i32_591 : BitVec 32 := 0#32
  ![v749.toNat, 0]

def k0_chk13 (v749 : BitVec 32) : Prop :=
  (∀ a, (k0_off30 v749) a + S1x32.size a ≤ S1000000x32.size a)
instance k0_chk13.dec : ∀ (v749 : BitVec 32), Decidable (k0_chk13 v749) := fun v749 => decidable_of_iff' _ (Iff.of_eq (k0_chk13.eq_1 v749))
theorem k0_off30_inb : ∀ (v749 : BitVec 32) (k0_hw13 : k0_chk13 v749), ∀ a, (k0_off30 v749) a + S1x32.size a ≤ S1000000x32.size a := fun v749 k0_hw13 => k0_hw13

def k0_off31 (k0_t2 : Fin k0_t2_loop.trips) (c12_i32_589 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off32 (v760 : BitVec 32) : Fin 2 → Nat :=
  let c0_i32_596 : BitVec 32 := 0#32
  ![v760.toNat, 0]

def k0_chk14 (v760 : BitVec 32) : Prop :=
  (∀ a, (k0_off32 v760) a + S1x32.size a ≤ S1000000x32.size a)
instance k0_chk14.dec : ∀ (v760 : BitVec 32), Decidable (k0_chk14 v760) := fun v760 => decidable_of_iff' _ (Iff.of_eq (k0_chk14.eq_1 v760))
theorem k0_off32_inb : ∀ (v760 : BitVec 32) (k0_hw14 : k0_chk14 v760), ∀ a, (k0_off32 v760) a + S1x32.size a ≤ S1000000x32.size a := fun v760 k0_hw14 => k0_hw14

def k0_off33 (k0_t2 : Fin k0_t2_loop.trips) (c13_i32_594 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off34 (v771 : BitVec 32) : Fin 2 → Nat :=
  let c0_i32_601 : BitVec 32 := 0#32
  ![v771.toNat, 0]

def k0_chk15 (v771 : BitVec 32) : Prop :=
  (∀ a, (k0_off34 v771) a + S1x32.size a ≤ S1000000x32.size a)
instance k0_chk15.dec : ∀ (v771 : BitVec 32), Decidable (k0_chk15 v771) := fun v771 => decidable_of_iff' _ (Iff.of_eq (k0_chk15.eq_1 v771))
theorem k0_off34_inb : ∀ (v771 : BitVec 32) (k0_hw15 : k0_chk15 v771), ∀ a, (k0_off34 v771) a + S1x32.size a ≤ S1000000x32.size a := fun v771 k0_hw15 => k0_hw15

def k0_off35 (k0_t2 : Fin k0_t2_loop.trips) (c14_i32_599 : BitVec 32) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off36 (v782 : BitVec 32) : Fin 2 → Nat :=
  let c0_i32_606 : BitVec 32 := 0#32
  ![v782.toNat, 0]

def k0_chk16 (v782 : BitVec 32) : Prop :=
  (∀ a, (k0_off36 v782) a + S1x32.size a ≤ S1000000x32.size a)
instance k0_chk16.dec : ∀ (v782 : BitVec 32), Decidable (k0_chk16 v782) := fun v782 => decidable_of_iff' _ (Iff.of_eq (k0_chk16.eq_1 v782))
theorem k0_off36_inb : ∀ (v782 : BitVec 32) (k0_hw16 : k0_chk16 v782), ∀ a, (k0_off36 v782) a + S1x32.size a ≤ S1000000x32.size a := fun v782 k0_hw16 => k0_hw16

def k0_off37 (k0_t2 : Fin k0_t2_loop.trips) : Fin 2 → Nat :=
  let c256_i32 : BitVec 32 := 256#32
  let c0_i32_527 : BitVec 32 := 0#32
  let c0_i32_1 : BitVec 32 := 0#32
  let c1_i32_3 : BitVec 32 := 1#32
  let arg19 : BitVec 32 := Scf.iv c0_i32_1 c1_i32_3 k0_t2
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off38 (v8 : BitVec 32) : Fin 3 → Nat :=
  let c0_i32_9 : BitVec 32 := 0#32
  let c0_i32_10 : BitVec 32 := 0#32
  ![v8.toNat, 0, 0]

def k0_chk17 (v8 : BitVec 32) : Prop :=
  (∀ a, (k0_off38 v8) a + S1x8x32.size a ≤ S125000x8x32.size a)
instance k0_chk17.dec : ∀ (v8 : BitVec 32), Decidable (k0_chk17 v8) := fun v8 => decidable_of_iff' _ (Iff.of_eq (k0_chk17.eq_1 v8))
theorem k0_off38_inb : ∀ (v8 : BitVec 32) (k0_hw17 : k0_chk17 v8), ∀ a, (k0_off38 v8) a + S1x8x32.size a ≤ S125000x8x32.size a := fun v8 k0_hw17 => k0_hw17

def k0_off39 (v20 : BitVec 32) : Fin 3 → Nat :=
  let c0_i32_19 : BitVec 32 := 0#32
  let c0_i32_20 : BitVec 32 := 0#32
  ![v20.toNat, 0, 0]

def k0_chk18 (v20 : BitVec 32) : Prop :=
  (∀ a, (k0_off39 v20) a + S1x8x32.size a ≤ S125000x8x32.size a)
instance k0_chk18.dec : ∀ (v20 : BitVec 32), Decidable (k0_chk18 v20) := fun v20 => decidable_of_iff' _ (Iff.of_eq (k0_chk18.eq_1 v20))
theorem k0_off39_inb : ∀ (v20 : BitVec 32) (k0_hw18 : k0_chk18 v20), ∀ a, (k0_off39 v20) a + S1x8x32.size a ≤ S125000x8x32.size a := fun v20 k0_hw18 => k0_hw18

def k0_off40 (v32 : BitVec 32) : Fin 3 → Nat :=
  let c0_i32_29 : BitVec 32 := 0#32
  let c0_i32_30 : BitVec 32 := 0#32
  ![v32.toNat, 0, 0]

def k0_chk19 (v32 : BitVec 32) : Prop :=
  (∀ a, (k0_off40 v32) a + S1x8x32.size a ≤ S125000x8x32.size a)
instance k0_chk19.dec : ∀ (v32 : BitVec 32), Decidable (k0_chk19 v32) := fun v32 => decidable_of_iff' _ (Iff.of_eq (k0_chk19.eq_1 v32))
theorem k0_off40_inb : ∀ (v32 : BitVec 32) (k0_hw19 : k0_chk19 v32), ∀ a, (k0_off40 v32) a + S1x8x32.size a ≤ S125000x8x32.size a := fun v32 k0_hw19 => k0_hw19

def k0_off41 (v44 : BitVec 32) : Fin 3 → Nat :=
  let c0_i32_38 : BitVec 32 := 0#32
  let c0_i32_39 : BitVec 32 := 0#32
  ![v44.toNat, 0, 0]

def k0_chk20 (v44 : BitVec 32) : Prop :=
  (∀ a, (k0_off41 v44) a + S1x8x32.size a ≤ S125000x8x32.size a)
instance k0_chk20.dec : ∀ (v44 : BitVec 32), Decidable (k0_chk20 v44) := fun v44 => decidable_of_iff' _ (Iff.of_eq (k0_chk20.eq_1 v44))
theorem k0_off41_inb : ∀ (v44 : BitVec 32) (k0_hw20 : k0_chk20 v44), ∀ a, (k0_off41 v44) a + S1x8x32.size a ≤ S125000x8x32.size a := fun v44 k0_hw20 => k0_hw20

def k0_off42 (v56 : BitVec 32) : Fin 3 → Nat :=
  let c0_i32_47 : BitVec 32 := 0#32
  let c0_i32_48 : BitVec 32 := 0#32
  ![v56.toNat, 0, 0]

def k0_chk21 (v56 : BitVec 32) : Prop :=
  (∀ a, (k0_off42 v56) a + S1x8x32.size a ≤ S125000x8x32.size a)
instance k0_chk21.dec : ∀ (v56 : BitVec 32), Decidable (k0_chk21 v56) := fun v56 => decidable_of_iff' _ (Iff.of_eq (k0_chk21.eq_1 v56))
theorem k0_off42_inb : ∀ (v56 : BitVec 32) (k0_hw21 : k0_chk21 v56), ∀ a, (k0_off42 v56) a + S1x8x32.size a ≤ S125000x8x32.size a := fun v56 k0_hw21 => k0_hw21

def k0_off43 (v68 : BitVec 32) : Fin 3 → Nat :=
  let c0_i32_56 : BitVec 32 := 0#32
  let c0_i32_57 : BitVec 32 := 0#32
  ![v68.toNat, 0, 0]

def k0_chk22 (v68 : BitVec 32) : Prop :=
  (∀ a, (k0_off43 v68) a + S1x8x32.size a ≤ S125000x8x32.size a)
instance k0_chk22.dec : ∀ (v68 : BitVec 32), Decidable (k0_chk22 v68) := fun v68 => decidable_of_iff' _ (Iff.of_eq (k0_chk22.eq_1 v68))
theorem k0_off43_inb : ∀ (v68 : BitVec 32) (k0_hw22 : k0_chk22 v68), ∀ a, (k0_off43 v68) a + S1x8x32.size a ≤ S125000x8x32.size a := fun v68 k0_hw22 => k0_hw22

def k0_off44 (v80 : BitVec 32) : Fin 3 → Nat :=
  let c0_i32_65 : BitVec 32 := 0#32
  let c0_i32_66 : BitVec 32 := 0#32
  ![v80.toNat, 0, 0]

def k0_chk23 (v80 : BitVec 32) : Prop :=
  (∀ a, (k0_off44 v80) a + S1x8x32.size a ≤ S125000x8x32.size a)
instance k0_chk23.dec : ∀ (v80 : BitVec 32), Decidable (k0_chk23 v80) := fun v80 => decidable_of_iff' _ (Iff.of_eq (k0_chk23.eq_1 v80))
theorem k0_off44_inb : ∀ (v80 : BitVec 32) (k0_hw23 : k0_chk23 v80), ∀ a, (k0_off44 v80) a + S1x8x32.size a ≤ S125000x8x32.size a := fun v80 k0_hw23 => k0_hw23

def k0_off45 (v92 : BitVec 32) : Fin 3 → Nat :=
  let c0_i32_74 : BitVec 32 := 0#32
  let c0_i32_75 : BitVec 32 := 0#32
  ![v92.toNat, 0, 0]

def k0_chk24 (v92 : BitVec 32) : Prop :=
  (∀ a, (k0_off45 v92) a + S1x8x32.size a ≤ S125000x8x32.size a)
instance k0_chk24.dec : ∀ (v92 : BitVec 32), Decidable (k0_chk24 v92) := fun v92 => decidable_of_iff' _ (Iff.of_eq (k0_chk24.eq_1 v92))
theorem k0_off45_inb : ∀ (v92 : BitVec 32) (k0_hw24 : k0_chk24 v92), ∀ a, (k0_off45 v92) a + S1x8x32.size a ≤ S125000x8x32.size a := fun v92 k0_hw24 => k0_hw24

def k0_off46 (v104 : BitVec 32) : Fin 3 → Nat :=
  let c0_i32_83 : BitVec 32 := 0#32
  let c0_i32_84 : BitVec 32 := 0#32
  ![v104.toNat, 0, 0]

def k0_chk25 (v104 : BitVec 32) : Prop :=
  (∀ a, (k0_off46 v104) a + S1x8x32.size a ≤ S125000x8x32.size a)
instance k0_chk25.dec : ∀ (v104 : BitVec 32), Decidable (k0_chk25 v104) := fun v104 => decidable_of_iff' _ (Iff.of_eq (k0_chk25.eq_1 v104))
theorem k0_off46_inb : ∀ (v104 : BitVec 32) (k0_hw25 : k0_chk25 v104), ∀ a, (k0_off46 v104) a + S1x8x32.size a ≤ S125000x8x32.size a := fun v104 k0_hw25 => k0_hw25

def k0_off47 (v116 : BitVec 32) : Fin 3 → Nat :=
  let c0_i32_92 : BitVec 32 := 0#32
  let c0_i32_93 : BitVec 32 := 0#32
  ![v116.toNat, 0, 0]

def k0_chk26 (v116 : BitVec 32) : Prop :=
  (∀ a, (k0_off47 v116) a + S1x8x32.size a ≤ S125000x8x32.size a)
instance k0_chk26.dec : ∀ (v116 : BitVec 32), Decidable (k0_chk26 v116) := fun v116 => decidable_of_iff' _ (Iff.of_eq (k0_chk26.eq_1 v116))
theorem k0_off47_inb : ∀ (v116 : BitVec 32) (k0_hw26 : k0_chk26 v116), ∀ a, (k0_off47 v116) a + S1x8x32.size a ≤ S125000x8x32.size a := fun v116 k0_hw26 => k0_hw26

def k0_off48 (v128 : BitVec 32) : Fin 3 → Nat :=
  let c0_i32_101 : BitVec 32 := 0#32
  let c0_i32_102 : BitVec 32 := 0#32
  ![v128.toNat, 0, 0]

def k0_chk27 (v128 : BitVec 32) : Prop :=
  (∀ a, (k0_off48 v128) a + S1x8x32.size a ≤ S125000x8x32.size a)
instance k0_chk27.dec : ∀ (v128 : BitVec 32), Decidable (k0_chk27 v128) := fun v128 => decidable_of_iff' _ (Iff.of_eq (k0_chk27.eq_1 v128))
theorem k0_off48_inb : ∀ (v128 : BitVec 32) (k0_hw27 : k0_chk27 v128), ∀ a, (k0_off48 v128) a + S1x8x32.size a ≤ S125000x8x32.size a := fun v128 k0_hw27 => k0_hw27

def k0_off49 (v140 : BitVec 32) : Fin 3 → Nat :=
  let c0_i32_110 : BitVec 32 := 0#32
  let c0_i32_111 : BitVec 32 := 0#32
  ![v140.toNat, 0, 0]

def k0_chk28 (v140 : BitVec 32) : Prop :=
  (∀ a, (k0_off49 v140) a + S1x8x32.size a ≤ S125000x8x32.size a)
instance k0_chk28.dec : ∀ (v140 : BitVec 32), Decidable (k0_chk28 v140) := fun v140 => decidable_of_iff' _ (Iff.of_eq (k0_chk28.eq_1 v140))
theorem k0_off49_inb : ∀ (v140 : BitVec 32) (k0_hw28 : k0_chk28 v140), ∀ a, (k0_off49 v140) a + S1x8x32.size a ≤ S125000x8x32.size a := fun v140 k0_hw28 => k0_hw28

def k0_off50 (v152 : BitVec 32) : Fin 3 → Nat :=
  let c0_i32_119 : BitVec 32 := 0#32
  let c0_i32_120 : BitVec 32 := 0#32
  ![v152.toNat, 0, 0]

def k0_chk29 (v152 : BitVec 32) : Prop :=
  (∀ a, (k0_off50 v152) a + S1x8x32.size a ≤ S125000x8x32.size a)
instance k0_chk29.dec : ∀ (v152 : BitVec 32), Decidable (k0_chk29 v152) := fun v152 => decidable_of_iff' _ (Iff.of_eq (k0_chk29.eq_1 v152))
theorem k0_off50_inb : ∀ (v152 : BitVec 32) (k0_hw29 : k0_chk29 v152), ∀ a, (k0_off50 v152) a + S1x8x32.size a ≤ S125000x8x32.size a := fun v152 k0_hw29 => k0_hw29

def k0_off51 (v164 : BitVec 32) : Fin 3 → Nat :=
  let c0_i32_128 : BitVec 32 := 0#32
  let c0_i32_129 : BitVec 32 := 0#32
  ![v164.toNat, 0, 0]

def k0_chk30 (v164 : BitVec 32) : Prop :=
  (∀ a, (k0_off51 v164) a + S1x8x32.size a ≤ S125000x8x32.size a)
instance k0_chk30.dec : ∀ (v164 : BitVec 32), Decidable (k0_chk30 v164) := fun v164 => decidable_of_iff' _ (Iff.of_eq (k0_chk30.eq_1 v164))
theorem k0_off51_inb : ∀ (v164 : BitVec 32) (k0_hw30 : k0_chk30 v164), ∀ a, (k0_off51 v164) a + S1x8x32.size a ≤ S125000x8x32.size a := fun v164 k0_hw30 => k0_hw30

def k0_off52 (v176 : BitVec 32) : Fin 3 → Nat :=
  let c0_i32_137 : BitVec 32 := 0#32
  let c0_i32_138 : BitVec 32 := 0#32
  ![v176.toNat, 0, 0]

def k0_chk31 (v176 : BitVec 32) : Prop :=
  (∀ a, (k0_off52 v176) a + S1x8x32.size a ≤ S125000x8x32.size a)
instance k0_chk31.dec : ∀ (v176 : BitVec 32), Decidable (k0_chk31 v176) := fun v176 => decidable_of_iff' _ (Iff.of_eq (k0_chk31.eq_1 v176))
theorem k0_off52_inb : ∀ (v176 : BitVec 32) (k0_hw31 : k0_chk31 v176), ∀ a, (k0_off52 v176) a + S1x8x32.size a ≤ S125000x8x32.size a := fun v176 k0_hw31 => k0_hw31

def k0_off53 (v188 : BitVec 32) : Fin 3 → Nat :=
  let c0_i32_146 : BitVec 32 := 0#32
  let c0_i32_147 : BitVec 32 := 0#32
  ![v188.toNat, 0, 0]

def k0_chk32 (v188 : BitVec 32) : Prop :=
  (∀ a, (k0_off53 v188) a + S1x8x32.size a ≤ S125000x8x32.size a)
instance k0_chk32.dec : ∀ (v188 : BitVec 32), Decidable (k0_chk32 v188) := fun v188 => decidable_of_iff' _ (Iff.of_eq (k0_chk32.eq_1 v188))
theorem k0_off53_inb : ∀ (v188 : BitVec 32) (k0_hw32 : k0_chk32 v188), ∀ a, (k0_off53 v188) a + S1x8x32.size a ≤ S125000x8x32.size a := fun v188 k0_hw32 => k0_hw32

@[reducible] def k0_t3_loop : Scf.Loop 32 :=
  let c0_i32_152 : BitVec 32 := 0#32
  let c8_i32_153 : BitVec 32 := 8#32
  let v199 : BitVec 32 := Scalar.addi c0_i32_152 c8_i32_153
  let c1_i32_154 : BitVec 32 := 1#32
  ⟨c0_i32_152, v199, c1_i32_154⟩
def k0_off54 (k0_t3 : Fin k0_t3_loop.trips) : Fin 1 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_530 : BitVec 32 := 16#32
  let v613 : BitVec 32 := Scalar.muli v612 c16_i32_530
  let v614 : Index := Scalar.indexCast v613
  ![v614.toNat]
def k0_off55 (v618 : BitVec 32) : Fin 3 → Nat :=
  let c0_i32_535 : BitVec 32 := 0#32
  let c0_i32_536 : BitVec 32 := 0#32
  ![v618.toNat, 0, 0]

def k0_chk33 (v618 : BitVec 32) : Prop :=
  (∀ a, (k0_off55 v618) a + S1x8x32.size a ≤ S125000x8x32.size a)
instance k0_chk33.dec : ∀ (v618 : BitVec 32), Decidable (k0_chk33 v618) := fun v618 => decidable_of_iff' _ (Iff.of_eq (k0_chk33.eq_1 v618))
theorem k0_off55_inb : ∀ (v618 : BitVec 32) (k0_hw33 : k0_chk33 v618), ∀ a, (k0_off55 v618) a + S1x8x32.size a ≤ S125000x8x32.size a := fun v618 k0_hw33 => k0_hw33

def k0_off56 (v630 : BitVec 32) : Fin 3 → Nat :=
  let c0_i32_545 : BitVec 32 := 0#32
  let c0_i32_546 : BitVec 32 := 0#32
  ![v630.toNat, 0, 0]

def k0_chk34 (v630 : BitVec 32) : Prop :=
  (∀ a, (k0_off56 v630) a + S1x8x32.size a ≤ S125000x8x32.size a)
instance k0_chk34.dec : ∀ (v630 : BitVec 32), Decidable (k0_chk34 v630) := fun v630 => decidable_of_iff' _ (Iff.of_eq (k0_chk34.eq_1 v630))
theorem k0_off56_inb : ∀ (v630 : BitVec 32) (k0_hw34 : k0_chk34 v630), ∀ a, (k0_off56 v630) a + S1x8x32.size a ≤ S125000x8x32.size a := fun v630 k0_hw34 => k0_hw34

def k0_off57 (v642 : BitVec 32) : Fin 3 → Nat :=
  let c0_i32_555 : BitVec 32 := 0#32
  let c0_i32_556 : BitVec 32 := 0#32
  ![v642.toNat, 0, 0]

def k0_chk35 (v642 : BitVec 32) : Prop :=
  (∀ a, (k0_off57 v642) a + S1x8x32.size a ≤ S125000x8x32.size a)
instance k0_chk35.dec : ∀ (v642 : BitVec 32), Decidable (k0_chk35 v642) := fun v642 => decidable_of_iff' _ (Iff.of_eq (k0_chk35.eq_1 v642))
theorem k0_off57_inb : ∀ (v642 : BitVec 32) (k0_hw35 : k0_chk35 v642), ∀ a, (k0_off57 v642) a + S1x8x32.size a ≤ S125000x8x32.size a := fun v642 k0_hw35 => k0_hw35

def k0_off58 (v654 : BitVec 32) : Fin 3 → Nat :=
  let c0_i32_565 : BitVec 32 := 0#32
  let c0_i32_566 : BitVec 32 := 0#32
  ![v654.toNat, 0, 0]

def k0_chk36 (v654 : BitVec 32) : Prop :=
  (∀ a, (k0_off58 v654) a + S1x8x32.size a ≤ S125000x8x32.size a)
instance k0_chk36.dec : ∀ (v654 : BitVec 32), Decidable (k0_chk36 v654) := fun v654 => decidable_of_iff' _ (Iff.of_eq (k0_chk36.eq_1 v654))
theorem k0_off58_inb : ∀ (v654 : BitVec 32) (k0_hw36 : k0_chk36 v654), ∀ a, (k0_off58 v654) a + S1x8x32.size a ≤ S125000x8x32.size a := fun v654 k0_hw36 => k0_hw36

def k0_off59 (v666 : BitVec 32) : Fin 3 → Nat :=
  let c0_i32_575 : BitVec 32 := 0#32
  let c0_i32_576 : BitVec 32 := 0#32
  ![v666.toNat, 0, 0]

def k0_chk37 (v666 : BitVec 32) : Prop :=
  (∀ a, (k0_off59 v666) a + S1x8x32.size a ≤ S125000x8x32.size a)
instance k0_chk37.dec : ∀ (v666 : BitVec 32), Decidable (k0_chk37 v666) := fun v666 => decidable_of_iff' _ (Iff.of_eq (k0_chk37.eq_1 v666))
theorem k0_off59_inb : ∀ (v666 : BitVec 32) (k0_hw37 : k0_chk37 v666), ∀ a, (k0_off59 v666) a + S1x8x32.size a ≤ S125000x8x32.size a := fun v666 k0_hw37 => k0_hw37

def k0_off60 (v678 : BitVec 32) : Fin 3 → Nat :=
  let c0_i32_585 : BitVec 32 := 0#32
  let c0_i32_586 : BitVec 32 := 0#32
  ![v678.toNat, 0, 0]

def k0_chk38 (v678 : BitVec 32) : Prop :=
  (∀ a, (k0_off60 v678) a + S1x8x32.size a ≤ S125000x8x32.size a)
instance k0_chk38.dec : ∀ (v678 : BitVec 32), Decidable (k0_chk38 v678) := fun v678 => decidable_of_iff' _ (Iff.of_eq (k0_chk38.eq_1 v678))
theorem k0_off60_inb : ∀ (v678 : BitVec 32) (k0_hw38 : k0_chk38 v678), ∀ a, (k0_off60 v678) a + S1x8x32.size a ≤ S125000x8x32.size a := fun v678 k0_hw38 => k0_hw38

def k0_off61 (v690 : BitVec 32) : Fin 3 → Nat :=
  let c0_i32_595 : BitVec 32 := 0#32
  let c0_i32_596 : BitVec 32 := 0#32
  ![v690.toNat, 0, 0]

def k0_chk39 (v690 : BitVec 32) : Prop :=
  (∀ a, (k0_off61 v690) a + S1x8x32.size a ≤ S125000x8x32.size a)
instance k0_chk39.dec : ∀ (v690 : BitVec 32), Decidable (k0_chk39 v690) := fun v690 => decidable_of_iff' _ (Iff.of_eq (k0_chk39.eq_1 v690))
theorem k0_off61_inb : ∀ (v690 : BitVec 32) (k0_hw39 : k0_chk39 v690), ∀ a, (k0_off61 v690) a + S1x8x32.size a ≤ S125000x8x32.size a := fun v690 k0_hw39 => k0_hw39

def k0_off62 (v702 : BitVec 32) : Fin 3 → Nat :=
  let c0_i32_605 : BitVec 32 := 0#32
  let c0_i32_606 : BitVec 32 := 0#32
  ![v702.toNat, 0, 0]

def k0_chk40 (v702 : BitVec 32) : Prop :=
  (∀ a, (k0_off62 v702) a + S1x8x32.size a ≤ S125000x8x32.size a)
instance k0_chk40.dec : ∀ (v702 : BitVec 32), Decidable (k0_chk40 v702) := fun v702 => decidable_of_iff' _ (Iff.of_eq (k0_chk40.eq_1 v702))
theorem k0_off62_inb : ∀ (v702 : BitVec 32) (k0_hw40 : k0_chk40 v702), ∀ a, (k0_off62 v702) a + S1x8x32.size a ≤ S125000x8x32.size a := fun v702 k0_hw40 => k0_hw40

def k0_off63 (v714 : BitVec 32) : Fin 3 → Nat :=
  let c0_i32_615 : BitVec 32 := 0#32
  let c0_i32_616 : BitVec 32 := 0#32
  ![v714.toNat, 0, 0]

def k0_chk41 (v714 : BitVec 32) : Prop :=
  (∀ a, (k0_off63 v714) a + S1x8x32.size a ≤ S125000x8x32.size a)
instance k0_chk41.dec : ∀ (v714 : BitVec 32), Decidable (k0_chk41 v714) := fun v714 => decidable_of_iff' _ (Iff.of_eq (k0_chk41.eq_1 v714))
theorem k0_off63_inb : ∀ (v714 : BitVec 32) (k0_hw41 : k0_chk41 v714), ∀ a, (k0_off63 v714) a + S1x8x32.size a ≤ S125000x8x32.size a := fun v714 k0_hw41 => k0_hw41

def k0_off64 (v726 : BitVec 32) : Fin 3 → Nat :=
  let c0_i32_625 : BitVec 32 := 0#32
  let c0_i32_626 : BitVec 32 := 0#32
  ![v726.toNat, 0, 0]

def k0_chk42 (v726 : BitVec 32) : Prop :=
  (∀ a, (k0_off64 v726) a + S1x8x32.size a ≤ S125000x8x32.size a)
instance k0_chk42.dec : ∀ (v726 : BitVec 32), Decidable (k0_chk42 v726) := fun v726 => decidable_of_iff' _ (Iff.of_eq (k0_chk42.eq_1 v726))
theorem k0_off64_inb : ∀ (v726 : BitVec 32) (k0_hw42 : k0_chk42 v726), ∀ a, (k0_off64 v726) a + S1x8x32.size a ≤ S125000x8x32.size a := fun v726 k0_hw42 => k0_hw42

def k0_off65 (v738 : BitVec 32) : Fin 3 → Nat :=
  let c0_i32_635 : BitVec 32 := 0#32
  let c0_i32_636 : BitVec 32 := 0#32
  ![v738.toNat, 0, 0]

def k0_chk43 (v738 : BitVec 32) : Prop :=
  (∀ a, (k0_off65 v738) a + S1x8x32.size a ≤ S125000x8x32.size a)
instance k0_chk43.dec : ∀ (v738 : BitVec 32), Decidable (k0_chk43 v738) := fun v738 => decidable_of_iff' _ (Iff.of_eq (k0_chk43.eq_1 v738))
theorem k0_off65_inb : ∀ (v738 : BitVec 32) (k0_hw43 : k0_chk43 v738), ∀ a, (k0_off65 v738) a + S1x8x32.size a ≤ S125000x8x32.size a := fun v738 k0_hw43 => k0_hw43

def k0_off66 (v750 : BitVec 32) : Fin 3 → Nat :=
  let c0_i32_645 : BitVec 32 := 0#32
  let c0_i32_646 : BitVec 32 := 0#32
  ![v750.toNat, 0, 0]

def k0_chk44 (v750 : BitVec 32) : Prop :=
  (∀ a, (k0_off66 v750) a + S1x8x32.size a ≤ S125000x8x32.size a)
instance k0_chk44.dec : ∀ (v750 : BitVec 32), Decidable (k0_chk44 v750) := fun v750 => decidable_of_iff' _ (Iff.of_eq (k0_chk44.eq_1 v750))
theorem k0_off66_inb : ∀ (v750 : BitVec 32) (k0_hw44 : k0_chk44 v750), ∀ a, (k0_off66 v750) a + S1x8x32.size a ≤ S125000x8x32.size a := fun v750 k0_hw44 => k0_hw44

def k0_off67 (v762 : BitVec 32) : Fin 3 → Nat :=
  let c0_i32_655 : BitVec 32 := 0#32
  let c0_i32_656 : BitVec 32 := 0#32
  ![v762.toNat, 0, 0]

def k0_chk45 (v762 : BitVec 32) : Prop :=
  (∀ a, (k0_off67 v762) a + S1x8x32.size a ≤ S125000x8x32.size a)
instance k0_chk45.dec : ∀ (v762 : BitVec 32), Decidable (k0_chk45 v762) := fun v762 => decidable_of_iff' _ (Iff.of_eq (k0_chk45.eq_1 v762))
theorem k0_off67_inb : ∀ (v762 : BitVec 32) (k0_hw45 : k0_chk45 v762), ∀ a, (k0_off67 v762) a + S1x8x32.size a ≤ S125000x8x32.size a := fun v762 k0_hw45 => k0_hw45

def k0_off68 (v774 : BitVec 32) : Fin 3 → Nat :=
  let c0_i32_665 : BitVec 32 := 0#32
  let c0_i32_666 : BitVec 32 := 0#32
  ![v774.toNat, 0, 0]

def k0_chk46 (v774 : BitVec 32) : Prop :=
  (∀ a, (k0_off68 v774) a + S1x8x32.size a ≤ S125000x8x32.size a)
instance k0_chk46.dec : ∀ (v774 : BitVec 32), Decidable (k0_chk46 v774) := fun v774 => decidable_of_iff' _ (Iff.of_eq (k0_chk46.eq_1 v774))
theorem k0_off68_inb : ∀ (v774 : BitVec 32) (k0_hw46 : k0_chk46 v774), ∀ a, (k0_off68 v774) a + S1x8x32.size a ≤ S125000x8x32.size a := fun v774 k0_hw46 => k0_hw46

def k0_off69 (v786 : BitVec 32) : Fin 3 → Nat :=
  let c0_i32_675 : BitVec 32 := 0#32
  let c0_i32_676 : BitVec 32 := 0#32
  ![v786.toNat, 0, 0]

def k0_chk47 (v786 : BitVec 32) : Prop :=
  (∀ a, (k0_off69 v786) a + S1x8x32.size a ≤ S125000x8x32.size a)
instance k0_chk47.dec : ∀ (v786 : BitVec 32), Decidable (k0_chk47 v786) := fun v786 => decidable_of_iff' _ (Iff.of_eq (k0_chk47.eq_1 v786))
theorem k0_off69_inb : ∀ (v786 : BitVec 32) (k0_hw47 : k0_chk47 v786), ∀ a, (k0_off69 v786) a + S1x8x32.size a ≤ S125000x8x32.size a := fun v786 k0_hw47 => k0_hw47

def k0_off70 (v798 : BitVec 32) : Fin 3 → Nat :=
  let c0_i32_685 : BitVec 32 := 0#32
  let c0_i32_686 : BitVec 32 := 0#32
  ![v798.toNat, 0, 0]

def k0_chk48 (v798 : BitVec 32) : Prop :=
  (∀ a, (k0_off70 v798) a + S1x8x32.size a ≤ S125000x8x32.size a)
instance k0_chk48.dec : ∀ (v798 : BitVec 32), Decidable (k0_chk48 v798) := fun v798 => decidable_of_iff' _ (Iff.of_eq (k0_chk48.eq_1 v798))
theorem k0_off70_inb : ∀ (v798 : BitVec 32) (k0_hw48 : k0_chk48 v798), ∀ a, (k0_off70 v798) a + S1x8x32.size a ≤ S125000x8x32.size a := fun v798 k0_hw48 => k0_hw48

def k0_off71 (k0_t3 : Fin k0_t3_loop.trips) : Fin 1 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let v818 : Index := Scalar.indexCast v817
  ![v818.toNat]
def k0_off72 (v822 : BitVec 32) : Fin 4 → Nat :=
  let c0_i32_706 : BitVec 32 := 0#32
  let v824 : Index := Scalar.indexCast c0_i32_706
  let c0_i32_707 : BitVec 32 := 0#32
  let v825 : Index := Scalar.indexCast c0_i32_707
  let c8_i32_705 : BitVec 32 := 8#32
  let v823 : BitVec 32 := Scalar.remsi v822 c8_i32_705
  let v826 : Index := Scalar.indexCast v823
  let c0_708 : Index := 0#32
  ![0, 0, v826.toNat, 0]

def k0_off73 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_709 : BitVec 32 := 0#32
  let v829 : BitVec 32 := Scalar.addi v817 c0_i32_709
  let v830 : Index := Scalar.indexCast v829
  let c0_710 : Index := 0#32
  ![v830.toNat, 0]
def k0_off74 (v822 : BitVec 32) : Fin 4 → Nat :=
  let c0_i32_711 : BitVec 32 := 0#32
  let v834 : Index := Scalar.indexCast c0_i32_711
  let c0_i32_712 : BitVec 32 := 0#32
  let v835 : Index := Scalar.indexCast c0_i32_712
  let c8_i32_705 : BitVec 32 := 8#32
  let v823 : BitVec 32 := Scalar.remsi v822 c8_i32_705
  let v836 : Index := Scalar.indexCast v823
  let c16 : Index := 16#32
  ![0, 0, v836.toNat, 16]

def k0_chk49 (v822 : BitVec 32) : Prop :=
  (∀ a, (k0_off72 v822) a + S1x1x1x16.size a ≤ S2x16x8x32.size a) ∧
  (∀ a, (k0_off74 v822) a + S1x1x1x16.size a ≤ S2x16x8x32.size a)
instance k0_chk49.dec : ∀ (v822 : BitVec 32), Decidable (k0_chk49 v822) := fun v822 => decidable_of_iff' _ (Iff.of_eq (k0_chk49.eq_1 v822))
theorem k0_off72_inb : ∀ (v822 : BitVec 32) (k0_hw49 : k0_chk49 v822), ∀ a, (k0_off72 v822) a + S1x1x1x16.size a ≤ S2x16x8x32.size a := fun v822 k0_hw49 => k0_hw49.1
theorem k0_off74_inb : ∀ (v822 : BitVec 32) (k0_hw49 : k0_chk49 v822), ∀ a, (k0_off74 v822) a + S1x1x1x16.size a ≤ S2x16x8x32.size a := fun v822 k0_hw49 => k0_hw49.2

def k0_off75 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_713 : BitVec 32 := 0#32
  let v839 : BitVec 32 := Scalar.addi v817 c0_i32_713
  let v840 : Index := Scalar.indexCast v839
  let c16_714 : Index := 16#32
  ![v840.toNat, 16]
def k0_off76 (v845 : BitVec 32) : Fin 4 → Nat :=
  let c0_i32_716 : BitVec 32 := 0#32
  let v847 : Index := Scalar.indexCast c0_i32_716
  let c1_i32_717 : BitVec 32 := 1#32
  let v848 : Index := Scalar.indexCast c1_i32_717
  let c8_i32_715 : BitVec 32 := 8#32
  let v846 : BitVec 32 := Scalar.remsi v845 c8_i32_715
  let v849 : Index := Scalar.indexCast v846
  let c0_718 : Index := 0#32
  ![0, 1, v849.toNat, 0]

def k0_off77 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_719 : BitVec 32 := 1#32
  let v852 : BitVec 32 := Scalar.addi v817 c1_i32_719
  let v853 : Index := Scalar.indexCast v852
  let c0_720 : Index := 0#32
  ![v853.toNat, 0]
def k0_off78 (v845 : BitVec 32) : Fin 4 → Nat :=
  let c0_i32_721 : BitVec 32 := 0#32
  let v857 : Index := Scalar.indexCast c0_i32_721
  let c1_i32_722 : BitVec 32 := 1#32
  let v858 : Index := Scalar.indexCast c1_i32_722
  let c8_i32_715 : BitVec 32 := 8#32
  let v846 : BitVec 32 := Scalar.remsi v845 c8_i32_715
  let v859 : Index := Scalar.indexCast v846
  let c16_723 : Index := 16#32
  ![0, 1, v859.toNat, 16]

def k0_chk50 (v845 : BitVec 32) : Prop :=
  (∀ a, (k0_off76 v845) a + S1x1x1x16.size a ≤ S2x16x8x32.size a) ∧
  (∀ a, (k0_off78 v845) a + S1x1x1x16.size a ≤ S2x16x8x32.size a)
instance k0_chk50.dec : ∀ (v845 : BitVec 32), Decidable (k0_chk50 v845) := fun v845 => decidable_of_iff' _ (Iff.of_eq (k0_chk50.eq_1 v845))
theorem k0_off76_inb : ∀ (v845 : BitVec 32) (k0_hw50 : k0_chk50 v845), ∀ a, (k0_off76 v845) a + S1x1x1x16.size a ≤ S2x16x8x32.size a := fun v845 k0_hw50 => k0_hw50.1
theorem k0_off78_inb : ∀ (v845 : BitVec 32) (k0_hw50 : k0_chk50 v845), ∀ a, (k0_off78 v845) a + S1x1x1x16.size a ≤ S2x16x8x32.size a := fun v845 k0_hw50 => k0_hw50.2

def k0_off79 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_724 : BitVec 32 := 1#32
  let v862 : BitVec 32 := Scalar.addi v817 c1_i32_724
  let v863 : Index := Scalar.indexCast v862
  let c16_725 : Index := 16#32
  ![v863.toNat, 16]
def k0_off80 (v868 : BitVec 32) : Fin 4 → Nat :=
  let c0_i32_727 : BitVec 32 := 0#32
  let v870 : Index := Scalar.indexCast c0_i32_727
  let c2_i32_728 : BitVec 32 := 2#32
  let v871 : Index := Scalar.indexCast c2_i32_728
  let c8_i32_726 : BitVec 32 := 8#32
  let v869 : BitVec 32 := Scalar.remsi v868 c8_i32_726
  let v872 : Index := Scalar.indexCast v869
  let c0_729 : Index := 0#32
  ![0, 2, v872.toNat, 0]

def k0_off81 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_730 : BitVec 32 := 2#32
  let v875 : BitVec 32 := Scalar.addi v817 c2_i32_730
  let v876 : Index := Scalar.indexCast v875
  let c0_731 : Index := 0#32
  ![v876.toNat, 0]
def k0_off82 (v868 : BitVec 32) : Fin 4 → Nat :=
  let c0_i32_732 : BitVec 32 := 0#32
  let v880 : Index := Scalar.indexCast c0_i32_732
  let c2_i32_733 : BitVec 32 := 2#32
  let v881 : Index := Scalar.indexCast c2_i32_733
  let c8_i32_726 : BitVec 32 := 8#32
  let v869 : BitVec 32 := Scalar.remsi v868 c8_i32_726
  let v882 : Index := Scalar.indexCast v869
  let c16_734 : Index := 16#32
  ![0, 2, v882.toNat, 16]

def k0_chk51 (v868 : BitVec 32) : Prop :=
  (∀ a, (k0_off80 v868) a + S1x1x1x16.size a ≤ S2x16x8x32.size a) ∧
  (∀ a, (k0_off82 v868) a + S1x1x1x16.size a ≤ S2x16x8x32.size a)
instance k0_chk51.dec : ∀ (v868 : BitVec 32), Decidable (k0_chk51 v868) := fun v868 => decidable_of_iff' _ (Iff.of_eq (k0_chk51.eq_1 v868))
theorem k0_off80_inb : ∀ (v868 : BitVec 32) (k0_hw51 : k0_chk51 v868), ∀ a, (k0_off80 v868) a + S1x1x1x16.size a ≤ S2x16x8x32.size a := fun v868 k0_hw51 => k0_hw51.1
theorem k0_off82_inb : ∀ (v868 : BitVec 32) (k0_hw51 : k0_chk51 v868), ∀ a, (k0_off82 v868) a + S1x1x1x16.size a ≤ S2x16x8x32.size a := fun v868 k0_hw51 => k0_hw51.2

def k0_off83 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_735 : BitVec 32 := 2#32
  let v885 : BitVec 32 := Scalar.addi v817 c2_i32_735
  let v886 : Index := Scalar.indexCast v885
  let c16_736 : Index := 16#32
  ![v886.toNat, 16]
def k0_off84 (v891 : BitVec 32) : Fin 4 → Nat :=
  let c0_i32_738 : BitVec 32 := 0#32
  let v893 : Index := Scalar.indexCast c0_i32_738
  let c3_i32_739 : BitVec 32 := 3#32
  let v894 : Index := Scalar.indexCast c3_i32_739
  let c8_i32_737 : BitVec 32 := 8#32
  let v892 : BitVec 32 := Scalar.remsi v891 c8_i32_737
  let v895 : Index := Scalar.indexCast v892
  let c0_740 : Index := 0#32
  ![0, 3, v895.toNat, 0]

def k0_off85 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_741 : BitVec 32 := 3#32
  let v898 : BitVec 32 := Scalar.addi v817 c3_i32_741
  let v899 : Index := Scalar.indexCast v898
  let c0_742 : Index := 0#32
  ![v899.toNat, 0]
def k0_off86 (v891 : BitVec 32) : Fin 4 → Nat :=
  let c0_i32_743 : BitVec 32 := 0#32
  let v903 : Index := Scalar.indexCast c0_i32_743
  let c3_i32_744 : BitVec 32 := 3#32
  let v904 : Index := Scalar.indexCast c3_i32_744
  let c8_i32_737 : BitVec 32 := 8#32
  let v892 : BitVec 32 := Scalar.remsi v891 c8_i32_737
  let v905 : Index := Scalar.indexCast v892
  let c16_745 : Index := 16#32
  ![0, 3, v905.toNat, 16]

def k0_chk52 (v891 : BitVec 32) : Prop :=
  (∀ a, (k0_off84 v891) a + S1x1x1x16.size a ≤ S2x16x8x32.size a) ∧
  (∀ a, (k0_off86 v891) a + S1x1x1x16.size a ≤ S2x16x8x32.size a)
instance k0_chk52.dec : ∀ (v891 : BitVec 32), Decidable (k0_chk52 v891) := fun v891 => decidable_of_iff' _ (Iff.of_eq (k0_chk52.eq_1 v891))
theorem k0_off84_inb : ∀ (v891 : BitVec 32) (k0_hw52 : k0_chk52 v891), ∀ a, (k0_off84 v891) a + S1x1x1x16.size a ≤ S2x16x8x32.size a := fun v891 k0_hw52 => k0_hw52.1
theorem k0_off86_inb : ∀ (v891 : BitVec 32) (k0_hw52 : k0_chk52 v891), ∀ a, (k0_off86 v891) a + S1x1x1x16.size a ≤ S2x16x8x32.size a := fun v891 k0_hw52 => k0_hw52.2

def k0_off87 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_746 : BitVec 32 := 3#32
  let v908 : BitVec 32 := Scalar.addi v817 c3_i32_746
  let v909 : Index := Scalar.indexCast v908
  let c16_747 : Index := 16#32
  ![v909.toNat, 16]
def k0_off88 (v914 : BitVec 32) : Fin 4 → Nat :=
  let c0_i32_749 : BitVec 32 := 0#32
  let v916 : Index := Scalar.indexCast c0_i32_749
  let c4_i32_750 : BitVec 32 := 4#32
  let v917 : Index := Scalar.indexCast c4_i32_750
  let c8_i32_748 : BitVec 32 := 8#32
  let v915 : BitVec 32 := Scalar.remsi v914 c8_i32_748
  let v918 : Index := Scalar.indexCast v915
  let c0_751 : Index := 0#32
  ![0, 4, v918.toNat, 0]

def k0_off89 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_752 : BitVec 32 := 4#32
  let v921 : BitVec 32 := Scalar.addi v817 c4_i32_752
  let v922 : Index := Scalar.indexCast v921
  let c0_753 : Index := 0#32
  ![v922.toNat, 0]
def k0_off90 (v914 : BitVec 32) : Fin 4 → Nat :=
  let c0_i32_754 : BitVec 32 := 0#32
  let v926 : Index := Scalar.indexCast c0_i32_754
  let c4_i32_755 : BitVec 32 := 4#32
  let v927 : Index := Scalar.indexCast c4_i32_755
  let c8_i32_748 : BitVec 32 := 8#32
  let v915 : BitVec 32 := Scalar.remsi v914 c8_i32_748
  let v928 : Index := Scalar.indexCast v915
  let c16_756 : Index := 16#32
  ![0, 4, v928.toNat, 16]

def k0_chk53 (v914 : BitVec 32) : Prop :=
  (∀ a, (k0_off88 v914) a + S1x1x1x16.size a ≤ S2x16x8x32.size a) ∧
  (∀ a, (k0_off90 v914) a + S1x1x1x16.size a ≤ S2x16x8x32.size a)
instance k0_chk53.dec : ∀ (v914 : BitVec 32), Decidable (k0_chk53 v914) := fun v914 => decidable_of_iff' _ (Iff.of_eq (k0_chk53.eq_1 v914))
theorem k0_off88_inb : ∀ (v914 : BitVec 32) (k0_hw53 : k0_chk53 v914), ∀ a, (k0_off88 v914) a + S1x1x1x16.size a ≤ S2x16x8x32.size a := fun v914 k0_hw53 => k0_hw53.1
theorem k0_off90_inb : ∀ (v914 : BitVec 32) (k0_hw53 : k0_chk53 v914), ∀ a, (k0_off90 v914) a + S1x1x1x16.size a ≤ S2x16x8x32.size a := fun v914 k0_hw53 => k0_hw53.2

def k0_off91 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_757 : BitVec 32 := 4#32
  let v931 : BitVec 32 := Scalar.addi v817 c4_i32_757
  let v932 : Index := Scalar.indexCast v931
  let c16_758 : Index := 16#32
  ![v932.toNat, 16]
def k0_off92 (v937 : BitVec 32) : Fin 4 → Nat :=
  let c0_i32_760 : BitVec 32 := 0#32
  let v939 : Index := Scalar.indexCast c0_i32_760
  let c5_i32_761 : BitVec 32 := 5#32
  let v940 : Index := Scalar.indexCast c5_i32_761
  let c8_i32_759 : BitVec 32 := 8#32
  let v938 : BitVec 32 := Scalar.remsi v937 c8_i32_759
  let v941 : Index := Scalar.indexCast v938
  let c0_762 : Index := 0#32
  ![0, 5, v941.toNat, 0]

def k0_off93 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_763 : BitVec 32 := 5#32
  let v944 : BitVec 32 := Scalar.addi v817 c5_i32_763
  let v945 : Index := Scalar.indexCast v944
  let c0_764 : Index := 0#32
  ![v945.toNat, 0]
def k0_off94 (v937 : BitVec 32) : Fin 4 → Nat :=
  let c0_i32_765 : BitVec 32 := 0#32
  let v949 : Index := Scalar.indexCast c0_i32_765
  let c5_i32_766 : BitVec 32 := 5#32
  let v950 : Index := Scalar.indexCast c5_i32_766
  let c8_i32_759 : BitVec 32 := 8#32
  let v938 : BitVec 32 := Scalar.remsi v937 c8_i32_759
  let v951 : Index := Scalar.indexCast v938
  let c16_767 : Index := 16#32
  ![0, 5, v951.toNat, 16]

def k0_chk54 (v937 : BitVec 32) : Prop :=
  (∀ a, (k0_off92 v937) a + S1x1x1x16.size a ≤ S2x16x8x32.size a) ∧
  (∀ a, (k0_off94 v937) a + S1x1x1x16.size a ≤ S2x16x8x32.size a)
instance k0_chk54.dec : ∀ (v937 : BitVec 32), Decidable (k0_chk54 v937) := fun v937 => decidable_of_iff' _ (Iff.of_eq (k0_chk54.eq_1 v937))
theorem k0_off92_inb : ∀ (v937 : BitVec 32) (k0_hw54 : k0_chk54 v937), ∀ a, (k0_off92 v937) a + S1x1x1x16.size a ≤ S2x16x8x32.size a := fun v937 k0_hw54 => k0_hw54.1
theorem k0_off94_inb : ∀ (v937 : BitVec 32) (k0_hw54 : k0_chk54 v937), ∀ a, (k0_off94 v937) a + S1x1x1x16.size a ≤ S2x16x8x32.size a := fun v937 k0_hw54 => k0_hw54.2

def k0_off95 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_768 : BitVec 32 := 5#32
  let v954 : BitVec 32 := Scalar.addi v817 c5_i32_768
  let v955 : Index := Scalar.indexCast v954
  let c16_769 : Index := 16#32
  ![v955.toNat, 16]
def k0_off96 (v960 : BitVec 32) : Fin 4 → Nat :=
  let c0_i32_771 : BitVec 32 := 0#32
  let v962 : Index := Scalar.indexCast c0_i32_771
  let c6_i32_772 : BitVec 32 := 6#32
  let v963 : Index := Scalar.indexCast c6_i32_772
  let c8_i32_770 : BitVec 32 := 8#32
  let v961 : BitVec 32 := Scalar.remsi v960 c8_i32_770
  let v964 : Index := Scalar.indexCast v961
  let c0_773 : Index := 0#32
  ![0, 6, v964.toNat, 0]

def k0_off97 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_774 : BitVec 32 := 6#32
  let v967 : BitVec 32 := Scalar.addi v817 c6_i32_774
  let v968 : Index := Scalar.indexCast v967
  let c0_775 : Index := 0#32
  ![v968.toNat, 0]
def k0_off98 (v960 : BitVec 32) : Fin 4 → Nat :=
  let c0_i32_776 : BitVec 32 := 0#32
  let v972 : Index := Scalar.indexCast c0_i32_776
  let c6_i32_777 : BitVec 32 := 6#32
  let v973 : Index := Scalar.indexCast c6_i32_777
  let c8_i32_770 : BitVec 32 := 8#32
  let v961 : BitVec 32 := Scalar.remsi v960 c8_i32_770
  let v974 : Index := Scalar.indexCast v961
  let c16_778 : Index := 16#32
  ![0, 6, v974.toNat, 16]

def k0_chk55 (v960 : BitVec 32) : Prop :=
  (∀ a, (k0_off96 v960) a + S1x1x1x16.size a ≤ S2x16x8x32.size a) ∧
  (∀ a, (k0_off98 v960) a + S1x1x1x16.size a ≤ S2x16x8x32.size a)
instance k0_chk55.dec : ∀ (v960 : BitVec 32), Decidable (k0_chk55 v960) := fun v960 => decidable_of_iff' _ (Iff.of_eq (k0_chk55.eq_1 v960))
theorem k0_off96_inb : ∀ (v960 : BitVec 32) (k0_hw55 : k0_chk55 v960), ∀ a, (k0_off96 v960) a + S1x1x1x16.size a ≤ S2x16x8x32.size a := fun v960 k0_hw55 => k0_hw55.1
theorem k0_off98_inb : ∀ (v960 : BitVec 32) (k0_hw55 : k0_chk55 v960), ∀ a, (k0_off98 v960) a + S1x1x1x16.size a ≤ S2x16x8x32.size a := fun v960 k0_hw55 => k0_hw55.2

def k0_off99 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_779 : BitVec 32 := 6#32
  let v977 : BitVec 32 := Scalar.addi v817 c6_i32_779
  let v978 : Index := Scalar.indexCast v977
  let c16_780 : Index := 16#32
  ![v978.toNat, 16]
def k0_off100 (v983 : BitVec 32) : Fin 4 → Nat :=
  let c0_i32_782 : BitVec 32 := 0#32
  let v985 : Index := Scalar.indexCast c0_i32_782
  let c7_i32_783 : BitVec 32 := 7#32
  let v986 : Index := Scalar.indexCast c7_i32_783
  let c8_i32_781 : BitVec 32 := 8#32
  let v984 : BitVec 32 := Scalar.remsi v983 c8_i32_781
  let v987 : Index := Scalar.indexCast v984
  let c0_784 : Index := 0#32
  ![0, 7, v987.toNat, 0]

def k0_off101 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_785 : BitVec 32 := 7#32
  let v990 : BitVec 32 := Scalar.addi v817 c7_i32_785
  let v991 : Index := Scalar.indexCast v990
  let c0_786 : Index := 0#32
  ![v991.toNat, 0]
def k0_off102 (v983 : BitVec 32) : Fin 4 → Nat :=
  let c0_i32_787 : BitVec 32 := 0#32
  let v995 : Index := Scalar.indexCast c0_i32_787
  let c7_i32_788 : BitVec 32 := 7#32
  let v996 : Index := Scalar.indexCast c7_i32_788
  let c8_i32_781 : BitVec 32 := 8#32
  let v984 : BitVec 32 := Scalar.remsi v983 c8_i32_781
  let v997 : Index := Scalar.indexCast v984
  let c16_789 : Index := 16#32
  ![0, 7, v997.toNat, 16]

def k0_chk56 (v983 : BitVec 32) : Prop :=
  (∀ a, (k0_off100 v983) a + S1x1x1x16.size a ≤ S2x16x8x32.size a) ∧
  (∀ a, (k0_off102 v983) a + S1x1x1x16.size a ≤ S2x16x8x32.size a)
instance k0_chk56.dec : ∀ (v983 : BitVec 32), Decidable (k0_chk56 v983) := fun v983 => decidable_of_iff' _ (Iff.of_eq (k0_chk56.eq_1 v983))
theorem k0_off100_inb : ∀ (v983 : BitVec 32) (k0_hw56 : k0_chk56 v983), ∀ a, (k0_off100 v983) a + S1x1x1x16.size a ≤ S2x16x8x32.size a := fun v983 k0_hw56 => k0_hw56.1
theorem k0_off102_inb : ∀ (v983 : BitVec 32) (k0_hw56 : k0_chk56 v983), ∀ a, (k0_off102 v983) a + S1x1x1x16.size a ≤ S2x16x8x32.size a := fun v983 k0_hw56 => k0_hw56.2

def k0_off103 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_790 : BitVec 32 := 7#32
  let v1000 : BitVec 32 := Scalar.addi v817 c7_i32_790
  let v1001 : Index := Scalar.indexCast v1000
  let c16_791 : Index := 16#32
  ![v1001.toNat, 16]
def k0_off104 (v1006 : BitVec 32) : Fin 4 → Nat :=
  let c0_i32_793 : BitVec 32 := 0#32
  let v1008 : Index := Scalar.indexCast c0_i32_793
  let c8_i32_794 : BitVec 32 := 8#32
  let v1009 : Index := Scalar.indexCast c8_i32_794
  let c8_i32_792 : BitVec 32 := 8#32
  let v1007 : BitVec 32 := Scalar.remsi v1006 c8_i32_792
  let v1010 : Index := Scalar.indexCast v1007
  let c0_795 : Index := 0#32
  ![0, 8, v1010.toNat, 0]

def k0_off105 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_796 : BitVec 32 := 8#32
  let v1013 : BitVec 32 := Scalar.addi v817 c8_i32_796
  let v1014 : Index := Scalar.indexCast v1013
  let c0_797 : Index := 0#32
  ![v1014.toNat, 0]
def k0_off106 (v1006 : BitVec 32) : Fin 4 → Nat :=
  let c0_i32_798 : BitVec 32 := 0#32
  let v1018 : Index := Scalar.indexCast c0_i32_798
  let c8_i32_799 : BitVec 32 := 8#32
  let v1019 : Index := Scalar.indexCast c8_i32_799
  let c8_i32_792 : BitVec 32 := 8#32
  let v1007 : BitVec 32 := Scalar.remsi v1006 c8_i32_792
  let v1020 : Index := Scalar.indexCast v1007
  let c16_800 : Index := 16#32
  ![0, 8, v1020.toNat, 16]

def k0_chk57 (v1006 : BitVec 32) : Prop :=
  (∀ a, (k0_off104 v1006) a + S1x1x1x16.size a ≤ S2x16x8x32.size a) ∧
  (∀ a, (k0_off106 v1006) a + S1x1x1x16.size a ≤ S2x16x8x32.size a)
instance k0_chk57.dec : ∀ (v1006 : BitVec 32), Decidable (k0_chk57 v1006) := fun v1006 => decidable_of_iff' _ (Iff.of_eq (k0_chk57.eq_1 v1006))
theorem k0_off104_inb : ∀ (v1006 : BitVec 32) (k0_hw57 : k0_chk57 v1006), ∀ a, (k0_off104 v1006) a + S1x1x1x16.size a ≤ S2x16x8x32.size a := fun v1006 k0_hw57 => k0_hw57.1
theorem k0_off106_inb : ∀ (v1006 : BitVec 32) (k0_hw57 : k0_chk57 v1006), ∀ a, (k0_off106 v1006) a + S1x1x1x16.size a ≤ S2x16x8x32.size a := fun v1006 k0_hw57 => k0_hw57.2

def k0_off107 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_801 : BitVec 32 := 8#32
  let v1023 : BitVec 32 := Scalar.addi v817 c8_i32_801
  let v1024 : Index := Scalar.indexCast v1023
  let c16_802 : Index := 16#32
  ![v1024.toNat, 16]
def k0_off108 (v1029 : BitVec 32) : Fin 4 → Nat :=
  let c0_i32_804 : BitVec 32 := 0#32
  let v1031 : Index := Scalar.indexCast c0_i32_804
  let c9_i32_805 : BitVec 32 := 9#32
  let v1032 : Index := Scalar.indexCast c9_i32_805
  let c8_i32_803 : BitVec 32 := 8#32
  let v1030 : BitVec 32 := Scalar.remsi v1029 c8_i32_803
  let v1033 : Index := Scalar.indexCast v1030
  let c0_806 : Index := 0#32
  ![0, 9, v1033.toNat, 0]

def k0_off109 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_807 : BitVec 32 := 9#32
  let v1036 : BitVec 32 := Scalar.addi v817 c9_i32_807
  let v1037 : Index := Scalar.indexCast v1036
  let c0_808 : Index := 0#32
  ![v1037.toNat, 0]
def k0_off110 (v1029 : BitVec 32) : Fin 4 → Nat :=
  let c0_i32_809 : BitVec 32 := 0#32
  let v1041 : Index := Scalar.indexCast c0_i32_809
  let c9_i32_810 : BitVec 32 := 9#32
  let v1042 : Index := Scalar.indexCast c9_i32_810
  let c8_i32_803 : BitVec 32 := 8#32
  let v1030 : BitVec 32 := Scalar.remsi v1029 c8_i32_803
  let v1043 : Index := Scalar.indexCast v1030
  let c16_811 : Index := 16#32
  ![0, 9, v1043.toNat, 16]

def k0_chk58 (v1029 : BitVec 32) : Prop :=
  (∀ a, (k0_off108 v1029) a + S1x1x1x16.size a ≤ S2x16x8x32.size a) ∧
  (∀ a, (k0_off110 v1029) a + S1x1x1x16.size a ≤ S2x16x8x32.size a)
instance k0_chk58.dec : ∀ (v1029 : BitVec 32), Decidable (k0_chk58 v1029) := fun v1029 => decidable_of_iff' _ (Iff.of_eq (k0_chk58.eq_1 v1029))
theorem k0_off108_inb : ∀ (v1029 : BitVec 32) (k0_hw58 : k0_chk58 v1029), ∀ a, (k0_off108 v1029) a + S1x1x1x16.size a ≤ S2x16x8x32.size a := fun v1029 k0_hw58 => k0_hw58.1
theorem k0_off110_inb : ∀ (v1029 : BitVec 32) (k0_hw58 : k0_chk58 v1029), ∀ a, (k0_off110 v1029) a + S1x1x1x16.size a ≤ S2x16x8x32.size a := fun v1029 k0_hw58 => k0_hw58.2

def k0_off111 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_812 : BitVec 32 := 9#32
  let v1046 : BitVec 32 := Scalar.addi v817 c9_i32_812
  let v1047 : Index := Scalar.indexCast v1046
  let c16_813 : Index := 16#32
  ![v1047.toNat, 16]
def k0_off112 (v1052 : BitVec 32) : Fin 4 → Nat :=
  let c0_i32_815 : BitVec 32 := 0#32
  let v1054 : Index := Scalar.indexCast c0_i32_815
  let c10_i32_816 : BitVec 32 := 10#32
  let v1055 : Index := Scalar.indexCast c10_i32_816
  let c8_i32_814 : BitVec 32 := 8#32
  let v1053 : BitVec 32 := Scalar.remsi v1052 c8_i32_814
  let v1056 : Index := Scalar.indexCast v1053
  let c0_817 : Index := 0#32
  ![0, 10, v1056.toNat, 0]

def k0_off113 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_818 : BitVec 32 := 10#32
  let v1059 : BitVec 32 := Scalar.addi v817 c10_i32_818
  let v1060 : Index := Scalar.indexCast v1059
  let c0_819 : Index := 0#32
  ![v1060.toNat, 0]
def k0_off114 (v1052 : BitVec 32) : Fin 4 → Nat :=
  let c0_i32_820 : BitVec 32 := 0#32
  let v1064 : Index := Scalar.indexCast c0_i32_820
  let c10_i32_821 : BitVec 32 := 10#32
  let v1065 : Index := Scalar.indexCast c10_i32_821
  let c8_i32_814 : BitVec 32 := 8#32
  let v1053 : BitVec 32 := Scalar.remsi v1052 c8_i32_814
  let v1066 : Index := Scalar.indexCast v1053
  let c16_822 : Index := 16#32
  ![0, 10, v1066.toNat, 16]

def k0_chk59 (v1052 : BitVec 32) : Prop :=
  (∀ a, (k0_off112 v1052) a + S1x1x1x16.size a ≤ S2x16x8x32.size a) ∧
  (∀ a, (k0_off114 v1052) a + S1x1x1x16.size a ≤ S2x16x8x32.size a)
instance k0_chk59.dec : ∀ (v1052 : BitVec 32), Decidable (k0_chk59 v1052) := fun v1052 => decidable_of_iff' _ (Iff.of_eq (k0_chk59.eq_1 v1052))
theorem k0_off112_inb : ∀ (v1052 : BitVec 32) (k0_hw59 : k0_chk59 v1052), ∀ a, (k0_off112 v1052) a + S1x1x1x16.size a ≤ S2x16x8x32.size a := fun v1052 k0_hw59 => k0_hw59.1
theorem k0_off114_inb : ∀ (v1052 : BitVec 32) (k0_hw59 : k0_chk59 v1052), ∀ a, (k0_off114 v1052) a + S1x1x1x16.size a ≤ S2x16x8x32.size a := fun v1052 k0_hw59 => k0_hw59.2

def k0_off115 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_823 : BitVec 32 := 10#32
  let v1069 : BitVec 32 := Scalar.addi v817 c10_i32_823
  let v1070 : Index := Scalar.indexCast v1069
  let c16_824 : Index := 16#32
  ![v1070.toNat, 16]
def k0_off116 (v1075 : BitVec 32) : Fin 4 → Nat :=
  let c0_i32_826 : BitVec 32 := 0#32
  let v1077 : Index := Scalar.indexCast c0_i32_826
  let c11_i32_827 : BitVec 32 := 11#32
  let v1078 : Index := Scalar.indexCast c11_i32_827
  let c8_i32_825 : BitVec 32 := 8#32
  let v1076 : BitVec 32 := Scalar.remsi v1075 c8_i32_825
  let v1079 : Index := Scalar.indexCast v1076
  let c0_828 : Index := 0#32
  ![0, 11, v1079.toNat, 0]

def k0_off117 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_829 : BitVec 32 := 11#32
  let v1082 : BitVec 32 := Scalar.addi v817 c11_i32_829
  let v1083 : Index := Scalar.indexCast v1082
  let c0_830 : Index := 0#32
  ![v1083.toNat, 0]
def k0_off118 (v1075 : BitVec 32) : Fin 4 → Nat :=
  let c0_i32_831 : BitVec 32 := 0#32
  let v1087 : Index := Scalar.indexCast c0_i32_831
  let c11_i32_832 : BitVec 32 := 11#32
  let v1088 : Index := Scalar.indexCast c11_i32_832
  let c8_i32_825 : BitVec 32 := 8#32
  let v1076 : BitVec 32 := Scalar.remsi v1075 c8_i32_825
  let v1089 : Index := Scalar.indexCast v1076
  let c16_833 : Index := 16#32
  ![0, 11, v1089.toNat, 16]

def k0_chk60 (v1075 : BitVec 32) : Prop :=
  (∀ a, (k0_off116 v1075) a + S1x1x1x16.size a ≤ S2x16x8x32.size a) ∧
  (∀ a, (k0_off118 v1075) a + S1x1x1x16.size a ≤ S2x16x8x32.size a)
instance k0_chk60.dec : ∀ (v1075 : BitVec 32), Decidable (k0_chk60 v1075) := fun v1075 => decidable_of_iff' _ (Iff.of_eq (k0_chk60.eq_1 v1075))
theorem k0_off116_inb : ∀ (v1075 : BitVec 32) (k0_hw60 : k0_chk60 v1075), ∀ a, (k0_off116 v1075) a + S1x1x1x16.size a ≤ S2x16x8x32.size a := fun v1075 k0_hw60 => k0_hw60.1
theorem k0_off118_inb : ∀ (v1075 : BitVec 32) (k0_hw60 : k0_chk60 v1075), ∀ a, (k0_off118 v1075) a + S1x1x1x16.size a ≤ S2x16x8x32.size a := fun v1075 k0_hw60 => k0_hw60.2

def k0_off119 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_834 : BitVec 32 := 11#32
  let v1092 : BitVec 32 := Scalar.addi v817 c11_i32_834
  let v1093 : Index := Scalar.indexCast v1092
  let c16_835 : Index := 16#32
  ![v1093.toNat, 16]
def k0_off120 (v1098 : BitVec 32) : Fin 4 → Nat :=
  let c0_i32_837 : BitVec 32 := 0#32
  let v1100 : Index := Scalar.indexCast c0_i32_837
  let c12_i32_838 : BitVec 32 := 12#32
  let v1101 : Index := Scalar.indexCast c12_i32_838
  let c8_i32_836 : BitVec 32 := 8#32
  let v1099 : BitVec 32 := Scalar.remsi v1098 c8_i32_836
  let v1102 : Index := Scalar.indexCast v1099
  let c0_839 : Index := 0#32
  ![0, 12, v1102.toNat, 0]

def k0_off121 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_840 : BitVec 32 := 12#32
  let v1105 : BitVec 32 := Scalar.addi v817 c12_i32_840
  let v1106 : Index := Scalar.indexCast v1105
  let c0_841 : Index := 0#32
  ![v1106.toNat, 0]
def k0_off122 (v1098 : BitVec 32) : Fin 4 → Nat :=
  let c0_i32_842 : BitVec 32 := 0#32
  let v1110 : Index := Scalar.indexCast c0_i32_842
  let c12_i32_843 : BitVec 32 := 12#32
  let v1111 : Index := Scalar.indexCast c12_i32_843
  let c8_i32_836 : BitVec 32 := 8#32
  let v1099 : BitVec 32 := Scalar.remsi v1098 c8_i32_836
  let v1112 : Index := Scalar.indexCast v1099
  let c16_844 : Index := 16#32
  ![0, 12, v1112.toNat, 16]

def k0_chk61 (v1098 : BitVec 32) : Prop :=
  (∀ a, (k0_off120 v1098) a + S1x1x1x16.size a ≤ S2x16x8x32.size a) ∧
  (∀ a, (k0_off122 v1098) a + S1x1x1x16.size a ≤ S2x16x8x32.size a)
instance k0_chk61.dec : ∀ (v1098 : BitVec 32), Decidable (k0_chk61 v1098) := fun v1098 => decidable_of_iff' _ (Iff.of_eq (k0_chk61.eq_1 v1098))
theorem k0_off120_inb : ∀ (v1098 : BitVec 32) (k0_hw61 : k0_chk61 v1098), ∀ a, (k0_off120 v1098) a + S1x1x1x16.size a ≤ S2x16x8x32.size a := fun v1098 k0_hw61 => k0_hw61.1
theorem k0_off122_inb : ∀ (v1098 : BitVec 32) (k0_hw61 : k0_chk61 v1098), ∀ a, (k0_off122 v1098) a + S1x1x1x16.size a ≤ S2x16x8x32.size a := fun v1098 k0_hw61 => k0_hw61.2

def k0_off123 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_845 : BitVec 32 := 12#32
  let v1115 : BitVec 32 := Scalar.addi v817 c12_i32_845
  let v1116 : Index := Scalar.indexCast v1115
  let c16_846 : Index := 16#32
  ![v1116.toNat, 16]
def k0_off124 (v1121 : BitVec 32) : Fin 4 → Nat :=
  let c0_i32_848 : BitVec 32 := 0#32
  let v1123 : Index := Scalar.indexCast c0_i32_848
  let c13_i32_849 : BitVec 32 := 13#32
  let v1124 : Index := Scalar.indexCast c13_i32_849
  let c8_i32_847 : BitVec 32 := 8#32
  let v1122 : BitVec 32 := Scalar.remsi v1121 c8_i32_847
  let v1125 : Index := Scalar.indexCast v1122
  let c0_850 : Index := 0#32
  ![0, 13, v1125.toNat, 0]

def k0_off125 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_851 : BitVec 32 := 13#32
  let v1128 : BitVec 32 := Scalar.addi v817 c13_i32_851
  let v1129 : Index := Scalar.indexCast v1128
  let c0_852 : Index := 0#32
  ![v1129.toNat, 0]
def k0_off126 (v1121 : BitVec 32) : Fin 4 → Nat :=
  let c0_i32_853 : BitVec 32 := 0#32
  let v1133 : Index := Scalar.indexCast c0_i32_853
  let c13_i32_854 : BitVec 32 := 13#32
  let v1134 : Index := Scalar.indexCast c13_i32_854
  let c8_i32_847 : BitVec 32 := 8#32
  let v1122 : BitVec 32 := Scalar.remsi v1121 c8_i32_847
  let v1135 : Index := Scalar.indexCast v1122
  let c16_855 : Index := 16#32
  ![0, 13, v1135.toNat, 16]

def k0_chk62 (v1121 : BitVec 32) : Prop :=
  (∀ a, (k0_off124 v1121) a + S1x1x1x16.size a ≤ S2x16x8x32.size a) ∧
  (∀ a, (k0_off126 v1121) a + S1x1x1x16.size a ≤ S2x16x8x32.size a)
instance k0_chk62.dec : ∀ (v1121 : BitVec 32), Decidable (k0_chk62 v1121) := fun v1121 => decidable_of_iff' _ (Iff.of_eq (k0_chk62.eq_1 v1121))
theorem k0_off124_inb : ∀ (v1121 : BitVec 32) (k0_hw62 : k0_chk62 v1121), ∀ a, (k0_off124 v1121) a + S1x1x1x16.size a ≤ S2x16x8x32.size a := fun v1121 k0_hw62 => k0_hw62.1
theorem k0_off126_inb : ∀ (v1121 : BitVec 32) (k0_hw62 : k0_chk62 v1121), ∀ a, (k0_off126 v1121) a + S1x1x1x16.size a ≤ S2x16x8x32.size a := fun v1121 k0_hw62 => k0_hw62.2

def k0_off127 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_856 : BitVec 32 := 13#32
  let v1138 : BitVec 32 := Scalar.addi v817 c13_i32_856
  let v1139 : Index := Scalar.indexCast v1138
  let c16_857 : Index := 16#32
  ![v1139.toNat, 16]
def k0_off128 (v1144 : BitVec 32) : Fin 4 → Nat :=
  let c0_i32_859 : BitVec 32 := 0#32
  let v1146 : Index := Scalar.indexCast c0_i32_859
  let c14_i32_860 : BitVec 32 := 14#32
  let v1147 : Index := Scalar.indexCast c14_i32_860
  let c8_i32_858 : BitVec 32 := 8#32
  let v1145 : BitVec 32 := Scalar.remsi v1144 c8_i32_858
  let v1148 : Index := Scalar.indexCast v1145
  let c0_861 : Index := 0#32
  ![0, 14, v1148.toNat, 0]

def k0_off129 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_862 : BitVec 32 := 14#32
  let v1151 : BitVec 32 := Scalar.addi v817 c14_i32_862
  let v1152 : Index := Scalar.indexCast v1151
  let c0_863 : Index := 0#32
  ![v1152.toNat, 0]
def k0_off130 (v1144 : BitVec 32) : Fin 4 → Nat :=
  let c0_i32_864 : BitVec 32 := 0#32
  let v1156 : Index := Scalar.indexCast c0_i32_864
  let c14_i32_865 : BitVec 32 := 14#32
  let v1157 : Index := Scalar.indexCast c14_i32_865
  let c8_i32_858 : BitVec 32 := 8#32
  let v1145 : BitVec 32 := Scalar.remsi v1144 c8_i32_858
  let v1158 : Index := Scalar.indexCast v1145
  let c16_866 : Index := 16#32
  ![0, 14, v1158.toNat, 16]

def k0_chk63 (v1144 : BitVec 32) : Prop :=
  (∀ a, (k0_off128 v1144) a + S1x1x1x16.size a ≤ S2x16x8x32.size a) ∧
  (∀ a, (k0_off130 v1144) a + S1x1x1x16.size a ≤ S2x16x8x32.size a)
instance k0_chk63.dec : ∀ (v1144 : BitVec 32), Decidable (k0_chk63 v1144) := fun v1144 => decidable_of_iff' _ (Iff.of_eq (k0_chk63.eq_1 v1144))
theorem k0_off128_inb : ∀ (v1144 : BitVec 32) (k0_hw63 : k0_chk63 v1144), ∀ a, (k0_off128 v1144) a + S1x1x1x16.size a ≤ S2x16x8x32.size a := fun v1144 k0_hw63 => k0_hw63.1
theorem k0_off130_inb : ∀ (v1144 : BitVec 32) (k0_hw63 : k0_chk63 v1144), ∀ a, (k0_off130 v1144) a + S1x1x1x16.size a ≤ S2x16x8x32.size a := fun v1144 k0_hw63 => k0_hw63.2

def k0_off131 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_867 : BitVec 32 := 14#32
  let v1161 : BitVec 32 := Scalar.addi v817 c14_i32_867
  let v1162 : Index := Scalar.indexCast v1161
  let c16_868 : Index := 16#32
  ![v1162.toNat, 16]
def k0_off132 (v1167 : BitVec 32) : Fin 4 → Nat :=
  let c0_i32_870 : BitVec 32 := 0#32
  let v1169 : Index := Scalar.indexCast c0_i32_870
  let c15_i32_871 : BitVec 32 := 15#32
  let v1170 : Index := Scalar.indexCast c15_i32_871
  let c8_i32_869 : BitVec 32 := 8#32
  let v1168 : BitVec 32 := Scalar.remsi v1167 c8_i32_869
  let v1171 : Index := Scalar.indexCast v1168
  let c0_872 : Index := 0#32
  ![0, 15, v1171.toNat, 0]

def k0_off133 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_873 : BitVec 32 := 15#32
  let v1174 : BitVec 32 := Scalar.addi v817 c15_i32_873
  let v1175 : Index := Scalar.indexCast v1174
  let c0_874 : Index := 0#32
  ![v1175.toNat, 0]
def k0_off134 (v1167 : BitVec 32) : Fin 4 → Nat :=
  let c0_i32_875 : BitVec 32 := 0#32
  let v1179 : Index := Scalar.indexCast c0_i32_875
  let c15_i32_876 : BitVec 32 := 15#32
  let v1180 : Index := Scalar.indexCast c15_i32_876
  let c8_i32_869 : BitVec 32 := 8#32
  let v1168 : BitVec 32 := Scalar.remsi v1167 c8_i32_869
  let v1181 : Index := Scalar.indexCast v1168
  let c16_877 : Index := 16#32
  ![0, 15, v1181.toNat, 16]

def k0_chk64 (v1167 : BitVec 32) : Prop :=
  (∀ a, (k0_off132 v1167) a + S1x1x1x16.size a ≤ S2x16x8x32.size a) ∧
  (∀ a, (k0_off134 v1167) a + S1x1x1x16.size a ≤ S2x16x8x32.size a)
instance k0_chk64.dec : ∀ (v1167 : BitVec 32), Decidable (k0_chk64 v1167) := fun v1167 => decidable_of_iff' _ (Iff.of_eq (k0_chk64.eq_1 v1167))
theorem k0_off132_inb : ∀ (v1167 : BitVec 32) (k0_hw64 : k0_chk64 v1167), ∀ a, (k0_off132 v1167) a + S1x1x1x16.size a ≤ S2x16x8x32.size a := fun v1167 k0_hw64 => k0_hw64.1
theorem k0_off134_inb : ∀ (v1167 : BitVec 32) (k0_hw64 : k0_chk64 v1167), ∀ a, (k0_off134 v1167) a + S1x1x1x16.size a ≤ S2x16x8x32.size a := fun v1167 k0_hw64 => k0_hw64.2

def k0_off135 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_878 : BitVec 32 := 15#32
  let v1184 : BitVec 32 := Scalar.addi v817 c15_i32_878
  let v1185 : Index := Scalar.indexCast v1184
  let c16_879 : Index := 16#32
  ![v1185.toNat, 16]
def k0_cond1 (k0_t3 : Fin k0_t3_loop.trips) : BitVec 1 :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_880 : BitVec 32 := 1#32
  let v1189 : BitVec 32 := Scalar.addi v612 c1_i32_880
  let c16_i32_881 : BitVec 32 := 16#32
  let v1190 : BitVec 1 := Scalar.cmpi .slt v1189 c16_i32_881
  let v1191 : BitVec 32 := Scalar.extui v1190
  let c0_i32_882 : BitVec 32 := 0#32
  let v1192 : BitVec 1 := Scalar.cmpi .ne v1191 c0_i32_882
  v1192

def k0_off136 (k0_t3 : Fin k0_t3_loop.trips) : Fin 1 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_1073 : BitVec 32 := 1#32
  let v1573 : BitVec 32 := Scalar.addi v612 c1_i32_1073
  let c16_i32_1074 : BitVec 32 := 16#32
  let v1574 : BitVec 32 := Scalar.muli v1573 c16_i32_1074
  let v1575 : Index := Scalar.indexCast v1574
  ![v1575.toNat]
def k0_off137 (v1579 : BitVec 32) : Fin 3 → Nat :=
  let c0_i32_1079 : BitVec 32 := 0#32
  let c0_i32_1080 : BitVec 32 := 0#32
  ![v1579.toNat, 0, 0]

def k0_chk65 (k0_t3 : Fin k0_t3_loop.trips) (v1579 : BitVec 32) : Prop :=
  (∀ (k0_h1 : k0_cond1 k0_t3 = 1#1), ∀ a, (k0_off137 v1579) a + S1x8x32.size a ≤ S125000x8x32.size a)
instance k0_chk65.dec : ∀ (k0_t3 : Fin k0_t3_loop.trips) (v1579 : BitVec 32), Decidable (k0_chk65 k0_t3 v1579) := fun k0_t3 v1579 => decidable_of_iff' _ (Iff.of_eq (k0_chk65.eq_1 k0_t3 v1579))
theorem k0_off137_inb : ∀ (k0_t3 : Fin k0_t3_loop.trips) (v1579 : BitVec 32) (k0_hw65 : k0_chk65 k0_t3 v1579), ∀ (k0_h1 : k0_cond1 k0_t3 = 1#1), ∀ a, (k0_off137 v1579) a + S1x8x32.size a ≤ S125000x8x32.size a := fun k0_t3 v1579 k0_hw65 k0_h1 => k0_hw65 k0_h1

def k0_off138 (v1591 : BitVec 32) : Fin 3 → Nat :=
  let c0_i32_1089 : BitVec 32 := 0#32
  let c0_i32_1090 : BitVec 32 := 0#32
  ![v1591.toNat, 0, 0]

def k0_chk66 (k0_t3 : Fin k0_t3_loop.trips) (v1591 : BitVec 32) : Prop :=
  (∀ (k0_h1 : k0_cond1 k0_t3 = 1#1), ∀ a, (k0_off138 v1591) a + S1x8x32.size a ≤ S125000x8x32.size a)
instance k0_chk66.dec : ∀ (k0_t3 : Fin k0_t3_loop.trips) (v1591 : BitVec 32), Decidable (k0_chk66 k0_t3 v1591) := fun k0_t3 v1591 => decidable_of_iff' _ (Iff.of_eq (k0_chk66.eq_1 k0_t3 v1591))
theorem k0_off138_inb : ∀ (k0_t3 : Fin k0_t3_loop.trips) (v1591 : BitVec 32) (k0_hw66 : k0_chk66 k0_t3 v1591), ∀ (k0_h1 : k0_cond1 k0_t3 = 1#1), ∀ a, (k0_off138 v1591) a + S1x8x32.size a ≤ S125000x8x32.size a := fun k0_t3 v1591 k0_hw66 k0_h1 => k0_hw66 k0_h1

def k0_off139 (v1603 : BitVec 32) : Fin 3 → Nat :=
  let c0_i32_1099 : BitVec 32 := 0#32
  let c0_i32_1100 : BitVec 32 := 0#32
  ![v1603.toNat, 0, 0]

def k0_chk67 (k0_t3 : Fin k0_t3_loop.trips) (v1603 : BitVec 32) : Prop :=
  (∀ (k0_h1 : k0_cond1 k0_t3 = 1#1), ∀ a, (k0_off139 v1603) a + S1x8x32.size a ≤ S125000x8x32.size a)
instance k0_chk67.dec : ∀ (k0_t3 : Fin k0_t3_loop.trips) (v1603 : BitVec 32), Decidable (k0_chk67 k0_t3 v1603) := fun k0_t3 v1603 => decidable_of_iff' _ (Iff.of_eq (k0_chk67.eq_1 k0_t3 v1603))
theorem k0_off139_inb : ∀ (k0_t3 : Fin k0_t3_loop.trips) (v1603 : BitVec 32) (k0_hw67 : k0_chk67 k0_t3 v1603), ∀ (k0_h1 : k0_cond1 k0_t3 = 1#1), ∀ a, (k0_off139 v1603) a + S1x8x32.size a ≤ S125000x8x32.size a := fun k0_t3 v1603 k0_hw67 k0_h1 => k0_hw67 k0_h1

def k0_off140 (v1615 : BitVec 32) : Fin 3 → Nat :=
  let c0_i32_1109 : BitVec 32 := 0#32
  let c0_i32_1110 : BitVec 32 := 0#32
  ![v1615.toNat, 0, 0]

def k0_chk68 (k0_t3 : Fin k0_t3_loop.trips) (v1615 : BitVec 32) : Prop :=
  (∀ (k0_h1 : k0_cond1 k0_t3 = 1#1), ∀ a, (k0_off140 v1615) a + S1x8x32.size a ≤ S125000x8x32.size a)
instance k0_chk68.dec : ∀ (k0_t3 : Fin k0_t3_loop.trips) (v1615 : BitVec 32), Decidable (k0_chk68 k0_t3 v1615) := fun k0_t3 v1615 => decidable_of_iff' _ (Iff.of_eq (k0_chk68.eq_1 k0_t3 v1615))
theorem k0_off140_inb : ∀ (k0_t3 : Fin k0_t3_loop.trips) (v1615 : BitVec 32) (k0_hw68 : k0_chk68 k0_t3 v1615), ∀ (k0_h1 : k0_cond1 k0_t3 = 1#1), ∀ a, (k0_off140 v1615) a + S1x8x32.size a ≤ S125000x8x32.size a := fun k0_t3 v1615 k0_hw68 k0_h1 => k0_hw68 k0_h1

def k0_off141 (v1627 : BitVec 32) : Fin 3 → Nat :=
  let c0_i32_1119 : BitVec 32 := 0#32
  let c0_i32_1120 : BitVec 32 := 0#32
  ![v1627.toNat, 0, 0]

def k0_chk69 (k0_t3 : Fin k0_t3_loop.trips) (v1627 : BitVec 32) : Prop :=
  (∀ (k0_h1 : k0_cond1 k0_t3 = 1#1), ∀ a, (k0_off141 v1627) a + S1x8x32.size a ≤ S125000x8x32.size a)
instance k0_chk69.dec : ∀ (k0_t3 : Fin k0_t3_loop.trips) (v1627 : BitVec 32), Decidable (k0_chk69 k0_t3 v1627) := fun k0_t3 v1627 => decidable_of_iff' _ (Iff.of_eq (k0_chk69.eq_1 k0_t3 v1627))
theorem k0_off141_inb : ∀ (k0_t3 : Fin k0_t3_loop.trips) (v1627 : BitVec 32) (k0_hw69 : k0_chk69 k0_t3 v1627), ∀ (k0_h1 : k0_cond1 k0_t3 = 1#1), ∀ a, (k0_off141 v1627) a + S1x8x32.size a ≤ S125000x8x32.size a := fun k0_t3 v1627 k0_hw69 k0_h1 => k0_hw69 k0_h1

def k0_off142 (v1639 : BitVec 32) : Fin 3 → Nat :=
  let c0_i32_1129 : BitVec 32 := 0#32
  let c0_i32_1130 : BitVec 32 := 0#32
  ![v1639.toNat, 0, 0]

def k0_chk70 (k0_t3 : Fin k0_t3_loop.trips) (v1639 : BitVec 32) : Prop :=
  (∀ (k0_h1 : k0_cond1 k0_t3 = 1#1), ∀ a, (k0_off142 v1639) a + S1x8x32.size a ≤ S125000x8x32.size a)
instance k0_chk70.dec : ∀ (k0_t3 : Fin k0_t3_loop.trips) (v1639 : BitVec 32), Decidable (k0_chk70 k0_t3 v1639) := fun k0_t3 v1639 => decidable_of_iff' _ (Iff.of_eq (k0_chk70.eq_1 k0_t3 v1639))
theorem k0_off142_inb : ∀ (k0_t3 : Fin k0_t3_loop.trips) (v1639 : BitVec 32) (k0_hw70 : k0_chk70 k0_t3 v1639), ∀ (k0_h1 : k0_cond1 k0_t3 = 1#1), ∀ a, (k0_off142 v1639) a + S1x8x32.size a ≤ S125000x8x32.size a := fun k0_t3 v1639 k0_hw70 k0_h1 => k0_hw70 k0_h1

def k0_off143 (v1651 : BitVec 32) : Fin 3 → Nat :=
  let c0_i32_1139 : BitVec 32 := 0#32
  let c0_i32_1140 : BitVec 32 := 0#32
  ![v1651.toNat, 0, 0]

def k0_chk71 (k0_t3 : Fin k0_t3_loop.trips) (v1651 : BitVec 32) : Prop :=
  (∀ (k0_h1 : k0_cond1 k0_t3 = 1#1), ∀ a, (k0_off143 v1651) a + S1x8x32.size a ≤ S125000x8x32.size a)
instance k0_chk71.dec : ∀ (k0_t3 : Fin k0_t3_loop.trips) (v1651 : BitVec 32), Decidable (k0_chk71 k0_t3 v1651) := fun k0_t3 v1651 => decidable_of_iff' _ (Iff.of_eq (k0_chk71.eq_1 k0_t3 v1651))
theorem k0_off143_inb : ∀ (k0_t3 : Fin k0_t3_loop.trips) (v1651 : BitVec 32) (k0_hw71 : k0_chk71 k0_t3 v1651), ∀ (k0_h1 : k0_cond1 k0_t3 = 1#1), ∀ a, (k0_off143 v1651) a + S1x8x32.size a ≤ S125000x8x32.size a := fun k0_t3 v1651 k0_hw71 k0_h1 => k0_hw71 k0_h1

def k0_off144 (v1663 : BitVec 32) : Fin 3 → Nat :=
  let c0_i32_1149 : BitVec 32 := 0#32
  let c0_i32_1150 : BitVec 32 := 0#32
  ![v1663.toNat, 0, 0]

def k0_chk72 (k0_t3 : Fin k0_t3_loop.trips) (v1663 : BitVec 32) : Prop :=
  (∀ (k0_h1 : k0_cond1 k0_t3 = 1#1), ∀ a, (k0_off144 v1663) a + S1x8x32.size a ≤ S125000x8x32.size a)
instance k0_chk72.dec : ∀ (k0_t3 : Fin k0_t3_loop.trips) (v1663 : BitVec 32), Decidable (k0_chk72 k0_t3 v1663) := fun k0_t3 v1663 => decidable_of_iff' _ (Iff.of_eq (k0_chk72.eq_1 k0_t3 v1663))
theorem k0_off144_inb : ∀ (k0_t3 : Fin k0_t3_loop.trips) (v1663 : BitVec 32) (k0_hw72 : k0_chk72 k0_t3 v1663), ∀ (k0_h1 : k0_cond1 k0_t3 = 1#1), ∀ a, (k0_off144 v1663) a + S1x8x32.size a ≤ S125000x8x32.size a := fun k0_t3 v1663 k0_hw72 k0_h1 => k0_hw72 k0_h1

def k0_off145 (v1675 : BitVec 32) : Fin 3 → Nat :=
  let c0_i32_1159 : BitVec 32 := 0#32
  let c0_i32_1160 : BitVec 32 := 0#32
  ![v1675.toNat, 0, 0]

def k0_chk73 (k0_t3 : Fin k0_t3_loop.trips) (v1675 : BitVec 32) : Prop :=
  (∀ (k0_h1 : k0_cond1 k0_t3 = 1#1), ∀ a, (k0_off145 v1675) a + S1x8x32.size a ≤ S125000x8x32.size a)
instance k0_chk73.dec : ∀ (k0_t3 : Fin k0_t3_loop.trips) (v1675 : BitVec 32), Decidable (k0_chk73 k0_t3 v1675) := fun k0_t3 v1675 => decidable_of_iff' _ (Iff.of_eq (k0_chk73.eq_1 k0_t3 v1675))
theorem k0_off145_inb : ∀ (k0_t3 : Fin k0_t3_loop.trips) (v1675 : BitVec 32) (k0_hw73 : k0_chk73 k0_t3 v1675), ∀ (k0_h1 : k0_cond1 k0_t3 = 1#1), ∀ a, (k0_off145 v1675) a + S1x8x32.size a ≤ S125000x8x32.size a := fun k0_t3 v1675 k0_hw73 k0_h1 => k0_hw73 k0_h1

def k0_off146 (v1687 : BitVec 32) : Fin 3 → Nat :=
  let c0_i32_1169 : BitVec 32 := 0#32
  let c0_i32_1170 : BitVec 32 := 0#32
  ![v1687.toNat, 0, 0]

def k0_chk74 (k0_t3 : Fin k0_t3_loop.trips) (v1687 : BitVec 32) : Prop :=
  (∀ (k0_h1 : k0_cond1 k0_t3 = 1#1), ∀ a, (k0_off146 v1687) a + S1x8x32.size a ≤ S125000x8x32.size a)
instance k0_chk74.dec : ∀ (k0_t3 : Fin k0_t3_loop.trips) (v1687 : BitVec 32), Decidable (k0_chk74 k0_t3 v1687) := fun k0_t3 v1687 => decidable_of_iff' _ (Iff.of_eq (k0_chk74.eq_1 k0_t3 v1687))
theorem k0_off146_inb : ∀ (k0_t3 : Fin k0_t3_loop.trips) (v1687 : BitVec 32) (k0_hw74 : k0_chk74 k0_t3 v1687), ∀ (k0_h1 : k0_cond1 k0_t3 = 1#1), ∀ a, (k0_off146 v1687) a + S1x8x32.size a ≤ S125000x8x32.size a := fun k0_t3 v1687 k0_hw74 k0_h1 => k0_hw74 k0_h1

def k0_off147 (v1699 : BitVec 32) : Fin 3 → Nat :=
  let c0_i32_1179 : BitVec 32 := 0#32
  let c0_i32_1180 : BitVec 32 := 0#32
  ![v1699.toNat, 0, 0]

def k0_chk75 (k0_t3 : Fin k0_t3_loop.trips) (v1699 : BitVec 32) : Prop :=
  (∀ (k0_h1 : k0_cond1 k0_t3 = 1#1), ∀ a, (k0_off147 v1699) a + S1x8x32.size a ≤ S125000x8x32.size a)
instance k0_chk75.dec : ∀ (k0_t3 : Fin k0_t3_loop.trips) (v1699 : BitVec 32), Decidable (k0_chk75 k0_t3 v1699) := fun k0_t3 v1699 => decidable_of_iff' _ (Iff.of_eq (k0_chk75.eq_1 k0_t3 v1699))
theorem k0_off147_inb : ∀ (k0_t3 : Fin k0_t3_loop.trips) (v1699 : BitVec 32) (k0_hw75 : k0_chk75 k0_t3 v1699), ∀ (k0_h1 : k0_cond1 k0_t3 = 1#1), ∀ a, (k0_off147 v1699) a + S1x8x32.size a ≤ S125000x8x32.size a := fun k0_t3 v1699 k0_hw75 k0_h1 => k0_hw75 k0_h1

def k0_off148 (v1711 : BitVec 32) : Fin 3 → Nat :=
  let c0_i32_1189 : BitVec 32 := 0#32
  let c0_i32_1190 : BitVec 32 := 0#32
  ![v1711.toNat, 0, 0]

def k0_chk76 (k0_t3 : Fin k0_t3_loop.trips) (v1711 : BitVec 32) : Prop :=
  (∀ (k0_h1 : k0_cond1 k0_t3 = 1#1), ∀ a, (k0_off148 v1711) a + S1x8x32.size a ≤ S125000x8x32.size a)
instance k0_chk76.dec : ∀ (k0_t3 : Fin k0_t3_loop.trips) (v1711 : BitVec 32), Decidable (k0_chk76 k0_t3 v1711) := fun k0_t3 v1711 => decidable_of_iff' _ (Iff.of_eq (k0_chk76.eq_1 k0_t3 v1711))
theorem k0_off148_inb : ∀ (k0_t3 : Fin k0_t3_loop.trips) (v1711 : BitVec 32) (k0_hw76 : k0_chk76 k0_t3 v1711), ∀ (k0_h1 : k0_cond1 k0_t3 = 1#1), ∀ a, (k0_off148 v1711) a + S1x8x32.size a ≤ S125000x8x32.size a := fun k0_t3 v1711 k0_hw76 k0_h1 => k0_hw76 k0_h1

def k0_off149 (v1723 : BitVec 32) : Fin 3 → Nat :=
  let c0_i32_1199 : BitVec 32 := 0#32
  let c0_i32_1200 : BitVec 32 := 0#32
  ![v1723.toNat, 0, 0]

def k0_chk77 (k0_t3 : Fin k0_t3_loop.trips) (v1723 : BitVec 32) : Prop :=
  (∀ (k0_h1 : k0_cond1 k0_t3 = 1#1), ∀ a, (k0_off149 v1723) a + S1x8x32.size a ≤ S125000x8x32.size a)
instance k0_chk77.dec : ∀ (k0_t3 : Fin k0_t3_loop.trips) (v1723 : BitVec 32), Decidable (k0_chk77 k0_t3 v1723) := fun k0_t3 v1723 => decidable_of_iff' _ (Iff.of_eq (k0_chk77.eq_1 k0_t3 v1723))
theorem k0_off149_inb : ∀ (k0_t3 : Fin k0_t3_loop.trips) (v1723 : BitVec 32) (k0_hw77 : k0_chk77 k0_t3 v1723), ∀ (k0_h1 : k0_cond1 k0_t3 = 1#1), ∀ a, (k0_off149 v1723) a + S1x8x32.size a ≤ S125000x8x32.size a := fun k0_t3 v1723 k0_hw77 k0_h1 => k0_hw77 k0_h1

def k0_off150 (v1735 : BitVec 32) : Fin 3 → Nat :=
  let c0_i32_1209 : BitVec 32 := 0#32
  let c0_i32_1210 : BitVec 32 := 0#32
  ![v1735.toNat, 0, 0]

def k0_chk78 (k0_t3 : Fin k0_t3_loop.trips) (v1735 : BitVec 32) : Prop :=
  (∀ (k0_h1 : k0_cond1 k0_t3 = 1#1), ∀ a, (k0_off150 v1735) a + S1x8x32.size a ≤ S125000x8x32.size a)
instance k0_chk78.dec : ∀ (k0_t3 : Fin k0_t3_loop.trips) (v1735 : BitVec 32), Decidable (k0_chk78 k0_t3 v1735) := fun k0_t3 v1735 => decidable_of_iff' _ (Iff.of_eq (k0_chk78.eq_1 k0_t3 v1735))
theorem k0_off150_inb : ∀ (k0_t3 : Fin k0_t3_loop.trips) (v1735 : BitVec 32) (k0_hw78 : k0_chk78 k0_t3 v1735), ∀ (k0_h1 : k0_cond1 k0_t3 = 1#1), ∀ a, (k0_off150 v1735) a + S1x8x32.size a ≤ S125000x8x32.size a := fun k0_t3 v1735 k0_hw78 k0_h1 => k0_hw78 k0_h1

def k0_off151 (v1747 : BitVec 32) : Fin 3 → Nat :=
  let c0_i32_1219 : BitVec 32 := 0#32
  let c0_i32_1220 : BitVec 32 := 0#32
  ![v1747.toNat, 0, 0]

def k0_chk79 (k0_t3 : Fin k0_t3_loop.trips) (v1747 : BitVec 32) : Prop :=
  (∀ (k0_h1 : k0_cond1 k0_t3 = 1#1), ∀ a, (k0_off151 v1747) a + S1x8x32.size a ≤ S125000x8x32.size a)
instance k0_chk79.dec : ∀ (k0_t3 : Fin k0_t3_loop.trips) (v1747 : BitVec 32), Decidable (k0_chk79 k0_t3 v1747) := fun k0_t3 v1747 => decidable_of_iff' _ (Iff.of_eq (k0_chk79.eq_1 k0_t3 v1747))
theorem k0_off151_inb : ∀ (k0_t3 : Fin k0_t3_loop.trips) (v1747 : BitVec 32) (k0_hw79 : k0_chk79 k0_t3 v1747), ∀ (k0_h1 : k0_cond1 k0_t3 = 1#1), ∀ a, (k0_off151 v1747) a + S1x8x32.size a ≤ S125000x8x32.size a := fun k0_t3 v1747 k0_hw79 k0_h1 => k0_hw79 k0_h1

def k0_off152 (v1759 : BitVec 32) : Fin 3 → Nat :=
  let c0_i32_1229 : BitVec 32 := 0#32
  let c0_i32_1230 : BitVec 32 := 0#32
  ![v1759.toNat, 0, 0]

def k0_chk80 (k0_t3 : Fin k0_t3_loop.trips) (v1759 : BitVec 32) : Prop :=
  (∀ (k0_h1 : k0_cond1 k0_t3 = 1#1), ∀ a, (k0_off152 v1759) a + S1x8x32.size a ≤ S125000x8x32.size a)
instance k0_chk80.dec : ∀ (k0_t3 : Fin k0_t3_loop.trips) (v1759 : BitVec 32), Decidable (k0_chk80 k0_t3 v1759) := fun k0_t3 v1759 => decidable_of_iff' _ (Iff.of_eq (k0_chk80.eq_1 k0_t3 v1759))
theorem k0_off152_inb : ∀ (k0_t3 : Fin k0_t3_loop.trips) (v1759 : BitVec 32) (k0_hw80 : k0_chk80 k0_t3 v1759), ∀ (k0_h1 : k0_cond1 k0_t3 = 1#1), ∀ a, (k0_off152 v1759) a + S1x8x32.size a ≤ S125000x8x32.size a := fun k0_t3 v1759 k0_hw80 k0_h1 => k0_hw80 k0_h1

def k0_off153 (k0_t3 : Fin k0_t3_loop.trips) : Fin 1 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let v1202 : Index := Scalar.indexCast v1201
  ![v1202.toNat]
def k0_off154 (v1206 : BitVec 32) : Fin 4 → Nat :=
  let c1_i32_898 : BitVec 32 := 1#32
  let v1208 : Index := Scalar.indexCast c1_i32_898
  let c0_i32_899 : BitVec 32 := 0#32
  let v1209 : Index := Scalar.indexCast c0_i32_899
  let c8_i32_897 : BitVec 32 := 8#32
  let v1207 : BitVec 32 := Scalar.remsi v1206 c8_i32_897
  let v1210 : Index := Scalar.indexCast v1207
  let c0_900 : Index := 0#32
  ![1, 0, v1210.toNat, 0]

def k0_off155 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_901 : BitVec 32 := 0#32
  let v1213 : BitVec 32 := Scalar.addi v1201 c0_i32_901
  let v1214 : Index := Scalar.indexCast v1213
  let c0_902 : Index := 0#32
  ![v1214.toNat, 0]
def k0_off156 (v1206 : BitVec 32) : Fin 4 → Nat :=
  let c1_i32_903 : BitVec 32 := 1#32
  let v1218 : Index := Scalar.indexCast c1_i32_903
  let c0_i32_904 : BitVec 32 := 0#32
  let v1219 : Index := Scalar.indexCast c0_i32_904
  let c8_i32_897 : BitVec 32 := 8#32
  let v1207 : BitVec 32 := Scalar.remsi v1206 c8_i32_897
  let v1220 : Index := Scalar.indexCast v1207
  let c16_905 : Index := 16#32
  ![1, 0, v1220.toNat, 16]

def k0_chk81 (v1206 : BitVec 32) : Prop :=
  (∀ a, (k0_off154 v1206) a + S1x1x1x16.size a ≤ S2x16x8x32.size a) ∧
  (∀ a, (k0_off156 v1206) a + S1x1x1x16.size a ≤ S2x16x8x32.size a)
instance k0_chk81.dec : ∀ (v1206 : BitVec 32), Decidable (k0_chk81 v1206) := fun v1206 => decidable_of_iff' _ (Iff.of_eq (k0_chk81.eq_1 v1206))
theorem k0_off154_inb : ∀ (v1206 : BitVec 32) (k0_hw81 : k0_chk81 v1206), ∀ a, (k0_off154 v1206) a + S1x1x1x16.size a ≤ S2x16x8x32.size a := fun v1206 k0_hw81 => k0_hw81.1
theorem k0_off156_inb : ∀ (v1206 : BitVec 32) (k0_hw81 : k0_chk81 v1206), ∀ a, (k0_off156 v1206) a + S1x1x1x16.size a ≤ S2x16x8x32.size a := fun v1206 k0_hw81 => k0_hw81.2

def k0_off157 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_906 : BitVec 32 := 0#32
  let v1223 : BitVec 32 := Scalar.addi v1201 c0_i32_906
  let v1224 : Index := Scalar.indexCast v1223
  let c16_907 : Index := 16#32
  ![v1224.toNat, 16]
def k0_off158 (v1229 : BitVec 32) : Fin 4 → Nat :=
  let c1_i32_909 : BitVec 32 := 1#32
  let v1231 : Index := Scalar.indexCast c1_i32_909
  let c1_i32_910 : BitVec 32 := 1#32
  let v1232 : Index := Scalar.indexCast c1_i32_910
  let c8_i32_908 : BitVec 32 := 8#32
  let v1230 : BitVec 32 := Scalar.remsi v1229 c8_i32_908
  let v1233 : Index := Scalar.indexCast v1230
  let c0_911 : Index := 0#32
  ![1, 1, v1233.toNat, 0]

def k0_off159 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_912 : BitVec 32 := 1#32
  let v1236 : BitVec 32 := Scalar.addi v1201 c1_i32_912
  let v1237 : Index := Scalar.indexCast v1236
  let c0_913 : Index := 0#32
  ![v1237.toNat, 0]
def k0_off160 (v1229 : BitVec 32) : Fin 4 → Nat :=
  let c1_i32_914 : BitVec 32 := 1#32
  let v1241 : Index := Scalar.indexCast c1_i32_914
  let c1_i32_915 : BitVec 32 := 1#32
  let v1242 : Index := Scalar.indexCast c1_i32_915
  let c8_i32_908 : BitVec 32 := 8#32
  let v1230 : BitVec 32 := Scalar.remsi v1229 c8_i32_908
  let v1243 : Index := Scalar.indexCast v1230
  let c16_916 : Index := 16#32
  ![1, 1, v1243.toNat, 16]

def k0_chk82 (v1229 : BitVec 32) : Prop :=
  (∀ a, (k0_off158 v1229) a + S1x1x1x16.size a ≤ S2x16x8x32.size a) ∧
  (∀ a, (k0_off160 v1229) a + S1x1x1x16.size a ≤ S2x16x8x32.size a)
instance k0_chk82.dec : ∀ (v1229 : BitVec 32), Decidable (k0_chk82 v1229) := fun v1229 => decidable_of_iff' _ (Iff.of_eq (k0_chk82.eq_1 v1229))
theorem k0_off158_inb : ∀ (v1229 : BitVec 32) (k0_hw82 : k0_chk82 v1229), ∀ a, (k0_off158 v1229) a + S1x1x1x16.size a ≤ S2x16x8x32.size a := fun v1229 k0_hw82 => k0_hw82.1
theorem k0_off160_inb : ∀ (v1229 : BitVec 32) (k0_hw82 : k0_chk82 v1229), ∀ a, (k0_off160 v1229) a + S1x1x1x16.size a ≤ S2x16x8x32.size a := fun v1229 k0_hw82 => k0_hw82.2

def k0_off161 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_917 : BitVec 32 := 1#32
  let v1246 : BitVec 32 := Scalar.addi v1201 c1_i32_917
  let v1247 : Index := Scalar.indexCast v1246
  let c16_918 : Index := 16#32
  ![v1247.toNat, 16]
def k0_off162 (v1252 : BitVec 32) : Fin 4 → Nat :=
  let c1_i32_920 : BitVec 32 := 1#32
  let v1254 : Index := Scalar.indexCast c1_i32_920
  let c2_i32_921 : BitVec 32 := 2#32
  let v1255 : Index := Scalar.indexCast c2_i32_921
  let c8_i32_919 : BitVec 32 := 8#32
  let v1253 : BitVec 32 := Scalar.remsi v1252 c8_i32_919
  let v1256 : Index := Scalar.indexCast v1253
  let c0_922 : Index := 0#32
  ![1, 2, v1256.toNat, 0]

def k0_off163 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_923 : BitVec 32 := 2#32
  let v1259 : BitVec 32 := Scalar.addi v1201 c2_i32_923
  let v1260 : Index := Scalar.indexCast v1259
  let c0_924 : Index := 0#32
  ![v1260.toNat, 0]
def k0_off164 (v1252 : BitVec 32) : Fin 4 → Nat :=
  let c1_i32_925 : BitVec 32 := 1#32
  let v1264 : Index := Scalar.indexCast c1_i32_925
  let c2_i32_926 : BitVec 32 := 2#32
  let v1265 : Index := Scalar.indexCast c2_i32_926
  let c8_i32_919 : BitVec 32 := 8#32
  let v1253 : BitVec 32 := Scalar.remsi v1252 c8_i32_919
  let v1266 : Index := Scalar.indexCast v1253
  let c16_927 : Index := 16#32
  ![1, 2, v1266.toNat, 16]

def k0_chk83 (v1252 : BitVec 32) : Prop :=
  (∀ a, (k0_off162 v1252) a + S1x1x1x16.size a ≤ S2x16x8x32.size a) ∧
  (∀ a, (k0_off164 v1252) a + S1x1x1x16.size a ≤ S2x16x8x32.size a)
instance k0_chk83.dec : ∀ (v1252 : BitVec 32), Decidable (k0_chk83 v1252) := fun v1252 => decidable_of_iff' _ (Iff.of_eq (k0_chk83.eq_1 v1252))
theorem k0_off162_inb : ∀ (v1252 : BitVec 32) (k0_hw83 : k0_chk83 v1252), ∀ a, (k0_off162 v1252) a + S1x1x1x16.size a ≤ S2x16x8x32.size a := fun v1252 k0_hw83 => k0_hw83.1
theorem k0_off164_inb : ∀ (v1252 : BitVec 32) (k0_hw83 : k0_chk83 v1252), ∀ a, (k0_off164 v1252) a + S1x1x1x16.size a ≤ S2x16x8x32.size a := fun v1252 k0_hw83 => k0_hw83.2

def k0_off165 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_928 : BitVec 32 := 2#32
  let v1269 : BitVec 32 := Scalar.addi v1201 c2_i32_928
  let v1270 : Index := Scalar.indexCast v1269
  let c16_929 : Index := 16#32
  ![v1270.toNat, 16]
def k0_off166 (v1275 : BitVec 32) : Fin 4 → Nat :=
  let c1_i32_931 : BitVec 32 := 1#32
  let v1277 : Index := Scalar.indexCast c1_i32_931
  let c3_i32_932 : BitVec 32 := 3#32
  let v1278 : Index := Scalar.indexCast c3_i32_932
  let c8_i32_930 : BitVec 32 := 8#32
  let v1276 : BitVec 32 := Scalar.remsi v1275 c8_i32_930
  let v1279 : Index := Scalar.indexCast v1276
  let c0_933 : Index := 0#32
  ![1, 3, v1279.toNat, 0]

def k0_off167 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_934 : BitVec 32 := 3#32
  let v1282 : BitVec 32 := Scalar.addi v1201 c3_i32_934
  let v1283 : Index := Scalar.indexCast v1282
  let c0_935 : Index := 0#32
  ![v1283.toNat, 0]
def k0_off168 (v1275 : BitVec 32) : Fin 4 → Nat :=
  let c1_i32_936 : BitVec 32 := 1#32
  let v1287 : Index := Scalar.indexCast c1_i32_936
  let c3_i32_937 : BitVec 32 := 3#32
  let v1288 : Index := Scalar.indexCast c3_i32_937
  let c8_i32_930 : BitVec 32 := 8#32
  let v1276 : BitVec 32 := Scalar.remsi v1275 c8_i32_930
  let v1289 : Index := Scalar.indexCast v1276
  let c16_938 : Index := 16#32
  ![1, 3, v1289.toNat, 16]

def k0_chk84 (v1275 : BitVec 32) : Prop :=
  (∀ a, (k0_off166 v1275) a + S1x1x1x16.size a ≤ S2x16x8x32.size a) ∧
  (∀ a, (k0_off168 v1275) a + S1x1x1x16.size a ≤ S2x16x8x32.size a)
instance k0_chk84.dec : ∀ (v1275 : BitVec 32), Decidable (k0_chk84 v1275) := fun v1275 => decidable_of_iff' _ (Iff.of_eq (k0_chk84.eq_1 v1275))
theorem k0_off166_inb : ∀ (v1275 : BitVec 32) (k0_hw84 : k0_chk84 v1275), ∀ a, (k0_off166 v1275) a + S1x1x1x16.size a ≤ S2x16x8x32.size a := fun v1275 k0_hw84 => k0_hw84.1
theorem k0_off168_inb : ∀ (v1275 : BitVec 32) (k0_hw84 : k0_chk84 v1275), ∀ a, (k0_off168 v1275) a + S1x1x1x16.size a ≤ S2x16x8x32.size a := fun v1275 k0_hw84 => k0_hw84.2

def k0_off169 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_939 : BitVec 32 := 3#32
  let v1292 : BitVec 32 := Scalar.addi v1201 c3_i32_939
  let v1293 : Index := Scalar.indexCast v1292
  let c16_940 : Index := 16#32
  ![v1293.toNat, 16]
def k0_off170 (v1298 : BitVec 32) : Fin 4 → Nat :=
  let c1_i32_942 : BitVec 32 := 1#32
  let v1300 : Index := Scalar.indexCast c1_i32_942
  let c4_i32_943 : BitVec 32 := 4#32
  let v1301 : Index := Scalar.indexCast c4_i32_943
  let c8_i32_941 : BitVec 32 := 8#32
  let v1299 : BitVec 32 := Scalar.remsi v1298 c8_i32_941
  let v1302 : Index := Scalar.indexCast v1299
  let c0_944 : Index := 0#32
  ![1, 4, v1302.toNat, 0]

def k0_off171 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_945 : BitVec 32 := 4#32
  let v1305 : BitVec 32 := Scalar.addi v1201 c4_i32_945
  let v1306 : Index := Scalar.indexCast v1305
  let c0_946 : Index := 0#32
  ![v1306.toNat, 0]
def k0_off172 (v1298 : BitVec 32) : Fin 4 → Nat :=
  let c1_i32_947 : BitVec 32 := 1#32
  let v1310 : Index := Scalar.indexCast c1_i32_947
  let c4_i32_948 : BitVec 32 := 4#32
  let v1311 : Index := Scalar.indexCast c4_i32_948
  let c8_i32_941 : BitVec 32 := 8#32
  let v1299 : BitVec 32 := Scalar.remsi v1298 c8_i32_941
  let v1312 : Index := Scalar.indexCast v1299
  let c16_949 : Index := 16#32
  ![1, 4, v1312.toNat, 16]

def k0_chk85 (v1298 : BitVec 32) : Prop :=
  (∀ a, (k0_off170 v1298) a + S1x1x1x16.size a ≤ S2x16x8x32.size a) ∧
  (∀ a, (k0_off172 v1298) a + S1x1x1x16.size a ≤ S2x16x8x32.size a)
instance k0_chk85.dec : ∀ (v1298 : BitVec 32), Decidable (k0_chk85 v1298) := fun v1298 => decidable_of_iff' _ (Iff.of_eq (k0_chk85.eq_1 v1298))
theorem k0_off170_inb : ∀ (v1298 : BitVec 32) (k0_hw85 : k0_chk85 v1298), ∀ a, (k0_off170 v1298) a + S1x1x1x16.size a ≤ S2x16x8x32.size a := fun v1298 k0_hw85 => k0_hw85.1
theorem k0_off172_inb : ∀ (v1298 : BitVec 32) (k0_hw85 : k0_chk85 v1298), ∀ a, (k0_off172 v1298) a + S1x1x1x16.size a ≤ S2x16x8x32.size a := fun v1298 k0_hw85 => k0_hw85.2

def k0_off173 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_950 : BitVec 32 := 4#32
  let v1315 : BitVec 32 := Scalar.addi v1201 c4_i32_950
  let v1316 : Index := Scalar.indexCast v1315
  let c16_951 : Index := 16#32
  ![v1316.toNat, 16]
def k0_off174 (v1321 : BitVec 32) : Fin 4 → Nat :=
  let c1_i32_953 : BitVec 32 := 1#32
  let v1323 : Index := Scalar.indexCast c1_i32_953
  let c5_i32_954 : BitVec 32 := 5#32
  let v1324 : Index := Scalar.indexCast c5_i32_954
  let c8_i32_952 : BitVec 32 := 8#32
  let v1322 : BitVec 32 := Scalar.remsi v1321 c8_i32_952
  let v1325 : Index := Scalar.indexCast v1322
  let c0_955 : Index := 0#32
  ![1, 5, v1325.toNat, 0]

def k0_off175 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_956 : BitVec 32 := 5#32
  let v1328 : BitVec 32 := Scalar.addi v1201 c5_i32_956
  let v1329 : Index := Scalar.indexCast v1328
  let c0_957 : Index := 0#32
  ![v1329.toNat, 0]
def k0_off176 (v1321 : BitVec 32) : Fin 4 → Nat :=
  let c1_i32_958 : BitVec 32 := 1#32
  let v1333 : Index := Scalar.indexCast c1_i32_958
  let c5_i32_959 : BitVec 32 := 5#32
  let v1334 : Index := Scalar.indexCast c5_i32_959
  let c8_i32_952 : BitVec 32 := 8#32
  let v1322 : BitVec 32 := Scalar.remsi v1321 c8_i32_952
  let v1335 : Index := Scalar.indexCast v1322
  let c16_960 : Index := 16#32
  ![1, 5, v1335.toNat, 16]

def k0_chk86 (v1321 : BitVec 32) : Prop :=
  (∀ a, (k0_off174 v1321) a + S1x1x1x16.size a ≤ S2x16x8x32.size a) ∧
  (∀ a, (k0_off176 v1321) a + S1x1x1x16.size a ≤ S2x16x8x32.size a)
instance k0_chk86.dec : ∀ (v1321 : BitVec 32), Decidable (k0_chk86 v1321) := fun v1321 => decidable_of_iff' _ (Iff.of_eq (k0_chk86.eq_1 v1321))
theorem k0_off174_inb : ∀ (v1321 : BitVec 32) (k0_hw86 : k0_chk86 v1321), ∀ a, (k0_off174 v1321) a + S1x1x1x16.size a ≤ S2x16x8x32.size a := fun v1321 k0_hw86 => k0_hw86.1
theorem k0_off176_inb : ∀ (v1321 : BitVec 32) (k0_hw86 : k0_chk86 v1321), ∀ a, (k0_off176 v1321) a + S1x1x1x16.size a ≤ S2x16x8x32.size a := fun v1321 k0_hw86 => k0_hw86.2

def k0_off177 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_961 : BitVec 32 := 5#32
  let v1338 : BitVec 32 := Scalar.addi v1201 c5_i32_961
  let v1339 : Index := Scalar.indexCast v1338
  let c16_962 : Index := 16#32
  ![v1339.toNat, 16]
def k0_off178 (v1344 : BitVec 32) : Fin 4 → Nat :=
  let c1_i32_964 : BitVec 32 := 1#32
  let v1346 : Index := Scalar.indexCast c1_i32_964
  let c6_i32_965 : BitVec 32 := 6#32
  let v1347 : Index := Scalar.indexCast c6_i32_965
  let c8_i32_963 : BitVec 32 := 8#32
  let v1345 : BitVec 32 := Scalar.remsi v1344 c8_i32_963
  let v1348 : Index := Scalar.indexCast v1345
  let c0_966 : Index := 0#32
  ![1, 6, v1348.toNat, 0]

def k0_off179 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_967 : BitVec 32 := 6#32
  let v1351 : BitVec 32 := Scalar.addi v1201 c6_i32_967
  let v1352 : Index := Scalar.indexCast v1351
  let c0_968 : Index := 0#32
  ![v1352.toNat, 0]
def k0_off180 (v1344 : BitVec 32) : Fin 4 → Nat :=
  let c1_i32_969 : BitVec 32 := 1#32
  let v1356 : Index := Scalar.indexCast c1_i32_969
  let c6_i32_970 : BitVec 32 := 6#32
  let v1357 : Index := Scalar.indexCast c6_i32_970
  let c8_i32_963 : BitVec 32 := 8#32
  let v1345 : BitVec 32 := Scalar.remsi v1344 c8_i32_963
  let v1358 : Index := Scalar.indexCast v1345
  let c16_971 : Index := 16#32
  ![1, 6, v1358.toNat, 16]

def k0_chk87 (v1344 : BitVec 32) : Prop :=
  (∀ a, (k0_off178 v1344) a + S1x1x1x16.size a ≤ S2x16x8x32.size a) ∧
  (∀ a, (k0_off180 v1344) a + S1x1x1x16.size a ≤ S2x16x8x32.size a)
instance k0_chk87.dec : ∀ (v1344 : BitVec 32), Decidable (k0_chk87 v1344) := fun v1344 => decidable_of_iff' _ (Iff.of_eq (k0_chk87.eq_1 v1344))
theorem k0_off178_inb : ∀ (v1344 : BitVec 32) (k0_hw87 : k0_chk87 v1344), ∀ a, (k0_off178 v1344) a + S1x1x1x16.size a ≤ S2x16x8x32.size a := fun v1344 k0_hw87 => k0_hw87.1
theorem k0_off180_inb : ∀ (v1344 : BitVec 32) (k0_hw87 : k0_chk87 v1344), ∀ a, (k0_off180 v1344) a + S1x1x1x16.size a ≤ S2x16x8x32.size a := fun v1344 k0_hw87 => k0_hw87.2

def k0_off181 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_972 : BitVec 32 := 6#32
  let v1361 : BitVec 32 := Scalar.addi v1201 c6_i32_972
  let v1362 : Index := Scalar.indexCast v1361
  let c16_973 : Index := 16#32
  ![v1362.toNat, 16]
def k0_off182 (v1367 : BitVec 32) : Fin 4 → Nat :=
  let c1_i32_975 : BitVec 32 := 1#32
  let v1369 : Index := Scalar.indexCast c1_i32_975
  let c7_i32_976 : BitVec 32 := 7#32
  let v1370 : Index := Scalar.indexCast c7_i32_976
  let c8_i32_974 : BitVec 32 := 8#32
  let v1368 : BitVec 32 := Scalar.remsi v1367 c8_i32_974
  let v1371 : Index := Scalar.indexCast v1368
  let c0_977 : Index := 0#32
  ![1, 7, v1371.toNat, 0]

def k0_off183 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_978 : BitVec 32 := 7#32
  let v1374 : BitVec 32 := Scalar.addi v1201 c7_i32_978
  let v1375 : Index := Scalar.indexCast v1374
  let c0_979 : Index := 0#32
  ![v1375.toNat, 0]
def k0_off184 (v1367 : BitVec 32) : Fin 4 → Nat :=
  let c1_i32_980 : BitVec 32 := 1#32
  let v1379 : Index := Scalar.indexCast c1_i32_980
  let c7_i32_981 : BitVec 32 := 7#32
  let v1380 : Index := Scalar.indexCast c7_i32_981
  let c8_i32_974 : BitVec 32 := 8#32
  let v1368 : BitVec 32 := Scalar.remsi v1367 c8_i32_974
  let v1381 : Index := Scalar.indexCast v1368
  let c16_982 : Index := 16#32
  ![1, 7, v1381.toNat, 16]

def k0_chk88 (v1367 : BitVec 32) : Prop :=
  (∀ a, (k0_off182 v1367) a + S1x1x1x16.size a ≤ S2x16x8x32.size a) ∧
  (∀ a, (k0_off184 v1367) a + S1x1x1x16.size a ≤ S2x16x8x32.size a)
instance k0_chk88.dec : ∀ (v1367 : BitVec 32), Decidable (k0_chk88 v1367) := fun v1367 => decidable_of_iff' _ (Iff.of_eq (k0_chk88.eq_1 v1367))
theorem k0_off182_inb : ∀ (v1367 : BitVec 32) (k0_hw88 : k0_chk88 v1367), ∀ a, (k0_off182 v1367) a + S1x1x1x16.size a ≤ S2x16x8x32.size a := fun v1367 k0_hw88 => k0_hw88.1
theorem k0_off184_inb : ∀ (v1367 : BitVec 32) (k0_hw88 : k0_chk88 v1367), ∀ a, (k0_off184 v1367) a + S1x1x1x16.size a ≤ S2x16x8x32.size a := fun v1367 k0_hw88 => k0_hw88.2

def k0_off185 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_983 : BitVec 32 := 7#32
  let v1384 : BitVec 32 := Scalar.addi v1201 c7_i32_983
  let v1385 : Index := Scalar.indexCast v1384
  let c16_984 : Index := 16#32
  ![v1385.toNat, 16]
def k0_off186 (v1390 : BitVec 32) : Fin 4 → Nat :=
  let c1_i32_986 : BitVec 32 := 1#32
  let v1392 : Index := Scalar.indexCast c1_i32_986
  let c8_i32_987 : BitVec 32 := 8#32
  let v1393 : Index := Scalar.indexCast c8_i32_987
  let c8_i32_985 : BitVec 32 := 8#32
  let v1391 : BitVec 32 := Scalar.remsi v1390 c8_i32_985
  let v1394 : Index := Scalar.indexCast v1391
  let c0_988 : Index := 0#32
  ![1, 8, v1394.toNat, 0]

def k0_off187 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_989 : BitVec 32 := 8#32
  let v1397 : BitVec 32 := Scalar.addi v1201 c8_i32_989
  let v1398 : Index := Scalar.indexCast v1397
  let c0_990 : Index := 0#32
  ![v1398.toNat, 0]
def k0_off188 (v1390 : BitVec 32) : Fin 4 → Nat :=
  let c1_i32_991 : BitVec 32 := 1#32
  let v1402 : Index := Scalar.indexCast c1_i32_991
  let c8_i32_992 : BitVec 32 := 8#32
  let v1403 : Index := Scalar.indexCast c8_i32_992
  let c8_i32_985 : BitVec 32 := 8#32
  let v1391 : BitVec 32 := Scalar.remsi v1390 c8_i32_985
  let v1404 : Index := Scalar.indexCast v1391
  let c16_993 : Index := 16#32
  ![1, 8, v1404.toNat, 16]

def k0_chk89 (v1390 : BitVec 32) : Prop :=
  (∀ a, (k0_off186 v1390) a + S1x1x1x16.size a ≤ S2x16x8x32.size a) ∧
  (∀ a, (k0_off188 v1390) a + S1x1x1x16.size a ≤ S2x16x8x32.size a)
instance k0_chk89.dec : ∀ (v1390 : BitVec 32), Decidable (k0_chk89 v1390) := fun v1390 => decidable_of_iff' _ (Iff.of_eq (k0_chk89.eq_1 v1390))
theorem k0_off186_inb : ∀ (v1390 : BitVec 32) (k0_hw89 : k0_chk89 v1390), ∀ a, (k0_off186 v1390) a + S1x1x1x16.size a ≤ S2x16x8x32.size a := fun v1390 k0_hw89 => k0_hw89.1
theorem k0_off188_inb : ∀ (v1390 : BitVec 32) (k0_hw89 : k0_chk89 v1390), ∀ a, (k0_off188 v1390) a + S1x1x1x16.size a ≤ S2x16x8x32.size a := fun v1390 k0_hw89 => k0_hw89.2

def k0_off189 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_994 : BitVec 32 := 8#32
  let v1407 : BitVec 32 := Scalar.addi v1201 c8_i32_994
  let v1408 : Index := Scalar.indexCast v1407
  let c16_995 : Index := 16#32
  ![v1408.toNat, 16]
def k0_off190 (v1413 : BitVec 32) : Fin 4 → Nat :=
  let c1_i32_997 : BitVec 32 := 1#32
  let v1415 : Index := Scalar.indexCast c1_i32_997
  let c9_i32_998 : BitVec 32 := 9#32
  let v1416 : Index := Scalar.indexCast c9_i32_998
  let c8_i32_996 : BitVec 32 := 8#32
  let v1414 : BitVec 32 := Scalar.remsi v1413 c8_i32_996
  let v1417 : Index := Scalar.indexCast v1414
  let c0_999 : Index := 0#32
  ![1, 9, v1417.toNat, 0]

def k0_off191 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1000 : BitVec 32 := 9#32
  let v1420 : BitVec 32 := Scalar.addi v1201 c9_i32_1000
  let v1421 : Index := Scalar.indexCast v1420
  let c0_1001 : Index := 0#32
  ![v1421.toNat, 0]
def k0_off192 (v1413 : BitVec 32) : Fin 4 → Nat :=
  let c1_i32_1002 : BitVec 32 := 1#32
  let v1425 : Index := Scalar.indexCast c1_i32_1002
  let c9_i32_1003 : BitVec 32 := 9#32
  let v1426 : Index := Scalar.indexCast c9_i32_1003
  let c8_i32_996 : BitVec 32 := 8#32
  let v1414 : BitVec 32 := Scalar.remsi v1413 c8_i32_996
  let v1427 : Index := Scalar.indexCast v1414
  let c16_1004 : Index := 16#32
  ![1, 9, v1427.toNat, 16]

def k0_chk90 (v1413 : BitVec 32) : Prop :=
  (∀ a, (k0_off190 v1413) a + S1x1x1x16.size a ≤ S2x16x8x32.size a) ∧
  (∀ a, (k0_off192 v1413) a + S1x1x1x16.size a ≤ S2x16x8x32.size a)
instance k0_chk90.dec : ∀ (v1413 : BitVec 32), Decidable (k0_chk90 v1413) := fun v1413 => decidable_of_iff' _ (Iff.of_eq (k0_chk90.eq_1 v1413))
theorem k0_off190_inb : ∀ (v1413 : BitVec 32) (k0_hw90 : k0_chk90 v1413), ∀ a, (k0_off190 v1413) a + S1x1x1x16.size a ≤ S2x16x8x32.size a := fun v1413 k0_hw90 => k0_hw90.1
theorem k0_off192_inb : ∀ (v1413 : BitVec 32) (k0_hw90 : k0_chk90 v1413), ∀ a, (k0_off192 v1413) a + S1x1x1x16.size a ≤ S2x16x8x32.size a := fun v1413 k0_hw90 => k0_hw90.2

def k0_off193 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1005 : BitVec 32 := 9#32
  let v1430 : BitVec 32 := Scalar.addi v1201 c9_i32_1005
  let v1431 : Index := Scalar.indexCast v1430
  let c16_1006 : Index := 16#32
  ![v1431.toNat, 16]
def k0_off194 (v1436 : BitVec 32) : Fin 4 → Nat :=
  let c1_i32_1008 : BitVec 32 := 1#32
  let v1438 : Index := Scalar.indexCast c1_i32_1008
  let c10_i32_1009 : BitVec 32 := 10#32
  let v1439 : Index := Scalar.indexCast c10_i32_1009
  let c8_i32_1007 : BitVec 32 := 8#32
  let v1437 : BitVec 32 := Scalar.remsi v1436 c8_i32_1007
  let v1440 : Index := Scalar.indexCast v1437
  let c0_1010 : Index := 0#32
  ![1, 10, v1440.toNat, 0]

def k0_off195 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1011 : BitVec 32 := 10#32
  let v1443 : BitVec 32 := Scalar.addi v1201 c10_i32_1011
  let v1444 : Index := Scalar.indexCast v1443
  let c0_1012 : Index := 0#32
  ![v1444.toNat, 0]
def k0_off196 (v1436 : BitVec 32) : Fin 4 → Nat :=
  let c1_i32_1013 : BitVec 32 := 1#32
  let v1448 : Index := Scalar.indexCast c1_i32_1013
  let c10_i32_1014 : BitVec 32 := 10#32
  let v1449 : Index := Scalar.indexCast c10_i32_1014
  let c8_i32_1007 : BitVec 32 := 8#32
  let v1437 : BitVec 32 := Scalar.remsi v1436 c8_i32_1007
  let v1450 : Index := Scalar.indexCast v1437
  let c16_1015 : Index := 16#32
  ![1, 10, v1450.toNat, 16]

def k0_chk91 (v1436 : BitVec 32) : Prop :=
  (∀ a, (k0_off194 v1436) a + S1x1x1x16.size a ≤ S2x16x8x32.size a) ∧
  (∀ a, (k0_off196 v1436) a + S1x1x1x16.size a ≤ S2x16x8x32.size a)
instance k0_chk91.dec : ∀ (v1436 : BitVec 32), Decidable (k0_chk91 v1436) := fun v1436 => decidable_of_iff' _ (Iff.of_eq (k0_chk91.eq_1 v1436))
theorem k0_off194_inb : ∀ (v1436 : BitVec 32) (k0_hw91 : k0_chk91 v1436), ∀ a, (k0_off194 v1436) a + S1x1x1x16.size a ≤ S2x16x8x32.size a := fun v1436 k0_hw91 => k0_hw91.1
theorem k0_off196_inb : ∀ (v1436 : BitVec 32) (k0_hw91 : k0_chk91 v1436), ∀ a, (k0_off196 v1436) a + S1x1x1x16.size a ≤ S2x16x8x32.size a := fun v1436 k0_hw91 => k0_hw91.2

def k0_off197 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1016 : BitVec 32 := 10#32
  let v1453 : BitVec 32 := Scalar.addi v1201 c10_i32_1016
  let v1454 : Index := Scalar.indexCast v1453
  let c16_1017 : Index := 16#32
  ![v1454.toNat, 16]
def k0_off198 (v1459 : BitVec 32) : Fin 4 → Nat :=
  let c1_i32_1019 : BitVec 32 := 1#32
  let v1461 : Index := Scalar.indexCast c1_i32_1019
  let c11_i32_1020 : BitVec 32 := 11#32
  let v1462 : Index := Scalar.indexCast c11_i32_1020
  let c8_i32_1018 : BitVec 32 := 8#32
  let v1460 : BitVec 32 := Scalar.remsi v1459 c8_i32_1018
  let v1463 : Index := Scalar.indexCast v1460
  let c0_1021 : Index := 0#32
  ![1, 11, v1463.toNat, 0]

def k0_off199 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1022 : BitVec 32 := 11#32
  let v1466 : BitVec 32 := Scalar.addi v1201 c11_i32_1022
  let v1467 : Index := Scalar.indexCast v1466
  let c0_1023 : Index := 0#32
  ![v1467.toNat, 0]
def k0_off200 (v1459 : BitVec 32) : Fin 4 → Nat :=
  let c1_i32_1024 : BitVec 32 := 1#32
  let v1471 : Index := Scalar.indexCast c1_i32_1024
  let c11_i32_1025 : BitVec 32 := 11#32
  let v1472 : Index := Scalar.indexCast c11_i32_1025
  let c8_i32_1018 : BitVec 32 := 8#32
  let v1460 : BitVec 32 := Scalar.remsi v1459 c8_i32_1018
  let v1473 : Index := Scalar.indexCast v1460
  let c16_1026 : Index := 16#32
  ![1, 11, v1473.toNat, 16]

def k0_chk92 (v1459 : BitVec 32) : Prop :=
  (∀ a, (k0_off198 v1459) a + S1x1x1x16.size a ≤ S2x16x8x32.size a) ∧
  (∀ a, (k0_off200 v1459) a + S1x1x1x16.size a ≤ S2x16x8x32.size a)
instance k0_chk92.dec : ∀ (v1459 : BitVec 32), Decidable (k0_chk92 v1459) := fun v1459 => decidable_of_iff' _ (Iff.of_eq (k0_chk92.eq_1 v1459))
theorem k0_off198_inb : ∀ (v1459 : BitVec 32) (k0_hw92 : k0_chk92 v1459), ∀ a, (k0_off198 v1459) a + S1x1x1x16.size a ≤ S2x16x8x32.size a := fun v1459 k0_hw92 => k0_hw92.1
theorem k0_off200_inb : ∀ (v1459 : BitVec 32) (k0_hw92 : k0_chk92 v1459), ∀ a, (k0_off200 v1459) a + S1x1x1x16.size a ≤ S2x16x8x32.size a := fun v1459 k0_hw92 => k0_hw92.2

def k0_off201 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1027 : BitVec 32 := 11#32
  let v1476 : BitVec 32 := Scalar.addi v1201 c11_i32_1027
  let v1477 : Index := Scalar.indexCast v1476
  let c16_1028 : Index := 16#32
  ![v1477.toNat, 16]
def k0_off202 (v1482 : BitVec 32) : Fin 4 → Nat :=
  let c1_i32_1030 : BitVec 32 := 1#32
  let v1484 : Index := Scalar.indexCast c1_i32_1030
  let c12_i32_1031 : BitVec 32 := 12#32
  let v1485 : Index := Scalar.indexCast c12_i32_1031
  let c8_i32_1029 : BitVec 32 := 8#32
  let v1483 : BitVec 32 := Scalar.remsi v1482 c8_i32_1029
  let v1486 : Index := Scalar.indexCast v1483
  let c0_1032 : Index := 0#32
  ![1, 12, v1486.toNat, 0]

def k0_off203 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1033 : BitVec 32 := 12#32
  let v1489 : BitVec 32 := Scalar.addi v1201 c12_i32_1033
  let v1490 : Index := Scalar.indexCast v1489
  let c0_1034 : Index := 0#32
  ![v1490.toNat, 0]
def k0_off204 (v1482 : BitVec 32) : Fin 4 → Nat :=
  let c1_i32_1035 : BitVec 32 := 1#32
  let v1494 : Index := Scalar.indexCast c1_i32_1035
  let c12_i32_1036 : BitVec 32 := 12#32
  let v1495 : Index := Scalar.indexCast c12_i32_1036
  let c8_i32_1029 : BitVec 32 := 8#32
  let v1483 : BitVec 32 := Scalar.remsi v1482 c8_i32_1029
  let v1496 : Index := Scalar.indexCast v1483
  let c16_1037 : Index := 16#32
  ![1, 12, v1496.toNat, 16]

def k0_chk93 (v1482 : BitVec 32) : Prop :=
  (∀ a, (k0_off202 v1482) a + S1x1x1x16.size a ≤ S2x16x8x32.size a) ∧
  (∀ a, (k0_off204 v1482) a + S1x1x1x16.size a ≤ S2x16x8x32.size a)
instance k0_chk93.dec : ∀ (v1482 : BitVec 32), Decidable (k0_chk93 v1482) := fun v1482 => decidable_of_iff' _ (Iff.of_eq (k0_chk93.eq_1 v1482))
theorem k0_off202_inb : ∀ (v1482 : BitVec 32) (k0_hw93 : k0_chk93 v1482), ∀ a, (k0_off202 v1482) a + S1x1x1x16.size a ≤ S2x16x8x32.size a := fun v1482 k0_hw93 => k0_hw93.1
theorem k0_off204_inb : ∀ (v1482 : BitVec 32) (k0_hw93 : k0_chk93 v1482), ∀ a, (k0_off204 v1482) a + S1x1x1x16.size a ≤ S2x16x8x32.size a := fun v1482 k0_hw93 => k0_hw93.2

def k0_off205 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1038 : BitVec 32 := 12#32
  let v1499 : BitVec 32 := Scalar.addi v1201 c12_i32_1038
  let v1500 : Index := Scalar.indexCast v1499
  let c16_1039 : Index := 16#32
  ![v1500.toNat, 16]
def k0_off206 (v1505 : BitVec 32) : Fin 4 → Nat :=
  let c1_i32_1041 : BitVec 32 := 1#32
  let v1507 : Index := Scalar.indexCast c1_i32_1041
  let c13_i32_1042 : BitVec 32 := 13#32
  let v1508 : Index := Scalar.indexCast c13_i32_1042
  let c8_i32_1040 : BitVec 32 := 8#32
  let v1506 : BitVec 32 := Scalar.remsi v1505 c8_i32_1040
  let v1509 : Index := Scalar.indexCast v1506
  let c0_1043 : Index := 0#32
  ![1, 13, v1509.toNat, 0]

def k0_off207 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1044 : BitVec 32 := 13#32
  let v1512 : BitVec 32 := Scalar.addi v1201 c13_i32_1044
  let v1513 : Index := Scalar.indexCast v1512
  let c0_1045 : Index := 0#32
  ![v1513.toNat, 0]
def k0_off208 (v1505 : BitVec 32) : Fin 4 → Nat :=
  let c1_i32_1046 : BitVec 32 := 1#32
  let v1517 : Index := Scalar.indexCast c1_i32_1046
  let c13_i32_1047 : BitVec 32 := 13#32
  let v1518 : Index := Scalar.indexCast c13_i32_1047
  let c8_i32_1040 : BitVec 32 := 8#32
  let v1506 : BitVec 32 := Scalar.remsi v1505 c8_i32_1040
  let v1519 : Index := Scalar.indexCast v1506
  let c16_1048 : Index := 16#32
  ![1, 13, v1519.toNat, 16]

def k0_chk94 (v1505 : BitVec 32) : Prop :=
  (∀ a, (k0_off206 v1505) a + S1x1x1x16.size a ≤ S2x16x8x32.size a) ∧
  (∀ a, (k0_off208 v1505) a + S1x1x1x16.size a ≤ S2x16x8x32.size a)
instance k0_chk94.dec : ∀ (v1505 : BitVec 32), Decidable (k0_chk94 v1505) := fun v1505 => decidable_of_iff' _ (Iff.of_eq (k0_chk94.eq_1 v1505))
theorem k0_off206_inb : ∀ (v1505 : BitVec 32) (k0_hw94 : k0_chk94 v1505), ∀ a, (k0_off206 v1505) a + S1x1x1x16.size a ≤ S2x16x8x32.size a := fun v1505 k0_hw94 => k0_hw94.1
theorem k0_off208_inb : ∀ (v1505 : BitVec 32) (k0_hw94 : k0_chk94 v1505), ∀ a, (k0_off208 v1505) a + S1x1x1x16.size a ≤ S2x16x8x32.size a := fun v1505 k0_hw94 => k0_hw94.2

def k0_off209 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1049 : BitVec 32 := 13#32
  let v1522 : BitVec 32 := Scalar.addi v1201 c13_i32_1049
  let v1523 : Index := Scalar.indexCast v1522
  let c16_1050 : Index := 16#32
  ![v1523.toNat, 16]
def k0_off210 (v1528 : BitVec 32) : Fin 4 → Nat :=
  let c1_i32_1052 : BitVec 32 := 1#32
  let v1530 : Index := Scalar.indexCast c1_i32_1052
  let c14_i32_1053 : BitVec 32 := 14#32
  let v1531 : Index := Scalar.indexCast c14_i32_1053
  let c8_i32_1051 : BitVec 32 := 8#32
  let v1529 : BitVec 32 := Scalar.remsi v1528 c8_i32_1051
  let v1532 : Index := Scalar.indexCast v1529
  let c0_1054 : Index := 0#32
  ![1, 14, v1532.toNat, 0]

def k0_off211 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1055 : BitVec 32 := 14#32
  let v1535 : BitVec 32 := Scalar.addi v1201 c14_i32_1055
  let v1536 : Index := Scalar.indexCast v1535
  let c0_1056 : Index := 0#32
  ![v1536.toNat, 0]
def k0_off212 (v1528 : BitVec 32) : Fin 4 → Nat :=
  let c1_i32_1057 : BitVec 32 := 1#32
  let v1540 : Index := Scalar.indexCast c1_i32_1057
  let c14_i32_1058 : BitVec 32 := 14#32
  let v1541 : Index := Scalar.indexCast c14_i32_1058
  let c8_i32_1051 : BitVec 32 := 8#32
  let v1529 : BitVec 32 := Scalar.remsi v1528 c8_i32_1051
  let v1542 : Index := Scalar.indexCast v1529
  let c16_1059 : Index := 16#32
  ![1, 14, v1542.toNat, 16]

def k0_chk95 (v1528 : BitVec 32) : Prop :=
  (∀ a, (k0_off210 v1528) a + S1x1x1x16.size a ≤ S2x16x8x32.size a) ∧
  (∀ a, (k0_off212 v1528) a + S1x1x1x16.size a ≤ S2x16x8x32.size a)
instance k0_chk95.dec : ∀ (v1528 : BitVec 32), Decidable (k0_chk95 v1528) := fun v1528 => decidable_of_iff' _ (Iff.of_eq (k0_chk95.eq_1 v1528))
theorem k0_off210_inb : ∀ (v1528 : BitVec 32) (k0_hw95 : k0_chk95 v1528), ∀ a, (k0_off210 v1528) a + S1x1x1x16.size a ≤ S2x16x8x32.size a := fun v1528 k0_hw95 => k0_hw95.1
theorem k0_off212_inb : ∀ (v1528 : BitVec 32) (k0_hw95 : k0_chk95 v1528), ∀ a, (k0_off212 v1528) a + S1x1x1x16.size a ≤ S2x16x8x32.size a := fun v1528 k0_hw95 => k0_hw95.2

def k0_off213 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1060 : BitVec 32 := 14#32
  let v1545 : BitVec 32 := Scalar.addi v1201 c14_i32_1060
  let v1546 : Index := Scalar.indexCast v1545
  let c16_1061 : Index := 16#32
  ![v1546.toNat, 16]
def k0_off214 (v1551 : BitVec 32) : Fin 4 → Nat :=
  let c1_i32_1063 : BitVec 32 := 1#32
  let v1553 : Index := Scalar.indexCast c1_i32_1063
  let c15_i32_1064 : BitVec 32 := 15#32
  let v1554 : Index := Scalar.indexCast c15_i32_1064
  let c8_i32_1062 : BitVec 32 := 8#32
  let v1552 : BitVec 32 := Scalar.remsi v1551 c8_i32_1062
  let v1555 : Index := Scalar.indexCast v1552
  let c0_1065 : Index := 0#32
  ![1, 15, v1555.toNat, 0]

def k0_off215 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1066 : BitVec 32 := 15#32
  let v1558 : BitVec 32 := Scalar.addi v1201 c15_i32_1066
  let v1559 : Index := Scalar.indexCast v1558
  let c0_1067 : Index := 0#32
  ![v1559.toNat, 0]
def k0_off216 (v1551 : BitVec 32) : Fin 4 → Nat :=
  let c1_i32_1068 : BitVec 32 := 1#32
  let v1563 : Index := Scalar.indexCast c1_i32_1068
  let c15_i32_1069 : BitVec 32 := 15#32
  let v1564 : Index := Scalar.indexCast c15_i32_1069
  let c8_i32_1062 : BitVec 32 := 8#32
  let v1552 : BitVec 32 := Scalar.remsi v1551 c8_i32_1062
  let v1565 : Index := Scalar.indexCast v1552
  let c16_1070 : Index := 16#32
  ![1, 15, v1565.toNat, 16]

def k0_chk96 (v1551 : BitVec 32) : Prop :=
  (∀ a, (k0_off214 v1551) a + S1x1x1x16.size a ≤ S2x16x8x32.size a) ∧
  (∀ a, (k0_off216 v1551) a + S1x1x1x16.size a ≤ S2x16x8x32.size a)
instance k0_chk96.dec : ∀ (v1551 : BitVec 32), Decidable (k0_chk96 v1551) := fun v1551 => decidable_of_iff' _ (Iff.of_eq (k0_chk96.eq_1 v1551))
theorem k0_off214_inb : ∀ (v1551 : BitVec 32) (k0_hw96 : k0_chk96 v1551), ∀ a, (k0_off214 v1551) a + S1x1x1x16.size a ≤ S2x16x8x32.size a := fun v1551 k0_hw96 => k0_hw96.1
theorem k0_off216_inb : ∀ (v1551 : BitVec 32) (k0_hw96 : k0_chk96 v1551), ∀ a, (k0_off216 v1551) a + S1x1x1x16.size a ≤ S2x16x8x32.size a := fun v1551 k0_hw96 => k0_hw96.2

def k0_off217 (k0_t3 : Fin k0_t3_loop.trips) : Fin 2 → Nat :=
  let c0_i32_527 : BitVec 32 := 0#32
  let c0_i32_152 : BitVec 32 := 0#32
  let c1_i32_154 : BitVec 32 := 1#32
  let arg19 : BitVec 32 := Scf.iv c0_i32_152 c1_i32_154 k0_t3
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1071 : BitVec 32 := 15#32
  let v1568 : BitVec 32 := Scalar.addi v1201 c15_i32_1071
  let v1569 : Index := Scalar.indexCast v1568
  let c16_1072 : Index := 16#32
  ![v1569.toNat, 16]
@[reducible] def k0_t4_loop : Scf.Loop 32 :=
  let c0_i32_156 : BitVec 32 := 0#32
  let c16_i32_157 : BitVec 32 := 16#32
  let v200 : BitVec 32 := Scalar.addi c0_i32_156 c16_i32_157
  let c1_i32_158 : BitVec 32 := 1#32
  ⟨c0_i32_156, v200, c1_i32_158⟩
def k0_off218 (k0_t4 : Fin k0_t4_loop.trips) : Fin 1 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off219 (k0_t4 : Fin k0_t4_loop.trips) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off220 (v617 : BitVec 32) : Fin 2 → Nat :=
  let c0_i32_531 : BitVec 32 := 0#32
  ![v617.toNat, 0]

def k0_chk97 (v617 : BitVec 32) : Prop :=
  (∀ a, (k0_off220 v617) a + S1x32.size a ≤ S1000000x32.size a)
instance k0_chk97.dec : ∀ (v617 : BitVec 32), Decidable (k0_chk97 v617) := fun v617 => decidable_of_iff' _ (Iff.of_eq (k0_chk97.eq_1 v617))
theorem k0_off220_inb : ∀ (v617 : BitVec 32) (k0_hw97 : k0_chk97 v617), ∀ a, (k0_off220 v617) a + S1x32.size a ≤ S1000000x32.size a := fun v617 k0_hw97 => k0_hw97

def k0_off221 (k0_t4 : Fin k0_t4_loop.trips) (c0_i32_529 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off222 (v628 : BitVec 32) : Fin 2 → Nat :=
  let c0_i32_536 : BitVec 32 := 0#32
  ![v628.toNat, 0]

def k0_chk98 (v628 : BitVec 32) : Prop :=
  (∀ a, (k0_off222 v628) a + S1x32.size a ≤ S1000000x32.size a)
instance k0_chk98.dec : ∀ (v628 : BitVec 32), Decidable (k0_chk98 v628) := fun v628 => decidable_of_iff' _ (Iff.of_eq (k0_chk98.eq_1 v628))
theorem k0_off222_inb : ∀ (v628 : BitVec 32) (k0_hw98 : k0_chk98 v628), ∀ a, (k0_off222 v628) a + S1x32.size a ≤ S1000000x32.size a := fun v628 k0_hw98 => k0_hw98

def k0_off223 (k0_t4 : Fin k0_t4_loop.trips) (c1_i32_534 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off224 (v639 : BitVec 32) : Fin 2 → Nat :=
  let c0_i32_541 : BitVec 32 := 0#32
  ![v639.toNat, 0]

def k0_chk99 (v639 : BitVec 32) : Prop :=
  (∀ a, (k0_off224 v639) a + S1x32.size a ≤ S1000000x32.size a)
instance k0_chk99.dec : ∀ (v639 : BitVec 32), Decidable (k0_chk99 v639) := fun v639 => decidable_of_iff' _ (Iff.of_eq (k0_chk99.eq_1 v639))
theorem k0_off224_inb : ∀ (v639 : BitVec 32) (k0_hw99 : k0_chk99 v639), ∀ a, (k0_off224 v639) a + S1x32.size a ≤ S1000000x32.size a := fun v639 k0_hw99 => k0_hw99

def k0_off225 (k0_t4 : Fin k0_t4_loop.trips) (c2_i32_539 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off226 (v650 : BitVec 32) : Fin 2 → Nat :=
  let c0_i32_546 : BitVec 32 := 0#32
  ![v650.toNat, 0]

def k0_chk100 (v650 : BitVec 32) : Prop :=
  (∀ a, (k0_off226 v650) a + S1x32.size a ≤ S1000000x32.size a)
instance k0_chk100.dec : ∀ (v650 : BitVec 32), Decidable (k0_chk100 v650) := fun v650 => decidable_of_iff' _ (Iff.of_eq (k0_chk100.eq_1 v650))
theorem k0_off226_inb : ∀ (v650 : BitVec 32) (k0_hw100 : k0_chk100 v650), ∀ a, (k0_off226 v650) a + S1x32.size a ≤ S1000000x32.size a := fun v650 k0_hw100 => k0_hw100

def k0_off227 (k0_t4 : Fin k0_t4_loop.trips) (c3_i32_544 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off228 (v661 : BitVec 32) : Fin 2 → Nat :=
  let c0_i32_551 : BitVec 32 := 0#32
  ![v661.toNat, 0]

def k0_chk101 (v661 : BitVec 32) : Prop :=
  (∀ a, (k0_off228 v661) a + S1x32.size a ≤ S1000000x32.size a)
instance k0_chk101.dec : ∀ (v661 : BitVec 32), Decidable (k0_chk101 v661) := fun v661 => decidable_of_iff' _ (Iff.of_eq (k0_chk101.eq_1 v661))
theorem k0_off228_inb : ∀ (v661 : BitVec 32) (k0_hw101 : k0_chk101 v661), ∀ a, (k0_off228 v661) a + S1x32.size a ≤ S1000000x32.size a := fun v661 k0_hw101 => k0_hw101

def k0_off229 (k0_t4 : Fin k0_t4_loop.trips) (c4_i32_549 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off230 (v672 : BitVec 32) : Fin 2 → Nat :=
  let c0_i32_556 : BitVec 32 := 0#32
  ![v672.toNat, 0]

def k0_chk102 (v672 : BitVec 32) : Prop :=
  (∀ a, (k0_off230 v672) a + S1x32.size a ≤ S1000000x32.size a)
instance k0_chk102.dec : ∀ (v672 : BitVec 32), Decidable (k0_chk102 v672) := fun v672 => decidable_of_iff' _ (Iff.of_eq (k0_chk102.eq_1 v672))
theorem k0_off230_inb : ∀ (v672 : BitVec 32) (k0_hw102 : k0_chk102 v672), ∀ a, (k0_off230 v672) a + S1x32.size a ≤ S1000000x32.size a := fun v672 k0_hw102 => k0_hw102

def k0_off231 (k0_t4 : Fin k0_t4_loop.trips) (c5_i32_554 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off232 (v683 : BitVec 32) : Fin 2 → Nat :=
  let c0_i32_561 : BitVec 32 := 0#32
  ![v683.toNat, 0]

def k0_chk103 (v683 : BitVec 32) : Prop :=
  (∀ a, (k0_off232 v683) a + S1x32.size a ≤ S1000000x32.size a)
instance k0_chk103.dec : ∀ (v683 : BitVec 32), Decidable (k0_chk103 v683) := fun v683 => decidable_of_iff' _ (Iff.of_eq (k0_chk103.eq_1 v683))
theorem k0_off232_inb : ∀ (v683 : BitVec 32) (k0_hw103 : k0_chk103 v683), ∀ a, (k0_off232 v683) a + S1x32.size a ≤ S1000000x32.size a := fun v683 k0_hw103 => k0_hw103

def k0_off233 (k0_t4 : Fin k0_t4_loop.trips) (c6_i32_559 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off234 (v694 : BitVec 32) : Fin 2 → Nat :=
  let c0_i32_566 : BitVec 32 := 0#32
  ![v694.toNat, 0]

def k0_chk104 (v694 : BitVec 32) : Prop :=
  (∀ a, (k0_off234 v694) a + S1x32.size a ≤ S1000000x32.size a)
instance k0_chk104.dec : ∀ (v694 : BitVec 32), Decidable (k0_chk104 v694) := fun v694 => decidable_of_iff' _ (Iff.of_eq (k0_chk104.eq_1 v694))
theorem k0_off234_inb : ∀ (v694 : BitVec 32) (k0_hw104 : k0_chk104 v694), ∀ a, (k0_off234 v694) a + S1x32.size a ≤ S1000000x32.size a := fun v694 k0_hw104 => k0_hw104

def k0_off235 (k0_t4 : Fin k0_t4_loop.trips) (c7_i32_564 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off236 (v705 : BitVec 32) : Fin 2 → Nat :=
  let c0_i32_571 : BitVec 32 := 0#32
  ![v705.toNat, 0]

def k0_chk105 (v705 : BitVec 32) : Prop :=
  (∀ a, (k0_off236 v705) a + S1x32.size a ≤ S1000000x32.size a)
instance k0_chk105.dec : ∀ (v705 : BitVec 32), Decidable (k0_chk105 v705) := fun v705 => decidable_of_iff' _ (Iff.of_eq (k0_chk105.eq_1 v705))
theorem k0_off236_inb : ∀ (v705 : BitVec 32) (k0_hw105 : k0_chk105 v705), ∀ a, (k0_off236 v705) a + S1x32.size a ≤ S1000000x32.size a := fun v705 k0_hw105 => k0_hw105

def k0_off237 (k0_t4 : Fin k0_t4_loop.trips) (c8_i32_569 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off238 (v716 : BitVec 32) : Fin 2 → Nat :=
  let c0_i32_576 : BitVec 32 := 0#32
  ![v716.toNat, 0]

def k0_chk106 (v716 : BitVec 32) : Prop :=
  (∀ a, (k0_off238 v716) a + S1x32.size a ≤ S1000000x32.size a)
instance k0_chk106.dec : ∀ (v716 : BitVec 32), Decidable (k0_chk106 v716) := fun v716 => decidable_of_iff' _ (Iff.of_eq (k0_chk106.eq_1 v716))
theorem k0_off238_inb : ∀ (v716 : BitVec 32) (k0_hw106 : k0_chk106 v716), ∀ a, (k0_off238 v716) a + S1x32.size a ≤ S1000000x32.size a := fun v716 k0_hw106 => k0_hw106

def k0_off239 (k0_t4 : Fin k0_t4_loop.trips) (c9_i32_574 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off240 (v727 : BitVec 32) : Fin 2 → Nat :=
  let c0_i32_581 : BitVec 32 := 0#32
  ![v727.toNat, 0]

def k0_chk107 (v727 : BitVec 32) : Prop :=
  (∀ a, (k0_off240 v727) a + S1x32.size a ≤ S1000000x32.size a)
instance k0_chk107.dec : ∀ (v727 : BitVec 32), Decidable (k0_chk107 v727) := fun v727 => decidable_of_iff' _ (Iff.of_eq (k0_chk107.eq_1 v727))
theorem k0_off240_inb : ∀ (v727 : BitVec 32) (k0_hw107 : k0_chk107 v727), ∀ a, (k0_off240 v727) a + S1x32.size a ≤ S1000000x32.size a := fun v727 k0_hw107 => k0_hw107

def k0_off241 (k0_t4 : Fin k0_t4_loop.trips) (c10_i32_579 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off242 (v738 : BitVec 32) : Fin 2 → Nat :=
  let c0_i32_586 : BitVec 32 := 0#32
  ![v738.toNat, 0]

def k0_chk108 (v738 : BitVec 32) : Prop :=
  (∀ a, (k0_off242 v738) a + S1x32.size a ≤ S1000000x32.size a)
instance k0_chk108.dec : ∀ (v738 : BitVec 32), Decidable (k0_chk108 v738) := fun v738 => decidable_of_iff' _ (Iff.of_eq (k0_chk108.eq_1 v738))
theorem k0_off242_inb : ∀ (v738 : BitVec 32) (k0_hw108 : k0_chk108 v738), ∀ a, (k0_off242 v738) a + S1x32.size a ≤ S1000000x32.size a := fun v738 k0_hw108 => k0_hw108

def k0_off243 (k0_t4 : Fin k0_t4_loop.trips) (c11_i32_584 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off244 (v749 : BitVec 32) : Fin 2 → Nat :=
  let c0_i32_591 : BitVec 32 := 0#32
  ![v749.toNat, 0]

def k0_chk109 (v749 : BitVec 32) : Prop :=
  (∀ a, (k0_off244 v749) a + S1x32.size a ≤ S1000000x32.size a)
instance k0_chk109.dec : ∀ (v749 : BitVec 32), Decidable (k0_chk109 v749) := fun v749 => decidable_of_iff' _ (Iff.of_eq (k0_chk109.eq_1 v749))
theorem k0_off244_inb : ∀ (v749 : BitVec 32) (k0_hw109 : k0_chk109 v749), ∀ a, (k0_off244 v749) a + S1x32.size a ≤ S1000000x32.size a := fun v749 k0_hw109 => k0_hw109

def k0_off245 (k0_t4 : Fin k0_t4_loop.trips) (c12_i32_589 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off246 (v760 : BitVec 32) : Fin 2 → Nat :=
  let c0_i32_596 : BitVec 32 := 0#32
  ![v760.toNat, 0]

def k0_chk110 (v760 : BitVec 32) : Prop :=
  (∀ a, (k0_off246 v760) a + S1x32.size a ≤ S1000000x32.size a)
instance k0_chk110.dec : ∀ (v760 : BitVec 32), Decidable (k0_chk110 v760) := fun v760 => decidable_of_iff' _ (Iff.of_eq (k0_chk110.eq_1 v760))
theorem k0_off246_inb : ∀ (v760 : BitVec 32) (k0_hw110 : k0_chk110 v760), ∀ a, (k0_off246 v760) a + S1x32.size a ≤ S1000000x32.size a := fun v760 k0_hw110 => k0_hw110

def k0_off247 (k0_t4 : Fin k0_t4_loop.trips) (c13_i32_594 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off248 (v771 : BitVec 32) : Fin 2 → Nat :=
  let c0_i32_601 : BitVec 32 := 0#32
  ![v771.toNat, 0]

def k0_chk111 (v771 : BitVec 32) : Prop :=
  (∀ a, (k0_off248 v771) a + S1x32.size a ≤ S1000000x32.size a)
instance k0_chk111.dec : ∀ (v771 : BitVec 32), Decidable (k0_chk111 v771) := fun v771 => decidable_of_iff' _ (Iff.of_eq (k0_chk111.eq_1 v771))
theorem k0_off248_inb : ∀ (v771 : BitVec 32) (k0_hw111 : k0_chk111 v771), ∀ a, (k0_off248 v771) a + S1x32.size a ≤ S1000000x32.size a := fun v771 k0_hw111 => k0_hw111

def k0_off249 (k0_t4 : Fin k0_t4_loop.trips) (c14_i32_599 : BitVec 32) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off250 (v782 : BitVec 32) : Fin 2 → Nat :=
  let c0_i32_606 : BitVec 32 := 0#32
  ![v782.toNat, 0]

def k0_chk112 (v782 : BitVec 32) : Prop :=
  (∀ a, (k0_off250 v782) a + S1x32.size a ≤ S1000000x32.size a)
instance k0_chk112.dec : ∀ (v782 : BitVec 32), Decidable (k0_chk112 v782) := fun v782 => decidable_of_iff' _ (Iff.of_eq (k0_chk112.eq_1 v782))
theorem k0_off250_inb : ∀ (v782 : BitVec 32) (k0_hw112 : k0_chk112 v782), ∀ a, (k0_off250 v782) a + S1x32.size a ≤ S1000000x32.size a := fun v782 k0_hw112 => k0_hw112

def k0_off251 (k0_t4 : Fin k0_t4_loop.trips) : Fin 2 → Nat :=
  let c256_i32 : BitVec 32 := 256#32
  let c0_i32_527 : BitVec 32 := 0#32
  let c0_i32_156 : BitVec 32 := 0#32
  let c1_i32_158 : BitVec 32 := 1#32
  let arg19 : BitVec 32 := Scf.iv c0_i32_156 c1_i32_158 k0_t4
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off252 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_160 : BitVec 32 := 0#32
  ![v2.toNat, 0]
def k0_off253 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t5_loop : Scf.Loop 32 :=
  let c0_i32_164 : BitVec 32 := 0#32
  let c16_i32_165 : BitVec 32 := 16#32
  let v205 : BitVec 32 := Scalar.addi c0_i32_164 c16_i32_165
  let c1_i32_166 : BitVec 32 := 1#32
  ⟨c0_i32_164, v205, c1_i32_166⟩
def k0_off254 (k0_t5 : Fin k0_t5_loop.trips) : Fin 1 → Nat :=
  let c0_i32_527 : BitVec 32 := 0#32
  let c0_i32_164 : BitVec 32 := 0#32
  let c1_i32_166 : BitVec 32 := 1#32
  let arg19 : BitVec 32 := Scf.iv c0_i32_164 c1_i32_166 k0_t5
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : Index := Scalar.indexCast v611
  ![v612.toNat]
def k0_off255 (k0_t5 : Fin k0_t5_loop.trips) : Fin 1 → Nat :=
  let c0_i32_527 : BitVec 32 := 0#32
  let c0_i32_164 : BitVec 32 := 0#32
  let c1_i32_166 : BitVec 32 := 1#32
  let arg19 : BitVec 32 := Scf.iv c0_i32_164 c1_i32_166 k0_t5
  let c1_i32_526 : BitVec 32 := 1#32
  let v609 : BitVec 32 := Scalar.muli arg19 c1_i32_526
  let v610 : BitVec 32 := Scalar.addi c0_i32_527 v609
  let c16_i32_530 : BitVec 32 := 16#32
  let v617 : BitVec 32 := Scalar.muli v610 c16_i32_530
  let v618 : Index := Scalar.indexCast v617
  ![v618.toNat]
@[reducible] def k0_t6_loop : Scf.Loop 32 :=
  let c0_i32_168 : BitVec 32 := 0#32
  let c16_i32_169 : BitVec 32 := 16#32
  let v206 : BitVec 32 := Scalar.addi c0_i32_168 c16_i32_169
  let c1_i32_170 : BitVec 32 := 1#32
  ⟨c0_i32_168, v206, c1_i32_170⟩
def k0_off256 (k0_t6 : Fin k0_t6_loop.trips) : Fin 1 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off257 (k0_t6 : Fin k0_t6_loop.trips) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off258 (v617 : BitVec 32) : Fin 2 → Nat :=
  let c0_i32_531 : BitVec 32 := 0#32
  ![v617.toNat, 0]

def k0_chk113 (v617 : BitVec 32) : Prop :=
  (∀ a, (k0_off258 v617) a + S1x32.size a ≤ S100000x32.size a)
instance k0_chk113.dec : ∀ (v617 : BitVec 32), Decidable (k0_chk113 v617) := fun v617 => decidable_of_iff' _ (Iff.of_eq (k0_chk113.eq_1 v617))
theorem k0_off258_inb : ∀ (v617 : BitVec 32) (k0_hw113 : k0_chk113 v617), ∀ a, (k0_off258 v617) a + S1x32.size a ≤ S100000x32.size a := fun v617 k0_hw113 => k0_hw113

def k0_off259 (k0_t6 : Fin k0_t6_loop.trips) (c0_i32_529 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off260 (v628 : BitVec 32) : Fin 2 → Nat :=
  let c0_i32_536 : BitVec 32 := 0#32
  ![v628.toNat, 0]

def k0_chk114 (v628 : BitVec 32) : Prop :=
  (∀ a, (k0_off260 v628) a + S1x32.size a ≤ S100000x32.size a)
instance k0_chk114.dec : ∀ (v628 : BitVec 32), Decidable (k0_chk114 v628) := fun v628 => decidable_of_iff' _ (Iff.of_eq (k0_chk114.eq_1 v628))
theorem k0_off260_inb : ∀ (v628 : BitVec 32) (k0_hw114 : k0_chk114 v628), ∀ a, (k0_off260 v628) a + S1x32.size a ≤ S100000x32.size a := fun v628 k0_hw114 => k0_hw114

def k0_off261 (k0_t6 : Fin k0_t6_loop.trips) (c1_i32_534 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off262 (v639 : BitVec 32) : Fin 2 → Nat :=
  let c0_i32_541 : BitVec 32 := 0#32
  ![v639.toNat, 0]

def k0_chk115 (v639 : BitVec 32) : Prop :=
  (∀ a, (k0_off262 v639) a + S1x32.size a ≤ S100000x32.size a)
instance k0_chk115.dec : ∀ (v639 : BitVec 32), Decidable (k0_chk115 v639) := fun v639 => decidable_of_iff' _ (Iff.of_eq (k0_chk115.eq_1 v639))
theorem k0_off262_inb : ∀ (v639 : BitVec 32) (k0_hw115 : k0_chk115 v639), ∀ a, (k0_off262 v639) a + S1x32.size a ≤ S100000x32.size a := fun v639 k0_hw115 => k0_hw115

def k0_off263 (k0_t6 : Fin k0_t6_loop.trips) (c2_i32_539 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off264 (v650 : BitVec 32) : Fin 2 → Nat :=
  let c0_i32_546 : BitVec 32 := 0#32
  ![v650.toNat, 0]

def k0_chk116 (v650 : BitVec 32) : Prop :=
  (∀ a, (k0_off264 v650) a + S1x32.size a ≤ S100000x32.size a)
instance k0_chk116.dec : ∀ (v650 : BitVec 32), Decidable (k0_chk116 v650) := fun v650 => decidable_of_iff' _ (Iff.of_eq (k0_chk116.eq_1 v650))
theorem k0_off264_inb : ∀ (v650 : BitVec 32) (k0_hw116 : k0_chk116 v650), ∀ a, (k0_off264 v650) a + S1x32.size a ≤ S100000x32.size a := fun v650 k0_hw116 => k0_hw116

def k0_off265 (k0_t6 : Fin k0_t6_loop.trips) (c3_i32_544 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off266 (v661 : BitVec 32) : Fin 2 → Nat :=
  let c0_i32_551 : BitVec 32 := 0#32
  ![v661.toNat, 0]

def k0_chk117 (v661 : BitVec 32) : Prop :=
  (∀ a, (k0_off266 v661) a + S1x32.size a ≤ S100000x32.size a)
instance k0_chk117.dec : ∀ (v661 : BitVec 32), Decidable (k0_chk117 v661) := fun v661 => decidable_of_iff' _ (Iff.of_eq (k0_chk117.eq_1 v661))
theorem k0_off266_inb : ∀ (v661 : BitVec 32) (k0_hw117 : k0_chk117 v661), ∀ a, (k0_off266 v661) a + S1x32.size a ≤ S100000x32.size a := fun v661 k0_hw117 => k0_hw117

def k0_off267 (k0_t6 : Fin k0_t6_loop.trips) (c4_i32_549 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off268 (v672 : BitVec 32) : Fin 2 → Nat :=
  let c0_i32_556 : BitVec 32 := 0#32
  ![v672.toNat, 0]

def k0_chk118 (v672 : BitVec 32) : Prop :=
  (∀ a, (k0_off268 v672) a + S1x32.size a ≤ S100000x32.size a)
instance k0_chk118.dec : ∀ (v672 : BitVec 32), Decidable (k0_chk118 v672) := fun v672 => decidable_of_iff' _ (Iff.of_eq (k0_chk118.eq_1 v672))
theorem k0_off268_inb : ∀ (v672 : BitVec 32) (k0_hw118 : k0_chk118 v672), ∀ a, (k0_off268 v672) a + S1x32.size a ≤ S100000x32.size a := fun v672 k0_hw118 => k0_hw118

def k0_off269 (k0_t6 : Fin k0_t6_loop.trips) (c5_i32_554 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off270 (v683 : BitVec 32) : Fin 2 → Nat :=
  let c0_i32_561 : BitVec 32 := 0#32
  ![v683.toNat, 0]

def k0_chk119 (v683 : BitVec 32) : Prop :=
  (∀ a, (k0_off270 v683) a + S1x32.size a ≤ S100000x32.size a)
instance k0_chk119.dec : ∀ (v683 : BitVec 32), Decidable (k0_chk119 v683) := fun v683 => decidable_of_iff' _ (Iff.of_eq (k0_chk119.eq_1 v683))
theorem k0_off270_inb : ∀ (v683 : BitVec 32) (k0_hw119 : k0_chk119 v683), ∀ a, (k0_off270 v683) a + S1x32.size a ≤ S100000x32.size a := fun v683 k0_hw119 => k0_hw119

def k0_off271 (k0_t6 : Fin k0_t6_loop.trips) (c6_i32_559 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off272 (v694 : BitVec 32) : Fin 2 → Nat :=
  let c0_i32_566 : BitVec 32 := 0#32
  ![v694.toNat, 0]

def k0_chk120 (v694 : BitVec 32) : Prop :=
  (∀ a, (k0_off272 v694) a + S1x32.size a ≤ S100000x32.size a)
instance k0_chk120.dec : ∀ (v694 : BitVec 32), Decidable (k0_chk120 v694) := fun v694 => decidable_of_iff' _ (Iff.of_eq (k0_chk120.eq_1 v694))
theorem k0_off272_inb : ∀ (v694 : BitVec 32) (k0_hw120 : k0_chk120 v694), ∀ a, (k0_off272 v694) a + S1x32.size a ≤ S100000x32.size a := fun v694 k0_hw120 => k0_hw120

def k0_off273 (k0_t6 : Fin k0_t6_loop.trips) (c7_i32_564 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off274 (v705 : BitVec 32) : Fin 2 → Nat :=
  let c0_i32_571 : BitVec 32 := 0#32
  ![v705.toNat, 0]

def k0_chk121 (v705 : BitVec 32) : Prop :=
  (∀ a, (k0_off274 v705) a + S1x32.size a ≤ S100000x32.size a)
instance k0_chk121.dec : ∀ (v705 : BitVec 32), Decidable (k0_chk121 v705) := fun v705 => decidable_of_iff' _ (Iff.of_eq (k0_chk121.eq_1 v705))
theorem k0_off274_inb : ∀ (v705 : BitVec 32) (k0_hw121 : k0_chk121 v705), ∀ a, (k0_off274 v705) a + S1x32.size a ≤ S100000x32.size a := fun v705 k0_hw121 => k0_hw121

def k0_off275 (k0_t6 : Fin k0_t6_loop.trips) (c8_i32_569 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off276 (v716 : BitVec 32) : Fin 2 → Nat :=
  let c0_i32_576 : BitVec 32 := 0#32
  ![v716.toNat, 0]

def k0_chk122 (v716 : BitVec 32) : Prop :=
  (∀ a, (k0_off276 v716) a + S1x32.size a ≤ S100000x32.size a)
instance k0_chk122.dec : ∀ (v716 : BitVec 32), Decidable (k0_chk122 v716) := fun v716 => decidable_of_iff' _ (Iff.of_eq (k0_chk122.eq_1 v716))
theorem k0_off276_inb : ∀ (v716 : BitVec 32) (k0_hw122 : k0_chk122 v716), ∀ a, (k0_off276 v716) a + S1x32.size a ≤ S100000x32.size a := fun v716 k0_hw122 => k0_hw122

def k0_off277 (k0_t6 : Fin k0_t6_loop.trips) (c9_i32_574 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off278 (v727 : BitVec 32) : Fin 2 → Nat :=
  let c0_i32_581 : BitVec 32 := 0#32
  ![v727.toNat, 0]

def k0_chk123 (v727 : BitVec 32) : Prop :=
  (∀ a, (k0_off278 v727) a + S1x32.size a ≤ S100000x32.size a)
instance k0_chk123.dec : ∀ (v727 : BitVec 32), Decidable (k0_chk123 v727) := fun v727 => decidable_of_iff' _ (Iff.of_eq (k0_chk123.eq_1 v727))
theorem k0_off278_inb : ∀ (v727 : BitVec 32) (k0_hw123 : k0_chk123 v727), ∀ a, (k0_off278 v727) a + S1x32.size a ≤ S100000x32.size a := fun v727 k0_hw123 => k0_hw123

def k0_off279 (k0_t6 : Fin k0_t6_loop.trips) (c10_i32_579 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off280 (v738 : BitVec 32) : Fin 2 → Nat :=
  let c0_i32_586 : BitVec 32 := 0#32
  ![v738.toNat, 0]

def k0_chk124 (v738 : BitVec 32) : Prop :=
  (∀ a, (k0_off280 v738) a + S1x32.size a ≤ S100000x32.size a)
instance k0_chk124.dec : ∀ (v738 : BitVec 32), Decidable (k0_chk124 v738) := fun v738 => decidable_of_iff' _ (Iff.of_eq (k0_chk124.eq_1 v738))
theorem k0_off280_inb : ∀ (v738 : BitVec 32) (k0_hw124 : k0_chk124 v738), ∀ a, (k0_off280 v738) a + S1x32.size a ≤ S100000x32.size a := fun v738 k0_hw124 => k0_hw124

def k0_off281 (k0_t6 : Fin k0_t6_loop.trips) (c11_i32_584 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off282 (v749 : BitVec 32) : Fin 2 → Nat :=
  let c0_i32_591 : BitVec 32 := 0#32
  ![v749.toNat, 0]

def k0_chk125 (v749 : BitVec 32) : Prop :=
  (∀ a, (k0_off282 v749) a + S1x32.size a ≤ S100000x32.size a)
instance k0_chk125.dec : ∀ (v749 : BitVec 32), Decidable (k0_chk125 v749) := fun v749 => decidable_of_iff' _ (Iff.of_eq (k0_chk125.eq_1 v749))
theorem k0_off282_inb : ∀ (v749 : BitVec 32) (k0_hw125 : k0_chk125 v749), ∀ a, (k0_off282 v749) a + S1x32.size a ≤ S100000x32.size a := fun v749 k0_hw125 => k0_hw125

def k0_off283 (k0_t6 : Fin k0_t6_loop.trips) (c12_i32_589 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off284 (v760 : BitVec 32) : Fin 2 → Nat :=
  let c0_i32_596 : BitVec 32 := 0#32
  ![v760.toNat, 0]

def k0_chk126 (v760 : BitVec 32) : Prop :=
  (∀ a, (k0_off284 v760) a + S1x32.size a ≤ S100000x32.size a)
instance k0_chk126.dec : ∀ (v760 : BitVec 32), Decidable (k0_chk126 v760) := fun v760 => decidable_of_iff' _ (Iff.of_eq (k0_chk126.eq_1 v760))
theorem k0_off284_inb : ∀ (v760 : BitVec 32) (k0_hw126 : k0_chk126 v760), ∀ a, (k0_off284 v760) a + S1x32.size a ≤ S100000x32.size a := fun v760 k0_hw126 => k0_hw126

def k0_off285 (k0_t6 : Fin k0_t6_loop.trips) (c13_i32_594 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off286 (v771 : BitVec 32) : Fin 2 → Nat :=
  let c0_i32_601 : BitVec 32 := 0#32
  ![v771.toNat, 0]

def k0_chk127 (v771 : BitVec 32) : Prop :=
  (∀ a, (k0_off286 v771) a + S1x32.size a ≤ S100000x32.size a)
instance k0_chk127.dec : ∀ (v771 : BitVec 32), Decidable (k0_chk127 v771) := fun v771 => decidable_of_iff' _ (Iff.of_eq (k0_chk127.eq_1 v771))
theorem k0_off286_inb : ∀ (v771 : BitVec 32) (k0_hw127 : k0_chk127 v771), ∀ a, (k0_off286 v771) a + S1x32.size a ≤ S100000x32.size a := fun v771 k0_hw127 => k0_hw127

def k0_off287 (k0_t6 : Fin k0_t6_loop.trips) (c14_i32_599 : BitVec 32) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off288 (v782 : BitVec 32) : Fin 2 → Nat :=
  let c0_i32_606 : BitVec 32 := 0#32
  ![v782.toNat, 0]

def k0_chk128 (v782 : BitVec 32) : Prop :=
  (∀ a, (k0_off288 v782) a + S1x32.size a ≤ S100000x32.size a)
instance k0_chk128.dec : ∀ (v782 : BitVec 32), Decidable (k0_chk128 v782) := fun v782 => decidable_of_iff' _ (Iff.of_eq (k0_chk128.eq_1 v782))
theorem k0_off288_inb : ∀ (v782 : BitVec 32) (k0_hw128 : k0_chk128 v782), ∀ a, (k0_off288 v782) a + S1x32.size a ≤ S100000x32.size a := fun v782 k0_hw128 => k0_hw128

def k0_off289 (k0_t6 : Fin k0_t6_loop.trips) : Fin 2 → Nat :=
  let c256_i32 : BitVec 32 := 256#32
  let c0_i32_527 : BitVec 32 := 0#32
  let c0_i32_168 : BitVec 32 := 0#32
  let c1_i32_170 : BitVec 32 := 1#32
  let arg19 : BitVec 32 := Scf.iv c0_i32_168 c1_i32_170 k0_t6
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off290 (v210 : BitVec 32) : Fin 3 → Nat :=
  let c0_i32_177 : BitVec 32 := 0#32
  let c0_i32_178 : BitVec 32 := 0#32
  ![v210.toNat, 0, 0]

def k0_chk129 (v210 : BitVec 32) : Prop :=
  (∀ a, (k0_off290 v210) a + S1x8x32.size a ≤ S12500x8x32.size a)
instance k0_chk129.dec : ∀ (v210 : BitVec 32), Decidable (k0_chk129 v210) := fun v210 => decidable_of_iff' _ (Iff.of_eq (k0_chk129.eq_1 v210))
theorem k0_off290_inb : ∀ (v210 : BitVec 32) (k0_hw129 : k0_chk129 v210), ∀ a, (k0_off290 v210) a + S1x8x32.size a ≤ S12500x8x32.size a := fun v210 k0_hw129 => k0_hw129

def k0_off291 (v222 : BitVec 32) : Fin 3 → Nat :=
  let c0_i32_187 : BitVec 32 := 0#32
  let c0_i32_188 : BitVec 32 := 0#32
  ![v222.toNat, 0, 0]

def k0_chk130 (v222 : BitVec 32) : Prop :=
  (∀ a, (k0_off291 v222) a + S1x8x32.size a ≤ S12500x8x32.size a)
instance k0_chk130.dec : ∀ (v222 : BitVec 32), Decidable (k0_chk130 v222) := fun v222 => decidable_of_iff' _ (Iff.of_eq (k0_chk130.eq_1 v222))
theorem k0_off291_inb : ∀ (v222 : BitVec 32) (k0_hw130 : k0_chk130 v222), ∀ a, (k0_off291 v222) a + S1x8x32.size a ≤ S12500x8x32.size a := fun v222 k0_hw130 => k0_hw130

def k0_off292 (v234 : BitVec 32) : Fin 3 → Nat :=
  let c0_i32_197 : BitVec 32 := 0#32
  let c0_i32_198 : BitVec 32 := 0#32
  ![v234.toNat, 0, 0]

def k0_chk131 (v234 : BitVec 32) : Prop :=
  (∀ a, (k0_off292 v234) a + S1x8x32.size a ≤ S12500x8x32.size a)
instance k0_chk131.dec : ∀ (v234 : BitVec 32), Decidable (k0_chk131 v234) := fun v234 => decidable_of_iff' _ (Iff.of_eq (k0_chk131.eq_1 v234))
theorem k0_off292_inb : ∀ (v234 : BitVec 32) (k0_hw131 : k0_chk131 v234), ∀ a, (k0_off292 v234) a + S1x8x32.size a ≤ S12500x8x32.size a := fun v234 k0_hw131 => k0_hw131

def k0_off293 (v246 : BitVec 32) : Fin 3 → Nat :=
  let c0_i32_207 : BitVec 32 := 0#32
  let c0_i32_208 : BitVec 32 := 0#32
  ![v246.toNat, 0, 0]

def k0_chk132 (v246 : BitVec 32) : Prop :=
  (∀ a, (k0_off293 v246) a + S1x8x32.size a ≤ S12500x8x32.size a)
instance k0_chk132.dec : ∀ (v246 : BitVec 32), Decidable (k0_chk132 v246) := fun v246 => decidable_of_iff' _ (Iff.of_eq (k0_chk132.eq_1 v246))
theorem k0_off293_inb : ∀ (v246 : BitVec 32) (k0_hw132 : k0_chk132 v246), ∀ a, (k0_off293 v246) a + S1x8x32.size a ≤ S12500x8x32.size a := fun v246 k0_hw132 => k0_hw132

def k0_off294 (v258 : BitVec 32) : Fin 3 → Nat :=
  let c0_i32_217 : BitVec 32 := 0#32
  let c0_i32_218 : BitVec 32 := 0#32
  ![v258.toNat, 0, 0]

def k0_chk133 (v258 : BitVec 32) : Prop :=
  (∀ a, (k0_off294 v258) a + S1x8x32.size a ≤ S12500x8x32.size a)
instance k0_chk133.dec : ∀ (v258 : BitVec 32), Decidable (k0_chk133 v258) := fun v258 => decidable_of_iff' _ (Iff.of_eq (k0_chk133.eq_1 v258))
theorem k0_off294_inb : ∀ (v258 : BitVec 32) (k0_hw133 : k0_chk133 v258), ∀ a, (k0_off294 v258) a + S1x8x32.size a ≤ S12500x8x32.size a := fun v258 k0_hw133 => k0_hw133

def k0_off295 (v270 : BitVec 32) : Fin 3 → Nat :=
  let c0_i32_227 : BitVec 32 := 0#32
  let c0_i32_228 : BitVec 32 := 0#32
  ![v270.toNat, 0, 0]

def k0_chk134 (v270 : BitVec 32) : Prop :=
  (∀ a, (k0_off295 v270) a + S1x8x32.size a ≤ S12500x8x32.size a)
instance k0_chk134.dec : ∀ (v270 : BitVec 32), Decidable (k0_chk134 v270) := fun v270 => decidable_of_iff' _ (Iff.of_eq (k0_chk134.eq_1 v270))
theorem k0_off295_inb : ∀ (v270 : BitVec 32) (k0_hw134 : k0_chk134 v270), ∀ a, (k0_off295 v270) a + S1x8x32.size a ≤ S12500x8x32.size a := fun v270 k0_hw134 => k0_hw134

def k0_off296 (v282 : BitVec 32) : Fin 3 → Nat :=
  let c0_i32_237 : BitVec 32 := 0#32
  let c0_i32_238 : BitVec 32 := 0#32
  ![v282.toNat, 0, 0]

def k0_chk135 (v282 : BitVec 32) : Prop :=
  (∀ a, (k0_off296 v282) a + S1x8x32.size a ≤ S12500x8x32.size a)
instance k0_chk135.dec : ∀ (v282 : BitVec 32), Decidable (k0_chk135 v282) := fun v282 => decidable_of_iff' _ (Iff.of_eq (k0_chk135.eq_1 v282))
theorem k0_off296_inb : ∀ (v282 : BitVec 32) (k0_hw135 : k0_chk135 v282), ∀ a, (k0_off296 v282) a + S1x8x32.size a ≤ S12500x8x32.size a := fun v282 k0_hw135 => k0_hw135

def k0_off297 (v294 : BitVec 32) : Fin 3 → Nat :=
  let c0_i32_247 : BitVec 32 := 0#32
  let c0_i32_248 : BitVec 32 := 0#32
  ![v294.toNat, 0, 0]

def k0_chk136 (v294 : BitVec 32) : Prop :=
  (∀ a, (k0_off297 v294) a + S1x8x32.size a ≤ S12500x8x32.size a)
instance k0_chk136.dec : ∀ (v294 : BitVec 32), Decidable (k0_chk136 v294) := fun v294 => decidable_of_iff' _ (Iff.of_eq (k0_chk136.eq_1 v294))
theorem k0_off297_inb : ∀ (v294 : BitVec 32) (k0_hw136 : k0_chk136 v294), ∀ a, (k0_off297 v294) a + S1x8x32.size a ≤ S12500x8x32.size a := fun v294 k0_hw136 => k0_hw136

def k0_off298 (v306 : BitVec 32) : Fin 3 → Nat :=
  let c0_i32_257 : BitVec 32 := 0#32
  let c0_i32_258 : BitVec 32 := 0#32
  ![v306.toNat, 0, 0]

def k0_chk137 (v306 : BitVec 32) : Prop :=
  (∀ a, (k0_off298 v306) a + S1x8x32.size a ≤ S12500x8x32.size a)
instance k0_chk137.dec : ∀ (v306 : BitVec 32), Decidable (k0_chk137 v306) := fun v306 => decidable_of_iff' _ (Iff.of_eq (k0_chk137.eq_1 v306))
theorem k0_off298_inb : ∀ (v306 : BitVec 32) (k0_hw137 : k0_chk137 v306), ∀ a, (k0_off298 v306) a + S1x8x32.size a ≤ S12500x8x32.size a := fun v306 k0_hw137 => k0_hw137

def k0_off299 (v318 : BitVec 32) : Fin 3 → Nat :=
  let c0_i32_267 : BitVec 32 := 0#32
  let c0_i32_268 : BitVec 32 := 0#32
  ![v318.toNat, 0, 0]

def k0_chk138 (v318 : BitVec 32) : Prop :=
  (∀ a, (k0_off299 v318) a + S1x8x32.size a ≤ S12500x8x32.size a)
instance k0_chk138.dec : ∀ (v318 : BitVec 32), Decidable (k0_chk138 v318) := fun v318 => decidable_of_iff' _ (Iff.of_eq (k0_chk138.eq_1 v318))
theorem k0_off299_inb : ∀ (v318 : BitVec 32) (k0_hw138 : k0_chk138 v318), ∀ a, (k0_off299 v318) a + S1x8x32.size a ≤ S12500x8x32.size a := fun v318 k0_hw138 => k0_hw138

def k0_off300 (v330 : BitVec 32) : Fin 3 → Nat :=
  let c0_i32_277 : BitVec 32 := 0#32
  let c0_i32_278 : BitVec 32 := 0#32
  ![v330.toNat, 0, 0]

def k0_chk139 (v330 : BitVec 32) : Prop :=
  (∀ a, (k0_off300 v330) a + S1x8x32.size a ≤ S12500x8x32.size a)
instance k0_chk139.dec : ∀ (v330 : BitVec 32), Decidable (k0_chk139 v330) := fun v330 => decidable_of_iff' _ (Iff.of_eq (k0_chk139.eq_1 v330))
theorem k0_off300_inb : ∀ (v330 : BitVec 32) (k0_hw139 : k0_chk139 v330), ∀ a, (k0_off300 v330) a + S1x8x32.size a ≤ S12500x8x32.size a := fun v330 k0_hw139 => k0_hw139

def k0_off301 (v342 : BitVec 32) : Fin 3 → Nat :=
  let c0_i32_287 : BitVec 32 := 0#32
  let c0_i32_288 : BitVec 32 := 0#32
  ![v342.toNat, 0, 0]

def k0_chk140 (v342 : BitVec 32) : Prop :=
  (∀ a, (k0_off301 v342) a + S1x8x32.size a ≤ S12500x8x32.size a)
instance k0_chk140.dec : ∀ (v342 : BitVec 32), Decidable (k0_chk140 v342) := fun v342 => decidable_of_iff' _ (Iff.of_eq (k0_chk140.eq_1 v342))
theorem k0_off301_inb : ∀ (v342 : BitVec 32) (k0_hw140 : k0_chk140 v342), ∀ a, (k0_off301 v342) a + S1x8x32.size a ≤ S12500x8x32.size a := fun v342 k0_hw140 => k0_hw140

def k0_off302 (v354 : BitVec 32) : Fin 3 → Nat :=
  let c0_i32_297 : BitVec 32 := 0#32
  let c0_i32_298 : BitVec 32 := 0#32
  ![v354.toNat, 0, 0]

def k0_chk141 (v354 : BitVec 32) : Prop :=
  (∀ a, (k0_off302 v354) a + S1x8x32.size a ≤ S12500x8x32.size a)
instance k0_chk141.dec : ∀ (v354 : BitVec 32), Decidable (k0_chk141 v354) := fun v354 => decidable_of_iff' _ (Iff.of_eq (k0_chk141.eq_1 v354))
theorem k0_off302_inb : ∀ (v354 : BitVec 32) (k0_hw141 : k0_chk141 v354), ∀ a, (k0_off302 v354) a + S1x8x32.size a ≤ S12500x8x32.size a := fun v354 k0_hw141 => k0_hw141

def k0_off303 (v366 : BitVec 32) : Fin 3 → Nat :=
  let c0_i32_307 : BitVec 32 := 0#32
  let c0_i32_308 : BitVec 32 := 0#32
  ![v366.toNat, 0, 0]

def k0_chk142 (v366 : BitVec 32) : Prop :=
  (∀ a, (k0_off303 v366) a + S1x8x32.size a ≤ S12500x8x32.size a)
instance k0_chk142.dec : ∀ (v366 : BitVec 32), Decidable (k0_chk142 v366) := fun v366 => decidable_of_iff' _ (Iff.of_eq (k0_chk142.eq_1 v366))
theorem k0_off303_inb : ∀ (v366 : BitVec 32) (k0_hw142 : k0_chk142 v366), ∀ a, (k0_off303 v366) a + S1x8x32.size a ≤ S12500x8x32.size a := fun v366 k0_hw142 => k0_hw142

def k0_off304 (v378 : BitVec 32) : Fin 3 → Nat :=
  let c0_i32_317 : BitVec 32 := 0#32
  let c0_i32_318 : BitVec 32 := 0#32
  ![v378.toNat, 0, 0]

def k0_chk143 (v378 : BitVec 32) : Prop :=
  (∀ a, (k0_off304 v378) a + S1x8x32.size a ≤ S12500x8x32.size a)
instance k0_chk143.dec : ∀ (v378 : BitVec 32), Decidable (k0_chk143 v378) := fun v378 => decidable_of_iff' _ (Iff.of_eq (k0_chk143.eq_1 v378))
theorem k0_off304_inb : ∀ (v378 : BitVec 32) (k0_hw143 : k0_chk143 v378), ∀ a, (k0_off304 v378) a + S1x8x32.size a ≤ S12500x8x32.size a := fun v378 k0_hw143 => k0_hw143

def k0_off305 (v390 : BitVec 32) : Fin 3 → Nat :=
  let c0_i32_327 : BitVec 32 := 0#32
  let c0_i32_328 : BitVec 32 := 0#32
  ![v390.toNat, 0, 0]

def k0_chk144 (v390 : BitVec 32) : Prop :=
  (∀ a, (k0_off305 v390) a + S1x8x32.size a ≤ S12500x8x32.size a)
instance k0_chk144.dec : ∀ (v390 : BitVec 32), Decidable (k0_chk144 v390) := fun v390 => decidable_of_iff' _ (Iff.of_eq (k0_chk144.eq_1 v390))
theorem k0_off305_inb : ∀ (v390 : BitVec 32) (k0_hw144 : k0_chk144 v390), ∀ a, (k0_off305 v390) a + S1x8x32.size a ≤ S12500x8x32.size a := fun v390 k0_hw144 => k0_hw144

@[reducible] def k0_t7_loop : Scf.Loop 32 :=
  let c0_i32_333 : BitVec 32 := 0#32
  let c8_i32_334 : BitVec 32 := 8#32
  let v401 : BitVec 32 := Scalar.addi c0_i32_333 c8_i32_334
  let c1_i32_335 : BitVec 32 := 1#32
  ⟨c0_i32_333, v401, c1_i32_335⟩
def k0_off306 (k0_t7 : Fin k0_t7_loop.trips) : Fin 1 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_530 : BitVec 32 := 16#32
  let v613 : BitVec 32 := Scalar.muli v612 c16_i32_530
  let v614 : Index := Scalar.indexCast v613
  ![v614.toNat]
def k0_off307 (v618 : BitVec 32) : Fin 3 → Nat :=
  let c0_i32_535 : BitVec 32 := 0#32
  let c0_i32_536 : BitVec 32 := 0#32
  ![v618.toNat, 0, 0]

def k0_chk145 (v618 : BitVec 32) : Prop :=
  (∀ a, (k0_off307 v618) a + S1x8x32.size a ≤ S12500x8x32.size a)
instance k0_chk145.dec : ∀ (v618 : BitVec 32), Decidable (k0_chk145 v618) := fun v618 => decidable_of_iff' _ (Iff.of_eq (k0_chk145.eq_1 v618))
theorem k0_off307_inb : ∀ (v618 : BitVec 32) (k0_hw145 : k0_chk145 v618), ∀ a, (k0_off307 v618) a + S1x8x32.size a ≤ S12500x8x32.size a := fun v618 k0_hw145 => k0_hw145

def k0_off308 (v630 : BitVec 32) : Fin 3 → Nat :=
  let c0_i32_545 : BitVec 32 := 0#32
  let c0_i32_546 : BitVec 32 := 0#32
  ![v630.toNat, 0, 0]

def k0_chk146 (v630 : BitVec 32) : Prop :=
  (∀ a, (k0_off308 v630) a + S1x8x32.size a ≤ S12500x8x32.size a)
instance k0_chk146.dec : ∀ (v630 : BitVec 32), Decidable (k0_chk146 v630) := fun v630 => decidable_of_iff' _ (Iff.of_eq (k0_chk146.eq_1 v630))
theorem k0_off308_inb : ∀ (v630 : BitVec 32) (k0_hw146 : k0_chk146 v630), ∀ a, (k0_off308 v630) a + S1x8x32.size a ≤ S12500x8x32.size a := fun v630 k0_hw146 => k0_hw146

def k0_off309 (v642 : BitVec 32) : Fin 3 → Nat :=
  let c0_i32_555 : BitVec 32 := 0#32
  let c0_i32_556 : BitVec 32 := 0#32
  ![v642.toNat, 0, 0]

def k0_chk147 (v642 : BitVec 32) : Prop :=
  (∀ a, (k0_off309 v642) a + S1x8x32.size a ≤ S12500x8x32.size a)
instance k0_chk147.dec : ∀ (v642 : BitVec 32), Decidable (k0_chk147 v642) := fun v642 => decidable_of_iff' _ (Iff.of_eq (k0_chk147.eq_1 v642))
theorem k0_off309_inb : ∀ (v642 : BitVec 32) (k0_hw147 : k0_chk147 v642), ∀ a, (k0_off309 v642) a + S1x8x32.size a ≤ S12500x8x32.size a := fun v642 k0_hw147 => k0_hw147

def k0_off310 (v654 : BitVec 32) : Fin 3 → Nat :=
  let c0_i32_565 : BitVec 32 := 0#32
  let c0_i32_566 : BitVec 32 := 0#32
  ![v654.toNat, 0, 0]

def k0_chk148 (v654 : BitVec 32) : Prop :=
  (∀ a, (k0_off310 v654) a + S1x8x32.size a ≤ S12500x8x32.size a)
instance k0_chk148.dec : ∀ (v654 : BitVec 32), Decidable (k0_chk148 v654) := fun v654 => decidable_of_iff' _ (Iff.of_eq (k0_chk148.eq_1 v654))
theorem k0_off310_inb : ∀ (v654 : BitVec 32) (k0_hw148 : k0_chk148 v654), ∀ a, (k0_off310 v654) a + S1x8x32.size a ≤ S12500x8x32.size a := fun v654 k0_hw148 => k0_hw148

def k0_off311 (v666 : BitVec 32) : Fin 3 → Nat :=
  let c0_i32_575 : BitVec 32 := 0#32
  let c0_i32_576 : BitVec 32 := 0#32
  ![v666.toNat, 0, 0]

def k0_chk149 (v666 : BitVec 32) : Prop :=
  (∀ a, (k0_off311 v666) a + S1x8x32.size a ≤ S12500x8x32.size a)
instance k0_chk149.dec : ∀ (v666 : BitVec 32), Decidable (k0_chk149 v666) := fun v666 => decidable_of_iff' _ (Iff.of_eq (k0_chk149.eq_1 v666))
theorem k0_off311_inb : ∀ (v666 : BitVec 32) (k0_hw149 : k0_chk149 v666), ∀ a, (k0_off311 v666) a + S1x8x32.size a ≤ S12500x8x32.size a := fun v666 k0_hw149 => k0_hw149

def k0_off312 (v678 : BitVec 32) : Fin 3 → Nat :=
  let c0_i32_585 : BitVec 32 := 0#32
  let c0_i32_586 : BitVec 32 := 0#32
  ![v678.toNat, 0, 0]

def k0_chk150 (v678 : BitVec 32) : Prop :=
  (∀ a, (k0_off312 v678) a + S1x8x32.size a ≤ S12500x8x32.size a)
instance k0_chk150.dec : ∀ (v678 : BitVec 32), Decidable (k0_chk150 v678) := fun v678 => decidable_of_iff' _ (Iff.of_eq (k0_chk150.eq_1 v678))
theorem k0_off312_inb : ∀ (v678 : BitVec 32) (k0_hw150 : k0_chk150 v678), ∀ a, (k0_off312 v678) a + S1x8x32.size a ≤ S12500x8x32.size a := fun v678 k0_hw150 => k0_hw150

def k0_off313 (v690 : BitVec 32) : Fin 3 → Nat :=
  let c0_i32_595 : BitVec 32 := 0#32
  let c0_i32_596 : BitVec 32 := 0#32
  ![v690.toNat, 0, 0]

def k0_chk151 (v690 : BitVec 32) : Prop :=
  (∀ a, (k0_off313 v690) a + S1x8x32.size a ≤ S12500x8x32.size a)
instance k0_chk151.dec : ∀ (v690 : BitVec 32), Decidable (k0_chk151 v690) := fun v690 => decidable_of_iff' _ (Iff.of_eq (k0_chk151.eq_1 v690))
theorem k0_off313_inb : ∀ (v690 : BitVec 32) (k0_hw151 : k0_chk151 v690), ∀ a, (k0_off313 v690) a + S1x8x32.size a ≤ S12500x8x32.size a := fun v690 k0_hw151 => k0_hw151

def k0_off314 (v702 : BitVec 32) : Fin 3 → Nat :=
  let c0_i32_605 : BitVec 32 := 0#32
  let c0_i32_606 : BitVec 32 := 0#32
  ![v702.toNat, 0, 0]

def k0_chk152 (v702 : BitVec 32) : Prop :=
  (∀ a, (k0_off314 v702) a + S1x8x32.size a ≤ S12500x8x32.size a)
instance k0_chk152.dec : ∀ (v702 : BitVec 32), Decidable (k0_chk152 v702) := fun v702 => decidable_of_iff' _ (Iff.of_eq (k0_chk152.eq_1 v702))
theorem k0_off314_inb : ∀ (v702 : BitVec 32) (k0_hw152 : k0_chk152 v702), ∀ a, (k0_off314 v702) a + S1x8x32.size a ≤ S12500x8x32.size a := fun v702 k0_hw152 => k0_hw152

def k0_off315 (v714 : BitVec 32) : Fin 3 → Nat :=
  let c0_i32_615 : BitVec 32 := 0#32
  let c0_i32_616 : BitVec 32 := 0#32
  ![v714.toNat, 0, 0]

def k0_chk153 (v714 : BitVec 32) : Prop :=
  (∀ a, (k0_off315 v714) a + S1x8x32.size a ≤ S12500x8x32.size a)
instance k0_chk153.dec : ∀ (v714 : BitVec 32), Decidable (k0_chk153 v714) := fun v714 => decidable_of_iff' _ (Iff.of_eq (k0_chk153.eq_1 v714))
theorem k0_off315_inb : ∀ (v714 : BitVec 32) (k0_hw153 : k0_chk153 v714), ∀ a, (k0_off315 v714) a + S1x8x32.size a ≤ S12500x8x32.size a := fun v714 k0_hw153 => k0_hw153

def k0_off316 (v726 : BitVec 32) : Fin 3 → Nat :=
  let c0_i32_625 : BitVec 32 := 0#32
  let c0_i32_626 : BitVec 32 := 0#32
  ![v726.toNat, 0, 0]

def k0_chk154 (v726 : BitVec 32) : Prop :=
  (∀ a, (k0_off316 v726) a + S1x8x32.size a ≤ S12500x8x32.size a)
instance k0_chk154.dec : ∀ (v726 : BitVec 32), Decidable (k0_chk154 v726) := fun v726 => decidable_of_iff' _ (Iff.of_eq (k0_chk154.eq_1 v726))
theorem k0_off316_inb : ∀ (v726 : BitVec 32) (k0_hw154 : k0_chk154 v726), ∀ a, (k0_off316 v726) a + S1x8x32.size a ≤ S12500x8x32.size a := fun v726 k0_hw154 => k0_hw154

def k0_off317 (v738 : BitVec 32) : Fin 3 → Nat :=
  let c0_i32_635 : BitVec 32 := 0#32
  let c0_i32_636 : BitVec 32 := 0#32
  ![v738.toNat, 0, 0]

def k0_chk155 (v738 : BitVec 32) : Prop :=
  (∀ a, (k0_off317 v738) a + S1x8x32.size a ≤ S12500x8x32.size a)
instance k0_chk155.dec : ∀ (v738 : BitVec 32), Decidable (k0_chk155 v738) := fun v738 => decidable_of_iff' _ (Iff.of_eq (k0_chk155.eq_1 v738))
theorem k0_off317_inb : ∀ (v738 : BitVec 32) (k0_hw155 : k0_chk155 v738), ∀ a, (k0_off317 v738) a + S1x8x32.size a ≤ S12500x8x32.size a := fun v738 k0_hw155 => k0_hw155

def k0_off318 (v750 : BitVec 32) : Fin 3 → Nat :=
  let c0_i32_645 : BitVec 32 := 0#32
  let c0_i32_646 : BitVec 32 := 0#32
  ![v750.toNat, 0, 0]

def k0_chk156 (v750 : BitVec 32) : Prop :=
  (∀ a, (k0_off318 v750) a + S1x8x32.size a ≤ S12500x8x32.size a)
instance k0_chk156.dec : ∀ (v750 : BitVec 32), Decidable (k0_chk156 v750) := fun v750 => decidable_of_iff' _ (Iff.of_eq (k0_chk156.eq_1 v750))
theorem k0_off318_inb : ∀ (v750 : BitVec 32) (k0_hw156 : k0_chk156 v750), ∀ a, (k0_off318 v750) a + S1x8x32.size a ≤ S12500x8x32.size a := fun v750 k0_hw156 => k0_hw156

def k0_off319 (v762 : BitVec 32) : Fin 3 → Nat :=
  let c0_i32_655 : BitVec 32 := 0#32
  let c0_i32_656 : BitVec 32 := 0#32
  ![v762.toNat, 0, 0]

def k0_chk157 (v762 : BitVec 32) : Prop :=
  (∀ a, (k0_off319 v762) a + S1x8x32.size a ≤ S12500x8x32.size a)
instance k0_chk157.dec : ∀ (v762 : BitVec 32), Decidable (k0_chk157 v762) := fun v762 => decidable_of_iff' _ (Iff.of_eq (k0_chk157.eq_1 v762))
theorem k0_off319_inb : ∀ (v762 : BitVec 32) (k0_hw157 : k0_chk157 v762), ∀ a, (k0_off319 v762) a + S1x8x32.size a ≤ S12500x8x32.size a := fun v762 k0_hw157 => k0_hw157

def k0_off320 (v774 : BitVec 32) : Fin 3 → Nat :=
  let c0_i32_665 : BitVec 32 := 0#32
  let c0_i32_666 : BitVec 32 := 0#32
  ![v774.toNat, 0, 0]

def k0_chk158 (v774 : BitVec 32) : Prop :=
  (∀ a, (k0_off320 v774) a + S1x8x32.size a ≤ S12500x8x32.size a)
instance k0_chk158.dec : ∀ (v774 : BitVec 32), Decidable (k0_chk158 v774) := fun v774 => decidable_of_iff' _ (Iff.of_eq (k0_chk158.eq_1 v774))
theorem k0_off320_inb : ∀ (v774 : BitVec 32) (k0_hw158 : k0_chk158 v774), ∀ a, (k0_off320 v774) a + S1x8x32.size a ≤ S12500x8x32.size a := fun v774 k0_hw158 => k0_hw158

def k0_off321 (v786 : BitVec 32) : Fin 3 → Nat :=
  let c0_i32_675 : BitVec 32 := 0#32
  let c0_i32_676 : BitVec 32 := 0#32
  ![v786.toNat, 0, 0]

def k0_chk159 (v786 : BitVec 32) : Prop :=
  (∀ a, (k0_off321 v786) a + S1x8x32.size a ≤ S12500x8x32.size a)
instance k0_chk159.dec : ∀ (v786 : BitVec 32), Decidable (k0_chk159 v786) := fun v786 => decidable_of_iff' _ (Iff.of_eq (k0_chk159.eq_1 v786))
theorem k0_off321_inb : ∀ (v786 : BitVec 32) (k0_hw159 : k0_chk159 v786), ∀ a, (k0_off321 v786) a + S1x8x32.size a ≤ S12500x8x32.size a := fun v786 k0_hw159 => k0_hw159

def k0_off322 (v798 : BitVec 32) : Fin 3 → Nat :=
  let c0_i32_685 : BitVec 32 := 0#32
  let c0_i32_686 : BitVec 32 := 0#32
  ![v798.toNat, 0, 0]

def k0_chk160 (v798 : BitVec 32) : Prop :=
  (∀ a, (k0_off322 v798) a + S1x8x32.size a ≤ S12500x8x32.size a)
instance k0_chk160.dec : ∀ (v798 : BitVec 32), Decidable (k0_chk160 v798) := fun v798 => decidable_of_iff' _ (Iff.of_eq (k0_chk160.eq_1 v798))
theorem k0_off322_inb : ∀ (v798 : BitVec 32) (k0_hw160 : k0_chk160 v798), ∀ a, (k0_off322 v798) a + S1x8x32.size a ≤ S12500x8x32.size a := fun v798 k0_hw160 => k0_hw160

def k0_off323 (k0_t7 : Fin k0_t7_loop.trips) : Fin 1 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let v818 : Index := Scalar.indexCast v817
  ![v818.toNat]
def k0_off324 (v822 : BitVec 32) : Fin 4 → Nat :=
  let c0_i32_706 : BitVec 32 := 0#32
  let v824 : Index := Scalar.indexCast c0_i32_706
  let c0_i32_707 : BitVec 32 := 0#32
  let v825 : Index := Scalar.indexCast c0_i32_707
  let c8_i32_705 : BitVec 32 := 8#32
  let v823 : BitVec 32 := Scalar.remsi v822 c8_i32_705
  let v826 : Index := Scalar.indexCast v823
  let c0_708 : Index := 0#32
  ![0, 0, v826.toNat, 0]

def k0_off325 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_709 : BitVec 32 := 0#32
  let v829 : BitVec 32 := Scalar.addi v817 c0_i32_709
  let v830 : Index := Scalar.indexCast v829
  let c0_710 : Index := 0#32
  ![v830.toNat, 0]
def k0_off326 (v822 : BitVec 32) : Fin 4 → Nat :=
  let c0_i32_711 : BitVec 32 := 0#32
  let v834 : Index := Scalar.indexCast c0_i32_711
  let c0_i32_712 : BitVec 32 := 0#32
  let v835 : Index := Scalar.indexCast c0_i32_712
  let c8_i32_705 : BitVec 32 := 8#32
  let v823 : BitVec 32 := Scalar.remsi v822 c8_i32_705
  let v836 : Index := Scalar.indexCast v823
  let c16 : Index := 16#32
  ![0, 0, v836.toNat, 16]

def k0_chk161 (v822 : BitVec 32) : Prop :=
  (∀ a, (k0_off324 v822) a + S1x1x1x16.size a ≤ S2x16x8x32.size a) ∧
  (∀ a, (k0_off326 v822) a + S1x1x1x16.size a ≤ S2x16x8x32.size a)
instance k0_chk161.dec : ∀ (v822 : BitVec 32), Decidable (k0_chk161 v822) := fun v822 => decidable_of_iff' _ (Iff.of_eq (k0_chk161.eq_1 v822))
theorem k0_off324_inb : ∀ (v822 : BitVec 32) (k0_hw161 : k0_chk161 v822), ∀ a, (k0_off324 v822) a + S1x1x1x16.size a ≤ S2x16x8x32.size a := fun v822 k0_hw161 => k0_hw161.1
theorem k0_off326_inb : ∀ (v822 : BitVec 32) (k0_hw161 : k0_chk161 v822), ∀ a, (k0_off326 v822) a + S1x1x1x16.size a ≤ S2x16x8x32.size a := fun v822 k0_hw161 => k0_hw161.2

def k0_off327 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_713 : BitVec 32 := 0#32
  let v839 : BitVec 32 := Scalar.addi v817 c0_i32_713
  let v840 : Index := Scalar.indexCast v839
  let c16_714 : Index := 16#32
  ![v840.toNat, 16]
def k0_off328 (v845 : BitVec 32) : Fin 4 → Nat :=
  let c0_i32_716 : BitVec 32 := 0#32
  let v847 : Index := Scalar.indexCast c0_i32_716
  let c1_i32_717 : BitVec 32 := 1#32
  let v848 : Index := Scalar.indexCast c1_i32_717
  let c8_i32_715 : BitVec 32 := 8#32
  let v846 : BitVec 32 := Scalar.remsi v845 c8_i32_715
  let v849 : Index := Scalar.indexCast v846
  let c0_718 : Index := 0#32
  ![0, 1, v849.toNat, 0]

def k0_off329 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_719 : BitVec 32 := 1#32
  let v852 : BitVec 32 := Scalar.addi v817 c1_i32_719
  let v853 : Index := Scalar.indexCast v852
  let c0_720 : Index := 0#32
  ![v853.toNat, 0]
def k0_off330 (v845 : BitVec 32) : Fin 4 → Nat :=
  let c0_i32_721 : BitVec 32 := 0#32
  let v857 : Index := Scalar.indexCast c0_i32_721
  let c1_i32_722 : BitVec 32 := 1#32
  let v858 : Index := Scalar.indexCast c1_i32_722
  let c8_i32_715 : BitVec 32 := 8#32
  let v846 : BitVec 32 := Scalar.remsi v845 c8_i32_715
  let v859 : Index := Scalar.indexCast v846
  let c16_723 : Index := 16#32
  ![0, 1, v859.toNat, 16]

def k0_chk162 (v845 : BitVec 32) : Prop :=
  (∀ a, (k0_off328 v845) a + S1x1x1x16.size a ≤ S2x16x8x32.size a) ∧
  (∀ a, (k0_off330 v845) a + S1x1x1x16.size a ≤ S2x16x8x32.size a)
instance k0_chk162.dec : ∀ (v845 : BitVec 32), Decidable (k0_chk162 v845) := fun v845 => decidable_of_iff' _ (Iff.of_eq (k0_chk162.eq_1 v845))
theorem k0_off328_inb : ∀ (v845 : BitVec 32) (k0_hw162 : k0_chk162 v845), ∀ a, (k0_off328 v845) a + S1x1x1x16.size a ≤ S2x16x8x32.size a := fun v845 k0_hw162 => k0_hw162.1
theorem k0_off330_inb : ∀ (v845 : BitVec 32) (k0_hw162 : k0_chk162 v845), ∀ a, (k0_off330 v845) a + S1x1x1x16.size a ≤ S2x16x8x32.size a := fun v845 k0_hw162 => k0_hw162.2

def k0_off331 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_724 : BitVec 32 := 1#32
  let v862 : BitVec 32 := Scalar.addi v817 c1_i32_724
  let v863 : Index := Scalar.indexCast v862
  let c16_725 : Index := 16#32
  ![v863.toNat, 16]
def k0_off332 (v868 : BitVec 32) : Fin 4 → Nat :=
  let c0_i32_727 : BitVec 32 := 0#32
  let v870 : Index := Scalar.indexCast c0_i32_727
  let c2_i32_728 : BitVec 32 := 2#32
  let v871 : Index := Scalar.indexCast c2_i32_728
  let c8_i32_726 : BitVec 32 := 8#32
  let v869 : BitVec 32 := Scalar.remsi v868 c8_i32_726
  let v872 : Index := Scalar.indexCast v869
  let c0_729 : Index := 0#32
  ![0, 2, v872.toNat, 0]

def k0_off333 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_730 : BitVec 32 := 2#32
  let v875 : BitVec 32 := Scalar.addi v817 c2_i32_730
  let v876 : Index := Scalar.indexCast v875
  let c0_731 : Index := 0#32
  ![v876.toNat, 0]
def k0_off334 (v868 : BitVec 32) : Fin 4 → Nat :=
  let c0_i32_732 : BitVec 32 := 0#32
  let v880 : Index := Scalar.indexCast c0_i32_732
  let c2_i32_733 : BitVec 32 := 2#32
  let v881 : Index := Scalar.indexCast c2_i32_733
  let c8_i32_726 : BitVec 32 := 8#32
  let v869 : BitVec 32 := Scalar.remsi v868 c8_i32_726
  let v882 : Index := Scalar.indexCast v869
  let c16_734 : Index := 16#32
  ![0, 2, v882.toNat, 16]

def k0_chk163 (v868 : BitVec 32) : Prop :=
  (∀ a, (k0_off332 v868) a + S1x1x1x16.size a ≤ S2x16x8x32.size a) ∧
  (∀ a, (k0_off334 v868) a + S1x1x1x16.size a ≤ S2x16x8x32.size a)
instance k0_chk163.dec : ∀ (v868 : BitVec 32), Decidable (k0_chk163 v868) := fun v868 => decidable_of_iff' _ (Iff.of_eq (k0_chk163.eq_1 v868))
theorem k0_off332_inb : ∀ (v868 : BitVec 32) (k0_hw163 : k0_chk163 v868), ∀ a, (k0_off332 v868) a + S1x1x1x16.size a ≤ S2x16x8x32.size a := fun v868 k0_hw163 => k0_hw163.1
theorem k0_off334_inb : ∀ (v868 : BitVec 32) (k0_hw163 : k0_chk163 v868), ∀ a, (k0_off334 v868) a + S1x1x1x16.size a ≤ S2x16x8x32.size a := fun v868 k0_hw163 => k0_hw163.2

def k0_off335 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_735 : BitVec 32 := 2#32
  let v885 : BitVec 32 := Scalar.addi v817 c2_i32_735
  let v886 : Index := Scalar.indexCast v885
  let c16_736 : Index := 16#32
  ![v886.toNat, 16]
def k0_off336 (v891 : BitVec 32) : Fin 4 → Nat :=
  let c0_i32_738 : BitVec 32 := 0#32
  let v893 : Index := Scalar.indexCast c0_i32_738
  let c3_i32_739 : BitVec 32 := 3#32
  let v894 : Index := Scalar.indexCast c3_i32_739
  let c8_i32_737 : BitVec 32 := 8#32
  let v892 : BitVec 32 := Scalar.remsi v891 c8_i32_737
  let v895 : Index := Scalar.indexCast v892
  let c0_740 : Index := 0#32
  ![0, 3, v895.toNat, 0]

def k0_off337 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_741 : BitVec 32 := 3#32
  let v898 : BitVec 32 := Scalar.addi v817 c3_i32_741
  let v899 : Index := Scalar.indexCast v898
  let c0_742 : Index := 0#32
  ![v899.toNat, 0]
def k0_off338 (v891 : BitVec 32) : Fin 4 → Nat :=
  let c0_i32_743 : BitVec 32 := 0#32
  let v903 : Index := Scalar.indexCast c0_i32_743
  let c3_i32_744 : BitVec 32 := 3#32
  let v904 : Index := Scalar.indexCast c3_i32_744
  let c8_i32_737 : BitVec 32 := 8#32
  let v892 : BitVec 32 := Scalar.remsi v891 c8_i32_737
  let v905 : Index := Scalar.indexCast v892
  let c16_745 : Index := 16#32
  ![0, 3, v905.toNat, 16]

def k0_chk164 (v891 : BitVec 32) : Prop :=
  (∀ a, (k0_off336 v891) a + S1x1x1x16.size a ≤ S2x16x8x32.size a) ∧
  (∀ a, (k0_off338 v891) a + S1x1x1x16.size a ≤ S2x16x8x32.size a)
instance k0_chk164.dec : ∀ (v891 : BitVec 32), Decidable (k0_chk164 v891) := fun v891 => decidable_of_iff' _ (Iff.of_eq (k0_chk164.eq_1 v891))
theorem k0_off336_inb : ∀ (v891 : BitVec 32) (k0_hw164 : k0_chk164 v891), ∀ a, (k0_off336 v891) a + S1x1x1x16.size a ≤ S2x16x8x32.size a := fun v891 k0_hw164 => k0_hw164.1
theorem k0_off338_inb : ∀ (v891 : BitVec 32) (k0_hw164 : k0_chk164 v891), ∀ a, (k0_off338 v891) a + S1x1x1x16.size a ≤ S2x16x8x32.size a := fun v891 k0_hw164 => k0_hw164.2

def k0_off339 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_746 : BitVec 32 := 3#32
  let v908 : BitVec 32 := Scalar.addi v817 c3_i32_746
  let v909 : Index := Scalar.indexCast v908
  let c16_747 : Index := 16#32
  ![v909.toNat, 16]
def k0_off340 (v914 : BitVec 32) : Fin 4 → Nat :=
  let c0_i32_749 : BitVec 32 := 0#32
  let v916 : Index := Scalar.indexCast c0_i32_749
  let c4_i32_750 : BitVec 32 := 4#32
  let v917 : Index := Scalar.indexCast c4_i32_750
  let c8_i32_748 : BitVec 32 := 8#32
  let v915 : BitVec 32 := Scalar.remsi v914 c8_i32_748
  let v918 : Index := Scalar.indexCast v915
  let c0_751 : Index := 0#32
  ![0, 4, v918.toNat, 0]

def k0_off341 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_752 : BitVec 32 := 4#32
  let v921 : BitVec 32 := Scalar.addi v817 c4_i32_752
  let v922 : Index := Scalar.indexCast v921
  let c0_753 : Index := 0#32
  ![v922.toNat, 0]
def k0_off342 (v914 : BitVec 32) : Fin 4 → Nat :=
  let c0_i32_754 : BitVec 32 := 0#32
  let v926 : Index := Scalar.indexCast c0_i32_754
  let c4_i32_755 : BitVec 32 := 4#32
  let v927 : Index := Scalar.indexCast c4_i32_755
  let c8_i32_748 : BitVec 32 := 8#32
  let v915 : BitVec 32 := Scalar.remsi v914 c8_i32_748
  let v928 : Index := Scalar.indexCast v915
  let c16_756 : Index := 16#32
  ![0, 4, v928.toNat, 16]

def k0_chk165 (v914 : BitVec 32) : Prop :=
  (∀ a, (k0_off340 v914) a + S1x1x1x16.size a ≤ S2x16x8x32.size a) ∧
  (∀ a, (k0_off342 v914) a + S1x1x1x16.size a ≤ S2x16x8x32.size a)
instance k0_chk165.dec : ∀ (v914 : BitVec 32), Decidable (k0_chk165 v914) := fun v914 => decidable_of_iff' _ (Iff.of_eq (k0_chk165.eq_1 v914))
theorem k0_off340_inb : ∀ (v914 : BitVec 32) (k0_hw165 : k0_chk165 v914), ∀ a, (k0_off340 v914) a + S1x1x1x16.size a ≤ S2x16x8x32.size a := fun v914 k0_hw165 => k0_hw165.1
theorem k0_off342_inb : ∀ (v914 : BitVec 32) (k0_hw165 : k0_chk165 v914), ∀ a, (k0_off342 v914) a + S1x1x1x16.size a ≤ S2x16x8x32.size a := fun v914 k0_hw165 => k0_hw165.2

def k0_off343 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_757 : BitVec 32 := 4#32
  let v931 : BitVec 32 := Scalar.addi v817 c4_i32_757
  let v932 : Index := Scalar.indexCast v931
  let c16_758 : Index := 16#32
  ![v932.toNat, 16]
def k0_off344 (v937 : BitVec 32) : Fin 4 → Nat :=
  let c0_i32_760 : BitVec 32 := 0#32
  let v939 : Index := Scalar.indexCast c0_i32_760
  let c5_i32_761 : BitVec 32 := 5#32
  let v940 : Index := Scalar.indexCast c5_i32_761
  let c8_i32_759 : BitVec 32 := 8#32
  let v938 : BitVec 32 := Scalar.remsi v937 c8_i32_759
  let v941 : Index := Scalar.indexCast v938
  let c0_762 : Index := 0#32
  ![0, 5, v941.toNat, 0]

def k0_off345 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_763 : BitVec 32 := 5#32
  let v944 : BitVec 32 := Scalar.addi v817 c5_i32_763
  let v945 : Index := Scalar.indexCast v944
  let c0_764 : Index := 0#32
  ![v945.toNat, 0]
def k0_off346 (v937 : BitVec 32) : Fin 4 → Nat :=
  let c0_i32_765 : BitVec 32 := 0#32
  let v949 : Index := Scalar.indexCast c0_i32_765
  let c5_i32_766 : BitVec 32 := 5#32
  let v950 : Index := Scalar.indexCast c5_i32_766
  let c8_i32_759 : BitVec 32 := 8#32
  let v938 : BitVec 32 := Scalar.remsi v937 c8_i32_759
  let v951 : Index := Scalar.indexCast v938
  let c16_767 : Index := 16#32
  ![0, 5, v951.toNat, 16]

def k0_chk166 (v937 : BitVec 32) : Prop :=
  (∀ a, (k0_off344 v937) a + S1x1x1x16.size a ≤ S2x16x8x32.size a) ∧
  (∀ a, (k0_off346 v937) a + S1x1x1x16.size a ≤ S2x16x8x32.size a)
instance k0_chk166.dec : ∀ (v937 : BitVec 32), Decidable (k0_chk166 v937) := fun v937 => decidable_of_iff' _ (Iff.of_eq (k0_chk166.eq_1 v937))
theorem k0_off344_inb : ∀ (v937 : BitVec 32) (k0_hw166 : k0_chk166 v937), ∀ a, (k0_off344 v937) a + S1x1x1x16.size a ≤ S2x16x8x32.size a := fun v937 k0_hw166 => k0_hw166.1
theorem k0_off346_inb : ∀ (v937 : BitVec 32) (k0_hw166 : k0_chk166 v937), ∀ a, (k0_off346 v937) a + S1x1x1x16.size a ≤ S2x16x8x32.size a := fun v937 k0_hw166 => k0_hw166.2

def k0_off347 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_768 : BitVec 32 := 5#32
  let v954 : BitVec 32 := Scalar.addi v817 c5_i32_768
  let v955 : Index := Scalar.indexCast v954
  let c16_769 : Index := 16#32
  ![v955.toNat, 16]
def k0_off348 (v960 : BitVec 32) : Fin 4 → Nat :=
  let c0_i32_771 : BitVec 32 := 0#32
  let v962 : Index := Scalar.indexCast c0_i32_771
  let c6_i32_772 : BitVec 32 := 6#32
  let v963 : Index := Scalar.indexCast c6_i32_772
  let c8_i32_770 : BitVec 32 := 8#32
  let v961 : BitVec 32 := Scalar.remsi v960 c8_i32_770
  let v964 : Index := Scalar.indexCast v961
  let c0_773 : Index := 0#32
  ![0, 6, v964.toNat, 0]

def k0_off349 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_774 : BitVec 32 := 6#32
  let v967 : BitVec 32 := Scalar.addi v817 c6_i32_774
  let v968 : Index := Scalar.indexCast v967
  let c0_775 : Index := 0#32
  ![v968.toNat, 0]
def k0_off350 (v960 : BitVec 32) : Fin 4 → Nat :=
  let c0_i32_776 : BitVec 32 := 0#32
  let v972 : Index := Scalar.indexCast c0_i32_776
  let c6_i32_777 : BitVec 32 := 6#32
  let v973 : Index := Scalar.indexCast c6_i32_777
  let c8_i32_770 : BitVec 32 := 8#32
  let v961 : BitVec 32 := Scalar.remsi v960 c8_i32_770
  let v974 : Index := Scalar.indexCast v961
  let c16_778 : Index := 16#32
  ![0, 6, v974.toNat, 16]

def k0_chk167 (v960 : BitVec 32) : Prop :=
  (∀ a, (k0_off348 v960) a + S1x1x1x16.size a ≤ S2x16x8x32.size a) ∧
  (∀ a, (k0_off350 v960) a + S1x1x1x16.size a ≤ S2x16x8x32.size a)
instance k0_chk167.dec : ∀ (v960 : BitVec 32), Decidable (k0_chk167 v960) := fun v960 => decidable_of_iff' _ (Iff.of_eq (k0_chk167.eq_1 v960))
theorem k0_off348_inb : ∀ (v960 : BitVec 32) (k0_hw167 : k0_chk167 v960), ∀ a, (k0_off348 v960) a + S1x1x1x16.size a ≤ S2x16x8x32.size a := fun v960 k0_hw167 => k0_hw167.1
theorem k0_off350_inb : ∀ (v960 : BitVec 32) (k0_hw167 : k0_chk167 v960), ∀ a, (k0_off350 v960) a + S1x1x1x16.size a ≤ S2x16x8x32.size a := fun v960 k0_hw167 => k0_hw167.2

def k0_off351 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_779 : BitVec 32 := 6#32
  let v977 : BitVec 32 := Scalar.addi v817 c6_i32_779
  let v978 : Index := Scalar.indexCast v977
  let c16_780 : Index := 16#32
  ![v978.toNat, 16]
def k0_off352 (v983 : BitVec 32) : Fin 4 → Nat :=
  let c0_i32_782 : BitVec 32 := 0#32
  let v985 : Index := Scalar.indexCast c0_i32_782
  let c7_i32_783 : BitVec 32 := 7#32
  let v986 : Index := Scalar.indexCast c7_i32_783
  let c8_i32_781 : BitVec 32 := 8#32
  let v984 : BitVec 32 := Scalar.remsi v983 c8_i32_781
  let v987 : Index := Scalar.indexCast v984
  let c0_784 : Index := 0#32
  ![0, 7, v987.toNat, 0]

def k0_off353 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_785 : BitVec 32 := 7#32
  let v990 : BitVec 32 := Scalar.addi v817 c7_i32_785
  let v991 : Index := Scalar.indexCast v990
  let c0_786 : Index := 0#32
  ![v991.toNat, 0]
def k0_off354 (v983 : BitVec 32) : Fin 4 → Nat :=
  let c0_i32_787 : BitVec 32 := 0#32
  let v995 : Index := Scalar.indexCast c0_i32_787
  let c7_i32_788 : BitVec 32 := 7#32
  let v996 : Index := Scalar.indexCast c7_i32_788
  let c8_i32_781 : BitVec 32 := 8#32
  let v984 : BitVec 32 := Scalar.remsi v983 c8_i32_781
  let v997 : Index := Scalar.indexCast v984
  let c16_789 : Index := 16#32
  ![0, 7, v997.toNat, 16]

def k0_chk168 (v983 : BitVec 32) : Prop :=
  (∀ a, (k0_off352 v983) a + S1x1x1x16.size a ≤ S2x16x8x32.size a) ∧
  (∀ a, (k0_off354 v983) a + S1x1x1x16.size a ≤ S2x16x8x32.size a)
instance k0_chk168.dec : ∀ (v983 : BitVec 32), Decidable (k0_chk168 v983) := fun v983 => decidable_of_iff' _ (Iff.of_eq (k0_chk168.eq_1 v983))
theorem k0_off352_inb : ∀ (v983 : BitVec 32) (k0_hw168 : k0_chk168 v983), ∀ a, (k0_off352 v983) a + S1x1x1x16.size a ≤ S2x16x8x32.size a := fun v983 k0_hw168 => k0_hw168.1
theorem k0_off354_inb : ∀ (v983 : BitVec 32) (k0_hw168 : k0_chk168 v983), ∀ a, (k0_off354 v983) a + S1x1x1x16.size a ≤ S2x16x8x32.size a := fun v983 k0_hw168 => k0_hw168.2

def k0_off355 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_790 : BitVec 32 := 7#32
  let v1000 : BitVec 32 := Scalar.addi v817 c7_i32_790
  let v1001 : Index := Scalar.indexCast v1000
  let c16_791 : Index := 16#32
  ![v1001.toNat, 16]
def k0_off356 (v1006 : BitVec 32) : Fin 4 → Nat :=
  let c0_i32_793 : BitVec 32 := 0#32
  let v1008 : Index := Scalar.indexCast c0_i32_793
  let c8_i32_794 : BitVec 32 := 8#32
  let v1009 : Index := Scalar.indexCast c8_i32_794
  let c8_i32_792 : BitVec 32 := 8#32
  let v1007 : BitVec 32 := Scalar.remsi v1006 c8_i32_792
  let v1010 : Index := Scalar.indexCast v1007
  let c0_795 : Index := 0#32
  ![0, 8, v1010.toNat, 0]

def k0_off357 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_796 : BitVec 32 := 8#32
  let v1013 : BitVec 32 := Scalar.addi v817 c8_i32_796
  let v1014 : Index := Scalar.indexCast v1013
  let c0_797 : Index := 0#32
  ![v1014.toNat, 0]
def k0_off358 (v1006 : BitVec 32) : Fin 4 → Nat :=
  let c0_i32_798 : BitVec 32 := 0#32
  let v1018 : Index := Scalar.indexCast c0_i32_798
  let c8_i32_799 : BitVec 32 := 8#32
  let v1019 : Index := Scalar.indexCast c8_i32_799
  let c8_i32_792 : BitVec 32 := 8#32
  let v1007 : BitVec 32 := Scalar.remsi v1006 c8_i32_792
  let v1020 : Index := Scalar.indexCast v1007
  let c16_800 : Index := 16#32
  ![0, 8, v1020.toNat, 16]

def k0_chk169 (v1006 : BitVec 32) : Prop :=
  (∀ a, (k0_off356 v1006) a + S1x1x1x16.size a ≤ S2x16x8x32.size a) ∧
  (∀ a, (k0_off358 v1006) a + S1x1x1x16.size a ≤ S2x16x8x32.size a)
instance k0_chk169.dec : ∀ (v1006 : BitVec 32), Decidable (k0_chk169 v1006) := fun v1006 => decidable_of_iff' _ (Iff.of_eq (k0_chk169.eq_1 v1006))
theorem k0_off356_inb : ∀ (v1006 : BitVec 32) (k0_hw169 : k0_chk169 v1006), ∀ a, (k0_off356 v1006) a + S1x1x1x16.size a ≤ S2x16x8x32.size a := fun v1006 k0_hw169 => k0_hw169.1
theorem k0_off358_inb : ∀ (v1006 : BitVec 32) (k0_hw169 : k0_chk169 v1006), ∀ a, (k0_off358 v1006) a + S1x1x1x16.size a ≤ S2x16x8x32.size a := fun v1006 k0_hw169 => k0_hw169.2

def k0_off359 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_801 : BitVec 32 := 8#32
  let v1023 : BitVec 32 := Scalar.addi v817 c8_i32_801
  let v1024 : Index := Scalar.indexCast v1023
  let c16_802 : Index := 16#32
  ![v1024.toNat, 16]
def k0_off360 (v1029 : BitVec 32) : Fin 4 → Nat :=
  let c0_i32_804 : BitVec 32 := 0#32
  let v1031 : Index := Scalar.indexCast c0_i32_804
  let c9_i32_805 : BitVec 32 := 9#32
  let v1032 : Index := Scalar.indexCast c9_i32_805
  let c8_i32_803 : BitVec 32 := 8#32
  let v1030 : BitVec 32 := Scalar.remsi v1029 c8_i32_803
  let v1033 : Index := Scalar.indexCast v1030
  let c0_806 : Index := 0#32
  ![0, 9, v1033.toNat, 0]

def k0_off361 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_807 : BitVec 32 := 9#32
  let v1036 : BitVec 32 := Scalar.addi v817 c9_i32_807
  let v1037 : Index := Scalar.indexCast v1036
  let c0_808 : Index := 0#32
  ![v1037.toNat, 0]
def k0_off362 (v1029 : BitVec 32) : Fin 4 → Nat :=
  let c0_i32_809 : BitVec 32 := 0#32
  let v1041 : Index := Scalar.indexCast c0_i32_809
  let c9_i32_810 : BitVec 32 := 9#32
  let v1042 : Index := Scalar.indexCast c9_i32_810
  let c8_i32_803 : BitVec 32 := 8#32
  let v1030 : BitVec 32 := Scalar.remsi v1029 c8_i32_803
  let v1043 : Index := Scalar.indexCast v1030
  let c16_811 : Index := 16#32
  ![0, 9, v1043.toNat, 16]

def k0_chk170 (v1029 : BitVec 32) : Prop :=
  (∀ a, (k0_off360 v1029) a + S1x1x1x16.size a ≤ S2x16x8x32.size a) ∧
  (∀ a, (k0_off362 v1029) a + S1x1x1x16.size a ≤ S2x16x8x32.size a)
instance k0_chk170.dec : ∀ (v1029 : BitVec 32), Decidable (k0_chk170 v1029) := fun v1029 => decidable_of_iff' _ (Iff.of_eq (k0_chk170.eq_1 v1029))
theorem k0_off360_inb : ∀ (v1029 : BitVec 32) (k0_hw170 : k0_chk170 v1029), ∀ a, (k0_off360 v1029) a + S1x1x1x16.size a ≤ S2x16x8x32.size a := fun v1029 k0_hw170 => k0_hw170.1
theorem k0_off362_inb : ∀ (v1029 : BitVec 32) (k0_hw170 : k0_chk170 v1029), ∀ a, (k0_off362 v1029) a + S1x1x1x16.size a ≤ S2x16x8x32.size a := fun v1029 k0_hw170 => k0_hw170.2

def k0_off363 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_812 : BitVec 32 := 9#32
  let v1046 : BitVec 32 := Scalar.addi v817 c9_i32_812
  let v1047 : Index := Scalar.indexCast v1046
  let c16_813 : Index := 16#32
  ![v1047.toNat, 16]
def k0_off364 (v1052 : BitVec 32) : Fin 4 → Nat :=
  let c0_i32_815 : BitVec 32 := 0#32
  let v1054 : Index := Scalar.indexCast c0_i32_815
  let c10_i32_816 : BitVec 32 := 10#32
  let v1055 : Index := Scalar.indexCast c10_i32_816
  let c8_i32_814 : BitVec 32 := 8#32
  let v1053 : BitVec 32 := Scalar.remsi v1052 c8_i32_814
  let v1056 : Index := Scalar.indexCast v1053
  let c0_817 : Index := 0#32
  ![0, 10, v1056.toNat, 0]

def k0_off365 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_818 : BitVec 32 := 10#32
  let v1059 : BitVec 32 := Scalar.addi v817 c10_i32_818
  let v1060 : Index := Scalar.indexCast v1059
  let c0_819 : Index := 0#32
  ![v1060.toNat, 0]
def k0_off366 (v1052 : BitVec 32) : Fin 4 → Nat :=
  let c0_i32_820 : BitVec 32 := 0#32
  let v1064 : Index := Scalar.indexCast c0_i32_820
  let c10_i32_821 : BitVec 32 := 10#32
  let v1065 : Index := Scalar.indexCast c10_i32_821
  let c8_i32_814 : BitVec 32 := 8#32
  let v1053 : BitVec 32 := Scalar.remsi v1052 c8_i32_814
  let v1066 : Index := Scalar.indexCast v1053
  let c16_822 : Index := 16#32
  ![0, 10, v1066.toNat, 16]

def k0_chk171 (v1052 : BitVec 32) : Prop :=
  (∀ a, (k0_off364 v1052) a + S1x1x1x16.size a ≤ S2x16x8x32.size a) ∧
  (∀ a, (k0_off366 v1052) a + S1x1x1x16.size a ≤ S2x16x8x32.size a)
instance k0_chk171.dec : ∀ (v1052 : BitVec 32), Decidable (k0_chk171 v1052) := fun v1052 => decidable_of_iff' _ (Iff.of_eq (k0_chk171.eq_1 v1052))
theorem k0_off364_inb : ∀ (v1052 : BitVec 32) (k0_hw171 : k0_chk171 v1052), ∀ a, (k0_off364 v1052) a + S1x1x1x16.size a ≤ S2x16x8x32.size a := fun v1052 k0_hw171 => k0_hw171.1
theorem k0_off366_inb : ∀ (v1052 : BitVec 32) (k0_hw171 : k0_chk171 v1052), ∀ a, (k0_off366 v1052) a + S1x1x1x16.size a ≤ S2x16x8x32.size a := fun v1052 k0_hw171 => k0_hw171.2

def k0_off367 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_823 : BitVec 32 := 10#32
  let v1069 : BitVec 32 := Scalar.addi v817 c10_i32_823
  let v1070 : Index := Scalar.indexCast v1069
  let c16_824 : Index := 16#32
  ![v1070.toNat, 16]
def k0_off368 (v1075 : BitVec 32) : Fin 4 → Nat :=
  let c0_i32_826 : BitVec 32 := 0#32
  let v1077 : Index := Scalar.indexCast c0_i32_826
  let c11_i32_827 : BitVec 32 := 11#32
  let v1078 : Index := Scalar.indexCast c11_i32_827
  let c8_i32_825 : BitVec 32 := 8#32
  let v1076 : BitVec 32 := Scalar.remsi v1075 c8_i32_825
  let v1079 : Index := Scalar.indexCast v1076
  let c0_828 : Index := 0#32
  ![0, 11, v1079.toNat, 0]

def k0_off369 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_829 : BitVec 32 := 11#32
  let v1082 : BitVec 32 := Scalar.addi v817 c11_i32_829
  let v1083 : Index := Scalar.indexCast v1082
  let c0_830 : Index := 0#32
  ![v1083.toNat, 0]
def k0_off370 (v1075 : BitVec 32) : Fin 4 → Nat :=
  let c0_i32_831 : BitVec 32 := 0#32
  let v1087 : Index := Scalar.indexCast c0_i32_831
  let c11_i32_832 : BitVec 32 := 11#32
  let v1088 : Index := Scalar.indexCast c11_i32_832
  let c8_i32_825 : BitVec 32 := 8#32
  let v1076 : BitVec 32 := Scalar.remsi v1075 c8_i32_825
  let v1089 : Index := Scalar.indexCast v1076
  let c16_833 : Index := 16#32
  ![0, 11, v1089.toNat, 16]

def k0_chk172 (v1075 : BitVec 32) : Prop :=
  (∀ a, (k0_off368 v1075) a + S1x1x1x16.size a ≤ S2x16x8x32.size a) ∧
  (∀ a, (k0_off370 v1075) a + S1x1x1x16.size a ≤ S2x16x8x32.size a)
instance k0_chk172.dec : ∀ (v1075 : BitVec 32), Decidable (k0_chk172 v1075) := fun v1075 => decidable_of_iff' _ (Iff.of_eq (k0_chk172.eq_1 v1075))
theorem k0_off368_inb : ∀ (v1075 : BitVec 32) (k0_hw172 : k0_chk172 v1075), ∀ a, (k0_off368 v1075) a + S1x1x1x16.size a ≤ S2x16x8x32.size a := fun v1075 k0_hw172 => k0_hw172.1
theorem k0_off370_inb : ∀ (v1075 : BitVec 32) (k0_hw172 : k0_chk172 v1075), ∀ a, (k0_off370 v1075) a + S1x1x1x16.size a ≤ S2x16x8x32.size a := fun v1075 k0_hw172 => k0_hw172.2

def k0_off371 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_834 : BitVec 32 := 11#32
  let v1092 : BitVec 32 := Scalar.addi v817 c11_i32_834
  let v1093 : Index := Scalar.indexCast v1092
  let c16_835 : Index := 16#32
  ![v1093.toNat, 16]
def k0_off372 (v1098 : BitVec 32) : Fin 4 → Nat :=
  let c0_i32_837 : BitVec 32 := 0#32
  let v1100 : Index := Scalar.indexCast c0_i32_837
  let c12_i32_838 : BitVec 32 := 12#32
  let v1101 : Index := Scalar.indexCast c12_i32_838
  let c8_i32_836 : BitVec 32 := 8#32
  let v1099 : BitVec 32 := Scalar.remsi v1098 c8_i32_836
  let v1102 : Index := Scalar.indexCast v1099
  let c0_839 : Index := 0#32
  ![0, 12, v1102.toNat, 0]

def k0_off373 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_840 : BitVec 32 := 12#32
  let v1105 : BitVec 32 := Scalar.addi v817 c12_i32_840
  let v1106 : Index := Scalar.indexCast v1105
  let c0_841 : Index := 0#32
  ![v1106.toNat, 0]
def k0_off374 (v1098 : BitVec 32) : Fin 4 → Nat :=
  let c0_i32_842 : BitVec 32 := 0#32
  let v1110 : Index := Scalar.indexCast c0_i32_842
  let c12_i32_843 : BitVec 32 := 12#32
  let v1111 : Index := Scalar.indexCast c12_i32_843
  let c8_i32_836 : BitVec 32 := 8#32
  let v1099 : BitVec 32 := Scalar.remsi v1098 c8_i32_836
  let v1112 : Index := Scalar.indexCast v1099
  let c16_844 : Index := 16#32
  ![0, 12, v1112.toNat, 16]

def k0_chk173 (v1098 : BitVec 32) : Prop :=
  (∀ a, (k0_off372 v1098) a + S1x1x1x16.size a ≤ S2x16x8x32.size a) ∧
  (∀ a, (k0_off374 v1098) a + S1x1x1x16.size a ≤ S2x16x8x32.size a)
instance k0_chk173.dec : ∀ (v1098 : BitVec 32), Decidable (k0_chk173 v1098) := fun v1098 => decidable_of_iff' _ (Iff.of_eq (k0_chk173.eq_1 v1098))
theorem k0_off372_inb : ∀ (v1098 : BitVec 32) (k0_hw173 : k0_chk173 v1098), ∀ a, (k0_off372 v1098) a + S1x1x1x16.size a ≤ S2x16x8x32.size a := fun v1098 k0_hw173 => k0_hw173.1
theorem k0_off374_inb : ∀ (v1098 : BitVec 32) (k0_hw173 : k0_chk173 v1098), ∀ a, (k0_off374 v1098) a + S1x1x1x16.size a ≤ S2x16x8x32.size a := fun v1098 k0_hw173 => k0_hw173.2

def k0_off375 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_845 : BitVec 32 := 12#32
  let v1115 : BitVec 32 := Scalar.addi v817 c12_i32_845
  let v1116 : Index := Scalar.indexCast v1115
  let c16_846 : Index := 16#32
  ![v1116.toNat, 16]
def k0_off376 (v1121 : BitVec 32) : Fin 4 → Nat :=
  let c0_i32_848 : BitVec 32 := 0#32
  let v1123 : Index := Scalar.indexCast c0_i32_848
  let c13_i32_849 : BitVec 32 := 13#32
  let v1124 : Index := Scalar.indexCast c13_i32_849
  let c8_i32_847 : BitVec 32 := 8#32
  let v1122 : BitVec 32 := Scalar.remsi v1121 c8_i32_847
  let v1125 : Index := Scalar.indexCast v1122
  let c0_850 : Index := 0#32
  ![0, 13, v1125.toNat, 0]

def k0_off377 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_851 : BitVec 32 := 13#32
  let v1128 : BitVec 32 := Scalar.addi v817 c13_i32_851
  let v1129 : Index := Scalar.indexCast v1128
  let c0_852 : Index := 0#32
  ![v1129.toNat, 0]
def k0_off378 (v1121 : BitVec 32) : Fin 4 → Nat :=
  let c0_i32_853 : BitVec 32 := 0#32
  let v1133 : Index := Scalar.indexCast c0_i32_853
  let c13_i32_854 : BitVec 32 := 13#32
  let v1134 : Index := Scalar.indexCast c13_i32_854
  let c8_i32_847 : BitVec 32 := 8#32
  let v1122 : BitVec 32 := Scalar.remsi v1121 c8_i32_847
  let v1135 : Index := Scalar.indexCast v1122
  let c16_855 : Index := 16#32
  ![0, 13, v1135.toNat, 16]

def k0_chk174 (v1121 : BitVec 32) : Prop :=
  (∀ a, (k0_off376 v1121) a + S1x1x1x16.size a ≤ S2x16x8x32.size a) ∧
  (∀ a, (k0_off378 v1121) a + S1x1x1x16.size a ≤ S2x16x8x32.size a)
instance k0_chk174.dec : ∀ (v1121 : BitVec 32), Decidable (k0_chk174 v1121) := fun v1121 => decidable_of_iff' _ (Iff.of_eq (k0_chk174.eq_1 v1121))
theorem k0_off376_inb : ∀ (v1121 : BitVec 32) (k0_hw174 : k0_chk174 v1121), ∀ a, (k0_off376 v1121) a + S1x1x1x16.size a ≤ S2x16x8x32.size a := fun v1121 k0_hw174 => k0_hw174.1
theorem k0_off378_inb : ∀ (v1121 : BitVec 32) (k0_hw174 : k0_chk174 v1121), ∀ a, (k0_off378 v1121) a + S1x1x1x16.size a ≤ S2x16x8x32.size a := fun v1121 k0_hw174 => k0_hw174.2

def k0_off379 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_856 : BitVec 32 := 13#32
  let v1138 : BitVec 32 := Scalar.addi v817 c13_i32_856
  let v1139 : Index := Scalar.indexCast v1138
  let c16_857 : Index := 16#32
  ![v1139.toNat, 16]
def k0_off380 (v1144 : BitVec 32) : Fin 4 → Nat :=
  let c0_i32_859 : BitVec 32 := 0#32
  let v1146 : Index := Scalar.indexCast c0_i32_859
  let c14_i32_860 : BitVec 32 := 14#32
  let v1147 : Index := Scalar.indexCast c14_i32_860
  let c8_i32_858 : BitVec 32 := 8#32
  let v1145 : BitVec 32 := Scalar.remsi v1144 c8_i32_858
  let v1148 : Index := Scalar.indexCast v1145
  let c0_861 : Index := 0#32
  ![0, 14, v1148.toNat, 0]

def k0_off381 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_862 : BitVec 32 := 14#32
  let v1151 : BitVec 32 := Scalar.addi v817 c14_i32_862
  let v1152 : Index := Scalar.indexCast v1151
  let c0_863 : Index := 0#32
  ![v1152.toNat, 0]
def k0_off382 (v1144 : BitVec 32) : Fin 4 → Nat :=
  let c0_i32_864 : BitVec 32 := 0#32
  let v1156 : Index := Scalar.indexCast c0_i32_864
  let c14_i32_865 : BitVec 32 := 14#32
  let v1157 : Index := Scalar.indexCast c14_i32_865
  let c8_i32_858 : BitVec 32 := 8#32
  let v1145 : BitVec 32 := Scalar.remsi v1144 c8_i32_858
  let v1158 : Index := Scalar.indexCast v1145
  let c16_866 : Index := 16#32
  ![0, 14, v1158.toNat, 16]

def k0_chk175 (v1144 : BitVec 32) : Prop :=
  (∀ a, (k0_off380 v1144) a + S1x1x1x16.size a ≤ S2x16x8x32.size a) ∧
  (∀ a, (k0_off382 v1144) a + S1x1x1x16.size a ≤ S2x16x8x32.size a)
instance k0_chk175.dec : ∀ (v1144 : BitVec 32), Decidable (k0_chk175 v1144) := fun v1144 => decidable_of_iff' _ (Iff.of_eq (k0_chk175.eq_1 v1144))
theorem k0_off380_inb : ∀ (v1144 : BitVec 32) (k0_hw175 : k0_chk175 v1144), ∀ a, (k0_off380 v1144) a + S1x1x1x16.size a ≤ S2x16x8x32.size a := fun v1144 k0_hw175 => k0_hw175.1
theorem k0_off382_inb : ∀ (v1144 : BitVec 32) (k0_hw175 : k0_chk175 v1144), ∀ a, (k0_off382 v1144) a + S1x1x1x16.size a ≤ S2x16x8x32.size a := fun v1144 k0_hw175 => k0_hw175.2

def k0_off383 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_867 : BitVec 32 := 14#32
  let v1161 : BitVec 32 := Scalar.addi v817 c14_i32_867
  let v1162 : Index := Scalar.indexCast v1161
  let c16_868 : Index := 16#32
  ![v1162.toNat, 16]
def k0_off384 (v1167 : BitVec 32) : Fin 4 → Nat :=
  let c0_i32_870 : BitVec 32 := 0#32
  let v1169 : Index := Scalar.indexCast c0_i32_870
  let c15_i32_871 : BitVec 32 := 15#32
  let v1170 : Index := Scalar.indexCast c15_i32_871
  let c8_i32_869 : BitVec 32 := 8#32
  let v1168 : BitVec 32 := Scalar.remsi v1167 c8_i32_869
  let v1171 : Index := Scalar.indexCast v1168
  let c0_872 : Index := 0#32
  ![0, 15, v1171.toNat, 0]

def k0_off385 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_873 : BitVec 32 := 15#32
  let v1174 : BitVec 32 := Scalar.addi v817 c15_i32_873
  let v1175 : Index := Scalar.indexCast v1174
  let c0_874 : Index := 0#32
  ![v1175.toNat, 0]
def k0_off386 (v1167 : BitVec 32) : Fin 4 → Nat :=
  let c0_i32_875 : BitVec 32 := 0#32
  let v1179 : Index := Scalar.indexCast c0_i32_875
  let c15_i32_876 : BitVec 32 := 15#32
  let v1180 : Index := Scalar.indexCast c15_i32_876
  let c8_i32_869 : BitVec 32 := 8#32
  let v1168 : BitVec 32 := Scalar.remsi v1167 c8_i32_869
  let v1181 : Index := Scalar.indexCast v1168
  let c16_877 : Index := 16#32
  ![0, 15, v1181.toNat, 16]

def k0_chk176 (v1167 : BitVec 32) : Prop :=
  (∀ a, (k0_off384 v1167) a + S1x1x1x16.size a ≤ S2x16x8x32.size a) ∧
  (∀ a, (k0_off386 v1167) a + S1x1x1x16.size a ≤ S2x16x8x32.size a)
instance k0_chk176.dec : ∀ (v1167 : BitVec 32), Decidable (k0_chk176 v1167) := fun v1167 => decidable_of_iff' _ (Iff.of_eq (k0_chk176.eq_1 v1167))
theorem k0_off384_inb : ∀ (v1167 : BitVec 32) (k0_hw176 : k0_chk176 v1167), ∀ a, (k0_off384 v1167) a + S1x1x1x16.size a ≤ S2x16x8x32.size a := fun v1167 k0_hw176 => k0_hw176.1
theorem k0_off386_inb : ∀ (v1167 : BitVec 32) (k0_hw176 : k0_chk176 v1167), ∀ a, (k0_off386 v1167) a + S1x1x1x16.size a ≤ S2x16x8x32.size a := fun v1167 k0_hw176 => k0_hw176.2

def k0_off387 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_878 : BitVec 32 := 15#32
  let v1184 : BitVec 32 := Scalar.addi v817 c15_i32_878
  let v1185 : Index := Scalar.indexCast v1184
  let c16_879 : Index := 16#32
  ![v1185.toNat, 16]
def k0_cond2 (k0_t7 : Fin k0_t7_loop.trips) : BitVec 1 :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_880 : BitVec 32 := 1#32
  let v1189 : BitVec 32 := Scalar.addi v612 c1_i32_880
  let c16_i32_881 : BitVec 32 := 16#32
  let v1190 : BitVec 1 := Scalar.cmpi .slt v1189 c16_i32_881
  let v1191 : BitVec 32 := Scalar.extui v1190
  let c0_i32_882 : BitVec 32 := 0#32
  let v1192 : BitVec 1 := Scalar.cmpi .ne v1191 c0_i32_882
  v1192

def k0_off388 (k0_t7 : Fin k0_t7_loop.trips) : Fin 1 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_1073 : BitVec 32 := 1#32
  let v1573 : BitVec 32 := Scalar.addi v612 c1_i32_1073
  let c16_i32_1074 : BitVec 32 := 16#32
  let v1574 : BitVec 32 := Scalar.muli v1573 c16_i32_1074
  let v1575 : Index := Scalar.indexCast v1574
  ![v1575.toNat]
def k0_off389 (v1579 : BitVec 32) : Fin 3 → Nat :=
  let c0_i32_1079 : BitVec 32 := 0#32
  let c0_i32_1080 : BitVec 32 := 0#32
  ![v1579.toNat, 0, 0]

def k0_chk177 (k0_t7 : Fin k0_t7_loop.trips) (v1579 : BitVec 32) : Prop :=
  (∀ (k0_h2 : k0_cond2 k0_t7 = 1#1), ∀ a, (k0_off389 v1579) a + S1x8x32.size a ≤ S12500x8x32.size a)
instance k0_chk177.dec : ∀ (k0_t7 : Fin k0_t7_loop.trips) (v1579 : BitVec 32), Decidable (k0_chk177 k0_t7 v1579) := fun k0_t7 v1579 => decidable_of_iff' _ (Iff.of_eq (k0_chk177.eq_1 k0_t7 v1579))
theorem k0_off389_inb : ∀ (k0_t7 : Fin k0_t7_loop.trips) (v1579 : BitVec 32) (k0_hw177 : k0_chk177 k0_t7 v1579), ∀ (k0_h2 : k0_cond2 k0_t7 = 1#1), ∀ a, (k0_off389 v1579) a + S1x8x32.size a ≤ S12500x8x32.size a := fun k0_t7 v1579 k0_hw177 k0_h2 => k0_hw177 k0_h2

def k0_off390 (v1591 : BitVec 32) : Fin 3 → Nat :=
  let c0_i32_1089 : BitVec 32 := 0#32
  let c0_i32_1090 : BitVec 32 := 0#32
  ![v1591.toNat, 0, 0]

def k0_chk178 (k0_t7 : Fin k0_t7_loop.trips) (v1591 : BitVec 32) : Prop :=
  (∀ (k0_h2 : k0_cond2 k0_t7 = 1#1), ∀ a, (k0_off390 v1591) a + S1x8x32.size a ≤ S12500x8x32.size a)
instance k0_chk178.dec : ∀ (k0_t7 : Fin k0_t7_loop.trips) (v1591 : BitVec 32), Decidable (k0_chk178 k0_t7 v1591) := fun k0_t7 v1591 => decidable_of_iff' _ (Iff.of_eq (k0_chk178.eq_1 k0_t7 v1591))
theorem k0_off390_inb : ∀ (k0_t7 : Fin k0_t7_loop.trips) (v1591 : BitVec 32) (k0_hw178 : k0_chk178 k0_t7 v1591), ∀ (k0_h2 : k0_cond2 k0_t7 = 1#1), ∀ a, (k0_off390 v1591) a + S1x8x32.size a ≤ S12500x8x32.size a := fun k0_t7 v1591 k0_hw178 k0_h2 => k0_hw178 k0_h2

def k0_off391 (v1603 : BitVec 32) : Fin 3 → Nat :=
  let c0_i32_1099 : BitVec 32 := 0#32
  let c0_i32_1100 : BitVec 32 := 0#32
  ![v1603.toNat, 0, 0]

def k0_chk179 (k0_t7 : Fin k0_t7_loop.trips) (v1603 : BitVec 32) : Prop :=
  (∀ (k0_h2 : k0_cond2 k0_t7 = 1#1), ∀ a, (k0_off391 v1603) a + S1x8x32.size a ≤ S12500x8x32.size a)
instance k0_chk179.dec : ∀ (k0_t7 : Fin k0_t7_loop.trips) (v1603 : BitVec 32), Decidable (k0_chk179 k0_t7 v1603) := fun k0_t7 v1603 => decidable_of_iff' _ (Iff.of_eq (k0_chk179.eq_1 k0_t7 v1603))
theorem k0_off391_inb : ∀ (k0_t7 : Fin k0_t7_loop.trips) (v1603 : BitVec 32) (k0_hw179 : k0_chk179 k0_t7 v1603), ∀ (k0_h2 : k0_cond2 k0_t7 = 1#1), ∀ a, (k0_off391 v1603) a + S1x8x32.size a ≤ S12500x8x32.size a := fun k0_t7 v1603 k0_hw179 k0_h2 => k0_hw179 k0_h2

def k0_off392 (v1615 : BitVec 32) : Fin 3 → Nat :=
  let c0_i32_1109 : BitVec 32 := 0#32
  let c0_i32_1110 : BitVec 32 := 0#32
  ![v1615.toNat, 0, 0]

def k0_chk180 (k0_t7 : Fin k0_t7_loop.trips) (v1615 : BitVec 32) : Prop :=
  (∀ (k0_h2 : k0_cond2 k0_t7 = 1#1), ∀ a, (k0_off392 v1615) a + S1x8x32.size a ≤ S12500x8x32.size a)
instance k0_chk180.dec : ∀ (k0_t7 : Fin k0_t7_loop.trips) (v1615 : BitVec 32), Decidable (k0_chk180 k0_t7 v1615) := fun k0_t7 v1615 => decidable_of_iff' _ (Iff.of_eq (k0_chk180.eq_1 k0_t7 v1615))
theorem k0_off392_inb : ∀ (k0_t7 : Fin k0_t7_loop.trips) (v1615 : BitVec 32) (k0_hw180 : k0_chk180 k0_t7 v1615), ∀ (k0_h2 : k0_cond2 k0_t7 = 1#1), ∀ a, (k0_off392 v1615) a + S1x8x32.size a ≤ S12500x8x32.size a := fun k0_t7 v1615 k0_hw180 k0_h2 => k0_hw180 k0_h2

def k0_off393 (v1627 : BitVec 32) : Fin 3 → Nat :=
  let c0_i32_1119 : BitVec 32 := 0#32
  let c0_i32_1120 : BitVec 32 := 0#32
  ![v1627.toNat, 0, 0]

def k0_chk181 (k0_t7 : Fin k0_t7_loop.trips) (v1627 : BitVec 32) : Prop :=
  (∀ (k0_h2 : k0_cond2 k0_t7 = 1#1), ∀ a, (k0_off393 v1627) a + S1x8x32.size a ≤ S12500x8x32.size a)
instance k0_chk181.dec : ∀ (k0_t7 : Fin k0_t7_loop.trips) (v1627 : BitVec 32), Decidable (k0_chk181 k0_t7 v1627) := fun k0_t7 v1627 => decidable_of_iff' _ (Iff.of_eq (k0_chk181.eq_1 k0_t7 v1627))
theorem k0_off393_inb : ∀ (k0_t7 : Fin k0_t7_loop.trips) (v1627 : BitVec 32) (k0_hw181 : k0_chk181 k0_t7 v1627), ∀ (k0_h2 : k0_cond2 k0_t7 = 1#1), ∀ a, (k0_off393 v1627) a + S1x8x32.size a ≤ S12500x8x32.size a := fun k0_t7 v1627 k0_hw181 k0_h2 => k0_hw181 k0_h2

def k0_off394 (v1639 : BitVec 32) : Fin 3 → Nat :=
  let c0_i32_1129 : BitVec 32 := 0#32
  let c0_i32_1130 : BitVec 32 := 0#32
  ![v1639.toNat, 0, 0]

def k0_chk182 (k0_t7 : Fin k0_t7_loop.trips) (v1639 : BitVec 32) : Prop :=
  (∀ (k0_h2 : k0_cond2 k0_t7 = 1#1), ∀ a, (k0_off394 v1639) a + S1x8x32.size a ≤ S12500x8x32.size a)
instance k0_chk182.dec : ∀ (k0_t7 : Fin k0_t7_loop.trips) (v1639 : BitVec 32), Decidable (k0_chk182 k0_t7 v1639) := fun k0_t7 v1639 => decidable_of_iff' _ (Iff.of_eq (k0_chk182.eq_1 k0_t7 v1639))
theorem k0_off394_inb : ∀ (k0_t7 : Fin k0_t7_loop.trips) (v1639 : BitVec 32) (k0_hw182 : k0_chk182 k0_t7 v1639), ∀ (k0_h2 : k0_cond2 k0_t7 = 1#1), ∀ a, (k0_off394 v1639) a + S1x8x32.size a ≤ S12500x8x32.size a := fun k0_t7 v1639 k0_hw182 k0_h2 => k0_hw182 k0_h2

def k0_off395 (v1651 : BitVec 32) : Fin 3 → Nat :=
  let c0_i32_1139 : BitVec 32 := 0#32
  let c0_i32_1140 : BitVec 32 := 0#32
  ![v1651.toNat, 0, 0]

def k0_chk183 (k0_t7 : Fin k0_t7_loop.trips) (v1651 : BitVec 32) : Prop :=
  (∀ (k0_h2 : k0_cond2 k0_t7 = 1#1), ∀ a, (k0_off395 v1651) a + S1x8x32.size a ≤ S12500x8x32.size a)
instance k0_chk183.dec : ∀ (k0_t7 : Fin k0_t7_loop.trips) (v1651 : BitVec 32), Decidable (k0_chk183 k0_t7 v1651) := fun k0_t7 v1651 => decidable_of_iff' _ (Iff.of_eq (k0_chk183.eq_1 k0_t7 v1651))
theorem k0_off395_inb : ∀ (k0_t7 : Fin k0_t7_loop.trips) (v1651 : BitVec 32) (k0_hw183 : k0_chk183 k0_t7 v1651), ∀ (k0_h2 : k0_cond2 k0_t7 = 1#1), ∀ a, (k0_off395 v1651) a + S1x8x32.size a ≤ S12500x8x32.size a := fun k0_t7 v1651 k0_hw183 k0_h2 => k0_hw183 k0_h2

def k0_off396 (v1663 : BitVec 32) : Fin 3 → Nat :=
  let c0_i32_1149 : BitVec 32 := 0#32
  let c0_i32_1150 : BitVec 32 := 0#32
  ![v1663.toNat, 0, 0]

def k0_chk184 (k0_t7 : Fin k0_t7_loop.trips) (v1663 : BitVec 32) : Prop :=
  (∀ (k0_h2 : k0_cond2 k0_t7 = 1#1), ∀ a, (k0_off396 v1663) a + S1x8x32.size a ≤ S12500x8x32.size a)
instance k0_chk184.dec : ∀ (k0_t7 : Fin k0_t7_loop.trips) (v1663 : BitVec 32), Decidable (k0_chk184 k0_t7 v1663) := fun k0_t7 v1663 => decidable_of_iff' _ (Iff.of_eq (k0_chk184.eq_1 k0_t7 v1663))
theorem k0_off396_inb : ∀ (k0_t7 : Fin k0_t7_loop.trips) (v1663 : BitVec 32) (k0_hw184 : k0_chk184 k0_t7 v1663), ∀ (k0_h2 : k0_cond2 k0_t7 = 1#1), ∀ a, (k0_off396 v1663) a + S1x8x32.size a ≤ S12500x8x32.size a := fun k0_t7 v1663 k0_hw184 k0_h2 => k0_hw184 k0_h2

def k0_off397 (v1675 : BitVec 32) : Fin 3 → Nat :=
  let c0_i32_1159 : BitVec 32 := 0#32
  let c0_i32_1160 : BitVec 32 := 0#32
  ![v1675.toNat, 0, 0]

def k0_chk185 (k0_t7 : Fin k0_t7_loop.trips) (v1675 : BitVec 32) : Prop :=
  (∀ (k0_h2 : k0_cond2 k0_t7 = 1#1), ∀ a, (k0_off397 v1675) a + S1x8x32.size a ≤ S12500x8x32.size a)
instance k0_chk185.dec : ∀ (k0_t7 : Fin k0_t7_loop.trips) (v1675 : BitVec 32), Decidable (k0_chk185 k0_t7 v1675) := fun k0_t7 v1675 => decidable_of_iff' _ (Iff.of_eq (k0_chk185.eq_1 k0_t7 v1675))
theorem k0_off397_inb : ∀ (k0_t7 : Fin k0_t7_loop.trips) (v1675 : BitVec 32) (k0_hw185 : k0_chk185 k0_t7 v1675), ∀ (k0_h2 : k0_cond2 k0_t7 = 1#1), ∀ a, (k0_off397 v1675) a + S1x8x32.size a ≤ S12500x8x32.size a := fun k0_t7 v1675 k0_hw185 k0_h2 => k0_hw185 k0_h2

def k0_off398 (v1687 : BitVec 32) : Fin 3 → Nat :=
  let c0_i32_1169 : BitVec 32 := 0#32
  let c0_i32_1170 : BitVec 32 := 0#32
  ![v1687.toNat, 0, 0]

def k0_chk186 (k0_t7 : Fin k0_t7_loop.trips) (v1687 : BitVec 32) : Prop :=
  (∀ (k0_h2 : k0_cond2 k0_t7 = 1#1), ∀ a, (k0_off398 v1687) a + S1x8x32.size a ≤ S12500x8x32.size a)
instance k0_chk186.dec : ∀ (k0_t7 : Fin k0_t7_loop.trips) (v1687 : BitVec 32), Decidable (k0_chk186 k0_t7 v1687) := fun k0_t7 v1687 => decidable_of_iff' _ (Iff.of_eq (k0_chk186.eq_1 k0_t7 v1687))
theorem k0_off398_inb : ∀ (k0_t7 : Fin k0_t7_loop.trips) (v1687 : BitVec 32) (k0_hw186 : k0_chk186 k0_t7 v1687), ∀ (k0_h2 : k0_cond2 k0_t7 = 1#1), ∀ a, (k0_off398 v1687) a + S1x8x32.size a ≤ S12500x8x32.size a := fun k0_t7 v1687 k0_hw186 k0_h2 => k0_hw186 k0_h2

def k0_off399 (v1699 : BitVec 32) : Fin 3 → Nat :=
  let c0_i32_1179 : BitVec 32 := 0#32
  let c0_i32_1180 : BitVec 32 := 0#32
  ![v1699.toNat, 0, 0]

def k0_chk187 (k0_t7 : Fin k0_t7_loop.trips) (v1699 : BitVec 32) : Prop :=
  (∀ (k0_h2 : k0_cond2 k0_t7 = 1#1), ∀ a, (k0_off399 v1699) a + S1x8x32.size a ≤ S12500x8x32.size a)
instance k0_chk187.dec : ∀ (k0_t7 : Fin k0_t7_loop.trips) (v1699 : BitVec 32), Decidable (k0_chk187 k0_t7 v1699) := fun k0_t7 v1699 => decidable_of_iff' _ (Iff.of_eq (k0_chk187.eq_1 k0_t7 v1699))
theorem k0_off399_inb : ∀ (k0_t7 : Fin k0_t7_loop.trips) (v1699 : BitVec 32) (k0_hw187 : k0_chk187 k0_t7 v1699), ∀ (k0_h2 : k0_cond2 k0_t7 = 1#1), ∀ a, (k0_off399 v1699) a + S1x8x32.size a ≤ S12500x8x32.size a := fun k0_t7 v1699 k0_hw187 k0_h2 => k0_hw187 k0_h2

def k0_off400 (v1711 : BitVec 32) : Fin 3 → Nat :=
  let c0_i32_1189 : BitVec 32 := 0#32
  let c0_i32_1190 : BitVec 32 := 0#32
  ![v1711.toNat, 0, 0]

def k0_chk188 (k0_t7 : Fin k0_t7_loop.trips) (v1711 : BitVec 32) : Prop :=
  (∀ (k0_h2 : k0_cond2 k0_t7 = 1#1), ∀ a, (k0_off400 v1711) a + S1x8x32.size a ≤ S12500x8x32.size a)
instance k0_chk188.dec : ∀ (k0_t7 : Fin k0_t7_loop.trips) (v1711 : BitVec 32), Decidable (k0_chk188 k0_t7 v1711) := fun k0_t7 v1711 => decidable_of_iff' _ (Iff.of_eq (k0_chk188.eq_1 k0_t7 v1711))
theorem k0_off400_inb : ∀ (k0_t7 : Fin k0_t7_loop.trips) (v1711 : BitVec 32) (k0_hw188 : k0_chk188 k0_t7 v1711), ∀ (k0_h2 : k0_cond2 k0_t7 = 1#1), ∀ a, (k0_off400 v1711) a + S1x8x32.size a ≤ S12500x8x32.size a := fun k0_t7 v1711 k0_hw188 k0_h2 => k0_hw188 k0_h2

def k0_off401 (v1723 : BitVec 32) : Fin 3 → Nat :=
  let c0_i32_1199 : BitVec 32 := 0#32
  let c0_i32_1200 : BitVec 32 := 0#32
  ![v1723.toNat, 0, 0]

def k0_chk189 (k0_t7 : Fin k0_t7_loop.trips) (v1723 : BitVec 32) : Prop :=
  (∀ (k0_h2 : k0_cond2 k0_t7 = 1#1), ∀ a, (k0_off401 v1723) a + S1x8x32.size a ≤ S12500x8x32.size a)
instance k0_chk189.dec : ∀ (k0_t7 : Fin k0_t7_loop.trips) (v1723 : BitVec 32), Decidable (k0_chk189 k0_t7 v1723) := fun k0_t7 v1723 => decidable_of_iff' _ (Iff.of_eq (k0_chk189.eq_1 k0_t7 v1723))
theorem k0_off401_inb : ∀ (k0_t7 : Fin k0_t7_loop.trips) (v1723 : BitVec 32) (k0_hw189 : k0_chk189 k0_t7 v1723), ∀ (k0_h2 : k0_cond2 k0_t7 = 1#1), ∀ a, (k0_off401 v1723) a + S1x8x32.size a ≤ S12500x8x32.size a := fun k0_t7 v1723 k0_hw189 k0_h2 => k0_hw189 k0_h2

def k0_off402 (v1735 : BitVec 32) : Fin 3 → Nat :=
  let c0_i32_1209 : BitVec 32 := 0#32
  let c0_i32_1210 : BitVec 32 := 0#32
  ![v1735.toNat, 0, 0]

def k0_chk190 (k0_t7 : Fin k0_t7_loop.trips) (v1735 : BitVec 32) : Prop :=
  (∀ (k0_h2 : k0_cond2 k0_t7 = 1#1), ∀ a, (k0_off402 v1735) a + S1x8x32.size a ≤ S12500x8x32.size a)
instance k0_chk190.dec : ∀ (k0_t7 : Fin k0_t7_loop.trips) (v1735 : BitVec 32), Decidable (k0_chk190 k0_t7 v1735) := fun k0_t7 v1735 => decidable_of_iff' _ (Iff.of_eq (k0_chk190.eq_1 k0_t7 v1735))
theorem k0_off402_inb : ∀ (k0_t7 : Fin k0_t7_loop.trips) (v1735 : BitVec 32) (k0_hw190 : k0_chk190 k0_t7 v1735), ∀ (k0_h2 : k0_cond2 k0_t7 = 1#1), ∀ a, (k0_off402 v1735) a + S1x8x32.size a ≤ S12500x8x32.size a := fun k0_t7 v1735 k0_hw190 k0_h2 => k0_hw190 k0_h2

def k0_off403 (v1747 : BitVec 32) : Fin 3 → Nat :=
  let c0_i32_1219 : BitVec 32 := 0#32
  let c0_i32_1220 : BitVec 32 := 0#32
  ![v1747.toNat, 0, 0]

def k0_chk191 (k0_t7 : Fin k0_t7_loop.trips) (v1747 : BitVec 32) : Prop :=
  (∀ (k0_h2 : k0_cond2 k0_t7 = 1#1), ∀ a, (k0_off403 v1747) a + S1x8x32.size a ≤ S12500x8x32.size a)
instance k0_chk191.dec : ∀ (k0_t7 : Fin k0_t7_loop.trips) (v1747 : BitVec 32), Decidable (k0_chk191 k0_t7 v1747) := fun k0_t7 v1747 => decidable_of_iff' _ (Iff.of_eq (k0_chk191.eq_1 k0_t7 v1747))
theorem k0_off403_inb : ∀ (k0_t7 : Fin k0_t7_loop.trips) (v1747 : BitVec 32) (k0_hw191 : k0_chk191 k0_t7 v1747), ∀ (k0_h2 : k0_cond2 k0_t7 = 1#1), ∀ a, (k0_off403 v1747) a + S1x8x32.size a ≤ S12500x8x32.size a := fun k0_t7 v1747 k0_hw191 k0_h2 => k0_hw191 k0_h2

def k0_off404 (v1759 : BitVec 32) : Fin 3 → Nat :=
  let c0_i32_1229 : BitVec 32 := 0#32
  let c0_i32_1230 : BitVec 32 := 0#32
  ![v1759.toNat, 0, 0]

def k0_chk192 (k0_t7 : Fin k0_t7_loop.trips) (v1759 : BitVec 32) : Prop :=
  (∀ (k0_h2 : k0_cond2 k0_t7 = 1#1), ∀ a, (k0_off404 v1759) a + S1x8x32.size a ≤ S12500x8x32.size a)
instance k0_chk192.dec : ∀ (k0_t7 : Fin k0_t7_loop.trips) (v1759 : BitVec 32), Decidable (k0_chk192 k0_t7 v1759) := fun k0_t7 v1759 => decidable_of_iff' _ (Iff.of_eq (k0_chk192.eq_1 k0_t7 v1759))
theorem k0_off404_inb : ∀ (k0_t7 : Fin k0_t7_loop.trips) (v1759 : BitVec 32) (k0_hw192 : k0_chk192 k0_t7 v1759), ∀ (k0_h2 : k0_cond2 k0_t7 = 1#1), ∀ a, (k0_off404 v1759) a + S1x8x32.size a ≤ S12500x8x32.size a := fun k0_t7 v1759 k0_hw192 k0_h2 => k0_hw192 k0_h2

def k0_off405 (k0_t7 : Fin k0_t7_loop.trips) : Fin 1 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let v1202 : Index := Scalar.indexCast v1201
  ![v1202.toNat]
def k0_off406 (v1206 : BitVec 32) : Fin 4 → Nat :=
  let c1_i32_898 : BitVec 32 := 1#32
  let v1208 : Index := Scalar.indexCast c1_i32_898
  let c0_i32_899 : BitVec 32 := 0#32
  let v1209 : Index := Scalar.indexCast c0_i32_899
  let c8_i32_897 : BitVec 32 := 8#32
  let v1207 : BitVec 32 := Scalar.remsi v1206 c8_i32_897
  let v1210 : Index := Scalar.indexCast v1207
  let c0_900 : Index := 0#32
  ![1, 0, v1210.toNat, 0]

def k0_off407 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_901 : BitVec 32 := 0#32
  let v1213 : BitVec 32 := Scalar.addi v1201 c0_i32_901
  let v1214 : Index := Scalar.indexCast v1213
  let c0_902 : Index := 0#32
  ![v1214.toNat, 0]
def k0_off408 (v1206 : BitVec 32) : Fin 4 → Nat :=
  let c1_i32_903 : BitVec 32 := 1#32
  let v1218 : Index := Scalar.indexCast c1_i32_903
  let c0_i32_904 : BitVec 32 := 0#32
  let v1219 : Index := Scalar.indexCast c0_i32_904
  let c8_i32_897 : BitVec 32 := 8#32
  let v1207 : BitVec 32 := Scalar.remsi v1206 c8_i32_897
  let v1220 : Index := Scalar.indexCast v1207
  let c16_905 : Index := 16#32
  ![1, 0, v1220.toNat, 16]

def k0_chk193 (v1206 : BitVec 32) : Prop :=
  (∀ a, (k0_off406 v1206) a + S1x1x1x16.size a ≤ S2x16x8x32.size a) ∧
  (∀ a, (k0_off408 v1206) a + S1x1x1x16.size a ≤ S2x16x8x32.size a)
instance k0_chk193.dec : ∀ (v1206 : BitVec 32), Decidable (k0_chk193 v1206) := fun v1206 => decidable_of_iff' _ (Iff.of_eq (k0_chk193.eq_1 v1206))
theorem k0_off406_inb : ∀ (v1206 : BitVec 32) (k0_hw193 : k0_chk193 v1206), ∀ a, (k0_off406 v1206) a + S1x1x1x16.size a ≤ S2x16x8x32.size a := fun v1206 k0_hw193 => k0_hw193.1
theorem k0_off408_inb : ∀ (v1206 : BitVec 32) (k0_hw193 : k0_chk193 v1206), ∀ a, (k0_off408 v1206) a + S1x1x1x16.size a ≤ S2x16x8x32.size a := fun v1206 k0_hw193 => k0_hw193.2

def k0_off409 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_906 : BitVec 32 := 0#32
  let v1223 : BitVec 32 := Scalar.addi v1201 c0_i32_906
  let v1224 : Index := Scalar.indexCast v1223
  let c16_907 : Index := 16#32
  ![v1224.toNat, 16]
def k0_off410 (v1229 : BitVec 32) : Fin 4 → Nat :=
  let c1_i32_909 : BitVec 32 := 1#32
  let v1231 : Index := Scalar.indexCast c1_i32_909
  let c1_i32_910 : BitVec 32 := 1#32
  let v1232 : Index := Scalar.indexCast c1_i32_910
  let c8_i32_908 : BitVec 32 := 8#32
  let v1230 : BitVec 32 := Scalar.remsi v1229 c8_i32_908
  let v1233 : Index := Scalar.indexCast v1230
  let c0_911 : Index := 0#32
  ![1, 1, v1233.toNat, 0]

def k0_off411 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_912 : BitVec 32 := 1#32
  let v1236 : BitVec 32 := Scalar.addi v1201 c1_i32_912
  let v1237 : Index := Scalar.indexCast v1236
  let c0_913 : Index := 0#32
  ![v1237.toNat, 0]
def k0_off412 (v1229 : BitVec 32) : Fin 4 → Nat :=
  let c1_i32_914 : BitVec 32 := 1#32
  let v1241 : Index := Scalar.indexCast c1_i32_914
  let c1_i32_915 : BitVec 32 := 1#32
  let v1242 : Index := Scalar.indexCast c1_i32_915
  let c8_i32_908 : BitVec 32 := 8#32
  let v1230 : BitVec 32 := Scalar.remsi v1229 c8_i32_908
  let v1243 : Index := Scalar.indexCast v1230
  let c16_916 : Index := 16#32
  ![1, 1, v1243.toNat, 16]

def k0_chk194 (v1229 : BitVec 32) : Prop :=
  (∀ a, (k0_off410 v1229) a + S1x1x1x16.size a ≤ S2x16x8x32.size a) ∧
  (∀ a, (k0_off412 v1229) a + S1x1x1x16.size a ≤ S2x16x8x32.size a)
instance k0_chk194.dec : ∀ (v1229 : BitVec 32), Decidable (k0_chk194 v1229) := fun v1229 => decidable_of_iff' _ (Iff.of_eq (k0_chk194.eq_1 v1229))
theorem k0_off410_inb : ∀ (v1229 : BitVec 32) (k0_hw194 : k0_chk194 v1229), ∀ a, (k0_off410 v1229) a + S1x1x1x16.size a ≤ S2x16x8x32.size a := fun v1229 k0_hw194 => k0_hw194.1
theorem k0_off412_inb : ∀ (v1229 : BitVec 32) (k0_hw194 : k0_chk194 v1229), ∀ a, (k0_off412 v1229) a + S1x1x1x16.size a ≤ S2x16x8x32.size a := fun v1229 k0_hw194 => k0_hw194.2

def k0_off413 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_917 : BitVec 32 := 1#32
  let v1246 : BitVec 32 := Scalar.addi v1201 c1_i32_917
  let v1247 : Index := Scalar.indexCast v1246
  let c16_918 : Index := 16#32
  ![v1247.toNat, 16]
def k0_off414 (v1252 : BitVec 32) : Fin 4 → Nat :=
  let c1_i32_920 : BitVec 32 := 1#32
  let v1254 : Index := Scalar.indexCast c1_i32_920
  let c2_i32_921 : BitVec 32 := 2#32
  let v1255 : Index := Scalar.indexCast c2_i32_921
  let c8_i32_919 : BitVec 32 := 8#32
  let v1253 : BitVec 32 := Scalar.remsi v1252 c8_i32_919
  let v1256 : Index := Scalar.indexCast v1253
  let c0_922 : Index := 0#32
  ![1, 2, v1256.toNat, 0]

def k0_off415 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_923 : BitVec 32 := 2#32
  let v1259 : BitVec 32 := Scalar.addi v1201 c2_i32_923
  let v1260 : Index := Scalar.indexCast v1259
  let c0_924 : Index := 0#32
  ![v1260.toNat, 0]
def k0_off416 (v1252 : BitVec 32) : Fin 4 → Nat :=
  let c1_i32_925 : BitVec 32 := 1#32
  let v1264 : Index := Scalar.indexCast c1_i32_925
  let c2_i32_926 : BitVec 32 := 2#32
  let v1265 : Index := Scalar.indexCast c2_i32_926
  let c8_i32_919 : BitVec 32 := 8#32
  let v1253 : BitVec 32 := Scalar.remsi v1252 c8_i32_919
  let v1266 : Index := Scalar.indexCast v1253
  let c16_927 : Index := 16#32
  ![1, 2, v1266.toNat, 16]

def k0_chk195 (v1252 : BitVec 32) : Prop :=
  (∀ a, (k0_off414 v1252) a + S1x1x1x16.size a ≤ S2x16x8x32.size a) ∧
  (∀ a, (k0_off416 v1252) a + S1x1x1x16.size a ≤ S2x16x8x32.size a)
instance k0_chk195.dec : ∀ (v1252 : BitVec 32), Decidable (k0_chk195 v1252) := fun v1252 => decidable_of_iff' _ (Iff.of_eq (k0_chk195.eq_1 v1252))
theorem k0_off414_inb : ∀ (v1252 : BitVec 32) (k0_hw195 : k0_chk195 v1252), ∀ a, (k0_off414 v1252) a + S1x1x1x16.size a ≤ S2x16x8x32.size a := fun v1252 k0_hw195 => k0_hw195.1
theorem k0_off416_inb : ∀ (v1252 : BitVec 32) (k0_hw195 : k0_chk195 v1252), ∀ a, (k0_off416 v1252) a + S1x1x1x16.size a ≤ S2x16x8x32.size a := fun v1252 k0_hw195 => k0_hw195.2

def k0_off417 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_928 : BitVec 32 := 2#32
  let v1269 : BitVec 32 := Scalar.addi v1201 c2_i32_928
  let v1270 : Index := Scalar.indexCast v1269
  let c16_929 : Index := 16#32
  ![v1270.toNat, 16]
def k0_off418 (v1275 : BitVec 32) : Fin 4 → Nat :=
  let c1_i32_931 : BitVec 32 := 1#32
  let v1277 : Index := Scalar.indexCast c1_i32_931
  let c3_i32_932 : BitVec 32 := 3#32
  let v1278 : Index := Scalar.indexCast c3_i32_932
  let c8_i32_930 : BitVec 32 := 8#32
  let v1276 : BitVec 32 := Scalar.remsi v1275 c8_i32_930
  let v1279 : Index := Scalar.indexCast v1276
  let c0_933 : Index := 0#32
  ![1, 3, v1279.toNat, 0]

def k0_off419 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_934 : BitVec 32 := 3#32
  let v1282 : BitVec 32 := Scalar.addi v1201 c3_i32_934
  let v1283 : Index := Scalar.indexCast v1282
  let c0_935 : Index := 0#32
  ![v1283.toNat, 0]
def k0_off420 (v1275 : BitVec 32) : Fin 4 → Nat :=
  let c1_i32_936 : BitVec 32 := 1#32
  let v1287 : Index := Scalar.indexCast c1_i32_936
  let c3_i32_937 : BitVec 32 := 3#32
  let v1288 : Index := Scalar.indexCast c3_i32_937
  let c8_i32_930 : BitVec 32 := 8#32
  let v1276 : BitVec 32 := Scalar.remsi v1275 c8_i32_930
  let v1289 : Index := Scalar.indexCast v1276
  let c16_938 : Index := 16#32
  ![1, 3, v1289.toNat, 16]

def k0_chk196 (v1275 : BitVec 32) : Prop :=
  (∀ a, (k0_off418 v1275) a + S1x1x1x16.size a ≤ S2x16x8x32.size a) ∧
  (∀ a, (k0_off420 v1275) a + S1x1x1x16.size a ≤ S2x16x8x32.size a)
instance k0_chk196.dec : ∀ (v1275 : BitVec 32), Decidable (k0_chk196 v1275) := fun v1275 => decidable_of_iff' _ (Iff.of_eq (k0_chk196.eq_1 v1275))
theorem k0_off418_inb : ∀ (v1275 : BitVec 32) (k0_hw196 : k0_chk196 v1275), ∀ a, (k0_off418 v1275) a + S1x1x1x16.size a ≤ S2x16x8x32.size a := fun v1275 k0_hw196 => k0_hw196.1
theorem k0_off420_inb : ∀ (v1275 : BitVec 32) (k0_hw196 : k0_chk196 v1275), ∀ a, (k0_off420 v1275) a + S1x1x1x16.size a ≤ S2x16x8x32.size a := fun v1275 k0_hw196 => k0_hw196.2

def k0_off421 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_939 : BitVec 32 := 3#32
  let v1292 : BitVec 32 := Scalar.addi v1201 c3_i32_939
  let v1293 : Index := Scalar.indexCast v1292
  let c16_940 : Index := 16#32
  ![v1293.toNat, 16]
def k0_off422 (v1298 : BitVec 32) : Fin 4 → Nat :=
  let c1_i32_942 : BitVec 32 := 1#32
  let v1300 : Index := Scalar.indexCast c1_i32_942
  let c4_i32_943 : BitVec 32 := 4#32
  let v1301 : Index := Scalar.indexCast c4_i32_943
  let c8_i32_941 : BitVec 32 := 8#32
  let v1299 : BitVec 32 := Scalar.remsi v1298 c8_i32_941
  let v1302 : Index := Scalar.indexCast v1299
  let c0_944 : Index := 0#32
  ![1, 4, v1302.toNat, 0]

def k0_off423 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_945 : BitVec 32 := 4#32
  let v1305 : BitVec 32 := Scalar.addi v1201 c4_i32_945
  let v1306 : Index := Scalar.indexCast v1305
  let c0_946 : Index := 0#32
  ![v1306.toNat, 0]
def k0_off424 (v1298 : BitVec 32) : Fin 4 → Nat :=
  let c1_i32_947 : BitVec 32 := 1#32
  let v1310 : Index := Scalar.indexCast c1_i32_947
  let c4_i32_948 : BitVec 32 := 4#32
  let v1311 : Index := Scalar.indexCast c4_i32_948
  let c8_i32_941 : BitVec 32 := 8#32
  let v1299 : BitVec 32 := Scalar.remsi v1298 c8_i32_941
  let v1312 : Index := Scalar.indexCast v1299
  let c16_949 : Index := 16#32
  ![1, 4, v1312.toNat, 16]

def k0_chk197 (v1298 : BitVec 32) : Prop :=
  (∀ a, (k0_off422 v1298) a + S1x1x1x16.size a ≤ S2x16x8x32.size a) ∧
  (∀ a, (k0_off424 v1298) a + S1x1x1x16.size a ≤ S2x16x8x32.size a)
instance k0_chk197.dec : ∀ (v1298 : BitVec 32), Decidable (k0_chk197 v1298) := fun v1298 => decidable_of_iff' _ (Iff.of_eq (k0_chk197.eq_1 v1298))
theorem k0_off422_inb : ∀ (v1298 : BitVec 32) (k0_hw197 : k0_chk197 v1298), ∀ a, (k0_off422 v1298) a + S1x1x1x16.size a ≤ S2x16x8x32.size a := fun v1298 k0_hw197 => k0_hw197.1
theorem k0_off424_inb : ∀ (v1298 : BitVec 32) (k0_hw197 : k0_chk197 v1298), ∀ a, (k0_off424 v1298) a + S1x1x1x16.size a ≤ S2x16x8x32.size a := fun v1298 k0_hw197 => k0_hw197.2

def k0_off425 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_950 : BitVec 32 := 4#32
  let v1315 : BitVec 32 := Scalar.addi v1201 c4_i32_950
  let v1316 : Index := Scalar.indexCast v1315
  let c16_951 : Index := 16#32
  ![v1316.toNat, 16]
def k0_off426 (v1321 : BitVec 32) : Fin 4 → Nat :=
  let c1_i32_953 : BitVec 32 := 1#32
  let v1323 : Index := Scalar.indexCast c1_i32_953
  let c5_i32_954 : BitVec 32 := 5#32
  let v1324 : Index := Scalar.indexCast c5_i32_954
  let c8_i32_952 : BitVec 32 := 8#32
  let v1322 : BitVec 32 := Scalar.remsi v1321 c8_i32_952
  let v1325 : Index := Scalar.indexCast v1322
  let c0_955 : Index := 0#32
  ![1, 5, v1325.toNat, 0]

def k0_off427 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_956 : BitVec 32 := 5#32
  let v1328 : BitVec 32 := Scalar.addi v1201 c5_i32_956
  let v1329 : Index := Scalar.indexCast v1328
  let c0_957 : Index := 0#32
  ![v1329.toNat, 0]
def k0_off428 (v1321 : BitVec 32) : Fin 4 → Nat :=
  let c1_i32_958 : BitVec 32 := 1#32
  let v1333 : Index := Scalar.indexCast c1_i32_958
  let c5_i32_959 : BitVec 32 := 5#32
  let v1334 : Index := Scalar.indexCast c5_i32_959
  let c8_i32_952 : BitVec 32 := 8#32
  let v1322 : BitVec 32 := Scalar.remsi v1321 c8_i32_952
  let v1335 : Index := Scalar.indexCast v1322
  let c16_960 : Index := 16#32
  ![1, 5, v1335.toNat, 16]

def k0_chk198 (v1321 : BitVec 32) : Prop :=
  (∀ a, (k0_off426 v1321) a + S1x1x1x16.size a ≤ S2x16x8x32.size a) ∧
  (∀ a, (k0_off428 v1321) a + S1x1x1x16.size a ≤ S2x16x8x32.size a)
instance k0_chk198.dec : ∀ (v1321 : BitVec 32), Decidable (k0_chk198 v1321) := fun v1321 => decidable_of_iff' _ (Iff.of_eq (k0_chk198.eq_1 v1321))
theorem k0_off426_inb : ∀ (v1321 : BitVec 32) (k0_hw198 : k0_chk198 v1321), ∀ a, (k0_off426 v1321) a + S1x1x1x16.size a ≤ S2x16x8x32.size a := fun v1321 k0_hw198 => k0_hw198.1
theorem k0_off428_inb : ∀ (v1321 : BitVec 32) (k0_hw198 : k0_chk198 v1321), ∀ a, (k0_off428 v1321) a + S1x1x1x16.size a ≤ S2x16x8x32.size a := fun v1321 k0_hw198 => k0_hw198.2

def k0_off429 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_961 : BitVec 32 := 5#32
  let v1338 : BitVec 32 := Scalar.addi v1201 c5_i32_961
  let v1339 : Index := Scalar.indexCast v1338
  let c16_962 : Index := 16#32
  ![v1339.toNat, 16]
def k0_off430 (v1344 : BitVec 32) : Fin 4 → Nat :=
  let c1_i32_964 : BitVec 32 := 1#32
  let v1346 : Index := Scalar.indexCast c1_i32_964
  let c6_i32_965 : BitVec 32 := 6#32
  let v1347 : Index := Scalar.indexCast c6_i32_965
  let c8_i32_963 : BitVec 32 := 8#32
  let v1345 : BitVec 32 := Scalar.remsi v1344 c8_i32_963
  let v1348 : Index := Scalar.indexCast v1345
  let c0_966 : Index := 0#32
  ![1, 6, v1348.toNat, 0]

def k0_off431 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_967 : BitVec 32 := 6#32
  let v1351 : BitVec 32 := Scalar.addi v1201 c6_i32_967
  let v1352 : Index := Scalar.indexCast v1351
  let c0_968 : Index := 0#32
  ![v1352.toNat, 0]
def k0_off432 (v1344 : BitVec 32) : Fin 4 → Nat :=
  let c1_i32_969 : BitVec 32 := 1#32
  let v1356 : Index := Scalar.indexCast c1_i32_969
  let c6_i32_970 : BitVec 32 := 6#32
  let v1357 : Index := Scalar.indexCast c6_i32_970
  let c8_i32_963 : BitVec 32 := 8#32
  let v1345 : BitVec 32 := Scalar.remsi v1344 c8_i32_963
  let v1358 : Index := Scalar.indexCast v1345
  let c16_971 : Index := 16#32
  ![1, 6, v1358.toNat, 16]

def k0_chk199 (v1344 : BitVec 32) : Prop :=
  (∀ a, (k0_off430 v1344) a + S1x1x1x16.size a ≤ S2x16x8x32.size a) ∧
  (∀ a, (k0_off432 v1344) a + S1x1x1x16.size a ≤ S2x16x8x32.size a)
instance k0_chk199.dec : ∀ (v1344 : BitVec 32), Decidable (k0_chk199 v1344) := fun v1344 => decidable_of_iff' _ (Iff.of_eq (k0_chk199.eq_1 v1344))
theorem k0_off430_inb : ∀ (v1344 : BitVec 32) (k0_hw199 : k0_chk199 v1344), ∀ a, (k0_off430 v1344) a + S1x1x1x16.size a ≤ S2x16x8x32.size a := fun v1344 k0_hw199 => k0_hw199.1
theorem k0_off432_inb : ∀ (v1344 : BitVec 32) (k0_hw199 : k0_chk199 v1344), ∀ a, (k0_off432 v1344) a + S1x1x1x16.size a ≤ S2x16x8x32.size a := fun v1344 k0_hw199 => k0_hw199.2

def k0_off433 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_972 : BitVec 32 := 6#32
  let v1361 : BitVec 32 := Scalar.addi v1201 c6_i32_972
  let v1362 : Index := Scalar.indexCast v1361
  let c16_973 : Index := 16#32
  ![v1362.toNat, 16]
def k0_off434 (v1367 : BitVec 32) : Fin 4 → Nat :=
  let c1_i32_975 : BitVec 32 := 1#32
  let v1369 : Index := Scalar.indexCast c1_i32_975
  let c7_i32_976 : BitVec 32 := 7#32
  let v1370 : Index := Scalar.indexCast c7_i32_976
  let c8_i32_974 : BitVec 32 := 8#32
  let v1368 : BitVec 32 := Scalar.remsi v1367 c8_i32_974
  let v1371 : Index := Scalar.indexCast v1368
  let c0_977 : Index := 0#32
  ![1, 7, v1371.toNat, 0]

def k0_off435 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_978 : BitVec 32 := 7#32
  let v1374 : BitVec 32 := Scalar.addi v1201 c7_i32_978
  let v1375 : Index := Scalar.indexCast v1374
  let c0_979 : Index := 0#32
  ![v1375.toNat, 0]
def k0_off436 (v1367 : BitVec 32) : Fin 4 → Nat :=
  let c1_i32_980 : BitVec 32 := 1#32
  let v1379 : Index := Scalar.indexCast c1_i32_980
  let c7_i32_981 : BitVec 32 := 7#32
  let v1380 : Index := Scalar.indexCast c7_i32_981
  let c8_i32_974 : BitVec 32 := 8#32
  let v1368 : BitVec 32 := Scalar.remsi v1367 c8_i32_974
  let v1381 : Index := Scalar.indexCast v1368
  let c16_982 : Index := 16#32
  ![1, 7, v1381.toNat, 16]

def k0_chk200 (v1367 : BitVec 32) : Prop :=
  (∀ a, (k0_off434 v1367) a + S1x1x1x16.size a ≤ S2x16x8x32.size a) ∧
  (∀ a, (k0_off436 v1367) a + S1x1x1x16.size a ≤ S2x16x8x32.size a)
instance k0_chk200.dec : ∀ (v1367 : BitVec 32), Decidable (k0_chk200 v1367) := fun v1367 => decidable_of_iff' _ (Iff.of_eq (k0_chk200.eq_1 v1367))
theorem k0_off434_inb : ∀ (v1367 : BitVec 32) (k0_hw200 : k0_chk200 v1367), ∀ a, (k0_off434 v1367) a + S1x1x1x16.size a ≤ S2x16x8x32.size a := fun v1367 k0_hw200 => k0_hw200.1
theorem k0_off436_inb : ∀ (v1367 : BitVec 32) (k0_hw200 : k0_chk200 v1367), ∀ a, (k0_off436 v1367) a + S1x1x1x16.size a ≤ S2x16x8x32.size a := fun v1367 k0_hw200 => k0_hw200.2

def k0_off437 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_983 : BitVec 32 := 7#32
  let v1384 : BitVec 32 := Scalar.addi v1201 c7_i32_983
  let v1385 : Index := Scalar.indexCast v1384
  let c16_984 : Index := 16#32
  ![v1385.toNat, 16]
def k0_off438 (v1390 : BitVec 32) : Fin 4 → Nat :=
  let c1_i32_986 : BitVec 32 := 1#32
  let v1392 : Index := Scalar.indexCast c1_i32_986
  let c8_i32_987 : BitVec 32 := 8#32
  let v1393 : Index := Scalar.indexCast c8_i32_987
  let c8_i32_985 : BitVec 32 := 8#32
  let v1391 : BitVec 32 := Scalar.remsi v1390 c8_i32_985
  let v1394 : Index := Scalar.indexCast v1391
  let c0_988 : Index := 0#32
  ![1, 8, v1394.toNat, 0]

def k0_off439 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_989 : BitVec 32 := 8#32
  let v1397 : BitVec 32 := Scalar.addi v1201 c8_i32_989
  let v1398 : Index := Scalar.indexCast v1397
  let c0_990 : Index := 0#32
  ![v1398.toNat, 0]
def k0_off440 (v1390 : BitVec 32) : Fin 4 → Nat :=
  let c1_i32_991 : BitVec 32 := 1#32
  let v1402 : Index := Scalar.indexCast c1_i32_991
  let c8_i32_992 : BitVec 32 := 8#32
  let v1403 : Index := Scalar.indexCast c8_i32_992
  let c8_i32_985 : BitVec 32 := 8#32
  let v1391 : BitVec 32 := Scalar.remsi v1390 c8_i32_985
  let v1404 : Index := Scalar.indexCast v1391
  let c16_993 : Index := 16#32
  ![1, 8, v1404.toNat, 16]

def k0_chk201 (v1390 : BitVec 32) : Prop :=
  (∀ a, (k0_off438 v1390) a + S1x1x1x16.size a ≤ S2x16x8x32.size a) ∧
  (∀ a, (k0_off440 v1390) a + S1x1x1x16.size a ≤ S2x16x8x32.size a)
instance k0_chk201.dec : ∀ (v1390 : BitVec 32), Decidable (k0_chk201 v1390) := fun v1390 => decidable_of_iff' _ (Iff.of_eq (k0_chk201.eq_1 v1390))
theorem k0_off438_inb : ∀ (v1390 : BitVec 32) (k0_hw201 : k0_chk201 v1390), ∀ a, (k0_off438 v1390) a + S1x1x1x16.size a ≤ S2x16x8x32.size a := fun v1390 k0_hw201 => k0_hw201.1
theorem k0_off440_inb : ∀ (v1390 : BitVec 32) (k0_hw201 : k0_chk201 v1390), ∀ a, (k0_off440 v1390) a + S1x1x1x16.size a ≤ S2x16x8x32.size a := fun v1390 k0_hw201 => k0_hw201.2

def k0_off441 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_994 : BitVec 32 := 8#32
  let v1407 : BitVec 32 := Scalar.addi v1201 c8_i32_994
  let v1408 : Index := Scalar.indexCast v1407
  let c16_995 : Index := 16#32
  ![v1408.toNat, 16]
def k0_off442 (v1413 : BitVec 32) : Fin 4 → Nat :=
  let c1_i32_997 : BitVec 32 := 1#32
  let v1415 : Index := Scalar.indexCast c1_i32_997
  let c9_i32_998 : BitVec 32 := 9#32
  let v1416 : Index := Scalar.indexCast c9_i32_998
  let c8_i32_996 : BitVec 32 := 8#32
  let v1414 : BitVec 32 := Scalar.remsi v1413 c8_i32_996
  let v1417 : Index := Scalar.indexCast v1414
  let c0_999 : Index := 0#32
  ![1, 9, v1417.toNat, 0]

def k0_off443 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1000 : BitVec 32 := 9#32
  let v1420 : BitVec 32 := Scalar.addi v1201 c9_i32_1000
  let v1421 : Index := Scalar.indexCast v1420
  let c0_1001 : Index := 0#32
  ![v1421.toNat, 0]
def k0_off444 (v1413 : BitVec 32) : Fin 4 → Nat :=
  let c1_i32_1002 : BitVec 32 := 1#32
  let v1425 : Index := Scalar.indexCast c1_i32_1002
  let c9_i32_1003 : BitVec 32 := 9#32
  let v1426 : Index := Scalar.indexCast c9_i32_1003
  let c8_i32_996 : BitVec 32 := 8#32
  let v1414 : BitVec 32 := Scalar.remsi v1413 c8_i32_996
  let v1427 : Index := Scalar.indexCast v1414
  let c16_1004 : Index := 16#32
  ![1, 9, v1427.toNat, 16]

def k0_chk202 (v1413 : BitVec 32) : Prop :=
  (∀ a, (k0_off442 v1413) a + S1x1x1x16.size a ≤ S2x16x8x32.size a) ∧
  (∀ a, (k0_off444 v1413) a + S1x1x1x16.size a ≤ S2x16x8x32.size a)
instance k0_chk202.dec : ∀ (v1413 : BitVec 32), Decidable (k0_chk202 v1413) := fun v1413 => decidable_of_iff' _ (Iff.of_eq (k0_chk202.eq_1 v1413))
theorem k0_off442_inb : ∀ (v1413 : BitVec 32) (k0_hw202 : k0_chk202 v1413), ∀ a, (k0_off442 v1413) a + S1x1x1x16.size a ≤ S2x16x8x32.size a := fun v1413 k0_hw202 => k0_hw202.1
theorem k0_off444_inb : ∀ (v1413 : BitVec 32) (k0_hw202 : k0_chk202 v1413), ∀ a, (k0_off444 v1413) a + S1x1x1x16.size a ≤ S2x16x8x32.size a := fun v1413 k0_hw202 => k0_hw202.2

def k0_off445 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1005 : BitVec 32 := 9#32
  let v1430 : BitVec 32 := Scalar.addi v1201 c9_i32_1005
  let v1431 : Index := Scalar.indexCast v1430
  let c16_1006 : Index := 16#32
  ![v1431.toNat, 16]
def k0_off446 (v1436 : BitVec 32) : Fin 4 → Nat :=
  let c1_i32_1008 : BitVec 32 := 1#32
  let v1438 : Index := Scalar.indexCast c1_i32_1008
  let c10_i32_1009 : BitVec 32 := 10#32
  let v1439 : Index := Scalar.indexCast c10_i32_1009
  let c8_i32_1007 : BitVec 32 := 8#32
  let v1437 : BitVec 32 := Scalar.remsi v1436 c8_i32_1007
  let v1440 : Index := Scalar.indexCast v1437
  let c0_1010 : Index := 0#32
  ![1, 10, v1440.toNat, 0]

def k0_off447 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1011 : BitVec 32 := 10#32
  let v1443 : BitVec 32 := Scalar.addi v1201 c10_i32_1011
  let v1444 : Index := Scalar.indexCast v1443
  let c0_1012 : Index := 0#32
  ![v1444.toNat, 0]
def k0_off448 (v1436 : BitVec 32) : Fin 4 → Nat :=
  let c1_i32_1013 : BitVec 32 := 1#32
  let v1448 : Index := Scalar.indexCast c1_i32_1013
  let c10_i32_1014 : BitVec 32 := 10#32
  let v1449 : Index := Scalar.indexCast c10_i32_1014
  let c8_i32_1007 : BitVec 32 := 8#32
  let v1437 : BitVec 32 := Scalar.remsi v1436 c8_i32_1007
  let v1450 : Index := Scalar.indexCast v1437
  let c16_1015 : Index := 16#32
  ![1, 10, v1450.toNat, 16]

def k0_chk203 (v1436 : BitVec 32) : Prop :=
  (∀ a, (k0_off446 v1436) a + S1x1x1x16.size a ≤ S2x16x8x32.size a) ∧
  (∀ a, (k0_off448 v1436) a + S1x1x1x16.size a ≤ S2x16x8x32.size a)
instance k0_chk203.dec : ∀ (v1436 : BitVec 32), Decidable (k0_chk203 v1436) := fun v1436 => decidable_of_iff' _ (Iff.of_eq (k0_chk203.eq_1 v1436))
theorem k0_off446_inb : ∀ (v1436 : BitVec 32) (k0_hw203 : k0_chk203 v1436), ∀ a, (k0_off446 v1436) a + S1x1x1x16.size a ≤ S2x16x8x32.size a := fun v1436 k0_hw203 => k0_hw203.1
theorem k0_off448_inb : ∀ (v1436 : BitVec 32) (k0_hw203 : k0_chk203 v1436), ∀ a, (k0_off448 v1436) a + S1x1x1x16.size a ≤ S2x16x8x32.size a := fun v1436 k0_hw203 => k0_hw203.2

def k0_off449 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1016 : BitVec 32 := 10#32
  let v1453 : BitVec 32 := Scalar.addi v1201 c10_i32_1016
  let v1454 : Index := Scalar.indexCast v1453
  let c16_1017 : Index := 16#32
  ![v1454.toNat, 16]
def k0_off450 (v1459 : BitVec 32) : Fin 4 → Nat :=
  let c1_i32_1019 : BitVec 32 := 1#32
  let v1461 : Index := Scalar.indexCast c1_i32_1019
  let c11_i32_1020 : BitVec 32 := 11#32
  let v1462 : Index := Scalar.indexCast c11_i32_1020
  let c8_i32_1018 : BitVec 32 := 8#32
  let v1460 : BitVec 32 := Scalar.remsi v1459 c8_i32_1018
  let v1463 : Index := Scalar.indexCast v1460
  let c0_1021 : Index := 0#32
  ![1, 11, v1463.toNat, 0]

def k0_off451 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1022 : BitVec 32 := 11#32
  let v1466 : BitVec 32 := Scalar.addi v1201 c11_i32_1022
  let v1467 : Index := Scalar.indexCast v1466
  let c0_1023 : Index := 0#32
  ![v1467.toNat, 0]
def k0_off452 (v1459 : BitVec 32) : Fin 4 → Nat :=
  let c1_i32_1024 : BitVec 32 := 1#32
  let v1471 : Index := Scalar.indexCast c1_i32_1024
  let c11_i32_1025 : BitVec 32 := 11#32
  let v1472 : Index := Scalar.indexCast c11_i32_1025
  let c8_i32_1018 : BitVec 32 := 8#32
  let v1460 : BitVec 32 := Scalar.remsi v1459 c8_i32_1018
  let v1473 : Index := Scalar.indexCast v1460
  let c16_1026 : Index := 16#32
  ![1, 11, v1473.toNat, 16]

def k0_chk204 (v1459 : BitVec 32) : Prop :=
  (∀ a, (k0_off450 v1459) a + S1x1x1x16.size a ≤ S2x16x8x32.size a) ∧
  (∀ a, (k0_off452 v1459) a + S1x1x1x16.size a ≤ S2x16x8x32.size a)
instance k0_chk204.dec : ∀ (v1459 : BitVec 32), Decidable (k0_chk204 v1459) := fun v1459 => decidable_of_iff' _ (Iff.of_eq (k0_chk204.eq_1 v1459))
theorem k0_off450_inb : ∀ (v1459 : BitVec 32) (k0_hw204 : k0_chk204 v1459), ∀ a, (k0_off450 v1459) a + S1x1x1x16.size a ≤ S2x16x8x32.size a := fun v1459 k0_hw204 => k0_hw204.1
theorem k0_off452_inb : ∀ (v1459 : BitVec 32) (k0_hw204 : k0_chk204 v1459), ∀ a, (k0_off452 v1459) a + S1x1x1x16.size a ≤ S2x16x8x32.size a := fun v1459 k0_hw204 => k0_hw204.2

def k0_off453 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1027 : BitVec 32 := 11#32
  let v1476 : BitVec 32 := Scalar.addi v1201 c11_i32_1027
  let v1477 : Index := Scalar.indexCast v1476
  let c16_1028 : Index := 16#32
  ![v1477.toNat, 16]
def k0_off454 (v1482 : BitVec 32) : Fin 4 → Nat :=
  let c1_i32_1030 : BitVec 32 := 1#32
  let v1484 : Index := Scalar.indexCast c1_i32_1030
  let c12_i32_1031 : BitVec 32 := 12#32
  let v1485 : Index := Scalar.indexCast c12_i32_1031
  let c8_i32_1029 : BitVec 32 := 8#32
  let v1483 : BitVec 32 := Scalar.remsi v1482 c8_i32_1029
  let v1486 : Index := Scalar.indexCast v1483
  let c0_1032 : Index := 0#32
  ![1, 12, v1486.toNat, 0]

def k0_off455 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1033 : BitVec 32 := 12#32
  let v1489 : BitVec 32 := Scalar.addi v1201 c12_i32_1033
  let v1490 : Index := Scalar.indexCast v1489
  let c0_1034 : Index := 0#32
  ![v1490.toNat, 0]
def k0_off456 (v1482 : BitVec 32) : Fin 4 → Nat :=
  let c1_i32_1035 : BitVec 32 := 1#32
  let v1494 : Index := Scalar.indexCast c1_i32_1035
  let c12_i32_1036 : BitVec 32 := 12#32
  let v1495 : Index := Scalar.indexCast c12_i32_1036
  let c8_i32_1029 : BitVec 32 := 8#32
  let v1483 : BitVec 32 := Scalar.remsi v1482 c8_i32_1029
  let v1496 : Index := Scalar.indexCast v1483
  let c16_1037 : Index := 16#32
  ![1, 12, v1496.toNat, 16]

def k0_chk205 (v1482 : BitVec 32) : Prop :=
  (∀ a, (k0_off454 v1482) a + S1x1x1x16.size a ≤ S2x16x8x32.size a) ∧
  (∀ a, (k0_off456 v1482) a + S1x1x1x16.size a ≤ S2x16x8x32.size a)
instance k0_chk205.dec : ∀ (v1482 : BitVec 32), Decidable (k0_chk205 v1482) := fun v1482 => decidable_of_iff' _ (Iff.of_eq (k0_chk205.eq_1 v1482))
theorem k0_off454_inb : ∀ (v1482 : BitVec 32) (k0_hw205 : k0_chk205 v1482), ∀ a, (k0_off454 v1482) a + S1x1x1x16.size a ≤ S2x16x8x32.size a := fun v1482 k0_hw205 => k0_hw205.1
theorem k0_off456_inb : ∀ (v1482 : BitVec 32) (k0_hw205 : k0_chk205 v1482), ∀ a, (k0_off456 v1482) a + S1x1x1x16.size a ≤ S2x16x8x32.size a := fun v1482 k0_hw205 => k0_hw205.2

def k0_off457 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1038 : BitVec 32 := 12#32
  let v1499 : BitVec 32 := Scalar.addi v1201 c12_i32_1038
  let v1500 : Index := Scalar.indexCast v1499
  let c16_1039 : Index := 16#32
  ![v1500.toNat, 16]
def k0_off458 (v1505 : BitVec 32) : Fin 4 → Nat :=
  let c1_i32_1041 : BitVec 32 := 1#32
  let v1507 : Index := Scalar.indexCast c1_i32_1041
  let c13_i32_1042 : BitVec 32 := 13#32
  let v1508 : Index := Scalar.indexCast c13_i32_1042
  let c8_i32_1040 : BitVec 32 := 8#32
  let v1506 : BitVec 32 := Scalar.remsi v1505 c8_i32_1040
  let v1509 : Index := Scalar.indexCast v1506
  let c0_1043 : Index := 0#32
  ![1, 13, v1509.toNat, 0]

def k0_off459 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1044 : BitVec 32 := 13#32
  let v1512 : BitVec 32 := Scalar.addi v1201 c13_i32_1044
  let v1513 : Index := Scalar.indexCast v1512
  let c0_1045 : Index := 0#32
  ![v1513.toNat, 0]
def k0_off460 (v1505 : BitVec 32) : Fin 4 → Nat :=
  let c1_i32_1046 : BitVec 32 := 1#32
  let v1517 : Index := Scalar.indexCast c1_i32_1046
  let c13_i32_1047 : BitVec 32 := 13#32
  let v1518 : Index := Scalar.indexCast c13_i32_1047
  let c8_i32_1040 : BitVec 32 := 8#32
  let v1506 : BitVec 32 := Scalar.remsi v1505 c8_i32_1040
  let v1519 : Index := Scalar.indexCast v1506
  let c16_1048 : Index := 16#32
  ![1, 13, v1519.toNat, 16]

def k0_chk206 (v1505 : BitVec 32) : Prop :=
  (∀ a, (k0_off458 v1505) a + S1x1x1x16.size a ≤ S2x16x8x32.size a) ∧
  (∀ a, (k0_off460 v1505) a + S1x1x1x16.size a ≤ S2x16x8x32.size a)
instance k0_chk206.dec : ∀ (v1505 : BitVec 32), Decidable (k0_chk206 v1505) := fun v1505 => decidable_of_iff' _ (Iff.of_eq (k0_chk206.eq_1 v1505))
theorem k0_off458_inb : ∀ (v1505 : BitVec 32) (k0_hw206 : k0_chk206 v1505), ∀ a, (k0_off458 v1505) a + S1x1x1x16.size a ≤ S2x16x8x32.size a := fun v1505 k0_hw206 => k0_hw206.1
theorem k0_off460_inb : ∀ (v1505 : BitVec 32) (k0_hw206 : k0_chk206 v1505), ∀ a, (k0_off460 v1505) a + S1x1x1x16.size a ≤ S2x16x8x32.size a := fun v1505 k0_hw206 => k0_hw206.2

def k0_off461 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1049 : BitVec 32 := 13#32
  let v1522 : BitVec 32 := Scalar.addi v1201 c13_i32_1049
  let v1523 : Index := Scalar.indexCast v1522
  let c16_1050 : Index := 16#32
  ![v1523.toNat, 16]
def k0_off462 (v1528 : BitVec 32) : Fin 4 → Nat :=
  let c1_i32_1052 : BitVec 32 := 1#32
  let v1530 : Index := Scalar.indexCast c1_i32_1052
  let c14_i32_1053 : BitVec 32 := 14#32
  let v1531 : Index := Scalar.indexCast c14_i32_1053
  let c8_i32_1051 : BitVec 32 := 8#32
  let v1529 : BitVec 32 := Scalar.remsi v1528 c8_i32_1051
  let v1532 : Index := Scalar.indexCast v1529
  let c0_1054 : Index := 0#32
  ![1, 14, v1532.toNat, 0]

def k0_off463 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1055 : BitVec 32 := 14#32
  let v1535 : BitVec 32 := Scalar.addi v1201 c14_i32_1055
  let v1536 : Index := Scalar.indexCast v1535
  let c0_1056 : Index := 0#32
  ![v1536.toNat, 0]
def k0_off464 (v1528 : BitVec 32) : Fin 4 → Nat :=
  let c1_i32_1057 : BitVec 32 := 1#32
  let v1540 : Index := Scalar.indexCast c1_i32_1057
  let c14_i32_1058 : BitVec 32 := 14#32
  let v1541 : Index := Scalar.indexCast c14_i32_1058
  let c8_i32_1051 : BitVec 32 := 8#32
  let v1529 : BitVec 32 := Scalar.remsi v1528 c8_i32_1051
  let v1542 : Index := Scalar.indexCast v1529
  let c16_1059 : Index := 16#32
  ![1, 14, v1542.toNat, 16]

def k0_chk207 (v1528 : BitVec 32) : Prop :=
  (∀ a, (k0_off462 v1528) a + S1x1x1x16.size a ≤ S2x16x8x32.size a) ∧
  (∀ a, (k0_off464 v1528) a + S1x1x1x16.size a ≤ S2x16x8x32.size a)
instance k0_chk207.dec : ∀ (v1528 : BitVec 32), Decidable (k0_chk207 v1528) := fun v1528 => decidable_of_iff' _ (Iff.of_eq (k0_chk207.eq_1 v1528))
theorem k0_off462_inb : ∀ (v1528 : BitVec 32) (k0_hw207 : k0_chk207 v1528), ∀ a, (k0_off462 v1528) a + S1x1x1x16.size a ≤ S2x16x8x32.size a := fun v1528 k0_hw207 => k0_hw207.1
theorem k0_off464_inb : ∀ (v1528 : BitVec 32) (k0_hw207 : k0_chk207 v1528), ∀ a, (k0_off464 v1528) a + S1x1x1x16.size a ≤ S2x16x8x32.size a := fun v1528 k0_hw207 => k0_hw207.2

def k0_off465 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1060 : BitVec 32 := 14#32
  let v1545 : BitVec 32 := Scalar.addi v1201 c14_i32_1060
  let v1546 : Index := Scalar.indexCast v1545
  let c16_1061 : Index := 16#32
  ![v1546.toNat, 16]
def k0_off466 (v1551 : BitVec 32) : Fin 4 → Nat :=
  let c1_i32_1063 : BitVec 32 := 1#32
  let v1553 : Index := Scalar.indexCast c1_i32_1063
  let c15_i32_1064 : BitVec 32 := 15#32
  let v1554 : Index := Scalar.indexCast c15_i32_1064
  let c8_i32_1062 : BitVec 32 := 8#32
  let v1552 : BitVec 32 := Scalar.remsi v1551 c8_i32_1062
  let v1555 : Index := Scalar.indexCast v1552
  let c0_1065 : Index := 0#32
  ![1, 15, v1555.toNat, 0]

def k0_off467 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1066 : BitVec 32 := 15#32
  let v1558 : BitVec 32 := Scalar.addi v1201 c15_i32_1066
  let v1559 : Index := Scalar.indexCast v1558
  let c0_1067 : Index := 0#32
  ![v1559.toNat, 0]
def k0_off468 (v1551 : BitVec 32) : Fin 4 → Nat :=
  let c1_i32_1068 : BitVec 32 := 1#32
  let v1563 : Index := Scalar.indexCast c1_i32_1068
  let c15_i32_1069 : BitVec 32 := 15#32
  let v1564 : Index := Scalar.indexCast c15_i32_1069
  let c8_i32_1062 : BitVec 32 := 8#32
  let v1552 : BitVec 32 := Scalar.remsi v1551 c8_i32_1062
  let v1565 : Index := Scalar.indexCast v1552
  let c16_1070 : Index := 16#32
  ![1, 15, v1565.toNat, 16]

def k0_chk208 (v1551 : BitVec 32) : Prop :=
  (∀ a, (k0_off466 v1551) a + S1x1x1x16.size a ≤ S2x16x8x32.size a) ∧
  (∀ a, (k0_off468 v1551) a + S1x1x1x16.size a ≤ S2x16x8x32.size a)
instance k0_chk208.dec : ∀ (v1551 : BitVec 32), Decidable (k0_chk208 v1551) := fun v1551 => decidable_of_iff' _ (Iff.of_eq (k0_chk208.eq_1 v1551))
theorem k0_off466_inb : ∀ (v1551 : BitVec 32) (k0_hw208 : k0_chk208 v1551), ∀ a, (k0_off466 v1551) a + S1x1x1x16.size a ≤ S2x16x8x32.size a := fun v1551 k0_hw208 => k0_hw208.1
theorem k0_off468_inb : ∀ (v1551 : BitVec 32) (k0_hw208 : k0_chk208 v1551), ∀ a, (k0_off468 v1551) a + S1x1x1x16.size a ≤ S2x16x8x32.size a := fun v1551 k0_hw208 => k0_hw208.2

def k0_off469 (k0_t7 : Fin k0_t7_loop.trips) : Fin 2 → Nat :=
  let c0_i32_527 : BitVec 32 := 0#32
  let c0_i32_333 : BitVec 32 := 0#32
  let c1_i32_335 : BitVec 32 := 1#32
  let arg19 : BitVec 32 := Scf.iv c0_i32_333 c1_i32_335 k0_t7
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1071 : BitVec 32 := 15#32
  let v1568 : BitVec 32 := Scalar.addi v1201 c15_i32_1071
  let v1569 : Index := Scalar.indexCast v1568
  let c16_1072 : Index := 16#32
  ![v1569.toNat, 16]
@[reducible] def k0_t8_loop : Scf.Loop 32 :=
  let c0_i32_337 : BitVec 32 := 0#32
  let c16_i32_338 : BitVec 32 := 16#32
  let v402 : BitVec 32 := Scalar.addi c0_i32_337 c16_i32_338
  let c1_i32_339 : BitVec 32 := 1#32
  ⟨c0_i32_337, v402, c1_i32_339⟩
def k0_off470 (k0_t8 : Fin k0_t8_loop.trips) : Fin 1 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off471 (k0_t8 : Fin k0_t8_loop.trips) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off472 (v617 : BitVec 32) : Fin 2 → Nat :=
  let c0_i32_531 : BitVec 32 := 0#32
  ![v617.toNat, 0]

def k0_chk209 (v617 : BitVec 32) : Prop :=
  (∀ a, (k0_off472 v617) a + S1x32.size a ≤ S100000x32.size a)
instance k0_chk209.dec : ∀ (v617 : BitVec 32), Decidable (k0_chk209 v617) := fun v617 => decidable_of_iff' _ (Iff.of_eq (k0_chk209.eq_1 v617))
theorem k0_off472_inb : ∀ (v617 : BitVec 32) (k0_hw209 : k0_chk209 v617), ∀ a, (k0_off472 v617) a + S1x32.size a ≤ S100000x32.size a := fun v617 k0_hw209 => k0_hw209

def k0_off473 (k0_t8 : Fin k0_t8_loop.trips) (c0_i32_529 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off474 (v628 : BitVec 32) : Fin 2 → Nat :=
  let c0_i32_536 : BitVec 32 := 0#32
  ![v628.toNat, 0]

def k0_chk210 (v628 : BitVec 32) : Prop :=
  (∀ a, (k0_off474 v628) a + S1x32.size a ≤ S100000x32.size a)
instance k0_chk210.dec : ∀ (v628 : BitVec 32), Decidable (k0_chk210 v628) := fun v628 => decidable_of_iff' _ (Iff.of_eq (k0_chk210.eq_1 v628))
theorem k0_off474_inb : ∀ (v628 : BitVec 32) (k0_hw210 : k0_chk210 v628), ∀ a, (k0_off474 v628) a + S1x32.size a ≤ S100000x32.size a := fun v628 k0_hw210 => k0_hw210

def k0_off475 (k0_t8 : Fin k0_t8_loop.trips) (c1_i32_534 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off476 (v639 : BitVec 32) : Fin 2 → Nat :=
  let c0_i32_541 : BitVec 32 := 0#32
  ![v639.toNat, 0]

def k0_chk211 (v639 : BitVec 32) : Prop :=
  (∀ a, (k0_off476 v639) a + S1x32.size a ≤ S100000x32.size a)
instance k0_chk211.dec : ∀ (v639 : BitVec 32), Decidable (k0_chk211 v639) := fun v639 => decidable_of_iff' _ (Iff.of_eq (k0_chk211.eq_1 v639))
theorem k0_off476_inb : ∀ (v639 : BitVec 32) (k0_hw211 : k0_chk211 v639), ∀ a, (k0_off476 v639) a + S1x32.size a ≤ S100000x32.size a := fun v639 k0_hw211 => k0_hw211

def k0_off477 (k0_t8 : Fin k0_t8_loop.trips) (c2_i32_539 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off478 (v650 : BitVec 32) : Fin 2 → Nat :=
  let c0_i32_546 : BitVec 32 := 0#32
  ![v650.toNat, 0]

def k0_chk212 (v650 : BitVec 32) : Prop :=
  (∀ a, (k0_off478 v650) a + S1x32.size a ≤ S100000x32.size a)
instance k0_chk212.dec : ∀ (v650 : BitVec 32), Decidable (k0_chk212 v650) := fun v650 => decidable_of_iff' _ (Iff.of_eq (k0_chk212.eq_1 v650))
theorem k0_off478_inb : ∀ (v650 : BitVec 32) (k0_hw212 : k0_chk212 v650), ∀ a, (k0_off478 v650) a + S1x32.size a ≤ S100000x32.size a := fun v650 k0_hw212 => k0_hw212

def k0_off479 (k0_t8 : Fin k0_t8_loop.trips) (c3_i32_544 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off480 (v661 : BitVec 32) : Fin 2 → Nat :=
  let c0_i32_551 : BitVec 32 := 0#32
  ![v661.toNat, 0]

def k0_chk213 (v661 : BitVec 32) : Prop :=
  (∀ a, (k0_off480 v661) a + S1x32.size a ≤ S100000x32.size a)
instance k0_chk213.dec : ∀ (v661 : BitVec 32), Decidable (k0_chk213 v661) := fun v661 => decidable_of_iff' _ (Iff.of_eq (k0_chk213.eq_1 v661))
theorem k0_off480_inb : ∀ (v661 : BitVec 32) (k0_hw213 : k0_chk213 v661), ∀ a, (k0_off480 v661) a + S1x32.size a ≤ S100000x32.size a := fun v661 k0_hw213 => k0_hw213

def k0_off481 (k0_t8 : Fin k0_t8_loop.trips) (c4_i32_549 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off482 (v672 : BitVec 32) : Fin 2 → Nat :=
  let c0_i32_556 : BitVec 32 := 0#32
  ![v672.toNat, 0]

def k0_chk214 (v672 : BitVec 32) : Prop :=
  (∀ a, (k0_off482 v672) a + S1x32.size a ≤ S100000x32.size a)
instance k0_chk214.dec : ∀ (v672 : BitVec 32), Decidable (k0_chk214 v672) := fun v672 => decidable_of_iff' _ (Iff.of_eq (k0_chk214.eq_1 v672))
theorem k0_off482_inb : ∀ (v672 : BitVec 32) (k0_hw214 : k0_chk214 v672), ∀ a, (k0_off482 v672) a + S1x32.size a ≤ S100000x32.size a := fun v672 k0_hw214 => k0_hw214

def k0_off483 (k0_t8 : Fin k0_t8_loop.trips) (c5_i32_554 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off484 (v683 : BitVec 32) : Fin 2 → Nat :=
  let c0_i32_561 : BitVec 32 := 0#32
  ![v683.toNat, 0]

def k0_chk215 (v683 : BitVec 32) : Prop :=
  (∀ a, (k0_off484 v683) a + S1x32.size a ≤ S100000x32.size a)
instance k0_chk215.dec : ∀ (v683 : BitVec 32), Decidable (k0_chk215 v683) := fun v683 => decidable_of_iff' _ (Iff.of_eq (k0_chk215.eq_1 v683))
theorem k0_off484_inb : ∀ (v683 : BitVec 32) (k0_hw215 : k0_chk215 v683), ∀ a, (k0_off484 v683) a + S1x32.size a ≤ S100000x32.size a := fun v683 k0_hw215 => k0_hw215

def k0_off485 (k0_t8 : Fin k0_t8_loop.trips) (c6_i32_559 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off486 (v694 : BitVec 32) : Fin 2 → Nat :=
  let c0_i32_566 : BitVec 32 := 0#32
  ![v694.toNat, 0]

def k0_chk216 (v694 : BitVec 32) : Prop :=
  (∀ a, (k0_off486 v694) a + S1x32.size a ≤ S100000x32.size a)
instance k0_chk216.dec : ∀ (v694 : BitVec 32), Decidable (k0_chk216 v694) := fun v694 => decidable_of_iff' _ (Iff.of_eq (k0_chk216.eq_1 v694))
theorem k0_off486_inb : ∀ (v694 : BitVec 32) (k0_hw216 : k0_chk216 v694), ∀ a, (k0_off486 v694) a + S1x32.size a ≤ S100000x32.size a := fun v694 k0_hw216 => k0_hw216

def k0_off487 (k0_t8 : Fin k0_t8_loop.trips) (c7_i32_564 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off488 (v705 : BitVec 32) : Fin 2 → Nat :=
  let c0_i32_571 : BitVec 32 := 0#32
  ![v705.toNat, 0]

def k0_chk217 (v705 : BitVec 32) : Prop :=
  (∀ a, (k0_off488 v705) a + S1x32.size a ≤ S100000x32.size a)
instance k0_chk217.dec : ∀ (v705 : BitVec 32), Decidable (k0_chk217 v705) := fun v705 => decidable_of_iff' _ (Iff.of_eq (k0_chk217.eq_1 v705))
theorem k0_off488_inb : ∀ (v705 : BitVec 32) (k0_hw217 : k0_chk217 v705), ∀ a, (k0_off488 v705) a + S1x32.size a ≤ S100000x32.size a := fun v705 k0_hw217 => k0_hw217

def k0_off489 (k0_t8 : Fin k0_t8_loop.trips) (c8_i32_569 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off490 (v716 : BitVec 32) : Fin 2 → Nat :=
  let c0_i32_576 : BitVec 32 := 0#32
  ![v716.toNat, 0]

def k0_chk218 (v716 : BitVec 32) : Prop :=
  (∀ a, (k0_off490 v716) a + S1x32.size a ≤ S100000x32.size a)
instance k0_chk218.dec : ∀ (v716 : BitVec 32), Decidable (k0_chk218 v716) := fun v716 => decidable_of_iff' _ (Iff.of_eq (k0_chk218.eq_1 v716))
theorem k0_off490_inb : ∀ (v716 : BitVec 32) (k0_hw218 : k0_chk218 v716), ∀ a, (k0_off490 v716) a + S1x32.size a ≤ S100000x32.size a := fun v716 k0_hw218 => k0_hw218

def k0_off491 (k0_t8 : Fin k0_t8_loop.trips) (c9_i32_574 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off492 (v727 : BitVec 32) : Fin 2 → Nat :=
  let c0_i32_581 : BitVec 32 := 0#32
  ![v727.toNat, 0]

def k0_chk219 (v727 : BitVec 32) : Prop :=
  (∀ a, (k0_off492 v727) a + S1x32.size a ≤ S100000x32.size a)
instance k0_chk219.dec : ∀ (v727 : BitVec 32), Decidable (k0_chk219 v727) := fun v727 => decidable_of_iff' _ (Iff.of_eq (k0_chk219.eq_1 v727))
theorem k0_off492_inb : ∀ (v727 : BitVec 32) (k0_hw219 : k0_chk219 v727), ∀ a, (k0_off492 v727) a + S1x32.size a ≤ S100000x32.size a := fun v727 k0_hw219 => k0_hw219

def k0_off493 (k0_t8 : Fin k0_t8_loop.trips) (c10_i32_579 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off494 (v738 : BitVec 32) : Fin 2 → Nat :=
  let c0_i32_586 : BitVec 32 := 0#32
  ![v738.toNat, 0]

def k0_chk220 (v738 : BitVec 32) : Prop :=
  (∀ a, (k0_off494 v738) a + S1x32.size a ≤ S100000x32.size a)
instance k0_chk220.dec : ∀ (v738 : BitVec 32), Decidable (k0_chk220 v738) := fun v738 => decidable_of_iff' _ (Iff.of_eq (k0_chk220.eq_1 v738))
theorem k0_off494_inb : ∀ (v738 : BitVec 32) (k0_hw220 : k0_chk220 v738), ∀ a, (k0_off494 v738) a + S1x32.size a ≤ S100000x32.size a := fun v738 k0_hw220 => k0_hw220

def k0_off495 (k0_t8 : Fin k0_t8_loop.trips) (c11_i32_584 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off496 (v749 : BitVec 32) : Fin 2 → Nat :=
  let c0_i32_591 : BitVec 32 := 0#32
  ![v749.toNat, 0]

def k0_chk221 (v749 : BitVec 32) : Prop :=
  (∀ a, (k0_off496 v749) a + S1x32.size a ≤ S100000x32.size a)
instance k0_chk221.dec : ∀ (v749 : BitVec 32), Decidable (k0_chk221 v749) := fun v749 => decidable_of_iff' _ (Iff.of_eq (k0_chk221.eq_1 v749))
theorem k0_off496_inb : ∀ (v749 : BitVec 32) (k0_hw221 : k0_chk221 v749), ∀ a, (k0_off496 v749) a + S1x32.size a ≤ S100000x32.size a := fun v749 k0_hw221 => k0_hw221

def k0_off497 (k0_t8 : Fin k0_t8_loop.trips) (c12_i32_589 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off498 (v760 : BitVec 32) : Fin 2 → Nat :=
  let c0_i32_596 : BitVec 32 := 0#32
  ![v760.toNat, 0]

def k0_chk222 (v760 : BitVec 32) : Prop :=
  (∀ a, (k0_off498 v760) a + S1x32.size a ≤ S100000x32.size a)
instance k0_chk222.dec : ∀ (v760 : BitVec 32), Decidable (k0_chk222 v760) := fun v760 => decidable_of_iff' _ (Iff.of_eq (k0_chk222.eq_1 v760))
theorem k0_off498_inb : ∀ (v760 : BitVec 32) (k0_hw222 : k0_chk222 v760), ∀ a, (k0_off498 v760) a + S1x32.size a ≤ S100000x32.size a := fun v760 k0_hw222 => k0_hw222

def k0_off499 (k0_t8 : Fin k0_t8_loop.trips) (c13_i32_594 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off500 (v771 : BitVec 32) : Fin 2 → Nat :=
  let c0_i32_601 : BitVec 32 := 0#32
  ![v771.toNat, 0]

def k0_chk223 (v771 : BitVec 32) : Prop :=
  (∀ a, (k0_off500 v771) a + S1x32.size a ≤ S100000x32.size a)
instance k0_chk223.dec : ∀ (v771 : BitVec 32), Decidable (k0_chk223 v771) := fun v771 => decidable_of_iff' _ (Iff.of_eq (k0_chk223.eq_1 v771))
theorem k0_off500_inb : ∀ (v771 : BitVec 32) (k0_hw223 : k0_chk223 v771), ∀ a, (k0_off500 v771) a + S1x32.size a ≤ S100000x32.size a := fun v771 k0_hw223 => k0_hw223

def k0_off501 (k0_t8 : Fin k0_t8_loop.trips) (c14_i32_599 : BitVec 32) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off502 (v782 : BitVec 32) : Fin 2 → Nat :=
  let c0_i32_606 : BitVec 32 := 0#32
  ![v782.toNat, 0]

def k0_chk224 (v782 : BitVec 32) : Prop :=
  (∀ a, (k0_off502 v782) a + S1x32.size a ≤ S100000x32.size a)
instance k0_chk224.dec : ∀ (v782 : BitVec 32), Decidable (k0_chk224 v782) := fun v782 => decidable_of_iff' _ (Iff.of_eq (k0_chk224.eq_1 v782))
theorem k0_off502_inb : ∀ (v782 : BitVec 32) (k0_hw224 : k0_chk224 v782), ∀ a, (k0_off502 v782) a + S1x32.size a ≤ S100000x32.size a := fun v782 k0_hw224 => k0_hw224

def k0_off503 (k0_t8 : Fin k0_t8_loop.trips) : Fin 2 → Nat :=
  let c256_i32 : BitVec 32 := 256#32
  let c0_i32_527 : BitVec 32 := 0#32
  let c0_i32_337 : BitVec 32 := 0#32
  let c1_i32_339 : BitVec 32 := 1#32
  let arg19 : BitVec 32 := Scf.iv c0_i32_337 c1_i32_339 k0_t8
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off504 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_341 : BitVec 32 := 0#32
  ![v2.toNat, 0]
def k0_off505 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t9_loop : Scf.Loop 32 :=
  let c0_i32_345 : BitVec 32 := 0#32
  let c16_i32_346 : BitVec 32 := 16#32
  let v407 : BitVec 32 := Scalar.addi c0_i32_345 c16_i32_346
  let c1_i32_347 : BitVec 32 := 1#32
  ⟨c0_i32_345, v407, c1_i32_347⟩
def k0_off506 (k0_t9 : Fin k0_t9_loop.trips) : Fin 1 → Nat :=
  let c0_i32_527 : BitVec 32 := 0#32
  let c0_i32_345 : BitVec 32 := 0#32
  let c1_i32_347 : BitVec 32 := 1#32
  let arg19 : BitVec 32 := Scf.iv c0_i32_345 c1_i32_347 k0_t9
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : Index := Scalar.indexCast v611
  ![v612.toNat]
def k0_off507 (k0_t9 : Fin k0_t9_loop.trips) : Fin 1 → Nat :=
  let c0_i32_527 : BitVec 32 := 0#32
  let c0_i32_345 : BitVec 32 := 0#32
  let c1_i32_347 : BitVec 32 := 1#32
  let arg19 : BitVec 32 := Scf.iv c0_i32_345 c1_i32_347 k0_t9
  let c1_i32_526 : BitVec 32 := 1#32
  let v609 : BitVec 32 := Scalar.muli arg19 c1_i32_526
  let v610 : BitVec 32 := Scalar.addi c0_i32_527 v609
  let c16_i32_530 : BitVec 32 := 16#32
  let v617 : BitVec 32 := Scalar.muli v610 c16_i32_530
  let v618 : Index := Scalar.indexCast v617
  ![v618.toNat]
@[reducible] def k0_t10_loop : Scf.Loop 32 :=
  let c0_i32_349 : BitVec 32 := 0#32
  let c16_i32_350 : BitVec 32 := 16#32
  let v408 : BitVec 32 := Scalar.addi c0_i32_349 c16_i32_350
  let c1_i32_351 : BitVec 32 := 1#32
  ⟨c0_i32_349, v408, c1_i32_351⟩
def k0_off508 (k0_t10 : Fin k0_t10_loop.trips) : Fin 1 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off509 (k0_t10 : Fin k0_t10_loop.trips) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off510 (v617 : BitVec 32) : Fin 2 → Nat :=
  let c0_i32_531 : BitVec 32 := 0#32
  ![v617.toNat, 0]

def k0_chk225 (v617 : BitVec 32) : Prop :=
  (∀ a, (k0_off510 v617) a + S1x32.size a ≤ S1000000x32.size a)
instance k0_chk225.dec : ∀ (v617 : BitVec 32), Decidable (k0_chk225 v617) := fun v617 => decidable_of_iff' _ (Iff.of_eq (k0_chk225.eq_1 v617))
theorem k0_off510_inb : ∀ (v617 : BitVec 32) (k0_hw225 : k0_chk225 v617), ∀ a, (k0_off510 v617) a + S1x32.size a ≤ S1000000x32.size a := fun v617 k0_hw225 => k0_hw225

def k0_off511 (k0_t10 : Fin k0_t10_loop.trips) (c0_i32_529 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off512 (v628 : BitVec 32) : Fin 2 → Nat :=
  let c0_i32_536 : BitVec 32 := 0#32
  ![v628.toNat, 0]

def k0_chk226 (v628 : BitVec 32) : Prop :=
  (∀ a, (k0_off512 v628) a + S1x32.size a ≤ S1000000x32.size a)
instance k0_chk226.dec : ∀ (v628 : BitVec 32), Decidable (k0_chk226 v628) := fun v628 => decidable_of_iff' _ (Iff.of_eq (k0_chk226.eq_1 v628))
theorem k0_off512_inb : ∀ (v628 : BitVec 32) (k0_hw226 : k0_chk226 v628), ∀ a, (k0_off512 v628) a + S1x32.size a ≤ S1000000x32.size a := fun v628 k0_hw226 => k0_hw226

def k0_off513 (k0_t10 : Fin k0_t10_loop.trips) (c1_i32_534 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off514 (v639 : BitVec 32) : Fin 2 → Nat :=
  let c0_i32_541 : BitVec 32 := 0#32
  ![v639.toNat, 0]

def k0_chk227 (v639 : BitVec 32) : Prop :=
  (∀ a, (k0_off514 v639) a + S1x32.size a ≤ S1000000x32.size a)
instance k0_chk227.dec : ∀ (v639 : BitVec 32), Decidable (k0_chk227 v639) := fun v639 => decidable_of_iff' _ (Iff.of_eq (k0_chk227.eq_1 v639))
theorem k0_off514_inb : ∀ (v639 : BitVec 32) (k0_hw227 : k0_chk227 v639), ∀ a, (k0_off514 v639) a + S1x32.size a ≤ S1000000x32.size a := fun v639 k0_hw227 => k0_hw227

def k0_off515 (k0_t10 : Fin k0_t10_loop.trips) (c2_i32_539 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off516 (v650 : BitVec 32) : Fin 2 → Nat :=
  let c0_i32_546 : BitVec 32 := 0#32
  ![v650.toNat, 0]

def k0_chk228 (v650 : BitVec 32) : Prop :=
  (∀ a, (k0_off516 v650) a + S1x32.size a ≤ S1000000x32.size a)
instance k0_chk228.dec : ∀ (v650 : BitVec 32), Decidable (k0_chk228 v650) := fun v650 => decidable_of_iff' _ (Iff.of_eq (k0_chk228.eq_1 v650))
theorem k0_off516_inb : ∀ (v650 : BitVec 32) (k0_hw228 : k0_chk228 v650), ∀ a, (k0_off516 v650) a + S1x32.size a ≤ S1000000x32.size a := fun v650 k0_hw228 => k0_hw228

def k0_off517 (k0_t10 : Fin k0_t10_loop.trips) (c3_i32_544 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off518 (v661 : BitVec 32) : Fin 2 → Nat :=
  let c0_i32_551 : BitVec 32 := 0#32
  ![v661.toNat, 0]

def k0_chk229 (v661 : BitVec 32) : Prop :=
  (∀ a, (k0_off518 v661) a + S1x32.size a ≤ S1000000x32.size a)
instance k0_chk229.dec : ∀ (v661 : BitVec 32), Decidable (k0_chk229 v661) := fun v661 => decidable_of_iff' _ (Iff.of_eq (k0_chk229.eq_1 v661))
theorem k0_off518_inb : ∀ (v661 : BitVec 32) (k0_hw229 : k0_chk229 v661), ∀ a, (k0_off518 v661) a + S1x32.size a ≤ S1000000x32.size a := fun v661 k0_hw229 => k0_hw229

def k0_off519 (k0_t10 : Fin k0_t10_loop.trips) (c4_i32_549 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off520 (v672 : BitVec 32) : Fin 2 → Nat :=
  let c0_i32_556 : BitVec 32 := 0#32
  ![v672.toNat, 0]

def k0_chk230 (v672 : BitVec 32) : Prop :=
  (∀ a, (k0_off520 v672) a + S1x32.size a ≤ S1000000x32.size a)
instance k0_chk230.dec : ∀ (v672 : BitVec 32), Decidable (k0_chk230 v672) := fun v672 => decidable_of_iff' _ (Iff.of_eq (k0_chk230.eq_1 v672))
theorem k0_off520_inb : ∀ (v672 : BitVec 32) (k0_hw230 : k0_chk230 v672), ∀ a, (k0_off520 v672) a + S1x32.size a ≤ S1000000x32.size a := fun v672 k0_hw230 => k0_hw230

def k0_off521 (k0_t10 : Fin k0_t10_loop.trips) (c5_i32_554 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off522 (v683 : BitVec 32) : Fin 2 → Nat :=
  let c0_i32_561 : BitVec 32 := 0#32
  ![v683.toNat, 0]

def k0_chk231 (v683 : BitVec 32) : Prop :=
  (∀ a, (k0_off522 v683) a + S1x32.size a ≤ S1000000x32.size a)
instance k0_chk231.dec : ∀ (v683 : BitVec 32), Decidable (k0_chk231 v683) := fun v683 => decidable_of_iff' _ (Iff.of_eq (k0_chk231.eq_1 v683))
theorem k0_off522_inb : ∀ (v683 : BitVec 32) (k0_hw231 : k0_chk231 v683), ∀ a, (k0_off522 v683) a + S1x32.size a ≤ S1000000x32.size a := fun v683 k0_hw231 => k0_hw231

def k0_off523 (k0_t10 : Fin k0_t10_loop.trips) (c6_i32_559 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off524 (v694 : BitVec 32) : Fin 2 → Nat :=
  let c0_i32_566 : BitVec 32 := 0#32
  ![v694.toNat, 0]

def k0_chk232 (v694 : BitVec 32) : Prop :=
  (∀ a, (k0_off524 v694) a + S1x32.size a ≤ S1000000x32.size a)
instance k0_chk232.dec : ∀ (v694 : BitVec 32), Decidable (k0_chk232 v694) := fun v694 => decidable_of_iff' _ (Iff.of_eq (k0_chk232.eq_1 v694))
theorem k0_off524_inb : ∀ (v694 : BitVec 32) (k0_hw232 : k0_chk232 v694), ∀ a, (k0_off524 v694) a + S1x32.size a ≤ S1000000x32.size a := fun v694 k0_hw232 => k0_hw232

def k0_off525 (k0_t10 : Fin k0_t10_loop.trips) (c7_i32_564 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off526 (v705 : BitVec 32) : Fin 2 → Nat :=
  let c0_i32_571 : BitVec 32 := 0#32
  ![v705.toNat, 0]

def k0_chk233 (v705 : BitVec 32) : Prop :=
  (∀ a, (k0_off526 v705) a + S1x32.size a ≤ S1000000x32.size a)
instance k0_chk233.dec : ∀ (v705 : BitVec 32), Decidable (k0_chk233 v705) := fun v705 => decidable_of_iff' _ (Iff.of_eq (k0_chk233.eq_1 v705))
theorem k0_off526_inb : ∀ (v705 : BitVec 32) (k0_hw233 : k0_chk233 v705), ∀ a, (k0_off526 v705) a + S1x32.size a ≤ S1000000x32.size a := fun v705 k0_hw233 => k0_hw233

def k0_off527 (k0_t10 : Fin k0_t10_loop.trips) (c8_i32_569 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off528 (v716 : BitVec 32) : Fin 2 → Nat :=
  let c0_i32_576 : BitVec 32 := 0#32
  ![v716.toNat, 0]

def k0_chk234 (v716 : BitVec 32) : Prop :=
  (∀ a, (k0_off528 v716) a + S1x32.size a ≤ S1000000x32.size a)
instance k0_chk234.dec : ∀ (v716 : BitVec 32), Decidable (k0_chk234 v716) := fun v716 => decidable_of_iff' _ (Iff.of_eq (k0_chk234.eq_1 v716))
theorem k0_off528_inb : ∀ (v716 : BitVec 32) (k0_hw234 : k0_chk234 v716), ∀ a, (k0_off528 v716) a + S1x32.size a ≤ S1000000x32.size a := fun v716 k0_hw234 => k0_hw234

def k0_off529 (k0_t10 : Fin k0_t10_loop.trips) (c9_i32_574 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off530 (v727 : BitVec 32) : Fin 2 → Nat :=
  let c0_i32_581 : BitVec 32 := 0#32
  ![v727.toNat, 0]

def k0_chk235 (v727 : BitVec 32) : Prop :=
  (∀ a, (k0_off530 v727) a + S1x32.size a ≤ S1000000x32.size a)
instance k0_chk235.dec : ∀ (v727 : BitVec 32), Decidable (k0_chk235 v727) := fun v727 => decidable_of_iff' _ (Iff.of_eq (k0_chk235.eq_1 v727))
theorem k0_off530_inb : ∀ (v727 : BitVec 32) (k0_hw235 : k0_chk235 v727), ∀ a, (k0_off530 v727) a + S1x32.size a ≤ S1000000x32.size a := fun v727 k0_hw235 => k0_hw235

def k0_off531 (k0_t10 : Fin k0_t10_loop.trips) (c10_i32_579 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off532 (v738 : BitVec 32) : Fin 2 → Nat :=
  let c0_i32_586 : BitVec 32 := 0#32
  ![v738.toNat, 0]

def k0_chk236 (v738 : BitVec 32) : Prop :=
  (∀ a, (k0_off532 v738) a + S1x32.size a ≤ S1000000x32.size a)
instance k0_chk236.dec : ∀ (v738 : BitVec 32), Decidable (k0_chk236 v738) := fun v738 => decidable_of_iff' _ (Iff.of_eq (k0_chk236.eq_1 v738))
theorem k0_off532_inb : ∀ (v738 : BitVec 32) (k0_hw236 : k0_chk236 v738), ∀ a, (k0_off532 v738) a + S1x32.size a ≤ S1000000x32.size a := fun v738 k0_hw236 => k0_hw236

def k0_off533 (k0_t10 : Fin k0_t10_loop.trips) (c11_i32_584 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off534 (v749 : BitVec 32) : Fin 2 → Nat :=
  let c0_i32_591 : BitVec 32 := 0#32
  ![v749.toNat, 0]

def k0_chk237 (v749 : BitVec 32) : Prop :=
  (∀ a, (k0_off534 v749) a + S1x32.size a ≤ S1000000x32.size a)
instance k0_chk237.dec : ∀ (v749 : BitVec 32), Decidable (k0_chk237 v749) := fun v749 => decidable_of_iff' _ (Iff.of_eq (k0_chk237.eq_1 v749))
theorem k0_off534_inb : ∀ (v749 : BitVec 32) (k0_hw237 : k0_chk237 v749), ∀ a, (k0_off534 v749) a + S1x32.size a ≤ S1000000x32.size a := fun v749 k0_hw237 => k0_hw237

def k0_off535 (k0_t10 : Fin k0_t10_loop.trips) (c12_i32_589 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off536 (v760 : BitVec 32) : Fin 2 → Nat :=
  let c0_i32_596 : BitVec 32 := 0#32
  ![v760.toNat, 0]

def k0_chk238 (v760 : BitVec 32) : Prop :=
  (∀ a, (k0_off536 v760) a + S1x32.size a ≤ S1000000x32.size a)
instance k0_chk238.dec : ∀ (v760 : BitVec 32), Decidable (k0_chk238 v760) := fun v760 => decidable_of_iff' _ (Iff.of_eq (k0_chk238.eq_1 v760))
theorem k0_off536_inb : ∀ (v760 : BitVec 32) (k0_hw238 : k0_chk238 v760), ∀ a, (k0_off536 v760) a + S1x32.size a ≤ S1000000x32.size a := fun v760 k0_hw238 => k0_hw238

def k0_off537 (k0_t10 : Fin k0_t10_loop.trips) (c13_i32_594 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off538 (v771 : BitVec 32) : Fin 2 → Nat :=
  let c0_i32_601 : BitVec 32 := 0#32
  ![v771.toNat, 0]

def k0_chk239 (v771 : BitVec 32) : Prop :=
  (∀ a, (k0_off538 v771) a + S1x32.size a ≤ S1000000x32.size a)
instance k0_chk239.dec : ∀ (v771 : BitVec 32), Decidable (k0_chk239 v771) := fun v771 => decidable_of_iff' _ (Iff.of_eq (k0_chk239.eq_1 v771))
theorem k0_off538_inb : ∀ (v771 : BitVec 32) (k0_hw239 : k0_chk239 v771), ∀ a, (k0_off538 v771) a + S1x32.size a ≤ S1000000x32.size a := fun v771 k0_hw239 => k0_hw239

def k0_off539 (k0_t10 : Fin k0_t10_loop.trips) (c14_i32_599 : BitVec 32) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off540 (v782 : BitVec 32) : Fin 2 → Nat :=
  let c0_i32_606 : BitVec 32 := 0#32
  ![v782.toNat, 0]

def k0_chk240 (v782 : BitVec 32) : Prop :=
  (∀ a, (k0_off540 v782) a + S1x32.size a ≤ S1000000x32.size a)
instance k0_chk240.dec : ∀ (v782 : BitVec 32), Decidable (k0_chk240 v782) := fun v782 => decidable_of_iff' _ (Iff.of_eq (k0_chk240.eq_1 v782))
theorem k0_off540_inb : ∀ (v782 : BitVec 32) (k0_hw240 : k0_chk240 v782), ∀ a, (k0_off540 v782) a + S1x32.size a ≤ S1000000x32.size a := fun v782 k0_hw240 => k0_hw240

def k0_off541 (k0_t10 : Fin k0_t10_loop.trips) : Fin 2 → Nat :=
  let c256_i32 : BitVec 32 := 256#32
  let c0_i32_527 : BitVec 32 := 0#32
  let c0_i32_349 : BitVec 32 := 0#32
  let c1_i32_351 : BitVec 32 := 1#32
  let arg19 : BitVec 32 := Scf.iv c0_i32_349 c1_i32_351 k0_t10
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off542 (v412 : BitVec 32) : Fin 3 → Nat :=
  let c0_i32_358 : BitVec 32 := 0#32
  let c0_i32_359 : BitVec 32 := 0#32
  ![v412.toNat, 0, 0]

def k0_chk241 (v412 : BitVec 32) : Prop :=
  (∀ a, (k0_off542 v412) a + S1x8x32.size a ≤ S125000x8x32.size a)
instance k0_chk241.dec : ∀ (v412 : BitVec 32), Decidable (k0_chk241 v412) := fun v412 => decidable_of_iff' _ (Iff.of_eq (k0_chk241.eq_1 v412))
theorem k0_off542_inb : ∀ (v412 : BitVec 32) (k0_hw241 : k0_chk241 v412), ∀ a, (k0_off542 v412) a + S1x8x32.size a ≤ S125000x8x32.size a := fun v412 k0_hw241 => k0_hw241

def k0_off543 (v424 : BitVec 32) : Fin 3 → Nat :=
  let c0_i32_368 : BitVec 32 := 0#32
  let c0_i32_369 : BitVec 32 := 0#32
  ![v424.toNat, 0, 0]

def k0_chk242 (v424 : BitVec 32) : Prop :=
  (∀ a, (k0_off543 v424) a + S1x8x32.size a ≤ S125000x8x32.size a)
instance k0_chk242.dec : ∀ (v424 : BitVec 32), Decidable (k0_chk242 v424) := fun v424 => decidable_of_iff' _ (Iff.of_eq (k0_chk242.eq_1 v424))
theorem k0_off543_inb : ∀ (v424 : BitVec 32) (k0_hw242 : k0_chk242 v424), ∀ a, (k0_off543 v424) a + S1x8x32.size a ≤ S125000x8x32.size a := fun v424 k0_hw242 => k0_hw242

def k0_off544 (v436 : BitVec 32) : Fin 3 → Nat :=
  let c0_i32_378 : BitVec 32 := 0#32
  let c0_i32_379 : BitVec 32 := 0#32
  ![v436.toNat, 0, 0]

def k0_chk243 (v436 : BitVec 32) : Prop :=
  (∀ a, (k0_off544 v436) a + S1x8x32.size a ≤ S125000x8x32.size a)
instance k0_chk243.dec : ∀ (v436 : BitVec 32), Decidable (k0_chk243 v436) := fun v436 => decidable_of_iff' _ (Iff.of_eq (k0_chk243.eq_1 v436))
theorem k0_off544_inb : ∀ (v436 : BitVec 32) (k0_hw243 : k0_chk243 v436), ∀ a, (k0_off544 v436) a + S1x8x32.size a ≤ S125000x8x32.size a := fun v436 k0_hw243 => k0_hw243

def k0_off545 (v448 : BitVec 32) : Fin 3 → Nat :=
  let c0_i32_388 : BitVec 32 := 0#32
  let c0_i32_389 : BitVec 32 := 0#32
  ![v448.toNat, 0, 0]

def k0_chk244 (v448 : BitVec 32) : Prop :=
  (∀ a, (k0_off545 v448) a + S1x8x32.size a ≤ S125000x8x32.size a)
instance k0_chk244.dec : ∀ (v448 : BitVec 32), Decidable (k0_chk244 v448) := fun v448 => decidable_of_iff' _ (Iff.of_eq (k0_chk244.eq_1 v448))
theorem k0_off545_inb : ∀ (v448 : BitVec 32) (k0_hw244 : k0_chk244 v448), ∀ a, (k0_off545 v448) a + S1x8x32.size a ≤ S125000x8x32.size a := fun v448 k0_hw244 => k0_hw244

def k0_off546 (v460 : BitVec 32) : Fin 3 → Nat :=
  let c0_i32_398 : BitVec 32 := 0#32
  let c0_i32_399 : BitVec 32 := 0#32
  ![v460.toNat, 0, 0]

def k0_chk245 (v460 : BitVec 32) : Prop :=
  (∀ a, (k0_off546 v460) a + S1x8x32.size a ≤ S125000x8x32.size a)
instance k0_chk245.dec : ∀ (v460 : BitVec 32), Decidable (k0_chk245 v460) := fun v460 => decidable_of_iff' _ (Iff.of_eq (k0_chk245.eq_1 v460))
theorem k0_off546_inb : ∀ (v460 : BitVec 32) (k0_hw245 : k0_chk245 v460), ∀ a, (k0_off546 v460) a + S1x8x32.size a ≤ S125000x8x32.size a := fun v460 k0_hw245 => k0_hw245

def k0_off547 (v472 : BitVec 32) : Fin 3 → Nat :=
  let c0_i32_408 : BitVec 32 := 0#32
  let c0_i32_409 : BitVec 32 := 0#32
  ![v472.toNat, 0, 0]

def k0_chk246 (v472 : BitVec 32) : Prop :=
  (∀ a, (k0_off547 v472) a + S1x8x32.size a ≤ S125000x8x32.size a)
instance k0_chk246.dec : ∀ (v472 : BitVec 32), Decidable (k0_chk246 v472) := fun v472 => decidable_of_iff' _ (Iff.of_eq (k0_chk246.eq_1 v472))
theorem k0_off547_inb : ∀ (v472 : BitVec 32) (k0_hw246 : k0_chk246 v472), ∀ a, (k0_off547 v472) a + S1x8x32.size a ≤ S125000x8x32.size a := fun v472 k0_hw246 => k0_hw246

def k0_off548 (v484 : BitVec 32) : Fin 3 → Nat :=
  let c0_i32_418 : BitVec 32 := 0#32
  let c0_i32_419 : BitVec 32 := 0#32
  ![v484.toNat, 0, 0]

def k0_chk247 (v484 : BitVec 32) : Prop :=
  (∀ a, (k0_off548 v484) a + S1x8x32.size a ≤ S125000x8x32.size a)
instance k0_chk247.dec : ∀ (v484 : BitVec 32), Decidable (k0_chk247 v484) := fun v484 => decidable_of_iff' _ (Iff.of_eq (k0_chk247.eq_1 v484))
theorem k0_off548_inb : ∀ (v484 : BitVec 32) (k0_hw247 : k0_chk247 v484), ∀ a, (k0_off548 v484) a + S1x8x32.size a ≤ S125000x8x32.size a := fun v484 k0_hw247 => k0_hw247

def k0_off549 (v496 : BitVec 32) : Fin 3 → Nat :=
  let c0_i32_428 : BitVec 32 := 0#32
  let c0_i32_429 : BitVec 32 := 0#32
  ![v496.toNat, 0, 0]

def k0_chk248 (v496 : BitVec 32) : Prop :=
  (∀ a, (k0_off549 v496) a + S1x8x32.size a ≤ S125000x8x32.size a)
instance k0_chk248.dec : ∀ (v496 : BitVec 32), Decidable (k0_chk248 v496) := fun v496 => decidable_of_iff' _ (Iff.of_eq (k0_chk248.eq_1 v496))
theorem k0_off549_inb : ∀ (v496 : BitVec 32) (k0_hw248 : k0_chk248 v496), ∀ a, (k0_off549 v496) a + S1x8x32.size a ≤ S125000x8x32.size a := fun v496 k0_hw248 => k0_hw248

def k0_off550 (v508 : BitVec 32) : Fin 3 → Nat :=
  let c0_i32_438 : BitVec 32 := 0#32
  let c0_i32_439 : BitVec 32 := 0#32
  ![v508.toNat, 0, 0]

def k0_chk249 (v508 : BitVec 32) : Prop :=
  (∀ a, (k0_off550 v508) a + S1x8x32.size a ≤ S125000x8x32.size a)
instance k0_chk249.dec : ∀ (v508 : BitVec 32), Decidable (k0_chk249 v508) := fun v508 => decidable_of_iff' _ (Iff.of_eq (k0_chk249.eq_1 v508))
theorem k0_off550_inb : ∀ (v508 : BitVec 32) (k0_hw249 : k0_chk249 v508), ∀ a, (k0_off550 v508) a + S1x8x32.size a ≤ S125000x8x32.size a := fun v508 k0_hw249 => k0_hw249

def k0_off551 (v520 : BitVec 32) : Fin 3 → Nat :=
  let c0_i32_448 : BitVec 32 := 0#32
  let c0_i32_449 : BitVec 32 := 0#32
  ![v520.toNat, 0, 0]

def k0_chk250 (v520 : BitVec 32) : Prop :=
  (∀ a, (k0_off551 v520) a + S1x8x32.size a ≤ S125000x8x32.size a)
instance k0_chk250.dec : ∀ (v520 : BitVec 32), Decidable (k0_chk250 v520) := fun v520 => decidable_of_iff' _ (Iff.of_eq (k0_chk250.eq_1 v520))
theorem k0_off551_inb : ∀ (v520 : BitVec 32) (k0_hw250 : k0_chk250 v520), ∀ a, (k0_off551 v520) a + S1x8x32.size a ≤ S125000x8x32.size a := fun v520 k0_hw250 => k0_hw250

def k0_off552 (v532 : BitVec 32) : Fin 3 → Nat :=
  let c0_i32_458 : BitVec 32 := 0#32
  let c0_i32_459 : BitVec 32 := 0#32
  ![v532.toNat, 0, 0]

def k0_chk251 (v532 : BitVec 32) : Prop :=
  (∀ a, (k0_off552 v532) a + S1x8x32.size a ≤ S125000x8x32.size a)
instance k0_chk251.dec : ∀ (v532 : BitVec 32), Decidable (k0_chk251 v532) := fun v532 => decidable_of_iff' _ (Iff.of_eq (k0_chk251.eq_1 v532))
theorem k0_off552_inb : ∀ (v532 : BitVec 32) (k0_hw251 : k0_chk251 v532), ∀ a, (k0_off552 v532) a + S1x8x32.size a ≤ S125000x8x32.size a := fun v532 k0_hw251 => k0_hw251

def k0_off553 (v544 : BitVec 32) : Fin 3 → Nat :=
  let c0_i32_468 : BitVec 32 := 0#32
  let c0_i32_469 : BitVec 32 := 0#32
  ![v544.toNat, 0, 0]

def k0_chk252 (v544 : BitVec 32) : Prop :=
  (∀ a, (k0_off553 v544) a + S1x8x32.size a ≤ S125000x8x32.size a)
instance k0_chk252.dec : ∀ (v544 : BitVec 32), Decidable (k0_chk252 v544) := fun v544 => decidable_of_iff' _ (Iff.of_eq (k0_chk252.eq_1 v544))
theorem k0_off553_inb : ∀ (v544 : BitVec 32) (k0_hw252 : k0_chk252 v544), ∀ a, (k0_off553 v544) a + S1x8x32.size a ≤ S125000x8x32.size a := fun v544 k0_hw252 => k0_hw252

def k0_off554 (v556 : BitVec 32) : Fin 3 → Nat :=
  let c0_i32_478 : BitVec 32 := 0#32
  let c0_i32_479 : BitVec 32 := 0#32
  ![v556.toNat, 0, 0]

def k0_chk253 (v556 : BitVec 32) : Prop :=
  (∀ a, (k0_off554 v556) a + S1x8x32.size a ≤ S125000x8x32.size a)
instance k0_chk253.dec : ∀ (v556 : BitVec 32), Decidable (k0_chk253 v556) := fun v556 => decidable_of_iff' _ (Iff.of_eq (k0_chk253.eq_1 v556))
theorem k0_off554_inb : ∀ (v556 : BitVec 32) (k0_hw253 : k0_chk253 v556), ∀ a, (k0_off554 v556) a + S1x8x32.size a ≤ S125000x8x32.size a := fun v556 k0_hw253 => k0_hw253

def k0_off555 (v568 : BitVec 32) : Fin 3 → Nat :=
  let c0_i32_488 : BitVec 32 := 0#32
  let c0_i32_489 : BitVec 32 := 0#32
  ![v568.toNat, 0, 0]

def k0_chk254 (v568 : BitVec 32) : Prop :=
  (∀ a, (k0_off555 v568) a + S1x8x32.size a ≤ S125000x8x32.size a)
instance k0_chk254.dec : ∀ (v568 : BitVec 32), Decidable (k0_chk254 v568) := fun v568 => decidable_of_iff' _ (Iff.of_eq (k0_chk254.eq_1 v568))
theorem k0_off555_inb : ∀ (v568 : BitVec 32) (k0_hw254 : k0_chk254 v568), ∀ a, (k0_off555 v568) a + S1x8x32.size a ≤ S125000x8x32.size a := fun v568 k0_hw254 => k0_hw254

def k0_off556 (v580 : BitVec 32) : Fin 3 → Nat :=
  let c0_i32_498 : BitVec 32 := 0#32
  let c0_i32_499 : BitVec 32 := 0#32
  ![v580.toNat, 0, 0]

def k0_chk255 (v580 : BitVec 32) : Prop :=
  (∀ a, (k0_off556 v580) a + S1x8x32.size a ≤ S125000x8x32.size a)
instance k0_chk255.dec : ∀ (v580 : BitVec 32), Decidable (k0_chk255 v580) := fun v580 => decidable_of_iff' _ (Iff.of_eq (k0_chk255.eq_1 v580))
theorem k0_off556_inb : ∀ (v580 : BitVec 32) (k0_hw255 : k0_chk255 v580), ∀ a, (k0_off556 v580) a + S1x8x32.size a ≤ S125000x8x32.size a := fun v580 k0_hw255 => k0_hw255

def k0_off557 (v592 : BitVec 32) : Fin 3 → Nat :=
  let c0_i32_508 : BitVec 32 := 0#32
  let c0_i32_509 : BitVec 32 := 0#32
  ![v592.toNat, 0, 0]

def k0_chk256 (v592 : BitVec 32) : Prop :=
  (∀ a, (k0_off557 v592) a + S1x8x32.size a ≤ S125000x8x32.size a)
instance k0_chk256.dec : ∀ (v592 : BitVec 32), Decidable (k0_chk256 v592) := fun v592 => decidable_of_iff' _ (Iff.of_eq (k0_chk256.eq_1 v592))
theorem k0_off557_inb : ∀ (v592 : BitVec 32) (k0_hw256 : k0_chk256 v592), ∀ a, (k0_off557 v592) a + S1x8x32.size a ≤ S125000x8x32.size a := fun v592 k0_hw256 => k0_hw256

@[reducible] def k0_t11_loop : Scf.Loop 32 :=
  let c0_i32_514 : BitVec 32 := 0#32
  let c8_i32_515 : BitVec 32 := 8#32
  let v603 : BitVec 32 := Scalar.addi c0_i32_514 c8_i32_515
  let c1_i32_516 : BitVec 32 := 1#32
  ⟨c0_i32_514, v603, c1_i32_516⟩
def k0_off558 (k0_t11 : Fin k0_t11_loop.trips) : Fin 1 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_530 : BitVec 32 := 16#32
  let v613 : BitVec 32 := Scalar.muli v612 c16_i32_530
  let v614 : Index := Scalar.indexCast v613
  ![v614.toNat]
def k0_off559 (v618 : BitVec 32) : Fin 3 → Nat :=
  let c0_i32_535 : BitVec 32 := 0#32
  let c0_i32_536 : BitVec 32 := 0#32
  ![v618.toNat, 0, 0]

def k0_chk257 (v618 : BitVec 32) : Prop :=
  (∀ a, (k0_off559 v618) a + S1x8x32.size a ≤ S125000x8x32.size a)
instance k0_chk257.dec : ∀ (v618 : BitVec 32), Decidable (k0_chk257 v618) := fun v618 => decidable_of_iff' _ (Iff.of_eq (k0_chk257.eq_1 v618))
theorem k0_off559_inb : ∀ (v618 : BitVec 32) (k0_hw257 : k0_chk257 v618), ∀ a, (k0_off559 v618) a + S1x8x32.size a ≤ S125000x8x32.size a := fun v618 k0_hw257 => k0_hw257

def k0_off560 (v630 : BitVec 32) : Fin 3 → Nat :=
  let c0_i32_545 : BitVec 32 := 0#32
  let c0_i32_546 : BitVec 32 := 0#32
  ![v630.toNat, 0, 0]

def k0_chk258 (v630 : BitVec 32) : Prop :=
  (∀ a, (k0_off560 v630) a + S1x8x32.size a ≤ S125000x8x32.size a)
instance k0_chk258.dec : ∀ (v630 : BitVec 32), Decidable (k0_chk258 v630) := fun v630 => decidable_of_iff' _ (Iff.of_eq (k0_chk258.eq_1 v630))
theorem k0_off560_inb : ∀ (v630 : BitVec 32) (k0_hw258 : k0_chk258 v630), ∀ a, (k0_off560 v630) a + S1x8x32.size a ≤ S125000x8x32.size a := fun v630 k0_hw258 => k0_hw258

def k0_off561 (v642 : BitVec 32) : Fin 3 → Nat :=
  let c0_i32_555 : BitVec 32 := 0#32
  let c0_i32_556 : BitVec 32 := 0#32
  ![v642.toNat, 0, 0]

def k0_chk259 (v642 : BitVec 32) : Prop :=
  (∀ a, (k0_off561 v642) a + S1x8x32.size a ≤ S125000x8x32.size a)
instance k0_chk259.dec : ∀ (v642 : BitVec 32), Decidable (k0_chk259 v642) := fun v642 => decidable_of_iff' _ (Iff.of_eq (k0_chk259.eq_1 v642))
theorem k0_off561_inb : ∀ (v642 : BitVec 32) (k0_hw259 : k0_chk259 v642), ∀ a, (k0_off561 v642) a + S1x8x32.size a ≤ S125000x8x32.size a := fun v642 k0_hw259 => k0_hw259

def k0_off562 (v654 : BitVec 32) : Fin 3 → Nat :=
  let c0_i32_565 : BitVec 32 := 0#32
  let c0_i32_566 : BitVec 32 := 0#32
  ![v654.toNat, 0, 0]

def k0_chk260 (v654 : BitVec 32) : Prop :=
  (∀ a, (k0_off562 v654) a + S1x8x32.size a ≤ S125000x8x32.size a)
instance k0_chk260.dec : ∀ (v654 : BitVec 32), Decidable (k0_chk260 v654) := fun v654 => decidable_of_iff' _ (Iff.of_eq (k0_chk260.eq_1 v654))
theorem k0_off562_inb : ∀ (v654 : BitVec 32) (k0_hw260 : k0_chk260 v654), ∀ a, (k0_off562 v654) a + S1x8x32.size a ≤ S125000x8x32.size a := fun v654 k0_hw260 => k0_hw260

def k0_off563 (v666 : BitVec 32) : Fin 3 → Nat :=
  let c0_i32_575 : BitVec 32 := 0#32
  let c0_i32_576 : BitVec 32 := 0#32
  ![v666.toNat, 0, 0]

def k0_chk261 (v666 : BitVec 32) : Prop :=
  (∀ a, (k0_off563 v666) a + S1x8x32.size a ≤ S125000x8x32.size a)
instance k0_chk261.dec : ∀ (v666 : BitVec 32), Decidable (k0_chk261 v666) := fun v666 => decidable_of_iff' _ (Iff.of_eq (k0_chk261.eq_1 v666))
theorem k0_off563_inb : ∀ (v666 : BitVec 32) (k0_hw261 : k0_chk261 v666), ∀ a, (k0_off563 v666) a + S1x8x32.size a ≤ S125000x8x32.size a := fun v666 k0_hw261 => k0_hw261

def k0_off564 (v678 : BitVec 32) : Fin 3 → Nat :=
  let c0_i32_585 : BitVec 32 := 0#32
  let c0_i32_586 : BitVec 32 := 0#32
  ![v678.toNat, 0, 0]

def k0_chk262 (v678 : BitVec 32) : Prop :=
  (∀ a, (k0_off564 v678) a + S1x8x32.size a ≤ S125000x8x32.size a)
instance k0_chk262.dec : ∀ (v678 : BitVec 32), Decidable (k0_chk262 v678) := fun v678 => decidable_of_iff' _ (Iff.of_eq (k0_chk262.eq_1 v678))
theorem k0_off564_inb : ∀ (v678 : BitVec 32) (k0_hw262 : k0_chk262 v678), ∀ a, (k0_off564 v678) a + S1x8x32.size a ≤ S125000x8x32.size a := fun v678 k0_hw262 => k0_hw262

def k0_off565 (v690 : BitVec 32) : Fin 3 → Nat :=
  let c0_i32_595 : BitVec 32 := 0#32
  let c0_i32_596 : BitVec 32 := 0#32
  ![v690.toNat, 0, 0]

def k0_chk263 (v690 : BitVec 32) : Prop :=
  (∀ a, (k0_off565 v690) a + S1x8x32.size a ≤ S125000x8x32.size a)
instance k0_chk263.dec : ∀ (v690 : BitVec 32), Decidable (k0_chk263 v690) := fun v690 => decidable_of_iff' _ (Iff.of_eq (k0_chk263.eq_1 v690))
theorem k0_off565_inb : ∀ (v690 : BitVec 32) (k0_hw263 : k0_chk263 v690), ∀ a, (k0_off565 v690) a + S1x8x32.size a ≤ S125000x8x32.size a := fun v690 k0_hw263 => k0_hw263

def k0_off566 (v702 : BitVec 32) : Fin 3 → Nat :=
  let c0_i32_605 : BitVec 32 := 0#32
  let c0_i32_606 : BitVec 32 := 0#32
  ![v702.toNat, 0, 0]

def k0_chk264 (v702 : BitVec 32) : Prop :=
  (∀ a, (k0_off566 v702) a + S1x8x32.size a ≤ S125000x8x32.size a)
instance k0_chk264.dec : ∀ (v702 : BitVec 32), Decidable (k0_chk264 v702) := fun v702 => decidable_of_iff' _ (Iff.of_eq (k0_chk264.eq_1 v702))
theorem k0_off566_inb : ∀ (v702 : BitVec 32) (k0_hw264 : k0_chk264 v702), ∀ a, (k0_off566 v702) a + S1x8x32.size a ≤ S125000x8x32.size a := fun v702 k0_hw264 => k0_hw264

def k0_off567 (v714 : BitVec 32) : Fin 3 → Nat :=
  let c0_i32_615 : BitVec 32 := 0#32
  let c0_i32_616 : BitVec 32 := 0#32
  ![v714.toNat, 0, 0]

def k0_chk265 (v714 : BitVec 32) : Prop :=
  (∀ a, (k0_off567 v714) a + S1x8x32.size a ≤ S125000x8x32.size a)
instance k0_chk265.dec : ∀ (v714 : BitVec 32), Decidable (k0_chk265 v714) := fun v714 => decidable_of_iff' _ (Iff.of_eq (k0_chk265.eq_1 v714))
theorem k0_off567_inb : ∀ (v714 : BitVec 32) (k0_hw265 : k0_chk265 v714), ∀ a, (k0_off567 v714) a + S1x8x32.size a ≤ S125000x8x32.size a := fun v714 k0_hw265 => k0_hw265

def k0_off568 (v726 : BitVec 32) : Fin 3 → Nat :=
  let c0_i32_625 : BitVec 32 := 0#32
  let c0_i32_626 : BitVec 32 := 0#32
  ![v726.toNat, 0, 0]

def k0_chk266 (v726 : BitVec 32) : Prop :=
  (∀ a, (k0_off568 v726) a + S1x8x32.size a ≤ S125000x8x32.size a)
instance k0_chk266.dec : ∀ (v726 : BitVec 32), Decidable (k0_chk266 v726) := fun v726 => decidable_of_iff' _ (Iff.of_eq (k0_chk266.eq_1 v726))
theorem k0_off568_inb : ∀ (v726 : BitVec 32) (k0_hw266 : k0_chk266 v726), ∀ a, (k0_off568 v726) a + S1x8x32.size a ≤ S125000x8x32.size a := fun v726 k0_hw266 => k0_hw266

def k0_off569 (v738 : BitVec 32) : Fin 3 → Nat :=
  let c0_i32_635 : BitVec 32 := 0#32
  let c0_i32_636 : BitVec 32 := 0#32
  ![v738.toNat, 0, 0]

def k0_chk267 (v738 : BitVec 32) : Prop :=
  (∀ a, (k0_off569 v738) a + S1x8x32.size a ≤ S125000x8x32.size a)
instance k0_chk267.dec : ∀ (v738 : BitVec 32), Decidable (k0_chk267 v738) := fun v738 => decidable_of_iff' _ (Iff.of_eq (k0_chk267.eq_1 v738))
theorem k0_off569_inb : ∀ (v738 : BitVec 32) (k0_hw267 : k0_chk267 v738), ∀ a, (k0_off569 v738) a + S1x8x32.size a ≤ S125000x8x32.size a := fun v738 k0_hw267 => k0_hw267

def k0_off570 (v750 : BitVec 32) : Fin 3 → Nat :=
  let c0_i32_645 : BitVec 32 := 0#32
  let c0_i32_646 : BitVec 32 := 0#32
  ![v750.toNat, 0, 0]

def k0_chk268 (v750 : BitVec 32) : Prop :=
  (∀ a, (k0_off570 v750) a + S1x8x32.size a ≤ S125000x8x32.size a)
instance k0_chk268.dec : ∀ (v750 : BitVec 32), Decidable (k0_chk268 v750) := fun v750 => decidable_of_iff' _ (Iff.of_eq (k0_chk268.eq_1 v750))
theorem k0_off570_inb : ∀ (v750 : BitVec 32) (k0_hw268 : k0_chk268 v750), ∀ a, (k0_off570 v750) a + S1x8x32.size a ≤ S125000x8x32.size a := fun v750 k0_hw268 => k0_hw268

def k0_off571 (v762 : BitVec 32) : Fin 3 → Nat :=
  let c0_i32_655 : BitVec 32 := 0#32
  let c0_i32_656 : BitVec 32 := 0#32
  ![v762.toNat, 0, 0]

def k0_chk269 (v762 : BitVec 32) : Prop :=
  (∀ a, (k0_off571 v762) a + S1x8x32.size a ≤ S125000x8x32.size a)
instance k0_chk269.dec : ∀ (v762 : BitVec 32), Decidable (k0_chk269 v762) := fun v762 => decidable_of_iff' _ (Iff.of_eq (k0_chk269.eq_1 v762))
theorem k0_off571_inb : ∀ (v762 : BitVec 32) (k0_hw269 : k0_chk269 v762), ∀ a, (k0_off571 v762) a + S1x8x32.size a ≤ S125000x8x32.size a := fun v762 k0_hw269 => k0_hw269

def k0_off572 (v774 : BitVec 32) : Fin 3 → Nat :=
  let c0_i32_665 : BitVec 32 := 0#32
  let c0_i32_666 : BitVec 32 := 0#32
  ![v774.toNat, 0, 0]

def k0_chk270 (v774 : BitVec 32) : Prop :=
  (∀ a, (k0_off572 v774) a + S1x8x32.size a ≤ S125000x8x32.size a)
instance k0_chk270.dec : ∀ (v774 : BitVec 32), Decidable (k0_chk270 v774) := fun v774 => decidable_of_iff' _ (Iff.of_eq (k0_chk270.eq_1 v774))
theorem k0_off572_inb : ∀ (v774 : BitVec 32) (k0_hw270 : k0_chk270 v774), ∀ a, (k0_off572 v774) a + S1x8x32.size a ≤ S125000x8x32.size a := fun v774 k0_hw270 => k0_hw270

def k0_off573 (v786 : BitVec 32) : Fin 3 → Nat :=
  let c0_i32_675 : BitVec 32 := 0#32
  let c0_i32_676 : BitVec 32 := 0#32
  ![v786.toNat, 0, 0]

def k0_chk271 (v786 : BitVec 32) : Prop :=
  (∀ a, (k0_off573 v786) a + S1x8x32.size a ≤ S125000x8x32.size a)
instance k0_chk271.dec : ∀ (v786 : BitVec 32), Decidable (k0_chk271 v786) := fun v786 => decidable_of_iff' _ (Iff.of_eq (k0_chk271.eq_1 v786))
theorem k0_off573_inb : ∀ (v786 : BitVec 32) (k0_hw271 : k0_chk271 v786), ∀ a, (k0_off573 v786) a + S1x8x32.size a ≤ S125000x8x32.size a := fun v786 k0_hw271 => k0_hw271

def k0_off574 (v798 : BitVec 32) : Fin 3 → Nat :=
  let c0_i32_685 : BitVec 32 := 0#32
  let c0_i32_686 : BitVec 32 := 0#32
  ![v798.toNat, 0, 0]

def k0_chk272 (v798 : BitVec 32) : Prop :=
  (∀ a, (k0_off574 v798) a + S1x8x32.size a ≤ S125000x8x32.size a)
instance k0_chk272.dec : ∀ (v798 : BitVec 32), Decidable (k0_chk272 v798) := fun v798 => decidable_of_iff' _ (Iff.of_eq (k0_chk272.eq_1 v798))
theorem k0_off574_inb : ∀ (v798 : BitVec 32) (k0_hw272 : k0_chk272 v798), ∀ a, (k0_off574 v798) a + S1x8x32.size a ≤ S125000x8x32.size a := fun v798 k0_hw272 => k0_hw272

def k0_off575 (k0_t11 : Fin k0_t11_loop.trips) : Fin 1 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let v818 : Index := Scalar.indexCast v817
  ![v818.toNat]
def k0_off576 (v822 : BitVec 32) : Fin 4 → Nat :=
  let c0_i32_706 : BitVec 32 := 0#32
  let v824 : Index := Scalar.indexCast c0_i32_706
  let c0_i32_707 : BitVec 32 := 0#32
  let v825 : Index := Scalar.indexCast c0_i32_707
  let c8_i32_705 : BitVec 32 := 8#32
  let v823 : BitVec 32 := Scalar.remsi v822 c8_i32_705
  let v826 : Index := Scalar.indexCast v823
  let c0_708 : Index := 0#32
  ![0, 0, v826.toNat, 0]

def k0_off577 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_709 : BitVec 32 := 0#32
  let v829 : BitVec 32 := Scalar.addi v817 c0_i32_709
  let v830 : Index := Scalar.indexCast v829
  let c0_710 : Index := 0#32
  ![v830.toNat, 0]
def k0_off578 (v822 : BitVec 32) : Fin 4 → Nat :=
  let c0_i32_711 : BitVec 32 := 0#32
  let v834 : Index := Scalar.indexCast c0_i32_711
  let c0_i32_712 : BitVec 32 := 0#32
  let v835 : Index := Scalar.indexCast c0_i32_712
  let c8_i32_705 : BitVec 32 := 8#32
  let v823 : BitVec 32 := Scalar.remsi v822 c8_i32_705
  let v836 : Index := Scalar.indexCast v823
  let c16 : Index := 16#32
  ![0, 0, v836.toNat, 16]

def k0_chk273 (v822 : BitVec 32) : Prop :=
  (∀ a, (k0_off576 v822) a + S1x1x1x16.size a ≤ S2x16x8x32.size a) ∧
  (∀ a, (k0_off578 v822) a + S1x1x1x16.size a ≤ S2x16x8x32.size a)
instance k0_chk273.dec : ∀ (v822 : BitVec 32), Decidable (k0_chk273 v822) := fun v822 => decidable_of_iff' _ (Iff.of_eq (k0_chk273.eq_1 v822))
theorem k0_off576_inb : ∀ (v822 : BitVec 32) (k0_hw273 : k0_chk273 v822), ∀ a, (k0_off576 v822) a + S1x1x1x16.size a ≤ S2x16x8x32.size a := fun v822 k0_hw273 => k0_hw273.1
theorem k0_off578_inb : ∀ (v822 : BitVec 32) (k0_hw273 : k0_chk273 v822), ∀ a, (k0_off578 v822) a + S1x1x1x16.size a ≤ S2x16x8x32.size a := fun v822 k0_hw273 => k0_hw273.2

def k0_off579 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c0_i32_713 : BitVec 32 := 0#32
  let v839 : BitVec 32 := Scalar.addi v817 c0_i32_713
  let v840 : Index := Scalar.indexCast v839
  let c16_714 : Index := 16#32
  ![v840.toNat, 16]
def k0_off580 (v845 : BitVec 32) : Fin 4 → Nat :=
  let c0_i32_716 : BitVec 32 := 0#32
  let v847 : Index := Scalar.indexCast c0_i32_716
  let c1_i32_717 : BitVec 32 := 1#32
  let v848 : Index := Scalar.indexCast c1_i32_717
  let c8_i32_715 : BitVec 32 := 8#32
  let v846 : BitVec 32 := Scalar.remsi v845 c8_i32_715
  let v849 : Index := Scalar.indexCast v846
  let c0_718 : Index := 0#32
  ![0, 1, v849.toNat, 0]

def k0_off581 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_719 : BitVec 32 := 1#32
  let v852 : BitVec 32 := Scalar.addi v817 c1_i32_719
  let v853 : Index := Scalar.indexCast v852
  let c0_720 : Index := 0#32
  ![v853.toNat, 0]
def k0_off582 (v845 : BitVec 32) : Fin 4 → Nat :=
  let c0_i32_721 : BitVec 32 := 0#32
  let v857 : Index := Scalar.indexCast c0_i32_721
  let c1_i32_722 : BitVec 32 := 1#32
  let v858 : Index := Scalar.indexCast c1_i32_722
  let c8_i32_715 : BitVec 32 := 8#32
  let v846 : BitVec 32 := Scalar.remsi v845 c8_i32_715
  let v859 : Index := Scalar.indexCast v846
  let c16_723 : Index := 16#32
  ![0, 1, v859.toNat, 16]

def k0_chk274 (v845 : BitVec 32) : Prop :=
  (∀ a, (k0_off580 v845) a + S1x1x1x16.size a ≤ S2x16x8x32.size a) ∧
  (∀ a, (k0_off582 v845) a + S1x1x1x16.size a ≤ S2x16x8x32.size a)
instance k0_chk274.dec : ∀ (v845 : BitVec 32), Decidable (k0_chk274 v845) := fun v845 => decidable_of_iff' _ (Iff.of_eq (k0_chk274.eq_1 v845))
theorem k0_off580_inb : ∀ (v845 : BitVec 32) (k0_hw274 : k0_chk274 v845), ∀ a, (k0_off580 v845) a + S1x1x1x16.size a ≤ S2x16x8x32.size a := fun v845 k0_hw274 => k0_hw274.1
theorem k0_off582_inb : ∀ (v845 : BitVec 32) (k0_hw274 : k0_chk274 v845), ∀ a, (k0_off582 v845) a + S1x1x1x16.size a ≤ S2x16x8x32.size a := fun v845 k0_hw274 => k0_hw274.2

def k0_off583 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c1_i32_724 : BitVec 32 := 1#32
  let v862 : BitVec 32 := Scalar.addi v817 c1_i32_724
  let v863 : Index := Scalar.indexCast v862
  let c16_725 : Index := 16#32
  ![v863.toNat, 16]
def k0_off584 (v868 : BitVec 32) : Fin 4 → Nat :=
  let c0_i32_727 : BitVec 32 := 0#32
  let v870 : Index := Scalar.indexCast c0_i32_727
  let c2_i32_728 : BitVec 32 := 2#32
  let v871 : Index := Scalar.indexCast c2_i32_728
  let c8_i32_726 : BitVec 32 := 8#32
  let v869 : BitVec 32 := Scalar.remsi v868 c8_i32_726
  let v872 : Index := Scalar.indexCast v869
  let c0_729 : Index := 0#32
  ![0, 2, v872.toNat, 0]

def k0_off585 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_730 : BitVec 32 := 2#32
  let v875 : BitVec 32 := Scalar.addi v817 c2_i32_730
  let v876 : Index := Scalar.indexCast v875
  let c0_731 : Index := 0#32
  ![v876.toNat, 0]
def k0_off586 (v868 : BitVec 32) : Fin 4 → Nat :=
  let c0_i32_732 : BitVec 32 := 0#32
  let v880 : Index := Scalar.indexCast c0_i32_732
  let c2_i32_733 : BitVec 32 := 2#32
  let v881 : Index := Scalar.indexCast c2_i32_733
  let c8_i32_726 : BitVec 32 := 8#32
  let v869 : BitVec 32 := Scalar.remsi v868 c8_i32_726
  let v882 : Index := Scalar.indexCast v869
  let c16_734 : Index := 16#32
  ![0, 2, v882.toNat, 16]

def k0_chk275 (v868 : BitVec 32) : Prop :=
  (∀ a, (k0_off584 v868) a + S1x1x1x16.size a ≤ S2x16x8x32.size a) ∧
  (∀ a, (k0_off586 v868) a + S1x1x1x16.size a ≤ S2x16x8x32.size a)
instance k0_chk275.dec : ∀ (v868 : BitVec 32), Decidable (k0_chk275 v868) := fun v868 => decidable_of_iff' _ (Iff.of_eq (k0_chk275.eq_1 v868))
theorem k0_off584_inb : ∀ (v868 : BitVec 32) (k0_hw275 : k0_chk275 v868), ∀ a, (k0_off584 v868) a + S1x1x1x16.size a ≤ S2x16x8x32.size a := fun v868 k0_hw275 => k0_hw275.1
theorem k0_off586_inb : ∀ (v868 : BitVec 32) (k0_hw275 : k0_chk275 v868), ∀ a, (k0_off586 v868) a + S1x1x1x16.size a ≤ S2x16x8x32.size a := fun v868 k0_hw275 => k0_hw275.2

def k0_off587 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c2_i32_735 : BitVec 32 := 2#32
  let v885 : BitVec 32 := Scalar.addi v817 c2_i32_735
  let v886 : Index := Scalar.indexCast v885
  let c16_736 : Index := 16#32
  ![v886.toNat, 16]
def k0_off588 (v891 : BitVec 32) : Fin 4 → Nat :=
  let c0_i32_738 : BitVec 32 := 0#32
  let v893 : Index := Scalar.indexCast c0_i32_738
  let c3_i32_739 : BitVec 32 := 3#32
  let v894 : Index := Scalar.indexCast c3_i32_739
  let c8_i32_737 : BitVec 32 := 8#32
  let v892 : BitVec 32 := Scalar.remsi v891 c8_i32_737
  let v895 : Index := Scalar.indexCast v892
  let c0_740 : Index := 0#32
  ![0, 3, v895.toNat, 0]

def k0_off589 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_741 : BitVec 32 := 3#32
  let v898 : BitVec 32 := Scalar.addi v817 c3_i32_741
  let v899 : Index := Scalar.indexCast v898
  let c0_742 : Index := 0#32
  ![v899.toNat, 0]
def k0_off590 (v891 : BitVec 32) : Fin 4 → Nat :=
  let c0_i32_743 : BitVec 32 := 0#32
  let v903 : Index := Scalar.indexCast c0_i32_743
  let c3_i32_744 : BitVec 32 := 3#32
  let v904 : Index := Scalar.indexCast c3_i32_744
  let c8_i32_737 : BitVec 32 := 8#32
  let v892 : BitVec 32 := Scalar.remsi v891 c8_i32_737
  let v905 : Index := Scalar.indexCast v892
  let c16_745 : Index := 16#32
  ![0, 3, v905.toNat, 16]

def k0_chk276 (v891 : BitVec 32) : Prop :=
  (∀ a, (k0_off588 v891) a + S1x1x1x16.size a ≤ S2x16x8x32.size a) ∧
  (∀ a, (k0_off590 v891) a + S1x1x1x16.size a ≤ S2x16x8x32.size a)
instance k0_chk276.dec : ∀ (v891 : BitVec 32), Decidable (k0_chk276 v891) := fun v891 => decidable_of_iff' _ (Iff.of_eq (k0_chk276.eq_1 v891))
theorem k0_off588_inb : ∀ (v891 : BitVec 32) (k0_hw276 : k0_chk276 v891), ∀ a, (k0_off588 v891) a + S1x1x1x16.size a ≤ S2x16x8x32.size a := fun v891 k0_hw276 => k0_hw276.1
theorem k0_off590_inb : ∀ (v891 : BitVec 32) (k0_hw276 : k0_chk276 v891), ∀ a, (k0_off590 v891) a + S1x1x1x16.size a ≤ S2x16x8x32.size a := fun v891 k0_hw276 => k0_hw276.2

def k0_off591 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c3_i32_746 : BitVec 32 := 3#32
  let v908 : BitVec 32 := Scalar.addi v817 c3_i32_746
  let v909 : Index := Scalar.indexCast v908
  let c16_747 : Index := 16#32
  ![v909.toNat, 16]
def k0_off592 (v914 : BitVec 32) : Fin 4 → Nat :=
  let c0_i32_749 : BitVec 32 := 0#32
  let v916 : Index := Scalar.indexCast c0_i32_749
  let c4_i32_750 : BitVec 32 := 4#32
  let v917 : Index := Scalar.indexCast c4_i32_750
  let c8_i32_748 : BitVec 32 := 8#32
  let v915 : BitVec 32 := Scalar.remsi v914 c8_i32_748
  let v918 : Index := Scalar.indexCast v915
  let c0_751 : Index := 0#32
  ![0, 4, v918.toNat, 0]

def k0_off593 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_752 : BitVec 32 := 4#32
  let v921 : BitVec 32 := Scalar.addi v817 c4_i32_752
  let v922 : Index := Scalar.indexCast v921
  let c0_753 : Index := 0#32
  ![v922.toNat, 0]
def k0_off594 (v914 : BitVec 32) : Fin 4 → Nat :=
  let c0_i32_754 : BitVec 32 := 0#32
  let v926 : Index := Scalar.indexCast c0_i32_754
  let c4_i32_755 : BitVec 32 := 4#32
  let v927 : Index := Scalar.indexCast c4_i32_755
  let c8_i32_748 : BitVec 32 := 8#32
  let v915 : BitVec 32 := Scalar.remsi v914 c8_i32_748
  let v928 : Index := Scalar.indexCast v915
  let c16_756 : Index := 16#32
  ![0, 4, v928.toNat, 16]

def k0_chk277 (v914 : BitVec 32) : Prop :=
  (∀ a, (k0_off592 v914) a + S1x1x1x16.size a ≤ S2x16x8x32.size a) ∧
  (∀ a, (k0_off594 v914) a + S1x1x1x16.size a ≤ S2x16x8x32.size a)
instance k0_chk277.dec : ∀ (v914 : BitVec 32), Decidable (k0_chk277 v914) := fun v914 => decidable_of_iff' _ (Iff.of_eq (k0_chk277.eq_1 v914))
theorem k0_off592_inb : ∀ (v914 : BitVec 32) (k0_hw277 : k0_chk277 v914), ∀ a, (k0_off592 v914) a + S1x1x1x16.size a ≤ S2x16x8x32.size a := fun v914 k0_hw277 => k0_hw277.1
theorem k0_off594_inb : ∀ (v914 : BitVec 32) (k0_hw277 : k0_chk277 v914), ∀ a, (k0_off594 v914) a + S1x1x1x16.size a ≤ S2x16x8x32.size a := fun v914 k0_hw277 => k0_hw277.2

def k0_off595 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c4_i32_757 : BitVec 32 := 4#32
  let v931 : BitVec 32 := Scalar.addi v817 c4_i32_757
  let v932 : Index := Scalar.indexCast v931
  let c16_758 : Index := 16#32
  ![v932.toNat, 16]
def k0_off596 (v937 : BitVec 32) : Fin 4 → Nat :=
  let c0_i32_760 : BitVec 32 := 0#32
  let v939 : Index := Scalar.indexCast c0_i32_760
  let c5_i32_761 : BitVec 32 := 5#32
  let v940 : Index := Scalar.indexCast c5_i32_761
  let c8_i32_759 : BitVec 32 := 8#32
  let v938 : BitVec 32 := Scalar.remsi v937 c8_i32_759
  let v941 : Index := Scalar.indexCast v938
  let c0_762 : Index := 0#32
  ![0, 5, v941.toNat, 0]

def k0_off597 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_763 : BitVec 32 := 5#32
  let v944 : BitVec 32 := Scalar.addi v817 c5_i32_763
  let v945 : Index := Scalar.indexCast v944
  let c0_764 : Index := 0#32
  ![v945.toNat, 0]
def k0_off598 (v937 : BitVec 32) : Fin 4 → Nat :=
  let c0_i32_765 : BitVec 32 := 0#32
  let v949 : Index := Scalar.indexCast c0_i32_765
  let c5_i32_766 : BitVec 32 := 5#32
  let v950 : Index := Scalar.indexCast c5_i32_766
  let c8_i32_759 : BitVec 32 := 8#32
  let v938 : BitVec 32 := Scalar.remsi v937 c8_i32_759
  let v951 : Index := Scalar.indexCast v938
  let c16_767 : Index := 16#32
  ![0, 5, v951.toNat, 16]

def k0_chk278 (v937 : BitVec 32) : Prop :=
  (∀ a, (k0_off596 v937) a + S1x1x1x16.size a ≤ S2x16x8x32.size a) ∧
  (∀ a, (k0_off598 v937) a + S1x1x1x16.size a ≤ S2x16x8x32.size a)
instance k0_chk278.dec : ∀ (v937 : BitVec 32), Decidable (k0_chk278 v937) := fun v937 => decidable_of_iff' _ (Iff.of_eq (k0_chk278.eq_1 v937))
theorem k0_off596_inb : ∀ (v937 : BitVec 32) (k0_hw278 : k0_chk278 v937), ∀ a, (k0_off596 v937) a + S1x1x1x16.size a ≤ S2x16x8x32.size a := fun v937 k0_hw278 => k0_hw278.1
theorem k0_off598_inb : ∀ (v937 : BitVec 32) (k0_hw278 : k0_chk278 v937), ∀ a, (k0_off598 v937) a + S1x1x1x16.size a ≤ S2x16x8x32.size a := fun v937 k0_hw278 => k0_hw278.2

def k0_off599 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c5_i32_768 : BitVec 32 := 5#32
  let v954 : BitVec 32 := Scalar.addi v817 c5_i32_768
  let v955 : Index := Scalar.indexCast v954
  let c16_769 : Index := 16#32
  ![v955.toNat, 16]
def k0_off600 (v960 : BitVec 32) : Fin 4 → Nat :=
  let c0_i32_771 : BitVec 32 := 0#32
  let v962 : Index := Scalar.indexCast c0_i32_771
  let c6_i32_772 : BitVec 32 := 6#32
  let v963 : Index := Scalar.indexCast c6_i32_772
  let c8_i32_770 : BitVec 32 := 8#32
  let v961 : BitVec 32 := Scalar.remsi v960 c8_i32_770
  let v964 : Index := Scalar.indexCast v961
  let c0_773 : Index := 0#32
  ![0, 6, v964.toNat, 0]

def k0_off601 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_774 : BitVec 32 := 6#32
  let v967 : BitVec 32 := Scalar.addi v817 c6_i32_774
  let v968 : Index := Scalar.indexCast v967
  let c0_775 : Index := 0#32
  ![v968.toNat, 0]
def k0_off602 (v960 : BitVec 32) : Fin 4 → Nat :=
  let c0_i32_776 : BitVec 32 := 0#32
  let v972 : Index := Scalar.indexCast c0_i32_776
  let c6_i32_777 : BitVec 32 := 6#32
  let v973 : Index := Scalar.indexCast c6_i32_777
  let c8_i32_770 : BitVec 32 := 8#32
  let v961 : BitVec 32 := Scalar.remsi v960 c8_i32_770
  let v974 : Index := Scalar.indexCast v961
  let c16_778 : Index := 16#32
  ![0, 6, v974.toNat, 16]

def k0_chk279 (v960 : BitVec 32) : Prop :=
  (∀ a, (k0_off600 v960) a + S1x1x1x16.size a ≤ S2x16x8x32.size a) ∧
  (∀ a, (k0_off602 v960) a + S1x1x1x16.size a ≤ S2x16x8x32.size a)
instance k0_chk279.dec : ∀ (v960 : BitVec 32), Decidable (k0_chk279 v960) := fun v960 => decidable_of_iff' _ (Iff.of_eq (k0_chk279.eq_1 v960))
theorem k0_off600_inb : ∀ (v960 : BitVec 32) (k0_hw279 : k0_chk279 v960), ∀ a, (k0_off600 v960) a + S1x1x1x16.size a ≤ S2x16x8x32.size a := fun v960 k0_hw279 => k0_hw279.1
theorem k0_off602_inb : ∀ (v960 : BitVec 32) (k0_hw279 : k0_chk279 v960), ∀ a, (k0_off602 v960) a + S1x1x1x16.size a ≤ S2x16x8x32.size a := fun v960 k0_hw279 => k0_hw279.2

def k0_off603 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c6_i32_779 : BitVec 32 := 6#32
  let v977 : BitVec 32 := Scalar.addi v817 c6_i32_779
  let v978 : Index := Scalar.indexCast v977
  let c16_780 : Index := 16#32
  ![v978.toNat, 16]
def k0_off604 (v983 : BitVec 32) : Fin 4 → Nat :=
  let c0_i32_782 : BitVec 32 := 0#32
  let v985 : Index := Scalar.indexCast c0_i32_782
  let c7_i32_783 : BitVec 32 := 7#32
  let v986 : Index := Scalar.indexCast c7_i32_783
  let c8_i32_781 : BitVec 32 := 8#32
  let v984 : BitVec 32 := Scalar.remsi v983 c8_i32_781
  let v987 : Index := Scalar.indexCast v984
  let c0_784 : Index := 0#32
  ![0, 7, v987.toNat, 0]

def k0_off605 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_785 : BitVec 32 := 7#32
  let v990 : BitVec 32 := Scalar.addi v817 c7_i32_785
  let v991 : Index := Scalar.indexCast v990
  let c0_786 : Index := 0#32
  ![v991.toNat, 0]
def k0_off606 (v983 : BitVec 32) : Fin 4 → Nat :=
  let c0_i32_787 : BitVec 32 := 0#32
  let v995 : Index := Scalar.indexCast c0_i32_787
  let c7_i32_788 : BitVec 32 := 7#32
  let v996 : Index := Scalar.indexCast c7_i32_788
  let c8_i32_781 : BitVec 32 := 8#32
  let v984 : BitVec 32 := Scalar.remsi v983 c8_i32_781
  let v997 : Index := Scalar.indexCast v984
  let c16_789 : Index := 16#32
  ![0, 7, v997.toNat, 16]

def k0_chk280 (v983 : BitVec 32) : Prop :=
  (∀ a, (k0_off604 v983) a + S1x1x1x16.size a ≤ S2x16x8x32.size a) ∧
  (∀ a, (k0_off606 v983) a + S1x1x1x16.size a ≤ S2x16x8x32.size a)
instance k0_chk280.dec : ∀ (v983 : BitVec 32), Decidable (k0_chk280 v983) := fun v983 => decidable_of_iff' _ (Iff.of_eq (k0_chk280.eq_1 v983))
theorem k0_off604_inb : ∀ (v983 : BitVec 32) (k0_hw280 : k0_chk280 v983), ∀ a, (k0_off604 v983) a + S1x1x1x16.size a ≤ S2x16x8x32.size a := fun v983 k0_hw280 => k0_hw280.1
theorem k0_off606_inb : ∀ (v983 : BitVec 32) (k0_hw280 : k0_chk280 v983), ∀ a, (k0_off606 v983) a + S1x1x1x16.size a ≤ S2x16x8x32.size a := fun v983 k0_hw280 => k0_hw280.2

def k0_off607 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c7_i32_790 : BitVec 32 := 7#32
  let v1000 : BitVec 32 := Scalar.addi v817 c7_i32_790
  let v1001 : Index := Scalar.indexCast v1000
  let c16_791 : Index := 16#32
  ![v1001.toNat, 16]
def k0_off608 (v1006 : BitVec 32) : Fin 4 → Nat :=
  let c0_i32_793 : BitVec 32 := 0#32
  let v1008 : Index := Scalar.indexCast c0_i32_793
  let c8_i32_794 : BitVec 32 := 8#32
  let v1009 : Index := Scalar.indexCast c8_i32_794
  let c8_i32_792 : BitVec 32 := 8#32
  let v1007 : BitVec 32 := Scalar.remsi v1006 c8_i32_792
  let v1010 : Index := Scalar.indexCast v1007
  let c0_795 : Index := 0#32
  ![0, 8, v1010.toNat, 0]

def k0_off609 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_796 : BitVec 32 := 8#32
  let v1013 : BitVec 32 := Scalar.addi v817 c8_i32_796
  let v1014 : Index := Scalar.indexCast v1013
  let c0_797 : Index := 0#32
  ![v1014.toNat, 0]
def k0_off610 (v1006 : BitVec 32) : Fin 4 → Nat :=
  let c0_i32_798 : BitVec 32 := 0#32
  let v1018 : Index := Scalar.indexCast c0_i32_798
  let c8_i32_799 : BitVec 32 := 8#32
  let v1019 : Index := Scalar.indexCast c8_i32_799
  let c8_i32_792 : BitVec 32 := 8#32
  let v1007 : BitVec 32 := Scalar.remsi v1006 c8_i32_792
  let v1020 : Index := Scalar.indexCast v1007
  let c16_800 : Index := 16#32
  ![0, 8, v1020.toNat, 16]

def k0_chk281 (v1006 : BitVec 32) : Prop :=
  (∀ a, (k0_off608 v1006) a + S1x1x1x16.size a ≤ S2x16x8x32.size a) ∧
  (∀ a, (k0_off610 v1006) a + S1x1x1x16.size a ≤ S2x16x8x32.size a)
instance k0_chk281.dec : ∀ (v1006 : BitVec 32), Decidable (k0_chk281 v1006) := fun v1006 => decidable_of_iff' _ (Iff.of_eq (k0_chk281.eq_1 v1006))
theorem k0_off608_inb : ∀ (v1006 : BitVec 32) (k0_hw281 : k0_chk281 v1006), ∀ a, (k0_off608 v1006) a + S1x1x1x16.size a ≤ S2x16x8x32.size a := fun v1006 k0_hw281 => k0_hw281.1
theorem k0_off610_inb : ∀ (v1006 : BitVec 32) (k0_hw281 : k0_chk281 v1006), ∀ a, (k0_off610 v1006) a + S1x1x1x16.size a ≤ S2x16x8x32.size a := fun v1006 k0_hw281 => k0_hw281.2

def k0_off611 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c8_i32_801 : BitVec 32 := 8#32
  let v1023 : BitVec 32 := Scalar.addi v817 c8_i32_801
  let v1024 : Index := Scalar.indexCast v1023
  let c16_802 : Index := 16#32
  ![v1024.toNat, 16]
def k0_off612 (v1029 : BitVec 32) : Fin 4 → Nat :=
  let c0_i32_804 : BitVec 32 := 0#32
  let v1031 : Index := Scalar.indexCast c0_i32_804
  let c9_i32_805 : BitVec 32 := 9#32
  let v1032 : Index := Scalar.indexCast c9_i32_805
  let c8_i32_803 : BitVec 32 := 8#32
  let v1030 : BitVec 32 := Scalar.remsi v1029 c8_i32_803
  let v1033 : Index := Scalar.indexCast v1030
  let c0_806 : Index := 0#32
  ![0, 9, v1033.toNat, 0]

def k0_off613 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_807 : BitVec 32 := 9#32
  let v1036 : BitVec 32 := Scalar.addi v817 c9_i32_807
  let v1037 : Index := Scalar.indexCast v1036
  let c0_808 : Index := 0#32
  ![v1037.toNat, 0]
def k0_off614 (v1029 : BitVec 32) : Fin 4 → Nat :=
  let c0_i32_809 : BitVec 32 := 0#32
  let v1041 : Index := Scalar.indexCast c0_i32_809
  let c9_i32_810 : BitVec 32 := 9#32
  let v1042 : Index := Scalar.indexCast c9_i32_810
  let c8_i32_803 : BitVec 32 := 8#32
  let v1030 : BitVec 32 := Scalar.remsi v1029 c8_i32_803
  let v1043 : Index := Scalar.indexCast v1030
  let c16_811 : Index := 16#32
  ![0, 9, v1043.toNat, 16]

def k0_chk282 (v1029 : BitVec 32) : Prop :=
  (∀ a, (k0_off612 v1029) a + S1x1x1x16.size a ≤ S2x16x8x32.size a) ∧
  (∀ a, (k0_off614 v1029) a + S1x1x1x16.size a ≤ S2x16x8x32.size a)
instance k0_chk282.dec : ∀ (v1029 : BitVec 32), Decidable (k0_chk282 v1029) := fun v1029 => decidable_of_iff' _ (Iff.of_eq (k0_chk282.eq_1 v1029))
theorem k0_off612_inb : ∀ (v1029 : BitVec 32) (k0_hw282 : k0_chk282 v1029), ∀ a, (k0_off612 v1029) a + S1x1x1x16.size a ≤ S2x16x8x32.size a := fun v1029 k0_hw282 => k0_hw282.1
theorem k0_off614_inb : ∀ (v1029 : BitVec 32) (k0_hw282 : k0_chk282 v1029), ∀ a, (k0_off614 v1029) a + S1x1x1x16.size a ≤ S2x16x8x32.size a := fun v1029 k0_hw282 => k0_hw282.2

def k0_off615 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c9_i32_812 : BitVec 32 := 9#32
  let v1046 : BitVec 32 := Scalar.addi v817 c9_i32_812
  let v1047 : Index := Scalar.indexCast v1046
  let c16_813 : Index := 16#32
  ![v1047.toNat, 16]
def k0_off616 (v1052 : BitVec 32) : Fin 4 → Nat :=
  let c0_i32_815 : BitVec 32 := 0#32
  let v1054 : Index := Scalar.indexCast c0_i32_815
  let c10_i32_816 : BitVec 32 := 10#32
  let v1055 : Index := Scalar.indexCast c10_i32_816
  let c8_i32_814 : BitVec 32 := 8#32
  let v1053 : BitVec 32 := Scalar.remsi v1052 c8_i32_814
  let v1056 : Index := Scalar.indexCast v1053
  let c0_817 : Index := 0#32
  ![0, 10, v1056.toNat, 0]

def k0_off617 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_818 : BitVec 32 := 10#32
  let v1059 : BitVec 32 := Scalar.addi v817 c10_i32_818
  let v1060 : Index := Scalar.indexCast v1059
  let c0_819 : Index := 0#32
  ![v1060.toNat, 0]
def k0_off618 (v1052 : BitVec 32) : Fin 4 → Nat :=
  let c0_i32_820 : BitVec 32 := 0#32
  let v1064 : Index := Scalar.indexCast c0_i32_820
  let c10_i32_821 : BitVec 32 := 10#32
  let v1065 : Index := Scalar.indexCast c10_i32_821
  let c8_i32_814 : BitVec 32 := 8#32
  let v1053 : BitVec 32 := Scalar.remsi v1052 c8_i32_814
  let v1066 : Index := Scalar.indexCast v1053
  let c16_822 : Index := 16#32
  ![0, 10, v1066.toNat, 16]

def k0_chk283 (v1052 : BitVec 32) : Prop :=
  (∀ a, (k0_off616 v1052) a + S1x1x1x16.size a ≤ S2x16x8x32.size a) ∧
  (∀ a, (k0_off618 v1052) a + S1x1x1x16.size a ≤ S2x16x8x32.size a)
instance k0_chk283.dec : ∀ (v1052 : BitVec 32), Decidable (k0_chk283 v1052) := fun v1052 => decidable_of_iff' _ (Iff.of_eq (k0_chk283.eq_1 v1052))
theorem k0_off616_inb : ∀ (v1052 : BitVec 32) (k0_hw283 : k0_chk283 v1052), ∀ a, (k0_off616 v1052) a + S1x1x1x16.size a ≤ S2x16x8x32.size a := fun v1052 k0_hw283 => k0_hw283.1
theorem k0_off618_inb : ∀ (v1052 : BitVec 32) (k0_hw283 : k0_chk283 v1052), ∀ a, (k0_off618 v1052) a + S1x1x1x16.size a ≤ S2x16x8x32.size a := fun v1052 k0_hw283 => k0_hw283.2

def k0_off619 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c10_i32_823 : BitVec 32 := 10#32
  let v1069 : BitVec 32 := Scalar.addi v817 c10_i32_823
  let v1070 : Index := Scalar.indexCast v1069
  let c16_824 : Index := 16#32
  ![v1070.toNat, 16]
def k0_off620 (v1075 : BitVec 32) : Fin 4 → Nat :=
  let c0_i32_826 : BitVec 32 := 0#32
  let v1077 : Index := Scalar.indexCast c0_i32_826
  let c11_i32_827 : BitVec 32 := 11#32
  let v1078 : Index := Scalar.indexCast c11_i32_827
  let c8_i32_825 : BitVec 32 := 8#32
  let v1076 : BitVec 32 := Scalar.remsi v1075 c8_i32_825
  let v1079 : Index := Scalar.indexCast v1076
  let c0_828 : Index := 0#32
  ![0, 11, v1079.toNat, 0]

def k0_off621 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_829 : BitVec 32 := 11#32
  let v1082 : BitVec 32 := Scalar.addi v817 c11_i32_829
  let v1083 : Index := Scalar.indexCast v1082
  let c0_830 : Index := 0#32
  ![v1083.toNat, 0]
def k0_off622 (v1075 : BitVec 32) : Fin 4 → Nat :=
  let c0_i32_831 : BitVec 32 := 0#32
  let v1087 : Index := Scalar.indexCast c0_i32_831
  let c11_i32_832 : BitVec 32 := 11#32
  let v1088 : Index := Scalar.indexCast c11_i32_832
  let c8_i32_825 : BitVec 32 := 8#32
  let v1076 : BitVec 32 := Scalar.remsi v1075 c8_i32_825
  let v1089 : Index := Scalar.indexCast v1076
  let c16_833 : Index := 16#32
  ![0, 11, v1089.toNat, 16]

def k0_chk284 (v1075 : BitVec 32) : Prop :=
  (∀ a, (k0_off620 v1075) a + S1x1x1x16.size a ≤ S2x16x8x32.size a) ∧
  (∀ a, (k0_off622 v1075) a + S1x1x1x16.size a ≤ S2x16x8x32.size a)
instance k0_chk284.dec : ∀ (v1075 : BitVec 32), Decidable (k0_chk284 v1075) := fun v1075 => decidable_of_iff' _ (Iff.of_eq (k0_chk284.eq_1 v1075))
theorem k0_off620_inb : ∀ (v1075 : BitVec 32) (k0_hw284 : k0_chk284 v1075), ∀ a, (k0_off620 v1075) a + S1x1x1x16.size a ≤ S2x16x8x32.size a := fun v1075 k0_hw284 => k0_hw284.1
theorem k0_off622_inb : ∀ (v1075 : BitVec 32) (k0_hw284 : k0_chk284 v1075), ∀ a, (k0_off622 v1075) a + S1x1x1x16.size a ≤ S2x16x8x32.size a := fun v1075 k0_hw284 => k0_hw284.2

def k0_off623 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c11_i32_834 : BitVec 32 := 11#32
  let v1092 : BitVec 32 := Scalar.addi v817 c11_i32_834
  let v1093 : Index := Scalar.indexCast v1092
  let c16_835 : Index := 16#32
  ![v1093.toNat, 16]
def k0_off624 (v1098 : BitVec 32) : Fin 4 → Nat :=
  let c0_i32_837 : BitVec 32 := 0#32
  let v1100 : Index := Scalar.indexCast c0_i32_837
  let c12_i32_838 : BitVec 32 := 12#32
  let v1101 : Index := Scalar.indexCast c12_i32_838
  let c8_i32_836 : BitVec 32 := 8#32
  let v1099 : BitVec 32 := Scalar.remsi v1098 c8_i32_836
  let v1102 : Index := Scalar.indexCast v1099
  let c0_839 : Index := 0#32
  ![0, 12, v1102.toNat, 0]

def k0_off625 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_840 : BitVec 32 := 12#32
  let v1105 : BitVec 32 := Scalar.addi v817 c12_i32_840
  let v1106 : Index := Scalar.indexCast v1105
  let c0_841 : Index := 0#32
  ![v1106.toNat, 0]
def k0_off626 (v1098 : BitVec 32) : Fin 4 → Nat :=
  let c0_i32_842 : BitVec 32 := 0#32
  let v1110 : Index := Scalar.indexCast c0_i32_842
  let c12_i32_843 : BitVec 32 := 12#32
  let v1111 : Index := Scalar.indexCast c12_i32_843
  let c8_i32_836 : BitVec 32 := 8#32
  let v1099 : BitVec 32 := Scalar.remsi v1098 c8_i32_836
  let v1112 : Index := Scalar.indexCast v1099
  let c16_844 : Index := 16#32
  ![0, 12, v1112.toNat, 16]

def k0_chk285 (v1098 : BitVec 32) : Prop :=
  (∀ a, (k0_off624 v1098) a + S1x1x1x16.size a ≤ S2x16x8x32.size a) ∧
  (∀ a, (k0_off626 v1098) a + S1x1x1x16.size a ≤ S2x16x8x32.size a)
instance k0_chk285.dec : ∀ (v1098 : BitVec 32), Decidable (k0_chk285 v1098) := fun v1098 => decidable_of_iff' _ (Iff.of_eq (k0_chk285.eq_1 v1098))
theorem k0_off624_inb : ∀ (v1098 : BitVec 32) (k0_hw285 : k0_chk285 v1098), ∀ a, (k0_off624 v1098) a + S1x1x1x16.size a ≤ S2x16x8x32.size a := fun v1098 k0_hw285 => k0_hw285.1
theorem k0_off626_inb : ∀ (v1098 : BitVec 32) (k0_hw285 : k0_chk285 v1098), ∀ a, (k0_off626 v1098) a + S1x1x1x16.size a ≤ S2x16x8x32.size a := fun v1098 k0_hw285 => k0_hw285.2

def k0_off627 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c12_i32_845 : BitVec 32 := 12#32
  let v1115 : BitVec 32 := Scalar.addi v817 c12_i32_845
  let v1116 : Index := Scalar.indexCast v1115
  let c16_846 : Index := 16#32
  ![v1116.toNat, 16]
def k0_off628 (v1121 : BitVec 32) : Fin 4 → Nat :=
  let c0_i32_848 : BitVec 32 := 0#32
  let v1123 : Index := Scalar.indexCast c0_i32_848
  let c13_i32_849 : BitVec 32 := 13#32
  let v1124 : Index := Scalar.indexCast c13_i32_849
  let c8_i32_847 : BitVec 32 := 8#32
  let v1122 : BitVec 32 := Scalar.remsi v1121 c8_i32_847
  let v1125 : Index := Scalar.indexCast v1122
  let c0_850 : Index := 0#32
  ![0, 13, v1125.toNat, 0]

def k0_off629 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_851 : BitVec 32 := 13#32
  let v1128 : BitVec 32 := Scalar.addi v817 c13_i32_851
  let v1129 : Index := Scalar.indexCast v1128
  let c0_852 : Index := 0#32
  ![v1129.toNat, 0]
def k0_off630 (v1121 : BitVec 32) : Fin 4 → Nat :=
  let c0_i32_853 : BitVec 32 := 0#32
  let v1133 : Index := Scalar.indexCast c0_i32_853
  let c13_i32_854 : BitVec 32 := 13#32
  let v1134 : Index := Scalar.indexCast c13_i32_854
  let c8_i32_847 : BitVec 32 := 8#32
  let v1122 : BitVec 32 := Scalar.remsi v1121 c8_i32_847
  let v1135 : Index := Scalar.indexCast v1122
  let c16_855 : Index := 16#32
  ![0, 13, v1135.toNat, 16]

def k0_chk286 (v1121 : BitVec 32) : Prop :=
  (∀ a, (k0_off628 v1121) a + S1x1x1x16.size a ≤ S2x16x8x32.size a) ∧
  (∀ a, (k0_off630 v1121) a + S1x1x1x16.size a ≤ S2x16x8x32.size a)
instance k0_chk286.dec : ∀ (v1121 : BitVec 32), Decidable (k0_chk286 v1121) := fun v1121 => decidable_of_iff' _ (Iff.of_eq (k0_chk286.eq_1 v1121))
theorem k0_off628_inb : ∀ (v1121 : BitVec 32) (k0_hw286 : k0_chk286 v1121), ∀ a, (k0_off628 v1121) a + S1x1x1x16.size a ≤ S2x16x8x32.size a := fun v1121 k0_hw286 => k0_hw286.1
theorem k0_off630_inb : ∀ (v1121 : BitVec 32) (k0_hw286 : k0_chk286 v1121), ∀ a, (k0_off630 v1121) a + S1x1x1x16.size a ≤ S2x16x8x32.size a := fun v1121 k0_hw286 => k0_hw286.2

def k0_off631 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c13_i32_856 : BitVec 32 := 13#32
  let v1138 : BitVec 32 := Scalar.addi v817 c13_i32_856
  let v1139 : Index := Scalar.indexCast v1138
  let c16_857 : Index := 16#32
  ![v1139.toNat, 16]
def k0_off632 (v1144 : BitVec 32) : Fin 4 → Nat :=
  let c0_i32_859 : BitVec 32 := 0#32
  let v1146 : Index := Scalar.indexCast c0_i32_859
  let c14_i32_860 : BitVec 32 := 14#32
  let v1147 : Index := Scalar.indexCast c14_i32_860
  let c8_i32_858 : BitVec 32 := 8#32
  let v1145 : BitVec 32 := Scalar.remsi v1144 c8_i32_858
  let v1148 : Index := Scalar.indexCast v1145
  let c0_861 : Index := 0#32
  ![0, 14, v1148.toNat, 0]

def k0_off633 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_862 : BitVec 32 := 14#32
  let v1151 : BitVec 32 := Scalar.addi v817 c14_i32_862
  let v1152 : Index := Scalar.indexCast v1151
  let c0_863 : Index := 0#32
  ![v1152.toNat, 0]
def k0_off634 (v1144 : BitVec 32) : Fin 4 → Nat :=
  let c0_i32_864 : BitVec 32 := 0#32
  let v1156 : Index := Scalar.indexCast c0_i32_864
  let c14_i32_865 : BitVec 32 := 14#32
  let v1157 : Index := Scalar.indexCast c14_i32_865
  let c8_i32_858 : BitVec 32 := 8#32
  let v1145 : BitVec 32 := Scalar.remsi v1144 c8_i32_858
  let v1158 : Index := Scalar.indexCast v1145
  let c16_866 : Index := 16#32
  ![0, 14, v1158.toNat, 16]

def k0_chk287 (v1144 : BitVec 32) : Prop :=
  (∀ a, (k0_off632 v1144) a + S1x1x1x16.size a ≤ S2x16x8x32.size a) ∧
  (∀ a, (k0_off634 v1144) a + S1x1x1x16.size a ≤ S2x16x8x32.size a)
instance k0_chk287.dec : ∀ (v1144 : BitVec 32), Decidable (k0_chk287 v1144) := fun v1144 => decidable_of_iff' _ (Iff.of_eq (k0_chk287.eq_1 v1144))
theorem k0_off632_inb : ∀ (v1144 : BitVec 32) (k0_hw287 : k0_chk287 v1144), ∀ a, (k0_off632 v1144) a + S1x1x1x16.size a ≤ S2x16x8x32.size a := fun v1144 k0_hw287 => k0_hw287.1
theorem k0_off634_inb : ∀ (v1144 : BitVec 32) (k0_hw287 : k0_chk287 v1144), ∀ a, (k0_off634 v1144) a + S1x1x1x16.size a ≤ S2x16x8x32.size a := fun v1144 k0_hw287 => k0_hw287.2

def k0_off635 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c14_i32_867 : BitVec 32 := 14#32
  let v1161 : BitVec 32 := Scalar.addi v817 c14_i32_867
  let v1162 : Index := Scalar.indexCast v1161
  let c16_868 : Index := 16#32
  ![v1162.toNat, 16]
def k0_off636 (v1167 : BitVec 32) : Fin 4 → Nat :=
  let c0_i32_870 : BitVec 32 := 0#32
  let v1169 : Index := Scalar.indexCast c0_i32_870
  let c15_i32_871 : BitVec 32 := 15#32
  let v1170 : Index := Scalar.indexCast c15_i32_871
  let c8_i32_869 : BitVec 32 := 8#32
  let v1168 : BitVec 32 := Scalar.remsi v1167 c8_i32_869
  let v1171 : Index := Scalar.indexCast v1168
  let c0_872 : Index := 0#32
  ![0, 15, v1171.toNat, 0]

def k0_off637 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_873 : BitVec 32 := 15#32
  let v1174 : BitVec 32 := Scalar.addi v817 c15_i32_873
  let v1175 : Index := Scalar.indexCast v1174
  let c0_874 : Index := 0#32
  ![v1175.toNat, 0]
def k0_off638 (v1167 : BitVec 32) : Fin 4 → Nat :=
  let c0_i32_875 : BitVec 32 := 0#32
  let v1179 : Index := Scalar.indexCast c0_i32_875
  let c15_i32_876 : BitVec 32 := 15#32
  let v1180 : Index := Scalar.indexCast c15_i32_876
  let c8_i32_869 : BitVec 32 := 8#32
  let v1168 : BitVec 32 := Scalar.remsi v1167 c8_i32_869
  let v1181 : Index := Scalar.indexCast v1168
  let c16_877 : Index := 16#32
  ![0, 15, v1181.toNat, 16]

def k0_chk288 (v1167 : BitVec 32) : Prop :=
  (∀ a, (k0_off636 v1167) a + S1x1x1x16.size a ≤ S2x16x8x32.size a) ∧
  (∀ a, (k0_off638 v1167) a + S1x1x1x16.size a ≤ S2x16x8x32.size a)
instance k0_chk288.dec : ∀ (v1167 : BitVec 32), Decidable (k0_chk288 v1167) := fun v1167 => decidable_of_iff' _ (Iff.of_eq (k0_chk288.eq_1 v1167))
theorem k0_off636_inb : ∀ (v1167 : BitVec 32) (k0_hw288 : k0_chk288 v1167), ∀ a, (k0_off636 v1167) a + S1x1x1x16.size a ≤ S2x16x8x32.size a := fun v1167 k0_hw288 => k0_hw288.1
theorem k0_off638_inb : ∀ (v1167 : BitVec 32) (k0_hw288 : k0_chk288 v1167), ∀ a, (k0_off638 v1167) a + S1x1x1x16.size a ≤ S2x16x8x32.size a := fun v1167 k0_hw288 => k0_hw288.2

def k0_off639 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c16_i32_704 : BitVec 32 := 16#32
  let v817 : BitVec 32 := Scalar.muli v611 c16_i32_704
  let c15_i32_878 : BitVec 32 := 15#32
  let v1184 : BitVec 32 := Scalar.addi v817 c15_i32_878
  let v1185 : Index := Scalar.indexCast v1184
  let c16_879 : Index := 16#32
  ![v1185.toNat, 16]
def k0_cond3 (k0_t11 : Fin k0_t11_loop.trips) : BitVec 1 :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_880 : BitVec 32 := 1#32
  let v1189 : BitVec 32 := Scalar.addi v612 c1_i32_880
  let c16_i32_881 : BitVec 32 := 16#32
  let v1190 : BitVec 1 := Scalar.cmpi .slt v1189 c16_i32_881
  let v1191 : BitVec 32 := Scalar.extui v1190
  let c0_i32_882 : BitVec 32 := 0#32
  let v1192 : BitVec 1 := Scalar.cmpi .ne v1191 c0_i32_882
  v1192

def k0_off640 (k0_t11 : Fin k0_t11_loop.trips) : Fin 1 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c1_i32_1073 : BitVec 32 := 1#32
  let v1573 : BitVec 32 := Scalar.addi v612 c1_i32_1073
  let c16_i32_1074 : BitVec 32 := 16#32
  let v1574 : BitVec 32 := Scalar.muli v1573 c16_i32_1074
  let v1575 : Index := Scalar.indexCast v1574
  ![v1575.toNat]
def k0_off641 (v1579 : BitVec 32) : Fin 3 → Nat :=
  let c0_i32_1079 : BitVec 32 := 0#32
  let c0_i32_1080 : BitVec 32 := 0#32
  ![v1579.toNat, 0, 0]

def k0_chk289 (k0_t11 : Fin k0_t11_loop.trips) (v1579 : BitVec 32) : Prop :=
  (∀ (k0_h3 : k0_cond3 k0_t11 = 1#1), ∀ a, (k0_off641 v1579) a + S1x8x32.size a ≤ S125000x8x32.size a)
instance k0_chk289.dec : ∀ (k0_t11 : Fin k0_t11_loop.trips) (v1579 : BitVec 32), Decidable (k0_chk289 k0_t11 v1579) := fun k0_t11 v1579 => decidable_of_iff' _ (Iff.of_eq (k0_chk289.eq_1 k0_t11 v1579))
theorem k0_off641_inb : ∀ (k0_t11 : Fin k0_t11_loop.trips) (v1579 : BitVec 32) (k0_hw289 : k0_chk289 k0_t11 v1579), ∀ (k0_h3 : k0_cond3 k0_t11 = 1#1), ∀ a, (k0_off641 v1579) a + S1x8x32.size a ≤ S125000x8x32.size a := fun k0_t11 v1579 k0_hw289 k0_h3 => k0_hw289 k0_h3

def k0_off642 (v1591 : BitVec 32) : Fin 3 → Nat :=
  let c0_i32_1089 : BitVec 32 := 0#32
  let c0_i32_1090 : BitVec 32 := 0#32
  ![v1591.toNat, 0, 0]

def k0_chk290 (k0_t11 : Fin k0_t11_loop.trips) (v1591 : BitVec 32) : Prop :=
  (∀ (k0_h3 : k0_cond3 k0_t11 = 1#1), ∀ a, (k0_off642 v1591) a + S1x8x32.size a ≤ S125000x8x32.size a)
instance k0_chk290.dec : ∀ (k0_t11 : Fin k0_t11_loop.trips) (v1591 : BitVec 32), Decidable (k0_chk290 k0_t11 v1591) := fun k0_t11 v1591 => decidable_of_iff' _ (Iff.of_eq (k0_chk290.eq_1 k0_t11 v1591))
theorem k0_off642_inb : ∀ (k0_t11 : Fin k0_t11_loop.trips) (v1591 : BitVec 32) (k0_hw290 : k0_chk290 k0_t11 v1591), ∀ (k0_h3 : k0_cond3 k0_t11 = 1#1), ∀ a, (k0_off642 v1591) a + S1x8x32.size a ≤ S125000x8x32.size a := fun k0_t11 v1591 k0_hw290 k0_h3 => k0_hw290 k0_h3

def k0_off643 (v1603 : BitVec 32) : Fin 3 → Nat :=
  let c0_i32_1099 : BitVec 32 := 0#32
  let c0_i32_1100 : BitVec 32 := 0#32
  ![v1603.toNat, 0, 0]

def k0_chk291 (k0_t11 : Fin k0_t11_loop.trips) (v1603 : BitVec 32) : Prop :=
  (∀ (k0_h3 : k0_cond3 k0_t11 = 1#1), ∀ a, (k0_off643 v1603) a + S1x8x32.size a ≤ S125000x8x32.size a)
instance k0_chk291.dec : ∀ (k0_t11 : Fin k0_t11_loop.trips) (v1603 : BitVec 32), Decidable (k0_chk291 k0_t11 v1603) := fun k0_t11 v1603 => decidable_of_iff' _ (Iff.of_eq (k0_chk291.eq_1 k0_t11 v1603))
theorem k0_off643_inb : ∀ (k0_t11 : Fin k0_t11_loop.trips) (v1603 : BitVec 32) (k0_hw291 : k0_chk291 k0_t11 v1603), ∀ (k0_h3 : k0_cond3 k0_t11 = 1#1), ∀ a, (k0_off643 v1603) a + S1x8x32.size a ≤ S125000x8x32.size a := fun k0_t11 v1603 k0_hw291 k0_h3 => k0_hw291 k0_h3

def k0_off644 (v1615 : BitVec 32) : Fin 3 → Nat :=
  let c0_i32_1109 : BitVec 32 := 0#32
  let c0_i32_1110 : BitVec 32 := 0#32
  ![v1615.toNat, 0, 0]

def k0_chk292 (k0_t11 : Fin k0_t11_loop.trips) (v1615 : BitVec 32) : Prop :=
  (∀ (k0_h3 : k0_cond3 k0_t11 = 1#1), ∀ a, (k0_off644 v1615) a + S1x8x32.size a ≤ S125000x8x32.size a)
instance k0_chk292.dec : ∀ (k0_t11 : Fin k0_t11_loop.trips) (v1615 : BitVec 32), Decidable (k0_chk292 k0_t11 v1615) := fun k0_t11 v1615 => decidable_of_iff' _ (Iff.of_eq (k0_chk292.eq_1 k0_t11 v1615))
theorem k0_off644_inb : ∀ (k0_t11 : Fin k0_t11_loop.trips) (v1615 : BitVec 32) (k0_hw292 : k0_chk292 k0_t11 v1615), ∀ (k0_h3 : k0_cond3 k0_t11 = 1#1), ∀ a, (k0_off644 v1615) a + S1x8x32.size a ≤ S125000x8x32.size a := fun k0_t11 v1615 k0_hw292 k0_h3 => k0_hw292 k0_h3

def k0_off645 (v1627 : BitVec 32) : Fin 3 → Nat :=
  let c0_i32_1119 : BitVec 32 := 0#32
  let c0_i32_1120 : BitVec 32 := 0#32
  ![v1627.toNat, 0, 0]

def k0_chk293 (k0_t11 : Fin k0_t11_loop.trips) (v1627 : BitVec 32) : Prop :=
  (∀ (k0_h3 : k0_cond3 k0_t11 = 1#1), ∀ a, (k0_off645 v1627) a + S1x8x32.size a ≤ S125000x8x32.size a)
instance k0_chk293.dec : ∀ (k0_t11 : Fin k0_t11_loop.trips) (v1627 : BitVec 32), Decidable (k0_chk293 k0_t11 v1627) := fun k0_t11 v1627 => decidable_of_iff' _ (Iff.of_eq (k0_chk293.eq_1 k0_t11 v1627))
theorem k0_off645_inb : ∀ (k0_t11 : Fin k0_t11_loop.trips) (v1627 : BitVec 32) (k0_hw293 : k0_chk293 k0_t11 v1627), ∀ (k0_h3 : k0_cond3 k0_t11 = 1#1), ∀ a, (k0_off645 v1627) a + S1x8x32.size a ≤ S125000x8x32.size a := fun k0_t11 v1627 k0_hw293 k0_h3 => k0_hw293 k0_h3

def k0_off646 (v1639 : BitVec 32) : Fin 3 → Nat :=
  let c0_i32_1129 : BitVec 32 := 0#32
  let c0_i32_1130 : BitVec 32 := 0#32
  ![v1639.toNat, 0, 0]

def k0_chk294 (k0_t11 : Fin k0_t11_loop.trips) (v1639 : BitVec 32) : Prop :=
  (∀ (k0_h3 : k0_cond3 k0_t11 = 1#1), ∀ a, (k0_off646 v1639) a + S1x8x32.size a ≤ S125000x8x32.size a)
instance k0_chk294.dec : ∀ (k0_t11 : Fin k0_t11_loop.trips) (v1639 : BitVec 32), Decidable (k0_chk294 k0_t11 v1639) := fun k0_t11 v1639 => decidable_of_iff' _ (Iff.of_eq (k0_chk294.eq_1 k0_t11 v1639))
theorem k0_off646_inb : ∀ (k0_t11 : Fin k0_t11_loop.trips) (v1639 : BitVec 32) (k0_hw294 : k0_chk294 k0_t11 v1639), ∀ (k0_h3 : k0_cond3 k0_t11 = 1#1), ∀ a, (k0_off646 v1639) a + S1x8x32.size a ≤ S125000x8x32.size a := fun k0_t11 v1639 k0_hw294 k0_h3 => k0_hw294 k0_h3

def k0_off647 (v1651 : BitVec 32) : Fin 3 → Nat :=
  let c0_i32_1139 : BitVec 32 := 0#32
  let c0_i32_1140 : BitVec 32 := 0#32
  ![v1651.toNat, 0, 0]

def k0_chk295 (k0_t11 : Fin k0_t11_loop.trips) (v1651 : BitVec 32) : Prop :=
  (∀ (k0_h3 : k0_cond3 k0_t11 = 1#1), ∀ a, (k0_off647 v1651) a + S1x8x32.size a ≤ S125000x8x32.size a)
instance k0_chk295.dec : ∀ (k0_t11 : Fin k0_t11_loop.trips) (v1651 : BitVec 32), Decidable (k0_chk295 k0_t11 v1651) := fun k0_t11 v1651 => decidable_of_iff' _ (Iff.of_eq (k0_chk295.eq_1 k0_t11 v1651))
theorem k0_off647_inb : ∀ (k0_t11 : Fin k0_t11_loop.trips) (v1651 : BitVec 32) (k0_hw295 : k0_chk295 k0_t11 v1651), ∀ (k0_h3 : k0_cond3 k0_t11 = 1#1), ∀ a, (k0_off647 v1651) a + S1x8x32.size a ≤ S125000x8x32.size a := fun k0_t11 v1651 k0_hw295 k0_h3 => k0_hw295 k0_h3

def k0_off648 (v1663 : BitVec 32) : Fin 3 → Nat :=
  let c0_i32_1149 : BitVec 32 := 0#32
  let c0_i32_1150 : BitVec 32 := 0#32
  ![v1663.toNat, 0, 0]

def k0_chk296 (k0_t11 : Fin k0_t11_loop.trips) (v1663 : BitVec 32) : Prop :=
  (∀ (k0_h3 : k0_cond3 k0_t11 = 1#1), ∀ a, (k0_off648 v1663) a + S1x8x32.size a ≤ S125000x8x32.size a)
instance k0_chk296.dec : ∀ (k0_t11 : Fin k0_t11_loop.trips) (v1663 : BitVec 32), Decidable (k0_chk296 k0_t11 v1663) := fun k0_t11 v1663 => decidable_of_iff' _ (Iff.of_eq (k0_chk296.eq_1 k0_t11 v1663))
theorem k0_off648_inb : ∀ (k0_t11 : Fin k0_t11_loop.trips) (v1663 : BitVec 32) (k0_hw296 : k0_chk296 k0_t11 v1663), ∀ (k0_h3 : k0_cond3 k0_t11 = 1#1), ∀ a, (k0_off648 v1663) a + S1x8x32.size a ≤ S125000x8x32.size a := fun k0_t11 v1663 k0_hw296 k0_h3 => k0_hw296 k0_h3

def k0_off649 (v1675 : BitVec 32) : Fin 3 → Nat :=
  let c0_i32_1159 : BitVec 32 := 0#32
  let c0_i32_1160 : BitVec 32 := 0#32
  ![v1675.toNat, 0, 0]

def k0_chk297 (k0_t11 : Fin k0_t11_loop.trips) (v1675 : BitVec 32) : Prop :=
  (∀ (k0_h3 : k0_cond3 k0_t11 = 1#1), ∀ a, (k0_off649 v1675) a + S1x8x32.size a ≤ S125000x8x32.size a)
instance k0_chk297.dec : ∀ (k0_t11 : Fin k0_t11_loop.trips) (v1675 : BitVec 32), Decidable (k0_chk297 k0_t11 v1675) := fun k0_t11 v1675 => decidable_of_iff' _ (Iff.of_eq (k0_chk297.eq_1 k0_t11 v1675))
theorem k0_off649_inb : ∀ (k0_t11 : Fin k0_t11_loop.trips) (v1675 : BitVec 32) (k0_hw297 : k0_chk297 k0_t11 v1675), ∀ (k0_h3 : k0_cond3 k0_t11 = 1#1), ∀ a, (k0_off649 v1675) a + S1x8x32.size a ≤ S125000x8x32.size a := fun k0_t11 v1675 k0_hw297 k0_h3 => k0_hw297 k0_h3

def k0_off650 (v1687 : BitVec 32) : Fin 3 → Nat :=
  let c0_i32_1169 : BitVec 32 := 0#32
  let c0_i32_1170 : BitVec 32 := 0#32
  ![v1687.toNat, 0, 0]

def k0_chk298 (k0_t11 : Fin k0_t11_loop.trips) (v1687 : BitVec 32) : Prop :=
  (∀ (k0_h3 : k0_cond3 k0_t11 = 1#1), ∀ a, (k0_off650 v1687) a + S1x8x32.size a ≤ S125000x8x32.size a)
instance k0_chk298.dec : ∀ (k0_t11 : Fin k0_t11_loop.trips) (v1687 : BitVec 32), Decidable (k0_chk298 k0_t11 v1687) := fun k0_t11 v1687 => decidable_of_iff' _ (Iff.of_eq (k0_chk298.eq_1 k0_t11 v1687))
theorem k0_off650_inb : ∀ (k0_t11 : Fin k0_t11_loop.trips) (v1687 : BitVec 32) (k0_hw298 : k0_chk298 k0_t11 v1687), ∀ (k0_h3 : k0_cond3 k0_t11 = 1#1), ∀ a, (k0_off650 v1687) a + S1x8x32.size a ≤ S125000x8x32.size a := fun k0_t11 v1687 k0_hw298 k0_h3 => k0_hw298 k0_h3

def k0_off651 (v1699 : BitVec 32) : Fin 3 → Nat :=
  let c0_i32_1179 : BitVec 32 := 0#32
  let c0_i32_1180 : BitVec 32 := 0#32
  ![v1699.toNat, 0, 0]

def k0_chk299 (k0_t11 : Fin k0_t11_loop.trips) (v1699 : BitVec 32) : Prop :=
  (∀ (k0_h3 : k0_cond3 k0_t11 = 1#1), ∀ a, (k0_off651 v1699) a + S1x8x32.size a ≤ S125000x8x32.size a)
instance k0_chk299.dec : ∀ (k0_t11 : Fin k0_t11_loop.trips) (v1699 : BitVec 32), Decidable (k0_chk299 k0_t11 v1699) := fun k0_t11 v1699 => decidable_of_iff' _ (Iff.of_eq (k0_chk299.eq_1 k0_t11 v1699))
theorem k0_off651_inb : ∀ (k0_t11 : Fin k0_t11_loop.trips) (v1699 : BitVec 32) (k0_hw299 : k0_chk299 k0_t11 v1699), ∀ (k0_h3 : k0_cond3 k0_t11 = 1#1), ∀ a, (k0_off651 v1699) a + S1x8x32.size a ≤ S125000x8x32.size a := fun k0_t11 v1699 k0_hw299 k0_h3 => k0_hw299 k0_h3

def k0_off652 (v1711 : BitVec 32) : Fin 3 → Nat :=
  let c0_i32_1189 : BitVec 32 := 0#32
  let c0_i32_1190 : BitVec 32 := 0#32
  ![v1711.toNat, 0, 0]

def k0_chk300 (k0_t11 : Fin k0_t11_loop.trips) (v1711 : BitVec 32) : Prop :=
  (∀ (k0_h3 : k0_cond3 k0_t11 = 1#1), ∀ a, (k0_off652 v1711) a + S1x8x32.size a ≤ S125000x8x32.size a)
instance k0_chk300.dec : ∀ (k0_t11 : Fin k0_t11_loop.trips) (v1711 : BitVec 32), Decidable (k0_chk300 k0_t11 v1711) := fun k0_t11 v1711 => decidable_of_iff' _ (Iff.of_eq (k0_chk300.eq_1 k0_t11 v1711))
theorem k0_off652_inb : ∀ (k0_t11 : Fin k0_t11_loop.trips) (v1711 : BitVec 32) (k0_hw300 : k0_chk300 k0_t11 v1711), ∀ (k0_h3 : k0_cond3 k0_t11 = 1#1), ∀ a, (k0_off652 v1711) a + S1x8x32.size a ≤ S125000x8x32.size a := fun k0_t11 v1711 k0_hw300 k0_h3 => k0_hw300 k0_h3

def k0_off653 (v1723 : BitVec 32) : Fin 3 → Nat :=
  let c0_i32_1199 : BitVec 32 := 0#32
  let c0_i32_1200 : BitVec 32 := 0#32
  ![v1723.toNat, 0, 0]

def k0_chk301 (k0_t11 : Fin k0_t11_loop.trips) (v1723 : BitVec 32) : Prop :=
  (∀ (k0_h3 : k0_cond3 k0_t11 = 1#1), ∀ a, (k0_off653 v1723) a + S1x8x32.size a ≤ S125000x8x32.size a)
instance k0_chk301.dec : ∀ (k0_t11 : Fin k0_t11_loop.trips) (v1723 : BitVec 32), Decidable (k0_chk301 k0_t11 v1723) := fun k0_t11 v1723 => decidable_of_iff' _ (Iff.of_eq (k0_chk301.eq_1 k0_t11 v1723))
theorem k0_off653_inb : ∀ (k0_t11 : Fin k0_t11_loop.trips) (v1723 : BitVec 32) (k0_hw301 : k0_chk301 k0_t11 v1723), ∀ (k0_h3 : k0_cond3 k0_t11 = 1#1), ∀ a, (k0_off653 v1723) a + S1x8x32.size a ≤ S125000x8x32.size a := fun k0_t11 v1723 k0_hw301 k0_h3 => k0_hw301 k0_h3

def k0_off654 (v1735 : BitVec 32) : Fin 3 → Nat :=
  let c0_i32_1209 : BitVec 32 := 0#32
  let c0_i32_1210 : BitVec 32 := 0#32
  ![v1735.toNat, 0, 0]

def k0_chk302 (k0_t11 : Fin k0_t11_loop.trips) (v1735 : BitVec 32) : Prop :=
  (∀ (k0_h3 : k0_cond3 k0_t11 = 1#1), ∀ a, (k0_off654 v1735) a + S1x8x32.size a ≤ S125000x8x32.size a)
instance k0_chk302.dec : ∀ (k0_t11 : Fin k0_t11_loop.trips) (v1735 : BitVec 32), Decidable (k0_chk302 k0_t11 v1735) := fun k0_t11 v1735 => decidable_of_iff' _ (Iff.of_eq (k0_chk302.eq_1 k0_t11 v1735))
theorem k0_off654_inb : ∀ (k0_t11 : Fin k0_t11_loop.trips) (v1735 : BitVec 32) (k0_hw302 : k0_chk302 k0_t11 v1735), ∀ (k0_h3 : k0_cond3 k0_t11 = 1#1), ∀ a, (k0_off654 v1735) a + S1x8x32.size a ≤ S125000x8x32.size a := fun k0_t11 v1735 k0_hw302 k0_h3 => k0_hw302 k0_h3

def k0_off655 (v1747 : BitVec 32) : Fin 3 → Nat :=
  let c0_i32_1219 : BitVec 32 := 0#32
  let c0_i32_1220 : BitVec 32 := 0#32
  ![v1747.toNat, 0, 0]

def k0_chk303 (k0_t11 : Fin k0_t11_loop.trips) (v1747 : BitVec 32) : Prop :=
  (∀ (k0_h3 : k0_cond3 k0_t11 = 1#1), ∀ a, (k0_off655 v1747) a + S1x8x32.size a ≤ S125000x8x32.size a)
instance k0_chk303.dec : ∀ (k0_t11 : Fin k0_t11_loop.trips) (v1747 : BitVec 32), Decidable (k0_chk303 k0_t11 v1747) := fun k0_t11 v1747 => decidable_of_iff' _ (Iff.of_eq (k0_chk303.eq_1 k0_t11 v1747))
theorem k0_off655_inb : ∀ (k0_t11 : Fin k0_t11_loop.trips) (v1747 : BitVec 32) (k0_hw303 : k0_chk303 k0_t11 v1747), ∀ (k0_h3 : k0_cond3 k0_t11 = 1#1), ∀ a, (k0_off655 v1747) a + S1x8x32.size a ≤ S125000x8x32.size a := fun k0_t11 v1747 k0_hw303 k0_h3 => k0_hw303 k0_h3

def k0_off656 (v1759 : BitVec 32) : Fin 3 → Nat :=
  let c0_i32_1229 : BitVec 32 := 0#32
  let c0_i32_1230 : BitVec 32 := 0#32
  ![v1759.toNat, 0, 0]

def k0_chk304 (k0_t11 : Fin k0_t11_loop.trips) (v1759 : BitVec 32) : Prop :=
  (∀ (k0_h3 : k0_cond3 k0_t11 = 1#1), ∀ a, (k0_off656 v1759) a + S1x8x32.size a ≤ S125000x8x32.size a)
instance k0_chk304.dec : ∀ (k0_t11 : Fin k0_t11_loop.trips) (v1759 : BitVec 32), Decidable (k0_chk304 k0_t11 v1759) := fun k0_t11 v1759 => decidable_of_iff' _ (Iff.of_eq (k0_chk304.eq_1 k0_t11 v1759))
theorem k0_off656_inb : ∀ (k0_t11 : Fin k0_t11_loop.trips) (v1759 : BitVec 32) (k0_hw304 : k0_chk304 k0_t11 v1759), ∀ (k0_h3 : k0_cond3 k0_t11 = 1#1), ∀ a, (k0_off656 v1759) a + S1x8x32.size a ≤ S125000x8x32.size a := fun k0_t11 v1759 k0_hw304 k0_h3 => k0_hw304 k0_h3

def k0_off657 (k0_t11 : Fin k0_t11_loop.trips) : Fin 1 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let v1202 : Index := Scalar.indexCast v1201
  ![v1202.toNat]
def k0_off658 (v1206 : BitVec 32) : Fin 4 → Nat :=
  let c1_i32_898 : BitVec 32 := 1#32
  let v1208 : Index := Scalar.indexCast c1_i32_898
  let c0_i32_899 : BitVec 32 := 0#32
  let v1209 : Index := Scalar.indexCast c0_i32_899
  let c8_i32_897 : BitVec 32 := 8#32
  let v1207 : BitVec 32 := Scalar.remsi v1206 c8_i32_897
  let v1210 : Index := Scalar.indexCast v1207
  let c0_900 : Index := 0#32
  ![1, 0, v1210.toNat, 0]

def k0_off659 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_901 : BitVec 32 := 0#32
  let v1213 : BitVec 32 := Scalar.addi v1201 c0_i32_901
  let v1214 : Index := Scalar.indexCast v1213
  let c0_902 : Index := 0#32
  ![v1214.toNat, 0]
def k0_off660 (v1206 : BitVec 32) : Fin 4 → Nat :=
  let c1_i32_903 : BitVec 32 := 1#32
  let v1218 : Index := Scalar.indexCast c1_i32_903
  let c0_i32_904 : BitVec 32 := 0#32
  let v1219 : Index := Scalar.indexCast c0_i32_904
  let c8_i32_897 : BitVec 32 := 8#32
  let v1207 : BitVec 32 := Scalar.remsi v1206 c8_i32_897
  let v1220 : Index := Scalar.indexCast v1207
  let c16_905 : Index := 16#32
  ![1, 0, v1220.toNat, 16]

def k0_chk305 (v1206 : BitVec 32) : Prop :=
  (∀ a, (k0_off658 v1206) a + S1x1x1x16.size a ≤ S2x16x8x32.size a) ∧
  (∀ a, (k0_off660 v1206) a + S1x1x1x16.size a ≤ S2x16x8x32.size a)
instance k0_chk305.dec : ∀ (v1206 : BitVec 32), Decidable (k0_chk305 v1206) := fun v1206 => decidable_of_iff' _ (Iff.of_eq (k0_chk305.eq_1 v1206))
theorem k0_off658_inb : ∀ (v1206 : BitVec 32) (k0_hw305 : k0_chk305 v1206), ∀ a, (k0_off658 v1206) a + S1x1x1x16.size a ≤ S2x16x8x32.size a := fun v1206 k0_hw305 => k0_hw305.1
theorem k0_off660_inb : ∀ (v1206 : BitVec 32) (k0_hw305 : k0_chk305 v1206), ∀ a, (k0_off660 v1206) a + S1x1x1x16.size a ≤ S2x16x8x32.size a := fun v1206 k0_hw305 => k0_hw305.2

def k0_off661 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c0_i32_906 : BitVec 32 := 0#32
  let v1223 : BitVec 32 := Scalar.addi v1201 c0_i32_906
  let v1224 : Index := Scalar.indexCast v1223
  let c16_907 : Index := 16#32
  ![v1224.toNat, 16]
def k0_off662 (v1229 : BitVec 32) : Fin 4 → Nat :=
  let c1_i32_909 : BitVec 32 := 1#32
  let v1231 : Index := Scalar.indexCast c1_i32_909
  let c1_i32_910 : BitVec 32 := 1#32
  let v1232 : Index := Scalar.indexCast c1_i32_910
  let c8_i32_908 : BitVec 32 := 8#32
  let v1230 : BitVec 32 := Scalar.remsi v1229 c8_i32_908
  let v1233 : Index := Scalar.indexCast v1230
  let c0_911 : Index := 0#32
  ![1, 1, v1233.toNat, 0]

def k0_off663 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_912 : BitVec 32 := 1#32
  let v1236 : BitVec 32 := Scalar.addi v1201 c1_i32_912
  let v1237 : Index := Scalar.indexCast v1236
  let c0_913 : Index := 0#32
  ![v1237.toNat, 0]
def k0_off664 (v1229 : BitVec 32) : Fin 4 → Nat :=
  let c1_i32_914 : BitVec 32 := 1#32
  let v1241 : Index := Scalar.indexCast c1_i32_914
  let c1_i32_915 : BitVec 32 := 1#32
  let v1242 : Index := Scalar.indexCast c1_i32_915
  let c8_i32_908 : BitVec 32 := 8#32
  let v1230 : BitVec 32 := Scalar.remsi v1229 c8_i32_908
  let v1243 : Index := Scalar.indexCast v1230
  let c16_916 : Index := 16#32
  ![1, 1, v1243.toNat, 16]

def k0_chk306 (v1229 : BitVec 32) : Prop :=
  (∀ a, (k0_off662 v1229) a + S1x1x1x16.size a ≤ S2x16x8x32.size a) ∧
  (∀ a, (k0_off664 v1229) a + S1x1x1x16.size a ≤ S2x16x8x32.size a)
instance k0_chk306.dec : ∀ (v1229 : BitVec 32), Decidable (k0_chk306 v1229) := fun v1229 => decidable_of_iff' _ (Iff.of_eq (k0_chk306.eq_1 v1229))
theorem k0_off662_inb : ∀ (v1229 : BitVec 32) (k0_hw306 : k0_chk306 v1229), ∀ a, (k0_off662 v1229) a + S1x1x1x16.size a ≤ S2x16x8x32.size a := fun v1229 k0_hw306 => k0_hw306.1
theorem k0_off664_inb : ∀ (v1229 : BitVec 32) (k0_hw306 : k0_chk306 v1229), ∀ a, (k0_off664 v1229) a + S1x1x1x16.size a ≤ S2x16x8x32.size a := fun v1229 k0_hw306 => k0_hw306.2

def k0_off665 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c1_i32_917 : BitVec 32 := 1#32
  let v1246 : BitVec 32 := Scalar.addi v1201 c1_i32_917
  let v1247 : Index := Scalar.indexCast v1246
  let c16_918 : Index := 16#32
  ![v1247.toNat, 16]
def k0_off666 (v1252 : BitVec 32) : Fin 4 → Nat :=
  let c1_i32_920 : BitVec 32 := 1#32
  let v1254 : Index := Scalar.indexCast c1_i32_920
  let c2_i32_921 : BitVec 32 := 2#32
  let v1255 : Index := Scalar.indexCast c2_i32_921
  let c8_i32_919 : BitVec 32 := 8#32
  let v1253 : BitVec 32 := Scalar.remsi v1252 c8_i32_919
  let v1256 : Index := Scalar.indexCast v1253
  let c0_922 : Index := 0#32
  ![1, 2, v1256.toNat, 0]

def k0_off667 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_923 : BitVec 32 := 2#32
  let v1259 : BitVec 32 := Scalar.addi v1201 c2_i32_923
  let v1260 : Index := Scalar.indexCast v1259
  let c0_924 : Index := 0#32
  ![v1260.toNat, 0]
def k0_off668 (v1252 : BitVec 32) : Fin 4 → Nat :=
  let c1_i32_925 : BitVec 32 := 1#32
  let v1264 : Index := Scalar.indexCast c1_i32_925
  let c2_i32_926 : BitVec 32 := 2#32
  let v1265 : Index := Scalar.indexCast c2_i32_926
  let c8_i32_919 : BitVec 32 := 8#32
  let v1253 : BitVec 32 := Scalar.remsi v1252 c8_i32_919
  let v1266 : Index := Scalar.indexCast v1253
  let c16_927 : Index := 16#32
  ![1, 2, v1266.toNat, 16]

def k0_chk307 (v1252 : BitVec 32) : Prop :=
  (∀ a, (k0_off666 v1252) a + S1x1x1x16.size a ≤ S2x16x8x32.size a) ∧
  (∀ a, (k0_off668 v1252) a + S1x1x1x16.size a ≤ S2x16x8x32.size a)
instance k0_chk307.dec : ∀ (v1252 : BitVec 32), Decidable (k0_chk307 v1252) := fun v1252 => decidable_of_iff' _ (Iff.of_eq (k0_chk307.eq_1 v1252))
theorem k0_off666_inb : ∀ (v1252 : BitVec 32) (k0_hw307 : k0_chk307 v1252), ∀ a, (k0_off666 v1252) a + S1x1x1x16.size a ≤ S2x16x8x32.size a := fun v1252 k0_hw307 => k0_hw307.1
theorem k0_off668_inb : ∀ (v1252 : BitVec 32) (k0_hw307 : k0_chk307 v1252), ∀ a, (k0_off668 v1252) a + S1x1x1x16.size a ≤ S2x16x8x32.size a := fun v1252 k0_hw307 => k0_hw307.2

def k0_off669 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c2_i32_928 : BitVec 32 := 2#32
  let v1269 : BitVec 32 := Scalar.addi v1201 c2_i32_928
  let v1270 : Index := Scalar.indexCast v1269
  let c16_929 : Index := 16#32
  ![v1270.toNat, 16]
def k0_off670 (v1275 : BitVec 32) : Fin 4 → Nat :=
  let c1_i32_931 : BitVec 32 := 1#32
  let v1277 : Index := Scalar.indexCast c1_i32_931
  let c3_i32_932 : BitVec 32 := 3#32
  let v1278 : Index := Scalar.indexCast c3_i32_932
  let c8_i32_930 : BitVec 32 := 8#32
  let v1276 : BitVec 32 := Scalar.remsi v1275 c8_i32_930
  let v1279 : Index := Scalar.indexCast v1276
  let c0_933 : Index := 0#32
  ![1, 3, v1279.toNat, 0]

def k0_off671 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_934 : BitVec 32 := 3#32
  let v1282 : BitVec 32 := Scalar.addi v1201 c3_i32_934
  let v1283 : Index := Scalar.indexCast v1282
  let c0_935 : Index := 0#32
  ![v1283.toNat, 0]
def k0_off672 (v1275 : BitVec 32) : Fin 4 → Nat :=
  let c1_i32_936 : BitVec 32 := 1#32
  let v1287 : Index := Scalar.indexCast c1_i32_936
  let c3_i32_937 : BitVec 32 := 3#32
  let v1288 : Index := Scalar.indexCast c3_i32_937
  let c8_i32_930 : BitVec 32 := 8#32
  let v1276 : BitVec 32 := Scalar.remsi v1275 c8_i32_930
  let v1289 : Index := Scalar.indexCast v1276
  let c16_938 : Index := 16#32
  ![1, 3, v1289.toNat, 16]

def k0_chk308 (v1275 : BitVec 32) : Prop :=
  (∀ a, (k0_off670 v1275) a + S1x1x1x16.size a ≤ S2x16x8x32.size a) ∧
  (∀ a, (k0_off672 v1275) a + S1x1x1x16.size a ≤ S2x16x8x32.size a)
instance k0_chk308.dec : ∀ (v1275 : BitVec 32), Decidable (k0_chk308 v1275) := fun v1275 => decidable_of_iff' _ (Iff.of_eq (k0_chk308.eq_1 v1275))
theorem k0_off670_inb : ∀ (v1275 : BitVec 32) (k0_hw308 : k0_chk308 v1275), ∀ a, (k0_off670 v1275) a + S1x1x1x16.size a ≤ S2x16x8x32.size a := fun v1275 k0_hw308 => k0_hw308.1
theorem k0_off672_inb : ∀ (v1275 : BitVec 32) (k0_hw308 : k0_chk308 v1275), ∀ a, (k0_off672 v1275) a + S1x1x1x16.size a ≤ S2x16x8x32.size a := fun v1275 k0_hw308 => k0_hw308.2

def k0_off673 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c3_i32_939 : BitVec 32 := 3#32
  let v1292 : BitVec 32 := Scalar.addi v1201 c3_i32_939
  let v1293 : Index := Scalar.indexCast v1292
  let c16_940 : Index := 16#32
  ![v1293.toNat, 16]
def k0_off674 (v1298 : BitVec 32) : Fin 4 → Nat :=
  let c1_i32_942 : BitVec 32 := 1#32
  let v1300 : Index := Scalar.indexCast c1_i32_942
  let c4_i32_943 : BitVec 32 := 4#32
  let v1301 : Index := Scalar.indexCast c4_i32_943
  let c8_i32_941 : BitVec 32 := 8#32
  let v1299 : BitVec 32 := Scalar.remsi v1298 c8_i32_941
  let v1302 : Index := Scalar.indexCast v1299
  let c0_944 : Index := 0#32
  ![1, 4, v1302.toNat, 0]

def k0_off675 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_945 : BitVec 32 := 4#32
  let v1305 : BitVec 32 := Scalar.addi v1201 c4_i32_945
  let v1306 : Index := Scalar.indexCast v1305
  let c0_946 : Index := 0#32
  ![v1306.toNat, 0]
def k0_off676 (v1298 : BitVec 32) : Fin 4 → Nat :=
  let c1_i32_947 : BitVec 32 := 1#32
  let v1310 : Index := Scalar.indexCast c1_i32_947
  let c4_i32_948 : BitVec 32 := 4#32
  let v1311 : Index := Scalar.indexCast c4_i32_948
  let c8_i32_941 : BitVec 32 := 8#32
  let v1299 : BitVec 32 := Scalar.remsi v1298 c8_i32_941
  let v1312 : Index := Scalar.indexCast v1299
  let c16_949 : Index := 16#32
  ![1, 4, v1312.toNat, 16]

def k0_chk309 (v1298 : BitVec 32) : Prop :=
  (∀ a, (k0_off674 v1298) a + S1x1x1x16.size a ≤ S2x16x8x32.size a) ∧
  (∀ a, (k0_off676 v1298) a + S1x1x1x16.size a ≤ S2x16x8x32.size a)
instance k0_chk309.dec : ∀ (v1298 : BitVec 32), Decidable (k0_chk309 v1298) := fun v1298 => decidable_of_iff' _ (Iff.of_eq (k0_chk309.eq_1 v1298))
theorem k0_off674_inb : ∀ (v1298 : BitVec 32) (k0_hw309 : k0_chk309 v1298), ∀ a, (k0_off674 v1298) a + S1x1x1x16.size a ≤ S2x16x8x32.size a := fun v1298 k0_hw309 => k0_hw309.1
theorem k0_off676_inb : ∀ (v1298 : BitVec 32) (k0_hw309 : k0_chk309 v1298), ∀ a, (k0_off676 v1298) a + S1x1x1x16.size a ≤ S2x16x8x32.size a := fun v1298 k0_hw309 => k0_hw309.2

def k0_off677 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c4_i32_950 : BitVec 32 := 4#32
  let v1315 : BitVec 32 := Scalar.addi v1201 c4_i32_950
  let v1316 : Index := Scalar.indexCast v1315
  let c16_951 : Index := 16#32
  ![v1316.toNat, 16]
def k0_off678 (v1321 : BitVec 32) : Fin 4 → Nat :=
  let c1_i32_953 : BitVec 32 := 1#32
  let v1323 : Index := Scalar.indexCast c1_i32_953
  let c5_i32_954 : BitVec 32 := 5#32
  let v1324 : Index := Scalar.indexCast c5_i32_954
  let c8_i32_952 : BitVec 32 := 8#32
  let v1322 : BitVec 32 := Scalar.remsi v1321 c8_i32_952
  let v1325 : Index := Scalar.indexCast v1322
  let c0_955 : Index := 0#32
  ![1, 5, v1325.toNat, 0]

def k0_off679 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_956 : BitVec 32 := 5#32
  let v1328 : BitVec 32 := Scalar.addi v1201 c5_i32_956
  let v1329 : Index := Scalar.indexCast v1328
  let c0_957 : Index := 0#32
  ![v1329.toNat, 0]
def k0_off680 (v1321 : BitVec 32) : Fin 4 → Nat :=
  let c1_i32_958 : BitVec 32 := 1#32
  let v1333 : Index := Scalar.indexCast c1_i32_958
  let c5_i32_959 : BitVec 32 := 5#32
  let v1334 : Index := Scalar.indexCast c5_i32_959
  let c8_i32_952 : BitVec 32 := 8#32
  let v1322 : BitVec 32 := Scalar.remsi v1321 c8_i32_952
  let v1335 : Index := Scalar.indexCast v1322
  let c16_960 : Index := 16#32
  ![1, 5, v1335.toNat, 16]

def k0_chk310 (v1321 : BitVec 32) : Prop :=
  (∀ a, (k0_off678 v1321) a + S1x1x1x16.size a ≤ S2x16x8x32.size a) ∧
  (∀ a, (k0_off680 v1321) a + S1x1x1x16.size a ≤ S2x16x8x32.size a)
instance k0_chk310.dec : ∀ (v1321 : BitVec 32), Decidable (k0_chk310 v1321) := fun v1321 => decidable_of_iff' _ (Iff.of_eq (k0_chk310.eq_1 v1321))
theorem k0_off678_inb : ∀ (v1321 : BitVec 32) (k0_hw310 : k0_chk310 v1321), ∀ a, (k0_off678 v1321) a + S1x1x1x16.size a ≤ S2x16x8x32.size a := fun v1321 k0_hw310 => k0_hw310.1
theorem k0_off680_inb : ∀ (v1321 : BitVec 32) (k0_hw310 : k0_chk310 v1321), ∀ a, (k0_off680 v1321) a + S1x1x1x16.size a ≤ S2x16x8x32.size a := fun v1321 k0_hw310 => k0_hw310.2

def k0_off681 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c5_i32_961 : BitVec 32 := 5#32
  let v1338 : BitVec 32 := Scalar.addi v1201 c5_i32_961
  let v1339 : Index := Scalar.indexCast v1338
  let c16_962 : Index := 16#32
  ![v1339.toNat, 16]
def k0_off682 (v1344 : BitVec 32) : Fin 4 → Nat :=
  let c1_i32_964 : BitVec 32 := 1#32
  let v1346 : Index := Scalar.indexCast c1_i32_964
  let c6_i32_965 : BitVec 32 := 6#32
  let v1347 : Index := Scalar.indexCast c6_i32_965
  let c8_i32_963 : BitVec 32 := 8#32
  let v1345 : BitVec 32 := Scalar.remsi v1344 c8_i32_963
  let v1348 : Index := Scalar.indexCast v1345
  let c0_966 : Index := 0#32
  ![1, 6, v1348.toNat, 0]

def k0_off683 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_967 : BitVec 32 := 6#32
  let v1351 : BitVec 32 := Scalar.addi v1201 c6_i32_967
  let v1352 : Index := Scalar.indexCast v1351
  let c0_968 : Index := 0#32
  ![v1352.toNat, 0]
def k0_off684 (v1344 : BitVec 32) : Fin 4 → Nat :=
  let c1_i32_969 : BitVec 32 := 1#32
  let v1356 : Index := Scalar.indexCast c1_i32_969
  let c6_i32_970 : BitVec 32 := 6#32
  let v1357 : Index := Scalar.indexCast c6_i32_970
  let c8_i32_963 : BitVec 32 := 8#32
  let v1345 : BitVec 32 := Scalar.remsi v1344 c8_i32_963
  let v1358 : Index := Scalar.indexCast v1345
  let c16_971 : Index := 16#32
  ![1, 6, v1358.toNat, 16]

def k0_chk311 (v1344 : BitVec 32) : Prop :=
  (∀ a, (k0_off682 v1344) a + S1x1x1x16.size a ≤ S2x16x8x32.size a) ∧
  (∀ a, (k0_off684 v1344) a + S1x1x1x16.size a ≤ S2x16x8x32.size a)
instance k0_chk311.dec : ∀ (v1344 : BitVec 32), Decidable (k0_chk311 v1344) := fun v1344 => decidable_of_iff' _ (Iff.of_eq (k0_chk311.eq_1 v1344))
theorem k0_off682_inb : ∀ (v1344 : BitVec 32) (k0_hw311 : k0_chk311 v1344), ∀ a, (k0_off682 v1344) a + S1x1x1x16.size a ≤ S2x16x8x32.size a := fun v1344 k0_hw311 => k0_hw311.1
theorem k0_off684_inb : ∀ (v1344 : BitVec 32) (k0_hw311 : k0_chk311 v1344), ∀ a, (k0_off684 v1344) a + S1x1x1x16.size a ≤ S2x16x8x32.size a := fun v1344 k0_hw311 => k0_hw311.2

def k0_off685 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c6_i32_972 : BitVec 32 := 6#32
  let v1361 : BitVec 32 := Scalar.addi v1201 c6_i32_972
  let v1362 : Index := Scalar.indexCast v1361
  let c16_973 : Index := 16#32
  ![v1362.toNat, 16]
def k0_off686 (v1367 : BitVec 32) : Fin 4 → Nat :=
  let c1_i32_975 : BitVec 32 := 1#32
  let v1369 : Index := Scalar.indexCast c1_i32_975
  let c7_i32_976 : BitVec 32 := 7#32
  let v1370 : Index := Scalar.indexCast c7_i32_976
  let c8_i32_974 : BitVec 32 := 8#32
  let v1368 : BitVec 32 := Scalar.remsi v1367 c8_i32_974
  let v1371 : Index := Scalar.indexCast v1368
  let c0_977 : Index := 0#32
  ![1, 7, v1371.toNat, 0]

def k0_off687 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_978 : BitVec 32 := 7#32
  let v1374 : BitVec 32 := Scalar.addi v1201 c7_i32_978
  let v1375 : Index := Scalar.indexCast v1374
  let c0_979 : Index := 0#32
  ![v1375.toNat, 0]
def k0_off688 (v1367 : BitVec 32) : Fin 4 → Nat :=
  let c1_i32_980 : BitVec 32 := 1#32
  let v1379 : Index := Scalar.indexCast c1_i32_980
  let c7_i32_981 : BitVec 32 := 7#32
  let v1380 : Index := Scalar.indexCast c7_i32_981
  let c8_i32_974 : BitVec 32 := 8#32
  let v1368 : BitVec 32 := Scalar.remsi v1367 c8_i32_974
  let v1381 : Index := Scalar.indexCast v1368
  let c16_982 : Index := 16#32
  ![1, 7, v1381.toNat, 16]

def k0_chk312 (v1367 : BitVec 32) : Prop :=
  (∀ a, (k0_off686 v1367) a + S1x1x1x16.size a ≤ S2x16x8x32.size a) ∧
  (∀ a, (k0_off688 v1367) a + S1x1x1x16.size a ≤ S2x16x8x32.size a)
instance k0_chk312.dec : ∀ (v1367 : BitVec 32), Decidable (k0_chk312 v1367) := fun v1367 => decidable_of_iff' _ (Iff.of_eq (k0_chk312.eq_1 v1367))
theorem k0_off686_inb : ∀ (v1367 : BitVec 32) (k0_hw312 : k0_chk312 v1367), ∀ a, (k0_off686 v1367) a + S1x1x1x16.size a ≤ S2x16x8x32.size a := fun v1367 k0_hw312 => k0_hw312.1
theorem k0_off688_inb : ∀ (v1367 : BitVec 32) (k0_hw312 : k0_chk312 v1367), ∀ a, (k0_off688 v1367) a + S1x1x1x16.size a ≤ S2x16x8x32.size a := fun v1367 k0_hw312 => k0_hw312.2

def k0_off689 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c7_i32_983 : BitVec 32 := 7#32
  let v1384 : BitVec 32 := Scalar.addi v1201 c7_i32_983
  let v1385 : Index := Scalar.indexCast v1384
  let c16_984 : Index := 16#32
  ![v1385.toNat, 16]
def k0_off690 (v1390 : BitVec 32) : Fin 4 → Nat :=
  let c1_i32_986 : BitVec 32 := 1#32
  let v1392 : Index := Scalar.indexCast c1_i32_986
  let c8_i32_987 : BitVec 32 := 8#32
  let v1393 : Index := Scalar.indexCast c8_i32_987
  let c8_i32_985 : BitVec 32 := 8#32
  let v1391 : BitVec 32 := Scalar.remsi v1390 c8_i32_985
  let v1394 : Index := Scalar.indexCast v1391
  let c0_988 : Index := 0#32
  ![1, 8, v1394.toNat, 0]

def k0_off691 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_989 : BitVec 32 := 8#32
  let v1397 : BitVec 32 := Scalar.addi v1201 c8_i32_989
  let v1398 : Index := Scalar.indexCast v1397
  let c0_990 : Index := 0#32
  ![v1398.toNat, 0]
def k0_off692 (v1390 : BitVec 32) : Fin 4 → Nat :=
  let c1_i32_991 : BitVec 32 := 1#32
  let v1402 : Index := Scalar.indexCast c1_i32_991
  let c8_i32_992 : BitVec 32 := 8#32
  let v1403 : Index := Scalar.indexCast c8_i32_992
  let c8_i32_985 : BitVec 32 := 8#32
  let v1391 : BitVec 32 := Scalar.remsi v1390 c8_i32_985
  let v1404 : Index := Scalar.indexCast v1391
  let c16_993 : Index := 16#32
  ![1, 8, v1404.toNat, 16]

def k0_chk313 (v1390 : BitVec 32) : Prop :=
  (∀ a, (k0_off690 v1390) a + S1x1x1x16.size a ≤ S2x16x8x32.size a) ∧
  (∀ a, (k0_off692 v1390) a + S1x1x1x16.size a ≤ S2x16x8x32.size a)
instance k0_chk313.dec : ∀ (v1390 : BitVec 32), Decidable (k0_chk313 v1390) := fun v1390 => decidable_of_iff' _ (Iff.of_eq (k0_chk313.eq_1 v1390))
theorem k0_off690_inb : ∀ (v1390 : BitVec 32) (k0_hw313 : k0_chk313 v1390), ∀ a, (k0_off690 v1390) a + S1x1x1x16.size a ≤ S2x16x8x32.size a := fun v1390 k0_hw313 => k0_hw313.1
theorem k0_off692_inb : ∀ (v1390 : BitVec 32) (k0_hw313 : k0_chk313 v1390), ∀ a, (k0_off692 v1390) a + S1x1x1x16.size a ≤ S2x16x8x32.size a := fun v1390 k0_hw313 => k0_hw313.2

def k0_off693 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c8_i32_994 : BitVec 32 := 8#32
  let v1407 : BitVec 32 := Scalar.addi v1201 c8_i32_994
  let v1408 : Index := Scalar.indexCast v1407
  let c16_995 : Index := 16#32
  ![v1408.toNat, 16]
def k0_off694 (v1413 : BitVec 32) : Fin 4 → Nat :=
  let c1_i32_997 : BitVec 32 := 1#32
  let v1415 : Index := Scalar.indexCast c1_i32_997
  let c9_i32_998 : BitVec 32 := 9#32
  let v1416 : Index := Scalar.indexCast c9_i32_998
  let c8_i32_996 : BitVec 32 := 8#32
  let v1414 : BitVec 32 := Scalar.remsi v1413 c8_i32_996
  let v1417 : Index := Scalar.indexCast v1414
  let c0_999 : Index := 0#32
  ![1, 9, v1417.toNat, 0]

def k0_off695 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1000 : BitVec 32 := 9#32
  let v1420 : BitVec 32 := Scalar.addi v1201 c9_i32_1000
  let v1421 : Index := Scalar.indexCast v1420
  let c0_1001 : Index := 0#32
  ![v1421.toNat, 0]
def k0_off696 (v1413 : BitVec 32) : Fin 4 → Nat :=
  let c1_i32_1002 : BitVec 32 := 1#32
  let v1425 : Index := Scalar.indexCast c1_i32_1002
  let c9_i32_1003 : BitVec 32 := 9#32
  let v1426 : Index := Scalar.indexCast c9_i32_1003
  let c8_i32_996 : BitVec 32 := 8#32
  let v1414 : BitVec 32 := Scalar.remsi v1413 c8_i32_996
  let v1427 : Index := Scalar.indexCast v1414
  let c16_1004 : Index := 16#32
  ![1, 9, v1427.toNat, 16]

def k0_chk314 (v1413 : BitVec 32) : Prop :=
  (∀ a, (k0_off694 v1413) a + S1x1x1x16.size a ≤ S2x16x8x32.size a) ∧
  (∀ a, (k0_off696 v1413) a + S1x1x1x16.size a ≤ S2x16x8x32.size a)
instance k0_chk314.dec : ∀ (v1413 : BitVec 32), Decidable (k0_chk314 v1413) := fun v1413 => decidable_of_iff' _ (Iff.of_eq (k0_chk314.eq_1 v1413))
theorem k0_off694_inb : ∀ (v1413 : BitVec 32) (k0_hw314 : k0_chk314 v1413), ∀ a, (k0_off694 v1413) a + S1x1x1x16.size a ≤ S2x16x8x32.size a := fun v1413 k0_hw314 => k0_hw314.1
theorem k0_off696_inb : ∀ (v1413 : BitVec 32) (k0_hw314 : k0_chk314 v1413), ∀ a, (k0_off696 v1413) a + S1x1x1x16.size a ≤ S2x16x8x32.size a := fun v1413 k0_hw314 => k0_hw314.2

def k0_off697 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c9_i32_1005 : BitVec 32 := 9#32
  let v1430 : BitVec 32 := Scalar.addi v1201 c9_i32_1005
  let v1431 : Index := Scalar.indexCast v1430
  let c16_1006 : Index := 16#32
  ![v1431.toNat, 16]
def k0_off698 (v1436 : BitVec 32) : Fin 4 → Nat :=
  let c1_i32_1008 : BitVec 32 := 1#32
  let v1438 : Index := Scalar.indexCast c1_i32_1008
  let c10_i32_1009 : BitVec 32 := 10#32
  let v1439 : Index := Scalar.indexCast c10_i32_1009
  let c8_i32_1007 : BitVec 32 := 8#32
  let v1437 : BitVec 32 := Scalar.remsi v1436 c8_i32_1007
  let v1440 : Index := Scalar.indexCast v1437
  let c0_1010 : Index := 0#32
  ![1, 10, v1440.toNat, 0]

def k0_off699 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1011 : BitVec 32 := 10#32
  let v1443 : BitVec 32 := Scalar.addi v1201 c10_i32_1011
  let v1444 : Index := Scalar.indexCast v1443
  let c0_1012 : Index := 0#32
  ![v1444.toNat, 0]
def k0_off700 (v1436 : BitVec 32) : Fin 4 → Nat :=
  let c1_i32_1013 : BitVec 32 := 1#32
  let v1448 : Index := Scalar.indexCast c1_i32_1013
  let c10_i32_1014 : BitVec 32 := 10#32
  let v1449 : Index := Scalar.indexCast c10_i32_1014
  let c8_i32_1007 : BitVec 32 := 8#32
  let v1437 : BitVec 32 := Scalar.remsi v1436 c8_i32_1007
  let v1450 : Index := Scalar.indexCast v1437
  let c16_1015 : Index := 16#32
  ![1, 10, v1450.toNat, 16]

def k0_chk315 (v1436 : BitVec 32) : Prop :=
  (∀ a, (k0_off698 v1436) a + S1x1x1x16.size a ≤ S2x16x8x32.size a) ∧
  (∀ a, (k0_off700 v1436) a + S1x1x1x16.size a ≤ S2x16x8x32.size a)
instance k0_chk315.dec : ∀ (v1436 : BitVec 32), Decidable (k0_chk315 v1436) := fun v1436 => decidable_of_iff' _ (Iff.of_eq (k0_chk315.eq_1 v1436))
theorem k0_off698_inb : ∀ (v1436 : BitVec 32) (k0_hw315 : k0_chk315 v1436), ∀ a, (k0_off698 v1436) a + S1x1x1x16.size a ≤ S2x16x8x32.size a := fun v1436 k0_hw315 => k0_hw315.1
theorem k0_off700_inb : ∀ (v1436 : BitVec 32) (k0_hw315 : k0_chk315 v1436), ∀ a, (k0_off700 v1436) a + S1x1x1x16.size a ≤ S2x16x8x32.size a := fun v1436 k0_hw315 => k0_hw315.2

def k0_off701 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c10_i32_1016 : BitVec 32 := 10#32
  let v1453 : BitVec 32 := Scalar.addi v1201 c10_i32_1016
  let v1454 : Index := Scalar.indexCast v1453
  let c16_1017 : Index := 16#32
  ![v1454.toNat, 16]
def k0_off702 (v1459 : BitVec 32) : Fin 4 → Nat :=
  let c1_i32_1019 : BitVec 32 := 1#32
  let v1461 : Index := Scalar.indexCast c1_i32_1019
  let c11_i32_1020 : BitVec 32 := 11#32
  let v1462 : Index := Scalar.indexCast c11_i32_1020
  let c8_i32_1018 : BitVec 32 := 8#32
  let v1460 : BitVec 32 := Scalar.remsi v1459 c8_i32_1018
  let v1463 : Index := Scalar.indexCast v1460
  let c0_1021 : Index := 0#32
  ![1, 11, v1463.toNat, 0]

def k0_off703 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1022 : BitVec 32 := 11#32
  let v1466 : BitVec 32 := Scalar.addi v1201 c11_i32_1022
  let v1467 : Index := Scalar.indexCast v1466
  let c0_1023 : Index := 0#32
  ![v1467.toNat, 0]
def k0_off704 (v1459 : BitVec 32) : Fin 4 → Nat :=
  let c1_i32_1024 : BitVec 32 := 1#32
  let v1471 : Index := Scalar.indexCast c1_i32_1024
  let c11_i32_1025 : BitVec 32 := 11#32
  let v1472 : Index := Scalar.indexCast c11_i32_1025
  let c8_i32_1018 : BitVec 32 := 8#32
  let v1460 : BitVec 32 := Scalar.remsi v1459 c8_i32_1018
  let v1473 : Index := Scalar.indexCast v1460
  let c16_1026 : Index := 16#32
  ![1, 11, v1473.toNat, 16]

def k0_chk316 (v1459 : BitVec 32) : Prop :=
  (∀ a, (k0_off702 v1459) a + S1x1x1x16.size a ≤ S2x16x8x32.size a) ∧
  (∀ a, (k0_off704 v1459) a + S1x1x1x16.size a ≤ S2x16x8x32.size a)
instance k0_chk316.dec : ∀ (v1459 : BitVec 32), Decidable (k0_chk316 v1459) := fun v1459 => decidable_of_iff' _ (Iff.of_eq (k0_chk316.eq_1 v1459))
theorem k0_off702_inb : ∀ (v1459 : BitVec 32) (k0_hw316 : k0_chk316 v1459), ∀ a, (k0_off702 v1459) a + S1x1x1x16.size a ≤ S2x16x8x32.size a := fun v1459 k0_hw316 => k0_hw316.1
theorem k0_off704_inb : ∀ (v1459 : BitVec 32) (k0_hw316 : k0_chk316 v1459), ∀ a, (k0_off704 v1459) a + S1x1x1x16.size a ≤ S2x16x8x32.size a := fun v1459 k0_hw316 => k0_hw316.2

def k0_off705 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c11_i32_1027 : BitVec 32 := 11#32
  let v1476 : BitVec 32 := Scalar.addi v1201 c11_i32_1027
  let v1477 : Index := Scalar.indexCast v1476
  let c16_1028 : Index := 16#32
  ![v1477.toNat, 16]
def k0_off706 (v1482 : BitVec 32) : Fin 4 → Nat :=
  let c1_i32_1030 : BitVec 32 := 1#32
  let v1484 : Index := Scalar.indexCast c1_i32_1030
  let c12_i32_1031 : BitVec 32 := 12#32
  let v1485 : Index := Scalar.indexCast c12_i32_1031
  let c8_i32_1029 : BitVec 32 := 8#32
  let v1483 : BitVec 32 := Scalar.remsi v1482 c8_i32_1029
  let v1486 : Index := Scalar.indexCast v1483
  let c0_1032 : Index := 0#32
  ![1, 12, v1486.toNat, 0]

def k0_off707 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1033 : BitVec 32 := 12#32
  let v1489 : BitVec 32 := Scalar.addi v1201 c12_i32_1033
  let v1490 : Index := Scalar.indexCast v1489
  let c0_1034 : Index := 0#32
  ![v1490.toNat, 0]
def k0_off708 (v1482 : BitVec 32) : Fin 4 → Nat :=
  let c1_i32_1035 : BitVec 32 := 1#32
  let v1494 : Index := Scalar.indexCast c1_i32_1035
  let c12_i32_1036 : BitVec 32 := 12#32
  let v1495 : Index := Scalar.indexCast c12_i32_1036
  let c8_i32_1029 : BitVec 32 := 8#32
  let v1483 : BitVec 32 := Scalar.remsi v1482 c8_i32_1029
  let v1496 : Index := Scalar.indexCast v1483
  let c16_1037 : Index := 16#32
  ![1, 12, v1496.toNat, 16]

def k0_chk317 (v1482 : BitVec 32) : Prop :=
  (∀ a, (k0_off706 v1482) a + S1x1x1x16.size a ≤ S2x16x8x32.size a) ∧
  (∀ a, (k0_off708 v1482) a + S1x1x1x16.size a ≤ S2x16x8x32.size a)
instance k0_chk317.dec : ∀ (v1482 : BitVec 32), Decidable (k0_chk317 v1482) := fun v1482 => decidable_of_iff' _ (Iff.of_eq (k0_chk317.eq_1 v1482))
theorem k0_off706_inb : ∀ (v1482 : BitVec 32) (k0_hw317 : k0_chk317 v1482), ∀ a, (k0_off706 v1482) a + S1x1x1x16.size a ≤ S2x16x8x32.size a := fun v1482 k0_hw317 => k0_hw317.1
theorem k0_off708_inb : ∀ (v1482 : BitVec 32) (k0_hw317 : k0_chk317 v1482), ∀ a, (k0_off708 v1482) a + S1x1x1x16.size a ≤ S2x16x8x32.size a := fun v1482 k0_hw317 => k0_hw317.2

def k0_off709 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c12_i32_1038 : BitVec 32 := 12#32
  let v1499 : BitVec 32 := Scalar.addi v1201 c12_i32_1038
  let v1500 : Index := Scalar.indexCast v1499
  let c16_1039 : Index := 16#32
  ![v1500.toNat, 16]
def k0_off710 (v1505 : BitVec 32) : Fin 4 → Nat :=
  let c1_i32_1041 : BitVec 32 := 1#32
  let v1507 : Index := Scalar.indexCast c1_i32_1041
  let c13_i32_1042 : BitVec 32 := 13#32
  let v1508 : Index := Scalar.indexCast c13_i32_1042
  let c8_i32_1040 : BitVec 32 := 8#32
  let v1506 : BitVec 32 := Scalar.remsi v1505 c8_i32_1040
  let v1509 : Index := Scalar.indexCast v1506
  let c0_1043 : Index := 0#32
  ![1, 13, v1509.toNat, 0]

def k0_off711 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1044 : BitVec 32 := 13#32
  let v1512 : BitVec 32 := Scalar.addi v1201 c13_i32_1044
  let v1513 : Index := Scalar.indexCast v1512
  let c0_1045 : Index := 0#32
  ![v1513.toNat, 0]
def k0_off712 (v1505 : BitVec 32) : Fin 4 → Nat :=
  let c1_i32_1046 : BitVec 32 := 1#32
  let v1517 : Index := Scalar.indexCast c1_i32_1046
  let c13_i32_1047 : BitVec 32 := 13#32
  let v1518 : Index := Scalar.indexCast c13_i32_1047
  let c8_i32_1040 : BitVec 32 := 8#32
  let v1506 : BitVec 32 := Scalar.remsi v1505 c8_i32_1040
  let v1519 : Index := Scalar.indexCast v1506
  let c16_1048 : Index := 16#32
  ![1, 13, v1519.toNat, 16]

def k0_chk318 (v1505 : BitVec 32) : Prop :=
  (∀ a, (k0_off710 v1505) a + S1x1x1x16.size a ≤ S2x16x8x32.size a) ∧
  (∀ a, (k0_off712 v1505) a + S1x1x1x16.size a ≤ S2x16x8x32.size a)
instance k0_chk318.dec : ∀ (v1505 : BitVec 32), Decidable (k0_chk318 v1505) := fun v1505 => decidable_of_iff' _ (Iff.of_eq (k0_chk318.eq_1 v1505))
theorem k0_off710_inb : ∀ (v1505 : BitVec 32) (k0_hw318 : k0_chk318 v1505), ∀ a, (k0_off710 v1505) a + S1x1x1x16.size a ≤ S2x16x8x32.size a := fun v1505 k0_hw318 => k0_hw318.1
theorem k0_off712_inb : ∀ (v1505 : BitVec 32) (k0_hw318 : k0_chk318 v1505), ∀ a, (k0_off712 v1505) a + S1x1x1x16.size a ≤ S2x16x8x32.size a := fun v1505 k0_hw318 => k0_hw318.2

def k0_off713 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c13_i32_1049 : BitVec 32 := 13#32
  let v1522 : BitVec 32 := Scalar.addi v1201 c13_i32_1049
  let v1523 : Index := Scalar.indexCast v1522
  let c16_1050 : Index := 16#32
  ![v1523.toNat, 16]
def k0_off714 (v1528 : BitVec 32) : Fin 4 → Nat :=
  let c1_i32_1052 : BitVec 32 := 1#32
  let v1530 : Index := Scalar.indexCast c1_i32_1052
  let c14_i32_1053 : BitVec 32 := 14#32
  let v1531 : Index := Scalar.indexCast c14_i32_1053
  let c8_i32_1051 : BitVec 32 := 8#32
  let v1529 : BitVec 32 := Scalar.remsi v1528 c8_i32_1051
  let v1532 : Index := Scalar.indexCast v1529
  let c0_1054 : Index := 0#32
  ![1, 14, v1532.toNat, 0]

def k0_off715 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1055 : BitVec 32 := 14#32
  let v1535 : BitVec 32 := Scalar.addi v1201 c14_i32_1055
  let v1536 : Index := Scalar.indexCast v1535
  let c0_1056 : Index := 0#32
  ![v1536.toNat, 0]
def k0_off716 (v1528 : BitVec 32) : Fin 4 → Nat :=
  let c1_i32_1057 : BitVec 32 := 1#32
  let v1540 : Index := Scalar.indexCast c1_i32_1057
  let c14_i32_1058 : BitVec 32 := 14#32
  let v1541 : Index := Scalar.indexCast c14_i32_1058
  let c8_i32_1051 : BitVec 32 := 8#32
  let v1529 : BitVec 32 := Scalar.remsi v1528 c8_i32_1051
  let v1542 : Index := Scalar.indexCast v1529
  let c16_1059 : Index := 16#32
  ![1, 14, v1542.toNat, 16]

def k0_chk319 (v1528 : BitVec 32) : Prop :=
  (∀ a, (k0_off714 v1528) a + S1x1x1x16.size a ≤ S2x16x8x32.size a) ∧
  (∀ a, (k0_off716 v1528) a + S1x1x1x16.size a ≤ S2x16x8x32.size a)
instance k0_chk319.dec : ∀ (v1528 : BitVec 32), Decidable (k0_chk319 v1528) := fun v1528 => decidable_of_iff' _ (Iff.of_eq (k0_chk319.eq_1 v1528))
theorem k0_off714_inb : ∀ (v1528 : BitVec 32) (k0_hw319 : k0_chk319 v1528), ∀ a, (k0_off714 v1528) a + S1x1x1x16.size a ≤ S2x16x8x32.size a := fun v1528 k0_hw319 => k0_hw319.1
theorem k0_off716_inb : ∀ (v1528 : BitVec 32) (k0_hw319 : k0_chk319 v1528), ∀ a, (k0_off716 v1528) a + S1x1x1x16.size a ≤ S2x16x8x32.size a := fun v1528 k0_hw319 => k0_hw319.2

def k0_off717 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c14_i32_1060 : BitVec 32 := 14#32
  let v1545 : BitVec 32 := Scalar.addi v1201 c14_i32_1060
  let v1546 : Index := Scalar.indexCast v1545
  let c16_1061 : Index := 16#32
  ![v1546.toNat, 16]
def k0_off718 (v1551 : BitVec 32) : Fin 4 → Nat :=
  let c1_i32_1063 : BitVec 32 := 1#32
  let v1553 : Index := Scalar.indexCast c1_i32_1063
  let c15_i32_1064 : BitVec 32 := 15#32
  let v1554 : Index := Scalar.indexCast c15_i32_1064
  let c8_i32_1062 : BitVec 32 := 8#32
  let v1552 : BitVec 32 := Scalar.remsi v1551 c8_i32_1062
  let v1555 : Index := Scalar.indexCast v1552
  let c0_1065 : Index := 0#32
  ![1, 15, v1555.toNat, 0]

def k0_off719 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1066 : BitVec 32 := 15#32
  let v1558 : BitVec 32 := Scalar.addi v1201 c15_i32_1066
  let v1559 : Index := Scalar.indexCast v1558
  let c0_1067 : Index := 0#32
  ![v1559.toNat, 0]
def k0_off720 (v1551 : BitVec 32) : Fin 4 → Nat :=
  let c1_i32_1068 : BitVec 32 := 1#32
  let v1563 : Index := Scalar.indexCast c1_i32_1068
  let c15_i32_1069 : BitVec 32 := 15#32
  let v1564 : Index := Scalar.indexCast c15_i32_1069
  let c8_i32_1062 : BitVec 32 := 8#32
  let v1552 : BitVec 32 := Scalar.remsi v1551 c8_i32_1062
  let v1565 : Index := Scalar.indexCast v1552
  let c16_1070 : Index := 16#32
  ![1, 15, v1565.toNat, 16]

def k0_chk320 (v1551 : BitVec 32) : Prop :=
  (∀ a, (k0_off718 v1551) a + S1x1x1x16.size a ≤ S2x16x8x32.size a) ∧
  (∀ a, (k0_off720 v1551) a + S1x1x1x16.size a ≤ S2x16x8x32.size a)
instance k0_chk320.dec : ∀ (v1551 : BitVec 32), Decidable (k0_chk320 v1551) := fun v1551 => decidable_of_iff' _ (Iff.of_eq (k0_chk320.eq_1 v1551))
theorem k0_off718_inb : ∀ (v1551 : BitVec 32) (k0_hw320 : k0_chk320 v1551), ∀ a, (k0_off718 v1551) a + S1x1x1x16.size a ≤ S2x16x8x32.size a := fun v1551 k0_hw320 => k0_hw320.1
theorem k0_off720_inb : ∀ (v1551 : BitVec 32) (k0_hw320 : k0_chk320 v1551), ∀ a, (k0_off720 v1551) a + S1x1x1x16.size a ≤ S2x16x8x32.size a := fun v1551 k0_hw320 => k0_hw320.2

def k0_off721 (k0_t11 : Fin k0_t11_loop.trips) : Fin 2 → Nat :=
  let c0_i32_527 : BitVec 32 := 0#32
  let c0_i32_514 : BitVec 32 := 0#32
  let c1_i32_516 : BitVec 32 := 1#32
  let arg19 : BitVec 32 := Scf.iv c0_i32_514 c1_i32_516 k0_t11
  let c1_i32_526 : BitVec 32 := 1#32
  let v609 : BitVec 32 := Scalar.muli arg19 c1_i32_526
  let v610 : BitVec 32 := Scalar.addi c0_i32_527 v609
  let c2_i32_528 : BitVec 32 := 2#32
  let v611 : BitVec 32 := Scalar.muli v610 c2_i32_528
  let c1_i32_529 : BitVec 32 := 1#32
  let v612 : BitVec 32 := Scalar.addi v611 c1_i32_529
  let c16_i32_896 : BitVec 32 := 16#32
  let v1201 : BitVec 32 := Scalar.muli v612 c16_i32_896
  let c15_i32_1071 : BitVec 32 := 15#32
  let v1568 : BitVec 32 := Scalar.addi v1201 c15_i32_1071
  let v1569 : Index := Scalar.indexCast v1568
  let c16_1072 : Index := 16#32
  ![v1569.toNat, 16]
@[reducible] def k0_t12_loop : Scf.Loop 32 :=
  let c0_i32_518 : BitVec 32 := 0#32
  let c16_i32_519 : BitVec 32 := 16#32
  let v604 : BitVec 32 := Scalar.addi c0_i32_518 c16_i32_519
  let c1_i32_520 : BitVec 32 := 1#32
  ⟨c0_i32_518, v604, c1_i32_520⟩
def k0_off722 (k0_t12 : Fin k0_t12_loop.trips) : Fin 1 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v613 : Index := Scalar.indexCast v612
  ![v613.toNat]
def k0_off723 (k0_t12 : Fin k0_t12_loop.trips) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c0_i32_529 : BitVec 32 := 0#32
  let v618 : BitVec 32 := Scalar.addi v612 c0_i32_529
  let c0_i32_530 : BitVec 32 := 0#32
  ![v618.toNat, 0]
def k0_off724 (v617 : BitVec 32) : Fin 2 → Nat :=
  let c0_i32_531 : BitVec 32 := 0#32
  ![v617.toNat, 0]

def k0_chk321 (v617 : BitVec 32) : Prop :=
  (∀ a, (k0_off724 v617) a + S1x32.size a ≤ S1000000x32.size a)
instance k0_chk321.dec : ∀ (v617 : BitVec 32), Decidable (k0_chk321 v617) := fun v617 => decidable_of_iff' _ (Iff.of_eq (k0_chk321.eq_1 v617))
theorem k0_off724_inb : ∀ (v617 : BitVec 32) (k0_hw321 : k0_chk321 v617), ∀ a, (k0_off724 v617) a + S1x32.size a ≤ S1000000x32.size a := fun v617 k0_hw321 => k0_hw321

def k0_off725 (k0_t12 : Fin k0_t12_loop.trips) (c0_i32_529 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v618 : BitVec 32 := Scalar.addi v612 c0_i32_529
  let c0_i32_532 : BitVec 32 := 0#32
  ![v618.toNat, 0]
def k0_off726 (v628 : BitVec 32) : Fin 2 → Nat :=
  let c0_i32_536 : BitVec 32 := 0#32
  ![v628.toNat, 0]

def k0_chk322 (v628 : BitVec 32) : Prop :=
  (∀ a, (k0_off726 v628) a + S1x32.size a ≤ S1000000x32.size a)
instance k0_chk322.dec : ∀ (v628 : BitVec 32), Decidable (k0_chk322 v628) := fun v628 => decidable_of_iff' _ (Iff.of_eq (k0_chk322.eq_1 v628))
theorem k0_off726_inb : ∀ (v628 : BitVec 32) (k0_hw322 : k0_chk322 v628), ∀ a, (k0_off726 v628) a + S1x32.size a ≤ S1000000x32.size a := fun v628 k0_hw322 => k0_hw322

def k0_off727 (k0_t12 : Fin k0_t12_loop.trips) (c1_i32_534 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v629 : BitVec 32 := Scalar.addi v612 c1_i32_534
  let c0_i32_537 : BitVec 32 := 0#32
  ![v629.toNat, 0]
def k0_off728 (v639 : BitVec 32) : Fin 2 → Nat :=
  let c0_i32_541 : BitVec 32 := 0#32
  ![v639.toNat, 0]

def k0_chk323 (v639 : BitVec 32) : Prop :=
  (∀ a, (k0_off728 v639) a + S1x32.size a ≤ S1000000x32.size a)
instance k0_chk323.dec : ∀ (v639 : BitVec 32), Decidable (k0_chk323 v639) := fun v639 => decidable_of_iff' _ (Iff.of_eq (k0_chk323.eq_1 v639))
theorem k0_off728_inb : ∀ (v639 : BitVec 32) (k0_hw323 : k0_chk323 v639), ∀ a, (k0_off728 v639) a + S1x32.size a ≤ S1000000x32.size a := fun v639 k0_hw323 => k0_hw323

def k0_off729 (k0_t12 : Fin k0_t12_loop.trips) (c2_i32_539 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v640 : BitVec 32 := Scalar.addi v612 c2_i32_539
  let c0_i32_542 : BitVec 32 := 0#32
  ![v640.toNat, 0]
def k0_off730 (v650 : BitVec 32) : Fin 2 → Nat :=
  let c0_i32_546 : BitVec 32 := 0#32
  ![v650.toNat, 0]

def k0_chk324 (v650 : BitVec 32) : Prop :=
  (∀ a, (k0_off730 v650) a + S1x32.size a ≤ S1000000x32.size a)
instance k0_chk324.dec : ∀ (v650 : BitVec 32), Decidable (k0_chk324 v650) := fun v650 => decidable_of_iff' _ (Iff.of_eq (k0_chk324.eq_1 v650))
theorem k0_off730_inb : ∀ (v650 : BitVec 32) (k0_hw324 : k0_chk324 v650), ∀ a, (k0_off730 v650) a + S1x32.size a ≤ S1000000x32.size a := fun v650 k0_hw324 => k0_hw324

def k0_off731 (k0_t12 : Fin k0_t12_loop.trips) (c3_i32_544 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v651 : BitVec 32 := Scalar.addi v612 c3_i32_544
  let c0_i32_547 : BitVec 32 := 0#32
  ![v651.toNat, 0]
def k0_off732 (v661 : BitVec 32) : Fin 2 → Nat :=
  let c0_i32_551 : BitVec 32 := 0#32
  ![v661.toNat, 0]

def k0_chk325 (v661 : BitVec 32) : Prop :=
  (∀ a, (k0_off732 v661) a + S1x32.size a ≤ S1000000x32.size a)
instance k0_chk325.dec : ∀ (v661 : BitVec 32), Decidable (k0_chk325 v661) := fun v661 => decidable_of_iff' _ (Iff.of_eq (k0_chk325.eq_1 v661))
theorem k0_off732_inb : ∀ (v661 : BitVec 32) (k0_hw325 : k0_chk325 v661), ∀ a, (k0_off732 v661) a + S1x32.size a ≤ S1000000x32.size a := fun v661 k0_hw325 => k0_hw325

def k0_off733 (k0_t12 : Fin k0_t12_loop.trips) (c4_i32_549 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v662 : BitVec 32 := Scalar.addi v612 c4_i32_549
  let c0_i32_552 : BitVec 32 := 0#32
  ![v662.toNat, 0]
def k0_off734 (v672 : BitVec 32) : Fin 2 → Nat :=
  let c0_i32_556 : BitVec 32 := 0#32
  ![v672.toNat, 0]

def k0_chk326 (v672 : BitVec 32) : Prop :=
  (∀ a, (k0_off734 v672) a + S1x32.size a ≤ S1000000x32.size a)
instance k0_chk326.dec : ∀ (v672 : BitVec 32), Decidable (k0_chk326 v672) := fun v672 => decidable_of_iff' _ (Iff.of_eq (k0_chk326.eq_1 v672))
theorem k0_off734_inb : ∀ (v672 : BitVec 32) (k0_hw326 : k0_chk326 v672), ∀ a, (k0_off734 v672) a + S1x32.size a ≤ S1000000x32.size a := fun v672 k0_hw326 => k0_hw326

def k0_off735 (k0_t12 : Fin k0_t12_loop.trips) (c5_i32_554 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v673 : BitVec 32 := Scalar.addi v612 c5_i32_554
  let c0_i32_557 : BitVec 32 := 0#32
  ![v673.toNat, 0]
def k0_off736 (v683 : BitVec 32) : Fin 2 → Nat :=
  let c0_i32_561 : BitVec 32 := 0#32
  ![v683.toNat, 0]

def k0_chk327 (v683 : BitVec 32) : Prop :=
  (∀ a, (k0_off736 v683) a + S1x32.size a ≤ S1000000x32.size a)
instance k0_chk327.dec : ∀ (v683 : BitVec 32), Decidable (k0_chk327 v683) := fun v683 => decidable_of_iff' _ (Iff.of_eq (k0_chk327.eq_1 v683))
theorem k0_off736_inb : ∀ (v683 : BitVec 32) (k0_hw327 : k0_chk327 v683), ∀ a, (k0_off736 v683) a + S1x32.size a ≤ S1000000x32.size a := fun v683 k0_hw327 => k0_hw327

def k0_off737 (k0_t12 : Fin k0_t12_loop.trips) (c6_i32_559 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v684 : BitVec 32 := Scalar.addi v612 c6_i32_559
  let c0_i32_562 : BitVec 32 := 0#32
  ![v684.toNat, 0]
def k0_off738 (v694 : BitVec 32) : Fin 2 → Nat :=
  let c0_i32_566 : BitVec 32 := 0#32
  ![v694.toNat, 0]

def k0_chk328 (v694 : BitVec 32) : Prop :=
  (∀ a, (k0_off738 v694) a + S1x32.size a ≤ S1000000x32.size a)
instance k0_chk328.dec : ∀ (v694 : BitVec 32), Decidable (k0_chk328 v694) := fun v694 => decidable_of_iff' _ (Iff.of_eq (k0_chk328.eq_1 v694))
theorem k0_off738_inb : ∀ (v694 : BitVec 32) (k0_hw328 : k0_chk328 v694), ∀ a, (k0_off738 v694) a + S1x32.size a ≤ S1000000x32.size a := fun v694 k0_hw328 => k0_hw328

def k0_off739 (k0_t12 : Fin k0_t12_loop.trips) (c7_i32_564 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v695 : BitVec 32 := Scalar.addi v612 c7_i32_564
  let c0_i32_567 : BitVec 32 := 0#32
  ![v695.toNat, 0]
def k0_off740 (v705 : BitVec 32) : Fin 2 → Nat :=
  let c0_i32_571 : BitVec 32 := 0#32
  ![v705.toNat, 0]

def k0_chk329 (v705 : BitVec 32) : Prop :=
  (∀ a, (k0_off740 v705) a + S1x32.size a ≤ S1000000x32.size a)
instance k0_chk329.dec : ∀ (v705 : BitVec 32), Decidable (k0_chk329 v705) := fun v705 => decidable_of_iff' _ (Iff.of_eq (k0_chk329.eq_1 v705))
theorem k0_off740_inb : ∀ (v705 : BitVec 32) (k0_hw329 : k0_chk329 v705), ∀ a, (k0_off740 v705) a + S1x32.size a ≤ S1000000x32.size a := fun v705 k0_hw329 => k0_hw329

def k0_off741 (k0_t12 : Fin k0_t12_loop.trips) (c8_i32_569 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v706 : BitVec 32 := Scalar.addi v612 c8_i32_569
  let c0_i32_572 : BitVec 32 := 0#32
  ![v706.toNat, 0]
def k0_off742 (v716 : BitVec 32) : Fin 2 → Nat :=
  let c0_i32_576 : BitVec 32 := 0#32
  ![v716.toNat, 0]

def k0_chk330 (v716 : BitVec 32) : Prop :=
  (∀ a, (k0_off742 v716) a + S1x32.size a ≤ S1000000x32.size a)
instance k0_chk330.dec : ∀ (v716 : BitVec 32), Decidable (k0_chk330 v716) := fun v716 => decidable_of_iff' _ (Iff.of_eq (k0_chk330.eq_1 v716))
theorem k0_off742_inb : ∀ (v716 : BitVec 32) (k0_hw330 : k0_chk330 v716), ∀ a, (k0_off742 v716) a + S1x32.size a ≤ S1000000x32.size a := fun v716 k0_hw330 => k0_hw330

def k0_off743 (k0_t12 : Fin k0_t12_loop.trips) (c9_i32_574 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v717 : BitVec 32 := Scalar.addi v612 c9_i32_574
  let c0_i32_577 : BitVec 32 := 0#32
  ![v717.toNat, 0]
def k0_off744 (v727 : BitVec 32) : Fin 2 → Nat :=
  let c0_i32_581 : BitVec 32 := 0#32
  ![v727.toNat, 0]

def k0_chk331 (v727 : BitVec 32) : Prop :=
  (∀ a, (k0_off744 v727) a + S1x32.size a ≤ S1000000x32.size a)
instance k0_chk331.dec : ∀ (v727 : BitVec 32), Decidable (k0_chk331 v727) := fun v727 => decidable_of_iff' _ (Iff.of_eq (k0_chk331.eq_1 v727))
theorem k0_off744_inb : ∀ (v727 : BitVec 32) (k0_hw331 : k0_chk331 v727), ∀ a, (k0_off744 v727) a + S1x32.size a ≤ S1000000x32.size a := fun v727 k0_hw331 => k0_hw331

def k0_off745 (k0_t12 : Fin k0_t12_loop.trips) (c10_i32_579 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v728 : BitVec 32 := Scalar.addi v612 c10_i32_579
  let c0_i32_582 : BitVec 32 := 0#32
  ![v728.toNat, 0]
def k0_off746 (v738 : BitVec 32) : Fin 2 → Nat :=
  let c0_i32_586 : BitVec 32 := 0#32
  ![v738.toNat, 0]

def k0_chk332 (v738 : BitVec 32) : Prop :=
  (∀ a, (k0_off746 v738) a + S1x32.size a ≤ S1000000x32.size a)
instance k0_chk332.dec : ∀ (v738 : BitVec 32), Decidable (k0_chk332 v738) := fun v738 => decidable_of_iff' _ (Iff.of_eq (k0_chk332.eq_1 v738))
theorem k0_off746_inb : ∀ (v738 : BitVec 32) (k0_hw332 : k0_chk332 v738), ∀ a, (k0_off746 v738) a + S1x32.size a ≤ S1000000x32.size a := fun v738 k0_hw332 => k0_hw332

def k0_off747 (k0_t12 : Fin k0_t12_loop.trips) (c11_i32_584 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v739 : BitVec 32 := Scalar.addi v612 c11_i32_584
  let c0_i32_587 : BitVec 32 := 0#32
  ![v739.toNat, 0]
def k0_off748 (v749 : BitVec 32) : Fin 2 → Nat :=
  let c0_i32_591 : BitVec 32 := 0#32
  ![v749.toNat, 0]

def k0_chk333 (v749 : BitVec 32) : Prop :=
  (∀ a, (k0_off748 v749) a + S1x32.size a ≤ S1000000x32.size a)
instance k0_chk333.dec : ∀ (v749 : BitVec 32), Decidable (k0_chk333 v749) := fun v749 => decidable_of_iff' _ (Iff.of_eq (k0_chk333.eq_1 v749))
theorem k0_off748_inb : ∀ (v749 : BitVec 32) (k0_hw333 : k0_chk333 v749), ∀ a, (k0_off748 v749) a + S1x32.size a ≤ S1000000x32.size a := fun v749 k0_hw333 => k0_hw333

def k0_off749 (k0_t12 : Fin k0_t12_loop.trips) (c12_i32_589 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v750 : BitVec 32 := Scalar.addi v612 c12_i32_589
  let c0_i32_592 : BitVec 32 := 0#32
  ![v750.toNat, 0]
def k0_off750 (v760 : BitVec 32) : Fin 2 → Nat :=
  let c0_i32_596 : BitVec 32 := 0#32
  ![v760.toNat, 0]

def k0_chk334 (v760 : BitVec 32) : Prop :=
  (∀ a, (k0_off750 v760) a + S1x32.size a ≤ S1000000x32.size a)
instance k0_chk334.dec : ∀ (v760 : BitVec 32), Decidable (k0_chk334 v760) := fun v760 => decidable_of_iff' _ (Iff.of_eq (k0_chk334.eq_1 v760))
theorem k0_off750_inb : ∀ (v760 : BitVec 32) (k0_hw334 : k0_chk334 v760), ∀ a, (k0_off750 v760) a + S1x32.size a ≤ S1000000x32.size a := fun v760 k0_hw334 => k0_hw334

def k0_off751 (k0_t12 : Fin k0_t12_loop.trips) (c13_i32_594 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v761 : BitVec 32 := Scalar.addi v612 c13_i32_594
  let c0_i32_597 : BitVec 32 := 0#32
  ![v761.toNat, 0]
def k0_off752 (v771 : BitVec 32) : Fin 2 → Nat :=
  let c0_i32_601 : BitVec 32 := 0#32
  ![v771.toNat, 0]

def k0_chk335 (v771 : BitVec 32) : Prop :=
  (∀ a, (k0_off752 v771) a + S1x32.size a ≤ S1000000x32.size a)
instance k0_chk335.dec : ∀ (v771 : BitVec 32), Decidable (k0_chk335 v771) := fun v771 => decidable_of_iff' _ (Iff.of_eq (k0_chk335.eq_1 v771))
theorem k0_off752_inb : ∀ (v771 : BitVec 32) (k0_hw335 : k0_chk335 v771), ∀ a, (k0_off752 v771) a + S1x32.size a ≤ S1000000x32.size a := fun v771 k0_hw335 => k0_hw335

def k0_off753 (k0_t12 : Fin k0_t12_loop.trips) (c14_i32_599 : BitVec 32) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let v772 : BitVec 32 := Scalar.addi v612 c14_i32_599
  let c0_i32_602 : BitVec 32 := 0#32
  ![v772.toNat, 0]
def k0_off754 (v782 : BitVec 32) : Fin 2 → Nat :=
  let c0_i32_606 : BitVec 32 := 0#32
  ![v782.toNat, 0]

def k0_chk336 (v782 : BitVec 32) : Prop :=
  (∀ a, (k0_off754 v782) a + S1x32.size a ≤ S1000000x32.size a)
instance k0_chk336.dec : ∀ (v782 : BitVec 32), Decidable (k0_chk336 v782) := fun v782 => decidable_of_iff' _ (Iff.of_eq (k0_chk336.eq_1 v782))
theorem k0_off754_inb : ∀ (v782 : BitVec 32) (k0_hw336 : k0_chk336 v782), ∀ a, (k0_off754 v782) a + S1x32.size a ≤ S1000000x32.size a := fun v782 k0_hw336 => k0_hw336

def k0_off755 (k0_t12 : Fin k0_t12_loop.trips) : Fin 2 → Nat :=
  let c256_i32 : BitVec 32 := 256#32
  let c0_i32_527 : BitVec 32 := 0#32
  let c0_i32_518 : BitVec 32 := 0#32
  let c1_i32_520 : BitVec 32 := 1#32
  let arg19 : BitVec 32 := Scf.iv c0_i32_518 c1_i32_520 k0_t12
  let c1_i32_526 : BitVec 32 := 1#32
  let v609 : BitVec 32 := Scalar.muli arg19 c1_i32_526
  let v610 : BitVec 32 := Scalar.addi c0_i32_527 v609
  let c16_i32_528 : BitVec 32 := 16#32
  let v611 : BitVec 32 := Scalar.muli v610 c16_i32_528
  let v612 : BitVec 32 := Scalar.addi c256_i32 v611
  let c15_i32_604 : BitVec 32 := 15#32
  let v783 : BitVec 32 := Scalar.addi v612 c15_i32_604
  let c0_i32_607 : BitVec 32 := 0#32
  ![v783.toNat, 0]
def k0_off756 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_522 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  squeezes_S1x32_S32 : S1x32.Squeezes S32
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S256_S16_0 : ∀ a, (![0] : Fin 1 → Nat) a + S16.size a ≤ S256.size a
  inb_S2x16x8x32_S1x1x8x32_0_0_0_0 : ∀ a, (![0, 0, 0, 0] : Fin 4 → Nat) a + S1x1x8x32.size a ≤ S2x16x8x32.size a
  squeezes_S1x1x8x32_S8x32 : S1x1x8x32.Squeezes S8x32
  reshapes_S1000000x32_S125000x8x32 : S125000x8x32.numel = S1000000x32.numel ∧ (2 ≤ S1000000x32.rank ∧ 2 ≤ S125000x8x32.rank)
  squeezes_S1x8x32_S8x32 : S1x8x32.Squeezes S8x32
  inb_S2x16x8x32_S1x1x8x32_0_1_0_0 : ∀ a, (![0, 1, 0, 0] : Fin 4 → Nat) a + S1x1x8x32.size a ≤ S2x16x8x32.size a
  inb_S2x16x8x32_S1x1x8x32_0_2_0_0 : ∀ a, (![0, 2, 0, 0] : Fin 4 → Nat) a + S1x1x8x32.size a ≤ S2x16x8x32.size a
  inb_S2x16x8x32_S1x1x8x32_0_3_0_0 : ∀ a, (![0, 3, 0, 0] : Fin 4 → Nat) a + S1x1x8x32.size a ≤ S2x16x8x32.size a
  inb_S2x16x8x32_S1x1x8x32_0_4_0_0 : ∀ a, (![0, 4, 0, 0] : Fin 4 → Nat) a + S1x1x8x32.size a ≤ S2x16x8x32.size a
  inb_S2x16x8x32_S1x1x8x32_0_5_0_0 : ∀ a, (![0, 5, 0, 0] : Fin 4 → Nat) a + S1x1x8x32.size a ≤ S2x16x8x32.size a
  inb_S2x16x8x32_S1x1x8x32_0_6_0_0 : ∀ a, (![0, 6, 0, 0] : Fin 4 → Nat) a + S1x1x8x32.size a ≤ S2x16x8x32.size a
  inb_S2x16x8x32_S1x1x8x32_0_7_0_0 : ∀ a, (![0, 7, 0, 0] : Fin 4 → Nat) a + S1x1x8x32.size a ≤ S2x16x8x32.size a
  inb_S2x16x8x32_S1x1x8x32_0_8_0_0 : ∀ a, (![0, 8, 0, 0] : Fin 4 → Nat) a + S1x1x8x32.size a ≤ S2x16x8x32.size a
  inb_S2x16x8x32_S1x1x8x32_0_9_0_0 : ∀ a, (![0, 9, 0, 0] : Fin 4 → Nat) a + S1x1x8x32.size a ≤ S2x16x8x32.size a
  inb_S2x16x8x32_S1x1x8x32_0_10_0_0 : ∀ a, (![0, 10, 0, 0] : Fin 4 → Nat) a + S1x1x8x32.size a ≤ S2x16x8x32.size a
  inb_S2x16x8x32_S1x1x8x32_0_11_0_0 : ∀ a, (![0, 11, 0, 0] : Fin 4 → Nat) a + S1x1x8x32.size a ≤ S2x16x8x32.size a
  inb_S2x16x8x32_S1x1x8x32_0_12_0_0 : ∀ a, (![0, 12, 0, 0] : Fin 4 → Nat) a + S1x1x8x32.size a ≤ S2x16x8x32.size a
  inb_S2x16x8x32_S1x1x8x32_0_13_0_0 : ∀ a, (![0, 13, 0, 0] : Fin 4 → Nat) a + S1x1x8x32.size a ≤ S2x16x8x32.size a
  inb_S2x16x8x32_S1x1x8x32_0_14_0_0 : ∀ a, (![0, 14, 0, 0] : Fin 4 → Nat) a + S1x1x8x32.size a ≤ S2x16x8x32.size a
  inb_S2x16x8x32_S1x1x8x32_0_15_0_0 : ∀ a, (![0, 15, 0, 0] : Fin 4 → Nat) a + S1x1x8x32.size a ≤ S2x16x8x32.size a
  inb_S2x16x8x32_S1x1x8x32_1_0_0_0 : ∀ a, (![1, 0, 0, 0] : Fin 4 → Nat) a + S1x1x8x32.size a ≤ S2x16x8x32.size a
  inb_S2x16x8x32_S1x1x8x32_1_1_0_0 : ∀ a, (![1, 1, 0, 0] : Fin 4 → Nat) a + S1x1x8x32.size a ≤ S2x16x8x32.size a
  inb_S2x16x8x32_S1x1x8x32_1_2_0_0 : ∀ a, (![1, 2, 0, 0] : Fin 4 → Nat) a + S1x1x8x32.size a ≤ S2x16x8x32.size a
  inb_S2x16x8x32_S1x1x8x32_1_3_0_0 : ∀ a, (![1, 3, 0, 0] : Fin 4 → Nat) a + S1x1x8x32.size a ≤ S2x16x8x32.size a
  inb_S2x16x8x32_S1x1x8x32_1_4_0_0 : ∀ a, (![1, 4, 0, 0] : Fin 4 → Nat) a + S1x1x8x32.size a ≤ S2x16x8x32.size a
  inb_S2x16x8x32_S1x1x8x32_1_5_0_0 : ∀ a, (![1, 5, 0, 0] : Fin 4 → Nat) a + S1x1x8x32.size a ≤ S2x16x8x32.size a
  inb_S2x16x8x32_S1x1x8x32_1_6_0_0 : ∀ a, (![1, 6, 0, 0] : Fin 4 → Nat) a + S1x1x8x32.size a ≤ S2x16x8x32.size a
  inb_S2x16x8x32_S1x1x8x32_1_7_0_0 : ∀ a, (![1, 7, 0, 0] : Fin 4 → Nat) a + S1x1x8x32.size a ≤ S2x16x8x32.size a
  inb_S2x16x8x32_S1x1x8x32_1_8_0_0 : ∀ a, (![1, 8, 0, 0] : Fin 4 → Nat) a + S1x1x8x32.size a ≤ S2x16x8x32.size a
  inb_S2x16x8x32_S1x1x8x32_1_9_0_0 : ∀ a, (![1, 9, 0, 0] : Fin 4 → Nat) a + S1x1x8x32.size a ≤ S2x16x8x32.size a
  inb_S2x16x8x32_S1x1x8x32_1_10_0_0 : ∀ a, (![1, 10, 0, 0] : Fin 4 → Nat) a + S1x1x8x32.size a ≤ S2x16x8x32.size a
  inb_S2x16x8x32_S1x1x8x32_1_11_0_0 : ∀ a, (![1, 11, 0, 0] : Fin 4 → Nat) a + S1x1x8x32.size a ≤ S2x16x8x32.size a
  inb_S2x16x8x32_S1x1x8x32_1_12_0_0 : ∀ a, (![1, 12, 0, 0] : Fin 4 → Nat) a + S1x1x8x32.size a ≤ S2x16x8x32.size a
  inb_S2x16x8x32_S1x1x8x32_1_13_0_0 : ∀ a, (![1, 13, 0, 0] : Fin 4 → Nat) a + S1x1x8x32.size a ≤ S2x16x8x32.size a
  inb_S2x16x8x32_S1x1x8x32_1_14_0_0 : ∀ a, (![1, 14, 0, 0] : Fin 4 → Nat) a + S1x1x8x32.size a ≤ S2x16x8x32.size a
  inb_S2x16x8x32_S1x1x8x32_1_15_0_0 : ∀ a, (![1, 15, 0, 0] : Fin 4 → Nat) a + S1x1x8x32.size a ≤ S2x16x8x32.size a
  inb_S2x16x8x32_S1x16x8x32_0_0_0_0 : ∀ a, (![0, 0, 0, 0] : Fin 4 → Nat) a + S1x16x8x32.size a ≤ S2x16x8x32.size a
  squeezes_S1x16x8x32_S16x8x32 : S1x16x8x32.Squeezes S16x8x32
  inb_S125000x8x32_S16x8x32_0_0_0 : ∀ a, (![0, 0, 0] : Fin 3 → Nat) a + S16x8x32.size a ≤ S125000x8x32.size a
  h_S1x1x1x16 : 0 < S1x1x1x16.numel
  shapeCasts_S1x1x1x16_S16 : S1x1x1x16.ShapeCasts S16
  h_S1x16 : 0 < S1x16.numel
  shapeCasts_S1x16_S16 : S1x16.ShapeCasts S16
  shapeCasts_S16_S1x16 : S16.ShapeCasts S1x16
  inb_S2x16x8x32_S1x16x8x32_1_0_0_0 : ∀ a, (![1, 0, 0, 0] : Fin 4 → Nat) a + S1x16x8x32.size a ≤ S2x16x8x32.size a
  reshapes_S100000x32_S12500x8x32 : S12500x8x32.numel = S100000x32.numel ∧ (2 ≤ S100000x32.rank ∧ 2 ≤ S12500x8x32.rank)
  inb_S12500x8x32_S16x8x32_0_0_0 : ∀ a, (![0, 0, 0] : Fin 3 → Nat) a + S16x8x32.size a ≤ S12500x8x32.size a
  hcc0_scratch4 : 0 + S_.numel ≤ 7
  hcc0_scratch5 : 1 + S_.numel ≤ 7
  hcc0_scratch6 : 2 + S_.numel ≤ 7
  hcc0_scratch7 : 3 + S_.numel ≤ 7
  hcc0_scoped0 : 4 + S_.numel ≤ 7
  hcc0_scoped1 : 5 + S_.numel ≤ 7
  hcc0_scoped2 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S16.size a ≤ S256.size a
  k0_t2_ok : k0_t2_loop.OK
  k0_off4_inb : ∀ k0_t2 : Fin k0_t2_loop.trips, ∀ a, (k0_off4 k0_t2) a + S16.size a ≤ S512.size a
  k0_off5_inb : ∀ k0_t2 : Fin k0_t2_loop.trips, ∀ a, (k0_off5 k0_t2) a + S1x32.size a ≤ S512x32.size a
  k0_off7_inb : ∀ k0_t2 : Fin k0_t2_loop.trips, ∀ (r : Fin 2), ∀ a, (k0_off7 k0_t2 (BitVec.ofNat 32 r.val)) a + S1x32.size a ≤ S512x32.size a
  k0_off9_inb : ∀ k0_t2 : Fin k0_t2_loop.trips, ∀ (r : Fin 2), ∀ a, (k0_off9 k0_t2 (BitVec.ofNat 32 (1 + r.val))) a + S1x32.size a ≤ S512x32.size a
  k0_off11_inb : ∀ k0_t2 : Fin k0_t2_loop.trips, ∀ (r : Fin 2), ∀ a, (k0_off11 k0_t2 (BitVec.ofNat 32 (2 + r.val))) a + S1x32.size a ≤ S512x32.size a
  k0_off13_inb : ∀ k0_t2 : Fin k0_t2_loop.trips, ∀ (r : Fin 2), ∀ a, (k0_off13 k0_t2 (BitVec.ofNat 32 (3 + r.val))) a + S1x32.size a ≤ S512x32.size a
  k0_off15_inb : ∀ k0_t2 : Fin k0_t2_loop.trips, ∀ (r : Fin 2), ∀ a, (k0_off15 k0_t2 (BitVec.ofNat 32 (4 + r.val))) a + S1x32.size a ≤ S512x32.size a
  k0_off17_inb : ∀ k0_t2 : Fin k0_t2_loop.trips, ∀ (r : Fin 2), ∀ a, (k0_off17 k0_t2 (BitVec.ofNat 32 (5 + r.val))) a + S1x32.size a ≤ S512x32.size a
  k0_off19_inb : ∀ k0_t2 : Fin k0_t2_loop.trips, ∀ (r : Fin 2), ∀ a, (k0_off19 k0_t2 (BitVec.ofNat 32 (6 + r.val))) a + S1x32.size a ≤ S512x32.size a
  k0_off21_inb : ∀ k0_t2 : Fin k0_t2_loop.trips, ∀ (r : Fin 2), ∀ a, (k0_off21 k0_t2 (BitVec.ofNat 32 (7 + r.val))) a + S1x32.size a ≤ S512x32.size a
  k0_off23_inb : ∀ k0_t2 : Fin k0_t2_loop.trips, ∀ (r : Fin 2), ∀ a, (k0_off23 k0_t2 (BitVec.ofNat 32 (8 + r.val))) a + S1x32.size a ≤ S512x32.size a
  k0_off25_inb : ∀ k0_t2 : Fin k0_t2_loop.trips, ∀ (r : Fin 2), ∀ a, (k0_off25 k0_t2 (BitVec.ofNat 32 (9 + r.val))) a + S1x32.size a ≤ S512x32.size a
  k0_off27_inb : ∀ k0_t2 : Fin k0_t2_loop.trips, ∀ (r : Fin 2), ∀ a, (k0_off27 k0_t2 (BitVec.ofNat 32 (10 + r.val))) a + S1x32.size a ≤ S512x32.size a
  k0_off29_inb : ∀ k0_t2 : Fin k0_t2_loop.trips, ∀ (r : Fin 2), ∀ a, (k0_off29 k0_t2 (BitVec.ofNat 32 (11 + r.val))) a + S1x32.size a ≤ S512x32.size a
  k0_off31_inb : ∀ k0_t2 : Fin k0_t2_loop.trips, ∀ (r : Fin 2), ∀ a, (k0_off31 k0_t2 (BitVec.ofNat 32 (12 + r.val))) a + S1x32.size a ≤ S512x32.size a
  k0_off33_inb : ∀ k0_t2 : Fin k0_t2_loop.trips, ∀ (r : Fin 2), ∀ a, (k0_off33 k0_t2 (BitVec.ofNat 32 (13 + r.val))) a + S1x32.size a ≤ S512x32.size a
  k0_off35_inb : ∀ k0_t2 : Fin k0_t2_loop.trips, ∀ (r : Fin 2), ∀ a, (k0_off35 k0_t2 (BitVec.ofNat 32 (14 + r.val))) a + S1x32.size a ≤ S512x32.size a
  k0_off37_inb : ∀ k0_t2 : Fin k0_t2_loop.trips, ∀ a, (k0_off37 k0_t2) a + S1x32.size a ≤ S512x32.size a
  k0_t3_ok : k0_t3_loop.OK
  k0_off54_inb : ∀ k0_t3 : Fin k0_t3_loop.trips, ∀ a, (k0_off54 k0_t3) a + S16.size a ≤ S256.size a
  k0_off71_inb : ∀ k0_t3 : Fin k0_t3_loop.trips, ∀ a, (k0_off71 k0_t3) a + S16.size a ≤ S512.size a
  k0_off73_inb : ∀ k0_t3 : Fin k0_t3_loop.trips, ∀ a, (k0_off73 k0_t3) a + S1x16.size a ≤ S512x32.size a
  k0_off75_inb : ∀ k0_t3 : Fin k0_t3_loop.trips, ∀ a, (k0_off75 k0_t3) a + S1x16.size a ≤ S512x32.size a
  k0_off77_inb : ∀ k0_t3 : Fin k0_t3_loop.trips, ∀ a, (k0_off77 k0_t3) a + S1x16.size a ≤ S512x32.size a
  k0_off79_inb : ∀ k0_t3 : Fin k0_t3_loop.trips, ∀ a, (k0_off79 k0_t3) a + S1x16.size a ≤ S512x32.size a
  k0_off81_inb : ∀ k0_t3 : Fin k0_t3_loop.trips, ∀ a, (k0_off81 k0_t3) a + S1x16.size a ≤ S512x32.size a
  k0_off83_inb : ∀ k0_t3 : Fin k0_t3_loop.trips, ∀ a, (k0_off83 k0_t3) a + S1x16.size a ≤ S512x32.size a
  k0_off85_inb : ∀ k0_t3 : Fin k0_t3_loop.trips, ∀ a, (k0_off85 k0_t3) a + S1x16.size a ≤ S512x32.size a
  k0_off87_inb : ∀ k0_t3 : Fin k0_t3_loop.trips, ∀ a, (k0_off87 k0_t3) a + S1x16.size a ≤ S512x32.size a
  k0_off89_inb : ∀ k0_t3 : Fin k0_t3_loop.trips, ∀ a, (k0_off89 k0_t3) a + S1x16.size a ≤ S512x32.size a
  k0_off91_inb : ∀ k0_t3 : Fin k0_t3_loop.trips, ∀ a, (k0_off91 k0_t3) a + S1x16.size a ≤ S512x32.size a
  k0_off93_inb : ∀ k0_t3 : Fin k0_t3_loop.trips, ∀ a, (k0_off93 k0_t3) a + S1x16.size a ≤ S512x32.size a
  k0_off95_inb : ∀ k0_t3 : Fin k0_t3_loop.trips, ∀ a, (k0_off95 k0_t3) a + S1x16.size a ≤ S512x32.size a
  k0_off97_inb : ∀ k0_t3 : Fin k0_t3_loop.trips, ∀ a, (k0_off97 k0_t3) a + S1x16.size a ≤ S512x32.size a
  k0_off99_inb : ∀ k0_t3 : Fin k0_t3_loop.trips, ∀ a, (k0_off99 k0_t3) a + S1x16.size a ≤ S512x32.size a
  k0_off101_inb : ∀ k0_t3 : Fin k0_t3_loop.trips, ∀ a, (k0_off101 k0_t3) a + S1x16.size a ≤ S512x32.size a
  k0_off103_inb : ∀ k0_t3 : Fin k0_t3_loop.trips, ∀ a, (k0_off103 k0_t3) a + S1x16.size a ≤ S512x32.size a
  k0_off105_inb : ∀ k0_t3 : Fin k0_t3_loop.trips, ∀ a, (k0_off105 k0_t3) a + S1x16.size a ≤ S512x32.size a
  k0_off107_inb : ∀ k0_t3 : Fin k0_t3_loop.trips, ∀ a, (k0_off107 k0_t3) a + S1x16.size a ≤ S512x32.size a
  k0_off109_inb : ∀ k0_t3 : Fin k0_t3_loop.trips, ∀ a, (k0_off109 k0_t3) a + S1x16.size a ≤ S512x32.size a
  k0_off111_inb : ∀ k0_t3 : Fin k0_t3_loop.trips, ∀ a, (k0_off111 k0_t3) a + S1x16.size a ≤ S512x32.size a
  k0_off113_inb : ∀ k0_t3 : Fin k0_t3_loop.trips, ∀ a, (k0_off113 k0_t3) a + S1x16.size a ≤ S512x32.size a
  k0_off115_inb : ∀ k0_t3 : Fin k0_t3_loop.trips, ∀ a, (k0_off115 k0_t3) a + S1x16.size a ≤ S512x32.size a
  k0_off117_inb : ∀ k0_t3 : Fin k0_t3_loop.trips, ∀ a, (k0_off117 k0_t3) a + S1x16.size a ≤ S512x32.size a
  k0_off119_inb : ∀ k0_t3 : Fin k0_t3_loop.trips, ∀ a, (k0_off119 k0_t3) a + S1x16.size a ≤ S512x32.size a
  k0_off121_inb : ∀ k0_t3 : Fin k0_t3_loop.trips, ∀ a, (k0_off121 k0_t3) a + S1x16.size a ≤ S512x32.size a
  k0_off123_inb : ∀ k0_t3 : Fin k0_t3_loop.trips, ∀ a, (k0_off123 k0_t3) a + S1x16.size a ≤ S512x32.size a
  k0_off125_inb : ∀ k0_t3 : Fin k0_t3_loop.trips, ∀ a, (k0_off125 k0_t3) a + S1x16.size a ≤ S512x32.size a
  k0_off127_inb : ∀ k0_t3 : Fin k0_t3_loop.trips, ∀ a, (k0_off127 k0_t3) a + S1x16.size a ≤ S512x32.size a
  k0_off129_inb : ∀ k0_t3 : Fin k0_t3_loop.trips, ∀ a, (k0_off129 k0_t3) a + S1x16.size a ≤ S512x32.size a
  k0_off131_inb : ∀ k0_t3 : Fin k0_t3_loop.trips, ∀ a, (k0_off131 k0_t3) a + S1x16.size a ≤ S512x32.size a
  k0_off133_inb : ∀ k0_t3 : Fin k0_t3_loop.trips, ∀ a, (k0_off133 k0_t3) a + S1x16.size a ≤ S512x32.size a
  k0_off135_inb : ∀ k0_t3 : Fin k0_t3_loop.trips, ∀ a, (k0_off135 k0_t3) a + S1x16.size a ≤ S512x32.size a
  k0_off136_inb : ∀ k0_t3 : Fin k0_t3_loop.trips, ∀ (k0_h1 : k0_cond1 k0_t3 = 1#1), ∀ a, (k0_off136 k0_t3) a + S16.size a ≤ S256.size a
  k0_off153_inb : ∀ k0_t3 : Fin k0_t3_loop.trips, ∀ a, (k0_off153 k0_t3) a + S16.size a ≤ S512.size a
  k0_off155_inb : ∀ k0_t3 : Fin k0_t3_loop.trips, ∀ a, (k0_off155 k0_t3) a + S1x16.size a ≤ S512x32.size a
  k0_off157_inb : ∀ k0_t3 : Fin k0_t3_loop.trips, ∀ a, (k0_off157 k0_t3) a + S1x16.size a ≤ S512x32.size a
  k0_off159_inb : ∀ k0_t3 : Fin k0_t3_loop.trips, ∀ a, (k0_off159 k0_t3) a + S1x16.size a ≤ S512x32.size a
  k0_off161_inb : ∀ k0_t3 : Fin k0_t3_loop.trips, ∀ a, (k0_off161 k0_t3) a + S1x16.size a ≤ S512x32.size a
  k0_off163_inb : ∀ k0_t3 : Fin k0_t3_loop.trips, ∀ a, (k0_off163 k0_t3) a + S1x16.size a ≤ S512x32.size a
  k0_off165_inb : ∀ k0_t3 : Fin k0_t3_loop.trips, ∀ a, (k0_off165 k0_t3) a + S1x16.size a ≤ S512x32.size a
  k0_off167_inb : ∀ k0_t3 : Fin k0_t3_loop.trips, ∀ a, (k0_off167 k0_t3) a + S1x16.size a ≤ S512x32.size a
  k0_off169_inb : ∀ k0_t3 : Fin k0_t3_loop.trips, ∀ a, (k0_off169 k0_t3) a + S1x16.size a ≤ S512x32.size a
  k0_off171_inb : ∀ k0_t3 : Fin k0_t3_loop.trips, ∀ a, (k0_off171 k0_t3) a + S1x16.size a ≤ S512x32.size a
  k0_off173_inb : ∀ k0_t3 : Fin k0_t3_loop.trips, ∀ a, (k0_off173 k0_t3) a + S1x16.size a ≤ S512x32.size a
  k0_off175_inb : ∀ k0_t3 : Fin k0_t3_loop.trips, ∀ a, (k0_off175 k0_t3) a + S1x16.size a ≤ S512x32.size a
  k0_off177_inb : ∀ k0_t3 : Fin k0_t3_loop.trips, ∀ a, (k0_off177 k0_t3) a + S1x16.size a ≤ S512x32.size a
  k0_off179_inb : ∀ k0_t3 : Fin k0_t3_loop.trips, ∀ a, (k0_off179 k0_t3) a + S1x16.size a ≤ S512x32.size a
  k0_off181_inb : ∀ k0_t3 : Fin k0_t3_loop.trips, ∀ a, (k0_off181 k0_t3) a + S1x16.size a ≤ S512x32.size a
  k0_off183_inb : ∀ k0_t3 : Fin k0_t3_loop.trips, ∀ a, (k0_off183 k0_t3) a + S1x16.size a ≤ S512x32.size a
  k0_off185_inb : ∀ k0_t3 : Fin k0_t3_loop.trips, ∀ a, (k0_off185 k0_t3) a + S1x16.size a ≤ S512x32.size a
  k0_off187_inb : ∀ k0_t3 : Fin k0_t3_loop.trips, ∀ a, (k0_off187 k0_t3) a + S1x16.size a ≤ S512x32.size a
  k0_off189_inb : ∀ k0_t3 : Fin k0_t3_loop.trips, ∀ a, (k0_off189 k0_t3) a + S1x16.size a ≤ S512x32.size a
  k0_off191_inb : ∀ k0_t3 : Fin k0_t3_loop.trips, ∀ a, (k0_off191 k0_t3) a + S1x16.size a ≤ S512x32.size a
  k0_off193_inb : ∀ k0_t3 : Fin k0_t3_loop.trips, ∀ a, (k0_off193 k0_t3) a + S1x16.size a ≤ S512x32.size a
  k0_off195_inb : ∀ k0_t3 : Fin k0_t3_loop.trips, ∀ a, (k0_off195 k0_t3) a + S1x16.size a ≤ S512x32.size a
  k0_off197_inb : ∀ k0_t3 : Fin k0_t3_loop.trips, ∀ a, (k0_off197 k0_t3) a + S1x16.size a ≤ S512x32.size a
  k0_off199_inb : ∀ k0_t3 : Fin k0_t3_loop.trips, ∀ a, (k0_off199 k0_t3) a + S1x16.size a ≤ S512x32.size a
  k0_off201_inb : ∀ k0_t3 : Fin k0_t3_loop.trips, ∀ a, (k0_off201 k0_t3) a + S1x16.size a ≤ S512x32.size a
  k0_off203_inb : ∀ k0_t3 : Fin k0_t3_loop.trips, ∀ a, (k0_off203 k0_t3) a + S1x16.size a ≤ S512x32.size a
  k0_off205_inb : ∀ k0_t3 : Fin k0_t3_loop.trips, ∀ a, (k0_off205 k0_t3) a + S1x16.size a ≤ S512x32.size a
  k0_off207_inb : ∀ k0_t3 : Fin k0_t3_loop.trips, ∀ a, (k0_off207 k0_t3) a + S1x16.size a ≤ S512x32.size a
  k0_off209_inb : ∀ k0_t3 : Fin k0_t3_loop.trips, ∀ a, (k0_off209 k0_t3) a + S1x16.size a ≤ S512x32.size a
  k0_off211_inb : ∀ k0_t3 : Fin k0_t3_loop.trips, ∀ a, (k0_off211 k0_t3) a + S1x16.size a ≤ S512x32.size a
  k0_off213_inb : ∀ k0_t3 : Fin k0_t3_loop.trips, ∀ a, (k0_off213 k0_t3) a + S1x16.size a ≤ S512x32.size a
  k0_off215_inb : ∀ k0_t3 : Fin k0_t3_loop.trips, ∀ a, (k0_off215 k0_t3) a + S1x16.size a ≤ S512x32.size a
  k0_off217_inb : ∀ k0_t3 : Fin k0_t3_loop.trips, ∀ a, (k0_off217 k0_t3) a + S1x16.size a ≤ S512x32.size a
  k0_t4_ok : k0_t4_loop.OK
  k0_off218_inb : ∀ k0_t4 : Fin k0_t4_loop.trips, ∀ a, (k0_off218 k0_t4) a + S16.size a ≤ S512.size a
  k0_off219_inb : ∀ k0_t4 : Fin k0_t4_loop.trips, ∀ a, (k0_off219 k0_t4) a + S1x32.size a ≤ S512x32.size a
  k0_off221_inb : ∀ k0_t4 : Fin k0_t4_loop.trips, ∀ (r : Fin 2), ∀ a, (k0_off221 k0_t4 (BitVec.ofNat 32 r.val)) a + S1x32.size a ≤ S512x32.size a
  k0_off223_inb : ∀ k0_t4 : Fin k0_t4_loop.trips, ∀ (r : Fin 2), ∀ a, (k0_off223 k0_t4 (BitVec.ofNat 32 (1 + r.val))) a + S1x32.size a ≤ S512x32.size a
  k0_off225_inb : ∀ k0_t4 : Fin k0_t4_loop.trips, ∀ (r : Fin 2), ∀ a, (k0_off225 k0_t4 (BitVec.ofNat 32 (2 + r.val))) a + S1x32.size a ≤ S512x32.size a
  k0_off227_inb : ∀ k0_t4 : Fin k0_t4_loop.trips, ∀ (r : Fin 2), ∀ a, (k0_off227 k0_t4 (BitVec.ofNat 32 (3 + r.val))) a + S1x32.size a ≤ S512x32.size a
  k0_off229_inb : ∀ k0_t4 : Fin k0_t4_loop.trips, ∀ (r : Fin 2), ∀ a, (k0_off229 k0_t4 (BitVec.ofNat 32 (4 + r.val))) a + S1x32.size a ≤ S512x32.size a
  k0_off231_inb : ∀ k0_t4 : Fin k0_t4_loop.trips, ∀ (r : Fin 2), ∀ a, (k0_off231 k0_t4 (BitVec.ofNat 32 (5 + r.val))) a + S1x32.size a ≤ S512x32.size a
  k0_off233_inb : ∀ k0_t4 : Fin k0_t4_loop.trips, ∀ (r : Fin 2), ∀ a, (k0_off233 k0_t4 (BitVec.ofNat 32 (6 + r.val))) a + S1x32.size a ≤ S512x32.size a
  k0_off235_inb : ∀ k0_t4 : Fin k0_t4_loop.trips, ∀ (r : Fin 2), ∀ a, (k0_off235 k0_t4 (BitVec.ofNat 32 (7 + r.val))) a + S1x32.size a ≤ S512x32.size a
  k0_off237_inb : ∀ k0_t4 : Fin k0_t4_loop.trips, ∀ (r : Fin 2), ∀ a, (k0_off237 k0_t4 (BitVec.ofNat 32 (8 + r.val))) a + S1x32.size a ≤ S512x32.size a
  k0_off239_inb : ∀ k0_t4 : Fin k0_t4_loop.trips, ∀ (r : Fin 2), ∀ a, (k0_off239 k0_t4 (BitVec.ofNat 32 (9 + r.val))) a + S1x32.size a ≤ S512x32.size a
  k0_off241_inb : ∀ k0_t4 : Fin k0_t4_loop.trips, ∀ (r : Fin 2), ∀ a, (k0_off241 k0_t4 (BitVec.ofNat 32 (10 + r.val))) a + S1x32.size a ≤ S512x32.size a
  k0_off243_inb : ∀ k0_t4 : Fin k0_t4_loop.trips, ∀ (r : Fin 2), ∀ a, (k0_off243 k0_t4 (BitVec.ofNat 32 (11 + r.val))) a + S1x32.size a ≤ S512x32.size a
  k0_off245_inb : ∀ k0_t4 : Fin k0_t4_loop.trips, ∀ (r : Fin 2), ∀ a, (k0_off245 k0_t4 (BitVec.ofNat 32 (12 + r.val))) a + S1x32.size a ≤ S512x32.size a
  k0_off247_inb : ∀ k0_t4 : Fin k0_t4_loop.trips, ∀ (r : Fin 2), ∀ a, (k0_off247 k0_t4 (BitVec.ofNat 32 (13 + r.val))) a + S1x32.size a ≤ S512x32.size a
  k0_off249_inb : ∀ k0_t4 : Fin k0_t4_loop.trips, ∀ (r : Fin 2), ∀ a, (k0_off249 k0_t4 (BitVec.ofNat 32 (14 + r.val))) a + S1x32.size a ≤ S512x32.size a
  k0_off251_inb : ∀ k0_t4 : Fin k0_t4_loop.trips, ∀ a, (k0_off251 k0_t4) a + S1x32.size a ≤ S512x32.size a
  k0_off252_inb : ∀ i : grid0.Coords, ∀ a, (k0_off252 i) a + S512x32.size a ≤ S16384x32.size a
  k0_off253_inb : ∀ i : grid0.Coords, ∀ a, (k0_off253 i) a + S512.size a ≤ S16384.size a
  k0_t5_ok : k0_t5_loop.OK
  k0_off254_inb : ∀ k0_t5 : Fin k0_t5_loop.trips, ∀ a, (k0_off254 k0_t5) a + S16.size a ≤ S512.size a
  k0_off255_inb : ∀ k0_t5 : Fin k0_t5_loop.trips, ∀ a, (k0_off255 k0_t5) a + S16.size a ≤ S256.size a
  k0_t6_ok : k0_t6_loop.OK
  k0_off256_inb : ∀ k0_t6 : Fin k0_t6_loop.trips, ∀ a, (k0_off256 k0_t6) a + S16.size a ≤ S512.size a
  k0_off257_inb : ∀ k0_t6 : Fin k0_t6_loop.trips, ∀ a, (k0_off257 k0_t6) a + S1x32.size a ≤ S512x32.size a
  k0_off259_inb : ∀ k0_t6 : Fin k0_t6_loop.trips, ∀ (r : Fin 2), ∀ a, (k0_off259 k0_t6 (BitVec.ofNat 32 r.val)) a + S1x32.size a ≤ S512x32.size a
  k0_off261_inb : ∀ k0_t6 : Fin k0_t6_loop.trips, ∀ (r : Fin 2), ∀ a, (k0_off261 k0_t6 (BitVec.ofNat 32 (1 + r.val))) a + S1x32.size a ≤ S512x32.size a
  k0_off263_inb : ∀ k0_t6 : Fin k0_t6_loop.trips, ∀ (r : Fin 2), ∀ a, (k0_off263 k0_t6 (BitVec.ofNat 32 (2 + r.val))) a + S1x32.size a ≤ S512x32.size a
  k0_off265_inb : ∀ k0_t6 : Fin k0_t6_loop.trips, ∀ (r : Fin 2), ∀ a, (k0_off265 k0_t6 (BitVec.ofNat 32 (3 + r.val))) a + S1x32.size a ≤ S512x32.size a
  k0_off267_inb : ∀ k0_t6 : Fin k0_t6_loop.trips, ∀ (r : Fin 2), ∀ a, (k0_off267 k0_t6 (BitVec.ofNat 32 (4 + r.val))) a + S1x32.size a ≤ S512x32.size a
  k0_off269_inb : ∀ k0_t6 : Fin k0_t6_loop.trips, ∀ (r : Fin 2), ∀ a, (k0_off269 k0_t6 (BitVec.ofNat 32 (5 + r.val))) a + S1x32.size a ≤ S512x32.size a
  k0_off271_inb : ∀ k0_t6 : Fin k0_t6_loop.trips, ∀ (r : Fin 2), ∀ a, (k0_off271 k0_t6 (BitVec.ofNat 32 (6 + r.val))) a + S1x32.size a ≤ S512x32.size a
  k0_off273_inb : ∀ k0_t6 : Fin k0_t6_loop.trips, ∀ (r : Fin 2), ∀ a, (k0_off273 k0_t6 (BitVec.ofNat 32 (7 + r.val))) a + S1x32.size a ≤ S512x32.size a
  k0_off275_inb : ∀ k0_t6 : Fin k0_t6_loop.trips, ∀ (r : Fin 2), ∀ a, (k0_off275 k0_t6 (BitVec.ofNat 32 (8 + r.val))) a + S1x32.size a ≤ S512x32.size a
  k0_off277_inb : ∀ k0_t6 : Fin k0_t6_loop.trips, ∀ (r : Fin 2), ∀ a, (k0_off277 k0_t6 (BitVec.ofNat 32 (9 + r.val))) a + S1x32.size a ≤ S512x32.size a
  k0_off279_inb : ∀ k0_t6 : Fin k0_t6_loop.trips, ∀ (r : Fin 2), ∀ a, (k0_off279 k0_t6 (BitVec.ofNat 32 (10 + r.val))) a + S1x32.size a ≤ S512x32.size a
  k0_off281_inb : ∀ k0_t6 : Fin k0_t6_loop.trips, ∀ (r : Fin 2), ∀ a, (k0_off281 k0_t6 (BitVec.ofNat 32 (11 + r.val))) a + S1x32.size a ≤ S512x32.size a
  k0_off283_inb : ∀ k0_t6 : Fin k0_t6_loop.trips, ∀ (r : Fin 2), ∀ a, (k0_off283 k0_t6 (BitVec.ofNat 32 (12 + r.val))) a + S1x32.size a ≤ S512x32.size a
  k0_off285_inb : ∀ k0_t6 : Fin k0_t6_loop.trips, ∀ (r : Fin 2), ∀ a, (k0_off285 k0_t6 (BitVec.ofNat 32 (13 + r.val))) a + S1x32.size a ≤ S512x32.size a
  k0_off287_inb : ∀ k0_t6 : Fin k0_t6_loop.trips, ∀ (r : Fin 2), ∀ a, (k0_off287 k0_t6 (BitVec.ofNat 32 (14 + r.val))) a + S1x32.size a ≤ S512x32.size a
  k0_off289_inb : ∀ k0_t6 : Fin k0_t6_loop.trips, ∀ a, (k0_off289 k0_t6) a + S1x32.size a ≤ S512x32.size a
  k0_t7_ok : k0_t7_loop.OK
  k0_off306_inb : ∀ k0_t7 : Fin k0_t7_loop.trips, ∀ a, (k0_off306 k0_t7) a + S16.size a ≤ S256.size a
  k0_off323_inb : ∀ k0_t7 : Fin k0_t7_loop.trips, ∀ a, (k0_off323 k0_t7) a + S16.size a ≤ S512.size a
  k0_off325_inb : ∀ k0_t7 : Fin k0_t7_loop.trips, ∀ a, (k0_off325 k0_t7) a + S1x16.size a ≤ S512x32.size a
  k0_off327_inb : ∀ k0_t7 : Fin k0_t7_loop.trips, ∀ a, (k0_off327 k0_t7) a + S1x16.size a ≤ S512x32.size a
  k0_off329_inb : ∀ k0_t7 : Fin k0_t7_loop.trips, ∀ a, (k0_off329 k0_t7) a + S1x16.size a ≤ S512x32.size a
  k0_off331_inb : ∀ k0_t7 : Fin k0_t7_loop.trips, ∀ a, (k0_off331 k0_t7) a + S1x16.size a ≤ S512x32.size a
  k0_off333_inb : ∀ k0_t7 : Fin k0_t7_loop.trips, ∀ a, (k0_off333 k0_t7) a + S1x16.size a ≤ S512x32.size a
  k0_off335_inb : ∀ k0_t7 : Fin k0_t7_loop.trips, ∀ a, (k0_off335 k0_t7) a + S1x16.size a ≤ S512x32.size a
  k0_off337_inb : ∀ k0_t7 : Fin k0_t7_loop.trips, ∀ a, (k0_off337 k0_t7) a + S1x16.size a ≤ S512x32.size a
  k0_off339_inb : ∀ k0_t7 : Fin k0_t7_loop.trips, ∀ a, (k0_off339 k0_t7) a + S1x16.size a ≤ S512x32.size a
  k0_off341_inb : ∀ k0_t7 : Fin k0_t7_loop.trips, ∀ a, (k0_off341 k0_t7) a + S1x16.size a ≤ S512x32.size a
  k0_off343_inb : ∀ k0_t7 : Fin k0_t7_loop.trips, ∀ a, (k0_off343 k0_t7) a + S1x16.size a ≤ S512x32.size a
  k0_off345_inb : ∀ k0_t7 : Fin k0_t7_loop.trips, ∀ a, (k0_off345 k0_t7) a + S1x16.size a ≤ S512x32.size a
  k0_off347_inb : ∀ k0_t7 : Fin k0_t7_loop.trips, ∀ a, (k0_off347 k0_t7) a + S1x16.size a ≤ S512x32.size a
  k0_off349_inb : ∀ k0_t7 : Fin k0_t7_loop.trips, ∀ a, (k0_off349 k0_t7) a + S1x16.size a ≤ S512x32.size a
  k0_off351_inb : ∀ k0_t7 : Fin k0_t7_loop.trips, ∀ a, (k0_off351 k0_t7) a + S1x16.size a ≤ S512x32.size a
  k0_off353_inb : ∀ k0_t7 : Fin k0_t7_loop.trips, ∀ a, (k0_off353 k0_t7) a + S1x16.size a ≤ S512x32.size a
  k0_off355_inb : ∀ k0_t7 : Fin k0_t7_loop.trips, ∀ a, (k0_off355 k0_t7) a + S1x16.size a ≤ S512x32.size a
  k0_off357_inb : ∀ k0_t7 : Fin k0_t7_loop.trips, ∀ a, (k0_off357 k0_t7) a + S1x16.size a ≤ S512x32.size a
  k0_off359_inb : ∀ k0_t7 : Fin k0_t7_loop.trips, ∀ a, (k0_off359 k0_t7) a + S1x16.size a ≤ S512x32.size a
  k0_off361_inb : ∀ k0_t7 : Fin k0_t7_loop.trips, ∀ a, (k0_off361 k0_t7) a + S1x16.size a ≤ S512x32.size a
  k0_off363_inb : ∀ k0_t7 : Fin k0_t7_loop.trips, ∀ a, (k0_off363 k0_t7) a + S1x16.size a ≤ S512x32.size a
  k0_off365_inb : ∀ k0_t7 : Fin k0_t7_loop.trips, ∀ a, (k0_off365 k0_t7) a + S1x16.size a ≤ S512x32.size a
  k0_off367_inb : ∀ k0_t7 : Fin k0_t7_loop.trips, ∀ a, (k0_off367 k0_t7) a + S1x16.size a ≤ S512x32.size a
  k0_off369_inb : ∀ k0_t7 : Fin k0_t7_loop.trips, ∀ a, (k0_off369 k0_t7) a + S1x16.size a ≤ S512x32.size a
  k0_off371_inb : ∀ k0_t7 : Fin k0_t7_loop.trips, ∀ a, (k0_off371 k0_t7) a + S1x16.size a ≤ S512x32.size a
  k0_off373_inb : ∀ k0_t7 : Fin k0_t7_loop.trips, ∀ a, (k0_off373 k0_t7) a + S1x16.size a ≤ S512x32.size a
  k0_off375_inb : ∀ k0_t7 : Fin k0_t7_loop.trips, ∀ a, (k0_off375 k0_t7) a + S1x16.size a ≤ S512x32.size a
  k0_off377_inb : ∀ k0_t7 : Fin k0_t7_loop.trips, ∀ a, (k0_off377 k0_t7) a + S1x16.size a ≤ S512x32.size a
  k0_off379_inb : ∀ k0_t7 : Fin k0_t7_loop.trips, ∀ a, (k0_off379 k0_t7) a + S1x16.size a ≤ S512x32.size a
  k0_off381_inb : ∀ k0_t7 : Fin k0_t7_loop.trips, ∀ a, (k0_off381 k0_t7) a + S1x16.size a ≤ S512x32.size a
  k0_off383_inb : ∀ k0_t7 : Fin k0_t7_loop.trips, ∀ a, (k0_off383 k0_t7) a + S1x16.size a ≤ S512x32.size a
  k0_off385_inb : ∀ k0_t7 : Fin k0_t7_loop.trips, ∀ a, (k0_off385 k0_t7) a + S1x16.size a ≤ S512x32.size a
  k0_off387_inb : ∀ k0_t7 : Fin k0_t7_loop.trips, ∀ a, (k0_off387 k0_t7) a + S1x16.size a ≤ S512x32.size a
  k0_off388_inb : ∀ k0_t7 : Fin k0_t7_loop.trips, ∀ (k0_h2 : k0_cond2 k0_t7 = 1#1), ∀ a, (k0_off388 k0_t7) a + S16.size a ≤ S256.size a
  k0_off405_inb : ∀ k0_t7 : Fin k0_t7_loop.trips, ∀ a, (k0_off405 k0_t7) a + S16.size a ≤ S512.size a
  k0_off407_inb : ∀ k0_t7 : Fin k0_t7_loop.trips, ∀ a, (k0_off407 k0_t7) a + S1x16.size a ≤ S512x32.size a
  k0_off409_inb : ∀ k0_t7 : Fin k0_t7_loop.trips, ∀ a, (k0_off409 k0_t7) a + S1x16.size a ≤ S512x32.size a
  k0_off411_inb : ∀ k0_t7 : Fin k0_t7_loop.trips, ∀ a, (k0_off411 k0_t7) a + S1x16.size a ≤ S512x32.size a
  k0_off413_inb : ∀ k0_t7 : Fin k0_t7_loop.trips, ∀ a, (k0_off413 k0_t7) a + S1x16.size a ≤ S512x32.size a
  k0_off415_inb : ∀ k0_t7 : Fin k0_t7_loop.trips, ∀ a, (k0_off415 k0_t7) a + S1x16.size a ≤ S512x32.size a
  k0_off417_inb : ∀ k0_t7 : Fin k0_t7_loop.trips, ∀ a, (k0_off417 k0_t7) a + S1x16.size a ≤ S512x32.size a
  k0_off419_inb : ∀ k0_t7 : Fin k0_t7_loop.trips, ∀ a, (k0_off419 k0_t7) a + S1x16.size a ≤ S512x32.size a
  k0_off421_inb : ∀ k0_t7 : Fin k0_t7_loop.trips, ∀ a, (k0_off421 k0_t7) a + S1x16.size a ≤ S512x32.size a
  k0_off423_inb : ∀ k0_t7 : Fin k0_t7_loop.trips, ∀ a, (k0_off423 k0_t7) a + S1x16.size a ≤ S512x32.size a
  k0_off425_inb : ∀ k0_t7 : Fin k0_t7_loop.trips, ∀ a, (k0_off425 k0_t7) a + S1x16.size a ≤ S512x32.size a
  k0_off427_inb : ∀ k0_t7 : Fin k0_t7_loop.trips, ∀ a, (k0_off427 k0_t7) a + S1x16.size a ≤ S512x32.size a
  k0_off429_inb : ∀ k0_t7 : Fin k0_t7_loop.trips, ∀ a, (k0_off429 k0_t7) a + S1x16.size a ≤ S512x32.size a
  k0_off431_inb : ∀ k0_t7 : Fin k0_t7_loop.trips, ∀ a, (k0_off431 k0_t7) a + S1x16.size a ≤ S512x32.size a
  k0_off433_inb : ∀ k0_t7 : Fin k0_t7_loop.trips, ∀ a, (k0_off433 k0_t7) a + S1x16.size a ≤ S512x32.size a
  k0_off435_inb : ∀ k0_t7 : Fin k0_t7_loop.trips, ∀ a, (k0_off435 k0_t7) a + S1x16.size a ≤ S512x32.size a
  k0_off437_inb : ∀ k0_t7 : Fin k0_t7_loop.trips, ∀ a, (k0_off437 k0_t7) a + S1x16.size a ≤ S512x32.size a
  k0_off439_inb : ∀ k0_t7 : Fin k0_t7_loop.trips, ∀ a, (k0_off439 k0_t7) a + S1x16.size a ≤ S512x32.size a
  k0_off441_inb : ∀ k0_t7 : Fin k0_t7_loop.trips, ∀ a, (k0_off441 k0_t7) a + S1x16.size a ≤ S512x32.size a
  k0_off443_inb : ∀ k0_t7 : Fin k0_t7_loop.trips, ∀ a, (k0_off443 k0_t7) a + S1x16.size a ≤ S512x32.size a
  k0_off445_inb : ∀ k0_t7 : Fin k0_t7_loop.trips, ∀ a, (k0_off445 k0_t7) a + S1x16.size a ≤ S512x32.size a
  k0_off447_inb : ∀ k0_t7 : Fin k0_t7_loop.trips, ∀ a, (k0_off447 k0_t7) a + S1x16.size a ≤ S512x32.size a
  k0_off449_inb : ∀ k0_t7 : Fin k0_t7_loop.trips, ∀ a, (k0_off449 k0_t7) a + S1x16.size a ≤ S512x32.size a
  k0_off451_inb : ∀ k0_t7 : Fin k0_t7_loop.trips, ∀ a, (k0_off451 k0_t7) a + S1x16.size a ≤ S512x32.size a
  k0_off453_inb : ∀ k0_t7 : Fin k0_t7_loop.trips, ∀ a, (k0_off453 k0_t7) a + S1x16.size a ≤ S512x32.size a
  k0_off455_inb : ∀ k0_t7 : Fin k0_t7_loop.trips, ∀ a, (k0_off455 k0_t7) a + S1x16.size a ≤ S512x32.size a
  k0_off457_inb : ∀ k0_t7 : Fin k0_t7_loop.trips, ∀ a, (k0_off457 k0_t7) a + S1x16.size a ≤ S512x32.size a
  k0_off459_inb : ∀ k0_t7 : Fin k0_t7_loop.trips, ∀ a, (k0_off459 k0_t7) a + S1x16.size a ≤ S512x32.size a
  k0_off461_inb : ∀ k0_t7 : Fin k0_t7_loop.trips, ∀ a, (k0_off461 k0_t7) a + S1x16.size a ≤ S512x32.size a
  k0_off463_inb : ∀ k0_t7 : Fin k0_t7_loop.trips, ∀ a, (k0_off463 k0_t7) a + S1x16.size a ≤ S512x32.size a
  k0_off465_inb : ∀ k0_t7 : Fin k0_t7_loop.trips, ∀ a, (k0_off465 k0_t7) a + S1x16.size a ≤ S512x32.size a
  k0_off467_inb : ∀ k0_t7 : Fin k0_t7_loop.trips, ∀ a, (k0_off467 k0_t7) a + S1x16.size a ≤ S512x32.size a
  k0_off469_inb : ∀ k0_t7 : Fin k0_t7_loop.trips, ∀ a, (k0_off469 k0_t7) a + S1x16.size a ≤ S512x32.size a
  k0_t8_ok : k0_t8_loop.OK
  k0_off470_inb : ∀ k0_t8 : Fin k0_t8_loop.trips, ∀ a, (k0_off470 k0_t8) a + S16.size a ≤ S512.size a
  k0_off471_inb : ∀ k0_t8 : Fin k0_t8_loop.trips, ∀ a, (k0_off471 k0_t8) a + S1x32.size a ≤ S512x32.size a
  k0_off473_inb : ∀ k0_t8 : Fin k0_t8_loop.trips, ∀ (r : Fin 2), ∀ a, (k0_off473 k0_t8 (BitVec.ofNat 32 r.val)) a + S1x32.size a ≤ S512x32.size a
  k0_off475_inb : ∀ k0_t8 : Fin k0_t8_loop.trips, ∀ (r : Fin 2), ∀ a, (k0_off475 k0_t8 (BitVec.ofNat 32 (1 + r.val))) a + S1x32.size a ≤ S512x32.size a
  k0_off477_inb : ∀ k0_t8 : Fin k0_t8_loop.trips, ∀ (r : Fin 2), ∀ a, (k0_off477 k0_t8 (BitVec.ofNat 32 (2 + r.val))) a + S1x32.size a ≤ S512x32.size a
  k0_off479_inb : ∀ k0_t8 : Fin k0_t8_loop.trips, ∀ (r : Fin 2), ∀ a, (k0_off479 k0_t8 (BitVec.ofNat 32 (3 + r.val))) a + S1x32.size a ≤ S512x32.size a
  k0_off481_inb : ∀ k0_t8 : Fin k0_t8_loop.trips, ∀ (r : Fin 2), ∀ a, (k0_off481 k0_t8 (BitVec.ofNat 32 (4 + r.val))) a + S1x32.size a ≤ S512x32.size a
  k0_off483_inb : ∀ k0_t8 : Fin k0_t8_loop.trips, ∀ (r : Fin 2), ∀ a, (k0_off483 k0_t8 (BitVec.ofNat 32 (5 + r.val))) a + S1x32.size a ≤ S512x32.size a
  k0_off485_inb : ∀ k0_t8 : Fin k0_t8_loop.trips, ∀ (r : Fin 2), ∀ a, (k0_off485 k0_t8 (BitVec.ofNat 32 (6 + r.val))) a + S1x32.size a ≤ S512x32.size a
  k0_off487_inb : ∀ k0_t8 : Fin k0_t8_loop.trips, ∀ (r : Fin 2), ∀ a, (k0_off487 k0_t8 (BitVec.ofNat 32 (7 + r.val))) a + S1x32.size a ≤ S512x32.size a
  k0_off489_inb : ∀ k0_t8 : Fin k0_t8_loop.trips, ∀ (r : Fin 2), ∀ a, (k0_off489 k0_t8 (BitVec.ofNat 32 (8 + r.val))) a + S1x32.size a ≤ S512x32.size a
  k0_off491_inb : ∀ k0_t8 : Fin k0_t8_loop.trips, ∀ (r : Fin 2), ∀ a, (k0_off491 k0_t8 (BitVec.ofNat 32 (9 + r.val))) a + S1x32.size a ≤ S512x32.size a
  k0_off493_inb : ∀ k0_t8 : Fin k0_t8_loop.trips, ∀ (r : Fin 2), ∀ a, (k0_off493 k0_t8 (BitVec.ofNat 32 (10 + r.val))) a + S1x32.size a ≤ S512x32.size a
  k0_off495_inb : ∀ k0_t8 : Fin k0_t8_loop.trips, ∀ (r : Fin 2), ∀ a, (k0_off495 k0_t8 (BitVec.ofNat 32 (11 + r.val))) a + S1x32.size a ≤ S512x32.size a
  k0_off497_inb : ∀ k0_t8 : Fin k0_t8_loop.trips, ∀ (r : Fin 2), ∀ a, (k0_off497 k0_t8 (BitVec.ofNat 32 (12 + r.val))) a + S1x32.size a ≤ S512x32.size a
  k0_off499_inb : ∀ k0_t8 : Fin k0_t8_loop.trips, ∀ (r : Fin 2), ∀ a, (k0_off499 k0_t8 (BitVec.ofNat 32 (13 + r.val))) a + S1x32.size a ≤ S512x32.size a
  k0_off501_inb : ∀ k0_t8 : Fin k0_t8_loop.trips, ∀ (r : Fin 2), ∀ a, (k0_off501 k0_t8 (BitVec.ofNat 32 (14 + r.val))) a + S1x32.size a ≤ S512x32.size a
  k0_off503_inb : ∀ k0_t8 : Fin k0_t8_loop.trips, ∀ a, (k0_off503 k0_t8) a + S1x32.size a ≤ S512x32.size a
  k0_off504_inb : ∀ i : grid0.Coords, ∀ a, (k0_off504 i) a + S512x32.size a ≤ S16384x32.size a
  k0_off505_inb : ∀ i : grid0.Coords, ∀ a, (k0_off505 i) a + S512.size a ≤ S16384.size a
  k0_t9_ok : k0_t9_loop.OK
  k0_off506_inb : ∀ k0_t9 : Fin k0_t9_loop.trips, ∀ a, (k0_off506 k0_t9) a + S16.size a ≤ S512.size a
  k0_off507_inb : ∀ k0_t9 : Fin k0_t9_loop.trips, ∀ a, (k0_off507 k0_t9) a + S16.size a ≤ S256.size a
  k0_t10_ok : k0_t10_loop.OK
  k0_off508_inb : ∀ k0_t10 : Fin k0_t10_loop.trips, ∀ a, (k0_off508 k0_t10) a + S16.size a ≤ S512.size a
  k0_off509_inb : ∀ k0_t10 : Fin k0_t10_loop.trips, ∀ a, (k0_off509 k0_t10) a + S1x32.size a ≤ S512x32.size a
  k0_off511_inb : ∀ k0_t10 : Fin k0_t10_loop.trips, ∀ (r : Fin 2), ∀ a, (k0_off511 k0_t10 (BitVec.ofNat 32 r.val)) a + S1x32.size a ≤ S512x32.size a
  k0_off513_inb : ∀ k0_t10 : Fin k0_t10_loop.trips, ∀ (r : Fin 2), ∀ a, (k0_off513 k0_t10 (BitVec.ofNat 32 (1 + r.val))) a + S1x32.size a ≤ S512x32.size a
  k0_off515_inb : ∀ k0_t10 : Fin k0_t10_loop.trips, ∀ (r : Fin 2), ∀ a, (k0_off515 k0_t10 (BitVec.ofNat 32 (2 + r.val))) a + S1x32.size a ≤ S512x32.size a
  k0_off517_inb : ∀ k0_t10 : Fin k0_t10_loop.trips, ∀ (r : Fin 2), ∀ a, (k0_off517 k0_t10 (BitVec.ofNat 32 (3 + r.val))) a + S1x32.size a ≤ S512x32.size a
  k0_off519_inb : ∀ k0_t10 : Fin k0_t10_loop.trips, ∀ (r : Fin 2), ∀ a, (k0_off519 k0_t10 (BitVec.ofNat 32 (4 + r.val))) a + S1x32.size a ≤ S512x32.size a
  k0_off521_inb : ∀ k0_t10 : Fin k0_t10_loop.trips, ∀ (r : Fin 2), ∀ a, (k0_off521 k0_t10 (BitVec.ofNat 32 (5 + r.val))) a + S1x32.size a ≤ S512x32.size a
  k0_off523_inb : ∀ k0_t10 : Fin k0_t10_loop.trips, ∀ (r : Fin 2), ∀ a, (k0_off523 k0_t10 (BitVec.ofNat 32 (6 + r.val))) a + S1x32.size a ≤ S512x32.size a
  k0_off525_inb : ∀ k0_t10 : Fin k0_t10_loop.trips, ∀ (r : Fin 2), ∀ a, (k0_off525 k0_t10 (BitVec.ofNat 32 (7 + r.val))) a + S1x32.size a ≤ S512x32.size a
  k0_off527_inb : ∀ k0_t10 : Fin k0_t10_loop.trips, ∀ (r : Fin 2), ∀ a, (k0_off527 k0_t10 (BitVec.ofNat 32 (8 + r.val))) a + S1x32.size a ≤ S512x32.size a
  k0_off529_inb : ∀ k0_t10 : Fin k0_t10_loop.trips, ∀ (r : Fin 2), ∀ a, (k0_off529 k0_t10 (BitVec.ofNat 32 (9 + r.val))) a + S1x32.size a ≤ S512x32.size a
  k0_off531_inb : ∀ k0_t10 : Fin k0_t10_loop.trips, ∀ (r : Fin 2), ∀ a, (k0_off531 k0_t10 (BitVec.ofNat 32 (10 + r.val))) a + S1x32.size a ≤ S512x32.size a
  k0_off533_inb : ∀ k0_t10 : Fin k0_t10_loop.trips, ∀ (r : Fin 2), ∀ a, (k0_off533 k0_t10 (BitVec.ofNat 32 (11 + r.val))) a + S1x32.size a ≤ S512x32.size a
  k0_off535_inb : ∀ k0_t10 : Fin k0_t10_loop.trips, ∀ (r : Fin 2), ∀ a, (k0_off535 k0_t10 (BitVec.ofNat 32 (12 + r.val))) a + S1x32.size a ≤ S512x32.size a
  k0_off537_inb : ∀ k0_t10 : Fin k0_t10_loop.trips, ∀ (r : Fin 2), ∀ a, (k0_off537 k0_t10 (BitVec.ofNat 32 (13 + r.val))) a + S1x32.size a ≤ S512x32.size a
  k0_off539_inb : ∀ k0_t10 : Fin k0_t10_loop.trips, ∀ (r : Fin 2), ∀ a, (k0_off539 k0_t10 (BitVec.ofNat 32 (14 + r.val))) a + S1x32.size a ≤ S512x32.size a
  k0_off541_inb : ∀ k0_t10 : Fin k0_t10_loop.trips, ∀ a, (k0_off541 k0_t10) a + S1x32.size a ≤ S512x32.size a
  k0_t11_ok : k0_t11_loop.OK
  k0_off558_inb : ∀ k0_t11 : Fin k0_t11_loop.trips, ∀ a, (k0_off558 k0_t11) a + S16.size a ≤ S256.size a
  k0_off575_inb : ∀ k0_t11 : Fin k0_t11_loop.trips, ∀ a, (k0_off575 k0_t11) a + S16.size a ≤ S512.size a
  k0_off577_inb : ∀ k0_t11 : Fin k0_t11_loop.trips, ∀ a, (k0_off577 k0_t11) a + S1x16.size a ≤ S512x32.size a
  k0_off579_inb : ∀ k0_t11 : Fin k0_t11_loop.trips, ∀ a, (k0_off579 k0_t11) a + S1x16.size a ≤ S512x32.size a
  k0_off581_inb : ∀ k0_t11 : Fin k0_t11_loop.trips, ∀ a, (k0_off581 k0_t11) a + S1x16.size a ≤ S512x32.size a
  k0_off583_inb : ∀ k0_t11 : Fin k0_t11_loop.trips, ∀ a, (k0_off583 k0_t11) a + S1x16.size a ≤ S512x32.size a
  k0_off585_inb : ∀ k0_t11 : Fin k0_t11_loop.trips, ∀ a, (k0_off585 k0_t11) a + S1x16.size a ≤ S512x32.size a
  k0_off587_inb : ∀ k0_t11 : Fin k0_t11_loop.trips, ∀ a, (k0_off587 k0_t11) a + S1x16.size a ≤ S512x32.size a
  k0_off589_inb : ∀ k0_t11 : Fin k0_t11_loop.trips, ∀ a, (k0_off589 k0_t11) a + S1x16.size a ≤ S512x32.size a
  k0_off591_inb : ∀ k0_t11 : Fin k0_t11_loop.trips, ∀ a, (k0_off591 k0_t11) a + S1x16.size a ≤ S512x32.size a
  k0_off593_inb : ∀ k0_t11 : Fin k0_t11_loop.trips, ∀ a, (k0_off593 k0_t11) a + S1x16.size a ≤ S512x32.size a
  k0_off595_inb : ∀ k0_t11 : Fin k0_t11_loop.trips, ∀ a, (k0_off595 k0_t11) a + S1x16.size a ≤ S512x32.size a
  k0_off597_inb : ∀ k0_t11 : Fin k0_t11_loop.trips, ∀ a, (k0_off597 k0_t11) a + S1x16.size a ≤ S512x32.size a
  k0_off599_inb : ∀ k0_t11 : Fin k0_t11_loop.trips, ∀ a, (k0_off599 k0_t11) a + S1x16.size a ≤ S512x32.size a
  k0_off601_inb : ∀ k0_t11 : Fin k0_t11_loop.trips, ∀ a, (k0_off601 k0_t11) a + S1x16.size a ≤ S512x32.size a
  k0_off603_inb : ∀ k0_t11 : Fin k0_t11_loop.trips, ∀ a, (k0_off603 k0_t11) a + S1x16.size a ≤ S512x32.size a
  k0_off605_inb : ∀ k0_t11 : Fin k0_t11_loop.trips, ∀ a, (k0_off605 k0_t11) a + S1x16.size a ≤ S512x32.size a
  k0_off607_inb : ∀ k0_t11 : Fin k0_t11_loop.trips, ∀ a, (k0_off607 k0_t11) a + S1x16.size a ≤ S512x32.size a
  k0_off609_inb : ∀ k0_t11 : Fin k0_t11_loop.trips, ∀ a, (k0_off609 k0_t11) a + S1x16.size a ≤ S512x32.size a
  k0_off611_inb : ∀ k0_t11 : Fin k0_t11_loop.trips, ∀ a, (k0_off611 k0_t11) a + S1x16.size a ≤ S512x32.size a
  k0_off613_inb : ∀ k0_t11 : Fin k0_t11_loop.trips, ∀ a, (k0_off613 k0_t11) a + S1x16.size a ≤ S512x32.size a
  k0_off615_inb : ∀ k0_t11 : Fin k0_t11_loop.trips, ∀ a, (k0_off615 k0_t11) a + S1x16.size a ≤ S512x32.size a
  k0_off617_inb : ∀ k0_t11 : Fin k0_t11_loop.trips, ∀ a, (k0_off617 k0_t11) a + S1x16.size a ≤ S512x32.size a
  k0_off619_inb : ∀ k0_t11 : Fin k0_t11_loop.trips, ∀ a, (k0_off619 k0_t11) a + S1x16.size a ≤ S512x32.size a
  k0_off621_inb : ∀ k0_t11 : Fin k0_t11_loop.trips, ∀ a, (k0_off621 k0_t11) a + S1x16.size a ≤ S512x32.size a
  k0_off623_inb : ∀ k0_t11 : Fin k0_t11_loop.trips, ∀ a, (k0_off623 k0_t11) a + S1x16.size a ≤ S512x32.size a
  k0_off625_inb : ∀ k0_t11 : Fin k0_t11_loop.trips, ∀ a, (k0_off625 k0_t11) a + S1x16.size a ≤ S512x32.size a
  k0_off627_inb : ∀ k0_t11 : Fin k0_t11_loop.trips, ∀ a, (k0_off627 k0_t11) a + S1x16.size a ≤ S512x32.size a
  k0_off629_inb : ∀ k0_t11 : Fin k0_t11_loop.trips, ∀ a, (k0_off629 k0_t11) a + S1x16.size a ≤ S512x32.size a
  k0_off631_inb : ∀ k0_t11 : Fin k0_t11_loop.trips, ∀ a, (k0_off631 k0_t11) a + S1x16.size a ≤ S512x32.size a
  k0_off633_inb : ∀ k0_t11 : Fin k0_t11_loop.trips, ∀ a, (k0_off633 k0_t11) a + S1x16.size a ≤ S512x32.size a
  k0_off635_inb : ∀ k0_t11 : Fin k0_t11_loop.trips, ∀ a, (k0_off635 k0_t11) a + S1x16.size a ≤ S512x32.size a
  k0_off637_inb : ∀ k0_t11 : Fin k0_t11_loop.trips, ∀ a, (k0_off637 k0_t11) a + S1x16.size a ≤ S512x32.size a
  k0_off639_inb : ∀ k0_t11 : Fin k0_t11_loop.trips, ∀ a, (k0_off639 k0_t11) a + S1x16.size a ≤ S512x32.size a
  k0_off640_inb : ∀ k0_t11 : Fin k0_t11_loop.trips, ∀ (k0_h3 : k0_cond3 k0_t11 = 1#1), ∀ a, (k0_off640 k0_t11) a + S16.size a ≤ S256.size a
  k0_off657_inb : ∀ k0_t11 : Fin k0_t11_loop.trips, ∀ a, (k0_off657 k0_t11) a + S16.size a ≤ S512.size a
  k0_off659_inb : ∀ k0_t11 : Fin k0_t11_loop.trips, ∀ a, (k0_off659 k0_t11) a + S1x16.size a ≤ S512x32.size a
  k0_off661_inb : ∀ k0_t11 : Fin k0_t11_loop.trips, ∀ a, (k0_off661 k0_t11) a + S1x16.size a ≤ S512x32.size a
  k0_off663_inb : ∀ k0_t11 : Fin k0_t11_loop.trips, ∀ a, (k0_off663 k0_t11) a + S1x16.size a ≤ S512x32.size a
  k0_off665_inb : ∀ k0_t11 : Fin k0_t11_loop.trips, ∀ a, (k0_off665 k0_t11) a + S1x16.size a ≤ S512x32.size a
  k0_off667_inb : ∀ k0_t11 : Fin k0_t11_loop.trips, ∀ a, (k0_off667 k0_t11) a + S1x16.size a ≤ S512x32.size a
  k0_off669_inb : ∀ k0_t11 : Fin k0_t11_loop.trips, ∀ a, (k0_off669 k0_t11) a + S1x16.size a ≤ S512x32.size a
  k0_off671_inb : ∀ k0_t11 : Fin k0_t11_loop.trips, ∀ a, (k0_off671 k0_t11) a + S1x16.size a ≤ S512x32.size a
  k0_off673_inb : ∀ k0_t11 : Fin k0_t11_loop.trips, ∀ a, (k0_off673 k0_t11) a + S1x16.size a ≤ S512x32.size a
  k0_off675_inb : ∀ k0_t11 : Fin k0_t11_loop.trips, ∀ a, (k0_off675 k0_t11) a + S1x16.size a ≤ S512x32.size a
  k0_off677_inb : ∀ k0_t11 : Fin k0_t11_loop.trips, ∀ a, (k0_off677 k0_t11) a + S1x16.size a ≤ S512x32.size a
  k0_off679_inb : ∀ k0_t11 : Fin k0_t11_loop.trips, ∀ a, (k0_off679 k0_t11) a + S1x16.size a ≤ S512x32.size a
  k0_off681_inb : ∀ k0_t11 : Fin k0_t11_loop.trips, ∀ a, (k0_off681 k0_t11) a + S1x16.size a ≤ S512x32.size a
  k0_off683_inb : ∀ k0_t11 : Fin k0_t11_loop.trips, ∀ a, (k0_off683 k0_t11) a + S1x16.size a ≤ S512x32.size a
  k0_off685_inb : ∀ k0_t11 : Fin k0_t11_loop.trips, ∀ a, (k0_off685 k0_t11) a + S1x16.size a ≤ S512x32.size a
  k0_off687_inb : ∀ k0_t11 : Fin k0_t11_loop.trips, ∀ a, (k0_off687 k0_t11) a + S1x16.size a ≤ S512x32.size a
  k0_off689_inb : ∀ k0_t11 : Fin k0_t11_loop.trips, ∀ a, (k0_off689 k0_t11) a + S1x16.size a ≤ S512x32.size a
  k0_off691_inb : ∀ k0_t11 : Fin k0_t11_loop.trips, ∀ a, (k0_off691 k0_t11) a + S1x16.size a ≤ S512x32.size a
  k0_off693_inb : ∀ k0_t11 : Fin k0_t11_loop.trips, ∀ a, (k0_off693 k0_t11) a + S1x16.size a ≤ S512x32.size a
  k0_off695_inb : ∀ k0_t11 : Fin k0_t11_loop.trips, ∀ a, (k0_off695 k0_t11) a + S1x16.size a ≤ S512x32.size a
  k0_off697_inb : ∀ k0_t11 : Fin k0_t11_loop.trips, ∀ a, (k0_off697 k0_t11) a + S1x16.size a ≤ S512x32.size a
  k0_off699_inb : ∀ k0_t11 : Fin k0_t11_loop.trips, ∀ a, (k0_off699 k0_t11) a + S1x16.size a ≤ S512x32.size a
  k0_off701_inb : ∀ k0_t11 : Fin k0_t11_loop.trips, ∀ a, (k0_off701 k0_t11) a + S1x16.size a ≤ S512x32.size a
  k0_off703_inb : ∀ k0_t11 : Fin k0_t11_loop.trips, ∀ a, (k0_off703 k0_t11) a + S1x16.size a ≤ S512x32.size a
  k0_off705_inb : ∀ k0_t11 : Fin k0_t11_loop.trips, ∀ a, (k0_off705 k0_t11) a + S1x16.size a ≤ S512x32.size a
  k0_off707_inb : ∀ k0_t11 : Fin k0_t11_loop.trips, ∀ a, (k0_off707 k0_t11) a + S1x16.size a ≤ S512x32.size a
  k0_off709_inb : ∀ k0_t11 : Fin k0_t11_loop.trips, ∀ a, (k0_off709 k0_t11) a + S1x16.size a ≤ S512x32.size a
  k0_off711_inb : ∀ k0_t11 : Fin k0_t11_loop.trips, ∀ a, (k0_off711 k0_t11) a + S1x16.size a ≤ S512x32.size a
  k0_off713_inb : ∀ k0_t11 : Fin k0_t11_loop.trips, ∀ a, (k0_off713 k0_t11) a + S1x16.size a ≤ S512x32.size a
  k0_off715_inb : ∀ k0_t11 : Fin k0_t11_loop.trips, ∀ a, (k0_off715 k0_t11) a + S1x16.size a ≤ S512x32.size a
  k0_off717_inb : ∀ k0_t11 : Fin k0_t11_loop.trips, ∀ a, (k0_off717 k0_t11) a + S1x16.size a ≤ S512x32.size a
  k0_off719_inb : ∀ k0_t11 : Fin k0_t11_loop.trips, ∀ a, (k0_off719 k0_t11) a + S1x16.size a ≤ S512x32.size a
  k0_off721_inb : ∀ k0_t11 : Fin k0_t11_loop.trips, ∀ a, (k0_off721 k0_t11) a + S1x16.size a ≤ S512x32.size a
  k0_t12_ok : k0_t12_loop.OK
  k0_off722_inb : ∀ k0_t12 : Fin k0_t12_loop.trips, ∀ a, (k0_off722 k0_t12) a + S16.size a ≤ S512.size a
  k0_off723_inb : ∀ k0_t12 : Fin k0_t12_loop.trips, ∀ a, (k0_off723 k0_t12) a + S1x32.size a ≤ S512x32.size a
  k0_off725_inb : ∀ k0_t12 : Fin k0_t12_loop.trips, ∀ (r : Fin 2), ∀ a, (k0_off725 k0_t12 (BitVec.ofNat 32 r.val)) a + S1x32.size a ≤ S512x32.size a
  k0_off727_inb : ∀ k0_t12 : Fin k0_t12_loop.trips, ∀ (r : Fin 2), ∀ a, (k0_off727 k0_t12 (BitVec.ofNat 32 (1 + r.val))) a + S1x32.size a ≤ S512x32.size a
  k0_off729_inb : ∀ k0_t12 : Fin k0_t12_loop.trips, ∀ (r : Fin 2), ∀ a, (k0_off729 k0_t12 (BitVec.ofNat 32 (2 + r.val))) a + S1x32.size a ≤ S512x32.size a
  k0_off731_inb : ∀ k0_t12 : Fin k0_t12_loop.trips, ∀ (r : Fin 2), ∀ a, (k0_off731 k0_t12 (BitVec.ofNat 32 (3 + r.val))) a + S1x32.size a ≤ S512x32.size a
  k0_off733_inb : ∀ k0_t12 : Fin k0_t12_loop.trips, ∀ (r : Fin 2), ∀ a, (k0_off733 k0_t12 (BitVec.ofNat 32 (4 + r.val))) a + S1x32.size a ≤ S512x32.size a
  k0_off735_inb : ∀ k0_t12 : Fin k0_t12_loop.trips, ∀ (r : Fin 2), ∀ a, (k0_off735 k0_t12 (BitVec.ofNat 32 (5 + r.val))) a + S1x32.size a ≤ S512x32.size a
  k0_off737_inb : ∀ k0_t12 : Fin k0_t12_loop.trips, ∀ (r : Fin 2), ∀ a, (k0_off737 k0_t12 (BitVec.ofNat 32 (6 + r.val))) a + S1x32.size a ≤ S512x32.size a
  k0_off739_inb : ∀ k0_t12 : Fin k0_t12_loop.trips, ∀ (r : Fin 2), ∀ a, (k0_off739 k0_t12 (BitVec.ofNat 32 (7 + r.val))) a + S1x32.size a ≤ S512x32.size a
  k0_off741_inb : ∀ k0_t12 : Fin k0_t12_loop.trips, ∀ (r : Fin 2), ∀ a, (k0_off741 k0_t12 (BitVec.ofNat 32 (8 + r.val))) a + S1x32.size a ≤ S512x32.size a
  k0_off743_inb : ∀ k0_t12 : Fin k0_t12_loop.trips, ∀ (r : Fin 2), ∀ a, (k0_off743 k0_t12 (BitVec.ofNat 32 (9 + r.val))) a + S1x32.size a ≤ S512x32.size a
  k0_off745_inb : ∀ k0_t12 : Fin k0_t12_loop.trips, ∀ (r : Fin 2), ∀ a, (k0_off745 k0_t12 (BitVec.ofNat 32 (10 + r.val))) a + S1x32.size a ≤ S512x32.size a
  k0_off747_inb : ∀ k0_t12 : Fin k0_t12_loop.trips, ∀ (r : Fin 2), ∀ a, (k0_off747 k0_t12 (BitVec.ofNat 32 (11 + r.val))) a + S1x32.size a ≤ S512x32.size a
  k0_off749_inb : ∀ k0_t12 : Fin k0_t12_loop.trips, ∀ (r : Fin 2), ∀ a, (k0_off749 k0_t12 (BitVec.ofNat 32 (12 + r.val))) a + S1x32.size a ≤ S512x32.size a
  k0_off751_inb : ∀ k0_t12 : Fin k0_t12_loop.trips, ∀ (r : Fin 2), ∀ a, (k0_off751 k0_t12 (BitVec.ofNat 32 (13 + r.val))) a + S1x32.size a ≤ S512x32.size a
  k0_off753_inb : ∀ k0_t12 : Fin k0_t12_loop.trips, ∀ (r : Fin 2), ∀ a, (k0_off753 k0_t12 (BitVec.ofNat 32 (14 + r.val))) a + S1x32.size a ≤ S512x32.size a
  k0_off755_inb : ∀ k0_t12 : Fin k0_t12_loop.trips, ∀ a, (k0_off755 k0_t12) a + S1x32.size a ≤ S512x32.size a
  k0_off756_inb : ∀ i : grid0.Coords, ∀ a, (k0_off756 i) a + S512x32.size a ≤ S16384x32.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2

class Facts : Prop extends Facts₀ where

variable [Facts]
-- ==== ReferenceIdeal.lean ====
abbrev S1000000x32 : Shape := ⟨2, ![1000000, 32]⟩
abbrev S100000x32 : Shape := ⟨2, ![100000, 32]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 76
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S100000x32, .f32⟩
  | .hbm, ⟨2, _⟩ => ⟨S1000000x32, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384x32, .f32⟩
  | .hbm, ⟨26, _⟩ => ⟨S16384x32, .i1⟩
  | .hbm, ⟨27, _⟩ => ⟨S_, .f32⟩
  | .hbm, ⟨28, _⟩ => ⟨S16384x32, .f32⟩
  | .hbm, ⟨29, _⟩ => ⟨S16384x32, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x32, .f32⟩
  | .hbm, ⟨49, _⟩ => ⟨S16384x32, .i1⟩
  | .hbm, ⟨50, _⟩ => ⟨S_, .f32⟩
  | .hbm, ⟨51, _⟩ => ⟨S16384x32, .f32⟩
  | .hbm, ⟨52, _⟩ => ⟨S16384x32, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S1, .i32⟩
  | .hbm, ⟨62, _⟩ => ⟨S_, .i32⟩
  | .hbm, ⟨63, _⟩ => ⟨S16384x1, .i32⟩
  | .hbm, ⟨64, _⟩ => ⟨S16384x1, .i1⟩
  | .hbm, ⟨65, _⟩ => ⟨S1x1, .i32⟩
  | .hbm, ⟨66, _⟩ => ⟨S16384x1, .i32⟩
  | .hbm, ⟨67, _⟩ => ⟨S16384x1, .i1⟩
  | .hbm, ⟨68, _⟩ => ⟨S16384x1, .i1⟩
  | .hbm, ⟨69, _⟩ => ⟨S_, .i1⟩
  | .hbm, ⟨70, _⟩ => ⟨S16384, .i1⟩
  | .hbm, ⟨71, _⟩ => ⟨S16384x32, .f32⟩
  | .hbm, ⟨72, _⟩ => ⟨S16384x32, .i1⟩
  | .hbm, ⟨73, _⟩ => ⟨S_, .f32⟩
  | .hbm, ⟨74, _⟩ => ⟨S16384x32, .f32⟩
  | .hbm, ⟨75, _⟩ => ⟨S16384x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  gather_S1000000x32_S16384x1_S16384x32_1_0_n_n_0_1_132_wf : GatherDims.WF S1000000x32 S16384x1 S16384x32 [1] [0] [] [0] [] 1 ![1, 32]
  gather_S100000x32_S16384x1_S16384x32_1_0_n_n_0_1_132_wf : GatherDims.WF S100000x32 S16384x1 S16384x32 [1] [0] [] [0] [] 1 ![1, 32]

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf

class Facts : Prop extends Facts₀ where

variable [Facts]
-- ==== Proof.PreFacts.lean ====
/-
  The input-domain precondition, read back as integer ranges.

  The precondition is one rank-0 word: the conjunction (bitwise "and" of one-bit words) of seven "all elements satisfy"
  reductions. Three say that every float entry is finite; four say that every word of an index array lies, as a signed
  integer, between two constants. A conjunction of one-bit words is 1 exactly when each word is 1; an "and"-reduction over
  all axes that is 1 had a 1 at every element; and a signed comparison word that is 1 says the signed order of its operands.
  So from "the precondition is 1" every index word is in its range. The float conjuncts are only split off.
-/
import proofs.«207337_g69080253988965_cont_9to1c4b_173_32_alg».proof.Pre_input_domain
import Idealize.ShloMosaic.Lib.ReduceAll
import Idealize.ShloMosaic.Lib.ValueIdx

noncomputable section

namespace Cert.PreFacts

open Idealize.ShloMosaic Idealize.ShloMosaic.ValueIdx

/-- A rank-0 array has one index. -/
instance subsingleton_idx0 : Subsingleton (⟨0, ![]⟩ : Shape).Idx := ⟨fun a b => funext fun d => d.elim0⟩

/-- "All elements of x lie between the constants lo and hi (signed)": if the and-reduction over every axis of the
    elementwise word (x ≥ lo) and (x ≤ hi), the constants broadcast from rank 0, is 1, then each element is in range. -/
theorem all_range {s : Shape} {axes : List (Fin s.rank)} (x : IVec s 32) (lo hi : BitVec 32)
    (hb : (⟨0, ![]⟩ : Shape).BroadcastsInDim s (![] : Fin 0 → Fin s.rank)) (init : IVec ⟨0, ![]⟩ 1)
    (hr : s.ReducesTo axes ⟨0, ![]⟩) (hu : 0 < (⟨0, ![]⟩ : Shape).numel)
    (e : Host.reduce IntOp.andi
          (andi (cmpi .sge x (broadcastInDim s ![] hb (constantI ⟨0, ![]⟩ 32 lo)))
                (cmpi .sle x (broadcastInDim s ![] hb (constantI ⟨0, ![]⟩ 32 hi)))) init hr hu ix0 = 1#1)
    (r : s.Idx) : lo.toInt ≤ (x r).toInt ∧ (x r).toInt ≤ hi.toInt := by
  -- the element word at r is 1; a constant broadcast from rank 0 reads the constant at every index
  have e1 : IntOp.andi (IntOp.cmpi .sge (x r) lo) (IntOp.cmpi .sle (x r) hi) = 1#1 :=
    Host.reduce_andi_all _ init hr hu ix0 e r
  obtain ⟨h1, h2⟩ := IntOp.andi_eq_one.1 e1
  exact ⟨IntOp.cmpi_sge.1 h1, IntOp.cmpi_sle.1 h2⟩

/-- The four constants of the comparisons, as signed integers. -/
theorem toInt_0 : (0#32 : BitVec 32).toInt = 0 := by decide
theorem toInt_16383 : (16383#32 : BitVec 32).toInt = 16383 := by decide
theorem toInt_99999 : (99999#32 : BitVec 32).toInt = 99999 := by decide
theorem toInt_999999 : (999999#32 : BitVec 32).toInt = 999999 := by decide

/-- The precondition decoded, all four index arrays: every word lies in its range. -/
theorem ranges4 {F : FTy → Type} [FloatOps F] [Cert.Pre_input_domain.Facts]
    (a0 : FVec F Cert.Pre_input_domain.S1000000x32 .f32) (a1 : FVec F Cert.Pre_input_domain.S100000x32 .f32)
    (a2 : FVec F Cert.Pre_input_domain.S1000000x32 .f32) (i3 i4 i5 i6 : IVec Cert.Pre_input_domain.S16384 32)
    (h : Cert.Pre_input_domain.fn (F := F) a0 a1 a2 i3 i4 i5 i6 = fun _ => 1#1) :
    (∀ r, 0 ≤ (i3 r).toInt ∧ (i3 r).toInt ≤ 999999) ∧ (∀ r, 0 ≤ (i4 r).toInt ∧ (i4 r).toInt ≤ 99999) ∧
      (∀ r, 0 ≤ (i5 r).toInt ∧ (i5 r).toInt ≤ 999999) ∧ (∀ r, 0 ≤ (i6 r).toInt ∧ (i6 r).toInt ≤ 16383) := by
  -- the precondition at its one index, its chain of operations written out
  have e := congrFun h ix0
  unfold Cert.Pre_input_domain.fn Cert.Pre_input_domain.fn_part1 Cert.Pre_input_domain.fn_part2 at e
  dsimp only at e
  -- the outer conjunction, from the last conjunct inwards; what is left at the end is the three finiteness conjuncts
  obtain ⟨e, h6⟩ := IntOp.andi_eq_one.1 e
  obtain ⟨e, h5⟩ := IntOp.andi_eq_one.1 e
  obtain ⟨e, h4⟩ := IntOp.andi_eq_one.1 e
  obtain ⟨-, h3⟩ := IntOp.andi_eq_one.1 e
  refine ⟨fun r => ?_, fun r => ?_, fun r => ?_, fun r => ?_⟩
  · have t := all_range i3 _ _ _ _ _ _ h3 r
    rwa [toInt_0, toInt_999999] at t
  · have t := all_range i4 _ _ _ _ _ _ h4 r
    rwa [toInt_0, toInt_99999] at t
  · have t := all_range i5 _ _ _ _ _ _ h5 r
    rwa [toInt_0, toInt_999999] at t
  · have t := all_range i6 _ _ _ _ _ _ h6 r
    rwa [toInt_0, toInt_16383] at t

/-- The precondition decoded: every word of the first three index arrays is a row number of its table. -/
theorem ranges {F : FTy → Type} [FloatOps F] [Cert.Pre_input_domain.Facts]
    (a0 : FVec F Cert.Pre_input_domain.S1000000x32 .f32) (a1 : FVec F Cert.Pre_input_domain.S100000x32 .f32)
    (a2 : FVec F Cert.Pre_input_domain.S1000000x32 .f32) (i3 i4 i5 i6 : IVec Cert.Pre_input_domain.S16384 32)
    (h : Cert.Pre_input_domain.fn (F := F) a0 a1 a2 i3 i4 i5 i6 = fun _ => 1#1) :
    (∀ r, 0 ≤ (i3 r).toInt ∧ (i3 r).toInt ≤ 999999) ∧ (∀ r, 0 ≤ (i4 r).toInt ∧ (i4 r).toInt ≤ 99999) ∧
      (∀ r, 0 ≤ (i5 r).toInt ∧ (i5 r).toInt ≤ 999999) := by
  obtain ⟨h3, h4, h5, -⟩ := ranges4 a0 a1 a2 i3 i4 i5 i6 h
  exact ⟨h3, h4, h5⟩

end Cert.PreFacts

end
-- ==== Proof.Spec.lean ====
/-
  The specification both programs are proved against, stated over literal shapes and importing neither program.

  An embedding lookup: the result has one row per position of the index array, and row `r` of the result is the
  row of the table that the `r`-th index names. The index word is read as a signed integer and clamped into the
  table; for an index that already lies in the table (the only ones the precondition admits) the clamp is the
  identity, so the clamped form is only a way to make the row a total function of the word.
-/
import Idealize.ShloMosaic.PureOps.Ideal
import Idealize.ShloMosaic.Lib.ValueIdx

namespace Cert.Spec

open Idealize.ShloMosaic Idealize.ShloMosaic.ValueIdx

/-- The big tables: a million rows of 32 entries. -/
abbrev STabL : Shape := ⟨2, ![1000000, 32]⟩
/-- The small table: a hundred thousand rows of 32 entries. -/
abbrev STabS : Shape := ⟨2, ![100000, 32]⟩
/-- The index arrays: 16384 words. -/
abbrev SIds : Shape := ⟨1, ![16384]⟩
/-- The results: 16384 rows of 32 entries. -/
abbrev SOut : Shape := ⟨2, ![16384, 32]⟩

/-- The row of a million-row table that an index word names: the word as a signed integer, clamped into the table. -/
def rowL (w : BitVec 32) : Fin 1000000 := ⟨min w.toInt.toNat 999999, by omega⟩
/-- The row of a hundred-thousand-row table that an index word names. -/
def rowS (w : BitVec 32) : Fin 100000 := ⟨min w.toInt.toNat 99999, by omega⟩

/-- Lookup in a million-row table: entry `(r, k)` of the result is entry `(ids r, k)` of the table. -/
def lookupL {α : Type} (T : STabL.Idx → α) (ids : SIds.Idx → BitVec 32) : SOut.Idx → α :=
  fun i => T (ix2 (rowL (ids (ix1 (i 0)))) (i 1))
/-- Lookup in a hundred-thousand-row table. -/
def lookupS {α : Type} (T : STabS.Idx → α) (ids : SIds.Idx → BitVec 32) : SOut.Idx → α :=
  fun i => T (ix2 (rowS (ids (ix1 (i 0)))) (i 1))

/-- An index word that lies in the million-row table names the row of its own value. -/
theorem rowL_val (w : BitVec 32) (h0 : 0 ≤ w.toInt) (h1 : w.toInt ≤ 999999) : (rowL w).val = w.toNat := by
  have : w.toInt = (w.toNat : Int) := by
    rw [BitVec.toInt_eq_toNat_cond]; split
    · rfl
    · rename_i h; exfalso; rw [BitVec.toInt_eq_toNat_cond] at h0; simp only [h, if_false] at h0; omega
  simp only [rowL]; omega
/-- An index word that lies in the hundred-thousand-row table names the row of its own value. -/
theorem rowS_val (w : BitVec 32) (h0 : 0 ≤ w.toInt) (h1 : w.toInt ≤ 99999) : (rowS w).val = w.toNat := by
  have : w.toInt = (w.toNat : Int) := by
    rw [BitVec.toInt_eq_toNat_cond]; split
    · rfl
    · rename_i h; exfalso; rw [BitVec.toInt_eq_toNat_cond] at h0; simp only [h, if_false] at h0; omega
  simp only [rowS]; omega

end Cert.Spec
-- ==== Proof.KSetup.lean ====
/-
  The set-up shared by the body and the launch of the embedding-lookup kernel: the program as the launch theorem sees
  it, the ghost state (the launch handshakes' rounds beside the local transfers' counters), and what the one
  SparseCore call hands each of the 32 tiles and takes back.

  Tile (core c, subcore s) has number w = 2 s + c and owns positions [512 w, 512 w + 512) of the three index arrays
  and the same rows of the three results. It is handed those pieces whole, and a read share of each table (every tile
  may read any row of a table); it hands back its index pieces unchanged and its result rows holding, for every
  position r, the row of the table that the r-th index names.
-/
import proofs.«207337_g69080253988965_cont_9to1c4b_173_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207337_g69080253988965_cont_9to1c4b_173_32_alg».proof.Proof.Gen.Kernel
import proofs.«207337_g69080253988965_cont_9to1c4b_173_32_alg».proof.Proof.Gen.Kernel.Skeleton
import proofs.«207337_g69080253988965_cont_9to1c4b_173_32_alg».proof.Proof.Spec

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The three tables, the three index arrays and the three results, as locations of device `d`. -/
abbrev tab0 (d : Dev nD) : Loc nD τ sig := (SparseCore.T d).loc main_arg0
abbrev tab1 (d : Dev nD) : Loc nD τ sig := (SparseCore.T d).loc main_arg1
abbrev tab2 (d : Dev nD) : Loc nD τ sig := (SparseCore.T d).loc main_arg2
abbrev ids0 (d : Dev nD) : Loc nD τ sig := (SparseCore.T d).loc main_arg3
abbrev ids1 (d : Dev nD) : Loc nD τ sig := (SparseCore.T d).loc main_arg4
abbrev ids2 (d : Dev nD) : Loc nD τ sig := (SparseCore.T d).loc main_arg5
abbrev out0 (d : Dev nD) : Loc nD τ sig := (SparseCore.T d).loc main_v0_0
abbrev out1 (d : Dev nD) : Loc nD τ sig := (SparseCore.T d).loc main_v0_1
abbrev out2 (d : Dev nD) : Loc nD τ sig := (SparseCore.T d).loc main_v0_2

/-- What each result holds at the end: the lookup of its table at its index array. -/
def res0 (d : Dev nD) : Buf (Elt F) (out0 d) := Cert.Spec.lookupL (m (tab0 d)) (m (ids0 d))
def res1 (d : Dev nD) : Buf (Elt F) (out1 d) := Cert.Spec.lookupS (m (tab1 d)) (m (ids1 d))
def res2 (d : Dev nD) : Buf (Elt F) (out2 d) := Cert.Spec.lookupL (m (tab2 d)) (m (ids2 d))

/-! ## The tiles' pieces -/

theorem hdivI : 32 ∣ S16384.size 0 := ⟨512, rfl⟩
theorem hdivO : 32 ∣ S16384x32.size 0 := ⟨512, rfl⟩
/-- Positions [512 w, 512 w + 512) of an index array; the same rows of a result. -/
abbrev idsPart (w : Fin 32) : Rect S16384 := Rect.part (s := S16384) (a₀ := 0) hdivI w
abbrev outPart (w : Fin 32) : Rect S16384x32 := Rect.part (s := S16384x32) (a₀ := 0) hdivO w
abbrev idsSet (w : Fin 32) : Finset S16384.Idx := (idsPart w).set
abbrev outSet (w : Fin 32) : Finset S16384x32.Idx := (outPart w).set

/-- The number of the tile at core `c`, subcore `s`. -/
def wid (c : Fin 2) (s : Fin 16) : Fin 32 := ⟨2 * s.val + c.val, by omega⟩

/-- Tile `w`'s read share of a table: the `w`-th of 32 read tokens of the whole. -/
abbrev tabShare (w : Fin 32) : PosShare TreeShare := Transfers.shareTok fullShare 32 w

/-- What tile `w` is handed: a read share of each table, its pieces of the index arrays, its rows of the results. -/
def goT (d : Dev nD) (w : Fin 32) : sProp 𝕄 :=
  iprop((tab0 d ↦{tabShare w} m (tab0 d)) ∗ (tab1 d ↦{tabShare w} m (tab1 d)) ∗ (tab2 d ↦{tabShare w} m (tab2 d))
    ∗ (ids0 d ↦[idsSet w]{fullShare} m (ids0 d)) ∗ (ids1 d ↦[idsSet w]{fullShare} m (ids1 d)) ∗ (ids2 d ↦[idsSet w]{fullShare} m (ids2 d))
    ∗ (out0 d ↦[outSet w]{fullShare} m (out0 d)) ∗ (out1 d ↦[outSet w]{fullShare} m (out1 d)) ∗ (out2 d ↦[outSet w]{fullShare} m (out2 d)))

/-- What tile `w` hands back: its pieces of the index arrays unchanged, its rows of the results at the lookups. -/
def tdT (d : Dev nD) (w : Fin 32) : sProp 𝕄 :=
  iprop((ids0 d ↦[idsSet w]{fullShare} m (ids0 d)) ∗ (ids1 d ↦[idsSet w]{fullShare} m (ids1 d)) ∗ (ids2 d ↦[idsSet w]{fullShare} m (ids2 d))
    ∗ (out0 d ↦[outSet w]{fullShare} res0 m d) ∗ (out1 d ↦[outSet w]{fullShare} res1 m d) ∗ (out2 d ↦[outSet w]{fullShare} res2 m d))

instance goT_storable (d : Dev nD) (w : Fin 32) : BI.Storable (upEmb : UEmb _ 𝕄) (goT m d w) := by unfold goT; infer_instance
instance tdT_storable (d : Dev nD) (w : Fin 32) : BI.Storable (upEmb : UEmb _ 𝕄) (tdT m d w) := by unfold tdT; infer_instance

/-- The one call: each SparseCore takes its sixteen tiles' pieces and brings back what they leave. -/
def P : (K (F := F)).Pay (nD := nD) (Val := Elt F) (Name := ℕ) (U := UU) where
  st := fun q d c => match q with | 0 => bigSep Finset.univ fun s : Fin 16 => goT m d (wid (Fin.cast nCore_zero c) s)
  dn := fun q d c => match q with | 0 => bigSep Finset.univ fun s : Fin 16 => tdT m d (wid (Fin.cast nCore_zero c) s)
  go := fun q d c s => match q with | 0 => goT m d (wid (Fin.cast nCore_zero c) (Fin.cast nSub_zero s))
  td := fun q d c s => match q with | 0 => tdT m d (wid (Fin.cast nCore_zero c) (Fin.cast nSub_zero s))
  x := fun _ _ => iprop(emp)

instance P_storable : (P (F := F) m).IsStorable where
  st q d c := match q with | 0 => (inferInstance : BI.Storable (upEmb : UEmb _ 𝕄) (bigSep Finset.univ fun s : Fin 16 => goT m d (wid (Fin.cast nCore_zero c) s)))
  dn q d c := match q with | 0 => (inferInstance : BI.Storable (upEmb : UEmb _ 𝕄) (bigSep Finset.univ fun s : Fin 16 => tdT m d (wid (Fin.cast nCore_zero c) s)))
  go q d c s := match q with | 0 => (inferInstance : BI.Storable (upEmb : UEmb _ 𝕄) (goT m d (wid (Fin.cast nCore_zero c) (Fin.cast nSub_zero s))))
  td q d c s := match q with | 0 => (inferInstance : BI.Storable (upEmb : UEmb _ 𝕄) (tdT m d (wid (Fin.cast nCore_zero c) (Fin.cast nSub_zero s))))

end Cert.Proof.KS

end
-- ==== Proof.KLaunch.lean ====
/-
  The launch of the embedding-lookup kernel, given one tile's body.

  The one call hands each of the 32 tiles a read share of each table, its 512 positions of each index array and its
  512 rows of each result, and takes back the index pieces unchanged and the result rows at the lookups. Here: how a
  SparseCore's share splits among its sixteen tiles and gathers again; the launch element of the ghost state; the
  TensorCore's side of the call, which cuts the whole arrays into the tiles' pieces (a table into 32 read shares and a
  remainder that is kept, an index array and a result into 32 blocks of 512 along the first axis), numbers the tiles
  as core and subcore (w = 2 s + c, a bijection of 2 x 16 with 32), makes the call, and joins the pieces again; how
  the final memory is read off what is held at the end; and the run of the whole family of threads.
-/
import proofs.«207337_g69080253988965_cont_9to1c4b_173_32_alg».proof.Proof.KSetup

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries, as equations -/

theorem P_st (d : Dev nD) (c : Fin ((K (F := F)).nCore 0)) :
    (P (F := F) m).st 0 d c = bigSep Finset.univ fun s : Fin 16 => goT m d (wid (Fin.cast nCore_zero c) s) := rfl
theorem P_dn (d : Dev nD) (c : Fin ((K (F := F)).nCore 0)) :
    (P (F := F) m).dn 0 d c = bigSep Finset.univ fun s : Fin 16 => tdT m d (wid (Fin.cast nCore_zero c) s) := rfl
theorem P_go (d : Dev nD) (c : Fin ((K (F := F)).nCore 0)) (i : Fin ((K (F := F)).nSub 0)) :
    (P (F := F) m).go 0 d c i = goT m d (wid (Fin.cast nCore_zero c) (Fin.cast nSub_zero i)) := rfl
theorem P_td (d : Dev nD) (c : Fin ((K (F := F)).nCore 0)) (i : Fin ((K (F := F)).nSub 0)) :
    (P (F := F) m).td 0 d c i = tdT m d (wid (Fin.cast nCore_zero c) (Fin.cast nSub_zero i)) := rfl

/-! ## A SparseCore's share among its sixteen tiles -/

/-- The sixteen subcores, indexed by the configuration's count or by 16. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its tiles' shares, going and coming back. -/
theorem vecSplit : (K (F := F)).VecSplit' (P m) 0 := by
  intro d c
  simp only [P_go, P_td]
  rw [P_st, P_dn, bigSep_tasks (F := F) (fun s => goT m d (wid (Fin.cast nCore_zero c) s)),
    bigSep_tasks (F := F) (fun s => tdT m d (wid (Fin.cast nCore_zero c) s))]
  iintro H; imodintro
  isplitl [H]; · iexact H
  iintro H; iexact H

/-! ## The launch element: the handshakes' rounds; the counters are not used before the tiles run -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

/-! ## The TensorCore's arrays -/

/-- The fourth index array, which the call never touches. -/
abbrev arg6 (d : Dev nD) : Loc nD τ sig := (SparseCore.T d).loc main_arg6

/-- What the launch hands the TensorCore: its ten arrays, each whole. -/
theorem unscopedBufs_eq (d : Dev nD) (W : (b : Ref sig .tc) → Buf (Elt F) ((d.tc : Thread nD τ).loc b)) :
    (unscopedBufs d W : sProp 𝕄) = iprop((tab0 d ↦{fullShare} W main_arg0) ∗ (tab1 d ↦{fullShare} W main_arg1) ∗ (tab2 d ↦{fullShare} W main_arg2)
      ∗ (ids0 d ↦{fullShare} W main_arg3) ∗ (ids1 d ↦{fullShare} W main_arg4) ∗ (ids2 d ↦{fullShare} W main_arg5) ∗ (arg6 d ↦{fullShare} W main_arg6)
      ∗ (out0 d ↦{fullShare} W main_v0_0) ∗ (out1 d ↦{fullShare} W main_v0_1) ∗ (out2 d ↦{fullShare} W main_v0_2)) := by
  unfold unscopedBufs
  rw [show (Finset.univ.filter fun b : Ref sig .tc => ¬ b.isScoped)
      = {main_arg0, main_arg1, main_arg2, main_arg3, main_arg4, main_arg5, main_arg6, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The 32 blocks of an index array and of a result -/

theorem ids_disjoint : ∀ i ∈ (Finset.univ : Finset (Fin 32)), ∀ j ∈ (Finset.univ : Finset (Fin 32)), i ≠ j → Disjoint (idsSet i) (idsSet j) :=
  fun _ _ _ _ h => Rect.part_disjoint hdivI h
theorem ids_cover : (Finset.univ : Finset (Fin 32)).biUnion idsSet = Finset.univ := Rect.biUnion_part hdivI
theorem out_disjoint : ∀ i ∈ (Finset.univ : Finset (Fin 32)), ∀ j ∈ (Finset.univ : Finset (Fin 32)), i ≠ j → Disjoint (outSet i) (outSet j) :=
  fun _ _ _ _ h => Rect.part_disjoint hdivO h
theorem out_cover : (Finset.univ : Finset (Fin 32)).biUnion outSet = Finset.univ := Rect.biUnion_part hdivO

/-- An index array held whole is its 32 blocks held, at one valuation. -/
theorem ids0_pieces (d : Dev nD) (f : Buf (Elt F) (ids0 d)) :
    (ids0 d ↦{fullShare} f : sProp 𝕄) = bigSep Finset.univ fun w : Fin 32 => ids0 d ↦[idsSet w]{fullShare} f := by
  rw [← pointsTo_biUnion Finset.univ (ℓ := ids0 d) idsSet ids_disjoint, ids_cover]; try rfl
theorem ids1_pieces (d : Dev nD) (f : Buf (Elt F) (ids1 d)) :
    (ids1 d ↦{fullShare} f : sProp 𝕄) = bigSep Finset.univ fun w : Fin 32 => ids1 d ↦[idsSet w]{fullShare} f := by
  rw [← pointsTo_biUnion Finset.univ (ℓ := ids1 d) idsSet ids_disjoint, ids_cover]; try rfl
theorem ids2_pieces (d : Dev nD) (f : Buf (Elt F) (ids2 d)) :
    (ids2 d ↦{fullShare} f : sProp 𝕄) = bigSep Finset.univ fun w : Fin 32 => ids2 d ↦[idsSet w]{fullShare} f := by
  rw [← pointsTo_biUnion Finset.univ (ℓ := ids2 d) idsSet ids_disjoint, ids_cover]; try rfl
/-- A result held whole is its 32 blocks of rows held, at one valuation. -/
theorem out0_pieces (d : Dev nD) (f : Buf (Elt F) (out0 d)) :
    (out0 d ↦{fullShare} f : sProp 𝕄) = bigSep Finset.univ fun w : Fin 32 => out0 d ↦[outSet w]{fullShare} f := by
  rw [← pointsTo_biUnion Finset.univ (ℓ := out0 d) outSet out_disjoint, out_cover]; try rfl
theorem out1_pieces (d : Dev nD) (f : Buf (Elt F) (out1 d)) :
    (out1 d ↦{fullShare} f : sProp 𝕄) = bigSep Finset.univ fun w : Fin 32 => out1 d ↦[outSet w]{fullShare} f := by
  rw [← pointsTo_biUnion Finset.univ (ℓ := out1 d) outSet out_disjoint, out_cover]; try rfl
theorem out2_pieces (d : Dev nD) (f : Buf (Elt F) (out2 d)) :
    (out2 d ↦{fullShare} f : sProp 𝕄) = bigSep Finset.univ fun w : Fin 32 => out2 d ↦[outSet w]{fullShare} f := by
  rw [← pointsTo_biUnion Finset.univ (ℓ := out2 d) outSet out_disjoint, out_cover]; try rfl

/-! ## The 32 tiles as two cores of sixteen subcores -/

/-- Tile numbers: (c, s) to 2 s + c is one-to-one, -/
def widE : Fin 2 × Fin 16 ↪ Fin 32 :=
  ⟨fun p => wid p.1 p.2, fun p q h => by
    have e : 2 * p.2.val + p.1.val = 2 * q.2.val + q.1.val := congrArg Fin.val h
    have h1 := p.1.isLt; have h2 := q.1.isLt
    exact Prod.ext (Fin.ext (by omega)) (Fin.ext (by omega))⟩

/-- and onto: 2 x 16 numbers among 32. -/
theorem widE_univ : (Finset.univ : Finset (Fin 2 × Fin 16)).map widE = Finset.univ :=
  Finset.eq_univ_of_card _ (by rw [Finset.card_map]; rfl)

/-- A product over the 32 tiles is the product over the cores of the products over their subcores. -/
theorem bigSep_tiles (Φ : Fin 32 → sProp 𝕄) :
    bigSep Finset.univ Φ = bigSep Finset.univ fun c : Fin 2 => bigSep Finset.univ fun s : Fin 16 => Φ (wid c s) := by
  rw [← widE_univ, bigSep_map, bigSep_univ_prod]; rfl

theorem st0_eq (d : Dev nD) :
    (bigSep Finset.univ fun c : Fin ((K (F := F)).nCore 0) => (P (F := F) m).st 0 d c) = bigSep Finset.univ fun w : Fin 32 => goT m d w := by
  rw [bigSep_tiles (F := F) (fun w => goT m d w)]; rfl
theorem dn0_eq (d : Dev nD) :
    (bigSep Finset.univ fun c : Fin ((K (F := F)).nCore 0) => (P (F := F) m).dn 0 d c) = bigSep Finset.univ fun w : Fin 32 => tdT m d w := by
  rw [bigSep_tiles (F := F) (fun w => tdT m d w)]; rfl

/-- What all the tiles are handed together: each table's 32 read shares, and the index arrays and results whole. -/
theorem go_all (d : Dev nD) : (bigSep Finset.univ fun w : Fin 32 => goT m d w) = iprop(
    (bigSep Finset.univ fun w : Fin 32 => tab0 d ↦{tabShare w} m (tab0 d)) ∗ (bigSep Finset.univ fun w : Fin 32 => tab1 d ↦{tabShare w} m (tab1 d))
    ∗ (bigSep Finset.univ fun w : Fin 32 => tab2 d ↦{tabShare w} m (tab2 d))
    ∗ (ids0 d ↦{fullShare} m (ids0 d)) ∗ (ids1 d ↦{fullShare} m (ids1 d)) ∗ (ids2 d ↦{fullShare} m (ids2 d))
    ∗ (out0 d ↦{fullShare} m (out0 d)) ∗ (out1 d ↦{fullShare} m (out1 d)) ∗ (out2 d ↦{fullShare} m (out2 d))) := by
  unfold goT
  rw [bigSep_sep', bigSep_sep', bigSep_sep', bigSep_sep', bigSep_sep', bigSep_sep', bigSep_sep', bigSep_sep',
    ids0_pieces, ids1_pieces, ids2_pieces, out0_pieces, out1_pieces, out2_pieces]

/-- What all the tiles hand back together: the index arrays whole and unchanged, the results whole at the lookups. -/
theorem td_all (d : Dev nD) : (bigSep Finset.univ fun w : Fin 32 => tdT m d w) = iprop(
    (ids0 d ↦{fullShare} m (ids0 d)) ∗ (ids1 d ↦{fullShare} m (ids1 d)) ∗ (ids2 d ↦{fullShare} m (ids2 d))
    ∗ (out0 d ↦{fullShare} res0 m d) ∗ (out1 d ↦{fullShare} res1 m d) ∗ (out2 d ↦{fullShare} res2 m d)) := by
  unfold tdT
  rw [bigSep_sep', bigSep_sep', bigSep_sep', bigSep_sep', bigSep_sep',
    ids0_pieces, ids1_pieces, ids2_pieces, out0_pieces, out1_pieces, out2_pieces]

/-! ## @main on the TensorCore -/

/-- What is left of a table's full share after 32 read shares are split off. -/
abbrev restShare : PosShare TreeShare := Transfers.shareDrop fullShare 32

/-- What @main leaves the claim: what is left of each table, the index arrays whole and unchanged, the results whole at
    the lookups, the fourth index array whole and unchanged. -/
abbrev FIN (d : Dev nD) : sProp 𝕄 := iprop(
  (tab0 d ↦{restShare} m (tab0 d)) ∗ (tab1 d ↦{restShare} m (tab1 d)) ∗ (tab2 d ↦{restShare} m (tab2 d))
  ∗ (ids0 d ↦{fullShare} m (ids0 d)) ∗ (ids1 d ↦{fullShare} m (ids1 d)) ∗ (ids2 d ↦{fullShare} m (ids2 d))
  ∗ (out0 d ↦{fullShare} res0 m d) ∗ (out1 d ↦{fullShare} res1 m d) ∗ (out2 d ↦{fullShare} res2 m d)
  ∗ (arg6 d ↦{fullShare} m (arg6 d)))

/-- @main on device d's TensorCore: the one call. Each table gives 32 read shares and keeps the rest; the index arrays
    and the results go whole (as their 32 blocks) and come back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht0, Ht1, Ht2, Hi0, Hi1, Hi2, H6, Ho0, Ho1, Ho2⟩, -, -⟩, -⟩
  ihave Hs0 := (Transfers.pointsTo_toks_split fullShare 32) $$ Ht0
  icases Hs0 with ⟨Hr0, Hk0⟩
  ihave Hs1 := (Transfers.pointsTo_toks_split fullShare 32) $$ Ht1
  icases Hs1 with ⟨Hr1, Hk1⟩
  ihave Hs2 := (Transfers.pointsTo_toks_split fullShare 32) $$ Ht2
  icases Hs2 with ⟨Hr2, Hk2⟩
  iapply ((K (F := F)).wp_run (D (F := F)) 𝒱 (EH := EH) (P := P m) κ d 0) $$ [Hst Hk0 Hk1 Hk2 Hi0 Hi1 Hi2 Ho0 Ho1 Ho2 Hr0 Hr1 Hr2 H6]
  isplitr; · iexact Hctx
  isplitl [Hst]; · iexact Hst
  isplitl [Hk0 Hk1 Hk2 Hi0 Hi1 Hi2 Ho0 Ho1 Ho2]
  · rw [st0_eq, go_all]
    isplitl [Hk0]; · iexact Hk0
    isplitl [Hk1]; · iexact Hk1
    isplitl [Hk2]; · iexact Hk2
    isplitl [Hi0]; · iexact Hi0
    isplitl [Hi1]; · iexact Hi1
    isplitl [Hi2]; · iexact Hi2
    isplitl [Ho0]; · iexact Ho0
    isplitl [Ho1]; · iexact Ho1
    iexact Ho2
  iintro ⟨Hst, Hdn⟩
  ihave Hdn' := (Entails.of_eq ((dn0_eq m d).trans (td_all m d))) $$ Hdn
  icases Hdn' with ⟨Hi0, Hi1, Hi2, Ho0, Ho1, Ho2⟩
  imodintro
  isplitl [Hst]; · iexact Hst
  isplitl [Hr0]; · iexact Hr0
  isplitl [Hr1]; · iexact Hr1
  isplitl [Hr2]; · iexact Hr2
  isplitl [Hi0]; · iexact Hi0
  isplitl [Hi1]; · iexact Hi1
  isplitl [Hi2]; · iexact Hi2
  isplitl [Ho0]; · iexact Ho0
  isplitl [Ho1]; · iexact Ho1
  isplitl [Ho2]; · iexact Ho2
  iexact H6

/-! ## The final memory, read off what is held at the end -/

/-- What device d's arrays hold at the end: each result the lookup, every argument what it held at the launch. -/
def fq (d : Dev nD) (s' : Phys nD τ sig (Elt F)) : Prop :=
  s'.mem.mem (out0 d) = res0 m d ∧ s'.mem.mem (out1 d) = res1 m d ∧ s'.mem.mem (out2 d) = res2 m d
  ∧ s'.mem.mem (tab0 d) = m (tab0 d) ∧ s'.mem.mem (tab1 d) = m (tab1 d) ∧ s'.mem.mem (tab2 d) = m (tab2 d)
  ∧ s'.mem.mem (ids0 d) = m (ids0 d) ∧ s'.mem.mem (ids1 d) = m (ids1 d) ∧ s'.mem.mem (ids2 d) = m (ids2 d)
  ∧ s'.mem.mem (arg6 d) = m (arg6 d)

/-- An array held whole, at any share, is what the memory holds there; the memory's interpretation is kept. -/
theorem SI_agree_keep (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro H
  ihave H' := (persistent_entails_right (SI_pointsTo_agree (st := s') (ℓ := ℓ) (I := Finset.univ) (q := q) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hr0, Hr1, Hr2, Hi0, Hi1, Hi2, Ho0, Ho1, Ho2, H6⟩, HSI⟩
  ihave H := (SI_agree_keep s' (tab0 d) restShare (m (tab0 d))) $$ [HSI Hr0]
  · isplitl [HSI] <;> iassumption
  icases H with ⟨%ht0, HSI⟩
  ihave H := (SI_agree_keep s' (tab1 d) restShare (m (tab1 d))) $$ [HSI Hr1]
  · isplitl [HSI] <;> iassumption
  icases H with ⟨%ht1, HSI⟩
  ihave H := (SI_agree_keep s' (tab2 d) restShare (m (tab2 d))) $$ [HSI Hr2]
  · isplitl [HSI] <;> iassumption
  icases H with ⟨%ht2, HSI⟩
  ihave H := (SI_agree_keep s' (ids0 d) fullShare (m (ids0 d))) $$ [HSI Hi0]
  · isplitl [HSI] <;> iassumption
  icases H with ⟨%hi0, HSI⟩
  ihave H := (SI_agree_keep s' (ids1 d) fullShare (m (ids1 d))) $$ [HSI Hi1]
  · isplitl [HSI] <;> iassumption
  icases H with ⟨%hi1, HSI⟩
  ihave H := (SI_agree_keep s' (ids2 d) fullShare (m (ids2 d))) $$ [HSI Hi2]
  · isplitl [HSI] <;> iassumption
  icases H with ⟨%hi2, HSI⟩
  ihave H := (SI_agree_keep s' (out0 d) fullShare (res0 m d)) $$ [HSI Ho0]
  · isplitl [HSI] <;> iassumption
  icases H with ⟨%ho0, HSI⟩
  ihave H := (SI_agree_keep s' (out1 d) fullShare (res1 m d)) $$ [HSI Ho1]
  · isplitl [HSI] <;> iassumption
  icases H with ⟨%ho1, HSI⟩
  ihave H := (SI_agree_keep s' (out2 d) fullShare (res2 m d)) $$ [HSI Ho2]
  · isplitl [HSI] <;> iassumption
  icases H with ⟨%ho2, HSI⟩
  ihave H := (SI_agree_keep s' (arg6 d) fullShare (m (arg6 d))) $$ [HSI H6]
  · isplitl [HSI] <;> iassumption
  icases H with ⟨%h6, -⟩
  ipureintro; exact ⟨ho0, ho1, ho2, ht0, ht1, ht2, hi0, hi1, hi2, h6⟩

/-! ## The program's run -/

/-- The post of the run: on every device each result is the lookup, the fourth index array (which is also a result of
    the program) is what it was, and the seven arguments are unchanged. -/
def QC : PUnit × MemSt nD τ sig (Elt F) → Prop := fun r => ∀ c : Dev nD,
  r.2.mem (out0 c) = res0 m c ∧ r.2.mem (out1 c) = res1 m c ∧ r.2.mem (out2 c) = res2 m c
  ∧ r.2.mem ((SparseCore.T c).loc main_arg6) = m ((SparseCore.T c).loc main_arg6)
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

/-- Every weakly fair execution of the whole family of threads ends, nothing faulting, at the post, given one tile's body. -/
theorem run_main [∀ e, Nonempty (Elt F e)] (hbody : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => by
      obtain ⟨ho0, ho1, ho2, ht0, ht1, ht2, hi0, hi1, hi2, h6⟩ := h c
      exact ⟨ho0, ho1, ho2, h6, ht0, ht1, ht2, hi0, hi1, hi2, h6⟩)

end Cert.Proof.KS

end
-- ==== Proof.KInv.lean ====
/-
  Shared definitions for the body of the embedding-lookup kernel on one tile: the tile's thread, its pieces, and the
  invariants of the first table's phases. What the kernel does:

  Tile w copies its 512 indices of a table into a scratch, computes for the first 256 of them the number of the
  eight-row group that holds the named row (the index shifted right by three), starts one copy per index of the
  last 256 straight from the table into the staging rows 256..511, fetches the eight-row groups of the first 256
  sixteen at a time into a two-slot buffer and picks from each group the row "index mod 8" (so that row r of the
  staging buffer holds row ids[r] of the table: 8 * (i >>> 3) + i % 8 = i for a non-negative i), waits for the
  direct copies, and copies the 512 staged rows out to rows [512 w, 512 w + 512) of the result. Three tables in turn.
-/
import proofs.«207337_g69080253988965_cont_9to1c4b_173_32_alg».proof.Proof.KSetup

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

/-- What the proof asks of the launch memory: every index names a row of its table. -/
def PreOK : Prop := ∀ d : Dev nD,
  (∀ r, 0 ≤ (m (ids0 d) r).toInt ∧ (m (ids0 d) r).toInt ≤ 999999) ∧ (∀ r, 0 ≤ (m (ids1 d) r).toInt ∧ (m (ids1 d) r).toInt ≤ 99999)
    ∧ (∀ r, 0 ≤ (m (ids2 d) r).toInt ∧ (m (ids2 d) r).toInt ≤ 999999)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)
omit [FloatOps F] in
theorem bound_zero : grid0.bound 0 = 2 := rfl
omit [FloatOps F] in
theorem bound_one : grid0.bound 1 = 16 := rfl
/-- The tile's number. -/
abbrev wL (L : grid0.Coords) : Fin 32 := wid ⟨(L 0).val, (L 0).isLt⟩ ⟨(L 1).val, (L 1).isLt⟩

/-- The tile's seven DMA semaphores as cells. -/
abbrev cell (sm : DmaSem sig) : GSem nD τ sig := (thr d L, .dma sm)

omit [FloatOps F] in
theorem cell_ne {a b : DmaSem sig} (h : a ≠ b) : cell d L a ≠ cell d L b := fun e => h (SemLoc.dma.inj (Prod.mk.inj e).2)
omit [FloatOps F] in
theorem cell_mem (a : DmaSem sig) (h : (SemLoc.dma a : SemLoc sig).isScoped .scVector = true) : cell d L a ∈ (ownCells (thr d L) : Finset (GSem nD τ sig)) :=
  (mem_ownCells (g := cell d L a)).mpr ⟨rfl, h⟩

omit [FloatOps F] in
/-- The tile's seven DMA semaphores are among its scoped cells: they, at zero, and the rest. -/
theorem ownSems0_V :
    (ownSems0 (thr d L) : sProp 𝕄)
      = iprop(semVal (cell d L cc0_scratch4.sem) 0 ∗ semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0 ∗ semVal (cell d L cc0_scoped2.sem) 0
          ∗ bigSep ((((((((ownCells (thr d L)).erase (cell d L cc0_scratch4.sem)).erase (cell d L cc0_scratch5.sem)).erase (cell d L cc0_scratch6.sem)).erase (cell d L cc0_scratch7.sem)).erase (cell d L cc0_scoped0.sem)).erase (cell d L cc0_scoped1.sem)).erase (cell d L cc0_scoped2.sem)) fun g => semVal g 0) := by
  unfold SparseCore.Cfg.ownSems0
  rw [SparseCore.bigSep_erase' (cell_mem d L cc0_scratch4.sem (by decide)),
    SparseCore.bigSep_erase' (Finset.mem_erase.mpr ⟨cell_ne d L (by decide), cell_mem d L cc0_scratch5.sem (by decide)⟩),
    SparseCore.bigSep_erase' (Finset.mem_erase.mpr ⟨cell_ne d L (by decide), Finset.mem_erase.mpr ⟨cell_ne d L (by decide), cell_mem d L cc0_scratch6.sem (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped1.sem (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped2.sem (by decide)⟩⟩⟩⟩⟩⟩)]

omit [FloatOps F] in
/-- The tile's four scratch buffers are among its own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

/-! ### The tile's pieces as the body slices them -/

/-- Table 1's piece of its index array, as the body slices it. -/
abbrev ids3Rect : Rect S16384 := Rect.unit (s := S16384) (k0_off1 L) S512.size (k0_off1_inb L)
abbrev ids3Slice : Memref sig .scVector .hbm S512 .i32 := (i3W).slice (ids3Rect L) (fun _ => rfl)

omit [FloatOps F] in
theorem ids3Rect_eq : ids3Rect L = idsPart (wL L) := by
  unfold ids3Rect idsPart Rect.part Rect.block
  congr 1 <;> funext a
  · rw [k0_off1_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg3_scv : Ref sig .scVector)).slice (ids3Rect L)).set = _
  rw [View.set_slice, ids3Rect_eq]; exact Finset.map_refl

omit [FloatOps F] in
theorem pts_ids3Slice (f : Buf (Elt F) (ids0 d)) :
    ((ids3Slice L).view.loc (thr d L) ↦[(ids3Slice L).view.set]{fullShare} f : sProp 𝕄) = ids0 d ↦[idsSet (wL L)]{fullShare} f := by
  rw [set_ids3Slice]

/-! ### Buffers respelt as the body's memrefs address them -/

omit [FloatOps F] in
theorem pts_sIdx (f : Buf (Elt F) ((thr d L).loc cc0_scratch0)) :
    ((sIdx).view.loc (thr d L) ↦{fullShare} f : sProp 𝕄) = (thr d L).loc cc0_scratch0 ↦{fullShare} f := rfl
omit [FloatOps F] in
theorem pts_sGidx (f : Buf (Elt F) ((thr d L).loc cc0_scratch1)) :
    ((sGidx).view.loc (thr d L) ↦{fullShare} f : sProp 𝕄) = (thr d L).loc cc0_scratch1 ↦{fullShare} f := rfl
omit [FloatOps F] in
theorem pts_sRows (f : Buf (Elt F) ((thr d L).loc cc0_scratch2)) :
    ((sRows).view.loc (thr d L) ↦{fullShare} f : sProp 𝕄) = (thr d L).loc cc0_scratch2 ↦{fullShare} f := rfl
omit [FloatOps F] in
theorem pts_sOut (f : Buf (Elt F) ((thr d L).loc cc0_scratch3)) :
    ((sOut).view.loc (thr d L) ↦{fullShare} f : sProp 𝕄) = (thr d L).loc cc0_scratch3 ↦{fullShare} f := rfl
omit [FloatOps F] in
theorem pts_tab0 (q : PosShare TreeShare) (f : Buf (Elt F) (tab0 d)) :
    ((t0W).view.loc (thr d L) ↦{q} f : sProp 𝕄) = tab0 d ↦{q} f := by
  simp only [Memref.view_whole, View.set_whole]
omit [FloatOps F] in
theorem sem_cell (a : DmaSem sig) (n : ℕ) : (semVal (cell d L a) n : sProp 𝕄) = semVal (thr d L, SemLoc.dma a) n := rfl

/-! ### The first table on this tile: what the scratches must hold -/

/-- The tile's 512 indices of the first table, as the copy into the index scratch reads them. -/
def IDX1 : Buf (Elt F) ((thr d L).loc cc0_scratch0) := (ids3Slice L).view.read (Elt F) (m (ids0 d))
/-- The same as a vector of words. -/
abbrev IDX1v : IVec S512 32 := IDX1 m d L

/-- The number of the eight-row group that holds row `w`: the word shifted right by three (as the vector unit shifts). -/
def grp (w : BitVec 32) : BitVec 32 := IntOp.shrui .vector w 3#32

/-- What the staging buffer must hold in the end: row `r` is the row of the first table that index `r` names. -/
def want1 : Buf (Elt F) ((thr d L).loc cc0_scratch3) :=
  fun i => m (tab0 d) (ValueIdx.ix2 (Cert.Spec.rowL (IDX1v m d L (ValueIdx.ix1 (i 0)))) (i 1))

/-- Row `r` of the staging buffer; its rows below `n`; its rows from `n` on. -/
def orow (r : Nat) : Finset S512x32.Idx := Finset.univ.filter fun i => (i 0).val = r
def orowsBelow (n : Nat) : Finset S512x32.Idx := Finset.univ.filter fun i => (i 0).val < n
def orowsFrom (n : Nat) : Finset S512x32.Idx := Finset.univ.filter fun i => n ≤ (i 0).val

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)
/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)
/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KS

end
-- ==== Proof.KLemmas.lean ====
/-
  Small general facts used by the body's phases: which elements a row window of the staging buffer and a group window
  of the two-slot buffer hold, and how a read share of a table is cut into a remainder and sixteen whole-table tokens
  (one per copy of a group of sixteen that are in flight together).
-/
import proofs.«207337_g69080253988965_cont_9to1c4b_173_32_alg».proof.Proof.KInv

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

/-- The row window of the staging buffer at offsets `(r, 0)`, as the body slices and squeezes it, is row `r`. -/
theorem set_outRow (off : Fin 2 → Nat) (inb : ∀ a, off a + S1x32.size a ≤ S512x32.size a) (r : Nat) (h0 : off 0 = r) (h1 : off 1 = 0) :
    (((sOut).slice (Rect.unit (s := S512x32) off S1x32.size inb) (fun _ => rfl)).squeeze S32 squeezes_S1x32_S32).view.set = orow r := by
  show (((View.whole (cc0_scratch3 : Ref sig .scVector)).slice (Rect.unit (s := S512x32) off S1x32.size inb)).reshape S32 squeezes_S1x32_S32.numel_eq).set = _
  rw [View.set_reshape, View.set_slice]
  ext i
  rw [show (Finset.map (View.whole (cc0_scratch3 : Ref sig .scVector)).emb (Rect.unit (s := S512x32) off S1x32.size inb).set)
      = (Rect.unit (s := S512x32) off S1x32.size inb).set from Finset.map_refl, Rect.mem_set_unit]
  unfold orow
  rw [Finset.mem_filter]
  have hi1 : (i 1).val < 32 := (i 1).isLt
  constructor
  · intro h; have := h 0; exact ⟨Finset.mem_univ _, by rw [h0] at this; have e : S1x32.size 0 = 1 := rfl; omega⟩
  · intro ⟨_, h⟩ a
    match a with
    | 0 => rw [h0]; have e : S1x32.size 0 = 1 := rfl; omega
    | 1 => rw [h1]; have e : S1x32.size 1 = 32 := rfl; omega

/-- The group window of the two-slot buffer at offsets `(p, j, 0, 0)` holds the elements of slot `p`, place `j`. -/
theorem mem_rowsWin (off : Fin 4 → Nat) (inb : ∀ a, off a + S1x1x8x32.size a ≤ S2x16x8x32.size a) (p j : Nat)
    (h0 : off 0 = p) (h1 : off 1 = j) (h2 : off 2 = 0) (h3 : off 3 = 0) (i : S2x16x8x32.Idx) :
    i ∈ (((sRows).slice (Rect.unit (s := S2x16x8x32) off S1x1x8x32.size inb) (fun _ => rfl)).squeeze S8x32 squeezes_S1x1x8x32_S8x32).view.set
      ↔ (i 0).val = p ∧ (i 1).val = j := by
  show i ∈ (((View.whole (cc0_scratch2 : Ref sig .scVector)).slice (Rect.unit (s := S2x16x8x32) off S1x1x8x32.size inb)).reshape S8x32 squeezes_S1x1x8x32_S8x32.numel_eq).set ↔ _
  rw [View.set_reshape, View.set_slice,
    show (Finset.map (View.whole (cc0_scratch2 : Ref sig .scVector)).emb (Rect.unit (s := S2x16x8x32) off S1x1x8x32.size inb).set)
      = (Rect.unit (s := S2x16x8x32) off S1x1x8x32.size inb).set from Finset.map_refl, Rect.mem_set_unit]
  have hi2 : (i 2).val < 8 := (i 2).isLt
  have hi3 : (i 3).val < 32 := (i 3).isLt
  constructor
  · intro h
    have a0 := h 0; have a1 := h 1
    rw [h0] at a0; rw [h1] at a1
    have e0 : S1x1x8x32.size 0 = 1 := rfl
    have e1 : S1x1x8x32.size 1 = 1 := rfl
    omega
  · intro ⟨e0, e1⟩ a
    match a with
    | 0 => rw [h0]; have e : S1x1x8x32.size 0 = 1 := rfl; omega
    | 1 => rw [h1]; have e : S1x1x8x32.size 1 = 1 := rfl; omega
    | 2 => rw [h2]; have e : S1x1x8x32.size 2 = 8 := rfl; omega
    | 3 => rw [h3]; have e : S1x1x8x32.size 3 = 32 := rfl; omega

/-- One read token cut off a share: the left half stays, the right half is the token. -/
theorem tok_cut {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1

end Cert.Proof.KS

end
-- ==== Proof.KGen.lean ====
/-
  A read share of an array cut into a remainder and sixteen whole-array tokens: one token for each of sixteen copies
  that read the array while they are in flight together.
-/
import proofs.«207337_g69080253988965_cont_9to1c4b_173_32_alg».proof.Proof.KLemmas

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- Sixteen whole-array read tokens cut off a share, and the remainder. -/
theorem toks16 {ℓ : Loc nD τ sig} (q : PosShare TreeShare) (f : Buf (Elt F) ℓ) :
    (ℓ ↦{q} f : sProp 𝕄) ⊢ iprop(∃ q' : PosShare TreeShare, (ℓ ↦{q'} f)
      ∗ ∃ p : Fin 16 → PosShare TreeShare, (ℓ ↦{p 0} f) ∗ (ℓ ↦{p 1} f) ∗ (ℓ ↦{p 2} f) ∗ (ℓ ↦{p 3} f) ∗ (ℓ ↦{p 4} f) ∗ (ℓ ↦{p 5} f) ∗ (ℓ ↦{p 6} f) ∗ (ℓ ↦{p 7} f)
        ∗ (ℓ ↦{p 8} f) ∗ (ℓ ↦{p 9} f) ∗ (ℓ ↦{p 10} f) ∗ (ℓ ↦{p 11} f) ∗ (ℓ ↦{p 12} f) ∗ (ℓ ↦{p 13} f) ∗ (ℓ ↦{p 14} f) ∗ (ℓ ↦{p 15} f)) := by
  iintro H
  ihave H := (tok_cut q f) $$ H; icases H with ⟨H, T0⟩
  ihave H := (tok_cut _ f) $$ H; icases H with ⟨H, T1⟩
  ihave H := (tok_cut _ f) $$ H; icases H with ⟨H, T2⟩
  ihave H := (tok_cut _ f) $$ H; icases H with ⟨H, T3⟩
  ihave H := (tok_cut _ f) $$ H; icases H with ⟨H, T4⟩
  ihave H := (tok_cut _ f) $$ H; icases H with ⟨H, T5⟩
  ihave H := (tok_cut _ f) $$ H; icases H with ⟨H, T6⟩
  ihave H := (tok_cut _ f) $$ H; icases H with ⟨H, T7⟩
  ihave H := (tok_cut _ f) $$ H; icases H with ⟨H, T8⟩
  ihave H := (tok_cut _ f) $$ H; icases H with ⟨H, T9⟩
  ihave H := (tok_cut _ f) $$ H; icases H with ⟨H, T10⟩
  ihave H := (tok_cut _ f) $$ H; icases H with ⟨H, T11⟩
  ihave H := (tok_cut _ f) $$ H; icases H with ⟨H, T12⟩
  ihave H := (tok_cut _ f) $$ H; icases H with ⟨H, T13⟩
  ihave H := (tok_cut _ f) $$ H; icases H with ⟨H, T14⟩
  ihave H := (tok_cut _ f) $$ H; icases H with ⟨H, T15⟩
  iexists _; isplitl [H]; · iexact H
  iexists (fun i : Fin 16 => (Nat.rec (motive := fun _ => PosShare TreeShare) q (fun _ r => r.left) i.val).right)
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15

end Cert.Proof.KS

end
-- ==== Proof.KLoop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KInv

noncomputable section

namespace Cert.Proof.KS.L4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KS

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S1000000x32.size a := by
  obtain ⟨h0, h1⟩ := (hpre d).1 ((ids3Slice L).view.emb r)
  have e : IDX1v m d L r = m (ids0 d) ((ids3Slice L).view.emb r) := rfl
  have hn : (IDX1v m d L r).toNat < 1000000 := by
    have hv := Cert.Spec.rowL_val _ h0 h1
    rw [e, ← hv]; exact (Cert.Spec.rowL _).isLt
  intro a
  match a with
  | 0 => show (IDX1v m d L r).toNat + 1 ≤ 1000000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) (c0 c16 : BitVec 32) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t4_loop k0_t4_ok ⟨⟩ (k0_t4_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 c0 c16)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t4_loop.lb k0_t4_loop.ub k0_t4_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off252 L) S512x32.size (k0_off252_inb L)
abbrev out3Slice : Memref sig .scVector .hbm S512x32 .f32 := (o0W).slice (out3Rect L) (fun _ => rfl)

omit [FloatOps F] in
theorem out3Rect_eq : out3Rect L = outPart (wL L) := by
  unfold out3Rect outPart Rect.part Rect.block
  congr 1 <;> funext a
  · rw [k0_off252_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_0_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out0 d)) :
    ((out3Slice L).view.loc (thr d L) ↦[(out3Slice L).view.set]{fullShare} f : sProp 𝕄) = out0 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out0 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out0 d ↦[outSet (wL L)]{fullShare} res0 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off1 L) (k0_off1_inb L) (k0_off252 L) (k0_off252_inb L)
    (by rw [k0_off1_eq, k0_off252_eq]; rfl) (by rw [k0_off252_eq]; rfl) x
  have e1 : ((out3Slice L).view.emb x) 1 = x 1 := hB
  have e0 : IDX1v m d L (ValueIdx.ix1 (x 0)) = m (ids0 d) (ValueIdx.ix1 (((out3Slice L).view.emb x) 0)) :=
    congrArg (m (ids0 d)) hA
  show m (tab0 d) (ValueIdx.ix2 (Cert.Spec.rowL (IDX1v m d L (ValueIdx.ix1 (x 0)))) (x 1))
    = m (tab0 d) (ValueIdx.ix2 (Cert.Spec.rowL (m (ids0 d) (ValueIdx.ix1 (((out3Slice L).view.emb x) 0)))) (((out3Slice L).view.emb x) 1))
  rw [e0, e1]

/-- The same with the payload as the copy reads it off the staging buffer held at contents `o`. -/
theorem copy_out_value (fo : Buf (Elt F) (out0 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out0 d ↦[outSet (wL L)]{fullShare} res0 m d :=
  copy_out_pay m d L fo _ (fun x => ho x)

end Tile

end Cert.Proof.KS.L4

end
-- ==== Proof.KTab.lean ====
/-
  The first table on one tile: the group-number loop's invariant and its one trip, and the ranges that the range
  checks of the copies ask for (an index names a row of the table; its group number names an eight-row group).
-/
import proofs.«207337_g69080253988965_cont_9to1c4b_173_32_alg».proof.Proof.KLemmas
import proofs.«207337_g69080253988965_cont_9to1c4b_173_32_alg».proof.Proof.KLoop4
import Idealize.ShloMosaic.Lib.Pipeline.Value
import Idealize.ShloMosaic.Lib.ValueIdx

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t1_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off3 k) S16.size (k0_off3_inb k),
        k0_pay519 (View.readAt (Elt F) (sIdx).view (Rect.unit (s := S512) (k0_off2 k) S16.size (k0_off2_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off3 k) S16.size (k0_off3_inb k),
        k0_pay519 (View.readAt (Elt F) (sIdx).view (Rect.unit (s := S512) (k0_off2 k) S16.size (k0_off2_inb k)).toLoadRect (IDX1 m d L))⟩] (by
        intro p hp
        rw [List.mem_singleton] at hp; subst hp
        rw [Rect.mem_set_unit]; intro h
        have h0 := h 0; rw [k0_off3_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off3 k) S16.size (k0_off3_inb k))
      (k0_pay519 (View.readAt (Elt F) (sIdx).view (Rect.unit (s := S512) (k0_off2 k) S16.size (k0_off2_inb k)).toLoadRect (IDX1 m d L)))
      [] (ValueIdx.ix1 ⟨(j 0).val - 16 * k.val, hx⟩)
    have hemb : (Rect.unit (s := S256) (k0_off3 k) S16.size (k0_off3_inb k)).emb (ValueIdx.ix1 ⟨(j 0).val - 16 * k.val, hx⟩) = j := by
      have ho : k0_off3 k 0 = 16 * k.val := by rw [k0_off3_eq]; rfl
      funext a; apply Fin.ext
      rw [Rect.emb_apply, Subsingleton.elim a 0]
      show k0_off3 k 0 + 1 * ((j 0).val - 16 * k.val) = (j 0).val
      rw [ho]; omega
    rw [hemb] at e
    simp only [Memref.view_whole, View.read_whole] at e
    rw [e]
    unfold k0_pay519
    rw [shapeCast_self, shapeCast_self]
    show IntOp.shrui .vector (View.readAt (Elt F) (sIdx).view (Rect.unit (s := S512) (k0_off2 k) S16.size (k0_off2_inb k)).toLoadRect (IDX1 m d L)
      (ValueIdx.ix1 ⟨(j 0).val - 16 * k.val, hx⟩)) 3#32 = _
    rw [View.readAt_apply]
    simp only [Memref.view_whole, View.read_whole]
    unfold grp
    have ho2 : k0_off2 k 0 = 16 * k.val := by rw [k0_off2_eq]; rfl
    have hidx : (Rect.unit (s := S512) (k0_off2 k) S16.size (k0_off2_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off2 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 999999 :=
  (hpre d).1 _

/-- The group number of a row of a million-row table is below 125000. -/
theorem grp_lt (w : BitVec 32) (h0 : 0 ≤ w.toInt) (h1 : w.toInt ≤ 999999) : (grp w).toNat < 125000 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 999999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 125000 passes the gathers' range checks. -/
theorem chkG (v : BitVec 32) (hv : v.toNat < 125000) : ∀ a, (![v.toNat, 0, 0] : Fin 3 → Nat) a + S1x8x32.size a ≤ S125000x8x32.size a := by
  intro a
  match a with
  | 0 => show v.toNat + 1 ≤ 125000; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 125000 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out0 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out0 d ↦[outSet (wL L)]{fullShare} res0 m d : sProp 𝕄) := by
  iintro ⟨H, %hp⟩
  iapply (Entails.of_eq (L4.copy_out_pay m d L fo p hp)); iexact H

end Tile

end Cert.Proof.KS

end
-- ==== Proof.KLoop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KLemmas

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 999999 :=
  (hpre d).1 ((ids3Slice L).view.emb j)

omit [FloatOps F] in
/-- A word in range passes the body's check on the row it names. -/
theorem chk_of_range (w : BitVec 32) (h : 0 ≤ w.toInt ∧ w.toInt ≤ 999999) :
    ∀ a, (![w.toNat, 0] : Fin 2 → ℕ) a + S1x32.size a ≤ S1000000x32.size a := by
  have hw : w.toNat ≤ 999999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 1000000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S1000000x32.size a) : Memref sig .scVector .hbm S32 .f32 :=
  ((t0W).slice (Rect.unit (s := S1000000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S1000000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg0)))) Finset.univ))
    ∗ ((srcRow offS hS).view.loc (thr d L) ↦[(srcRow offS hS).view.set]{q} m ((SparseCore.T d).loc main_arg0)))

/-- The delivery of the copy of the row that index 256 + n names into staging row 256 + n is good: the index is in range,
    so the row read is the row it names. -/
theorem deliv_good (hpre : PreOK m) {offS : Fin 2 → ℕ} {hS : ∀ a, offS a + S1x32.size a ≤ S1000000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab0 d) ((srcRow _ hS).view.emb x)
      = m (tab0 d) (ValueIdx.ix2 (Cert.Spec.rowL (IDX1v m d L (ValueIdx.ix1 (((dstRow _ hD).view.emb x) 0)))) (((dstRow _ hD).view.emb x) 1))
    have ext2 : ∀ (u v : S1000000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowL (IDX1v m d L j)).val
      rw [Cert.Spec.rowL_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S1000000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t0W).view.loc (thr d L) ↦{q} m (tab0 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t0W).view.loc (thr d L) ↦{q.left} m (tab0 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab0 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t0W).view.loc (thr d L) ↦{q'} m (tab0 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

/-- One trip: sixteen indices read, sixteen copies started. -/
theorem trip2 (hpre : PreOK m) (k : Fin k0_t2_loop.trips) (acc : Unit) :
    inv2 m d L k.val acc ⊢ wp frame (wpE (defs₀ (F := F)) 𝒱₀ (thr d L) none) Set.univ
      (k0_t2_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 k acc) (inv2 m d L (k.val + 1)) := by
  have hk : k.val < 16 := k.isLt
  unfold inv2 k0_t2_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off7_eq k ⟨0, by decide⟩).trans (vec2_congr (by show 16 * k.val + 0 + 256 = _; omega)), _, ?_, rfl⟩
    rw [Shape.reshapeEquiv_self]
    show (k0_off4 k) 0 + 1 * (0 + 0) = _
    rw [k0_off4_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off9_eq k ⟨0, by decide⟩).trans (vec2_congr (by show 16 * k.val + 0 + 257 = _; omega)), _, ?_, rfl⟩
    rw [Shape.reshapeEquiv_self]
    show (k0_off4 k) 0 + 1 * (1 + 0) = _
    rw [k0_off4_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off11_eq k ⟨0, by decide⟩).trans (vec2_congr (by show 16 * k.val + 0 + 258 = _; omega)), _, ?_, rfl⟩
    rw [Shape.reshapeEquiv_self]
    show (k0_off4 k) 0 + 1 * (2 + 0) = _
    rw [k0_off4_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off13_eq k ⟨0, by decide⟩).trans (vec2_congr (by show 16 * k.val + 0 + 259 = _; omega)), _, ?_, rfl⟩
    rw [Shape.reshapeEquiv_self]
    show (k0_off4 k) 0 + 1 * (3 + 0) = _
    rw [k0_off4_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off15_eq k ⟨0, by decide⟩).trans (vec2_congr (by show 16 * k.val + 0 + 260 = _; omega)), _, ?_, rfl⟩
    rw [Shape.reshapeEquiv_self]
    show (k0_off4 k) 0 + 1 * (4 + 0) = _
    rw [k0_off4_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off17_eq k ⟨0, by decide⟩).trans (vec2_congr (by show 16 * k.val + 0 + 261 = _; omega)), _, ?_, rfl⟩
    rw [Shape.reshapeEquiv_self]
    show (k0_off4 k) 0 + 1 * (5 + 0) = _
    rw [k0_off4_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off19_eq k ⟨0, by decide⟩).trans (vec2_congr (by show 16 * k.val + 0 + 262 = _; omega)), _, ?_, rfl⟩
    rw [Shape.reshapeEquiv_self]
    show (k0_off4 k) 0 + 1 * (6 + 0) = _
    rw [k0_off4_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off21_eq k ⟨0, by decide⟩).trans (vec2_congr (by show 16 * k.val + 0 + 263 = _; omega)), _, ?_, rfl⟩
    rw [Shape.reshapeEquiv_self]
    show (k0_off4 k) 0 + 1 * (7 + 0) = _
    rw [k0_off4_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off23_eq k ⟨0, by decide⟩).trans (vec2_congr (by show 16 * k.val + 0 + 264 = _; omega)), _, ?_, rfl⟩
    rw [Shape.reshapeEquiv_self]
    show (k0_off4 k) 0 + 1 * (8 + 0) = _
    rw [k0_off4_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off25_eq k ⟨0, by decide⟩).trans (vec2_congr (by show 16 * k.val + 0 + 265 = _; omega)), _, ?_, rfl⟩
    rw [Shape.reshapeEquiv_self]
    show (k0_off4 k) 0 + 1 * (9 + 0) = _
    rw [k0_off4_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off27_eq k ⟨0, by decide⟩).trans (vec2_congr (by show 16 * k.val + 0 + 266 = _; omega)), _, ?_, rfl⟩
    rw [Shape.reshapeEquiv_self]
    show (k0_off4 k) 0 + 1 * (10 + 0) = _
    rw [k0_off4_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off29_eq k ⟨0, by decide⟩).trans (vec2_congr (by show 16 * k.val + 0 + 267 = _; omega)), _, ?_, rfl⟩
    rw [Shape.reshapeEquiv_self]
    show (k0_off4 k) 0 + 1 * (11 + 0) = _
    rw [k0_off4_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off31_eq k ⟨0, by decide⟩).trans (vec2_congr (by show 16 * k.val + 0 + 268 = _; omega)), _, ?_, rfl⟩
    rw [Shape.reshapeEquiv_self]
    show (k0_off4 k) 0 + 1 * (12 + 0) = _
    rw [k0_off4_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off33_eq k ⟨0, by decide⟩).trans (vec2_congr (by show 16 * k.val + 0 + 269 = _; omega)), _, ?_, rfl⟩
    rw [Shape.reshapeEquiv_self]
    show (k0_off4 k) 0 + 1 * (13 + 0) = _
    rw [k0_off4_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off35_eq k ⟨0, by decide⟩).trans (vec2_congr (by show 16 * k.val + 0 + 270 = _; omega)), _, ?_, rfl⟩
    rw [Shape.reshapeEquiv_self]
    show (k0_off4 k) 0 + 1 * (14 + 0) = _
    rw [k0_off4_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off37_eq k).trans (vec2_congr (by omega)), _, ?_, rfl⟩
    rw [Shape.reshapeEquiv_self]
    show (k0_off4 k) 0 + 1 * (15 + 0) = _
    rw [k0_off4_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t0W).view.loc (thr d L) ↦{q} m (tab0 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t0W).view.loc (thr d L) ↦{q'} m (tab0 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t2_loop k0_t2_ok ⟨⟩ (k0_t2_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t2_loop.lb k0_t2_loop.ub k0_t2_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KS

end
-- ==== Proof.KLoop3Val.lean ====
/-
  Values of the pair loop's extract step on one tile: pure facts, no program.

  An index w that lies in the table (0 ≤ w ≤ 999999 as a signed word) names row w; the kernel fetches the group of
  eight rows that holds it, group w >>> 3 of the table regrouped as [125000, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KLemmas

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 1000000 := ⟨min (8 * g + s) 999999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 999999) : w.toNat ≤ 999999 := by
  have hv := Cert.Spec.rowL_val w h0 h1
  have := (Cert.Spec.rowL w).isLt
  omega

omit [FloatOps F] in
theorem slot_eq (w : BitVec 32) (h0 : 0 ≤ w.toInt) (h1 : w.toInt ≤ 999999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 999999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 999999) : (grp w).toNat ≤ 124999 := by
  have hw := toNat_of_pre w h0 h1
  rw [grp_toNat]; omega

omit [FloatOps F] in
theorem grp_slot (w : BitVec 32) (h0 : 0 ≤ w.toInt) (h1 : w.toInt ≤ 999999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 999999) :
    grow (grp w).toNat (slot w) = Cert.Spec.rowL w := by
  apply Fin.ext
  have hv := Cert.Spec.rowL_val w h0 h1
  have hw := toNat_of_pre w h0 h1
  have hs := grp_slot w h0 h1
  show min (8 * (grp w).toNat + slot w) 999999 = (Cert.Spec.rowL w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S125000x8x32.Idx) :
    Shape.reshapeEquiv (s := S1000000x32) (s' := S125000x8x32) reshapes_S1000000x32_S125000x8x32.1 z
      = (ValueIdx.ix2 (⟨8 * (z 0).val + (z 1).val, by
            have h0 : (z 0).val < 125000 := (z 0).isLt
            have h1 : (z 1).val < 8 := (z 1).isLt
            omega⟩ : Fin 1000000) (z 2) : S1000000x32.Idx) := by
  apply Shape.reshapeEquiv_eq_of_rowMajor
  show ((⟨2, ![1000000, 32]⟩ : Shape).rowMajor (ValueIdx.ix2 (⟨8 * (z 0).val + (z 1).val, _⟩ : Fin 1000000) (z 2)) : Nat)
    = ((⟨3, ![125000, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S125000x8x32.size a) : Memref sig .scVector .hbm S8x32 .f32 :=
  (((t0W).reshape S125000x8x32 reshapes_S1000000x32_S125000x8x32.1 reshapes_S1000000x32_S125000x8x32.2 (Memref.isWhole_whole _).contiguous).slice
    (Rect.unit (s := S125000x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S125000x8x32.size a) (g : Nat)
    (t0 : offT 0 = g) (t1 : offT 1 = 0) (t2 : offT 2 = 0) (y : S8x32.Idx) :
    (tabGrp offT inbT).view.emb y = (ValueIdx.ix2 (grow g (y 0).val) (y 1) : S1000000x32.Idx) := by
  have hy0 : (y 0).val < 8 := (y 0).isLt
  have hg : g + 1 ≤ 125000 := by have := inbT 0; rw [t0] at this; exact this
  show Shape.reshapeEquiv (s := S1000000x32) (s' := S125000x8x32) reshapes_S1000000x32_S125000x8x32.1
      ((Rect.unit (s := S125000x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 999999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S125000x8x32.size a) (g : Nat)
    (t0 : offT 0 = g) (t1 : offT 1 = 0) (t2 : offT 2 = 0) (y : S8x32.Idx) :
    View.read (Elt F) (tabGrp offT inbT).view (m (tab0 d)) y = m (tab0 d) (ValueIdx.ix2 (grow g (y 0).val) (y 1)) := by
  show m (tab0 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S125000x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab0 d)))) Finset.univ i
        = m (tab0 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab0 d)))) (Finset.mem_univ x)
  rw [hx] at key
  rw [key]
  show View.read (Elt F) (tabGrp offT inbT).view (m (tab0 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab0 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).1 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab0 d) (ValueIdx.ix2 (Cert.Spec.rowL (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 999999 = min (8 * (grp (idxAt m d L r)).toNat + slot (idxAt m d L r)) 999999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab0 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S125000x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab0 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 999999 :=
  (hpre d).1 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S125000x8x32.size a := by
  obtain ⟨h0, h1⟩ := idxAt_pre m d L hpre r
  have hg := grp_le _ h0 h1
  intro a
  match a with
  | 0 => show (grp (idxAt m d L r)).toNat + 1 ≤ 125000; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t3_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off153 k) (by rw [k0_off153_eq]; rfl) k0_off216 (fun _ => rfl) (fun _ => rfl) (fun _ => rfl) (fun _ => rfl) (k0_off217 k) (by rw [k0_off217_eq]; rfl) (by rw [k0_off217_eq]; rfl) f'',
         pcR m d L hpre 1 15 0 (32 * k.val + 16) (by omega) (by omega) (by omega) (by omega) (k0_off153 k) (by rw [k0_off153_eq]; rfl) k0_off214 (fun _ => rfl) (fun _ => rfl) (fun _ => rfl) (fun _ => rfl) (k0_off215 k) (by rw [k0_off215_eq]; rfl) (by rw [k0_off215_eq]; rfl) f'',
         pcR m d L hpre 1 14 16 (32 * k.val + 16) (by omega) (by omega) (by omega) (by omega) (k0_off153 k) (by rw [k0_off153_eq]; rfl) k0_off212 (fun _ => rfl) (fun _ => rfl) (fun _ => rfl) (fun _ => rfl) (k0_off213 k) (by rw [k0_off213_eq]; rfl) (by rw [k0_off213_eq]; rfl) f'',
         pcR m d L hpre 1 14 0 (32 * k.val + 16) (by omega) (by omega) (by omega) (by omega) (k0_off153 k) (by rw [k0_off153_eq]; rfl) k0_off210 (fun _ => rfl) (fun _ => rfl) (fun _ => rfl) (fun _ => rfl) (k0_off211 k) (by rw [k0_off211_eq]; rfl) (by rw [k0_off211_eq]; rfl) f'',
         pcR m d L hpre 1 13 16 (32 * k.val + 16) (by omega) (by omega) (by omega) (by omega) (k0_off153 k) (by rw [k0_off153_eq]; rfl) k0_off208 (fun _ => rfl) (fun _ => rfl) (fun _ => rfl) (fun _ => rfl) (k0_off209 k) (by rw [k0_off209_eq]; rfl) (by rw [k0_off209_eq]; rfl) f'',
         pcR m d L hpre 1 13 0 (32 * k.val + 16) (by omega) (by omega) (by omega) (by omega) (k0_off153 k) (by rw [k0_off153_eq]; rfl) k0_off206 (fun _ => rfl) (fun _ => rfl) (fun _ => rfl) (fun _ => rfl) (k0_off207 k) (by rw [k0_off207_eq]; rfl) (by rw [k0_off207_eq]; rfl) f'',
         pcR m d L hpre 1 12 16 (32 * k.val + 16) (by omega) (by omega) (by omega) (by omega) (k0_off153 k) (by rw [k0_off153_eq]; rfl) k0_off204 (fun _ => rfl) (fun _ => rfl) (fun _ => rfl) (fun _ => rfl) (k0_off205 k) (by rw [k0_off205_eq]; rfl) (by rw [k0_off205_eq]; rfl) f'',
         pcR m d L hpre 1 12 0 (32 * k.val + 16) (by omega) (by omega) (by omega) (by omega) (k0_off153 k) (by rw [k0_off153_eq]; rfl) k0_off202 (fun _ => rfl) (fun _ => rfl) (fun _ => rfl) (fun _ => rfl) (k0_off203 k) (by rw [k0_off203_eq]; rfl) (by rw [k0_off203_eq]; rfl) f'',
         pcR m d L hpre 1 11 16 (32 * k.val + 16) (by omega) (by omega) (by omega) (by omega) (k0_off153 k) (by rw [k0_off153_eq]; rfl) k0_off200 (fun _ => rfl) (fun _ => rfl) (fun _ => rfl) (fun _ => rfl) (k0_off201 k) (by rw [k0_off201_eq]; rfl) (by rw [k0_off201_eq]; rfl) f'',
         pcR m d L hpre 1 11 0 (32 * k.val + 16) (by omega) (by omega) (by omega) (by omega) (k0_off153 k) (by rw [k0_off153_eq]; rfl) k0_off198 (fun _ => rfl) (fun _ => rfl) (fun _ => rfl) (fun _ => rfl) (k0_off199 k) (by rw [k0_off199_eq]; rfl) (by rw [k0_off199_eq]; rfl) f'',
         pcR m d L hpre 1 10 16 (32 * k.val + 16) (by omega) (by omega) (by omega) (by omega) (k0_off153 k) (by rw [k0_off153_eq]; rfl) k0_off196 (fun _ => rfl) (fun _ => rfl) (fun _ => rfl) (fun _ => rfl) (k0_off197 k) (by rw [k0_off197_eq]; rfl) (by rw [k0_off197_eq]; rfl) f'',
         pcR m d L hpre 1 10 0 (32 * k.val + 16) (by omega) (by omega) (by omega) (by omega) (k0_off153 k) (by rw [k0_off153_eq]; rfl) k0_off194 (fun _ => rfl) (fun _ => rfl) (fun _ => rfl) (fun _ => rfl) (k0_off195 k) (by rw [k0_off195_eq]; rfl) (by rw [k0_off195_eq]; rfl) f'',
         pcR m d L hpre 1 9 16 (32 * k.val + 16) (by omega) (by omega) (by omega) (by omega) (k0_off153 k) (by rw [k0_off153_eq]; rfl) k0_off192 (fun _ => rfl) (fun _ => rfl) (fun _ => rfl) (fun _ => rfl) (k0_off193 k) (by rw [k0_off193_eq]; rfl) (by rw [k0_off193_eq]; rfl) f'',
         pcR m d L hpre 1 9 0 (32 * k.val + 16) (by omega) (by omega) (by omega) (by omega) (k0_off153 k) (by rw [k0_off153_eq]; rfl) k0_off190 (fun _ => rfl) (fun _ => rfl) (fun _ => rfl) (fun _ => rfl) (k0_off191 k) (by rw [k0_off191_eq]; rfl) (by rw [k0_off191_eq]; rfl) f'',
         pcR m d L hpre 1 8 16 (32 * k.val + 16) (by omega) (by omega) (by omega) (by omega) (k0_off153 k) (by rw [k0_off153_eq]; rfl) k0_off188 (fun _ => rfl) (fun _ => rfl) (fun _ => rfl) (fun _ => rfl) (k0_off189 k) (by rw [k0_off189_eq]; rfl) (by rw [k0_off189_eq]; rfl) f'',
         pcR m d L hpre 1 8 0 (32 * k.val + 16) (by omega) (by omega) (by omega) (by omega) (k0_off153 k) (by rw [k0_off153_eq]; rfl) k0_off186 (fun _ => rfl) (fun _ => rfl) (fun _ => rfl) (fun _ => rfl) (k0_off187 k) (by rw [k0_off187_eq]; rfl) (by rw [k0_off187_eq]; rfl) f'',
         pcR m d L hpre 1 7 16 (32 * k.val + 16) (by omega) (by omega) (by omega) (by omega) (k0_off153 k) (by rw [k0_off153_eq]; rfl) k0_off184 (fun _ => rfl) (fun _ => rfl) (fun _ => rfl) (fun _ => rfl) (k0_off185 k) (by rw [k0_off185_eq]; rfl) (by rw [k0_off185_eq]; rfl) f'',
         pcR m d L hpre 1 7 0 (32 * k.val + 16) (by omega) (by omega) (by omega) (by omega) (k0_off153 k) (by rw [k0_off153_eq]; rfl) k0_off182 (fun _ => rfl) (fun _ => rfl) (fun _ => rfl) (fun _ => rfl) (k0_off183 k) (by rw [k0_off183_eq]; rfl) (by rw [k0_off183_eq]; rfl) f'',
         pcR m d L hpre 1 6 16 (32 * k.val + 16) (by omega) (by omega) (by omega) (by omega) (k0_off153 k) (by rw [k0_off153_eq]; rfl) k0_off180 (fun _ => rfl) (fun _ => rfl) (fun _ => rfl) (fun _ => rfl) (k0_off181 k) (by rw [k0_off181_eq]; rfl) (by rw [k0_off181_eq]; rfl) f'',
         pcR m d L hpre 1 6 0 (32 * k.val + 16) (by omega) (by omega) (by omega) (by omega) (k0_off153 k) (by rw [k0_off153_eq]; rfl) k0_off178 (fun _ => rfl) (fun _ => rfl) (fun _ => rfl) (fun _ => rfl) (k0_off179 k) (by rw [k0_off179_eq]; rfl) (by rw [k0_off179_eq]; rfl) f'',
         pcR m d L hpre 1 5 16 (32 * k.val + 16) (by omega) (by omega) (by omega) (by omega) (k0_off153 k) (by rw [k0_off153_eq]; rfl) k0_off176 (fun _ => rfl) (fun _ => rfl) (fun _ => rfl) (fun _ => rfl) (k0_off177 k) (by rw [k0_off177_eq]; rfl) (by rw [k0_off177_eq]; rfl) f'',
         pcR m d L hpre 1 5 0 (32 * k.val + 16) (by omega) (by omega) (by omega) (by omega) (k0_off153 k) (by rw [k0_off153_eq]; rfl) k0_off174 (fun _ => rfl) (fun _ => rfl) (fun _ => rfl) (fun _ => rfl) (k0_off175 k) (by rw [k0_off175_eq]; rfl) (by rw [k0_off175_eq]; rfl) f'',
         pcR m d L hpre 1 4 16 (32 * k.val + 16) (by omega) (by omega) (by omega) (by omega) (k0_off153 k) (by rw [k0_off153_eq]; rfl) k0_off172 (fun _ => rfl) (fun _ => rfl) (fun _ => rfl) (fun _ => rfl) (k0_off173 k) (by rw [k0_off173_eq]; rfl) (by rw [k0_off173_eq]; rfl) f'',
         pcR m d L hpre 1 4 0 (32 * k.val + 16) (by omega) (by omega) (by omega) (by omega) (k0_off153 k) (by rw [k0_off153_eq]; rfl) k0_off170 (fun _ => rfl) (fun _ => rfl) (fun _ => rfl) (fun _ => rfl) (k0_off171 k) (by rw [k0_off171_eq]; rfl) (by rw [k0_off171_eq]; rfl) f'',
         pcR m d L hpre 1 3 16 (32 * k.val + 16) (by omega) (by omega) (by omega) (by omega) (k0_off153 k) (by rw [k0_off153_eq]; rfl) k0_off168 (fun _ => rfl) (fun _ => rfl) (fun _ => rfl) (fun _ => rfl) (k0_off169 k) (by rw [k0_off169_eq]; rfl) (by rw [k0_off169_eq]; rfl) f'',
         pcR m d L hpre 1 3 0 (32 * k.val + 16) (by omega) (by omega) (by omega) (by omega) (k0_off153 k) (by rw [k0_off153_eq]; rfl) k0_off166 (fun _ => rfl) (fun _ => rfl) (fun _ => rfl) (fun _ => rfl) (k0_off167 k) (by rw [k0_off167_eq]; rfl) (by rw [k0_off167_eq]; rfl) f'',
         pcR m d L hpre 1 2 16 (32 * k.val + 16) (by omega) (by omega) (by omega) (by omega) (k0_off153 k) (by rw [k0_off153_eq]; rfl) k0_off164 (fun _ => rfl) (fun _ => rfl) (fun _ => rfl) (fun _ => rfl) (k0_off165 k) (by rw [k0_off165_eq]; rfl) (by rw [k0_off165_eq]; rfl) f'',
         pcR m d L hpre 1 2 0 (32 * k.val + 16) (by omega) (by omega) (by omega) (by omega) (k0_off153 k) (by rw [k0_off153_eq]; rfl) k0_off162 (fun _ => rfl) (fun _ => rfl) (fun _ => rfl) (fun _ => rfl) (k0_off163 k) (by rw [k0_off163_eq]; rfl) (by rw [k0_off163_eq]; rfl) f'',
         pcR m d L hpre 1 1 16 (32 * k.val + 16) (by omega) (by omega) (by omega) (by omega) (k0_off153 k) (by rw [k0_off153_eq]; rfl) k0_off160 (fun _ => rfl) (fun _ => rfl) (fun _ => rfl) (fun _ => rfl) (k0_off161 k) (by rw [k0_off161_eq]; rfl) (by rw [k0_off161_eq]; rfl) f'',
         pcR m d L hpre 1 1 0 (32 * k.val + 16) (by omega) (by omega) (by omega) (by omega) (k0_off153 k) (by rw [k0_off153_eq]; rfl) k0_off158 (fun _ => rfl) (fun _ => rfl) (fun _ => rfl) (fun _ => rfl) (k0_off159 k) (by rw [k0_off159_eq]; rfl) (by rw [k0_off159_eq]; rfl) f'',
         pcR m d L hpre 1 0 16 (32 * k.val + 16) (by omega) (by omega) (by omega) (by omega) (k0_off153 k) (by rw [k0_off153_eq]; rfl) k0_off156 (fun _ => rfl) (fun _ => rfl) (fun _ => rfl) (fun _ => rfl) (k0_off157 k) (by rw [k0_off157_eq]; rfl) (by rw [k0_off157_eq]; rfl) f'',
         pcR m d L hpre 1 0 0 (32 * k.val + 16) (by omega) (by omega) (by omega) (by omega) (k0_off153 k) (by rw [k0_off153_eq]; rfl) k0_off154 (fun _ => rfl) (fun _ => rfl) (fun _ => rfl) (fun _ => rfl) (k0_off155 k) (by rw [k0_off155_eq]; rfl) (by rw [k0_off155_eq]; rfl) f'',
         pcR m d L hpre 0 15 16 (32 * k.val) (by omega) (by omega) (by omega) (by omega) (k0_off71 k) (by rw [k0_off71_eq]; rfl) k0_off134 (fun _ => rfl) (fun _ => rfl) (fun _ => rfl) (fun _ => rfl) (k0_off135 k) (by rw [k0_off135_eq]; rfl) (by rw [k0_off135_eq]; rfl) f',
         pcR m d L hpre 0 15 0 (32 * k.val) (by omega) (by omega) (by omega) (by omega) (k0_off71 k) (by rw [k0_off71_eq]; rfl) k0_off132 (fun _ => rfl) (fun _ => rfl) (fun _ => rfl) (fun _ => rfl) (k0_off133 k) (by rw [k0_off133_eq]; rfl) (by rw [k0_off133_eq]; rfl) f',
         pcR m d L hpre 0 14 16 (32 * k.val) (by omega) (by omega) (by omega) (by omega) (k0_off71 k) (by rw [k0_off71_eq]; rfl) k0_off130 (fun _ => rfl) (fun _ => rfl) (fun _ => rfl) (fun _ => rfl) (k0_off131 k) (by rw [k0_off131_eq]; rfl) (by rw [k0_off131_eq]; rfl) f',
         pcR m d L hpre 0 14 0 (32 * k.val) (by omega) (by omega) (by omega) (by omega) (k0_off71 k) (by rw [k0_off71_eq]; rfl) k0_off128 (fun _ => rfl) (fun _ => rfl) (fun _ => rfl) (fun _ => rfl) (k0_off129 k) (by rw [k0_off129_eq]; rfl) (by rw [k0_off129_eq]; rfl) f',
         pcR m d L hpre 0 13 16 (32 * k.val) (by omega) (by omega) (by omega) (by omega) (k0_off71 k) (by rw [k0_off71_eq]; rfl) k0_off126 (fun _ => rfl) (fun _ => rfl) (fun _ => rfl) (fun _ => rfl) (k0_off127 k) (by rw [k0_off127_eq]; rfl) (by rw [k0_off127_eq]; rfl) f',
         pcR m d L hpre 0 13 0 (32 * k.val) (by omega) (by omega) (by omega) (by omega) (k0_off71 k) (by rw [k0_off71_eq]; rfl) k0_off124 (fun _ => rfl) (fun _ => rfl) (fun _ => rfl) (fun _ => rfl) (k0_off125 k) (by rw [k0_off125_eq]; rfl) (by rw [k0_off125_eq]; rfl) f',
         pcR m d L hpre 0 12 16 (32 * k.val) (by omega) (by omega) (by omega) (by omega) (k0_off71 k) (by rw [k0_off71_eq]; rfl) k0_off122 (fun _ => rfl) (fun _ => rfl) (fun _ => rfl) (fun _ => rfl) (k0_off123 k) (by rw [k0_off123_eq]; rfl) (by rw [k0_off123_eq]; rfl) f',
         pcR m d L hpre 0 12 0 (32 * k.val) (by omega) (by omega) (by omega) (by omega) (k0_off71 k) (by rw [k0_off71_eq]; rfl) k0_off120 (fun _ => rfl) (fun _ => rfl) (fun _ => rfl) (fun _ => rfl) (k0_off121 k) (by rw [k0_off121_eq]; rfl) (by rw [k0_off121_eq]; rfl) f',
         pcR m d L hpre 0 11 16 (32 * k.val) (by omega) (by omega) (by omega) (by omega) (k0_off71 k) (by rw [k0_off71_eq]; rfl) k0_off118 (fun _ => rfl) (fun _ => rfl) (fun _ => rfl) (fun _ => rfl) (k0_off119 k) (by rw [k0_off119_eq]; rfl) (by rw [k0_off119_eq]; rfl) f',
         pcR m d L hpre 0 11 0 (32 * k.val) (by omega) (by omega) (by omega) (by omega) (k0_off71 k) (by rw [k0_off71_eq]; rfl) k0_off116 (fun _ => rfl) (fun _ => rfl) (fun _ => rfl) (fun _ => rfl) (k0_off117 k) (by rw [k0_off117_eq]; rfl) (by rw [k0_off117_eq]; rfl) f',
         pcR m d L hpre 0 10 16 (32 * k.val) (by omega) (by omega) (by omega) (by omega) (k0_off71 k) (by rw [k0_off71_eq]; rfl) k0_off114 (fun _ => rfl) (fun _ => rfl) (fun _ => rfl) (fun _ => rfl) (k0_off115 k) (by rw [k0_off115_eq]; rfl) (by rw [k0_off115_eq]; rfl) f',
         pcR m d L hpre 0 10 0 (32 * k.val) (by omega) (by omega) (by omega) (by omega) (k0_off71 k) (by rw [k0_off71_eq]; rfl) k0_off112 (fun _ => rfl) (fun _ => rfl) (fun _ => rfl) (fun _ => rfl) (k0_off113 k) (by rw [k0_off113_eq]; rfl) (by rw [k0_off113_eq]; rfl) f',
         pcR m d L hpre 0 9 16 (32 * k.val) (by omega) (by omega) (by omega) (by omega) (k0_off71 k) (by rw [k0_off71_eq]; rfl) k0_off110 (fun _ => rfl) (fun _ => rfl) (fun _ => rfl) (fun _ => rfl) (k0_off111 k) (by rw [k0_off111_eq]; rfl) (by rw [k0_off111_eq]; rfl) f',
         pcR m d L hpre 0 9 0 (32 * k.val) (by omega) (by omega) (by omega) (by omega) (k0_off71 k) (by rw [k0_off71_eq]; rfl) k0_off108 (fun _ => rfl) (fun _ => rfl) (fun _ => rfl) (fun _ => rfl) (k0_off109 k) (by rw [k0_off109_eq]; rfl) (by rw [k0_off109_eq]; rfl) f',
         pcR m d L hpre 0 8 16 (32 * k.val) (by omega) (by omega) (by omega) (by omega) (k0_off71 k) (by rw [k0_off71_eq]; rfl) k0_off106 (fun _ => rfl) (fun _ => rfl) (fun _ => rfl) (fun _ => rfl) (k0_off107 k) (by rw [k0_off107_eq]; rfl) (by rw [k0_off107_eq]; rfl) f',
         pcR m d L hpre 0 8 0 (32 * k.val) (by omega) (by omega) (by omega) (by omega) (k0_off71 k) (by rw [k0_off71_eq]; rfl) k0_off104 (fun _ => rfl) (fun _ => rfl) (fun _ => rfl) (fun _ => rfl) (k0_off105 k) (by rw [k0_off105_eq]; rfl) (by rw [k0_off105_eq]; rfl) f',
         pcR m d L hpre 0 7 16 (32 * k.val) (by omega) (by omega) (by omega) (by omega) (k0_off71 k) (by rw [k0_off71_eq]; rfl) k0_off102 (fun _ => rfl) (fun _ => rfl) (fun _ => rfl) (fun _ => rfl) (k0_off103 k) (by rw [k0_off103_eq]; rfl) (by rw [k0_off103_eq]; rfl) f',
         pcR m d L hpre 0 7 0 (32 * k.val) (by omega) (by omega) (by omega) (by omega) (k0_off71 k) (by rw [k0_off71_eq]; rfl) k0_off100 (fun _ => rfl) (fun _ => rfl) (fun _ => rfl) (fun _ => rfl) (k0_off101 k) (by rw [k0_off101_eq]; rfl) (by rw [k0_off101_eq]; rfl) f',
         pcR m d L hpre 0 6 16 (32 * k.val) (by omega) (by omega) (by omega) (by omega) (k0_off71 k) (by rw [k0_off71_eq]; rfl) k0_off98 (fun _ => rfl) (fun _ => rfl) (fun _ => rfl) (fun _ => rfl) (k0_off99 k) (by rw [k0_off99_eq]; rfl) (by rw [k0_off99_eq]; rfl) f',
         pcR m d L hpre 0 6 0 (32 * k.val) (by omega) (by omega) (by omega) (by omega) (k0_off71 k) (by rw [k0_off71_eq]; rfl) k0_off96 (fun _ => rfl) (fun _ => rfl) (fun _ => rfl) (fun _ => rfl) (k0_off97 k) (by rw [k0_off97_eq]; rfl) (by rw [k0_off97_eq]; rfl) f',
         pcR m d L hpre 0 5 16 (32 * k.val) (by omega) (by omega) (by omega) (by omega) (k0_off71 k) (by rw [k0_off71_eq]; rfl) k0_off94 (fun _ => rfl) (fun _ => rfl) (fun _ => rfl) (fun _ => rfl) (k0_off95 k) (by rw [k0_off95_eq]; rfl) (by rw [k0_off95_eq]; rfl) f',
         pcR m d L hpre 0 5 0 (32 * k.val) (by omega) (by omega) (by omega) (by omega) (k0_off71 k) (by rw [k0_off71_eq]; rfl) k0_off92 (fun _ => rfl) (fun _ => rfl) (fun _ => rfl) (fun _ => rfl) (k0_off93 k) (by rw [k0_off93_eq]; rfl) (by rw [k0_off93_eq]; rfl) f',
         pcR m d L hpre 0 4 16 (32 * k.val) (by omega) (by omega) (by omega) (by omega) (k0_off71 k) (by rw [k0_off71_eq]; rfl) k0_off90 (fun _ => rfl) (fun _ => rfl) (fun _ => rfl) (fun _ => rfl) (k0_off91 k) (by rw [k0_off91_eq]; rfl) (by rw [k0_off91_eq]; rfl) f',
         pcR m d L hpre 0 4 0 (32 * k.val) (by omega) (by omega) (by omega) (by omega) (k0_off71 k) (by rw [k0_off71_eq]; rfl) k0_off88 (fun _ => rfl) (fun _ => rfl) (fun _ => rfl) (fun _ => rfl) (k0_off89 k) (by rw [k0_off89_eq]; rfl) (by rw [k0_off89_eq]; rfl) f',
         pcR m d L hpre 0 3 16 (32 * k.val) (by omega) (by omega) (by omega) (by omega) (k0_off71 k) (by rw [k0_off71_eq]; rfl) k0_off86 (fun _ => rfl) (fun _ => rfl) (fun _ => rfl) (fun _ => rfl) (k0_off87 k) (by rw [k0_off87_eq]; rfl) (by rw [k0_off87_eq]; rfl) f',
         pcR m d L hpre 0 3 0 (32 * k.val) (by omega) (by omega) (by omega) (by omega) (k0_off71 k) (by rw [k0_off71_eq]; rfl) k0_off84 (fun _ => rfl) (fun _ => rfl) (fun _ => rfl) (fun _ => rfl) (k0_off85 k) (by rw [k0_off85_eq]; rfl) (by rw [k0_off85_eq]; rfl) f',
         pcR m d L hpre 0 2 16 (32 * k.val) (by omega) (by omega) (by omega) (by omega) (k0_off71 k) (by rw [k0_off71_eq]; rfl) k0_off82 (fun _ => rfl) (fun _ => rfl) (fun _ => rfl) (fun _ => rfl) (k0_off83 k) (by rw [k0_off83_eq]; rfl) (by rw [k0_off83_eq]; rfl) f',
         pcR m d L hpre 0 2 0 (32 * k.val) (by omega) (by omega) (by omega) (by omega) (k0_off71 k) (by rw [k0_off71_eq]; rfl) k0_off80 (fun _ => rfl) (fun _ => rfl) (fun _ => rfl) (fun _ => rfl) (k0_off81 k) (by rw [k0_off81_eq]; rfl) (by rw [k0_off81_eq]; rfl) f',
         pcR m d L hpre 0 1 16 (32 * k.val) (by omega) (by omega) (by omega) (by omega) (k0_off71 k) (by rw [k0_off71_eq]; rfl) k0_off78 (fun _ => rfl) (fun _ => rfl) (fun _ => rfl) (fun _ => rfl) (k0_off79 k) (by rw [k0_off79_eq]; rfl) (by rw [k0_off79_eq]; rfl) f',
         pcR m d L hpre 0 1 0 (32 * k.val) (by omega) (by omega) (by omega) (by omega) (k0_off71 k) (by rw [k0_off71_eq]; rfl) k0_off76 (fun _ => rfl) (fun _ => rfl) (fun _ => rfl) (fun _ => rfl) (k0_off77 k) (by rw [k0_off77_eq]; rfl) (by rw [k0_off77_eq]; rfl) f',
         pcR m d L hpre 0 0 16 (32 * k.val) (by omega) (by omega) (by omega) (by omega) (k0_off71 k) (by rw [k0_off71_eq]; rfl) k0_off74 (fun _ => rfl) (fun _ => rfl) (fun _ => rfl) (fun _ => rfl) (k0_off75 k) (by rw [k0_off75_eq]; rfl) (by rw [k0_off75_eq]; rfl) f',
         pcR m d L hpre 0 0 0 (32 * k.val) (by omega) (by omega) (by omega) (by omega) (k0_off71 k) (by rw [k0_off71_eq]; rfl) k0_off72 (fun _ => rfl) (fun _ => rfl) (fun _ => rfl) (fun _ => rfl) (k0_off73 k) (by rw [k0_off73_eq]; rfl) (by rw [k0_off73_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 125000) :
    ∀ a, off a + S1x8x32.size a ≤ S125000x8x32.size a := by
  intro a
  match a with
  | 0 => rw [t0]; show g + 1 ≤ 125000; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 125000 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab0 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KS

end
-- ==== Proof.KLoop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.KLoop3Val

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 1000000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 1000000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S125000x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t3_loop.trips, k0_cond1 k = 1#1 ↔ k.val + 1 < 8 := by decide +kernel

omit [FloatOps F] in
theorem e54 : ∀ k : Fin k0_t3_loop.trips, (k0_off54 k) 0 = 16 * (2 * k.val + 1) := by decide +kernel
omit [FloatOps F] in
theorem e136 : ∀ k : Fin k0_t3_loop.trips, (k0_off136 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S125000x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab0 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t3_loop.trips → Fin 2 → Nat) (hg : ∀ k', g k' 0 < 256) (k : Fin k0_t3_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t3_loop.trips → Fin 2 → Nat) (hg : ∀ k', g k' 0 < 256) (k : Fin k0_t3_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t0W).view.loc (thr d L) ↦{q'} m (tab0 d))

theorem tabRest_elim : TabRest m d L ⊢ (iprop(∃ q' : PosShare TreeShare, (t0W).view.loc (thr d L) ↦{q'} m (tab0 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t0W).view.loc (thr d L) ↦{q'} m (tab0 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (v6 : IVec S16 32) (v164 : BitVec 32) (k0_hw30 : k0_chk30 v164) (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t3_loop k0_t3_ok ⟨⟩ (k0_t3_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 v6 v164 k0_hw30)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond1 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off54 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off54 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off54 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off54 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off54 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off54 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off54 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off54 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off54 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off54 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off54 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off54 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off54 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off54 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off54 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off54 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off136 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off136 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off136 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off136 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off136 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off136 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off136 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off136 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off136 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off136 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off136 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off136 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off136 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off136 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off136 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off136 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off54 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off54 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off54 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off54 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off54 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off54 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off54 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off54 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off54 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off54 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off54 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off54 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off54 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off54 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off54 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off54 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KS

end
-- ==== Proof.KLoop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.KLoop3

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t0W).view.loc (thr d L) ↦{q'} m (tab0 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KS

end
-- ==== Proof.K2Inv.lean ====
/-
  The definitions of KInv that speak of the first table, for table 2: the tile's piece of the index array as the body slices it,
  what the index scratch holds, what the staging buffer must hold in the end, and the phases' invariants.
-/
import proofs.«207337_g69080253988965_cont_9to1c4b_173_32_alg».proof.Proof.KInv

noncomputable section

namespace Cert.Proof.KS.T2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-- Table 1's piece of its index array, as the body slices it. -/
abbrev ids3Rect : Rect S16384 := Rect.unit (s := S16384) (k0_off253 L) S512.size (k0_off253_inb L)

abbrev ids3Slice : Memref sig .scVector .hbm S512 .i32 := (i4W).slice (ids3Rect L) (fun _ => rfl)

omit [FloatOps F] in
theorem ids3Rect_eq : ids3Rect L = idsPart (wL L) := by
  unfold ids3Rect idsPart Rect.part Rect.block
  congr 1 <;> funext a
  · rw [k0_off253_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg4_scv : Ref sig .scVector)).slice (ids3Rect L)).set = _
  rw [View.set_slice, ids3Rect_eq]; exact Finset.map_refl

omit [FloatOps F] in
theorem pts_ids3Slice (f : Buf (Elt F) (ids1 d)) :
    ((ids3Slice L).view.loc (thr d L) ↦[(ids3Slice L).view.set]{fullShare} f : sProp 𝕄) = ids1 d ↦[idsSet (wL L)]{fullShare} f := by
  rw [set_ids3Slice]

omit [FloatOps F] in
theorem pts_tab1 (q : PosShare TreeShare) (f : Buf (Elt F) (tab1 d)) :
    ((t1W).view.loc (thr d L) ↦{q} f : sProp 𝕄) = tab1 d ↦{q} f := by
  simp only [Memref.view_whole, View.set_whole]

/-- The tile's 512 indices of the first table, as the copy into the index scratch reads them. -/
def IDX1 : Buf (Elt F) ((thr d L).loc cc0_scratch0) := (ids3Slice L).view.read (Elt F) (m (ids1 d))

/-- The same as a vector of words. -/
abbrev IDX1v : IVec S512 32 := IDX1 m d L

/-- What the staging buffer must hold in the end: row `r` is the row of the first table that index `r` names. -/
def want1 : Buf (Elt F) ((thr d L).loc cc0_scratch3) :=
  fun i => m (tab1 d) (ValueIdx.ix2 (Cert.Spec.rowS (IDX1v m d L (ValueIdx.ix1 (i 0)))) (i 1))

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)

/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)

/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KS.T2

end
-- ==== Proof.K2Loop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KInv
import proofs.«207337_g69080253988965_cont_9to1c4b_173_32_alg».proof.Proof.K2Inv

noncomputable section

namespace Cert.Proof.KS.T2.L4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KS

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S100000x32.size a := by
  obtain ⟨h0, h1⟩ := (hpre d).2.1 ((ids3Slice L).view.emb r)
  have e : IDX1v m d L r = m (ids1 d) ((ids3Slice L).view.emb r) := rfl
  have hn : (IDX1v m d L r).toNat < 100000 := by
    have hv := Cert.Spec.rowS_val _ h0 h1
    rw [e, ← hv]; exact (Cert.Spec.rowS _).isLt
  intro a
  match a with
  | 0 => show (IDX1v m d L r).toNat + 1 ≤ 100000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) (c0 : BitVec 32) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t8_loop k0_t8_ok ⟨⟩ (k0_t8_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 c0)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t8_loop.lb k0_t8_loop.ub k0_t8_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off504 L) S512x32.size (k0_off504_inb L)
abbrev out3Slice : Memref sig .scVector .hbm S512x32 .f32 := (o1W).slice (out3Rect L) (fun _ => rfl)

omit [FloatOps F] in
theorem out3Rect_eq : out3Rect L = outPart (wL L) := by
  unfold out3Rect outPart Rect.part Rect.block
  congr 1 <;> funext a
  · rw [k0_off504_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_1_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out1 d)) :
    ((out3Slice L).view.loc (thr d L) ↦[(out3Slice L).view.set]{fullShare} f : sProp 𝕄) = out1 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out1 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out1 d ↦[outSet (wL L)]{fullShare} res1 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off253 L) (k0_off253_inb L) (k0_off504 L) (k0_off504_inb L)
    (by rw [k0_off253_eq, k0_off504_eq]; rfl) (by rw [k0_off504_eq]; rfl) x
  have e1 : ((out3Slice L).view.emb x) 1 = x 1 := hB
  have e0 : IDX1v m d L (ValueIdx.ix1 (x 0)) = m (ids1 d) (ValueIdx.ix1 (((out3Slice L).view.emb x) 0)) :=
    congrArg (m (ids1 d)) hA
  show m (tab1 d) (ValueIdx.ix2 (Cert.Spec.rowS (IDX1v m d L (ValueIdx.ix1 (x 0)))) (x 1))
    = m (tab1 d) (ValueIdx.ix2 (Cert.Spec.rowS (m (ids1 d) (ValueIdx.ix1 (((out3Slice L).view.emb x) 0)))) (((out3Slice L).view.emb x) 1))
  rw [e0, e1]

/-- The same with the payload as the copy reads it off the staging buffer held at contents `o`. -/
theorem copy_out_value (fo : Buf (Elt F) (out1 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out1 d ↦[outSet (wL L)]{fullShare} res1 m d :=
  copy_out_pay m d L fo _ (fun x => ho x)

end Tile

end Cert.Proof.KS.T2.L4

end
-- ==== Proof.K2Tab.lean ====
/-
  The first table on one tile: the group-number loop's invariant and its one trip, and the ranges that the range
  checks of the copies ask for (an index names a row of the table; its group number names an eight-row group).
-/
import proofs.«207337_g69080253988965_cont_9to1c4b_173_32_alg».proof.Proof.KLemmas
import proofs.«207337_g69080253988965_cont_9to1c4b_173_32_alg».proof.Proof.K2Loop4
import Idealize.ShloMosaic.Lib.Pipeline.Value
import Idealize.ShloMosaic.Lib.ValueIdx
import proofs.«207337_g69080253988965_cont_9to1c4b_173_32_alg».proof.Proof.K2Inv

noncomputable section

namespace Cert.Proof.KS.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t5_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off255 k) S16.size (k0_off255_inb k),
        k0_pay539 (View.readAt (Elt F) (sIdx).view (Rect.unit (s := S512) (k0_off254 k) S16.size (k0_off254_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off255 k) S16.size (k0_off255_inb k),
        k0_pay539 (View.readAt (Elt F) (sIdx).view (Rect.unit (s := S512) (k0_off254 k) S16.size (k0_off254_inb k)).toLoadRect (IDX1 m d L))⟩] (by
        intro p hp
        rw [List.mem_singleton] at hp; subst hp
        rw [Rect.mem_set_unit]; intro h
        have h0 := h 0; rw [k0_off255_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off255 k) S16.size (k0_off255_inb k))
      (k0_pay539 (View.readAt (Elt F) (sIdx).view (Rect.unit (s := S512) (k0_off254 k) S16.size (k0_off254_inb k)).toLoadRect (IDX1 m d L)))
      [] (ValueIdx.ix1 ⟨(j 0).val - 16 * k.val, hx⟩)
    have hemb : (Rect.unit (s := S256) (k0_off255 k) S16.size (k0_off255_inb k)).emb (ValueIdx.ix1 ⟨(j 0).val - 16 * k.val, hx⟩) = j := by
      have ho : k0_off255 k 0 = 16 * k.val := by rw [k0_off255_eq]; rfl
      funext a; apply Fin.ext
      rw [Rect.emb_apply, Subsingleton.elim a 0]
      show k0_off255 k 0 + 1 * ((j 0).val - 16 * k.val) = (j 0).val
      rw [ho]; omega
    rw [hemb] at e
    simp only [Memref.view_whole, View.read_whole] at e
    rw [e]
    unfold k0_pay539
    rw [shapeCast_self, shapeCast_self]
    show IntOp.shrui .vector (View.readAt (Elt F) (sIdx).view (Rect.unit (s := S512) (k0_off254 k) S16.size (k0_off254_inb k)).toLoadRect (IDX1 m d L)
      (ValueIdx.ix1 ⟨(j 0).val - 16 * k.val, hx⟩)) 3#32 = _
    rw [View.readAt_apply]
    simp only [Memref.view_whole, View.read_whole]
    unfold grp
    have ho2 : k0_off254 k 0 = 16 * k.val := by rw [k0_off254_eq]; rfl
    have hidx : (Rect.unit (s := S512) (k0_off254 k) S16.size (k0_off254_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off254 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 99999 :=
  (hpre d).2.1 _

/-- The group number of a row of a million-row table is below 125000. -/
theorem grp_lt (w : BitVec 32) (h0 : 0 ≤ w.toInt) (h1 : w.toInt ≤ 99999) : (grp w).toNat < 12500 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 99999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 12500 passes the gathers' range checks. -/
theorem chkG (v : BitVec 32) (hv : v.toNat < 12500) : ∀ a, (![v.toNat, 0, 0] : Fin 3 → Nat) a + S1x8x32.size a ≤ S12500x8x32.size a := by
  intro a
  match a with
  | 0 => show v.toNat + 1 ≤ 12500; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 12500 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out1 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out1 d ↦[outSet (wL L)]{fullShare} res1 m d : sProp 𝕄) := by
  iintro ⟨H, %hp⟩
  iapply (Entails.of_eq (L4.copy_out_pay m d L fo p hp)); iexact H

end Tile

end Cert.Proof.KS.T2

end
-- ==== Proof.K2Loop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KLemmas
import proofs.«207337_g69080253988965_cont_9to1c4b_173_32_alg».proof.Proof.K2Inv

noncomputable section

namespace Cert.Proof.KS.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 99999 :=
  (hpre d).2.1 ((ids3Slice L).view.emb j)

omit [FloatOps F] in
/-- A word in range passes the body's check on the row it names. -/
theorem chk_of_range (w : BitVec 32) (h : 0 ≤ w.toInt ∧ w.toInt ≤ 99999) :
    ∀ a, (![w.toNat, 0] : Fin 2 → ℕ) a + S1x32.size a ≤ S100000x32.size a := by
  have hw : w.toNat ≤ 99999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 100000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S100000x32.size a) : Memref sig .scVector .hbm S32 .f32 :=
  ((t1W).slice (Rect.unit (s := S100000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S100000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg1)))) Finset.univ))
    ∗ ((srcRow offS hS).view.loc (thr d L) ↦[(srcRow offS hS).view.set]{q} m ((SparseCore.T d).loc main_arg1)))

/-- The delivery of the copy of the row that index 256 + n names into staging row 256 + n is good: the index is in range,
    so the row read is the row it names. -/
theorem deliv_good (hpre : PreOK m) {offS : Fin 2 → ℕ} {hS : ∀ a, offS a + S1x32.size a ≤ S100000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab1 d) ((srcRow _ hS).view.emb x)
      = m (tab1 d) (ValueIdx.ix2 (Cert.Spec.rowS (IDX1v m d L (ValueIdx.ix1 (((dstRow _ hD).view.emb x) 0)))) (((dstRow _ hD).view.emb x) 1))
    have ext2 : ∀ (u v : S100000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowS (IDX1v m d L j)).val
      rw [Cert.Spec.rowS_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S100000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t1W).view.loc (thr d L) ↦{q} m (tab1 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t1W).view.loc (thr d L) ↦{q.left} m (tab1 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab1 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t1W).view.loc (thr d L) ↦{q'} m (tab1 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

variable {xv0 xv1 : BitVec 32}

/-- One trip: sixteen indices read, sixteen copies started. -/
theorem trip2 (hpre : PreOK m) (k : Fin k0_t6_loop.trips) (acc : Unit) :
    inv2 m d L k.val acc ⊢ wp frame (wpE (defs₀ (F := F)) 𝒱₀ (thr d L) none) Set.univ
      (k0_t6_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 xv1 k acc) (inv2 m d L (k.val + 1)) := by
  have hk : k.val < 16 := k.isLt
  unfold inv2 k0_t6_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off259_eq k ⟨0, by decide⟩).trans (vec2_congr (by show 16 * k.val + 0 + 256 = _; omega)), _, ?_, rfl⟩
    rw [Shape.reshapeEquiv_self]
    show (k0_off256 k) 0 + 1 * (0 + 0) = _
    rw [k0_off256_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off261_eq k ⟨0, by decide⟩).trans (vec2_congr (by show 16 * k.val + 0 + 257 = _; omega)), _, ?_, rfl⟩
    rw [Shape.reshapeEquiv_self]
    show (k0_off256 k) 0 + 1 * (1 + 0) = _
    rw [k0_off256_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off263_eq k ⟨0, by decide⟩).trans (vec2_congr (by show 16 * k.val + 0 + 258 = _; omega)), _, ?_, rfl⟩
    rw [Shape.reshapeEquiv_self]
    show (k0_off256 k) 0 + 1 * (2 + 0) = _
    rw [k0_off256_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off265_eq k ⟨0, by decide⟩).trans (vec2_congr (by show 16 * k.val + 0 + 259 = _; omega)), _, ?_, rfl⟩
    rw [Shape.reshapeEquiv_self]
    show (k0_off256 k) 0 + 1 * (3 + 0) = _
    rw [k0_off256_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off267_eq k ⟨0, by decide⟩).trans (vec2_congr (by show 16 * k.val + 0 + 260 = _; omega)), _, ?_, rfl⟩
    rw [Shape.reshapeEquiv_self]
    show (k0_off256 k) 0 + 1 * (4 + 0) = _
    rw [k0_off256_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off269_eq k ⟨0, by decide⟩).trans (vec2_congr (by show 16 * k.val + 0 + 261 = _; omega)), _, ?_, rfl⟩
    rw [Shape.reshapeEquiv_self]
    show (k0_off256 k) 0 + 1 * (5 + 0) = _
    rw [k0_off256_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off271_eq k ⟨0, by decide⟩).trans (vec2_congr (by show 16 * k.val + 0 + 262 = _; omega)), _, ?_, rfl⟩
    rw [Shape.reshapeEquiv_self]
    show (k0_off256 k) 0 + 1 * (6 + 0) = _
    rw [k0_off256_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off273_eq k ⟨0, by decide⟩).trans (vec2_congr (by show 16 * k.val + 0 + 263 = _; omega)), _, ?_, rfl⟩
    rw [Shape.reshapeEquiv_self]
    show (k0_off256 k) 0 + 1 * (7 + 0) = _
    rw [k0_off256_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off275_eq k ⟨0, by decide⟩).trans (vec2_congr (by show 16 * k.val + 0 + 264 = _; omega)), _, ?_, rfl⟩
    rw [Shape.reshapeEquiv_self]
    show (k0_off256 k) 0 + 1 * (8 + 0) = _
    rw [k0_off256_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off277_eq k ⟨0, by decide⟩).trans (vec2_congr (by show 16 * k.val + 0 + 265 = _; omega)), _, ?_, rfl⟩
    rw [Shape.reshapeEquiv_self]
    show (k0_off256 k) 0 + 1 * (9 + 0) = _
    rw [k0_off256_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off279_eq k ⟨0, by decide⟩).trans (vec2_congr (by show 16 * k.val + 0 + 266 = _; omega)), _, ?_, rfl⟩
    rw [Shape.reshapeEquiv_self]
    show (k0_off256 k) 0 + 1 * (10 + 0) = _
    rw [k0_off256_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off281_eq k ⟨0, by decide⟩).trans (vec2_congr (by show 16 * k.val + 0 + 267 = _; omega)), _, ?_, rfl⟩
    rw [Shape.reshapeEquiv_self]
    show (k0_off256 k) 0 + 1 * (11 + 0) = _
    rw [k0_off256_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off283_eq k ⟨0, by decide⟩).trans (vec2_congr (by show 16 * k.val + 0 + 268 = _; omega)), _, ?_, rfl⟩
    rw [Shape.reshapeEquiv_self]
    show (k0_off256 k) 0 + 1 * (12 + 0) = _
    rw [k0_off256_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off285_eq k ⟨0, by decide⟩).trans (vec2_congr (by show 16 * k.val + 0 + 269 = _; omega)), _, ?_, rfl⟩
    rw [Shape.reshapeEquiv_self]
    show (k0_off256 k) 0 + 1 * (13 + 0) = _
    rw [k0_off256_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off287_eq k ⟨0, by decide⟩).trans (vec2_congr (by show 16 * k.val + 0 + 270 = _; omega)), _, ?_, rfl⟩
    rw [Shape.reshapeEquiv_self]
    show (k0_off256 k) 0 + 1 * (14 + 0) = _
    rw [k0_off256_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off289_eq k).trans (vec2_congr (by omega)), _, ?_, rfl⟩
    rw [Shape.reshapeEquiv_self]
    show (k0_off256 k) 0 + 1 * (15 + 0) = _
    rw [k0_off256_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t1W).view.loc (thr d L) ↦{q} m (tab1 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t1W).view.loc (thr d L) ↦{q'} m (tab1 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t6_loop k0_t6_ok ⟨⟩ (k0_t6_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 xv1)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t6_loop.lb k0_t6_loop.ub k0_t6_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KS.T2

end
-- ==== Proof.K2Loop3Val.lean ====
/-
  Values of the pair loop's extract step on one tile: pure facts, no program.

  An index w that lies in the table (0 ≤ w ≤ 99999 as a signed word) names row w; the kernel fetches the group of
  eight rows that holds it, group w >>> 3 of the table regrouped as [12500, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KLemmas
import proofs.«207337_g69080253988965_cont_9to1c4b_173_32_alg».proof.Proof.K2Inv

noncomputable section

namespace Cert.Proof.KS.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 100000 := ⟨min (8 * g + s) 99999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 99999) : w.toNat ≤ 99999 := by
  have hv := Cert.Spec.rowS_val w h0 h1
  have := (Cert.Spec.rowS w).isLt
  omega

omit [FloatOps F] in
theorem slot_eq (w : BitVec 32) (h0 : 0 ≤ w.toInt) (h1 : w.toInt ≤ 99999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 99999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 99999) : (grp w).toNat ≤ 12499 := by
  have hw := toNat_of_pre w h0 h1
  rw [grp_toNat]; omega

omit [FloatOps F] in
theorem grp_slot (w : BitVec 32) (h0 : 0 ≤ w.toInt) (h1 : w.toInt ≤ 99999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 99999) :
    grow (grp w).toNat (slot w) = Cert.Spec.rowS w := by
  apply Fin.ext
  have hv := Cert.Spec.rowS_val w h0 h1
  have hw := toNat_of_pre w h0 h1
  have hs := grp_slot w h0 h1
  show min (8 * (grp w).toNat + slot w) 99999 = (Cert.Spec.rowS w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S12500x8x32.Idx) :
    Shape.reshapeEquiv (s := S100000x32) (s' := S12500x8x32) reshapes_S100000x32_S12500x8x32.1 z
      = (ValueIdx.ix2 (⟨8 * (z 0).val + (z 1).val, by
            have h0 : (z 0).val < 12500 := (z 0).isLt
            have h1 : (z 1).val < 8 := (z 1).isLt
            omega⟩ : Fin 100000) (z 2) : S100000x32.Idx) := by
  apply Shape.reshapeEquiv_eq_of_rowMajor
  show ((⟨2, ![100000, 32]⟩ : Shape).rowMajor (ValueIdx.ix2 (⟨8 * (z 0).val + (z 1).val, _⟩ : Fin 100000) (z 2)) : Nat)
    = ((⟨3, ![12500, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S12500x8x32.size a) : Memref sig .scVector .hbm S8x32 .f32 :=
  (((t1W).reshape S12500x8x32 reshapes_S100000x32_S12500x8x32.1 reshapes_S100000x32_S12500x8x32.2 (Memref.isWhole_whole _).contiguous).slice
    (Rect.unit (s := S12500x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S12500x8x32.size a) (g : Nat)
    (t0 : offT 0 = g) (t1 : offT 1 = 0) (t2 : offT 2 = 0) (y : S8x32.Idx) :
    (tabGrp offT inbT).view.emb y = (ValueIdx.ix2 (grow g (y 0).val) (y 1) : S100000x32.Idx) := by
  have hy0 : (y 0).val < 8 := (y 0).isLt
  have hg : g + 1 ≤ 12500 := by have := inbT 0; rw [t0] at this; exact this
  show Shape.reshapeEquiv (s := S100000x32) (s' := S12500x8x32) reshapes_S100000x32_S12500x8x32.1
      ((Rect.unit (s := S12500x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 99999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S12500x8x32.size a) (g : Nat)
    (t0 : offT 0 = g) (t1 : offT 1 = 0) (t2 : offT 2 = 0) (y : S8x32.Idx) :
    View.read (Elt F) (tabGrp offT inbT).view (m (tab1 d)) y = m (tab1 d) (ValueIdx.ix2 (grow g (y 0).val) (y 1)) := by
  show m (tab1 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S12500x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab1 d)))) Finset.univ i
        = m (tab1 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab1 d)))) (Finset.mem_univ x)
  rw [hx] at key
  rw [key]
  show View.read (Elt F) (tabGrp offT inbT).view (m (tab1 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab1 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).2.1 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab1 d) (ValueIdx.ix2 (Cert.Spec.rowS (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 99999 = min (8 * (grp (idxAt m d L r)).toNat + slot (idxAt m d L r)) 99999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab1 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S12500x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab1 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 99999 :=
  (hpre d).2.1 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S12500x8x32.size a := by
  obtain ⟨h0, h1⟩ := idxAt_pre m d L hpre r
  have hg := grp_le _ h0 h1
  intro a
  match a with
  | 0 => show (grp (idxAt m d L r)).toNat + 1 ≤ 12500; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t7_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off405 k) (by rw [k0_off405_eq]; rfl) k0_off468 (fun _ => rfl) (fun _ => rfl) (fun _ => rfl) (fun _ => rfl) (k0_off469 k) (by rw [k0_off469_eq]; rfl) (by rw [k0_off469_eq]; rfl) f'',
         pcR m d L hpre 1 15 0 (32 * k.val + 16) (by omega) (by omega) (by omega) (by omega) (k0_off405 k) (by rw [k0_off405_eq]; rfl) k0_off466 (fun _ => rfl) (fun _ => rfl) (fun _ => rfl) (fun _ => rfl) (k0_off467 k) (by rw [k0_off467_eq]; rfl) (by rw [k0_off467_eq]; rfl) f'',
         pcR m d L hpre 1 14 16 (32 * k.val + 16) (by omega) (by omega) (by omega) (by omega) (k0_off405 k) (by rw [k0_off405_eq]; rfl) k0_off464 (fun _ => rfl) (fun _ => rfl) (fun _ => rfl) (fun _ => rfl) (k0_off465 k) (by rw [k0_off465_eq]; rfl) (by rw [k0_off465_eq]; rfl) f'',
         pcR m d L hpre 1 14 0 (32 * k.val + 16) (by omega) (by omega) (by omega) (by omega) (k0_off405 k) (by rw [k0_off405_eq]; rfl) k0_off462 (fun _ => rfl) (fun _ => rfl) (fun _ => rfl) (fun _ => rfl) (k0_off463 k) (by rw [k0_off463_eq]; rfl) (by rw [k0_off463_eq]; rfl) f'',
         pcR m d L hpre 1 13 16 (32 * k.val + 16) (by omega) (by omega) (by omega) (by omega) (k0_off405 k) (by rw [k0_off405_eq]; rfl) k0_off460 (fun _ => rfl) (fun _ => rfl) (fun _ => rfl) (fun _ => rfl) (k0_off461 k) (by rw [k0_off461_eq]; rfl) (by rw [k0_off461_eq]; rfl) f'',
         pcR m d L hpre 1 13 0 (32 * k.val + 16) (by omega) (by omega) (by omega) (by omega) (k0_off405 k) (by rw [k0_off405_eq]; rfl) k0_off458 (fun _ => rfl) (fun _ => rfl) (fun _ => rfl) (fun _ => rfl) (k0_off459 k) (by rw [k0_off459_eq]; rfl) (by rw [k0_off459_eq]; rfl) f'',
         pcR m d L hpre 1 12 16 (32 * k.val + 16) (by omega) (by omega) (by omega) (by omega) (k0_off405 k) (by rw [k0_off405_eq]; rfl) k0_off456 (fun _ => rfl) (fun _ => rfl) (fun _ => rfl) (fun _ => rfl) (k0_off457 k) (by rw [k0_off457_eq]; rfl) (by rw [k0_off457_eq]; rfl) f'',
         pcR m d L hpre 1 12 0 (32 * k.val + 16) (by omega) (by omega) (by omega) (by omega) (k0_off405 k) (by rw [k0_off405_eq]; rfl) k0_off454 (fun _ => rfl) (fun _ => rfl) (fun _ => rfl) (fun _ => rfl) (k0_off455 k) (by rw [k0_off455_eq]; rfl) (by rw [k0_off455_eq]; rfl) f'',
         pcR m d L hpre 1 11 16 (32 * k.val + 16) (by omega) (by omega) (by omega) (by omega) (k0_off405 k) (by rw [k0_off405_eq]; rfl) k0_off452 (fun _ => rfl) (fun _ => rfl) (fun _ => rfl) (fun _ => rfl) (k0_off453 k) (by rw [k0_off453_eq]; rfl) (by rw [k0_off453_eq]; rfl) f'',
         pcR m d L hpre 1 11 0 (32 * k.val + 16) (by omega) (by omega) (by omega) (by omega) (k0_off405 k) (by rw [k0_off405_eq]; rfl) k0_off450 (fun _ => rfl) (fun _ => rfl) (fun _ => rfl) (fun _ => rfl) (k0_off451 k) (by rw [k0_off451_eq]; rfl) (by rw [k0_off451_eq]; rfl) f'',
         pcR m d L hpre 1 10 16 (32 * k.val + 16) (by omega) (by omega) (by omega) (by omega) (k0_off405 k) (by rw [k0_off405_eq]; rfl) k0_off448 (fun _ => rfl) (fun _ => rfl) (fun _ => rfl) (fun _ => rfl) (k0_off449 k) (by rw [k0_off449_eq]; rfl) (by rw [k0_off449_eq]; rfl) f'',
         pcR m d L hpre 1 10 0 (32 * k.val + 16) (by omega) (by omega) (by omega) (by omega) (k0_off405 k) (by rw [k0_off405_eq]; rfl) k0_off446 (fun _ => rfl) (fun _ => rfl) (fun _ => rfl) (fun _ => rfl) (k0_off447 k) (by rw [k0_off447_eq]; rfl) (by rw [k0_off447_eq]; rfl) f'',
         pcR m d L hpre 1 9 16 (32 * k.val + 16) (by omega) (by omega) (by omega) (by omega) (k0_off405 k) (by rw [k0_off405_eq]; rfl) k0_off444 (fun _ => rfl) (fun _ => rfl) (fun _ => rfl) (fun _ => rfl) (k0_off445 k) (by rw [k0_off445_eq]; rfl) (by rw [k0_off445_eq]; rfl) f'',
         pcR m d L hpre 1 9 0 (32 * k.val + 16) (by omega) (by omega) (by omega) (by omega) (k0_off405 k) (by rw [k0_off405_eq]; rfl) k0_off442 (fun _ => rfl) (fun _ => rfl) (fun _ => rfl) (fun _ => rfl) (k0_off443 k) (by rw [k0_off443_eq]; rfl) (by rw [k0_off443_eq]; rfl) f'',
         pcR m d L hpre 1 8 16 (32 * k.val + 16) (by omega) (by omega) (by omega) (by omega) (k0_off405 k) (by rw [k0_off405_eq]; rfl) k0_off440 (fun _ => rfl) (fun _ => rfl) (fun _ => rfl) (fun _ => rfl) (k0_off441 k) (by rw [k0_off441_eq]; rfl) (by rw [k0_off441_eq]; rfl) f'',
         pcR m d L hpre 1 8 0 (32 * k.val + 16) (by omega) (by omega) (by omega) (by omega) (k0_off405 k) (by rw [k0_off405_eq]; rfl) k0_off438 (fun _ => rfl) (fun _ => rfl) (fun _ => rfl) (fun _ => rfl) (k0_off439 k) (by rw [k0_off439_eq]; rfl) (by rw [k0_off439_eq]; rfl) f'',
         pcR m d L hpre 1 7 16 (32 * k.val + 16) (by omega) (by omega) (by omega) (by omega) (k0_off405 k) (by rw [k0_off405_eq]; rfl) k0_off436 (fun _ => rfl) (fun _ => rfl) (fun _ => rfl) (fun _ => rfl) (k0_off437 k) (by rw [k0_off437_eq]; rfl) (by rw [k0_off437_eq]; rfl) f'',
         pcR m d L hpre 1 7 0 (32 * k.val + 16) (by omega) (by omega) (by omega) (by omega) (k0_off405 k) (by rw [k0_off405_eq]; rfl) k0_off434 (fun _ => rfl) (fun _ => rfl) (fun _ => rfl) (fun _ => rfl) (k0_off435 k) (by rw [k0_off435_eq]; rfl) (by rw [k0_off435_eq]; rfl) f'',
         pcR m d L hpre 1 6 16 (32 * k.val + 16) (by omega) (by omega) (by omega) (by omega) (k0_off405 k) (by rw [k0_off405_eq]; rfl) k0_off432 (fun _ => rfl) (fun _ => rfl) (fun _ => rfl) (fun _ => rfl) (k0_off433 k) (by rw [k0_off433_eq]; rfl) (by rw [k0_off433_eq]; rfl) f'',
         pcR m d L hpre 1 6 0 (32 * k.val + 16) (by omega) (by omega) (by omega) (by omega) (k0_off405 k) (by rw [k0_off405_eq]; rfl) k0_off430 (fun _ => rfl) (fun _ => rfl) (fun _ => rfl) (fun _ => rfl) (k0_off431 k) (by rw [k0_off431_eq]; rfl) (by rw [k0_off431_eq]; rfl) f'',
         pcR m d L hpre 1 5 16 (32 * k.val + 16) (by omega) (by omega) (by omega) (by omega) (k0_off405 k) (by rw [k0_off405_eq]; rfl) k0_off428 (fun _ => rfl) (fun _ => rfl) (fun _ => rfl) (fun _ => rfl) (k0_off429 k) (by rw [k0_off429_eq]; rfl) (by rw [k0_off429_eq]; rfl) f'',
         pcR m d L hpre 1 5 0 (32 * k.val + 16) (by omega) (by omega) (by omega) (by omega) (k0_off405 k) (by rw [k0_off405_eq]; rfl) k0_off426 (fun _ => rfl) (fun _ => rfl) (fun _ => rfl) (fun _ => rfl) (k0_off427 k) (by rw [k0_off427_eq]; rfl) (by rw [k0_off427_eq]; rfl) f'',
         pcR m d L hpre 1 4 16 (32 * k.val + 16) (by omega) (by omega) (by omega) (by omega) (k0_off405 k) (by rw [k0_off405_eq]; rfl) k0_off424 (fun _ => rfl) (fun _ => rfl) (fun _ => rfl) (fun _ => rfl) (k0_off425 k) (by rw [k0_off425_eq]; rfl) (by rw [k0_off425_eq]; rfl) f'',
         pcR m d L hpre 1 4 0 (32 * k.val + 16) (by omega) (by omega) (by omega) (by omega) (k0_off405 k) (by rw [k0_off405_eq]; rfl) k0_off422 (fun _ => rfl) (fun _ => rfl) (fun _ => rfl) (fun _ => rfl) (k0_off423 k) (by rw [k0_off423_eq]; rfl) (by rw [k0_off423_eq]; rfl) f'',
         pcR m d L hpre 1 3 16 (32 * k.val + 16) (by omega) (by omega) (by omega) (by omega) (k0_off405 k) (by rw [k0_off405_eq]; rfl) k0_off420 (fun _ => rfl) (fun _ => rfl) (fun _ => rfl) (fun _ => rfl) (k0_off421 k) (by rw [k0_off421_eq]; rfl) (by rw [k0_off421_eq]; rfl) f'',
         pcR m d L hpre 1 3 0 (32 * k.val + 16) (by omega) (by omega) (by omega) (by omega) (k0_off405 k) (by rw [k0_off405_eq]; rfl) k0_off418 (fun _ => rfl) (fun _ => rfl) (fun _ => rfl) (fun _ => rfl) (k0_off419 k) (by rw [k0_off419_eq]; rfl) (by rw [k0_off419_eq]; rfl) f'',
         pcR m d L hpre 1 2 16 (32 * k.val + 16) (by omega) (by omega) (by omega) (by omega) (k0_off405 k) (by rw [k0_off405_eq]; rfl) k0_off416 (fun _ => rfl) (fun _ => rfl) (fun _ => rfl) (fun _ => rfl) (k0_off417 k) (by rw [k0_off417_eq]; rfl) (by rw [k0_off417_eq]; rfl) f'',
         pcR m d L hpre 1 2 0 (32 * k.val + 16) (by omega) (by omega) (by omega) (by omega) (k0_off405 k) (by rw [k0_off405_eq]; rfl) k0_off414 (fun _ => rfl) (fun _ => rfl) (fun _ => rfl) (fun _ => rfl) (k0_off415 k) (by rw [k0_off415_eq]; rfl) (by rw [k0_off415_eq]; rfl) f'',
         pcR m d L hpre 1 1 16 (32 * k.val + 16) (by omega) (by omega) (by omega) (by omega) (k0_off405 k) (by rw [k0_off405_eq]; rfl) k0_off412 (fun _ => rfl) (fun _ => rfl) (fun _ => rfl) (fun _ => rfl) (k0_off413 k) (by rw [k0_off413_eq]; rfl) (by rw [k0_off413_eq]; rfl) f'',
         pcR m d L hpre 1 1 0 (32 * k.val + 16) (by omega) (by omega) (by omega) (by omega) (k0_off405 k) (by rw [k0_off405_eq]; rfl) k0_off410 (fun _ => rfl) (fun _ => rfl) (fun _ => rfl) (fun _ => rfl) (k0_off411 k) (by rw [k0_off411_eq]; rfl) (by rw [k0_off411_eq]; rfl) f'',
         pcR m d L hpre 1 0 16 (32 * k.val + 16) (by omega) (by omega) (by omega) (by omega) (k0_off405 k) (by rw [k0_off405_eq]; rfl) k0_off408 (fun _ => rfl) (fun _ => rfl) (fun _ => rfl) (fun _ => rfl) (k0_off409 k) (by rw [k0_off409_eq]; rfl) (by rw [k0_off409_eq]; rfl) f'',
         pcR m d L hpre 1 0 0 (32 * k.val + 16) (by omega) (by omega) (by omega) (by omega) (k0_off405 k) (by rw [k0_off405_eq]; rfl) k0_off406 (fun _ => rfl) (fun _ => rfl) (fun _ => rfl) (fun _ => rfl) (k0_off407 k) (by rw [k0_off407_eq]; rfl) (by rw [k0_off407_eq]; rfl) f'',
         pcR m d L hpre 0 15 16 (32 * k.val) (by omega) (by omega) (by omega) (by omega) (k0_off323 k) (by rw [k0_off323_eq]; rfl) k0_off386 (fun _ => rfl) (fun _ => rfl) (fun _ => rfl) (fun _ => rfl) (k0_off387 k) (by rw [k0_off387_eq]; rfl) (by rw [k0_off387_eq]; rfl) f',
         pcR m d L hpre 0 15 0 (32 * k.val) (by omega) (by omega) (by omega) (by omega) (k0_off323 k) (by rw [k0_off323_eq]; rfl) k0_off384 (fun _ => rfl) (fun _ => rfl) (fun _ => rfl) (fun _ => rfl) (k0_off385 k) (by rw [k0_off385_eq]; rfl) (by rw [k0_off385_eq]; rfl) f',
         pcR m d L hpre 0 14 16 (32 * k.val) (by omega) (by omega) (by omega) (by omega) (k0_off323 k) (by rw [k0_off323_eq]; rfl) k0_off382 (fun _ => rfl) (fun _ => rfl) (fun _ => rfl) (fun _ => rfl) (k0_off383 k) (by rw [k0_off383_eq]; rfl) (by rw [k0_off383_eq]; rfl) f',
         pcR m d L hpre 0 14 0 (32 * k.val) (by omega) (by omega) (by omega) (by omega) (k0_off323 k) (by rw [k0_off323_eq]; rfl) k0_off380 (fun _ => rfl) (fun _ => rfl) (fun _ => rfl) (fun _ => rfl) (k0_off381 k) (by rw [k0_off381_eq]; rfl) (by rw [k0_off381_eq]; rfl) f',
         pcR m d L hpre 0 13 16 (32 * k.val) (by omega) (by omega) (by omega) (by omega) (k0_off323 k) (by rw [k0_off323_eq]; rfl) k0_off378 (fun _ => rfl) (fun _ => rfl) (fun _ => rfl) (fun _ => rfl) (k0_off379 k) (by rw [k0_off379_eq]; rfl) (by rw [k0_off379_eq]; rfl) f',
         pcR m d L hpre 0 13 0 (32 * k.val) (by omega) (by omega) (by omega) (by omega) (k0_off323 k) (by rw [k0_off323_eq]; rfl) k0_off376 (fun _ => rfl) (fun _ => rfl) (fun _ => rfl) (fun _ => rfl) (k0_off377 k) (by rw [k0_off377_eq]; rfl) (by rw [k0_off377_eq]; rfl) f',
         pcR m d L hpre 0 12 16 (32 * k.val) (by omega) (by omega) (by omega) (by omega) (k0_off323 k) (by rw [k0_off323_eq]; rfl) k0_off374 (fun _ => rfl) (fun _ => rfl) (fun _ => rfl) (fun _ => rfl) (k0_off375 k) (by rw [k0_off375_eq]; rfl) (by rw [k0_off375_eq]; rfl) f',
         pcR m d L hpre 0 12 0 (32 * k.val) (by omega) (by omega) (by omega) (by omega) (k0_off323 k) (by rw [k0_off323_eq]; rfl) k0_off372 (fun _ => rfl) (fun _ => rfl) (fun _ => rfl) (fun _ => rfl) (k0_off373 k) (by rw [k0_off373_eq]; rfl) (by rw [k0_off373_eq]; rfl) f',
         pcR m d L hpre 0 11 16 (32 * k.val) (by omega) (by omega) (by omega) (by omega) (k0_off323 k) (by rw [k0_off323_eq]; rfl) k0_off370 (fun _ => rfl) (fun _ => rfl) (fun _ => rfl) (fun _ => rfl) (k0_off371 k) (by rw [k0_off371_eq]; rfl) (by rw [k0_off371_eq]; rfl) f',
         pcR m d L hpre 0 11 0 (32 * k.val) (by omega) (by omega) (by omega) (by omega) (k0_off323 k) (by rw [k0_off323_eq]; rfl) k0_off368 (fun _ => rfl) (fun _ => rfl) (fun _ => rfl) (fun _ => rfl) (k0_off369 k) (by rw [k0_off369_eq]; rfl) (by rw [k0_off369_eq]; rfl) f',
         pcR m d L hpre 0 10 16 (32 * k.val) (by omega) (by omega) (by omega) (by omega) (k0_off323 k) (by rw [k0_off323_eq]; rfl) k0_off366 (fun _ => rfl) (fun _ => rfl) (fun _ => rfl) (fun _ => rfl) (k0_off367 k) (by rw [k0_off367_eq]; rfl) (by rw [k0_off367_eq]; rfl) f',
         pcR m d L hpre 0 10 0 (32 * k.val) (by omega) (by omega) (by omega) (by omega) (k0_off323 k) (by rw [k0_off323_eq]; rfl) k0_off364 (fun _ => rfl) (fun _ => rfl) (fun _ => rfl) (fun _ => rfl) (k0_off365 k) (by rw [k0_off365_eq]; rfl) (by rw [k0_off365_eq]; rfl) f',
         pcR m d L hpre 0 9 16 (32 * k.val) (by omega) (by omega) (by omega) (by omega) (k0_off323 k) (by rw [k0_off323_eq]; rfl) k0_off362 (fun _ => rfl) (fun _ => rfl) (fun _ => rfl) (fun _ => rfl) (k0_off363 k) (by rw [k0_off363_eq]; rfl) (by rw [k0_off363_eq]; rfl) f',
         pcR m d L hpre 0 9 0 (32 * k.val) (by omega) (by omega) (by omega) (by omega) (k0_off323 k) (by rw [k0_off323_eq]; rfl) k0_off360 (fun _ => rfl) (fun _ => rfl) (fun _ => rfl) (fun _ => rfl) (k0_off361 k) (by rw [k0_off361_eq]; rfl) (by rw [k0_off361_eq]; rfl) f',
         pcR m d L hpre 0 8 16 (32 * k.val) (by omega) (by omega) (by omega) (by omega) (k0_off323 k) (by rw [k0_off323_eq]; rfl) k0_off358 (fun _ => rfl) (fun _ => rfl) (fun _ => rfl) (fun _ => rfl) (k0_off359 k) (by rw [k0_off359_eq]; rfl) (by rw [k0_off359_eq]; rfl) f',
         pcR m d L hpre 0 8 0 (32 * k.val) (by omega) (by omega) (by omega) (by omega) (k0_off323 k) (by rw [k0_off323_eq]; rfl) k0_off356 (fun _ => rfl) (fun _ => rfl) (fun _ => rfl) (fun _ => rfl) (k0_off357 k) (by rw [k0_off357_eq]; rfl) (by rw [k0_off357_eq]; rfl) f',
         pcR m d L hpre 0 7 16 (32 * k.val) (by omega) (by omega) (by omega) (by omega) (k0_off323 k) (by rw [k0_off323_eq]; rfl) k0_off354 (fun _ => rfl) (fun _ => rfl) (fun _ => rfl) (fun _ => rfl) (k0_off355 k) (by rw [k0_off355_eq]; rfl) (by rw [k0_off355_eq]; rfl) f',
         pcR m d L hpre 0 7 0 (32 * k.val) (by omega) (by omega) (by omega) (by omega) (k0_off323 k) (by rw [k0_off323_eq]; rfl) k0_off352 (fun _ => rfl) (fun _ => rfl) (fun _ => rfl) (fun _ => rfl) (k0_off353 k) (by rw [k0_off353_eq]; rfl) (by rw [k0_off353_eq]; rfl) f',
         pcR m d L hpre 0 6 16 (32 * k.val) (by omega) (by omega) (by omega) (by omega) (k0_off323 k) (by rw [k0_off323_eq]; rfl) k0_off350 (fun _ => rfl) (fun _ => rfl) (fun _ => rfl) (fun _ => rfl) (k0_off351 k) (by rw [k0_off351_eq]; rfl) (by rw [k0_off351_eq]; rfl) f',
         pcR m d L hpre 0 6 0 (32 * k.val) (by omega) (by omega) (by omega) (by omega) (k0_off323 k) (by rw [k0_off323_eq]; rfl) k0_off348 (fun _ => rfl) (fun _ => rfl) (fun _ => rfl) (fun _ => rfl) (k0_off349 k) (by rw [k0_off349_eq]; rfl) (by rw [k0_off349_eq]; rfl) f',
         pcR m d L hpre 0 5 16 (32 * k.val) (by omega) (by omega) (by omega) (by omega) (k0_off323 k) (by rw [k0_off323_eq]; rfl) k0_off346 (fun _ => rfl) (fun _ => rfl) (fun _ => rfl) (fun _ => rfl) (k0_off347 k) (by rw [k0_off347_eq]; rfl) (by rw [k0_off347_eq]; rfl) f',
         pcR m d L hpre 0 5 0 (32 * k.val) (by omega) (by omega) (by omega) (by omega) (k0_off323 k) (by rw [k0_off323_eq]; rfl) k0_off344 (fun _ => rfl) (fun _ => rfl) (fun _ => rfl) (fun _ => rfl) (k0_off345 k) (by rw [k0_off345_eq]; rfl) (by rw [k0_off345_eq]; rfl) f',
         pcR m d L hpre 0 4 16 (32 * k.val) (by omega) (by omega) (by omega) (by omega) (k0_off323 k) (by rw [k0_off323_eq]; rfl) k0_off342 (fun _ => rfl) (fun _ => rfl) (fun _ => rfl) (fun _ => rfl) (k0_off343 k) (by rw [k0_off343_eq]; rfl) (by rw [k0_off343_eq]; rfl) f',
         pcR m d L hpre 0 4 0 (32 * k.val) (by omega) (by omega) (by omega) (by omega) (k0_off323 k) (by rw [k0_off323_eq]; rfl) k0_off340 (fun _ => rfl) (fun _ => rfl) (fun _ => rfl) (fun _ => rfl) (k0_off341 k) (by rw [k0_off341_eq]; rfl) (by rw [k0_off341_eq]; rfl) f',
         pcR m d L hpre 0 3 16 (32 * k.val) (by omega) (by omega) (by omega) (by omega) (k0_off323 k) (by rw [k0_off323_eq]; rfl) k0_off338 (fun _ => rfl) (fun _ => rfl) (fun _ => rfl) (fun _ => rfl) (k0_off339 k) (by rw [k0_off339_eq]; rfl) (by rw [k0_off339_eq]; rfl) f',
         pcR m d L hpre 0 3 0 (32 * k.val) (by omega) (by omega) (by omega) (by omega) (k0_off323 k) (by rw [k0_off323_eq]; rfl) k0_off336 (fun _ => rfl) (fun _ => rfl) (fun _ => rfl) (fun _ => rfl) (k0_off337 k) (by rw [k0_off337_eq]; rfl) (by rw [k0_off337_eq]; rfl) f',
         pcR m d L hpre 0 2 16 (32 * k.val) (by omega) (by omega) (by omega) (by omega) (k0_off323 k) (by rw [k0_off323_eq]; rfl) k0_off334 (fun _ => rfl) (fun _ => rfl) (fun _ => rfl) (fun _ => rfl) (k0_off335 k) (by rw [k0_off335_eq]; rfl) (by rw [k0_off335_eq]; rfl) f',
         pcR m d L hpre 0 2 0 (32 * k.val) (by omega) (by omega) (by omega) (by omega) (k0_off323 k) (by rw [k0_off323_eq]; rfl) k0_off332 (fun _ => rfl) (fun _ => rfl) (fun _ => rfl) (fun _ => rfl) (k0_off333 k) (by rw [k0_off333_eq]; rfl) (by rw [k0_off333_eq]; rfl) f',
         pcR m d L hpre 0 1 16 (32 * k.val) (by omega) (by omega) (by omega) (by omega) (k0_off323 k) (by rw [k0_off323_eq]; rfl) k0_off330 (fun _ => rfl) (fun _ => rfl) (fun _ => rfl) (fun _ => rfl) (k0_off331 k) (by rw [k0_off331_eq]; rfl) (by rw [k0_off331_eq]; rfl) f',
         pcR m d L hpre 0 1 0 (32 * k.val) (by omega) (by omega) (by omega) (by omega) (k0_off323 k) (by rw [k0_off323_eq]; rfl) k0_off328 (fun _ => rfl) (fun _ => rfl) (fun _ => rfl) (fun _ => rfl) (k0_off329 k) (by rw [k0_off329_eq]; rfl) (by rw [k0_off329_eq]; rfl) f',
         pcR m d L hpre 0 0 16 (32 * k.val) (by omega) (by omega) (by omega) (by omega) (k0_off323 k) (by rw [k0_off323_eq]; rfl) k0_off326 (fun _ => rfl) (fun _ => rfl) (fun _ => rfl) (fun _ => rfl) (k0_off327 k) (by rw [k0_off327_eq]; rfl) (by rw [k0_off327_eq]; rfl) f',
         pcR m d L hpre 0 0 0 (32 * k.val) (by omega) (by omega) (by omega) (by omega) (k0_off323 k) (by rw [k0_off323_eq]; rfl) k0_off324 (fun _ => rfl) (fun _ => rfl) (fun _ => rfl) (fun _ => rfl) (k0_off325 k) (by rw [k0_off325_eq]; rfl) (by rw [k0_off325_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 12500) :
    ∀ a, off a + S1x8x32.size a ≤ S12500x8x32.size a := by
  intro a
  match a with
  | 0 => rw [t0]; show g + 1 ≤ 12500; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 12500 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab1 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KS.T2

end
-- ==== Proof.K2Loop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.K2Loop3Val
import proofs.«207337_g69080253988965_cont_9to1c4b_173_32_alg».proof.Proof.K2Inv

noncomputable section

namespace Cert.Proof.KS.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 100000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 100000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S12500x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t7_loop.trips, k0_cond2 k = 1#1 ↔ k.val + 1 < 8 := by decide +kernel

omit [FloatOps F] in
theorem e54 : ∀ k : Fin k0_t7_loop.trips, (k0_off306 k) 0 = 16 * (2 * k.val + 1) := by decide +kernel
omit [FloatOps F] in
theorem e136 : ∀ k : Fin k0_t7_loop.trips, (k0_off388 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S12500x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab1 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t7_loop.trips → Fin 2 → Nat) (hg : ∀ k', g k' 0 < 256) (k : Fin k0_t7_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t7_loop.trips → Fin 2 → Nat) (hg : ∀ k', g k' 0 < 256) (k : Fin k0_t7_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t1W).view.loc (thr d L) ↦{q'} m (tab1 d))

theorem tabRest_elim : TabRest m d L ⊢ (iprop(∃ q' : PosShare TreeShare, (t1W).view.loc (thr d L) ↦{q'} m (tab1 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t1W).view.loc (thr d L) ↦{q'} m (tab1 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (xv0 : BitVec 32) (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t7_loop k0_t7_ok ⟨⟩ (k0_t7_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond2 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off306 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off306 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off306 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off306 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off306 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off306 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off306 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off306 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off306 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off306 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off306 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off306 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off306 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off306 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off306 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off306 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off388 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off388 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off388 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off388 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off388 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off388 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off388 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off388 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off388 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off388 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off388 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off388 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off388 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off388 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off388 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off388 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off306 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off306 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off306 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off306 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off306 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off306 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off306 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off306 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off306 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off306 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off306 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off306 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off306 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off306 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off306 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off306 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KS.T2

end
-- ==== Proof.K2Loop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.K2Loop3
import proofs.«207337_g69080253988965_cont_9to1c4b_173_32_alg».proof.Proof.K2Inv

noncomputable section

namespace Cert.Proof.KS.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t1W).view.loc (thr d L) ↦{q'} m (tab1 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KS.T2

end
-- ==== Proof.K3Inv.lean ====
/-
  The definitions of KInv that speak of the first table, for table 3: the tile's piece of the index array as the body slices it,
  what the index scratch holds, what the staging buffer must hold in the end, and the phases' invariants.
-/
import proofs.«207337_g69080253988965_cont_9to1c4b_173_32_alg».proof.Proof.KInv

noncomputable section

namespace Cert.Proof.KS.T3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-- Table 1's piece of its index array, as the body slices it. -/
abbrev ids3Rect : Rect S16384 := Rect.unit (s := S16384) (k0_off505 L) S512.size (k0_off505_inb L)

abbrev ids3Slice : Memref sig .scVector .hbm S512 .i32 := (i5W).slice (ids3Rect L) (fun _ => rfl)

omit [FloatOps F] in
theorem ids3Rect_eq : ids3Rect L = idsPart (wL L) := by
  unfold ids3Rect idsPart Rect.part Rect.block
  congr 1 <;> funext a
  · rw [k0_off505_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg5_scv : Ref sig .scVector)).slice (ids3Rect L)).set = _
  rw [View.set_slice, ids3Rect_eq]; exact Finset.map_refl

omit [FloatOps F] in
theorem pts_ids3Slice (f : Buf (Elt F) (ids2 d)) :
    ((ids3Slice L).view.loc (thr d L) ↦[(ids3Slice L).view.set]{fullShare} f : sProp 𝕄) = ids2 d ↦[idsSet (wL L)]{fullShare} f := by
  rw [set_ids3Slice]

omit [FloatOps F] in
theorem pts_tab2 (q : PosShare TreeShare) (f : Buf (Elt F) (tab2 d)) :
    ((t2W).view.loc (thr d L) ↦{q} f : sProp 𝕄) = tab2 d ↦{q} f := by
  simp only [Memref.view_whole, View.set_whole]

/-- The tile's 512 indices of the first table, as the copy into the index scratch reads them. -/
def IDX1 : Buf (Elt F) ((thr d L).loc cc0_scratch0) := (ids3Slice L).view.read (Elt F) (m (ids2 d))

/-- The same as a vector of words. -/
abbrev IDX1v : IVec S512 32 := IDX1 m d L

/-- What the staging buffer must hold in the end: row `r` is the row of the first table that index `r` names. -/
def want1 : Buf (Elt F) ((thr d L).loc cc0_scratch3) :=
  fun i => m (tab2 d) (ValueIdx.ix2 (Cert.Spec.rowL (IDX1v m d L (ValueIdx.ix1 (i 0)))) (i 1))

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)

/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)

/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KS.T3

end
-- ==== Proof.K3Loop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KInv
import proofs.«207337_g69080253988965_cont_9to1c4b_173_32_alg».proof.Proof.K3Inv

noncomputable section

namespace Cert.Proof.KS.T3.L4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KS

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S1000000x32.size a := by
  obtain ⟨h0, h1⟩ := (hpre d).2.2 ((ids3Slice L).view.emb r)
  have e : IDX1v m d L r = m (ids2 d) ((ids3Slice L).view.emb r) := rfl
  have hn : (IDX1v m d L r).toNat < 1000000 := by
    have hv := Cert.Spec.rowL_val _ h0 h1
    rw [e, ← hv]; exact (Cert.Spec.rowL _).isLt
  intro a
  match a with
  | 0 => show (IDX1v m d L r).toNat + 1 ≤ 1000000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t12_loop k0_t12_ok ⟨⟩ (k0_t12_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t12_loop.lb k0_t12_loop.ub k0_t12_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off756 L) S512x32.size (k0_off756_inb L)
abbrev out3Slice : Memref sig .scVector .hbm S512x32 .f32 := (o2W).slice (out3Rect L) (fun _ => rfl)

omit [FloatOps F] in
theorem out3Rect_eq : out3Rect L = outPart (wL L) := by
  unfold out3Rect outPart Rect.part Rect.block
  congr 1 <;> funext a
  · rw [k0_off756_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_2_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out2 d)) :
    ((out3Slice L).view.loc (thr d L) ↦[(out3Slice L).view.set]{fullShare} f : sProp 𝕄) = out2 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out2 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out2 d ↦[outSet (wL L)]{fullShare} res2 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off505 L) (k0_off505_inb L) (k0_off756 L) (k0_off756_inb L)
    (by rw [k0_off505_eq, k0_off756_eq]; rfl) (by rw [k0_off756_eq]; rfl) x
  have e1 : ((out3Slice L).view.emb x) 1 = x 1 := hB
  have e0 : IDX1v m d L (ValueIdx.ix1 (x 0)) = m (ids2 d) (ValueIdx.ix1 (((out3Slice L).view.emb x) 0)) :=
    congrArg (m (ids2 d)) hA
  show m (tab2 d) (ValueIdx.ix2 (Cert.Spec.rowL (IDX1v m d L (ValueIdx.ix1 (x 0)))) (x 1))
    = m (tab2 d) (ValueIdx.ix2 (Cert.Spec.rowL (m (ids2 d) (ValueIdx.ix1 (((out3Slice L).view.emb x) 0)))) (((out3Slice L).view.emb x) 1))
  rw [e0, e1]

/-- The same with the payload as the copy reads it off the staging buffer held at contents `o`. -/
theorem copy_out_value (fo : Buf (Elt F) (out2 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out2 d ↦[outSet (wL L)]{fullShare} res2 m d :=
  copy_out_pay m d L fo _ (fun x => ho x)

end Tile

end Cert.Proof.KS.T3.L4

end
-- ==== Proof.K3Tab.lean ====
/-
  The first table on one tile: the group-number loop's invariant and its one trip, and the ranges that the range
  checks of the copies ask for (an index names a row of the table; its group number names an eight-row group).
-/
import proofs.«207337_g69080253988965_cont_9to1c4b_173_32_alg».proof.Proof.KLemmas
import proofs.«207337_g69080253988965_cont_9to1c4b_173_32_alg».proof.Proof.K3Loop4
import Idealize.ShloMosaic.Lib.Pipeline.Value
import Idealize.ShloMosaic.Lib.ValueIdx
import proofs.«207337_g69080253988965_cont_9to1c4b_173_32_alg».proof.Proof.K3Inv

noncomputable section

namespace Cert.Proof.KS.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t9_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off507 k) S16.size (k0_off507_inb k),
        k0_pay559 (View.readAt (Elt F) (sIdx).view (Rect.unit (s := S512) (k0_off506 k) S16.size (k0_off506_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off507 k) S16.size (k0_off507_inb k),
        k0_pay559 (View.readAt (Elt F) (sIdx).view (Rect.unit (s := S512) (k0_off506 k) S16.size (k0_off506_inb k)).toLoadRect (IDX1 m d L))⟩] (by
        intro p hp
        rw [List.mem_singleton] at hp; subst hp
        rw [Rect.mem_set_unit]; intro h
        have h0 := h 0; rw [k0_off507_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off507 k) S16.size (k0_off507_inb k))
      (k0_pay559 (View.readAt (Elt F) (sIdx).view (Rect.unit (s := S512) (k0_off506 k) S16.size (k0_off506_inb k)).toLoadRect (IDX1 m d L)))
      [] (ValueIdx.ix1 ⟨(j 0).val - 16 * k.val, hx⟩)
    have hemb : (Rect.unit (s := S256) (k0_off507 k) S16.size (k0_off507_inb k)).emb (ValueIdx.ix1 ⟨(j 0).val - 16 * k.val, hx⟩) = j := by
      have ho : k0_off507 k 0 = 16 * k.val := by rw [k0_off507_eq]; rfl
      funext a; apply Fin.ext
      rw [Rect.emb_apply, Subsingleton.elim a 0]
      show k0_off507 k 0 + 1 * ((j 0).val - 16 * k.val) = (j 0).val
      rw [ho]; omega
    rw [hemb] at e
    simp only [Memref.view_whole, View.read_whole] at e
    rw [e]
    unfold k0_pay559
    rw [shapeCast_self, shapeCast_self]
    show IntOp.shrui .vector (View.readAt (Elt F) (sIdx).view (Rect.unit (s := S512) (k0_off506 k) S16.size (k0_off506_inb k)).toLoadRect (IDX1 m d L)
      (ValueIdx.ix1 ⟨(j 0).val - 16 * k.val, hx⟩)) 3#32 = _
    rw [View.readAt_apply]
    simp only [Memref.view_whole, View.read_whole]
    unfold grp
    have ho2 : k0_off506 k 0 = 16 * k.val := by rw [k0_off506_eq]; rfl
    have hidx : (Rect.unit (s := S512) (k0_off506 k) S16.size (k0_off506_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off506 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 999999 :=
  (hpre d).2.2 _

/-- The group number of a row of a million-row table is below 125000. -/
theorem grp_lt (w : BitVec 32) (h0 : 0 ≤ w.toInt) (h1 : w.toInt ≤ 999999) : (grp w).toNat < 125000 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 999999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 125000 passes the gathers' range checks. -/
theorem chkG (v : BitVec 32) (hv : v.toNat < 125000) : ∀ a, (![v.toNat, 0, 0] : Fin 3 → Nat) a + S1x8x32.size a ≤ S125000x8x32.size a := by
  intro a
  match a with
  | 0 => show v.toNat + 1 ≤ 125000; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 125000 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out2 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out2 d ↦[outSet (wL L)]{fullShare} res2 m d : sProp 𝕄) := by
  iintro ⟨H, %hp⟩
  iapply (Entails.of_eq (L4.copy_out_pay m d L fo p hp)); iexact H

end Tile

end Cert.Proof.KS.T3

end
-- ==== Proof.K3Loop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KLemmas
import proofs.«207337_g69080253988965_cont_9to1c4b_173_32_alg».proof.Proof.K3Inv

noncomputable section

namespace Cert.Proof.KS.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 999999 :=
  (hpre d).2.2 ((ids3Slice L).view.emb j)

omit [FloatOps F] in
/-- A word in range passes the body's check on the row it names. -/
theorem chk_of_range (w : BitVec 32) (h : 0 ≤ w.toInt ∧ w.toInt ≤ 999999) :
    ∀ a, (![w.toNat, 0] : Fin 2 → ℕ) a + S1x32.size a ≤ S1000000x32.size a := by
  have hw : w.toNat ≤ 999999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 1000000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S1000000x32.size a) : Memref sig .scVector .hbm S32 .f32 :=
  ((t2W).slice (Rect.unit (s := S1000000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S1000000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg2)))) Finset.univ))
    ∗ ((srcRow offS hS).view.loc (thr d L) ↦[(srcRow offS hS).view.set]{q} m ((SparseCore.T d).loc main_arg2)))

/-- The delivery of the copy of the row that index 256 + n names into staging row 256 + n is good: the index is in range,
    so the row read is the row it names. -/
theorem deliv_good (hpre : PreOK m) {offS : Fin 2 → ℕ} {hS : ∀ a, offS a + S1x32.size a ≤ S1000000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab2 d) ((srcRow _ hS).view.emb x)
      = m (tab2 d) (ValueIdx.ix2 (Cert.Spec.rowL (IDX1v m d L (ValueIdx.ix1 (((dstRow _ hD).view.emb x) 0)))) (((dstRow _ hD).view.emb x) 1))
    have ext2 : ∀ (u v : S1000000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowL (IDX1v m d L j)).val
      rw [Cert.Spec.rowL_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S1000000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t2W).view.loc (thr d L) ↦{q} m (tab2 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t2W).view.loc (thr d L) ↦{q.left} m (tab2 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab2 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t2W).view.loc (thr d L) ↦{q'} m (tab2 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

variable {xv0 : BitVec 32}

/-- One trip: sixteen indices read, sixteen copies started. -/
theorem trip2 (hpre : PreOK m) (k : Fin k0_t10_loop.trips) (acc : Unit) :
    inv2 m d L k.val acc ⊢ wp frame (wpE (defs₀ (F := F)) 𝒱₀ (thr d L) none) Set.univ
      (k0_t10_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 k acc) (inv2 m d L (k.val + 1)) := by
  have hk : k.val < 16 := k.isLt
  unfold inv2 k0_t10_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off511_eq k ⟨0, by decide⟩).trans (vec2_congr (by show 16 * k.val + 0 + 256 = _; omega)), _, ?_, rfl⟩
    rw [Shape.reshapeEquiv_self]
    show (k0_off508 k) 0 + 1 * (0 + 0) = _
    rw [k0_off508_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off513_eq k ⟨0, by decide⟩).trans (vec2_congr (by show 16 * k.val + 0 + 257 = _; omega)), _, ?_, rfl⟩
    rw [Shape.reshapeEquiv_self]
    show (k0_off508 k) 0 + 1 * (1 + 0) = _
    rw [k0_off508_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off515_eq k ⟨0, by decide⟩).trans (vec2_congr (by show 16 * k.val + 0 + 258 = _; omega)), _, ?_, rfl⟩
    rw [Shape.reshapeEquiv_self]
    show (k0_off508 k) 0 + 1 * (2 + 0) = _
    rw [k0_off508_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off517_eq k ⟨0, by decide⟩).trans (vec2_congr (by show 16 * k.val + 0 + 259 = _; omega)), _, ?_, rfl⟩
    rw [Shape.reshapeEquiv_self]
    show (k0_off508 k) 0 + 1 * (3 + 0) = _
    rw [k0_off508_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off519_eq k ⟨0, by decide⟩).trans (vec2_congr (by show 16 * k.val + 0 + 260 = _; omega)), _, ?_, rfl⟩
    rw [Shape.reshapeEquiv_self]
    show (k0_off508 k) 0 + 1 * (4 + 0) = _
    rw [k0_off508_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off521_eq k ⟨0, by decide⟩).trans (vec2_congr (by show 16 * k.val + 0 + 261 = _; omega)), _, ?_, rfl⟩
    rw [Shape.reshapeEquiv_self]
    show (k0_off508 k) 0 + 1 * (5 + 0) = _
    rw [k0_off508_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off523_eq k ⟨0, by decide⟩).trans (vec2_congr (by show 16 * k.val + 0 + 262 = _; omega)), _, ?_, rfl⟩
    rw [Shape.reshapeEquiv_self]
    show (k0_off508 k) 0 + 1 * (6 + 0) = _
    rw [k0_off508_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off525_eq k ⟨0, by decide⟩).trans (vec2_congr (by show 16 * k.val + 0 + 263 = _; omega)), _, ?_, rfl⟩
    rw [Shape.reshapeEquiv_self]
    show (k0_off508 k) 0 + 1 * (7 + 0) = _
    rw [k0_off508_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off527_eq k ⟨0, by decide⟩).trans (vec2_congr (by show 16 * k.val + 0 + 264 = _; omega)), _, ?_, rfl⟩
    rw [Shape.reshapeEquiv_self]
    show (k0_off508 k) 0 + 1 * (8 + 0) = _
    rw [k0_off508_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off529_eq k ⟨0, by decide⟩).trans (vec2_congr (by show 16 * k.val + 0 + 265 = _; omega)), _, ?_, rfl⟩
    rw [Shape.reshapeEquiv_self]
    show (k0_off508 k) 0 + 1 * (9 + 0) = _
    rw [k0_off508_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off531_eq k ⟨0, by decide⟩).trans (vec2_congr (by show 16 * k.val + 0 + 266 = _; omega)), _, ?_, rfl⟩
    rw [Shape.reshapeEquiv_self]
    show (k0_off508 k) 0 + 1 * (10 + 0) = _
    rw [k0_off508_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off533_eq k ⟨0, by decide⟩).trans (vec2_congr (by show 16 * k.val + 0 + 267 = _; omega)), _, ?_, rfl⟩
    rw [Shape.reshapeEquiv_self]
    show (k0_off508 k) 0 + 1 * (11 + 0) = _
    rw [k0_off508_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off535_eq k ⟨0, by decide⟩).trans (vec2_congr (by show 16 * k.val + 0 + 268 = _; omega)), _, ?_, rfl⟩
    rw [Shape.reshapeEquiv_self]
    show (k0_off508 k) 0 + 1 * (12 + 0) = _
    rw [k0_off508_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off537_eq k ⟨0, by decide⟩).trans (vec2_congr (by show 16 * k.val + 0 + 269 = _; omega)), _, ?_, rfl⟩
    rw [Shape.reshapeEquiv_self]
    show (k0_off508 k) 0 + 1 * (13 + 0) = _
    rw [k0_off508_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off539_eq k ⟨0, by decide⟩).trans (vec2_congr (by show 16 * k.val + 0 + 270 = _; omega)), _, ?_, rfl⟩
    rw [Shape.reshapeEquiv_self]
    show (k0_off508 k) 0 + 1 * (14 + 0) = _
    rw [k0_off508_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off541_eq k).trans (vec2_congr (by omega)), _, ?_, rfl⟩
    rw [Shape.reshapeEquiv_self]
    show (k0_off508 k) 0 + 1 * (15 + 0) = _
    rw [k0_off508_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t2W).view.loc (thr d L) ↦{q} m (tab2 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t2W).view.loc (thr d L) ↦{q'} m (tab2 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t10_loop k0_t10_ok ⟨⟩ (k0_t10_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t10_loop.lb k0_t10_loop.ub k0_t10_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KS.T3

end
-- ==== Proof.K3Loop3Val.lean ====
/-
  Values of the pair loop's extract step on one tile: pure facts, no program.

  An index w that lies in the table (0 ≤ w ≤ 999999 as a signed word) names row w; the kernel fetches the group of
  eight rows that holds it, group w >>> 3 of the table regrouped as [125000, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KLemmas
import proofs.«207337_g69080253988965_cont_9to1c4b_173_32_alg».proof.Proof.K3Inv

noncomputable section

namespace Cert.Proof.KS.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 1000000 := ⟨min (8 * g + s) 999999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 999999) : w.toNat ≤ 999999 := by
  have hv := Cert.Spec.rowL_val w h0 h1
  have := (Cert.Spec.rowL w).isLt
  omega

omit [FloatOps F] in
theorem slot_eq (w : BitVec 32) (h0 : 0 ≤ w.toInt) (h1 : w.toInt ≤ 999999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 999999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 999999) : (grp w).toNat ≤ 124999 := by
  have hw := toNat_of_pre w h0 h1
  rw [grp_toNat]; omega

omit [FloatOps F] in
theorem grp_slot (w : BitVec 32) (h0 : 0 ≤ w.toInt) (h1 : w.toInt ≤ 999999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 999999) :
    grow (grp w).toNat (slot w) = Cert.Spec.rowL w := by
  apply Fin.ext
  have hv := Cert.Spec.rowL_val w h0 h1
  have hw := toNat_of_pre w h0 h1
  have hs := grp_slot w h0 h1
  show min (8 * (grp w).toNat + slot w) 999999 = (Cert.Spec.rowL w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S125000x8x32.Idx) :
    Shape.reshapeEquiv (s := S1000000x32) (s' := S125000x8x32) reshapes_S1000000x32_S125000x8x32.1 z
      = (ValueIdx.ix2 (⟨8 * (z 0).val + (z 1).val, by
            have h0 : (z 0).val < 125000 := (z 0).isLt
            have h1 : (z 1).val < 8 := (z 1).isLt
            omega⟩ : Fin 1000000) (z 2) : S1000000x32.Idx) := by
  apply Shape.reshapeEquiv_eq_of_rowMajor
  show ((⟨2, ![1000000, 32]⟩ : Shape).rowMajor (ValueIdx.ix2 (⟨8 * (z 0).val + (z 1).val, _⟩ : Fin 1000000) (z 2)) : Nat)
    = ((⟨3, ![125000, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S125000x8x32.size a) : Memref sig .scVector .hbm S8x32 .f32 :=
  (((t2W).reshape S125000x8x32 reshapes_S1000000x32_S125000x8x32.1 reshapes_S1000000x32_S125000x8x32.2 (Memref.isWhole_whole _).contiguous).slice
    (Rect.unit (s := S125000x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S125000x8x32.size a) (g : Nat)
    (t0 : offT 0 = g) (t1 : offT 1 = 0) (t2 : offT 2 = 0) (y : S8x32.Idx) :
    (tabGrp offT inbT).view.emb y = (ValueIdx.ix2 (grow g (y 0).val) (y 1) : S1000000x32.Idx) := by
  have hy0 : (y 0).val < 8 := (y 0).isLt
  have hg : g + 1 ≤ 125000 := by have := inbT 0; rw [t0] at this; exact this
  show Shape.reshapeEquiv (s := S1000000x32) (s' := S125000x8x32) reshapes_S1000000x32_S125000x8x32.1
      ((Rect.unit (s := S125000x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 999999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S125000x8x32.size a) (g : Nat)
    (t0 : offT 0 = g) (t1 : offT 1 = 0) (t2 : offT 2 = 0) (y : S8x32.Idx) :
    View.read (Elt F) (tabGrp offT inbT).view (m (tab2 d)) y = m (tab2 d) (ValueIdx.ix2 (grow g (y 0).val) (y 1)) := by
  show m (tab2 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S125000x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab2 d)))) Finset.univ i
        = m (tab2 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab2 d)))) (Finset.mem_univ x)
  rw [hx] at key
  rw [key]
  show View.read (Elt F) (tabGrp offT inbT).view (m (tab2 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab2 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).2.2 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab2 d) (ValueIdx.ix2 (Cert.Spec.rowL (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 999999 = min (8 * (grp (idxAt m d L r)).toNat + slot (idxAt m d L r)) 999999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab2 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S125000x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab2 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 999999 :=
  (hpre d).2.2 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S125000x8x32.size a := by
  obtain ⟨h0, h1⟩ := idxAt_pre m d L hpre r
  have hg := grp_le _ h0 h1
  intro a
  match a with
  | 0 => show (grp (idxAt m d L r)).toNat + 1 ≤ 125000; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t11_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off657 k) (by rw [k0_off657_eq]; rfl) k0_off720 (fun _ => rfl) (fun _ => rfl) (fun _ => rfl) (fun _ => rfl) (k0_off721 k) (by rw [k0_off721_eq]; rfl) (by rw [k0_off721_eq]; rfl) f'',
         pcR m d L hpre 1 15 0 (32 * k.val + 16) (by omega) (by omega) (by omega) (by omega) (k0_off657 k) (by rw [k0_off657_eq]; rfl) k0_off718 (fun _ => rfl) (fun _ => rfl) (fun _ => rfl) (fun _ => rfl) (k0_off719 k) (by rw [k0_off719_eq]; rfl) (by rw [k0_off719_eq]; rfl) f'',
         pcR m d L hpre 1 14 16 (32 * k.val + 16) (by omega) (by omega) (by omega) (by omega) (k0_off657 k) (by rw [k0_off657_eq]; rfl) k0_off716 (fun _ => rfl) (fun _ => rfl) (fun _ => rfl) (fun _ => rfl) (k0_off717 k) (by rw [k0_off717_eq]; rfl) (by rw [k0_off717_eq]; rfl) f'',
         pcR m d L hpre 1 14 0 (32 * k.val + 16) (by omega) (by omega) (by omega) (by omega) (k0_off657 k) (by rw [k0_off657_eq]; rfl) k0_off714 (fun _ => rfl) (fun _ => rfl) (fun _ => rfl) (fun _ => rfl) (k0_off715 k) (by rw [k0_off715_eq]; rfl) (by rw [k0_off715_eq]; rfl) f'',
         pcR m d L hpre 1 13 16 (32 * k.val + 16) (by omega) (by omega) (by omega) (by omega) (k0_off657 k) (by rw [k0_off657_eq]; rfl) k0_off712 (fun _ => rfl) (fun _ => rfl) (fun _ => rfl) (fun _ => rfl) (k0_off713 k) (by rw [k0_off713_eq]; rfl) (by rw [k0_off713_eq]; rfl) f'',
         pcR m d L hpre 1 13 0 (32 * k.val + 16) (by omega) (by omega) (by omega) (by omega) (k0_off657 k) (by rw [k0_off657_eq]; rfl) k0_off710 (fun _ => rfl) (fun _ => rfl) (fun _ => rfl) (fun _ => rfl) (k0_off711 k) (by rw [k0_off711_eq]; rfl) (by rw [k0_off711_eq]; rfl) f'',
         pcR m d L hpre 1 12 16 (32 * k.val + 16) (by omega) (by omega) (by omega) (by omega) (k0_off657 k) (by rw [k0_off657_eq]; rfl) k0_off708 (fun _ => rfl) (fun _ => rfl) (fun _ => rfl) (fun _ => rfl) (k0_off709 k) (by rw [k0_off709_eq]; rfl) (by rw [k0_off709_eq]; rfl) f'',
         pcR m d L hpre 1 12 0 (32 * k.val + 16) (by omega) (by omega) (by omega) (by omega) (k0_off657 k) (by rw [k0_off657_eq]; rfl) k0_off706 (fun _ => rfl) (fun _ => rfl) (fun _ => rfl) (fun _ => rfl) (k0_off707 k) (by rw [k0_off707_eq]; rfl) (by rw [k0_off707_eq]; rfl) f'',
         pcR m d L hpre 1 11 16 (32 * k.val + 16) (by omega) (by omega) (by omega) (by omega) (k0_off657 k) (by rw [k0_off657_eq]; rfl) k0_off704 (fun _ => rfl) (fun _ => rfl) (fun _ => rfl) (fun _ => rfl) (k0_off705 k) (by rw [k0_off705_eq]; rfl) (by rw [k0_off705_eq]; rfl) f'',
         pcR m d L hpre 1 11 0 (32 * k.val + 16) (by omega) (by omega) (by omega) (by omega) (k0_off657 k) (by rw [k0_off657_eq]; rfl) k0_off702 (fun _ => rfl) (fun _ => rfl) (fun _ => rfl) (fun _ => rfl) (k0_off703 k) (by rw [k0_off703_eq]; rfl) (by rw [k0_off703_eq]; rfl) f'',
         pcR m d L hpre 1 10 16 (32 * k.val + 16) (by omega) (by omega) (by omega) (by omega) (k0_off657 k) (by rw [k0_off657_eq]; rfl) k0_off700 (fun _ => rfl) (fun _ => rfl) (fun _ => rfl) (fun _ => rfl) (k0_off701 k) (by rw [k0_off701_eq]; rfl) (by rw [k0_off701_eq]; rfl) f'',
         pcR m d L hpre 1 10 0 (32 * k.val + 16) (by omega) (by omega) (by omega) (by omega) (k0_off657 k) (by rw [k0_off657_eq]; rfl) k0_off698 (fun _ => rfl) (fun _ => rfl) (fun _ => rfl) (fun _ => rfl) (k0_off699 k) (by rw [k0_off699_eq]; rfl) (by rw [k0_off699_eq]; rfl) f'',
         pcR m d L hpre 1 9 16 (32 * k.val + 16) (by omega) (by omega) (by omega) (by omega) (k0_off657 k) (by rw [k0_off657_eq]; rfl) k0_off696 (fun _ => rfl) (fun _ => rfl) (fun _ => rfl) (fun _ => rfl) (k0_off697 k) (by rw [k0_off697_eq]; rfl) (by rw [k0_off697_eq]; rfl) f'',
         pcR m d L hpre 1 9 0 (32 * k.val + 16) (by omega) (by omega) (by omega) (by omega) (k0_off657 k) (by rw [k0_off657_eq]; rfl) k0_off694 (fun _ => rfl) (fun _ => rfl) (fun _ => rfl) (fun _ => rfl) (k0_off695 k) (by rw [k0_off695_eq]; rfl) (by rw [k0_off695_eq]; rfl) f'',
         pcR m d L hpre 1 8 16 (32 * k.val + 16) (by omega) (by omega) (by omega) (by omega) (k0_off657 k) (by rw [k0_off657_eq]; rfl) k0_off692 (fun _ => rfl) (fun _ => rfl) (fun _ => rfl) (fun _ => rfl) (k0_off693 k) (by rw [k0_off693_eq]; rfl) (by rw [k0_off693_eq]; rfl) f'',
         pcR m d L hpre 1 8 0 (32 * k.val + 16) (by omega) (by omega) (by omega) (by omega) (k0_off657 k) (by rw [k0_off657_eq]; rfl) k0_off690 (fun _ => rfl) (fun _ => rfl) (fun _ => rfl) (fun _ => rfl) (k0_off691 k) (by rw [k0_off691_eq]; rfl) (by rw [k0_off691_eq]; rfl) f'',
         pcR m d L hpre 1 7 16 (32 * k.val + 16) (by omega) (by omega) (by omega) (by omega) (k0_off657 k) (by rw [k0_off657_eq]; rfl) k0_off688 (fun _ => rfl) (fun _ => rfl) (fun _ => rfl) (fun _ => rfl) (k0_off689 k) (by rw [k0_off689_eq]; rfl) (by rw [k0_off689_eq]; rfl) f'',
         pcR m d L hpre 1 7 0 (32 * k.val + 16) (by omega) (by omega) (by omega) (by omega) (k0_off657 k) (by rw [k0_off657_eq]; rfl) k0_off686 (fun _ => rfl) (fun _ => rfl) (fun _ => rfl) (fun _ => rfl) (k0_off687 k) (by rw [k0_off687_eq]; rfl) (by rw [k0_off687_eq]; rfl) f'',
         pcR m d L hpre 1 6 16 (32 * k.val + 16) (by omega) (by omega) (by omega) (by omega) (k0_off657 k) (by rw [k0_off657_eq]; rfl) k0_off684 (fun _ => rfl) (fun _ => rfl) (fun _ => rfl) (fun _ => rfl) (k0_off685 k) (by rw [k0_off685_eq]; rfl) (by rw [k0_off685_eq]; rfl) f'',
         pcR m d L hpre 1 6 0 (32 * k.val + 16) (by omega) (by omega) (by omega) (by omega) (k0_off657 k) (by rw [k0_off657_eq]; rfl) k0_off682 (fun _ => rfl) (fun _ => rfl) (fun _ => rfl) (fun _ => rfl) (k0_off683 k) (by rw [k0_off683_eq]; rfl) (by rw [k0_off683_eq]; rfl) f'',
         pcR m d L hpre 1 5 16 (32 * k.val + 16) (by omega) (by omega) (by omega) (by omega) (k0_off657 k) (by rw [k0_off657_eq]; rfl) k0_off680 (fun _ => rfl) (fun _ => rfl) (fun _ => rfl) (fun _ => rfl) (k0_off681 k) (by rw [k0_off681_eq]; rfl) (by rw [k0_off681_eq]; rfl) f'',
         pcR m d L hpre 1 5 0 (32 * k.val + 16) (by omega) (by omega) (by omega) (by omega) (k0_off657 k) (by rw [k0_off657_eq]; rfl) k0_off678 (fun _ => rfl) (fun _ => rfl) (fun _ => rfl) (fun _ => rfl) (k0_off679 k) (by rw [k0_off679_eq]; rfl) (by rw [k0_off679_eq]; rfl) f'',
         pcR m d L hpre 1 4 16 (32 * k.val + 16) (by omega) (by omega) (by omega) (by omega) (k0_off657 k) (by rw [k0_off657_eq]; rfl) k0_off676 (fun _ => rfl) (fun _ => rfl) (fun _ => rfl) (fun _ => rfl) (k0_off677 k) (by rw [k0_off677_eq]; rfl) (by rw [k0_off677_eq]; rfl) f'',
         pcR m d L hpre 1 4 0 (32 * k.val + 16) (by omega) (by omega) (by omega) (by omega) (k0_off657 k) (by rw [k0_off657_eq]; rfl) k0_off674 (fun _ => rfl) (fun _ => rfl) (fun _ => rfl) (fun _ => rfl) (k0_off675 k) (by rw [k0_off675_eq]; rfl) (by rw [k0_off675_eq]; rfl) f'',
         pcR m d L hpre 1 3 16 (32 * k.val + 16) (by omega) (by omega) (by omega) (by omega) (k0_off657 k) (by rw [k0_off657_eq]; rfl) k0_off672 (fun _ => rfl) (fun _ => rfl) (fun _ => rfl) (fun _ => rfl) (k0_off673 k) (by rw [k0_off673_eq]; rfl) (by rw [k0_off673_eq]; rfl) f'',
         pcR m d L hpre 1 3 0 (32 * k.val + 16) (by omega) (by omega) (by omega) (by omega) (k0_off657 k) (by rw [k0_off657_eq]; rfl) k0_off670 (fun _ => rfl) (fun _ => rfl) (fun _ => rfl) (fun _ => rfl) (k0_off671 k) (by rw [k0_off671_eq]; rfl) (by rw [k0_off671_eq]; rfl) f'',
         pcR m d L hpre 1 2 16 (32 * k.val + 16) (by omega) (by omega) (by omega) (by omega) (k0_off657 k) (by rw [k0_off657_eq]; rfl) k0_off668 (fun _ => rfl) (fun _ => rfl) (fun _ => rfl) (fun _ => rfl) (k0_off669 k) (by rw [k0_off669_eq]; rfl) (by rw [k0_off669_eq]; rfl) f'',
         pcR m d L hpre 1 2 0 (32 * k.val + 16) (by omega) (by omega) (by omega) (by omega) (k0_off657 k) (by rw [k0_off657_eq]; rfl) k0_off666 (fun _ => rfl) (fun _ => rfl) (fun _ => rfl) (fun _ => rfl) (k0_off667 k) (by rw [k0_off667_eq]; rfl) (by rw [k0_off667_eq]; rfl) f'',
         pcR m d L hpre 1 1 16 (32 * k.val + 16) (by omega) (by omega) (by omega) (by omega) (k0_off657 k) (by rw [k0_off657_eq]; rfl) k0_off664 (fun _ => rfl) (fun _ => rfl) (fun _ => rfl) (fun _ => rfl) (k0_off665 k) (by rw [k0_off665_eq]; rfl) (by rw [k0_off665_eq]; rfl) f'',
         pcR m d L hpre 1 1 0 (32 * k.val + 16) (by omega) (by omega) (by omega) (by omega) (k0_off657 k) (by rw [k0_off657_eq]; rfl) k0_off662 (fun _ => rfl) (fun _ => rfl) (fun _ => rfl) (fun _ => rfl) (k0_off663 k) (by rw [k0_off663_eq]; rfl) (by rw [k0_off663_eq]; rfl) f'',
         pcR m d L hpre 1 0 16 (32 * k.val + 16) (by omega) (by omega) (by omega) (by omega) (k0_off657 k) (by rw [k0_off657_eq]; rfl) k0_off660 (fun _ => rfl) (fun _ => rfl) (fun _ => rfl) (fun _ => rfl) (k0_off661 k) (by rw [k0_off661_eq]; rfl) (by rw [k0_off661_eq]; rfl) f'',
         pcR m d L hpre 1 0 0 (32 * k.val + 16) (by omega) (by omega) (by omega) (by omega) (k0_off657 k) (by rw [k0_off657_eq]; rfl) k0_off658 (fun _ => rfl) (fun _ => rfl) (fun _ => rfl) (fun _ => rfl) (k0_off659 k) (by rw [k0_off659_eq]; rfl) (by rw [k0_off659_eq]; rfl) f'',
         pcR m d L hpre 0 15 16 (32 * k.val) (by omega) (by omega) (by omega) (by omega) (k0_off575 k) (by rw [k0_off575_eq]; rfl) k0_off638 (fun _ => rfl) (fun _ => rfl) (fun _ => rfl) (fun _ => rfl) (k0_off639 k) (by rw [k0_off639_eq]; rfl) (by rw [k0_off639_eq]; rfl) f',
         pcR m d L hpre 0 15 0 (32 * k.val) (by omega) (by omega) (by omega) (by omega) (k0_off575 k) (by rw [k0_off575_eq]; rfl) k0_off636 (fun _ => rfl) (fun _ => rfl) (fun _ => rfl) (fun _ => rfl) (k0_off637 k) (by rw [k0_off637_eq]; rfl) (by rw [k0_off637_eq]; rfl) f',
         pcR m d L hpre 0 14 16 (32 * k.val) (by omega) (by omega) (by omega) (by omega) (k0_off575 k) (by rw [k0_off575_eq]; rfl) k0_off634 (fun _ => rfl) (fun _ => rfl) (fun _ => rfl) (fun _ => rfl) (k0_off635 k) (by rw [k0_off635_eq]; rfl) (by rw [k0_off635_eq]; rfl) f',
         pcR m d L hpre 0 14 0 (32 * k.val) (by omega) (by omega) (by omega) (by omega) (k0_off575 k) (by rw [k0_off575_eq]; rfl) k0_off632 (fun _ => rfl) (fun _ => rfl) (fun _ => rfl) (fun _ => rfl) (k0_off633 k) (by rw [k0_off633_eq]; rfl) (by rw [k0_off633_eq]; rfl) f',
         pcR m d L hpre 0 13 16 (32 * k.val) (by omega) (by omega) (by omega) (by omega) (k0_off575 k) (by rw [k0_off575_eq]; rfl) k0_off630 (fun _ => rfl) (fun _ => rfl) (fun _ => rfl) (fun _ => rfl) (k0_off631 k) (by rw [k0_off631_eq]; rfl) (by rw [k0_off631_eq]; rfl) f',
         pcR m d L hpre 0 13 0 (32 * k.val) (by omega) (by omega) (by omega) (by omega) (k0_off575 k) (by rw [k0_off575_eq]; rfl) k0_off628 (fun _ => rfl) (fun _ => rfl) (fun _ => rfl) (fun _ => rfl) (k0_off629 k) (by rw [k0_off629_eq]; rfl) (by rw [k0_off629_eq]; rfl) f',
         pcR m d L hpre 0 12 16 (32 * k.val) (by omega) (by omega) (by omega) (by omega) (k0_off575 k) (by rw [k0_off575_eq]; rfl) k0_off626 (fun _ => rfl) (fun _ => rfl) (fun _ => rfl) (fun _ => rfl) (k0_off627 k) (by rw [k0_off627_eq]; rfl) (by rw [k0_off627_eq]; rfl) f',
         pcR m d L hpre 0 12 0 (32 * k.val) (by omega) (by omega) (by omega) (by omega) (k0_off575 k) (by rw [k0_off575_eq]; rfl) k0_off624 (fun _ => rfl) (fun _ => rfl) (fun _ => rfl) (fun _ => rfl) (k0_off625 k) (by rw [k0_off625_eq]; rfl) (by rw [k0_off625_eq]; rfl) f',
         pcR m d L hpre 0 11 16 (32 * k.val) (by omega) (by omega) (by omega) (by omega) (k0_off575 k) (by rw [k0_off575_eq]; rfl) k0_off622 (fun _ => rfl) (fun _ => rfl) (fun _ => rfl) (fun _ => rfl) (k0_off623 k) (by rw [k0_off623_eq]; rfl) (by rw [k0_off623_eq]; rfl) f',
         pcR m d L hpre 0 11 0 (32 * k.val) (by omega) (by omega) (by omega) (by omega) (k0_off575 k) (by rw [k0_off575_eq]; rfl) k0_off620 (fun _ => rfl) (fun _ => rfl) (fun _ => rfl) (fun _ => rfl) (k0_off621 k) (by rw [k0_off621_eq]; rfl) (by rw [k0_off621_eq]; rfl) f',
         pcR m d L hpre 0 10 16 (32 * k.val) (by omega) (by omega) (by omega) (by omega) (k0_off575 k) (by rw [k0_off575_eq]; rfl) k0_off618 (fun _ => rfl) (fun _ => rfl) (fun _ => rfl) (fun _ => rfl) (k0_off619 k) (by rw [k0_off619_eq]; rfl) (by rw [k0_off619_eq]; rfl) f',
         pcR m d L hpre 0 10 0 (32 * k.val) (by omega) (by omega) (by omega) (by omega) (k0_off575 k) (by rw [k0_off575_eq]; rfl) k0_off616 (fun _ => rfl) (fun _ => rfl) (fun _ => rfl) (fun _ => rfl) (k0_off617 k) (by rw [k0_off617_eq]; rfl) (by rw [k0_off617_eq]; rfl) f',
         pcR m d L hpre 0 9 16 (32 * k.val) (by omega) (by omega) (by omega) (by omega) (k0_off575 k) (by rw [k0_off575_eq]; rfl) k0_off614 (fun _ => rfl) (fun _ => rfl) (fun _ => rfl) (fun _ => rfl) (k0_off615 k) (by rw [k0_off615_eq]; rfl) (by rw [k0_off615_eq]; rfl) f',
         pcR m d L hpre 0 9 0 (32 * k.val) (by omega) (by omega) (by omega) (by omega) (k0_off575 k) (by rw [k0_off575_eq]; rfl) k0_off612 (fun _ => rfl) (fun _ => rfl) (fun _ => rfl) (fun _ => rfl) (k0_off613 k) (by rw [k0_off613_eq]; rfl) (by rw [k0_off613_eq]; rfl) f',
         pcR m d L hpre 0 8 16 (32 * k.val) (by omega) (by omega) (by omega) (by omega) (k0_off575 k) (by rw [k0_off575_eq]; rfl) k0_off610 (fun _ => rfl) (fun _ => rfl) (fun _ => rfl) (fun _ => rfl) (k0_off611 k) (by rw [k0_off611_eq]; rfl) (by rw [k0_off611_eq]; rfl) f',
         pcR m d L hpre 0 8 0 (32 * k.val) (by omega) (by omega) (by omega) (by omega) (k0_off575 k) (by rw [k0_off575_eq]; rfl) k0_off608 (fun _ => rfl) (fun _ => rfl) (fun _ => rfl) (fun _ => rfl) (k0_off609 k) (by rw [k0_off609_eq]; rfl) (by rw [k0_off609_eq]; rfl) f',
         pcR m d L hpre 0 7 16 (32 * k.val) (by omega) (by omega) (by omega) (by omega) (k0_off575 k) (by rw [k0_off575_eq]; rfl) k0_off606 (fun _ => rfl) (fun _ => rfl) (fun _ => rfl) (fun _ => rfl) (k0_off607 k) (by rw [k0_off607_eq]; rfl) (by rw [k0_off607_eq]; rfl) f',
         pcR m d L hpre 0 7 0 (32 * k.val) (by omega) (by omega) (by omega) (by omega) (k0_off575 k) (by rw [k0_off575_eq]; rfl) k0_off604 (fun _ => rfl) (fun _ => rfl) (fun _ => rfl) (fun _ => rfl) (k0_off605 k) (by rw [k0_off605_eq]; rfl) (by rw [k0_off605_eq]; rfl) f',
         pcR m d L hpre 0 6 16 (32 * k.val) (by omega) (by omega) (by omega) (by omega) (k0_off575 k) (by rw [k0_off575_eq]; rfl) k0_off602 (fun _ => rfl) (fun _ => rfl) (fun _ => rfl) (fun _ => rfl) (k0_off603 k) (by rw [k0_off603_eq]; rfl) (by rw [k0_off603_eq]; rfl) f',
         pcR m d L hpre 0 6 0 (32 * k.val) (by omega) (by omega) (by omega) (by omega) (k0_off575 k) (by rw [k0_off575_eq]; rfl) k0_off600 (fun _ => rfl) (fun _ => rfl) (fun _ => rfl) (fun _ => rfl) (k0_off601 k) (by rw [k0_off601_eq]; rfl) (by rw [k0_off601_eq]; rfl) f',
         pcR m d L hpre 0 5 16 (32 * k.val) (by omega) (by omega) (by omega) (by omega) (k0_off575 k) (by rw [k0_off575_eq]; rfl) k0_off598 (fun _ => rfl) (fun _ => rfl) (fun _ => rfl) (fun _ => rfl) (k0_off599 k) (by rw [k0_off599_eq]; rfl) (by rw [k0_off599_eq]; rfl) f',
         pcR m d L hpre 0 5 0 (32 * k.val) (by omega) (by omega) (by omega) (by omega) (k0_off575 k) (by rw [k0_off575_eq]; rfl) k0_off596 (fun _ => rfl) (fun _ => rfl) (fun _ => rfl) (fun _ => rfl) (k0_off597 k) (by rw [k0_off597_eq]; rfl) (by rw [k0_off597_eq]; rfl) f',
         pcR m d L hpre 0 4 16 (32 * k.val) (by omega) (by omega) (by omega) (by omega) (k0_off575 k) (by rw [k0_off575_eq]; rfl) k0_off594 (fun _ => rfl) (fun _ => rfl) (fun _ => rfl) (fun _ => rfl) (k0_off595 k) (by rw [k0_off595_eq]; rfl) (by rw [k0_off595_eq]; rfl) f',
         pcR m d L hpre 0 4 0 (32 * k.val) (by omega) (by omega) (by omega) (by omega) (k0_off575 k) (by rw [k0_off575_eq]; rfl) k0_off592 (fun _ => rfl) (fun _ => rfl) (fun _ => rfl) (fun _ => rfl) (k0_off593 k) (by rw [k0_off593_eq]; rfl) (by rw [k0_off593_eq]; rfl) f',
         pcR m d L hpre 0 3 16 (32 * k.val) (by omega) (by omega) (by omega) (by omega) (k0_off575 k) (by rw [k0_off575_eq]; rfl) k0_off590 (fun _ => rfl) (fun _ => rfl) (fun _ => rfl) (fun _ => rfl) (k0_off591 k) (by rw [k0_off591_eq]; rfl) (by rw [k0_off591_eq]; rfl) f',
         pcR m d L hpre 0 3 0 (32 * k.val) (by omega) (by omega) (by omega) (by omega) (k0_off575 k) (by rw [k0_off575_eq]; rfl) k0_off588 (fun _ => rfl) (fun _ => rfl) (fun _ => rfl) (fun _ => rfl) (k0_off589 k) (by rw [k0_off589_eq]; rfl) (by rw [k0_off589_eq]; rfl) f',
         pcR m d L hpre 0 2 16 (32 * k.val) (by omega) (by omega) (by omega) (by omega) (k0_off575 k) (by rw [k0_off575_eq]; rfl) k0_off586 (fun _ => rfl) (fun _ => rfl) (fun _ => rfl) (fun _ => rfl) (k0_off587 k) (by rw [k0_off587_eq]; rfl) (by rw [k0_off587_eq]; rfl) f',
         pcR m d L hpre 0 2 0 (32 * k.val) (by omega) (by omega) (by omega) (by omega) (k0_off575 k) (by rw [k0_off575_eq]; rfl) k0_off584 (fun _ => rfl) (fun _ => rfl) (fun _ => rfl) (fun _ => rfl) (k0_off585 k) (by rw [k0_off585_eq]; rfl) (by rw [k0_off585_eq]; rfl) f',
         pcR m d L hpre 0 1 16 (32 * k.val) (by omega) (by omega) (by omega) (by omega) (k0_off575 k) (by rw [k0_off575_eq]; rfl) k0_off582 (fun _ => rfl) (fun _ => rfl) (fun _ => rfl) (fun _ => rfl) (k0_off583 k) (by rw [k0_off583_eq]; rfl) (by rw [k0_off583_eq]; rfl) f',
         pcR m d L hpre 0 1 0 (32 * k.val) (by omega) (by omega) (by omega) (by omega) (k0_off575 k) (by rw [k0_off575_eq]; rfl) k0_off580 (fun _ => rfl) (fun _ => rfl) (fun _ => rfl) (fun _ => rfl) (k0_off581 k) (by rw [k0_off581_eq]; rfl) (by rw [k0_off581_eq]; rfl) f',
         pcR m d L hpre 0 0 16 (32 * k.val) (by omega) (by omega) (by omega) (by omega) (k0_off575 k) (by rw [k0_off575_eq]; rfl) k0_off578 (fun _ => rfl) (fun _ => rfl) (fun _ => rfl) (fun _ => rfl) (k0_off579 k) (by rw [k0_off579_eq]; rfl) (by rw [k0_off579_eq]; rfl) f',
         pcR m d L hpre 0 0 0 (32 * k.val) (by omega) (by omega) (by omega) (by omega) (k0_off575 k) (by rw [k0_off575_eq]; rfl) k0_off576 (fun _ => rfl) (fun _ => rfl) (fun _ => rfl) (fun _ => rfl) (k0_off577 k) (by rw [k0_off577_eq]; rfl) (by rw [k0_off577_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 125000) :
    ∀ a, off a + S1x8x32.size a ≤ S125000x8x32.size a := by
  intro a
  match a with
  | 0 => rw [t0]; show g + 1 ≤ 125000; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 125000 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab2 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KS.T3

end
-- ==== Proof.K3Loop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.K3Loop3Val
import proofs.«207337_g69080253988965_cont_9to1c4b_173_32_alg».proof.Proof.K3Inv

noncomputable section

namespace Cert.Proof.KS.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 1000000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 1000000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S125000x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t11_loop.trips, k0_cond3 k = 1#1 ↔ k.val + 1 < 8 := by decide +kernel

omit [FloatOps F] in
theorem e54 : ∀ k : Fin k0_t11_loop.trips, (k0_off558 k) 0 = 16 * (2 * k.val + 1) := by decide +kernel
omit [FloatOps F] in
theorem e136 : ∀ k : Fin k0_t11_loop.trips, (k0_off640 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S125000x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab2 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t11_loop.trips → Fin 2 → Nat) (hg : ∀ k', g k' 0 < 256) (k : Fin k0_t11_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t11_loop.trips → Fin 2 → Nat) (hg : ∀ k', g k' 0 < 256) (k : Fin k0_t11_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t2W).view.loc (thr d L) ↦{q'} m (tab2 d))

theorem tabRest_elim : TabRest m d L ⊢ (iprop(∃ q' : PosShare TreeShare, (t2W).view.loc (thr d L) ↦{q'} m (tab2 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t2W).view.loc (thr d L) ↦{q'} m (tab2 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t11_loop k0_t11_ok ⟨⟩ (k0_t11_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond3 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off558 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off558 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off558 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off558 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off558 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off558 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off558 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off558 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off558 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off558 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off558 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off558 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off558 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off558 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off558 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off558 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off640 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off640 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off640 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off640 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off640 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off640 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off640 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off640 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off640 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off640 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off640 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off640 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off640 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off640 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off640 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off640 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off558 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off558 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off558 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off558 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off558 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off558 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off558 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off558 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off558 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off558 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off558 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off558 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off558 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off558 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off558 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off558 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KS.T3

end
-- ==== Proof.K3Loop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.K3Loop3
import proofs.«207337_g69080253988965_cont_9to1c4b_173_32_alg».proof.Proof.K3Inv

noncomputable section

namespace Cert.Proof.KS.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t2W).view.loc (thr d L) ↦{q'} m (tab2 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KS.T3

end
-- ==== Proof.KBody.lean ====
/-
  The body of the embedding-lookup kernel on one tile, as the launch theorem's obligation states it.

  Tile w copies its 512 indices of a table into a scratch, computes for the first 256 of them the number of the
  eight-row group that holds the named row (the index shifted right by three), starts one copy per index of the
  last 256 straight from the table into the staging rows 256..511, fetches the eight-row groups of the first 256
  sixteen at a time into a two-slot buffer and picks from each group the row "index mod 8" (so that row r of the
  staging buffer holds row ids[r] of the table: 8 * (i >>> 3) + i % 8 = i for a non-negative i), waits for the
  direct copies, and copies the 512 staged rows out to rows [512 w, 512 w + 512) of the result. Three tables in turn.
-/
import proofs.«207337_g69080253988965_cont_9to1c4b_173_32_alg».proof.Proof.KGen
import proofs.«207337_g69080253988965_cont_9to1c4b_173_32_alg».proof.Proof.KTab
import proofs.«207337_g69080253988965_cont_9to1c4b_173_32_alg».proof.Proof.KLoop2
import proofs.«207337_g69080253988965_cont_9to1c4b_173_32_alg».proof.Proof.KLoop3
import proofs.«207337_g69080253988965_cont_9to1c4b_173_32_alg».proof.Proof.KLoop3Exit
import proofs.«207337_g69080253988965_cont_9to1c4b_173_32_alg».proof.Proof.KLoop4
import proofs.«207337_g69080253988965_cont_9to1c4b_173_32_alg».proof.Proof.K2Tab
import proofs.«207337_g69080253988965_cont_9to1c4b_173_32_alg».proof.Proof.K2Loop2
import proofs.«207337_g69080253988965_cont_9to1c4b_173_32_alg».proof.Proof.K2Loop3
import proofs.«207337_g69080253988965_cont_9to1c4b_173_32_alg».proof.Proof.K2Loop3Exit
import proofs.«207337_g69080253988965_cont_9to1c4b_173_32_alg».proof.Proof.K2Loop4
import proofs.«207337_g69080253988965_cont_9to1c4b_173_32_alg».proof.Proof.K3Tab
import proofs.«207337_g69080253988965_cont_9to1c4b_173_32_alg».proof.Proof.K3Loop2
import proofs.«207337_g69080253988965_cont_9to1c4b_173_32_alg».proof.Proof.K3Loop3
import proofs.«207337_g69080253988965_cont_9to1c4b_173_32_alg».proof.Proof.K3Loop3Exit
import proofs.«207337_g69080253988965_cont_9to1c4b_173_32_alg».proof.Proof.K3Loop4

noncomputable section

namespace Cert.Proof.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.Kernel.main_arg0_scv : Memref Cert.Kernel.sig Kind.scVector Space.hbm Cert.Kernel.S1000000x32 EltTy.f32)
local notation "t1W" => (Memref.whole Cert.Kernel.main_arg1_scv : Memref Cert.Kernel.sig Kind.scVector Space.hbm Cert.Kernel.S100000x32 EltTy.f32)
local notation "t2W" => (Memref.whole Cert.Kernel.main_arg2_scv : Memref Cert.Kernel.sig Kind.scVector Space.hbm Cert.Kernel.S1000000x32 EltTy.f32)
local notation "i3W" => (Memref.whole Cert.Kernel.main_arg3_scv : Memref Cert.Kernel.sig Kind.scVector Space.hbm Cert.Kernel.S16384 EltTy.i32)
local notation "i4W" => (Memref.whole Cert.Kernel.main_arg4_scv : Memref Cert.Kernel.sig Kind.scVector Space.hbm Cert.Kernel.S16384 EltTy.i32)
local notation "i5W" => (Memref.whole Cert.Kernel.main_arg5_scv : Memref Cert.Kernel.sig Kind.scVector Space.hbm Cert.Kernel.S16384 EltTy.i32)
local notation "o0W" => (Memref.whole Cert.Kernel.main_v0_0_scv : Memref Cert.Kernel.sig Kind.scVector Space.hbm Cert.Kernel.S16384x32 EltTy.f32)
local notation "o1W" => (Memref.whole Cert.Kernel.main_v0_1_scv : Memref Cert.Kernel.sig Kind.scVector Space.hbm Cert.Kernel.S16384x32 EltTy.f32)
local notation "o2W" => (Memref.whole Cert.Kernel.main_v0_2_scv : Memref Cert.Kernel.sig Kind.scVector Space.hbm Cert.Kernel.S16384x32 EltTy.f32)
local notation "sIdx" => (Memref.whole Cert.Kernel.cc0_scratch0 : Memref Cert.Kernel.sig Kind.scVector Space.vmem Cert.Kernel.S512 EltTy.i32)
local notation "sGidx" => (Memref.whole Cert.Kernel.cc0_scratch1 : Memref Cert.Kernel.sig Kind.scVector Space.vmem Cert.Kernel.S256 EltTy.i32)
local notation "sRows" => (Memref.whole Cert.Kernel.cc0_scratch2 : Memref Cert.Kernel.sig Kind.scVector Space.vmem Cert.Kernel.S2x16x8x32 EltTy.f32)
local notation "sOut" => (Memref.whole Cert.Kernel.cc0_scratch3 : Memref Cert.Kernel.sig Kind.scVector Space.vmem Cert.Kernel.S512x32 EltTy.f32)

variable [FloatOps F]

section Tile

variable (d : Dev nD) (L : grid0.Coords)

/-! ### The waits recorded along the way -/

omit [FloatOps F] in
theorem wk_refl {W : Waits sig (HIx 1)} : ∀ p ∈ W, p ∈ W ∨ p.2 = none := fun _ hp => .inl hp
omit [FloatOps F] in
theorem wk_insert {W A : Waits sig (HIx 1)} {sm : SemLoc sig} (h : ∀ p ∈ A, p ∈ W ∨ p.2 = none) :
    ∀ p ∈ insert (sm, (default : HIx 1)) A, p ∈ W ∨ p.2 = none := by
  intro p hp
  rcases Finset.mem_insert.mp hp with rfl | hp
  · exact .inr rfl
  · exact h p hp
omit [FloatOps F] in
theorem wk_trans {W A B : Waits sig (HIx 1)} (hBA : ∀ p ∈ B, p ∈ A ∨ p.2 = none) (hA : ∀ p ∈ A, p ∈ W ∨ p.2 = none) :
    ∀ p ∈ B, p ∈ W ∨ p.2 = none := by
  intro p hp
  rcases hBA p hp with h | h
  · exact hA p h
  · exact .inr h
omit [FloatOps F] in
theorem fin_owes {thr : Thread nD τ} {O : CellTallies nD τ sig (HIx 1)} {W Wc : Waits sig (HIx 1)} (h : ∀ p ∈ Wc, p ∈ W ∨ p.2 = none) :
    (owes thr O Wc : sProp 𝕄) ⊢ iprop(∃ W', ⌜∀ p ∈ W', p ∈ W ∨ p.2 = none⌝ ∗ owes thr O W') := by
  iintro HO
  iexists Wc; isplitr
  · ipureintro; exact h
  · iexact HO

set_option maxHeartbeats 16000000 in
/-- The task on the tile at grid coordinates `L`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (wL L)
        ∗ scopedBufs (thr d L) ∗ scopedSems0 (thr d L) ∗ owes (thr d L) O W)
      ⊢ wp frame (wpE (defs₀ (F := F)) 𝒱₀ (thr d L) none) Set.univ
          (cc0__gather3 L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)
          fun _ => iprop(tdT m d (wL L) ∗ scopedBufs (thr d L) ∗ scopedSems0 (thr d L)
            ∗ ∃ W', ⌜∀ p ∈ W', p ∈ W ∨ p.2 = none⌝ ∗ owes (thr d L) O W') := by
  rw [cc0__gather3_eq_skeleton]; unfold cc0__gather3_skel
  rw [(K (F := F)).scopedBufs_V hF d (cV L) (jV L), SparseCore.Cfg.scopedSems0_V (Val := Elt F) d (cV L) (jV L), ownSems0_V, ownBufs_V]
  unfold goT
  iintro ⟨#Hlv, -, ⟨Ht0, Ht1, Ht2, Hi0, Hi1, Hi2, Ho0, Ho1, Ho2⟩, ⟨⟨%fI, HsI⟩, ⟨%fG, HsG⟩, ⟨%fR, HsR⟩, ⟨%fO, HsO⟩, Hbufs⟩,
    ⟨Hg0, Hg1, Hds, Hos, Hr0, Hr1, Hr2, Hsems⟩, HO⟩
  ihave Hmw := ((K (F := F)).mayWaits_none (thr := thr d L) hO) $$ Hlv
  ihave HsI := (Entails.of_eq (pts_sIdx (F := F) d L _).symm) $$ HsI
  ihave HsG := (Entails.of_eq (pts_sGidx (F := F) d L _).symm) $$ HsG
  ihave HsR := (Entails.of_eq (pts_sRows (F := F) d L _).symm) $$ HsR
  ihave HsO := (Entails.of_eq (pts_sOut (F := F) d L _).symm) $$ HsO
  rw [k0_part130_eq_skeleton, k0_part136_eq_skeleton, k0_part137_eq_skeleton, k0_part144_eq_skeleton]
  have _plan0 : Transfers.BatchOf (thr d L) (SemLoc.dma (sig := sig) cc0_scratch4.sem) 16 (windows := true) := trivial
  have _plan1 : Transfers.BatchOf (thr d L) (SemLoc.dma (sig := sig) cc0_scratch5.sem) 16 (windows := true) := trivial

  -- ===== table 1 =====
  -- its indices copied in
  ihave Hi' := (Entails.of_eq (pts_ids3Slice (F := F) d L _).symm) $$ Hi0
  ihave Ht' := (Entails.of_eq (pts_tab0 (F := F) d L _ _).symm) $$ Ht0
  sl_exec
  rw [show View.write (Elt F) (sIdx).view _ _ Finset.univ = IDX1 m d L from by rw [View.write_whole_univ]; rfl]
  -- the group numbers
  sl_for (inv1 m d L O) $$ [Hmw HsI HsG]
  case region =>
    intro k _
    unfold inv1
    iintro ⟨#Hmw, HsI, %g, HsG, %hg⟩
    sl_exec
    sl_step
    isplitr; · iexact Hmw
    isplitl [HsI]; · iexact HsI
    iexists _; isplitl [HsG]; · iexact HsG
    ipureintro
    exact fun j hj => grp_step m d L k g hg j hj
  · unfold inv1
    isplitr; · iexact Hmw
    isplitl [HsI]; · iexact HsI
    iexists _; isplitl [HsG]; · iexact HsG
    ipureintro; intro j hj; omega
  iintro %_ HI
  unfold inv1
  icases HI with ⟨-, HsI, %g1, HsG, %hg1⟩
  -- the direct copies of the last 256 rows started
  delta tile_body.sl.prog.cont_1
  rw [wp_bind]
  iapply (loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR1 := grp_all m d L hpre g1 hg1
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht0 := (Entails.of_eq (pts_tab0 (F := F) d L _ _)) $$ Ht'
  sl_exec (disch := exact chkG _ (hgR1 _))
  -- the pair loop
  ihave Ht' := (Entails.of_eq (pts_tab0 (F := F) d L _ _).symm) $$ Ht0
  have hg1' : ∀ j : S256.Idx, (j 0).val < 16 * 16 →
      (g1 j : BitVec 32) = grp (IDX1v m d L (ValueIdx.ix1 ⟨(j 0).val, by have h : (j 0).val < 256 := (j 0).isLt; omega⟩)) := hg1
  rw [orowsBelow_eq]
  rw [wp_bind]
  iapply (pair_loop.{1} m d L hpre O _ _ _ _ _)
  isplitl [HsI HsG Ht' HsO Hg1 HsR Hg0 HO]
  · unfold PairInv
    isplitr; · iexact Hmw
    isplitl [HsI]; · iexact HsI
    isplitl [HsG]
    · unfold GRP1; iexists _; isplitl [HsG]; · iexact HsG
      ipureintro; exact fun j => hg1' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨deliv_word_good m d L hpre g1 hg1' (2 * 0) 0 0 (by omega) (by omega) (by omega) _ rfl _ rfl rfl rfl rfl _ rfl rfl rfl _ _,
        deliv_word_good m d L hpre g1 hg1' (2 * 0) 0 1 (by omega) (by omega) (by omega) _ rfl _ rfl rfl rfl rfl _ rfl rfl rfl _ _,
        deliv_word_good m d L hpre g1 hg1' (2 * 0) 0 2 (by omega) (by omega) (by omega) _ rfl _ rfl rfl rfl rfl _ rfl rfl rfl _ _,
        deliv_word_good m d L hpre g1 hg1' (2 * 0) 0 3 (by omega) (by omega) (by omega) _ rfl _ rfl rfl rfl rfl _ rfl rfl rfl _ _,
        deliv_word_good m d L hpre g1 hg1' (2 * 0) 0 4 (by omega) (by omega) (by omega) _ rfl _ rfl rfl rfl rfl _ rfl rfl rfl _ _,
        deliv_word_good m d L hpre g1 hg1' (2 * 0) 0 5 (by omega) (by omega) (by omega) _ rfl _ rfl rfl rfl rfl _ rfl rfl rfl _ _,
        deliv_word_good m d L hpre g1 hg1' (2 * 0) 0 6 (by omega) (by omega) (by omega) _ rfl _ rfl rfl rfl rfl _ rfl rfl rfl _ _,
        deliv_word_good m d L hpre g1 hg1' (2 * 0) 0 7 (by omega) (by omega) (by omega) _ rfl _ rfl rfl rfl rfl _ rfl rfl rfl _ _,
        deliv_word_good m d L hpre g1 hg1' (2 * 0) 0 8 (by omega) (by omega) (by omega) _ rfl _ rfl rfl rfl rfl _ rfl rfl rfl _ _,
        deliv_word_good m d L hpre g1 hg1' (2 * 0) 0 9 (by omega) (by omega) (by omega) _ rfl _ rfl rfl rfl rfl _ rfl rfl rfl _ _,
        deliv_word_good m d L hpre g1 hg1' (2 * 0) 0 10 (by omega) (by omega) (by omega) _ rfl _ rfl rfl rfl rfl _ rfl rfl rfl _ _,
        deliv_word_good m d L hpre g1 hg1' (2 * 0) 0 11 (by omega) (by omega) (by omega) _ rfl _ rfl rfl rfl rfl _ rfl rfl rfl _ _,
        deliv_word_good m d L hpre g1 hg1' (2 * 0) 0 12 (by omega) (by omega) (by omega) _ rfl _ rfl rfl rfl rfl _ rfl rfl rfl _ _,
        deliv_word_good m d L hpre g1 hg1' (2 * 0) 0 13 (by omega) (by omega) (by omega) _ rfl _ rfl rfl rfl rfl _ rfl rfl rfl _ _,
        deliv_word_good m d L hpre g1 hg1' (2 * 0) 0 14 (by omega) (by omega) (by omega) _ rfl _ rfl rfl rfl rfl _ rfl rfl rfl _ _,
        deliv_word_good m d L hpre g1 hg1' (2 * 0) 0 15 (by omega) (by omega) (by omega) _ rfl _ rfl rfl rfl rfl _ rfl rfl rfl _ _⟩
    iapply (fin_owes wk_refl) $$ HO
  iintro HP
  ihave HP := (pair_exit.{1} m d L O _) $$ HP
  icases HP with ⟨-, HsI, HGRP, ⟨%q2, Ht'⟩, HLOW, Hg1, ⟨%bR, HsR⟩, Hg0, %W3_1, %hW3_1, HO⟩
  unfold GRP1
  icases HGRP with ⟨%g1b, HsG, -⟩
  -- the direct copies drained
  sl_exec
  rw [wp_bind]
  iapply (L4.loop4 m d L hpre O _ _ _ _)
  isplitr; · iexact Hmw
  isplitl [HsI]; · iexact HsI
  isplitl [HDS]; · iexact HDS
  isplitl [HO]; · iexact HO
  iintro ⟨HsI, HHIGH, Hds, %W4_1, %hW4_1, HO⟩
  ihave Hw := (L4.stage_whole m d L) $$ [HLOW HHIGH]
  · isplitl [HLOW] <;> iassumption
  icases Hw with ⟨%ow1, HsO, %how1⟩
  -- the staged rows copied out
  ihave Ho' := (Entails.of_eq (L4.pts_out3Slice (F := F) d L _).symm) $$ Ho0
  sl_exec
  ihave Ho0 := (copy_out_ent m d L _ _) $$ [Ho']
  · isplitl [Ho']; · iexact Ho'
    ipureintro; exact fun x => how1 x
  ihave Hi0 := (Entails.of_eq (pts_ids3Slice (F := F) d L _)) $$ Hi'

  -- ===== table 2 =====
  -- its indices copied in
  ihave Hi' := (Entails.of_eq (T2.pts_ids3Slice (F := F) d L _).symm) $$ Hi1
  ihave Ht' := (Entails.of_eq (T2.pts_tab1 (F := F) d L _ _).symm) $$ Ht1
  sl_exec
  rw [show View.write (Elt F) (sIdx).view _ _ Finset.univ = T2.IDX1 m d L from by rw [View.write_whole_univ]; rfl]
  -- the group numbers
  sl_for (T2.inv1 m d L O) $$ [Hmw HsI HsG]
  case region =>
    intro k _
    unfold T2.inv1
    iintro ⟨#Hmw, HsI, %g, HsG, %hg⟩
    sl_exec
    sl_step
    isplitr; · iexact Hmw
    isplitl [HsI]; · iexact HsI
    iexists _; isplitl [HsG]; · iexact HsG
    ipureintro
    exact fun j hj => T2.grp_step m d L k g hg j hj
  · unfold T2.inv1
    isplitr; · iexact Hmw
    isplitl [HsI]; · iexact HsI
    iexists _; isplitl [HsG]; · iexact HsG
    ipureintro; intro j hj; omega
  iintro %_ HI
  unfold T2.inv1
  icases HI with ⟨-, HsI, %g2, HsG, %hg2⟩
  -- the direct copies of the last 256 rows started
  delta tile_body.sl.prog.cont_2
  rw [wp_bind]
  iapply (T2.loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR2 := T2.grp_all m d L hpre g2 hg2
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht1 := (Entails.of_eq (T2.pts_tab1 (F := F) d L _ _)) $$ Ht'
  sl_exec (disch := exact T2.chkG _ (hgR2 _))
  -- the pair loop
  ihave Ht' := (Entails.of_eq (T2.pts_tab1 (F := F) d L _ _).symm) $$ Ht1
  have hg2' : ∀ j : S256.Idx, (j 0).val < 16 * 16 →
      (g2 j : BitVec 32) = grp (T2.IDX1v m d L (ValueIdx.ix1 ⟨(j 0).val, by have h : (j 0).val < 256 := (j 0).isLt; omega⟩)) := hg2
  rw [orowsBelow_eq]
  rw [wp_bind]
  iapply (T2.pair_loop.{1} m d L hpre O _ _ _)
  isplitl [HsI HsG Ht' HsO Hg1 HsR Hg0 HO]
  · unfold T2.PairInv
    isplitr; · iexact Hmw
    isplitl [HsI]; · iexact HsI
    isplitl [HsG]
    · unfold T2.GRP1; iexists _; isplitl [HsG]; · iexact HsG
      ipureintro; exact fun j => hg2' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨T2.deliv_word_good m d L hpre g2 hg2' (2 * 0) 0 0 (by omega) (by omega) (by omega) _ rfl _ rfl rfl rfl rfl _ rfl rfl rfl _ _,
        T2.deliv_word_good m d L hpre g2 hg2' (2 * 0) 0 1 (by omega) (by omega) (by omega) _ rfl _ rfl rfl rfl rfl _ rfl rfl rfl _ _,
        T2.deliv_word_good m d L hpre g2 hg2' (2 * 0) 0 2 (by omega) (by omega) (by omega) _ rfl _ rfl rfl rfl rfl _ rfl rfl rfl _ _,
        T2.deliv_word_good m d L hpre g2 hg2' (2 * 0) 0 3 (by omega) (by omega) (by omega) _ rfl _ rfl rfl rfl rfl _ rfl rfl rfl _ _,
        T2.deliv_word_good m d L hpre g2 hg2' (2 * 0) 0 4 (by omega) (by omega) (by omega) _ rfl _ rfl rfl rfl rfl _ rfl rfl rfl _ _,
        T2.deliv_word_good m d L hpre g2 hg2' (2 * 0) 0 5 (by omega) (by omega) (by omega) _ rfl _ rfl rfl rfl rfl _ rfl rfl rfl _ _,
        T2.deliv_word_good m d L hpre g2 hg2' (2 * 0) 0 6 (by omega) (by omega) (by omega) _ rfl _ rfl rfl rfl rfl _ rfl rfl rfl _ _,
        T2.deliv_word_good m d L hpre g2 hg2' (2 * 0) 0 7 (by omega) (by omega) (by omega) _ rfl _ rfl rfl rfl rfl _ rfl rfl rfl _ _,
        T2.deliv_word_good m d L hpre g2 hg2' (2 * 0) 0 8 (by omega) (by omega) (by omega) _ rfl _ rfl rfl rfl rfl _ rfl rfl rfl _ _,
        T2.deliv_word_good m d L hpre g2 hg2' (2 * 0) 0 9 (by omega) (by omega) (by omega) _ rfl _ rfl rfl rfl rfl _ rfl rfl rfl _ _,
        T2.deliv_word_good m d L hpre g2 hg2' (2 * 0) 0 10 (by omega) (by omega) (by omega) _ rfl _ rfl rfl rfl rfl _ rfl rfl rfl _ _,
        T2.deliv_word_good m d L hpre g2 hg2' (2 * 0) 0 11 (by omega) (by omega) (by omega) _ rfl _ rfl rfl rfl rfl _ rfl rfl rfl _ _,
        T2.deliv_word_good m d L hpre g2 hg2' (2 * 0) 0 12 (by omega) (by omega) (by omega) _ rfl _ rfl rfl rfl rfl _ rfl rfl rfl _ _,
        T2.deliv_word_good m d L hpre g2 hg2' (2 * 0) 0 13 (by omega) (by omega) (by omega) _ rfl _ rfl rfl rfl rfl _ rfl rfl rfl _ _,
        T2.deliv_word_good m d L hpre g2 hg2' (2 * 0) 0 14 (by omega) (by omega) (by omega) _ rfl _ rfl rfl rfl rfl _ rfl rfl rfl _ _,
        T2.deliv_word_good m d L hpre g2 hg2' (2 * 0) 0 15 (by omega) (by omega) (by omega) _ rfl _ rfl rfl rfl rfl _ rfl rfl rfl _ _⟩
    iapply (fin_owes wk_refl) $$ HO
  iintro HP
  ihave HP := (T2.pair_exit.{1} m d L O _) $$ HP
  icases HP with ⟨-, HsI, HGRP, ⟨%q2, Ht'⟩, HLOW, Hg1, ⟨%bR, HsR⟩, Hg0, %W3_2, %hW3_2, HO⟩
  unfold T2.GRP1
  icases HGRP with ⟨%g2b, HsG, -⟩
  -- the direct copies drained
  sl_exec
  rw [wp_bind]
  iapply (T2.L4.loop4 m d L hpre O _ _ _)
  isplitr; · iexact Hmw
  isplitl [HsI]; · iexact HsI
  isplitl [HDS]; · iexact HDS
  isplitl [HO]; · iexact HO
  iintro ⟨HsI, HHIGH, Hds, %W4_2, %hW4_2, HO⟩
  ihave Hw := (T2.L4.stage_whole m d L) $$ [HLOW HHIGH]
  · isplitl [HLOW] <;> iassumption
  icases Hw with ⟨%ow2, HsO, %how2⟩
  -- the staged rows copied out
  ihave Ho' := (Entails.of_eq (T2.L4.pts_out3Slice (F := F) d L _).symm) $$ Ho1
  sl_exec
  ihave Ho1 := (T2.copy_out_ent m d L _ _) $$ [Ho']
  · isplitl [Ho']; · iexact Ho'
    ipureintro; exact fun x => how2 x
  ihave Hi1 := (Entails.of_eq (T2.pts_ids3Slice (F := F) d L _)) $$ Hi'

  -- ===== table 3 =====
  -- its indices copied in
  ihave Hi' := (Entails.of_eq (T3.pts_ids3Slice (F := F) d L _).symm) $$ Hi2
  ihave Ht' := (Entails.of_eq (T3.pts_tab2 (F := F) d L _ _).symm) $$ Ht2
  sl_exec
  rw [show View.write (Elt F) (sIdx).view _ _ Finset.univ = T3.IDX1 m d L from by rw [View.write_whole_univ]; rfl]
  -- the group numbers
  sl_for (T3.inv1 m d L O) $$ [Hmw HsI HsG]
  case region =>
    intro k _
    unfold T3.inv1
    iintro ⟨#Hmw, HsI, %g, HsG, %hg⟩
    sl_exec
    sl_step
    isplitr; · iexact Hmw
    isplitl [HsI]; · iexact HsI
    iexists _; isplitl [HsG]; · iexact HsG
    ipureintro
    exact fun j hj => T3.grp_step m d L k g hg j hj
  · unfold T3.inv1
    isplitr; · iexact Hmw
    isplitl [HsI]; · iexact HsI
    iexists _; isplitl [HsG]; · iexact HsG
    ipureintro; intro j hj; omega
  iintro %_ HI
  unfold T3.inv1
  icases HI with ⟨-, HsI, %g3, HsG, %hg3⟩
  -- the direct copies of the last 256 rows started
  delta tile_body.sl.prog.cont_3
  rw [wp_bind]
  iapply (T3.loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR3 := T3.grp_all m d L hpre g3 hg3
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht2 := (Entails.of_eq (T3.pts_tab2 (F := F) d L _ _)) $$ Ht'
  sl_exec (disch := exact T3.chkG _ (hgR3 _))
  -- the pair loop
  ihave Ht' := (Entails.of_eq (T3.pts_tab2 (F := F) d L _ _).symm) $$ Ht2
  have hg3' : ∀ j : S256.Idx, (j 0).val < 16 * 16 →
      (g3 j : BitVec 32) = grp (T3.IDX1v m d L (ValueIdx.ix1 ⟨(j 0).val, by have h : (j 0).val < 256 := (j 0).isLt; omega⟩)) := hg3
  rw [orowsBelow_eq]
  rw [wp_bind]
  iapply (T3.pair_loop.{1} m d L hpre O _ _)
  isplitl [HsI HsG Ht' HsO Hg1 HsR Hg0 HO]
  · unfold T3.PairInv
    isplitr; · iexact Hmw
    isplitl [HsI]; · iexact HsI
    isplitl [HsG]
    · unfold T3.GRP1; iexists _; isplitl [HsG]; · iexact HsG
      ipureintro; exact fun j => hg3' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨T3.deliv_word_good m d L hpre g3 hg3' (2 * 0) 0 0 (by omega) (by omega) (by omega) _ rfl _ rfl rfl rfl rfl _ rfl rfl rfl _ _,
        T3.deliv_word_good m d L hpre g3 hg3' (2 * 0) 0 1 (by omega) (by omega) (by omega) _ rfl _ rfl rfl rfl rfl _ rfl rfl rfl _ _,
        T3.deliv_word_good m d L hpre g3 hg3' (2 * 0) 0 2 (by omega) (by omega) (by omega) _ rfl _ rfl rfl rfl rfl _ rfl rfl rfl _ _,
        T3.deliv_word_good m d L hpre g3 hg3' (2 * 0) 0 3 (by omega) (by omega) (by omega) _ rfl _ rfl rfl rfl rfl _ rfl rfl rfl _ _,
        T3.deliv_word_good m d L hpre g3 hg3' (2 * 0) 0 4 (by omega) (by omega) (by omega) _ rfl _ rfl rfl rfl rfl _ rfl rfl rfl _ _,
        T3.deliv_word_good m d L hpre g3 hg3' (2 * 0) 0 5 (by omega) (by omega) (by omega) _ rfl _ rfl rfl rfl rfl _ rfl rfl rfl _ _,
        T3.deliv_word_good m d L hpre g3 hg3' (2 * 0) 0 6 (by omega) (by omega) (by omega) _ rfl _ rfl rfl rfl rfl _ rfl rfl rfl _ _,
        T3.deliv_word_good m d L hpre g3 hg3' (2 * 0) 0 7 (by omega) (by omega) (by omega) _ rfl _ rfl rfl rfl rfl _ rfl rfl rfl _ _,
        T3.deliv_word_good m d L hpre g3 hg3' (2 * 0) 0 8 (by omega) (by omega) (by omega) _ rfl _ rfl rfl rfl rfl _ rfl rfl rfl _ _,
        T3.deliv_word_good m d L hpre g3 hg3' (2 * 0) 0 9 (by omega) (by omega) (by omega) _ rfl _ rfl rfl rfl rfl _ rfl rfl rfl _ _,
        T3.deliv_word_good m d L hpre g3 hg3' (2 * 0) 0 10 (by omega) (by omega) (by omega) _ rfl _ rfl rfl rfl rfl _ rfl rfl rfl _ _,
        T3.deliv_word_good m d L hpre g3 hg3' (2 * 0) 0 11 (by omega) (by omega) (by omega) _ rfl _ rfl rfl rfl rfl _ rfl rfl rfl _ _,
        T3.deliv_word_good m d L hpre g3 hg3' (2 * 0) 0 12 (by omega) (by omega) (by omega) _ rfl _ rfl rfl rfl rfl _ rfl rfl rfl _ _,
        T3.deliv_word_good m d L hpre g3 hg3' (2 * 0) 0 13 (by omega) (by omega) (by omega) _ rfl _ rfl rfl rfl rfl _ rfl rfl rfl _ _,
        T3.deliv_word_good m d L hpre g3 hg3' (2 * 0) 0 14 (by omega) (by omega) (by omega) _ rfl _ rfl rfl rfl rfl _ rfl rfl rfl _ _,
        T3.deliv_word_good m d L hpre g3 hg3' (2 * 0) 0 15 (by omega) (by omega) (by omega) _ rfl _ rfl rfl rfl rfl _ rfl rfl rfl _ _⟩
    iapply (fin_owes wk_refl) $$ HO
  iintro HP
  ihave HP := (T3.pair_exit.{1} m d L O _) $$ HP
  icases HP with ⟨-, HsI, HGRP, ⟨%q2, Ht'⟩, HLOW, Hg1, ⟨%bR, HsR⟩, Hg0, %W3_3, %hW3_3, HO⟩
  unfold T3.GRP1
  icases HGRP with ⟨%g3b, HsG, -⟩
  -- the direct copies drained
  sl_exec
  rw [wp_bind]
  iapply (T3.L4.loop4 m d L hpre O _ _)
  isplitr; · iexact Hmw
  isplitl [HsI]; · iexact HsI
  isplitl [HDS]; · iexact HDS
  isplitl [HO]; · iexact HO
  iintro ⟨HsI, HHIGH, Hds, %W4_3, %hW4_3, HO⟩
  ihave Hw := (T3.L4.stage_whole m d L) $$ [HLOW HHIGH]
  · isplitl [HLOW] <;> iassumption
  icases Hw with ⟨%ow3, HsO, %how3⟩
  -- the staged rows copied out
  ihave Ho' := (Entails.of_eq (T3.L4.pts_out3Slice (F := F) d L _).symm) $$ Ho2
  sl_exec
  ihave Ho2 := (T3.copy_out_ent m d L _ _) $$ [Ho']
  · isplitl [Ho']; · iexact Ho'
    ipureintro; exact fun x => how3 x
  ihave Hi2 := (Entails.of_eq (T3.pts_ids3Slice (F := F) d L _)) $$ Hi'

  -- ===== the task's end: everything handed back =====
  sl_step
  unfold tdT
  isplitl [Hi0 Hi1 Hi2 Ho0 Ho1 Ho2]
  · isplitl [Hi0]; · iexact Hi0
    isplitl [Hi1]; · iexact Hi1
    isplitl [Hi2]; · iexact Hi2
    isplitl [Ho0]; · iexact Ho0
    isplitl [Ho1]; · iexact Ho1
    iexact Ho2
  isplitl [HsI HsG HsR HsO Hbufs]
  · isplitl [HsI]; · iexists _; iapply (Entails.of_eq (pts_sIdx (F := F) d L _)); iexact HsI
    isplitl [HsG]; · iexists _; iapply (Entails.of_eq (pts_sGidx (F := F) d L _)); iexact HsG
    isplitl [HsR]; · iexists _; iapply (Entails.of_eq (pts_sRows (F := F) d L _)); iexact HsR
    isplitl [HsO]; · iexists _; iapply (Entails.of_eq (pts_sOut (F := F) d L _)); iexact HsO
    iexact Hbufs
  isplitl [Hg0 Hg1 Hds Hos Hr0 Hr1 Hr2 Hsems]
  · isplitl [Hg0]; · iexact Hg0
    isplitl [Hg1]; · iexact Hg1
    isplitl [Hds]; · iexact Hds
    isplitl [Hos]; · iexact Hos
    isplitl [Hr0]; · iexact Hr0
    isplitl [Hr1]; · iexact Hr1
    isplitl [Hr2]; · iexact Hr2
    iexact Hsems
  iapply (fin_owes (wk_insert (wk_trans hW4_3 (wk_trans hW3_3 (wk_insert (wk_insert (wk_trans hW4_2 (wk_trans hW3_2 (wk_insert
    (wk_insert (wk_trans hW4_1 (wk_trans hW3_1 (wk_insert wk_refl))))))))))))) $$ HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather3 (coordsV c s)
          t0W (Memref.isWhole_whole _) t1W (Memref.isWhole_whole _) t2W (Memref.isWhole_whole _)
          i3W (Memref.isWhole_whole _) i4W (Memref.isWhole_whole _) i5W (Memref.isWhole_whole _)
          o0W (Memref.isWhole_whole _) o1W (Memref.isWhole_whole _) o2W (Memref.isWhole_whole _)
          sIdx (Memref.isWhole_whole _) sGidx (Memref.isWhole_whole _) sRows (Memref.isWhole_whole _) sOut (Memref.isWhole_whole _)
          cc0_scratch4 cc0_scratch5 cc0_scratch6 cc0_scratch7 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KS

end
-- ==== Proof.KISetup.lean ====
/-
  The set-up shared by the body and the launch of the embedding-lookup kernel: the program as the launch theorem sees
  it, the ghost state (the launch handshakes' rounds beside the local transfers' counters), and what the one
  SparseCore call hands each of the 32 tiles and takes back.

  Tile (core c, subcore s) has number w = 2 s + c and owns positions [512 w, 512 w + 512) of the three index arrays
  and the same rows of the three results. It is handed those pieces whole, and a read share of each table (every tile
  may read any row of a table); it hands back its index pieces unchanged and its result rows holding, for every
  position r, the row of the table that the r-th index names.
-/
import proofs.«207337_g69080253988965_cont_9to1c4b_173_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207337_g69080253988965_cont_9to1c4b_173_32_alg».proof.Proof.Gen.KernelIdeal
import proofs.«207337_g69080253988965_cont_9to1c4b_173_32_alg».proof.Proof.Gen.KernelIdeal.Skeleton
import proofs.«207337_g69080253988965_cont_9to1c4b_173_32_alg».proof.Proof.Spec

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The three tables, the three index arrays and the three results, as locations of device `d`. -/
abbrev tab0 (d : Dev nD) : Loc nD τ sig := (SparseCore.T d).loc main_arg0
abbrev tab1 (d : Dev nD) : Loc nD τ sig := (SparseCore.T d).loc main_arg1
abbrev tab2 (d : Dev nD) : Loc nD τ sig := (SparseCore.T d).loc main_arg2
abbrev ids0 (d : Dev nD) : Loc nD τ sig := (SparseCore.T d).loc main_arg3
abbrev ids1 (d : Dev nD) : Loc nD τ sig := (SparseCore.T d).loc main_arg4
abbrev ids2 (d : Dev nD) : Loc nD τ sig := (SparseCore.T d).loc main_arg5
abbrev out0 (d : Dev nD) : Loc nD τ sig := (SparseCore.T d).loc main_v0_0
abbrev out1 (d : Dev nD) : Loc nD τ sig := (SparseCore.T d).loc main_v0_1
abbrev out2 (d : Dev nD) : Loc nD τ sig := (SparseCore.T d).loc main_v0_2

/-- What each result holds at the end: the lookup of its table at its index array. -/
def res0 (d : Dev nD) : Buf (Elt F) (out0 d) := Cert.Spec.lookupL (m (tab0 d)) (m (ids0 d))
def res1 (d : Dev nD) : Buf (Elt F) (out1 d) := Cert.Spec.lookupS (m (tab1 d)) (m (ids1 d))
def res2 (d : Dev nD) : Buf (Elt F) (out2 d) := Cert.Spec.lookupL (m (tab2 d)) (m (ids2 d))

/-! ## The tiles' pieces -/

theorem hdivI : 32 ∣ S16384.size 0 := ⟨512, rfl⟩
theorem hdivO : 32 ∣ S16384x32.size 0 := ⟨512, rfl⟩
/-- Positions [512 w, 512 w + 512) of an index array; the same rows of a result. -/
abbrev idsPart (w : Fin 32) : Rect S16384 := Rect.part (s := S16384) (a₀ := 0) hdivI w
abbrev outPart (w : Fin 32) : Rect S16384x32 := Rect.part (s := S16384x32) (a₀ := 0) hdivO w
abbrev idsSet (w : Fin 32) : Finset S16384.Idx := (idsPart w).set
abbrev outSet (w : Fin 32) : Finset S16384x32.Idx := (outPart w).set

/-- The number of the tile at core `c`, subcore `s`. -/
def wid (c : Fin 2) (s : Fin 16) : Fin 32 := ⟨2 * s.val + c.val, by omega⟩

/-- Tile `w`'s read share of a table: the `w`-th of 32 read tokens of the whole. -/
abbrev tabShare (w : Fin 32) : PosShare TreeShare := Transfers.shareTok fullShare 32 w

/-- What tile `w` is handed: a read share of each table, its pieces of the index arrays, its rows of the results. -/
def goT (d : Dev nD) (w : Fin 32) : sProp 𝕄 :=
  iprop((tab0 d ↦{tabShare w} m (tab0 d)) ∗ (tab1 d ↦{tabShare w} m (tab1 d)) ∗ (tab2 d ↦{tabShare w} m (tab2 d))
    ∗ (ids0 d ↦[idsSet w]{fullShare} m (ids0 d)) ∗ (ids1 d ↦[idsSet w]{fullShare} m (ids1 d)) ∗ (ids2 d ↦[idsSet w]{fullShare} m (ids2 d))
    ∗ (out0 d ↦[outSet w]{fullShare} m (out0 d)) ∗ (out1 d ↦[outSet w]{fullShare} m (out1 d)) ∗ (out2 d ↦[outSet w]{fullShare} m (out2 d)))

/-- What tile `w` hands back: its pieces of the index arrays unchanged, its rows of the results at the lookups. -/
def tdT (d : Dev nD) (w : Fin 32) : sProp 𝕄 :=
  iprop((ids0 d ↦[idsSet w]{fullShare} m (ids0 d)) ∗ (ids1 d ↦[idsSet w]{fullShare} m (ids1 d)) ∗ (ids2 d ↦[idsSet w]{fullShare} m (ids2 d))
    ∗ (out0 d ↦[outSet w]{fullShare} res0 m d) ∗ (out1 d ↦[outSet w]{fullShare} res1 m d) ∗ (out2 d ↦[outSet w]{fullShare} res2 m d))

instance goT_storable (d : Dev nD) (w : Fin 32) : BI.Storable (upEmb : UEmb _ 𝕄) (goT m d w) := by unfold goT; infer_instance
instance tdT_storable (d : Dev nD) (w : Fin 32) : BI.Storable (upEmb : UEmb _ 𝕄) (tdT m d w) := by unfold tdT; infer_instance

/-- The one call: each SparseCore takes its sixteen tiles' pieces and brings back what they leave. -/
def P : (K (F := F)).Pay (nD := nD) (Val := Elt F) (Name := ℕ) (U := UU) where
  st := fun q d c => match q with | 0 => bigSep Finset.univ fun s : Fin 16 => goT m d (wid (Fin.cast nCore_zero c) s)
  dn := fun q d c => match q with | 0 => bigSep Finset.univ fun s : Fin 16 => tdT m d (wid (Fin.cast nCore_zero c) s)
  go := fun q d c s => match q with | 0 => goT m d (wid (Fin.cast nCore_zero c) (Fin.cast nSub_zero s))
  td := fun q d c s => match q with | 0 => tdT m d (wid (Fin.cast nCore_zero c) (Fin.cast nSub_zero s))
  x := fun _ _ => iprop(emp)

instance P_storable : (P (F := F) m).IsStorable where
  st q d c := match q with | 0 => (inferInstance : BI.Storable (upEmb : UEmb _ 𝕄) (bigSep Finset.univ fun s : Fin 16 => goT m d (wid (Fin.cast nCore_zero c) s)))
  dn q d c := match q with | 0 => (inferInstance : BI.Storable (upEmb : UEmb _ 𝕄) (bigSep Finset.univ fun s : Fin 16 => tdT m d (wid (Fin.cast nCore_zero c) s)))
  go q d c s := match q with | 0 => (inferInstance : BI.Storable (upEmb : UEmb _ 𝕄) (goT m d (wid (Fin.cast nCore_zero c) (Fin.cast nSub_zero s))))
  td q d c s := match q with | 0 => (inferInstance : BI.Storable (upEmb : UEmb _ 𝕄) (tdT m d (wid (Fin.cast nCore_zero c) (Fin.cast nSub_zero s))))

end Cert.Proof.KIS

end
-- ==== Proof.KILaunch.lean ====
/-
  The launch of the embedding-lookup kernel, given one tile's body.

  The one call hands each of the 32 tiles a read share of each table, its 512 positions of each index array and its
  512 rows of each result, and takes back the index pieces unchanged and the result rows at the lookups. Here: how a
  SparseCore's share splits among its sixteen tiles and gathers again; the launch element of the ghost state; the
  TensorCore's side of the call, which cuts the whole arrays into the tiles' pieces (a table into 32 read shares and a
  remainder that is kept, an index array and a result into 32 blocks of 512 along the first axis), numbers the tiles
  as core and subcore (w = 2 s + c, a bijection of 2 x 16 with 32), makes the call, and joins the pieces again; how
  the final memory is read off what is held at the end; and the run of the whole family of threads.
-/
import proofs.«207337_g69080253988965_cont_9to1c4b_173_32_alg».proof.Proof.KISetup

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries, as equations -/

theorem P_st (d : Dev nD) (c : Fin ((K (F := F)).nCore 0)) :
    (P (F := F) m).st 0 d c = bigSep Finset.univ fun s : Fin 16 => goT m d (wid (Fin.cast nCore_zero c) s) := rfl
theorem P_dn (d : Dev nD) (c : Fin ((K (F := F)).nCore 0)) :
    (P (F := F) m).dn 0 d c = bigSep Finset.univ fun s : Fin 16 => tdT m d (wid (Fin.cast nCore_zero c) s) := rfl
theorem P_go (d : Dev nD) (c : Fin ((K (F := F)).nCore 0)) (i : Fin ((K (F := F)).nSub 0)) :
    (P (F := F) m).go 0 d c i = goT m d (wid (Fin.cast nCore_zero c) (Fin.cast nSub_zero i)) := rfl
theorem P_td (d : Dev nD) (c : Fin ((K (F := F)).nCore 0)) (i : Fin ((K (F := F)).nSub 0)) :
    (P (F := F) m).td 0 d c i = tdT m d (wid (Fin.cast nCore_zero c) (Fin.cast nSub_zero i)) := rfl

/-! ## A SparseCore's share among its sixteen tiles -/

/-- The sixteen subcores, indexed by the configuration's count or by 16. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its tiles' shares, going and coming back. -/
theorem vecSplit : (K (F := F)).VecSplit' (P m) 0 := by
  intro d c
  simp only [P_go, P_td]
  rw [P_st, P_dn, bigSep_tasks (F := F) (fun s => goT m d (wid (Fin.cast nCore_zero c) s)),
    bigSep_tasks (F := F) (fun s => tdT m d (wid (Fin.cast nCore_zero c) s))]
  iintro H; imodintro
  isplitl [H]; · iexact H
  iintro H; iexact H

/-! ## The launch element: the handshakes' rounds; the counters are not used before the tiles run -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

/-! ## The TensorCore's arrays -/

/-- The fourth index array, which the call never touches. -/
abbrev arg6 (d : Dev nD) : Loc nD τ sig := (SparseCore.T d).loc main_arg6

/-- What the launch hands the TensorCore: its ten arrays, each whole. -/
theorem unscopedBufs_eq (d : Dev nD) (W : (b : Ref sig .tc) → Buf (Elt F) ((d.tc : Thread nD τ).loc b)) :
    (unscopedBufs d W : sProp 𝕄) = iprop((tab0 d ↦{fullShare} W main_arg0) ∗ (tab1 d ↦{fullShare} W main_arg1) ∗ (tab2 d ↦{fullShare} W main_arg2)
      ∗ (ids0 d ↦{fullShare} W main_arg3) ∗ (ids1 d ↦{fullShare} W main_arg4) ∗ (ids2 d ↦{fullShare} W main_arg5) ∗ (arg6 d ↦{fullShare} W main_arg6)
      ∗ (out0 d ↦{fullShare} W main_v0_0) ∗ (out1 d ↦{fullShare} W main_v0_1) ∗ (out2 d ↦{fullShare} W main_v0_2)) := by
  unfold unscopedBufs
  rw [show (Finset.univ.filter fun b : Ref sig .tc => ¬ b.isScoped)
      = {main_arg0, main_arg1, main_arg2, main_arg3, main_arg4, main_arg5, main_arg6, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The 32 blocks of an index array and of a result -/

theorem ids_disjoint : ∀ i ∈ (Finset.univ : Finset (Fin 32)), ∀ j ∈ (Finset.univ : Finset (Fin 32)), i ≠ j → Disjoint (idsSet i) (idsSet j) :=
  fun _ _ _ _ h => Rect.part_disjoint hdivI h
theorem ids_cover : (Finset.univ : Finset (Fin 32)).biUnion idsSet = Finset.univ := Rect.biUnion_part hdivI
theorem out_disjoint : ∀ i ∈ (Finset.univ : Finset (Fin 32)), ∀ j ∈ (Finset.univ : Finset (Fin 32)), i ≠ j → Disjoint (outSet i) (outSet j) :=
  fun _ _ _ _ h => Rect.part_disjoint hdivO h
theorem out_cover : (Finset.univ : Finset (Fin 32)).biUnion outSet = Finset.univ := Rect.biUnion_part hdivO

/-- An index array held whole is its 32 blocks held, at one valuation. -/
theorem ids0_pieces (d : Dev nD) (f : Buf (Elt F) (ids0 d)) :
    (ids0 d ↦{fullShare} f : sProp 𝕄) = bigSep Finset.univ fun w : Fin 32 => ids0 d ↦[idsSet w]{fullShare} f := by
  rw [← pointsTo_biUnion Finset.univ (ℓ := ids0 d) idsSet ids_disjoint, ids_cover]; try rfl
theorem ids1_pieces (d : Dev nD) (f : Buf (Elt F) (ids1 d)) :
    (ids1 d ↦{fullShare} f : sProp 𝕄) = bigSep Finset.univ fun w : Fin 32 => ids1 d ↦[idsSet w]{fullShare} f := by
  rw [← pointsTo_biUnion Finset.univ (ℓ := ids1 d) idsSet ids_disjoint, ids_cover]; try rfl
theorem ids2_pieces (d : Dev nD) (f : Buf (Elt F) (ids2 d)) :
    (ids2 d ↦{fullShare} f : sProp 𝕄) = bigSep Finset.univ fun w : Fin 32 => ids2 d ↦[idsSet w]{fullShare} f := by
  rw [← pointsTo_biUnion Finset.univ (ℓ := ids2 d) idsSet ids_disjoint, ids_cover]; try rfl
/-- A result held whole is its 32 blocks of rows held, at one valuation. -/
theorem out0_pieces (d : Dev nD) (f : Buf (Elt F) (out0 d)) :
    (out0 d ↦{fullShare} f : sProp 𝕄) = bigSep Finset.univ fun w : Fin 32 => out0 d ↦[outSet w]{fullShare} f := by
  rw [← pointsTo_biUnion Finset.univ (ℓ := out0 d) outSet out_disjoint, out_cover]; try rfl
theorem out1_pieces (d : Dev nD) (f : Buf (Elt F) (out1 d)) :
    (out1 d ↦{fullShare} f : sProp 𝕄) = bigSep Finset.univ fun w : Fin 32 => out1 d ↦[outSet w]{fullShare} f := by
  rw [← pointsTo_biUnion Finset.univ (ℓ := out1 d) outSet out_disjoint, out_cover]; try rfl
theorem out2_pieces (d : Dev nD) (f : Buf (Elt F) (out2 d)) :
    (out2 d ↦{fullShare} f : sProp 𝕄) = bigSep Finset.univ fun w : Fin 32 => out2 d ↦[outSet w]{fullShare} f := by
  rw [← pointsTo_biUnion Finset.univ (ℓ := out2 d) outSet out_disjoint, out_cover]; try rfl

/-! ## The 32 tiles as two cores of sixteen subcores -/

/-- Tile numbers: (c, s) to 2 s + c is one-to-one, -/
def widE : Fin 2 × Fin 16 ↪ Fin 32 :=
  ⟨fun p => wid p.1 p.2, fun p q h => by
    have e : 2 * p.2.val + p.1.val = 2 * q.2.val + q.1.val := congrArg Fin.val h
    have h1 := p.1.isLt; have h2 := q.1.isLt
    exact Prod.ext (Fin.ext (by omega)) (Fin.ext (by omega))⟩

/-- and onto: 2 x 16 numbers among 32. -/
theorem widE_univ : (Finset.univ : Finset (Fin 2 × Fin 16)).map widE = Finset.univ :=
  Finset.eq_univ_of_card _ (by rw [Finset.card_map]; rfl)

/-- A product over the 32 tiles is the product over the cores of the products over their subcores. -/
theorem bigSep_tiles (Φ : Fin 32 → sProp 𝕄) :
    bigSep Finset.univ Φ = bigSep Finset.univ fun c : Fin 2 => bigSep Finset.univ fun s : Fin 16 => Φ (wid c s) := by
  rw [← widE_univ, bigSep_map, bigSep_univ_prod]; rfl

theorem st0_eq (d : Dev nD) :
    (bigSep Finset.univ fun c : Fin ((K (F := F)).nCore 0) => (P (F := F) m).st 0 d c) = bigSep Finset.univ fun w : Fin 32 => goT m d w := by
  rw [bigSep_tiles (F := F) (fun w => goT m d w)]; rfl
theorem dn0_eq (d : Dev nD) :
    (bigSep Finset.univ fun c : Fin ((K (F := F)).nCore 0) => (P (F := F) m).dn 0 d c) = bigSep Finset.univ fun w : Fin 32 => tdT m d w := by
  rw [bigSep_tiles (F := F) (fun w => tdT m d w)]; rfl

/-- What all the tiles are handed together: each table's 32 read shares, and the index arrays and results whole. -/
theorem go_all (d : Dev nD) : (bigSep Finset.univ fun w : Fin 32 => goT m d w) = iprop(
    (bigSep Finset.univ fun w : Fin 32 => tab0 d ↦{tabShare w} m (tab0 d)) ∗ (bigSep Finset.univ fun w : Fin 32 => tab1 d ↦{tabShare w} m (tab1 d))
    ∗ (bigSep Finset.univ fun w : Fin 32 => tab2 d ↦{tabShare w} m (tab2 d))
    ∗ (ids0 d ↦{fullShare} m (ids0 d)) ∗ (ids1 d ↦{fullShare} m (ids1 d)) ∗ (ids2 d ↦{fullShare} m (ids2 d))
    ∗ (out0 d ↦{fullShare} m (out0 d)) ∗ (out1 d ↦{fullShare} m (out1 d)) ∗ (out2 d ↦{fullShare} m (out2 d))) := by
  unfold goT
  rw [bigSep_sep', bigSep_sep', bigSep_sep', bigSep_sep', bigSep_sep', bigSep_sep', bigSep_sep', bigSep_sep',
    ids0_pieces, ids1_pieces, ids2_pieces, out0_pieces, out1_pieces, out2_pieces]

/-- What all the tiles hand back together: the index arrays whole and unchanged, the results whole at the lookups. -/
theorem td_all (d : Dev nD) : (bigSep Finset.univ fun w : Fin 32 => tdT m d w) = iprop(
    (ids0 d ↦{fullShare} m (ids0 d)) ∗ (ids1 d ↦{fullShare} m (ids1 d)) ∗ (ids2 d ↦{fullShare} m (ids2 d))
    ∗ (out0 d ↦{fullShare} res0 m d) ∗ (out1 d ↦{fullShare} res1 m d) ∗ (out2 d ↦{fullShare} res2 m d)) := by
  unfold tdT
  rw [bigSep_sep', bigSep_sep', bigSep_sep', bigSep_sep', bigSep_sep',
    ids0_pieces, ids1_pieces, ids2_pieces, out0_pieces, out1_pieces, out2_pieces]

/-! ## @main on the TensorCore -/

/-- What is left of a table's full share after 32 read shares are split off. -/
abbrev restShare : PosShare TreeShare := Transfers.shareDrop fullShare 32

/-- What @main leaves the claim: what is left of each table, the index arrays whole and unchanged, the results whole at
    the lookups, the fourth index array whole and unchanged. -/
abbrev FIN (d : Dev nD) : sProp 𝕄 := iprop(
  (tab0 d ↦{restShare} m (tab0 d)) ∗ (tab1 d ↦{restShare} m (tab1 d)) ∗ (tab2 d ↦{restShare} m (tab2 d))
  ∗ (ids0 d ↦{fullShare} m (ids0 d)) ∗ (ids1 d ↦{fullShare} m (ids1 d)) ∗ (ids2 d ↦{fullShare} m (ids2 d))
  ∗ (out0 d ↦{fullShare} res0 m d) ∗ (out1 d ↦{fullShare} res1 m d) ∗ (out2 d ↦{fullShare} res2 m d)
  ∗ (arg6 d ↦{fullShare} m (arg6 d)))

/-- @main on device d's TensorCore: the one call. Each table gives 32 read shares and keeps the rest; the index arrays
    and the results go whole (as their 32 blocks) and come back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht0, Ht1, Ht2, Hi0, Hi1, Hi2, H6, Ho0, Ho1, Ho2⟩, -, -⟩, -⟩
  ihave Hs0 := (Transfers.pointsTo_toks_split fullShare 32) $$ Ht0
  icases Hs0 with ⟨Hr0, Hk0⟩
  ihave Hs1 := (Transfers.pointsTo_toks_split fullShare 32) $$ Ht1
  icases Hs1 with ⟨Hr1, Hk1⟩
  ihave Hs2 := (Transfers.pointsTo_toks_split fullShare 32) $$ Ht2
  icases Hs2 with ⟨Hr2, Hk2⟩
  iapply ((K (F := F)).wp_run (D (F := F)) 𝒱 (EH := EH) (P := P m) κ d 0) $$ [Hst Hk0 Hk1 Hk2 Hi0 Hi1 Hi2 Ho0 Ho1 Ho2 Hr0 Hr1 Hr2 H6]
  isplitr; · iexact Hctx
  isplitl [Hst]; · iexact Hst
  isplitl [Hk0 Hk1 Hk2 Hi0 Hi1 Hi2 Ho0 Ho1 Ho2]
  · rw [st0_eq, go_all]
    isplitl [Hk0]; · iexact Hk0
    isplitl [Hk1]; · iexact Hk1
    isplitl [Hk2]; · iexact Hk2
    isplitl [Hi0]; · iexact Hi0
    isplitl [Hi1]; · iexact Hi1
    isplitl [Hi2]; · iexact Hi2
    isplitl [Ho0]; · iexact Ho0
    isplitl [Ho1]; · iexact Ho1
    iexact Ho2
  iintro ⟨Hst, Hdn⟩
  ihave Hdn' := (Entails.of_eq ((dn0_eq m d).trans (td_all m d))) $$ Hdn
  icases Hdn' with ⟨Hi0, Hi1, Hi2, Ho0, Ho1, Ho2⟩
  imodintro
  isplitl [Hst]; · iexact Hst
  isplitl [Hr0]; · iexact Hr0
  isplitl [Hr1]; · iexact Hr1
  isplitl [Hr2]; · iexact Hr2
  isplitl [Hi0]; · iexact Hi0
  isplitl [Hi1]; · iexact Hi1
  isplitl [Hi2]; · iexact Hi2
  isplitl [Ho0]; · iexact Ho0
  isplitl [Ho1]; · iexact Ho1
  isplitl [Ho2]; · iexact Ho2
  iexact H6

/-! ## The final memory, read off what is held at the end -/

/-- What device d's arrays hold at the end: each result the lookup, every argument what it held at the launch. -/
def fq (d : Dev nD) (s' : Phys nD τ sig (Elt F)) : Prop :=
  s'.mem.mem (out0 d) = res0 m d ∧ s'.mem.mem (out1 d) = res1 m d ∧ s'.mem.mem (out2 d) = res2 m d
  ∧ s'.mem.mem (tab0 d) = m (tab0 d) ∧ s'.mem.mem (tab1 d) = m (tab1 d) ∧ s'.mem.mem (tab2 d) = m (tab2 d)
  ∧ s'.mem.mem (ids0 d) = m (ids0 d) ∧ s'.mem.mem (ids1 d) = m (ids1 d) ∧ s'.mem.mem (ids2 d) = m (ids2 d)
  ∧ s'.mem.mem (arg6 d) = m (arg6 d)

/-- An array held whole, at any share, is what the memory holds there; the memory's interpretation is kept. -/
theorem SI_agree_keep (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro H
  ihave H' := (persistent_entails_right (SI_pointsTo_agree (st := s') (ℓ := ℓ) (I := Finset.univ) (q := q) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hr0, Hr1, Hr2, Hi0, Hi1, Hi2, Ho0, Ho1, Ho2, H6⟩, HSI⟩
  ihave H := (SI_agree_keep s' (tab0 d) restShare (m (tab0 d))) $$ [HSI Hr0]
  · isplitl [HSI] <;> iassumption
  icases H with ⟨%ht0, HSI⟩
  ihave H := (SI_agree_keep s' (tab1 d) restShare (m (tab1 d))) $$ [HSI Hr1]
  · isplitl [HSI] <;> iassumption
  icases H with ⟨%ht1, HSI⟩
  ihave H := (SI_agree_keep s' (tab2 d) restShare (m (tab2 d))) $$ [HSI Hr2]
  · isplitl [HSI] <;> iassumption
  icases H with ⟨%ht2, HSI⟩
  ihave H := (SI_agree_keep s' (ids0 d) fullShare (m (ids0 d))) $$ [HSI Hi0]
  · isplitl [HSI] <;> iassumption
  icases H with ⟨%hi0, HSI⟩
  ihave H := (SI_agree_keep s' (ids1 d) fullShare (m (ids1 d))) $$ [HSI Hi1]
  · isplitl [HSI] <;> iassumption
  icases H with ⟨%hi1, HSI⟩
  ihave H := (SI_agree_keep s' (ids2 d) fullShare (m (ids2 d))) $$ [HSI Hi2]
  · isplitl [HSI] <;> iassumption
  icases H with ⟨%hi2, HSI⟩
  ihave H := (SI_agree_keep s' (out0 d) fullShare (res0 m d)) $$ [HSI Ho0]
  · isplitl [HSI] <;> iassumption
  icases H with ⟨%ho0, HSI⟩
  ihave H := (SI_agree_keep s' (out1 d) fullShare (res1 m d)) $$ [HSI Ho1]
  · isplitl [HSI] <;> iassumption
  icases H with ⟨%ho1, HSI⟩
  ihave H := (SI_agree_keep s' (out2 d) fullShare (res2 m d)) $$ [HSI Ho2]
  · isplitl [HSI] <;> iassumption
  icases H with ⟨%ho2, HSI⟩
  ihave H := (SI_agree_keep s' (arg6 d) fullShare (m (arg6 d))) $$ [HSI H6]
  · isplitl [HSI] <;> iassumption
  icases H with ⟨%h6, -⟩
  ipureintro; exact ⟨ho0, ho1, ho2, ht0, ht1, ht2, hi0, hi1, hi2, h6⟩

/-! ## The program's run -/

/-- The post of the run: on every device each result is the lookup, the fourth index array (which is also a result of
    the program) is what it was, and the seven arguments are unchanged. -/
def QC : PUnit × MemSt nD τ sig (Elt F) → Prop := fun r => ∀ c : Dev nD,
  r.2.mem (out0 c) = res0 m c ∧ r.2.mem (out1 c) = res1 m c ∧ r.2.mem (out2 c) = res2 m c
  ∧ r.2.mem ((SparseCore.T c).loc main_arg6) = m ((SparseCore.T c).loc main_arg6)
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

/-- Every weakly fair execution of the whole family of threads ends, nothing faulting, at the post, given one tile's body. -/
theorem run_main [∀ e, Nonempty (Elt F e)] (hbody : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => by
      obtain ⟨ho0, ho1, ho2, ht0, ht1, ht2, hi0, hi1, hi2, h6⟩ := h c
      exact ⟨ho0, ho1, ho2, h6, ht0, ht1, ht2, hi0, hi1, hi2, h6⟩)

end Cert.Proof.KIS

end
-- ==== Proof.KIInv.lean ====
/-
  Shared definitions for the body of the embedding-lookup kernel on one tile: the tile's thread, its pieces, and the
  invariants of the first table's phases. What the kernel does:

  Tile w copies its 512 indices of a table into a scratch, computes for the first 256 of them the number of the
  eight-row group that holds the named row (the index shifted right by three), starts one copy per index of the
  last 256 straight from the table into the staging rows 256..511, fetches the eight-row groups of the first 256
  sixteen at a time into a two-slot buffer and picks from each group the row "index mod 8" (so that row r of the
  staging buffer holds row ids[r] of the table: 8 * (i >>> 3) + i % 8 = i for a non-negative i), waits for the
  direct copies, and copies the 512 staged rows out to rows [512 w, 512 w + 512) of the result. Three tables in turn.
-/
import proofs.«207337_g69080253988965_cont_9to1c4b_173_32_alg».proof.Proof.KISetup

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

/-- What the proof asks of the launch memory: every index names a row of its table. -/
def PreOK : Prop := ∀ d : Dev nD,
  (∀ r, 0 ≤ (m (ids0 d) r).toInt ∧ (m (ids0 d) r).toInt ≤ 999999) ∧ (∀ r, 0 ≤ (m (ids1 d) r).toInt ∧ (m (ids1 d) r).toInt ≤ 99999)
    ∧ (∀ r, 0 ≤ (m (ids2 d) r).toInt ∧ (m (ids2 d) r).toInt ≤ 999999)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)
omit [FloatOps F] in
theorem bound_zero : grid0.bound 0 = 2 := rfl
omit [FloatOps F] in
theorem bound_one : grid0.bound 1 = 16 := rfl
/-- The tile's number. -/
abbrev wL (L : grid0.Coords) : Fin 32 := wid ⟨(L 0).val, (L 0).isLt⟩ ⟨(L 1).val, (L 1).isLt⟩

/-- The tile's seven DMA semaphores as cells. -/
abbrev cell (sm : DmaSem sig) : GSem nD τ sig := (thr d L, .dma sm)

omit [FloatOps F] in
theorem cell_ne {a b : DmaSem sig} (h : a ≠ b) : cell d L a ≠ cell d L b := fun e => h (SemLoc.dma.inj (Prod.mk.inj e).2)
omit [FloatOps F] in
theorem cell_mem (a : DmaSem sig) (h : (SemLoc.dma a : SemLoc sig).isScoped .scVector = true) : cell d L a ∈ (ownCells (thr d L) : Finset (GSem nD τ sig)) :=
  (mem_ownCells (g := cell d L a)).mpr ⟨rfl, h⟩

omit [FloatOps F] in
/-- The tile's seven DMA semaphores are among its scoped cells: they, at zero, and the rest. -/
theorem ownSems0_V :
    (ownSems0 (thr d L) : sProp 𝕄)
      = iprop(semVal (cell d L cc0_scratch4.sem) 0 ∗ semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0 ∗ semVal (cell d L cc0_scoped2.sem) 0
          ∗ bigSep ((((((((ownCells (thr d L)).erase (cell d L cc0_scratch4.sem)).erase (cell d L cc0_scratch5.sem)).erase (cell d L cc0_scratch6.sem)).erase (cell d L cc0_scratch7.sem)).erase (cell d L cc0_scoped0.sem)).erase (cell d L cc0_scoped1.sem)).erase (cell d L cc0_scoped2.sem)) fun g => semVal g 0) := by
  unfold SparseCore.Cfg.ownSems0
  rw [SparseCore.bigSep_erase' (cell_mem d L cc0_scratch4.sem (by decide)),
    SparseCore.bigSep_erase' (Finset.mem_erase.mpr ⟨cell_ne d L (by decide), cell_mem d L cc0_scratch5.sem (by decide)⟩),
    SparseCore.bigSep_erase' (Finset.mem_erase.mpr ⟨cell_ne d L (by decide), Finset.mem_erase.mpr ⟨cell_ne d L (by decide), cell_mem d L cc0_scratch6.sem (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped1.sem (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped2.sem (by decide)⟩⟩⟩⟩⟩⟩)]

omit [FloatOps F] in
/-- The tile's four scratch buffers are among its own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

/-! ### The tile's pieces as the body slices them -/

/-- Table 1's piece of its index array, as the body slices it. -/
abbrev ids3Rect : Rect S16384 := Rect.unit (s := S16384) (k0_off1 L) S512.size (k0_off1_inb L)
abbrev ids3Slice : Memref sig .scVector .hbm S512 .i32 := (i3W).slice (ids3Rect L) (fun _ => rfl)

omit [FloatOps F] in
theorem ids3Rect_eq : ids3Rect L = idsPart (wL L) := by
  unfold ids3Rect idsPart Rect.part Rect.block
  congr 1 <;> funext a
  · rw [k0_off1_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg3_scv : Ref sig .scVector)).slice (ids3Rect L)).set = _
  rw [View.set_slice, ids3Rect_eq]; exact Finset.map_refl

omit [FloatOps F] in
theorem pts_ids3Slice (f : Buf (Elt F) (ids0 d)) :
    ((ids3Slice L).view.loc (thr d L) ↦[(ids3Slice L).view.set]{fullShare} f : sProp 𝕄) = ids0 d ↦[idsSet (wL L)]{fullShare} f := by
  rw [set_ids3Slice]

/-! ### Buffers respelt as the body's memrefs address them -/

omit [FloatOps F] in
theorem pts_sIdx (f : Buf (Elt F) ((thr d L).loc cc0_scratch0)) :
    ((sIdx).view.loc (thr d L) ↦{fullShare} f : sProp 𝕄) = (thr d L).loc cc0_scratch0 ↦{fullShare} f := rfl
omit [FloatOps F] in
theorem pts_sGidx (f : Buf (Elt F) ((thr d L).loc cc0_scratch1)) :
    ((sGidx).view.loc (thr d L) ↦{fullShare} f : sProp 𝕄) = (thr d L).loc cc0_scratch1 ↦{fullShare} f := rfl
omit [FloatOps F] in
theorem pts_sRows (f : Buf (Elt F) ((thr d L).loc cc0_scratch2)) :
    ((sRows).view.loc (thr d L) ↦{fullShare} f : sProp 𝕄) = (thr d L).loc cc0_scratch2 ↦{fullShare} f := rfl
omit [FloatOps F] in
theorem pts_sOut (f : Buf (Elt F) ((thr d L).loc cc0_scratch3)) :
    ((sOut).view.loc (thr d L) ↦{fullShare} f : sProp 𝕄) = (thr d L).loc cc0_scratch3 ↦{fullShare} f := rfl
omit [FloatOps F] in
theorem pts_tab0 (q : PosShare TreeShare) (f : Buf (Elt F) (tab0 d)) :
    ((t0W).view.loc (thr d L) ↦{q} f : sProp 𝕄) = tab0 d ↦{q} f := by
  simp only [Memref.view_whole, View.set_whole]
omit [FloatOps F] in
theorem sem_cell (a : DmaSem sig) (n : ℕ) : (semVal (cell d L a) n : sProp 𝕄) = semVal (thr d L, SemLoc.dma a) n := rfl

/-! ### The first table on this tile: what the scratches must hold -/

/-- The tile's 512 indices of the first table, as the copy into the index scratch reads them. -/
def IDX1 : Buf (Elt F) ((thr d L).loc cc0_scratch0) := (ids3Slice L).view.read (Elt F) (m (ids0 d))
/-- The same as a vector of words. -/
abbrev IDX1v : IVec S512 32 := IDX1 m d L

/-- The number of the eight-row group that holds row `w`: the word shifted right by three (as the vector unit shifts). -/
def grp (w : BitVec 32) : BitVec 32 := IntOp.shrui .vector w 3#32

/-- What the staging buffer must hold in the end: row `r` is the row of the first table that index `r` names. -/
def want1 : Buf (Elt F) ((thr d L).loc cc0_scratch3) :=
  fun i => m (tab0 d) (ValueIdx.ix2 (Cert.Spec.rowL (IDX1v m d L (ValueIdx.ix1 (i 0)))) (i 1))

/-- Row `r` of the staging buffer; its rows below `n`; its rows from `n` on. -/
def orow (r : Nat) : Finset S512x32.Idx := Finset.univ.filter fun i => (i 0).val = r
def orowsBelow (n : Nat) : Finset S512x32.Idx := Finset.univ.filter fun i => (i 0).val < n
def orowsFrom (n : Nat) : Finset S512x32.Idx := Finset.univ.filter fun i => n ≤ (i 0).val

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)
/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)
/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KIS

end
-- ==== Proof.KILemmas.lean ====
/-
  Small general facts used by the body's phases: which elements a row window of the staging buffer and a group window
  of the two-slot buffer hold, and how a read share of a table is cut into a remainder and sixteen whole-table tokens
  (one per copy of a group of sixteen that are in flight together).
-/
import proofs.«207337_g69080253988965_cont_9to1c4b_173_32_alg».proof.Proof.KIInv

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

/-- The row window of the staging buffer at offsets `(r, 0)`, as the body slices and squeezes it, is row `r`. -/
theorem set_outRow (off : Fin 2 → Nat) (inb : ∀ a, off a + S1x32.size a ≤ S512x32.size a) (r : Nat) (h0 : off 0 = r) (h1 : off 1 = 0) :
    (((sOut).slice (Rect.unit (s := S512x32) off S1x32.size inb) (fun _ => rfl)).squeeze S32 squeezes_S1x32_S32).view.set = orow r := by
  show (((View.whole (cc0_scratch3 : Ref sig .scVector)).slice (Rect.unit (s := S512x32) off S1x32.size inb)).reshape S32 squeezes_S1x32_S32.numel_eq).set = _
  rw [View.set_reshape, View.set_slice]
  ext i
  rw [show (Finset.map (View.whole (cc0_scratch3 : Ref sig .scVector)).emb (Rect.unit (s := S512x32) off S1x32.size inb).set)
      = (Rect.unit (s := S512x32) off S1x32.size inb).set from Finset.map_refl, Rect.mem_set_unit]
  unfold orow
  rw [Finset.mem_filter]
  have hi1 : (i 1).val < 32 := (i 1).isLt
  constructor
  · intro h; have := h 0; exact ⟨Finset.mem_univ _, by rw [h0] at this; have e : S1x32.size 0 = 1 := rfl; omega⟩
  · intro ⟨_, h⟩ a
    match a with
    | 0 => rw [h0]; have e : S1x32.size 0 = 1 := rfl; omega
    | 1 => rw [h1]; have e : S1x32.size 1 = 32 := rfl; omega

/-- The group window of the two-slot buffer at offsets `(p, j, 0, 0)` holds the elements of slot `p`, place `j`. -/
theorem mem_rowsWin (off : Fin 4 → Nat) (inb : ∀ a, off a + S1x1x8x32.size a ≤ S2x16x8x32.size a) (p j : Nat)
    (h0 : off 0 = p) (h1 : off 1 = j) (h2 : off 2 = 0) (h3 : off 3 = 0) (i : S2x16x8x32.Idx) :
    i ∈ (((sRows).slice (Rect.unit (s := S2x16x8x32) off S1x1x8x32.size inb) (fun _ => rfl)).squeeze S8x32 squeezes_S1x1x8x32_S8x32).view.set
      ↔ (i 0).val = p ∧ (i 1).val = j := by
  show i ∈ (((View.whole (cc0_scratch2 : Ref sig .scVector)).slice (Rect.unit (s := S2x16x8x32) off S1x1x8x32.size inb)).reshape S8x32 squeezes_S1x1x8x32_S8x32.numel_eq).set ↔ _
  rw [View.set_reshape, View.set_slice,
    show (Finset.map (View.whole (cc0_scratch2 : Ref sig .scVector)).emb (Rect.unit (s := S2x16x8x32) off S1x1x8x32.size inb).set)
      = (Rect.unit (s := S2x16x8x32) off S1x1x8x32.size inb).set from Finset.map_refl, Rect.mem_set_unit]
  have hi2 : (i 2).val < 8 := (i 2).isLt
  have hi3 : (i 3).val < 32 := (i 3).isLt
  constructor
  · intro h
    have a0 := h 0; have a1 := h 1
    rw [h0] at a0; rw [h1] at a1
    have e0 : S1x1x8x32.size 0 = 1 := rfl
    have e1 : S1x1x8x32.size 1 = 1 := rfl
    omega
  · intro ⟨e0, e1⟩ a
    match a with
    | 0 => rw [h0]; have e : S1x1x8x32.size 0 = 1 := rfl; omega
    | 1 => rw [h1]; have e : S1x1x8x32.size 1 = 1 := rfl; omega
    | 2 => rw [h2]; have e : S1x1x8x32.size 2 = 8 := rfl; omega
    | 3 => rw [h3]; have e : S1x1x8x32.size 3 = 32 := rfl; omega

/-- One read token cut off a share: the left half stays, the right half is the token. -/
theorem tok_cut {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1

end Cert.Proof.KIS

end
-- ==== Proof.KIGen.lean ====
/-
  A read share of an array cut into a remainder and sixteen whole-array tokens: one token for each of sixteen copies
  that read the array while they are in flight together.
-/
import proofs.«207337_g69080253988965_cont_9to1c4b_173_32_alg».proof.Proof.KILemmas

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- Sixteen whole-array read tokens cut off a share, and the remainder. -/
theorem toks16 {ℓ : Loc nD τ sig} (q : PosShare TreeShare) (f : Buf (Elt F) ℓ) :
    (ℓ ↦{q} f : sProp 𝕄) ⊢ iprop(∃ q' : PosShare TreeShare, (ℓ ↦{q'} f)
      ∗ ∃ p : Fin 16 → PosShare TreeShare, (ℓ ↦{p 0} f) ∗ (ℓ ↦{p 1} f) ∗ (ℓ ↦{p 2} f) ∗ (ℓ ↦{p 3} f) ∗ (ℓ ↦{p 4} f) ∗ (ℓ ↦{p 5} f) ∗ (ℓ ↦{p 6} f) ∗ (ℓ ↦{p 7} f)
        ∗ (ℓ ↦{p 8} f) ∗ (ℓ ↦{p 9} f) ∗ (ℓ ↦{p 10} f) ∗ (ℓ ↦{p 11} f) ∗ (ℓ ↦{p 12} f) ∗ (ℓ ↦{p 13} f) ∗ (ℓ ↦{p 14} f) ∗ (ℓ ↦{p 15} f)) := by
  iintro H
  ihave H := (tok_cut q f) $$ H; icases H with ⟨H, T0⟩
  ihave H := (tok_cut _ f) $$ H; icases H with ⟨H, T1⟩
  ihave H := (tok_cut _ f) $$ H; icases H with ⟨H, T2⟩
  ihave H := (tok_cut _ f) $$ H; icases H with ⟨H, T3⟩
  ihave H := (tok_cut _ f) $$ H; icases H with ⟨H, T4⟩
  ihave H := (tok_cut _ f) $$ H; icases H with ⟨H, T5⟩
  ihave H := (tok_cut _ f) $$ H; icases H with ⟨H, T6⟩
  ihave H := (tok_cut _ f) $$ H; icases H with ⟨H, T7⟩
  ihave H := (tok_cut _ f) $$ H; icases H with ⟨H, T8⟩
  ihave H := (tok_cut _ f) $$ H; icases H with ⟨H, T9⟩
  ihave H := (tok_cut _ f) $$ H; icases H with ⟨H, T10⟩
  ihave H := (tok_cut _ f) $$ H; icases H with ⟨H, T11⟩
  ihave H := (tok_cut _ f) $$ H; icases H with ⟨H, T12⟩
  ihave H := (tok_cut _ f) $$ H; icases H with ⟨H, T13⟩
  ihave H := (tok_cut _ f) $$ H; icases H with ⟨H, T14⟩
  ihave H := (tok_cut _ f) $$ H; icases H with ⟨H, T15⟩
  iexists _; isplitl [H]; · iexact H
  iexists (fun i : Fin 16 => (Nat.rec (motive := fun _ => PosShare TreeShare) q (fun _ r => r.left) i.val).right)
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15

end Cert.Proof.KIS

end
-- ==== Proof.KILoop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KIInv

noncomputable section

namespace Cert.Proof.KIS.L4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KIS

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S1000000x32.size a := by
  obtain ⟨h0, h1⟩ := (hpre d).1 ((ids3Slice L).view.emb r)
  have e : IDX1v m d L r = m (ids0 d) ((ids3Slice L).view.emb r) := rfl
  have hn : (IDX1v m d L r).toNat < 1000000 := by
    have hv := Cert.Spec.rowL_val _ h0 h1
    rw [e, ← hv]; exact (Cert.Spec.rowL _).isLt
  intro a
  match a with
  | 0 => show (IDX1v m d L r).toNat + 1 ≤ 1000000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) (c0 c16 : BitVec 32) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t4_loop k0_t4_ok ⟨⟩ (k0_t4_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 c0 c16)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t4_loop.lb k0_t4_loop.ub k0_t4_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off252 L) S512x32.size (k0_off252_inb L)
abbrev out3Slice : Memref sig .scVector .hbm S512x32 .f32 := (o0W).slice (out3Rect L) (fun _ => rfl)

omit [FloatOps F] in
theorem out3Rect_eq : out3Rect L = outPart (wL L) := by
  unfold out3Rect outPart Rect.part Rect.block
  congr 1 <;> funext a
  · rw [k0_off252_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_0_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out0 d)) :
    ((out3Slice L).view.loc (thr d L) ↦[(out3Slice L).view.set]{fullShare} f : sProp 𝕄) = out0 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out0 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out0 d ↦[outSet (wL L)]{fullShare} res0 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off1 L) (k0_off1_inb L) (k0_off252 L) (k0_off252_inb L)
    (by rw [k0_off1_eq, k0_off252_eq]; rfl) (by rw [k0_off252_eq]; rfl) x
  have e1 : ((out3Slice L).view.emb x) 1 = x 1 := hB
  have e0 : IDX1v m d L (ValueIdx.ix1 (x 0)) = m (ids0 d) (ValueIdx.ix1 (((out3Slice L).view.emb x) 0)) :=
    congrArg (m (ids0 d)) hA
  show m (tab0 d) (ValueIdx.ix2 (Cert.Spec.rowL (IDX1v m d L (ValueIdx.ix1 (x 0)))) (x 1))
    = m (tab0 d) (ValueIdx.ix2 (Cert.Spec.rowL (m (ids0 d) (ValueIdx.ix1 (((out3Slice L).view.emb x) 0)))) (((out3Slice L).view.emb x) 1))
  rw [e0, e1]

/-- The same with the payload as the copy reads it off the staging buffer held at contents `o`. -/
theorem copy_out_value (fo : Buf (Elt F) (out0 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out0 d ↦[outSet (wL L)]{fullShare} res0 m d :=
  copy_out_pay m d L fo _ (fun x => ho x)

end Tile

end Cert.Proof.KIS.L4

end
-- ==== Proof.KITab.lean ====
/-
  The first table on one tile: the group-number loop's invariant and its one trip, and the ranges that the range
  checks of the copies ask for (an index names a row of the table; its group number names an eight-row group).
-/
import proofs.«207337_g69080253988965_cont_9to1c4b_173_32_alg».proof.Proof.KILemmas
import proofs.«207337_g69080253988965_cont_9to1c4b_173_32_alg».proof.Proof.KILoop4
import Idealize.ShloMosaic.Lib.Pipeline.Value
import Idealize.ShloMosaic.Lib.ValueIdx

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t1_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off3 k) S16.size (k0_off3_inb k),
        k0_pay519 (View.readAt (Elt F) (sIdx).view (Rect.unit (s := S512) (k0_off2 k) S16.size (k0_off2_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off3 k) S16.size (k0_off3_inb k),
        k0_pay519 (View.readAt (Elt F) (sIdx).view (Rect.unit (s := S512) (k0_off2 k) S16.size (k0_off2_inb k)).toLoadRect (IDX1 m d L))⟩] (by
        intro p hp
        rw [List.mem_singleton] at hp; subst hp
        rw [Rect.mem_set_unit]; intro h
        have h0 := h 0; rw [k0_off3_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off3 k) S16.size (k0_off3_inb k))
      (k0_pay519 (View.readAt (Elt F) (sIdx).view (Rect.unit (s := S512) (k0_off2 k) S16.size (k0_off2_inb k)).toLoadRect (IDX1 m d L)))
      [] (ValueIdx.ix1 ⟨(j 0).val - 16 * k.val, hx⟩)
    have hemb : (Rect.unit (s := S256) (k0_off3 k) S16.size (k0_off3_inb k)).emb (ValueIdx.ix1 ⟨(j 0).val - 16 * k.val, hx⟩) = j := by
      have ho : k0_off3 k 0 = 16 * k.val := by rw [k0_off3_eq]; rfl
      funext a; apply Fin.ext
      rw [Rect.emb_apply, Subsingleton.elim a 0]
      show k0_off3 k 0 + 1 * ((j 0).val - 16 * k.val) = (j 0).val
      rw [ho]; omega
    rw [hemb] at e
    simp only [Memref.view_whole, View.read_whole] at e
    rw [e]
    unfold k0_pay519
    rw [shapeCast_self, shapeCast_self]
    show IntOp.shrui .vector (View.readAt (Elt F) (sIdx).view (Rect.unit (s := S512) (k0_off2 k) S16.size (k0_off2_inb k)).toLoadRect (IDX1 m d L)
      (ValueIdx.ix1 ⟨(j 0).val - 16 * k.val, hx⟩)) 3#32 = _
    rw [View.readAt_apply]
    simp only [Memref.view_whole, View.read_whole]
    unfold grp
    have ho2 : k0_off2 k 0 = 16 * k.val := by rw [k0_off2_eq]; rfl
    have hidx : (Rect.unit (s := S512) (k0_off2 k) S16.size (k0_off2_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off2 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 999999 :=
  (hpre d).1 _

/-- The group number of a row of a million-row table is below 125000. -/
theorem grp_lt (w : BitVec 32) (h0 : 0 ≤ w.toInt) (h1 : w.toInt ≤ 999999) : (grp w).toNat < 125000 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 999999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 125000 passes the gathers' range checks. -/
theorem chkG (v : BitVec 32) (hv : v.toNat < 125000) : ∀ a, (![v.toNat, 0, 0] : Fin 3 → Nat) a + S1x8x32.size a ≤ S125000x8x32.size a := by
  intro a
  match a with
  | 0 => show v.toNat + 1 ≤ 125000; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 125000 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out0 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out0 d ↦[outSet (wL L)]{fullShare} res0 m d : sProp 𝕄) := by
  iintro ⟨H, %hp⟩
  iapply (Entails.of_eq (L4.copy_out_pay m d L fo p hp)); iexact H

end Tile

end Cert.Proof.KIS

end
-- ==== Proof.KILoop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KILemmas

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 999999 :=
  (hpre d).1 ((ids3Slice L).view.emb j)

omit [FloatOps F] in
/-- A word in range passes the body's check on the row it names. -/
theorem chk_of_range (w : BitVec 32) (h : 0 ≤ w.toInt ∧ w.toInt ≤ 999999) :
    ∀ a, (![w.toNat, 0] : Fin 2 → ℕ) a + S1x32.size a ≤ S1000000x32.size a := by
  have hw : w.toNat ≤ 999999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 1000000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S1000000x32.size a) : Memref sig .scVector .hbm S32 .f32 :=
  ((t0W).slice (Rect.unit (s := S1000000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S1000000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg0)))) Finset.univ))
    ∗ ((srcRow offS hS).view.loc (thr d L) ↦[(srcRow offS hS).view.set]{q} m ((SparseCore.T d).loc main_arg0)))

/-- The delivery of the copy of the row that index 256 + n names into staging row 256 + n is good: the index is in range,
    so the row read is the row it names. -/
theorem deliv_good (hpre : PreOK m) {offS : Fin 2 → ℕ} {hS : ∀ a, offS a + S1x32.size a ≤ S1000000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab0 d) ((srcRow _ hS).view.emb x)
      = m (tab0 d) (ValueIdx.ix2 (Cert.Spec.rowL (IDX1v m d L (ValueIdx.ix1 (((dstRow _ hD).view.emb x) 0)))) (((dstRow _ hD).view.emb x) 1))
    have ext2 : ∀ (u v : S1000000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowL (IDX1v m d L j)).val
      rw [Cert.Spec.rowL_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S1000000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t0W).view.loc (thr d L) ↦{q} m (tab0 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t0W).view.loc (thr d L) ↦{q.left} m (tab0 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab0 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t0W).view.loc (thr d L) ↦{q'} m (tab0 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

/-- One trip: sixteen indices read, sixteen copies started. -/
theorem trip2 (hpre : PreOK m) (k : Fin k0_t2_loop.trips) (acc : Unit) :
    inv2 m d L k.val acc ⊢ wp frame (wpE (defs₀ (F := F)) 𝒱₀ (thr d L) none) Set.univ
      (k0_t2_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 k acc) (inv2 m d L (k.val + 1)) := by
  have hk : k.val < 16 := k.isLt
  unfold inv2 k0_t2_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off7_eq k ⟨0, by decide⟩).trans (vec2_congr (by show 16 * k.val + 0 + 256 = _; omega)), _, ?_, rfl⟩
    rw [Shape.reshapeEquiv_self]
    show (k0_off4 k) 0 + 1 * (0 + 0) = _
    rw [k0_off4_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off9_eq k ⟨0, by decide⟩).trans (vec2_congr (by show 16 * k.val + 0 + 257 = _; omega)), _, ?_, rfl⟩
    rw [Shape.reshapeEquiv_self]
    show (k0_off4 k) 0 + 1 * (1 + 0) = _
    rw [k0_off4_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off11_eq k ⟨0, by decide⟩).trans (vec2_congr (by show 16 * k.val + 0 + 258 = _; omega)), _, ?_, rfl⟩
    rw [Shape.reshapeEquiv_self]
    show (k0_off4 k) 0 + 1 * (2 + 0) = _
    rw [k0_off4_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off13_eq k ⟨0, by decide⟩).trans (vec2_congr (by show 16 * k.val + 0 + 259 = _; omega)), _, ?_, rfl⟩
    rw [Shape.reshapeEquiv_self]
    show (k0_off4 k) 0 + 1 * (3 + 0) = _
    rw [k0_off4_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off15_eq k ⟨0, by decide⟩).trans (vec2_congr (by show 16 * k.val + 0 + 260 = _; omega)), _, ?_, rfl⟩
    rw [Shape.reshapeEquiv_self]
    show (k0_off4 k) 0 + 1 * (4 + 0) = _
    rw [k0_off4_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off17_eq k ⟨0, by decide⟩).trans (vec2_congr (by show 16 * k.val + 0 + 261 = _; omega)), _, ?_, rfl⟩
    rw [Shape.reshapeEquiv_self]
    show (k0_off4 k) 0 + 1 * (5 + 0) = _
    rw [k0_off4_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off19_eq k ⟨0, by decide⟩).trans (vec2_congr (by show 16 * k.val + 0 + 262 = _; omega)), _, ?_, rfl⟩
    rw [Shape.reshapeEquiv_self]
    show (k0_off4 k) 0 + 1 * (6 + 0) = _
    rw [k0_off4_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off21_eq k ⟨0, by decide⟩).trans (vec2_congr (by show 16 * k.val + 0 + 263 = _; omega)), _, ?_, rfl⟩
    rw [Shape.reshapeEquiv_self]
    show (k0_off4 k) 0 + 1 * (7 + 0) = _
    rw [k0_off4_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off23_eq k ⟨0, by decide⟩).trans (vec2_congr (by show 16 * k.val + 0 + 264 = _; omega)), _, ?_, rfl⟩
    rw [Shape.reshapeEquiv_self]
    show (k0_off4 k) 0 + 1 * (8 + 0) = _
    rw [k0_off4_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off25_eq k ⟨0, by decide⟩).trans (vec2_congr (by show 16 * k.val + 0 + 265 = _; omega)), _, ?_, rfl⟩
    rw [Shape.reshapeEquiv_self]
    show (k0_off4 k) 0 + 1 * (9 + 0) = _
    rw [k0_off4_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off27_eq k ⟨0, by decide⟩).trans (vec2_congr (by show 16 * k.val + 0 + 266 = _; omega)), _, ?_, rfl⟩
    rw [Shape.reshapeEquiv_self]
    show (k0_off4 k) 0 + 1 * (10 + 0) = _
    rw [k0_off4_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off29_eq k ⟨0, by decide⟩).trans (vec2_congr (by show 16 * k.val + 0 + 267 = _; omega)), _, ?_, rfl⟩
    rw [Shape.reshapeEquiv_self]
    show (k0_off4 k) 0 + 1 * (11 + 0) = _
    rw [k0_off4_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off31_eq k ⟨0, by decide⟩).trans (vec2_congr (by show 16 * k.val + 0 + 268 = _; omega)), _, ?_, rfl⟩
    rw [Shape.reshapeEquiv_self]
    show (k0_off4 k) 0 + 1 * (12 + 0) = _
    rw [k0_off4_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off33_eq k ⟨0, by decide⟩).trans (vec2_congr (by show 16 * k.val + 0 + 269 = _; omega)), _, ?_, rfl⟩
    rw [Shape.reshapeEquiv_self]
    show (k0_off4 k) 0 + 1 * (13 + 0) = _
    rw [k0_off4_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off35_eq k ⟨0, by decide⟩).trans (vec2_congr (by show 16 * k.val + 0 + 270 = _; omega)), _, ?_, rfl⟩
    rw [Shape.reshapeEquiv_self]
    show (k0_off4 k) 0 + 1 * (14 + 0) = _
    rw [k0_off4_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off37_eq k).trans (vec2_congr (by omega)), _, ?_, rfl⟩
    rw [Shape.reshapeEquiv_self]
    show (k0_off4 k) 0 + 1 * (15 + 0) = _
    rw [k0_off4_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t0W).view.loc (thr d L) ↦{q} m (tab0 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t0W).view.loc (thr d L) ↦{q'} m (tab0 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t2_loop k0_t2_ok ⟨⟩ (k0_t2_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t2_loop.lb k0_t2_loop.ub k0_t2_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KIS

end
-- ==== Proof.KILoop3Val.lean ====
/-
  Values of the pair loop's extract step on one tile: pure facts, no program.

  An index w that lies in the table (0 ≤ w ≤ 999999 as a signed word) names row w; the kernel fetches the group of
  eight rows that holds it, group w >>> 3 of the table regrouped as [125000, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KILemmas

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 1000000 := ⟨min (8 * g + s) 999999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 999999) : w.toNat ≤ 999999 := by
  have hv := Cert.Spec.rowL_val w h0 h1
  have := (Cert.Spec.rowL w).isLt
  omega

omit [FloatOps F] in
theorem slot_eq (w : BitVec 32) (h0 : 0 ≤ w.toInt) (h1 : w.toInt ≤ 999999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 999999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 999999) : (grp w).toNat ≤ 124999 := by
  have hw := toNat_of_pre w h0 h1
  rw [grp_toNat]; omega

omit [FloatOps F] in
theorem grp_slot (w : BitVec 32) (h0 : 0 ≤ w.toInt) (h1 : w.toInt ≤ 999999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 999999) :
    grow (grp w).toNat (slot w) = Cert.Spec.rowL w := by
  apply Fin.ext
  have hv := Cert.Spec.rowL_val w h0 h1
  have hw := toNat_of_pre w h0 h1
  have hs := grp_slot w h0 h1
  show min (8 * (grp w).toNat + slot w) 999999 = (Cert.Spec.rowL w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S125000x8x32.Idx) :
    Shape.reshapeEquiv (s := S1000000x32) (s' := S125000x8x32) reshapes_S1000000x32_S125000x8x32.1 z
      = (ValueIdx.ix2 (⟨8 * (z 0).val + (z 1).val, by
            have h0 : (z 0).val < 125000 := (z 0).isLt
            have h1 : (z 1).val < 8 := (z 1).isLt
            omega⟩ : Fin 1000000) (z 2) : S1000000x32.Idx) := by
  apply Shape.reshapeEquiv_eq_of_rowMajor
  show ((⟨2, ![1000000, 32]⟩ : Shape).rowMajor (ValueIdx.ix2 (⟨8 * (z 0).val + (z 1).val, _⟩ : Fin 1000000) (z 2)) : Nat)
    = ((⟨3, ![125000, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S125000x8x32.size a) : Memref sig .scVector .hbm S8x32 .f32 :=
  (((t0W).reshape S125000x8x32 reshapes_S1000000x32_S125000x8x32.1 reshapes_S1000000x32_S125000x8x32.2 (Memref.isWhole_whole _).contiguous).slice
    (Rect.unit (s := S125000x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S125000x8x32.size a) (g : Nat)
    (t0 : offT 0 = g) (t1 : offT 1 = 0) (t2 : offT 2 = 0) (y : S8x32.Idx) :
    (tabGrp offT inbT).view.emb y = (ValueIdx.ix2 (grow g (y 0).val) (y 1) : S1000000x32.Idx) := by
  have hy0 : (y 0).val < 8 := (y 0).isLt
  have hg : g + 1 ≤ 125000 := by have := inbT 0; rw [t0] at this; exact this
  show Shape.reshapeEquiv (s := S1000000x32) (s' := S125000x8x32) reshapes_S1000000x32_S125000x8x32.1
      ((Rect.unit (s := S125000x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 999999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S125000x8x32.size a) (g : Nat)
    (t0 : offT 0 = g) (t1 : offT 1 = 0) (t2 : offT 2 = 0) (y : S8x32.Idx) :
    View.read (Elt F) (tabGrp offT inbT).view (m (tab0 d)) y = m (tab0 d) (ValueIdx.ix2 (grow g (y 0).val) (y 1)) := by
  show m (tab0 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S125000x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab0 d)))) Finset.univ i
        = m (tab0 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab0 d)))) (Finset.mem_univ x)
  rw [hx] at key
  rw [key]
  show View.read (Elt F) (tabGrp offT inbT).view (m (tab0 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab0 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).1 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab0 d) (ValueIdx.ix2 (Cert.Spec.rowL (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 999999 = min (8 * (grp (idxAt m d L r)).toNat + slot (idxAt m d L r)) 999999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab0 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S125000x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab0 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 999999 :=
  (hpre d).1 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S125000x8x32.size a := by
  obtain ⟨h0, h1⟩ := idxAt_pre m d L hpre r
  have hg := grp_le _ h0 h1
  intro a
  match a with
  | 0 => show (grp (idxAt m d L r)).toNat + 1 ≤ 125000; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t3_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off153 k) (by rw [k0_off153_eq]; rfl) k0_off216 (fun _ => rfl) (fun _ => rfl) (fun _ => rfl) (fun _ => rfl) (k0_off217 k) (by rw [k0_off217_eq]; rfl) (by rw [k0_off217_eq]; rfl) f'',
         pcR m d L hpre 1 15 0 (32 * k.val + 16) (by omega) (by omega) (by omega) (by omega) (k0_off153 k) (by rw [k0_off153_eq]; rfl) k0_off214 (fun _ => rfl) (fun _ => rfl) (fun _ => rfl) (fun _ => rfl) (k0_off215 k) (by rw [k0_off215_eq]; rfl) (by rw [k0_off215_eq]; rfl) f'',
         pcR m d L hpre 1 14 16 (32 * k.val + 16) (by omega) (by omega) (by omega) (by omega) (k0_off153 k) (by rw [k0_off153_eq]; rfl) k0_off212 (fun _ => rfl) (fun _ => rfl) (fun _ => rfl) (fun _ => rfl) (k0_off213 k) (by rw [k0_off213_eq]; rfl) (by rw [k0_off213_eq]; rfl) f'',
         pcR m d L hpre 1 14 0 (32 * k.val + 16) (by omega) (by omega) (by omega) (by omega) (k0_off153 k) (by rw [k0_off153_eq]; rfl) k0_off210 (fun _ => rfl) (fun _ => rfl) (fun _ => rfl) (fun _ => rfl) (k0_off211 k) (by rw [k0_off211_eq]; rfl) (by rw [k0_off211_eq]; rfl) f'',
         pcR m d L hpre 1 13 16 (32 * k.val + 16) (by omega) (by omega) (by omega) (by omega) (k0_off153 k) (by rw [k0_off153_eq]; rfl) k0_off208 (fun _ => rfl) (fun _ => rfl) (fun _ => rfl) (fun _ => rfl) (k0_off209 k) (by rw [k0_off209_eq]; rfl) (by rw [k0_off209_eq]; rfl) f'',
         pcR m d L hpre 1 13 0 (32 * k.val + 16) (by omega) (by omega) (by omega) (by omega) (k0_off153 k) (by rw [k0_off153_eq]; rfl) k0_off206 (fun _ => rfl) (fun _ => rfl) (fun _ => rfl) (fun _ => rfl) (k0_off207 k) (by rw [k0_off207_eq]; rfl) (by rw [k0_off207_eq]; rfl) f'',
         pcR m d L hpre 1 12 16 (32 * k.val + 16) (by omega) (by omega) (by omega) (by omega) (k0_off153 k) (by rw [k0_off153_eq]; rfl) k0_off204 (fun _ => rfl) (fun _ => rfl) (fun _ => rfl) (fun _ => rfl) (k0_off205 k) (by rw [k0_off205_eq]; rfl) (by rw [k0_off205_eq]; rfl) f'',
         pcR m d L hpre 1 12 0 (32 * k.val + 16) (by omega) (by omega) (by omega) (by omega) (k0_off153 k) (by rw [k0_off153_eq]; rfl) k0_off202 (fun _ => rfl) (fun _ => rfl) (fun _ => rfl) (fun _ => rfl) (k0_off203 k) (by rw [k0_off203_eq]; rfl) (by rw [k0_off203_eq]; rfl) f'',
         pcR m d L hpre 1 11 16 (32 * k.val + 16) (by omega) (by omega) (by omega) (by omega) (k0_off153 k) (by rw [k0_off153_eq]; rfl) k0_off200 (fun _ => rfl) (fun _ => rfl) (fun _ => rfl) (fun _ => rfl) (k0_off201 k) (by rw [k0_off201_eq]; rfl) (by rw [k0_off201_eq]; rfl) f'',
         pcR m d L hpre 1 11 0 (32 * k.val + 16) (by omega) (by omega) (by omega) (by omega) (k0_off153 k) (by rw [k0_off153_eq]; rfl) k0_off198 (fun _ => rfl) (fun _ => rfl) (fun _ => rfl) (fun _ => rfl) (k0_off199 k) (by rw [k0_off199_eq]; rfl) (by rw [k0_off199_eq]; rfl) f'',
         pcR m d L hpre 1 10 16 (32 * k.val + 16) (by omega) (by omega) (by omega) (by omega) (k0_off153 k) (by rw [k0_off153_eq]; rfl) k0_off196 (fun _ => rfl) (fun _ => rfl) (fun _ => rfl) (fun _ => rfl) (k0_off197 k) (by rw [k0_off197_eq]; rfl) (by rw [k0_off197_eq]; rfl) f'',
         pcR m d L hpre 1 10 0 (32 * k.val + 16) (by omega) (by omega) (by omega) (by omega) (k0_off153 k) (by rw [k0_off153_eq]; rfl) k0_off194 (fun _ => rfl) (fun _ => rfl) (fun _ => rfl) (fun _ => rfl) (k0_off195 k) (by rw [k0_off195_eq]; rfl) (by rw [k0_off195_eq]; rfl) f'',
         pcR m d L hpre 1 9 16 (32 * k.val + 16) (by omega) (by omega) (by omega) (by omega) (k0_off153 k) (by rw [k0_off153_eq]; rfl) k0_off192 (fun _ => rfl) (fun _ => rfl) (fun _ => rfl) (fun _ => rfl) (k0_off193 k) (by rw [k0_off193_eq]; rfl) (by rw [k0_off193_eq]; rfl) f'',
         pcR m d L hpre 1 9 0 (32 * k.val + 16) (by omega) (by omega) (by omega) (by omega) (k0_off153 k) (by rw [k0_off153_eq]; rfl) k0_off190 (fun _ => rfl) (fun _ => rfl) (fun _ => rfl) (fun _ => rfl) (k0_off191 k) (by rw [k0_off191_eq]; rfl) (by rw [k0_off191_eq]; rfl) f'',
         pcR m d L hpre 1 8 16 (32 * k.val + 16) (by omega) (by omega) (by omega) (by omega) (k0_off153 k) (by rw [k0_off153_eq]; rfl) k0_off188 (fun _ => rfl) (fun _ => rfl) (fun _ => rfl) (fun _ => rfl) (k0_off189 k) (by rw [k0_off189_eq]; rfl) (by rw [k0_off189_eq]; rfl) f'',
         pcR m d L hpre 1 8 0 (32 * k.val + 16) (by omega) (by omega) (by omega) (by omega) (k0_off153 k) (by rw [k0_off153_eq]; rfl) k0_off186 (fun _ => rfl) (fun _ => rfl) (fun _ => rfl) (fun _ => rfl) (k0_off187 k) (by rw [k0_off187_eq]; rfl) (by rw [k0_off187_eq]; rfl) f'',
         pcR m d L hpre 1 7 16 (32 * k.val + 16) (by omega) (by omega) (by omega) (by omega) (k0_off153 k) (by rw [k0_off153_eq]; rfl) k0_off184 (fun _ => rfl) (fun _ => rfl) (fun _ => rfl) (fun _ => rfl) (k0_off185 k) (by rw [k0_off185_eq]; rfl) (by rw [k0_off185_eq]; rfl) f'',
         pcR m d L hpre 1 7 0 (32 * k.val + 16) (by omega) (by omega) (by omega) (by omega) (k0_off153 k) (by rw [k0_off153_eq]; rfl) k0_off182 (fun _ => rfl) (fun _ => rfl) (fun _ => rfl) (fun _ => rfl) (k0_off183 k) (by rw [k0_off183_eq]; rfl) (by rw [k0_off183_eq]; rfl) f'',
         pcR m d L hpre 1 6 16 (32 * k.val + 16) (by omega) (by omega) (by omega) (by omega) (k0_off153 k) (by rw [k0_off153_eq]; rfl) k0_off180 (fun _ => rfl) (fun _ => rfl) (fun _ => rfl) (fun _ => rfl) (k0_off181 k) (by rw [k0_off181_eq]; rfl) (by rw [k0_off181_eq]; rfl) f'',
         pcR m d L hpre 1 6 0 (32 * k.val + 16) (by omega) (by omega) (by omega) (by omega) (k0_off153 k) (by rw [k0_off153_eq]; rfl) k0_off178 (fun _ => rfl) (fun _ => rfl) (fun _ => rfl) (fun _ => rfl) (k0_off179 k) (by rw [k0_off179_eq]; rfl) (by rw [k0_off179_eq]; rfl) f'',
         pcR m d L hpre 1 5 16 (32 * k.val + 16) (by omega) (by omega) (by omega) (by omega) (k0_off153 k) (by rw [k0_off153_eq]; rfl) k0_off176 (fun _ => rfl) (fun _ => rfl) (fun _ => rfl) (fun _ => rfl) (k0_off177 k) (by rw [k0_off177_eq]; rfl) (by rw [k0_off177_eq]; rfl) f'',
         pcR m d L hpre 1 5 0 (32 * k.val + 16) (by omega) (by omega) (by omega) (by omega) (k0_off153 k) (by rw [k0_off153_eq]; rfl) k0_off174 (fun _ => rfl) (fun _ => rfl) (fun _ => rfl) (fun _ => rfl) (k0_off175 k) (by rw [k0_off175_eq]; rfl) (by rw [k0_off175_eq]; rfl) f'',
         pcR m d L hpre 1 4 16 (32 * k.val + 16) (by omega) (by omega) (by omega) (by omega) (k0_off153 k) (by rw [k0_off153_eq]; rfl) k0_off172 (fun _ => rfl) (fun _ => rfl) (fun _ => rfl) (fun _ => rfl) (k0_off173 k) (by rw [k0_off173_eq]; rfl) (by rw [k0_off173_eq]; rfl) f'',
         pcR m d L hpre 1 4 0 (32 * k.val + 16) (by omega) (by omega) (by omega) (by omega) (k0_off153 k) (by rw [k0_off153_eq]; rfl) k0_off170 (fun _ => rfl) (fun _ => rfl) (fun _ => rfl) (fun _ => rfl) (k0_off171 k) (by rw [k0_off171_eq]; rfl) (by rw [k0_off171_eq]; rfl) f'',
         pcR m d L hpre 1 3 16 (32 * k.val + 16) (by omega) (by omega) (by omega) (by omega) (k0_off153 k) (by rw [k0_off153_eq]; rfl) k0_off168 (fun _ => rfl) (fun _ => rfl) (fun _ => rfl) (fun _ => rfl) (k0_off169 k) (by rw [k0_off169_eq]; rfl) (by rw [k0_off169_eq]; rfl) f'',
         pcR m d L hpre 1 3 0 (32 * k.val + 16) (by omega) (by omega) (by omega) (by omega) (k0_off153 k) (by rw [k0_off153_eq]; rfl) k0_off166 (fun _ => rfl) (fun _ => rfl) (fun _ => rfl) (fun _ => rfl) (k0_off167 k) (by rw [k0_off167_eq]; rfl) (by rw [k0_off167_eq]; rfl) f'',
         pcR m d L hpre 1 2 16 (32 * k.val + 16) (by omega) (by omega) (by omega) (by omega) (k0_off153 k) (by rw [k0_off153_eq]; rfl) k0_off164 (fun _ => rfl) (fun _ => rfl) (fun _ => rfl) (fun _ => rfl) (k0_off165 k) (by rw [k0_off165_eq]; rfl) (by rw [k0_off165_eq]; rfl) f'',
         pcR m d L hpre 1 2 0 (32 * k.val + 16) (by omega) (by omega) (by omega) (by omega) (k0_off153 k) (by rw [k0_off153_eq]; rfl) k0_off162 (fun _ => rfl) (fun _ => rfl) (fun _ => rfl) (fun _ => rfl) (k0_off163 k) (by rw [k0_off163_eq]; rfl) (by rw [k0_off163_eq]; rfl) f'',
         pcR m d L hpre 1 1 16 (32 * k.val + 16) (by omega) (by omega) (by omega) (by omega) (k0_off153 k) (by rw [k0_off153_eq]; rfl) k0_off160 (fun _ => rfl) (fun _ => rfl) (fun _ => rfl) (fun _ => rfl) (k0_off161 k) (by rw [k0_off161_eq]; rfl) (by rw [k0_off161_eq]; rfl) f'',
         pcR m d L hpre 1 1 0 (32 * k.val + 16) (by omega) (by omega) (by omega) (by omega) (k0_off153 k) (by rw [k0_off153_eq]; rfl) k0_off158 (fun _ => rfl) (fun _ => rfl) (fun _ => rfl) (fun _ => rfl) (k0_off159 k) (by rw [k0_off159_eq]; rfl) (by rw [k0_off159_eq]; rfl) f'',
         pcR m d L hpre 1 0 16 (32 * k.val + 16) (by omega) (by omega) (by omega) (by omega) (k0_off153 k) (by rw [k0_off153_eq]; rfl) k0_off156 (fun _ => rfl) (fun _ => rfl) (fun _ => rfl) (fun _ => rfl) (k0_off157 k) (by rw [k0_off157_eq]; rfl) (by rw [k0_off157_eq]; rfl) f'',
         pcR m d L hpre 1 0 0 (32 * k.val + 16) (by omega) (by omega) (by omega) (by omega) (k0_off153 k) (by rw [k0_off153_eq]; rfl) k0_off154 (fun _ => rfl) (fun _ => rfl) (fun _ => rfl) (fun _ => rfl) (k0_off155 k) (by rw [k0_off155_eq]; rfl) (by rw [k0_off155_eq]; rfl) f'',
         pcR m d L hpre 0 15 16 (32 * k.val) (by omega) (by omega) (by omega) (by omega) (k0_off71 k) (by rw [k0_off71_eq]; rfl) k0_off134 (fun _ => rfl) (fun _ => rfl) (fun _ => rfl) (fun _ => rfl) (k0_off135 k) (by rw [k0_off135_eq]; rfl) (by rw [k0_off135_eq]; rfl) f',
         pcR m d L hpre 0 15 0 (32 * k.val) (by omega) (by omega) (by omega) (by omega) (k0_off71 k) (by rw [k0_off71_eq]; rfl) k0_off132 (fun _ => rfl) (fun _ => rfl) (fun _ => rfl) (fun _ => rfl) (k0_off133 k) (by rw [k0_off133_eq]; rfl) (by rw [k0_off133_eq]; rfl) f',
         pcR m d L hpre 0 14 16 (32 * k.val) (by omega) (by omega) (by omega) (by omega) (k0_off71 k) (by rw [k0_off71_eq]; rfl) k0_off130 (fun _ => rfl) (fun _ => rfl) (fun _ => rfl) (fun _ => rfl) (k0_off131 k) (by rw [k0_off131_eq]; rfl) (by rw [k0_off131_eq]; rfl) f',
         pcR m d L hpre 0 14 0 (32 * k.val) (by omega) (by omega) (by omega) (by omega) (k0_off71 k) (by rw [k0_off71_eq]; rfl) k0_off128 (fun _ => rfl) (fun _ => rfl) (fun _ => rfl) (fun _ => rfl) (k0_off129 k) (by rw [k0_off129_eq]; rfl) (by rw [k0_off129_eq]; rfl) f',
         pcR m d L hpre 0 13 16 (32 * k.val) (by omega) (by omega) (by omega) (by omega) (k0_off71 k) (by rw [k0_off71_eq]; rfl) k0_off126 (fun _ => rfl) (fun _ => rfl) (fun _ => rfl) (fun _ => rfl) (k0_off127 k) (by rw [k0_off127_eq]; rfl) (by rw [k0_off127_eq]; rfl) f',
         pcR m d L hpre 0 13 0 (32 * k.val) (by omega) (by omega) (by omega) (by omega) (k0_off71 k) (by rw [k0_off71_eq]; rfl) k0_off124 (fun _ => rfl) (fun _ => rfl) (fun _ => rfl) (fun _ => rfl) (k0_off125 k) (by rw [k0_off125_eq]; rfl) (by rw [k0_off125_eq]; rfl) f',
         pcR m d L hpre 0 12 16 (32 * k.val) (by omega) (by omega) (by omega) (by omega) (k0_off71 k) (by rw [k0_off71_eq]; rfl) k0_off122 (fun _ => rfl) (fun _ => rfl) (fun _ => rfl) (fun _ => rfl) (k0_off123 k) (by rw [k0_off123_eq]; rfl) (by rw [k0_off123_eq]; rfl) f',
         pcR m d L hpre 0 12 0 (32 * k.val) (by omega) (by omega) (by omega) (by omega) (k0_off71 k) (by rw [k0_off71_eq]; rfl) k0_off120 (fun _ => rfl) (fun _ => rfl) (fun _ => rfl) (fun _ => rfl) (k0_off121 k) (by rw [k0_off121_eq]; rfl) (by rw [k0_off121_eq]; rfl) f',
         pcR m d L hpre 0 11 16 (32 * k.val) (by omega) (by omega) (by omega) (by omega) (k0_off71 k) (by rw [k0_off71_eq]; rfl) k0_off118 (fun _ => rfl) (fun _ => rfl) (fun _ => rfl) (fun _ => rfl) (k0_off119 k) (by rw [k0_off119_eq]; rfl) (by rw [k0_off119_eq]; rfl) f',
         pcR m d L hpre 0 11 0 (32 * k.val) (by omega) (by omega) (by omega) (by omega) (k0_off71 k) (by rw [k0_off71_eq]; rfl) k0_off116 (fun _ => rfl) (fun _ => rfl) (fun _ => rfl) (fun _ => rfl) (k0_off117 k) (by rw [k0_off117_eq]; rfl) (by rw [k0_off117_eq]; rfl) f',
         pcR m d L hpre 0 10 16 (32 * k.val) (by omega) (by omega) (by omega) (by omega) (k0_off71 k) (by rw [k0_off71_eq]; rfl) k0_off114 (fun _ => rfl) (fun _ => rfl) (fun _ => rfl) (fun _ => rfl) (k0_off115 k) (by rw [k0_off115_eq]; rfl) (by rw [k0_off115_eq]; rfl) f',
         pcR m d L hpre 0 10 0 (32 * k.val) (by omega) (by omega) (by omega) (by omega) (k0_off71 k) (by rw [k0_off71_eq]; rfl) k0_off112 (fun _ => rfl) (fun _ => rfl) (fun _ => rfl) (fun _ => rfl) (k0_off113 k) (by rw [k0_off113_eq]; rfl) (by rw [k0_off113_eq]; rfl) f',
         pcR m d L hpre 0 9 16 (32 * k.val) (by omega) (by omega) (by omega) (by omega) (k0_off71 k) (by rw [k0_off71_eq]; rfl) k0_off110 (fun _ => rfl) (fun _ => rfl) (fun _ => rfl) (fun _ => rfl) (k0_off111 k) (by rw [k0_off111_eq]; rfl) (by rw [k0_off111_eq]; rfl) f',
         pcR m d L hpre 0 9 0 (32 * k.val) (by omega) (by omega) (by omega) (by omega) (k0_off71 k) (by rw [k0_off71_eq]; rfl) k0_off108 (fun _ => rfl) (fun _ => rfl) (fun _ => rfl) (fun _ => rfl) (k0_off109 k) (by rw [k0_off109_eq]; rfl) (by rw [k0_off109_eq]; rfl) f',
         pcR m d L hpre 0 8 16 (32 * k.val) (by omega) (by omega) (by omega) (by omega) (k0_off71 k) (by rw [k0_off71_eq]; rfl) k0_off106 (fun _ => rfl) (fun _ => rfl) (fun _ => rfl) (fun _ => rfl) (k0_off107 k) (by rw [k0_off107_eq]; rfl) (by rw [k0_off107_eq]; rfl) f',
         pcR m d L hpre 0 8 0 (32 * k.val) (by omega) (by omega) (by omega) (by omega) (k0_off71 k) (by rw [k0_off71_eq]; rfl) k0_off104 (fun _ => rfl) (fun _ => rfl) (fun _ => rfl) (fun _ => rfl) (k0_off105 k) (by rw [k0_off105_eq]; rfl) (by rw [k0_off105_eq]; rfl) f',
         pcR m d L hpre 0 7 16 (32 * k.val) (by omega) (by omega) (by omega) (by omega) (k0_off71 k) (by rw [k0_off71_eq]; rfl) k0_off102 (fun _ => rfl) (fun _ => rfl) (fun _ => rfl) (fun _ => rfl) (k0_off103 k) (by rw [k0_off103_eq]; rfl) (by rw [k0_off103_eq]; rfl) f',
         pcR m d L hpre 0 7 0 (32 * k.val) (by omega) (by omega) (by omega) (by omega) (k0_off71 k) (by rw [k0_off71_eq]; rfl) k0_off100 (fun _ => rfl) (fun _ => rfl) (fun _ => rfl) (fun _ => rfl) (k0_off101 k) (by rw [k0_off101_eq]; rfl) (by rw [k0_off101_eq]; rfl) f',
         pcR m d L hpre 0 6 16 (32 * k.val) (by omega) (by omega) (by omega) (by omega) (k0_off71 k) (by rw [k0_off71_eq]; rfl) k0_off98 (fun _ => rfl) (fun _ => rfl) (fun _ => rfl) (fun _ => rfl) (k0_off99 k) (by rw [k0_off99_eq]; rfl) (by rw [k0_off99_eq]; rfl) f',
         pcR m d L hpre 0 6 0 (32 * k.val) (by omega) (by omega) (by omega) (by omega) (k0_off71 k) (by rw [k0_off71_eq]; rfl) k0_off96 (fun _ => rfl) (fun _ => rfl) (fun _ => rfl) (fun _ => rfl) (k0_off97 k) (by rw [k0_off97_eq]; rfl) (by rw [k0_off97_eq]; rfl) f',
         pcR m d L hpre 0 5 16 (32 * k.val) (by omega) (by omega) (by omega) (by omega) (k0_off71 k) (by rw [k0_off71_eq]; rfl) k0_off94 (fun _ => rfl) (fun _ => rfl) (fun _ => rfl) (fun _ => rfl) (k0_off95 k) (by rw [k0_off95_eq]; rfl) (by rw [k0_off95_eq]; rfl) f',
         pcR m d L hpre 0 5 0 (32 * k.val) (by omega) (by omega) (by omega) (by omega) (k0_off71 k) (by rw [k0_off71_eq]; rfl) k0_off92 (fun _ => rfl) (fun _ => rfl) (fun _ => rfl) (fun _ => rfl) (k0_off93 k) (by rw [k0_off93_eq]; rfl) (by rw [k0_off93_eq]; rfl) f',
         pcR m d L hpre 0 4 16 (32 * k.val) (by omega) (by omega) (by omega) (by omega) (k0_off71 k) (by rw [k0_off71_eq]; rfl) k0_off90 (fun _ => rfl) (fun _ => rfl) (fun _ => rfl) (fun _ => rfl) (k0_off91 k) (by rw [k0_off91_eq]; rfl) (by rw [k0_off91_eq]; rfl) f',
         pcR m d L hpre 0 4 0 (32 * k.val) (by omega) (by omega) (by omega) (by omega) (k0_off71 k) (by rw [k0_off71_eq]; rfl) k0_off88 (fun _ => rfl) (fun _ => rfl) (fun _ => rfl) (fun _ => rfl) (k0_off89 k) (by rw [k0_off89_eq]; rfl) (by rw [k0_off89_eq]; rfl) f',
         pcR m d L hpre 0 3 16 (32 * k.val) (by omega) (by omega) (by omega) (by omega) (k0_off71 k) (by rw [k0_off71_eq]; rfl) k0_off86 (fun _ => rfl) (fun _ => rfl) (fun _ => rfl) (fun _ => rfl) (k0_off87 k) (by rw [k0_off87_eq]; rfl) (by rw [k0_off87_eq]; rfl) f',
         pcR m d L hpre 0 3 0 (32 * k.val) (by omega) (by omega) (by omega) (by omega) (k0_off71 k) (by rw [k0_off71_eq]; rfl) k0_off84 (fun _ => rfl) (fun _ => rfl) (fun _ => rfl) (fun _ => rfl) (k0_off85 k) (by rw [k0_off85_eq]; rfl) (by rw [k0_off85_eq]; rfl) f',
         pcR m d L hpre 0 2 16 (32 * k.val) (by omega) (by omega) (by omega) (by omega) (k0_off71 k) (by rw [k0_off71_eq]; rfl) k0_off82 (fun _ => rfl) (fun _ => rfl) (fun _ => rfl) (fun _ => rfl) (k0_off83 k) (by rw [k0_off83_eq]; rfl) (by rw [k0_off83_eq]; rfl) f',
         pcR m d L hpre 0 2 0 (32 * k.val) (by omega) (by omega) (by omega) (by omega) (k0_off71 k) (by rw [k0_off71_eq]; rfl) k0_off80 (fun _ => rfl) (fun _ => rfl) (fun _ => rfl) (fun _ => rfl) (k0_off81 k) (by rw [k0_off81_eq]; rfl) (by rw [k0_off81_eq]; rfl) f',
         pcR m d L hpre 0 1 16 (32 * k.val) (by omega) (by omega) (by omega) (by omega) (k0_off71 k) (by rw [k0_off71_eq]; rfl) k0_off78 (fun _ => rfl) (fun _ => rfl) (fun _ => rfl) (fun _ => rfl) (k0_off79 k) (by rw [k0_off79_eq]; rfl) (by rw [k0_off79_eq]; rfl) f',
         pcR m d L hpre 0 1 0 (32 * k.val) (by omega) (by omega) (by omega) (by omega) (k0_off71 k) (by rw [k0_off71_eq]; rfl) k0_off76 (fun _ => rfl) (fun _ => rfl) (fun _ => rfl) (fun _ => rfl) (k0_off77 k) (by rw [k0_off77_eq]; rfl) (by rw [k0_off77_eq]; rfl) f',
         pcR m d L hpre 0 0 16 (32 * k.val) (by omega) (by omega) (by omega) (by omega) (k0_off71 k) (by rw [k0_off71_eq]; rfl) k0_off74 (fun _ => rfl) (fun _ => rfl) (fun _ => rfl) (fun _ => rfl) (k0_off75 k) (by rw [k0_off75_eq]; rfl) (by rw [k0_off75_eq]; rfl) f',
         pcR m d L hpre 0 0 0 (32 * k.val) (by omega) (by omega) (by omega) (by omega) (k0_off71 k) (by rw [k0_off71_eq]; rfl) k0_off72 (fun _ => rfl) (fun _ => rfl) (fun _ => rfl) (fun _ => rfl) (k0_off73 k) (by rw [k0_off73_eq]; rfl) (by rw [k0_off73_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 125000) :
    ∀ a, off a + S1x8x32.size a ≤ S125000x8x32.size a := by
  intro a
  match a with
  | 0 => rw [t0]; show g + 1 ≤ 125000; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 125000 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab0 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KIS

end
-- ==== Proof.KILoop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.KILoop3Val

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 1000000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 1000000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S125000x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t3_loop.trips, k0_cond1 k = 1#1 ↔ k.val + 1 < 8 := by decide +kernel

omit [FloatOps F] in
theorem e54 : ∀ k : Fin k0_t3_loop.trips, (k0_off54 k) 0 = 16 * (2 * k.val + 1) := by decide +kernel
omit [FloatOps F] in
theorem e136 : ∀ k : Fin k0_t3_loop.trips, (k0_off136 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S125000x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab0 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t3_loop.trips → Fin 2 → Nat) (hg : ∀ k', g k' 0 < 256) (k : Fin k0_t3_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t3_loop.trips → Fin 2 → Nat) (hg : ∀ k', g k' 0 < 256) (k : Fin k0_t3_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t0W).view.loc (thr d L) ↦{q'} m (tab0 d))

theorem tabRest_elim : TabRest m d L ⊢ (iprop(∃ q' : PosShare TreeShare, (t0W).view.loc (thr d L) ↦{q'} m (tab0 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t0W).view.loc (thr d L) ↦{q'} m (tab0 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (v6 : IVec S16 32) (v164 : BitVec 32) (k0_hw30 : k0_chk30 v164) (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t3_loop k0_t3_ok ⟨⟩ (k0_t3_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 v6 v164 k0_hw30)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond1 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off54 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off54 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off54 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off54 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off54 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off54 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off54 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off54 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off54 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off54 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off54 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off54 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off54 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off54 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off54 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off54 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off136 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off136 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off136 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off136 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off136 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off136 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off136 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off136 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off136 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off136 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off136 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off136 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off136 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off136 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off136 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off136 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off54 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off54 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off54 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off54 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off54 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off54 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off54 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off54 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off54 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off54 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off54 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off54 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off54 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off54 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off54 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off54 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KIS

end
-- ==== Proof.KILoop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.KILoop3

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t0W).view.loc (thr d L) ↦{q'} m (tab0 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KIS

end
-- ==== Proof.KI2Inv.lean ====
/-
  The definitions of KInv that speak of the first table, for table 2: the tile's piece of the index array as the body slices it,
  what the index scratch holds, what the staging buffer must hold in the end, and the phases' invariants.
-/
import proofs.«207337_g69080253988965_cont_9to1c4b_173_32_alg».proof.Proof.KIInv

noncomputable section

namespace Cert.Proof.KIS.T2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-- Table 1's piece of its index array, as the body slices it. -/
abbrev ids3Rect : Rect S16384 := Rect.unit (s := S16384) (k0_off253 L) S512.size (k0_off253_inb L)

abbrev ids3Slice : Memref sig .scVector .hbm S512 .i32 := (i4W).slice (ids3Rect L) (fun _ => rfl)

omit [FloatOps F] in
theorem ids3Rect_eq : ids3Rect L = idsPart (wL L) := by
  unfold ids3Rect idsPart Rect.part Rect.block
  congr 1 <;> funext a
  · rw [k0_off253_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg4_scv : Ref sig .scVector)).slice (ids3Rect L)).set = _
  rw [View.set_slice, ids3Rect_eq]; exact Finset.map_refl

omit [FloatOps F] in
theorem pts_ids3Slice (f : Buf (Elt F) (ids1 d)) :
    ((ids3Slice L).view.loc (thr d L) ↦[(ids3Slice L).view.set]{fullShare} f : sProp 𝕄) = ids1 d ↦[idsSet (wL L)]{fullShare} f := by
  rw [set_ids3Slice]

omit [FloatOps F] in
theorem pts_tab1 (q : PosShare TreeShare) (f : Buf (Elt F) (tab1 d)) :
    ((t1W).view.loc (thr d L) ↦{q} f : sProp 𝕄) = tab1 d ↦{q} f := by
  simp only [Memref.view_whole, View.set_whole]

/-- The tile's 512 indices of the first table, as the copy into the index scratch reads them. -/
def IDX1 : Buf (Elt F) ((thr d L).loc cc0_scratch0) := (ids3Slice L).view.read (Elt F) (m (ids1 d))

/-- The same as a vector of words. -/
abbrev IDX1v : IVec S512 32 := IDX1 m d L

/-- What the staging buffer must hold in the end: row `r` is the row of the first table that index `r` names. -/
def want1 : Buf (Elt F) ((thr d L).loc cc0_scratch3) :=
  fun i => m (tab1 d) (ValueIdx.ix2 (Cert.Spec.rowS (IDX1v m d L (ValueIdx.ix1 (i 0)))) (i 1))

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)

/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)

/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KIS.T2

end
-- ==== Proof.KI2Loop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KIInv
import proofs.«207337_g69080253988965_cont_9to1c4b_173_32_alg».proof.Proof.KI2Inv

noncomputable section

namespace Cert.Proof.KIS.T2.L4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KIS

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S100000x32.size a := by
  obtain ⟨h0, h1⟩ := (hpre d).2.1 ((ids3Slice L).view.emb r)
  have e : IDX1v m d L r = m (ids1 d) ((ids3Slice L).view.emb r) := rfl
  have hn : (IDX1v m d L r).toNat < 100000 := by
    have hv := Cert.Spec.rowS_val _ h0 h1
    rw [e, ← hv]; exact (Cert.Spec.rowS _).isLt
  intro a
  match a with
  | 0 => show (IDX1v m d L r).toNat + 1 ≤ 100000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) (c0 : BitVec 32) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t8_loop k0_t8_ok ⟨⟩ (k0_t8_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 c0)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t8_loop.lb k0_t8_loop.ub k0_t8_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off504 L) S512x32.size (k0_off504_inb L)
abbrev out3Slice : Memref sig .scVector .hbm S512x32 .f32 := (o1W).slice (out3Rect L) (fun _ => rfl)

omit [FloatOps F] in
theorem out3Rect_eq : out3Rect L = outPart (wL L) := by
  unfold out3Rect outPart Rect.part Rect.block
  congr 1 <;> funext a
  · rw [k0_off504_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_1_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out1 d)) :
    ((out3Slice L).view.loc (thr d L) ↦[(out3Slice L).view.set]{fullShare} f : sProp 𝕄) = out1 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out1 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out1 d ↦[outSet (wL L)]{fullShare} res1 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off253 L) (k0_off253_inb L) (k0_off504 L) (k0_off504_inb L)
    (by rw [k0_off253_eq, k0_off504_eq]; rfl) (by rw [k0_off504_eq]; rfl) x
  have e1 : ((out3Slice L).view.emb x) 1 = x 1 := hB
  have e0 : IDX1v m d L (ValueIdx.ix1 (x 0)) = m (ids1 d) (ValueIdx.ix1 (((out3Slice L).view.emb x) 0)) :=
    congrArg (m (ids1 d)) hA
  show m (tab1 d) (ValueIdx.ix2 (Cert.Spec.rowS (IDX1v m d L (ValueIdx.ix1 (x 0)))) (x 1))
    = m (tab1 d) (ValueIdx.ix2 (Cert.Spec.rowS (m (ids1 d) (ValueIdx.ix1 (((out3Slice L).view.emb x) 0)))) (((out3Slice L).view.emb x) 1))
  rw [e0, e1]

/-- The same with the payload as the copy reads it off the staging buffer held at contents `o`. -/
theorem copy_out_value (fo : Buf (Elt F) (out1 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out1 d ↦[outSet (wL L)]{fullShare} res1 m d :=
  copy_out_pay m d L fo _ (fun x => ho x)

end Tile

end Cert.Proof.KIS.T2.L4

end
-- ==== Proof.KI2Tab.lean ====
/-
  The first table on one tile: the group-number loop's invariant and its one trip, and the ranges that the range
  checks of the copies ask for (an index names a row of the table; its group number names an eight-row group).
-/
import proofs.«207337_g69080253988965_cont_9to1c4b_173_32_alg».proof.Proof.KILemmas
import proofs.«207337_g69080253988965_cont_9to1c4b_173_32_alg».proof.Proof.KI2Loop4
import Idealize.ShloMosaic.Lib.Pipeline.Value
import Idealize.ShloMosaic.Lib.ValueIdx
import proofs.«207337_g69080253988965_cont_9to1c4b_173_32_alg».proof.Proof.KI2Inv

noncomputable section

namespace Cert.Proof.KIS.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t5_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off255 k) S16.size (k0_off255_inb k),
        k0_pay539 (View.readAt (Elt F) (sIdx).view (Rect.unit (s := S512) (k0_off254 k) S16.size (k0_off254_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off255 k) S16.size (k0_off255_inb k),
        k0_pay539 (View.readAt (Elt F) (sIdx).view (Rect.unit (s := S512) (k0_off254 k) S16.size (k0_off254_inb k)).toLoadRect (IDX1 m d L))⟩] (by
        intro p hp
        rw [List.mem_singleton] at hp; subst hp
        rw [Rect.mem_set_unit]; intro h
        have h0 := h 0; rw [k0_off255_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off255 k) S16.size (k0_off255_inb k))
      (k0_pay539 (View.readAt (Elt F) (sIdx).view (Rect.unit (s := S512) (k0_off254 k) S16.size (k0_off254_inb k)).toLoadRect (IDX1 m d L)))
      [] (ValueIdx.ix1 ⟨(j 0).val - 16 * k.val, hx⟩)
    have hemb : (Rect.unit (s := S256) (k0_off255 k) S16.size (k0_off255_inb k)).emb (ValueIdx.ix1 ⟨(j 0).val - 16 * k.val, hx⟩) = j := by
      have ho : k0_off255 k 0 = 16 * k.val := by rw [k0_off255_eq]; rfl
      funext a; apply Fin.ext
      rw [Rect.emb_apply, Subsingleton.elim a 0]
      show k0_off255 k 0 + 1 * ((j 0).val - 16 * k.val) = (j 0).val
      rw [ho]; omega
    rw [hemb] at e
    simp only [Memref.view_whole, View.read_whole] at e
    rw [e]
    unfold k0_pay539
    rw [shapeCast_self, shapeCast_self]
    show IntOp.shrui .vector (View.readAt (Elt F) (sIdx).view (Rect.unit (s := S512) (k0_off254 k) S16.size (k0_off254_inb k)).toLoadRect (IDX1 m d L)
      (ValueIdx.ix1 ⟨(j 0).val - 16 * k.val, hx⟩)) 3#32 = _
    rw [View.readAt_apply]
    simp only [Memref.view_whole, View.read_whole]
    unfold grp
    have ho2 : k0_off254 k 0 = 16 * k.val := by rw [k0_off254_eq]; rfl
    have hidx : (Rect.unit (s := S512) (k0_off254 k) S16.size (k0_off254_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off254 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 99999 :=
  (hpre d).2.1 _

/-- The group number of a row of a million-row table is below 125000. -/
theorem grp_lt (w : BitVec 32) (h0 : 0 ≤ w.toInt) (h1 : w.toInt ≤ 99999) : (grp w).toNat < 12500 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 99999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 12500 passes the gathers' range checks. -/
theorem chkG (v : BitVec 32) (hv : v.toNat < 12500) : ∀ a, (![v.toNat, 0, 0] : Fin 3 → Nat) a + S1x8x32.size a ≤ S12500x8x32.size a := by
  intro a
  match a with
  | 0 => show v.toNat + 1 ≤ 12500; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 12500 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out1 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out1 d ↦[outSet (wL L)]{fullShare} res1 m d : sProp 𝕄) := by
  iintro ⟨H, %hp⟩
  iapply (Entails.of_eq (L4.copy_out_pay m d L fo p hp)); iexact H

end Tile

end Cert.Proof.KIS.T2

end
-- ==== Proof.KI2Loop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KILemmas
import proofs.«207337_g69080253988965_cont_9to1c4b_173_32_alg».proof.Proof.KI2Inv

noncomputable section

namespace Cert.Proof.KIS.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 99999 :=
  (hpre d).2.1 ((ids3Slice L).view.emb j)

omit [FloatOps F] in
/-- A word in range passes the body's check on the row it names. -/
theorem chk_of_range (w : BitVec 32) (h : 0 ≤ w.toInt ∧ w.toInt ≤ 99999) :
    ∀ a, (![w.toNat, 0] : Fin 2 → ℕ) a + S1x32.size a ≤ S100000x32.size a := by
  have hw : w.toNat ≤ 99999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 100000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S100000x32.size a) : Memref sig .scVector .hbm S32 .f32 :=
  ((t1W).slice (Rect.unit (s := S100000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S100000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg1)))) Finset.univ))
    ∗ ((srcRow offS hS).view.loc (thr d L) ↦[(srcRow offS hS).view.set]{q} m ((SparseCore.T d).loc main_arg1)))

/-- The delivery of the copy of the row that index 256 + n names into staging row 256 + n is good: the index is in range,
    so the row read is the row it names. -/
theorem deliv_good (hpre : PreOK m) {offS : Fin 2 → ℕ} {hS : ∀ a, offS a + S1x32.size a ≤ S100000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab1 d) ((srcRow _ hS).view.emb x)
      = m (tab1 d) (ValueIdx.ix2 (Cert.Spec.rowS (IDX1v m d L (ValueIdx.ix1 (((dstRow _ hD).view.emb x) 0)))) (((dstRow _ hD).view.emb x) 1))
    have ext2 : ∀ (u v : S100000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowS (IDX1v m d L j)).val
      rw [Cert.Spec.rowS_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S100000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t1W).view.loc (thr d L) ↦{q} m (tab1 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t1W).view.loc (thr d L) ↦{q.left} m (tab1 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab1 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t1W).view.loc (thr d L) ↦{q'} m (tab1 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

variable {xv0 xv1 : BitVec 32}

/-- One trip: sixteen indices read, sixteen copies started. -/
theorem trip2 (hpre : PreOK m) (k : Fin k0_t6_loop.trips) (acc : Unit) :
    inv2 m d L k.val acc ⊢ wp frame (wpE (defs₀ (F := F)) 𝒱₀ (thr d L) none) Set.univ
      (k0_t6_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 xv1 k acc) (inv2 m d L (k.val + 1)) := by
  have hk : k.val < 16 := k.isLt
  unfold inv2 k0_t6_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off259_eq k ⟨0, by decide⟩).trans (vec2_congr (by show 16 * k.val + 0 + 256 = _; omega)), _, ?_, rfl⟩
    rw [Shape.reshapeEquiv_self]
    show (k0_off256 k) 0 + 1 * (0 + 0) = _
    rw [k0_off256_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off261_eq k ⟨0, by decide⟩).trans (vec2_congr (by show 16 * k.val + 0 + 257 = _; omega)), _, ?_, rfl⟩
    rw [Shape.reshapeEquiv_self]
    show (k0_off256 k) 0 + 1 * (1 + 0) = _
    rw [k0_off256_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off263_eq k ⟨0, by decide⟩).trans (vec2_congr (by show 16 * k.val + 0 + 258 = _; omega)), _, ?_, rfl⟩
    rw [Shape.reshapeEquiv_self]
    show (k0_off256 k) 0 + 1 * (2 + 0) = _
    rw [k0_off256_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off265_eq k ⟨0, by decide⟩).trans (vec2_congr (by show 16 * k.val + 0 + 259 = _; omega)), _, ?_, rfl⟩
    rw [Shape.reshapeEquiv_self]
    show (k0_off256 k) 0 + 1 * (3 + 0) = _
    rw [k0_off256_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off267_eq k ⟨0, by decide⟩).trans (vec2_congr (by show 16 * k.val + 0 + 260 = _; omega)), _, ?_, rfl⟩
    rw [Shape.reshapeEquiv_self]
    show (k0_off256 k) 0 + 1 * (4 + 0) = _
    rw [k0_off256_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off269_eq k ⟨0, by decide⟩).trans (vec2_congr (by show 16 * k.val + 0 + 261 = _; omega)), _, ?_, rfl⟩
    rw [Shape.reshapeEquiv_self]
    show (k0_off256 k) 0 + 1 * (5 + 0) = _
    rw [k0_off256_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off271_eq k ⟨0, by decide⟩).trans (vec2_congr (by show 16 * k.val + 0 + 262 = _; omega)), _, ?_, rfl⟩
    rw [Shape.reshapeEquiv_self]
    show (k0_off256 k) 0 + 1 * (6 + 0) = _
    rw [k0_off256_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off273_eq k ⟨0, by decide⟩).trans (vec2_congr (by show 16 * k.val + 0 + 263 = _; omega)), _, ?_, rfl⟩
    rw [Shape.reshapeEquiv_self]
    show (k0_off256 k) 0 + 1 * (7 + 0) = _
    rw [k0_off256_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off275_eq k ⟨0, by decide⟩).trans (vec2_congr (by show 16 * k.val + 0 + 264 = _; omega)), _, ?_, rfl⟩
    rw [Shape.reshapeEquiv_self]
    show (k0_off256 k) 0 + 1 * (8 + 0) = _
    rw [k0_off256_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off277_eq k ⟨0, by decide⟩).trans (vec2_congr (by show 16 * k.val + 0 + 265 = _; omega)), _, ?_, rfl⟩
    rw [Shape.reshapeEquiv_self]
    show (k0_off256 k) 0 + 1 * (9 + 0) = _
    rw [k0_off256_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off279_eq k ⟨0, by decide⟩).trans (vec2_congr (by show 16 * k.val + 0 + 266 = _; omega)), _, ?_, rfl⟩
    rw [Shape.reshapeEquiv_self]
    show (k0_off256 k) 0 + 1 * (10 + 0) = _
    rw [k0_off256_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off281_eq k ⟨0, by decide⟩).trans (vec2_congr (by show 16 * k.val + 0 + 267 = _; omega)), _, ?_, rfl⟩
    rw [Shape.reshapeEquiv_self]
    show (k0_off256 k) 0 + 1 * (11 + 0) = _
    rw [k0_off256_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off283_eq k ⟨0, by decide⟩).trans (vec2_congr (by show 16 * k.val + 0 + 268 = _; omega)), _, ?_, rfl⟩
    rw [Shape.reshapeEquiv_self]
    show (k0_off256 k) 0 + 1 * (12 + 0) = _
    rw [k0_off256_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off285_eq k ⟨0, by decide⟩).trans (vec2_congr (by show 16 * k.val + 0 + 269 = _; omega)), _, ?_, rfl⟩
    rw [Shape.reshapeEquiv_self]
    show (k0_off256 k) 0 + 1 * (13 + 0) = _
    rw [k0_off256_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off287_eq k ⟨0, by decide⟩).trans (vec2_congr (by show 16 * k.val + 0 + 270 = _; omega)), _, ?_, rfl⟩
    rw [Shape.reshapeEquiv_self]
    show (k0_off256 k) 0 + 1 * (14 + 0) = _
    rw [k0_off256_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off289_eq k).trans (vec2_congr (by omega)), _, ?_, rfl⟩
    rw [Shape.reshapeEquiv_self]
    show (k0_off256 k) 0 + 1 * (15 + 0) = _
    rw [k0_off256_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t1W).view.loc (thr d L) ↦{q} m (tab1 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t1W).view.loc (thr d L) ↦{q'} m (tab1 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t6_loop k0_t6_ok ⟨⟩ (k0_t6_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 xv1)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t6_loop.lb k0_t6_loop.ub k0_t6_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KIS.T2

end
-- ==== Proof.KI2Loop3Val.lean ====
/-
  Values of the pair loop's extract step on one tile: pure facts, no program.

  An index w that lies in the table (0 ≤ w ≤ 99999 as a signed word) names row w; the kernel fetches the group of
  eight rows that holds it, group w >>> 3 of the table regrouped as [12500, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KILemmas
import proofs.«207337_g69080253988965_cont_9to1c4b_173_32_alg».proof.Proof.KI2Inv

noncomputable section

namespace Cert.Proof.KIS.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 100000 := ⟨min (8 * g + s) 99999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 99999) : w.toNat ≤ 99999 := by
  have hv := Cert.Spec.rowS_val w h0 h1
  have := (Cert.Spec.rowS w).isLt
  omega

omit [FloatOps F] in
theorem slot_eq (w : BitVec 32) (h0 : 0 ≤ w.toInt) (h1 : w.toInt ≤ 99999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 99999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 99999) : (grp w).toNat ≤ 12499 := by
  have hw := toNat_of_pre w h0 h1
  rw [grp_toNat]; omega

omit [FloatOps F] in
theorem grp_slot (w : BitVec 32) (h0 : 0 ≤ w.toInt) (h1 : w.toInt ≤ 99999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 99999) :
    grow (grp w).toNat (slot w) = Cert.Spec.rowS w := by
  apply Fin.ext
  have hv := Cert.Spec.rowS_val w h0 h1
  have hw := toNat_of_pre w h0 h1
  have hs := grp_slot w h0 h1
  show min (8 * (grp w).toNat + slot w) 99999 = (Cert.Spec.rowS w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S12500x8x32.Idx) :
    Shape.reshapeEquiv (s := S100000x32) (s' := S12500x8x32) reshapes_S100000x32_S12500x8x32.1 z
      = (ValueIdx.ix2 (⟨8 * (z 0).val + (z 1).val, by
            have h0 : (z 0).val < 12500 := (z 0).isLt
            have h1 : (z 1).val < 8 := (z 1).isLt
            omega⟩ : Fin 100000) (z 2) : S100000x32.Idx) := by
  apply Shape.reshapeEquiv_eq_of_rowMajor
  show ((⟨2, ![100000, 32]⟩ : Shape).rowMajor (ValueIdx.ix2 (⟨8 * (z 0).val + (z 1).val, _⟩ : Fin 100000) (z 2)) : Nat)
    = ((⟨3, ![12500, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S12500x8x32.size a) : Memref sig .scVector .hbm S8x32 .f32 :=
  (((t1W).reshape S12500x8x32 reshapes_S100000x32_S12500x8x32.1 reshapes_S100000x32_S12500x8x32.2 (Memref.isWhole_whole _).contiguous).slice
    (Rect.unit (s := S12500x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S12500x8x32.size a) (g : Nat)
    (t0 : offT 0 = g) (t1 : offT 1 = 0) (t2 : offT 2 = 0) (y : S8x32.Idx) :
    (tabGrp offT inbT).view.emb y = (ValueIdx.ix2 (grow g (y 0).val) (y 1) : S100000x32.Idx) := by
  have hy0 : (y 0).val < 8 := (y 0).isLt
  have hg : g + 1 ≤ 12500 := by have := inbT 0; rw [t0] at this; exact this
  show Shape.reshapeEquiv (s := S100000x32) (s' := S12500x8x32) reshapes_S100000x32_S12500x8x32.1
      ((Rect.unit (s := S12500x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 99999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S12500x8x32.size a) (g : Nat)
    (t0 : offT 0 = g) (t1 : offT 1 = 0) (t2 : offT 2 = 0) (y : S8x32.Idx) :
    View.read (Elt F) (tabGrp offT inbT).view (m (tab1 d)) y = m (tab1 d) (ValueIdx.ix2 (grow g (y 0).val) (y 1)) := by
  show m (tab1 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S12500x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab1 d)))) Finset.univ i
        = m (tab1 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab1 d)))) (Finset.mem_univ x)
  rw [hx] at key
  rw [key]
  show View.read (Elt F) (tabGrp offT inbT).view (m (tab1 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab1 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).2.1 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab1 d) (ValueIdx.ix2 (Cert.Spec.rowS (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 99999 = min (8 * (grp (idxAt m d L r)).toNat + slot (idxAt m d L r)) 99999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab1 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S12500x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab1 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 99999 :=
  (hpre d).2.1 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S12500x8x32.size a := by
  obtain ⟨h0, h1⟩ := idxAt_pre m d L hpre r
  have hg := grp_le _ h0 h1
  intro a
  match a with
  | 0 => show (grp (idxAt m d L r)).toNat + 1 ≤ 12500; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t7_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off405 k) (by rw [k0_off405_eq]; rfl) k0_off468 (fun _ => rfl) (fun _ => rfl) (fun _ => rfl) (fun _ => rfl) (k0_off469 k) (by rw [k0_off469_eq]; rfl) (by rw [k0_off469_eq]; rfl) f'',
         pcR m d L hpre 1 15 0 (32 * k.val + 16) (by omega) (by omega) (by omega) (by omega) (k0_off405 k) (by rw [k0_off405_eq]; rfl) k0_off466 (fun _ => rfl) (fun _ => rfl) (fun _ => rfl) (fun _ => rfl) (k0_off467 k) (by rw [k0_off467_eq]; rfl) (by rw [k0_off467_eq]; rfl) f'',
         pcR m d L hpre 1 14 16 (32 * k.val + 16) (by omega) (by omega) (by omega) (by omega) (k0_off405 k) (by rw [k0_off405_eq]; rfl) k0_off464 (fun _ => rfl) (fun _ => rfl) (fun _ => rfl) (fun _ => rfl) (k0_off465 k) (by rw [k0_off465_eq]; rfl) (by rw [k0_off465_eq]; rfl) f'',
         pcR m d L hpre 1 14 0 (32 * k.val + 16) (by omega) (by omega) (by omega) (by omega) (k0_off405 k) (by rw [k0_off405_eq]; rfl) k0_off462 (fun _ => rfl) (fun _ => rfl) (fun _ => rfl) (fun _ => rfl) (k0_off463 k) (by rw [k0_off463_eq]; rfl) (by rw [k0_off463_eq]; rfl) f'',
         pcR m d L hpre 1 13 16 (32 * k.val + 16) (by omega) (by omega) (by omega) (by omega) (k0_off405 k) (by rw [k0_off405_eq]; rfl) k0_off460 (fun _ => rfl) (fun _ => rfl) (fun _ => rfl) (fun _ => rfl) (k0_off461 k) (by rw [k0_off461_eq]; rfl) (by rw [k0_off461_eq]; rfl) f'',
         pcR m d L hpre 1 13 0 (32 * k.val + 16) (by omega) (by omega) (by omega) (by omega) (k0_off405 k) (by rw [k0_off405_eq]; rfl) k0_off458 (fun _ => rfl) (fun _ => rfl) (fun _ => rfl) (fun _ => rfl) (k0_off459 k) (by rw [k0_off459_eq]; rfl) (by rw [k0_off459_eq]; rfl) f'',
         pcR m d L hpre 1 12 16 (32 * k.val + 16) (by omega) (by omega) (by omega) (by omega) (k0_off405 k) (by rw [k0_off405_eq]; rfl) k0_off456 (fun _ => rfl) (fun _ => rfl) (fun _ => rfl) (fun _ => rfl) (k0_off457 k) (by rw [k0_off457_eq]; rfl) (by rw [k0_off457_eq]; rfl) f'',
         pcR m d L hpre 1 12 0 (32 * k.val + 16) (by omega) (by omega) (by omega) (by omega) (k0_off405 k) (by rw [k0_off405_eq]; rfl) k0_off454 (fun _ => rfl) (fun _ => rfl) (fun _ => rfl) (fun _ => rfl) (k0_off455 k) (by rw [k0_off455_eq]; rfl) (by rw [k0_off455_eq]; rfl) f'',
         pcR m d L hpre 1 11 16 (32 * k.val + 16) (by omega) (by omega) (by omega) (by omega) (k0_off405 k) (by rw [k0_off405_eq]; rfl) k0_off452 (fun _ => rfl) (fun _ => rfl) (fun _ => rfl) (fun _ => rfl) (k0_off453 k) (by rw [k0_off453_eq]; rfl) (by rw [k0_off453_eq]; rfl) f'',
         pcR m d L hpre 1 11 0 (32 * k.val + 16) (by omega) (by omega) (by omega) (by omega) (k0_off405 k) (by rw [k0_off405_eq]; rfl) k0_off450 (fun _ => rfl) (fun _ => rfl) (fun _ => rfl) (fun _ => rfl) (k0_off451 k) (by rw [k0_off451_eq]; rfl) (by rw [k0_off451_eq]; rfl) f'',
         pcR m d L hpre 1 10 16 (32 * k.val + 16) (by omega) (by omega) (by omega) (by omega) (k0_off405 k) (by rw [k0_off405_eq]; rfl) k0_off448 (fun _ => rfl) (fun _ => rfl) (fun _ => rfl) (fun _ => rfl) (k0_off449 k) (by rw [k0_off449_eq]; rfl) (by rw [k0_off449_eq]; rfl) f'',
         pcR m d L hpre 1 10 0 (32 * k.val + 16) (by omega) (by omega) (by omega) (by omega) (k0_off405 k) (by rw [k0_off405_eq]; rfl) k0_off446 (fun _ => rfl) (fun _ => rfl) (fun _ => rfl) (fun _ => rfl) (k0_off447 k) (by rw [k0_off447_eq]; rfl) (by rw [k0_off447_eq]; rfl) f'',
         pcR m d L hpre 1 9 16 (32 * k.val + 16) (by omega) (by omega) (by omega) (by omega) (k0_off405 k) (by rw [k0_off405_eq]; rfl) k0_off444 (fun _ => rfl) (fun _ => rfl) (fun _ => rfl) (fun _ => rfl) (k0_off445 k) (by rw [k0_off445_eq]; rfl) (by rw [k0_off445_eq]; rfl) f'',
         pcR m d L hpre 1 9 0 (32 * k.val + 16) (by omega) (by omega) (by omega) (by omega) (k0_off405 k) (by rw [k0_off405_eq]; rfl) k0_off442 (fun _ => rfl) (fun _ => rfl) (fun _ => rfl) (fun _ => rfl) (k0_off443 k) (by rw [k0_off443_eq]; rfl) (by rw [k0_off443_eq]; rfl) f'',
         pcR m d L hpre 1 8 16 (32 * k.val + 16) (by omega) (by omega) (by omega) (by omega) (k0_off405 k) (by rw [k0_off405_eq]; rfl) k0_off440 (fun _ => rfl) (fun _ => rfl) (fun _ => rfl) (fun _ => rfl) (k0_off441 k) (by rw [k0_off441_eq]; rfl) (by rw [k0_off441_eq]; rfl) f'',
         pcR m d L hpre 1 8 0 (32 * k.val + 16) (by omega) (by omega) (by omega) (by omega) (k0_off405 k) (by rw [k0_off405_eq]; rfl) k0_off438 (fun _ => rfl) (fun _ => rfl) (fun _ => rfl) (fun _ => rfl) (k0_off439 k) (by rw [k0_off439_eq]; rfl) (by rw [k0_off439_eq]; rfl) f'',
         pcR m d L hpre 1 7 16 (32 * k.val + 16) (by omega) (by omega) (by omega) (by omega) (k0_off405 k) (by rw [k0_off405_eq]; rfl) k0_off436 (fun _ => rfl) (fun _ => rfl) (fun _ => rfl) (fun _ => rfl) (k0_off437 k) (by rw [k0_off437_eq]; rfl) (by rw [k0_off437_eq]; rfl) f'',
         pcR m d L hpre 1 7 0 (32 * k.val + 16) (by omega) (by omega) (by omega) (by omega) (k0_off405 k) (by rw [k0_off405_eq]; rfl) k0_off434 (fun _ => rfl) (fun _ => rfl) (fun _ => rfl) (fun _ => rfl) (k0_off435 k) (by rw [k0_off435_eq]; rfl) (by rw [k0_off435_eq]; rfl) f'',
         pcR m d L hpre 1 6 16 (32 * k.val + 16) (by omega) (by omega) (by omega) (by omega) (k0_off405 k) (by rw [k0_off405_eq]; rfl) k0_off432 (fun _ => rfl) (fun _ => rfl) (fun _ => rfl) (fun _ => rfl) (k0_off433 k) (by rw [k0_off433_eq]; rfl) (by rw [k0_off433_eq]; rfl) f'',
         pcR m d L hpre 1 6 0 (32 * k.val + 16) (by omega) (by omega) (by omega) (by omega) (k0_off405 k) (by rw [k0_off405_eq]; rfl) k0_off430 (fun _ => rfl) (fun _ => rfl) (fun _ => rfl) (fun _ => rfl) (k0_off431 k) (by rw [k0_off431_eq]; rfl) (by rw [k0_off431_eq]; rfl) f'',
         pcR m d L hpre 1 5 16 (32 * k.val + 16) (by omega) (by omega) (by omega) (by omega) (k0_off405 k) (by rw [k0_off405_eq]; rfl) k0_off428 (fun _ => rfl) (fun _ => rfl) (fun _ => rfl) (fun _ => rfl) (k0_off429 k) (by rw [k0_off429_eq]; rfl) (by rw [k0_off429_eq]; rfl) f'',
         pcR m d L hpre 1 5 0 (32 * k.val + 16) (by omega) (by omega) (by omega) (by omega) (k0_off405 k) (by rw [k0_off405_eq]; rfl) k0_off426 (fun _ => rfl) (fun _ => rfl) (fun _ => rfl) (fun _ => rfl) (k0_off427 k) (by rw [k0_off427_eq]; rfl) (by rw [k0_off427_eq]; rfl) f'',
         pcR m d L hpre 1 4 16 (32 * k.val + 16) (by omega) (by omega) (by omega) (by omega) (k0_off405 k) (by rw [k0_off405_eq]; rfl) k0_off424 (fun _ => rfl) (fun _ => rfl) (fun _ => rfl) (fun _ => rfl) (k0_off425 k) (by rw [k0_off425_eq]; rfl) (by rw [k0_off425_eq]; rfl) f'',
         pcR m d L hpre 1 4 0 (32 * k.val + 16) (by omega) (by omega) (by omega) (by omega) (k0_off405 k) (by rw [k0_off405_eq]; rfl) k0_off422 (fun _ => rfl) (fun _ => rfl) (fun _ => rfl) (fun _ => rfl) (k0_off423 k) (by rw [k0_off423_eq]; rfl) (by rw [k0_off423_eq]; rfl) f'',
         pcR m d L hpre 1 3 16 (32 * k.val + 16) (by omega) (by omega) (by omega) (by omega) (k0_off405 k) (by rw [k0_off405_eq]; rfl) k0_off420 (fun _ => rfl) (fun _ => rfl) (fun _ => rfl) (fun _ => rfl) (k0_off421 k) (by rw [k0_off421_eq]; rfl) (by rw [k0_off421_eq]; rfl) f'',
         pcR m d L hpre 1 3 0 (32 * k.val + 16) (by omega) (by omega) (by omega) (by omega) (k0_off405 k) (by rw [k0_off405_eq]; rfl) k0_off418 (fun _ => rfl) (fun _ => rfl) (fun _ => rfl) (fun _ => rfl) (k0_off419 k) (by rw [k0_off419_eq]; rfl) (by rw [k0_off419_eq]; rfl) f'',
         pcR m d L hpre 1 2 16 (32 * k.val + 16) (by omega) (by omega) (by omega) (by omega) (k0_off405 k) (by rw [k0_off405_eq]; rfl) k0_off416 (fun _ => rfl) (fun _ => rfl) (fun _ => rfl) (fun _ => rfl) (k0_off417 k) (by rw [k0_off417_eq]; rfl) (by rw [k0_off417_eq]; rfl) f'',
         pcR m d L hpre 1 2 0 (32 * k.val + 16) (by omega) (by omega) (by omega) (by omega) (k0_off405 k) (by rw [k0_off405_eq]; rfl) k0_off414 (fun _ => rfl) (fun _ => rfl) (fun _ => rfl) (fun _ => rfl) (k0_off415 k) (by rw [k0_off415_eq]; rfl) (by rw [k0_off415_eq]; rfl) f'',
         pcR m d L hpre 1 1 16 (32 * k.val + 16) (by omega) (by omega) (by omega) (by omega) (k0_off405 k) (by rw [k0_off405_eq]; rfl) k0_off412 (fun _ => rfl) (fun _ => rfl) (fun _ => rfl) (fun _ => rfl) (k0_off413 k) (by rw [k0_off413_eq]; rfl) (by rw [k0_off413_eq]; rfl) f'',
         pcR m d L hpre 1 1 0 (32 * k.val + 16) (by omega) (by omega) (by omega) (by omega) (k0_off405 k) (by rw [k0_off405_eq]; rfl) k0_off410 (fun _ => rfl) (fun _ => rfl) (fun _ => rfl) (fun _ => rfl) (k0_off411 k) (by rw [k0_off411_eq]; rfl) (by rw [k0_off411_eq]; rfl) f'',
         pcR m d L hpre 1 0 16 (32 * k.val + 16) (by omega) (by omega) (by omega) (by omega) (k0_off405 k) (by rw [k0_off405_eq]; rfl) k0_off408 (fun _ => rfl) (fun _ => rfl) (fun _ => rfl) (fun _ => rfl) (k0_off409 k) (by rw [k0_off409_eq]; rfl) (by rw [k0_off409_eq]; rfl) f'',
         pcR m d L hpre 1 0 0 (32 * k.val + 16) (by omega) (by omega) (by omega) (by omega) (k0_off405 k) (by rw [k0_off405_eq]; rfl) k0_off406 (fun _ => rfl) (fun _ => rfl) (fun _ => rfl) (fun _ => rfl) (k0_off407 k) (by rw [k0_off407_eq]; rfl) (by rw [k0_off407_eq]; rfl) f'',
         pcR m d L hpre 0 15 16 (32 * k.val) (by omega) (by omega) (by omega) (by omega) (k0_off323 k) (by rw [k0_off323_eq]; rfl) k0_off386 (fun _ => rfl) (fun _ => rfl) (fun _ => rfl) (fun _ => rfl) (k0_off387 k) (by rw [k0_off387_eq]; rfl) (by rw [k0_off387_eq]; rfl) f',
         pcR m d L hpre 0 15 0 (32 * k.val) (by omega) (by omega) (by omega) (by omega) (k0_off323 k) (by rw [k0_off323_eq]; rfl) k0_off384 (fun _ => rfl) (fun _ => rfl) (fun _ => rfl) (fun _ => rfl) (k0_off385 k) (by rw [k0_off385_eq]; rfl) (by rw [k0_off385_eq]; rfl) f',
         pcR m d L hpre 0 14 16 (32 * k.val) (by omega) (by omega) (by omega) (by omega) (k0_off323 k) (by rw [k0_off323_eq]; rfl) k0_off382 (fun _ => rfl) (fun _ => rfl) (fun _ => rfl) (fun _ => rfl) (k0_off383 k) (by rw [k0_off383_eq]; rfl) (by rw [k0_off383_eq]; rfl) f',
         pcR m d L hpre 0 14 0 (32 * k.val) (by omega) (by omega) (by omega) (by omega) (k0_off323 k) (by rw [k0_off323_eq]; rfl) k0_off380 (fun _ => rfl) (fun _ => rfl) (fun _ => rfl) (fun _ => rfl) (k0_off381 k) (by rw [k0_off381_eq]; rfl) (by rw [k0_off381_eq]; rfl) f',
         pcR m d L hpre 0 13 16 (32 * k.val) (by omega) (by omega) (by omega) (by omega) (k0_off323 k) (by rw [k0_off323_eq]; rfl) k0_off378 (fun _ => rfl) (fun _ => rfl) (fun _ => rfl) (fun _ => rfl) (k0_off379 k) (by rw [k0_off379_eq]; rfl) (by rw [k0_off379_eq]; rfl) f',
         pcR m d L hpre 0 13 0 (32 * k.val) (by omega) (by omega) (by omega) (by omega) (k0_off323 k) (by rw [k0_off323_eq]; rfl) k0_off376 (fun _ => rfl) (fun _ => rfl) (fun _ => rfl) (fun _ => rfl) (k0_off377 k) (by rw [k0_off377_eq]; rfl) (by rw [k0_off377_eq]; rfl) f',
         pcR m d L hpre 0 12 16 (32 * k.val) (by omega) (by omega) (by omega) (by omega) (k0_off323 k) (by rw [k0_off323_eq]; rfl) k0_off374 (fun _ => rfl) (fun _ => rfl) (fun _ => rfl) (fun _ => rfl) (k0_off375 k) (by rw [k0_off375_eq]; rfl) (by rw [k0_off375_eq]; rfl) f',
         pcR m d L hpre 0 12 0 (32 * k.val) (by omega) (by omega) (by omega) (by omega) (k0_off323 k) (by rw [k0_off323_eq]; rfl) k0_off372 (fun _ => rfl) (fun _ => rfl) (fun _ => rfl) (fun _ => rfl) (k0_off373 k) (by rw [k0_off373_eq]; rfl) (by rw [k0_off373_eq]; rfl) f',
         pcR m d L hpre 0 11 16 (32 * k.val) (by omega) (by omega) (by omega) (by omega) (k0_off323 k) (by rw [k0_off323_eq]; rfl) k0_off370 (fun _ => rfl) (fun _ => rfl) (fun _ => rfl) (fun _ => rfl) (k0_off371 k) (by rw [k0_off371_eq]; rfl) (by rw [k0_off371_eq]; rfl) f',
         pcR m d L hpre 0 11 0 (32 * k.val) (by omega) (by omega) (by omega) (by omega) (k0_off323 k) (by rw [k0_off323_eq]; rfl) k0_off368 (fun _ => rfl) (fun _ => rfl) (fun _ => rfl) (fun _ => rfl) (k0_off369 k) (by rw [k0_off369_eq]; rfl) (by rw [k0_off369_eq]; rfl) f',
         pcR m d L hpre 0 10 16 (32 * k.val) (by omega) (by omega) (by omega) (by omega) (k0_off323 k) (by rw [k0_off323_eq]; rfl) k0_off366 (fun _ => rfl) (fun _ => rfl) (fun _ => rfl) (fun _ => rfl) (k0_off367 k) (by rw [k0_off367_eq]; rfl) (by rw [k0_off367_eq]; rfl) f',
         pcR m d L hpre 0 10 0 (32 * k.val) (by omega) (by omega) (by omega) (by omega) (k0_off323 k) (by rw [k0_off323_eq]; rfl) k0_off364 (fun _ => rfl) (fun _ => rfl) (fun _ => rfl) (fun _ => rfl) (k0_off365 k) (by rw [k0_off365_eq]; rfl) (by rw [k0_off365_eq]; rfl) f',
         pcR m d L hpre 0 9 16 (32 * k.val) (by omega) (by omega) (by omega) (by omega) (k0_off323 k) (by rw [k0_off323_eq]; rfl) k0_off362 (fun _ => rfl) (fun _ => rfl) (fun _ => rfl) (fun _ => rfl) (k0_off363 k) (by rw [k0_off363_eq]; rfl) (by rw [k0_off363_eq]; rfl) f',
         pcR m d L hpre 0 9 0 (32 * k.val) (by omega) (by omega) (by omega) (by omega) (k0_off323 k) (by rw [k0_off323_eq]; rfl) k0_off360 (fun _ => rfl) (fun _ => rfl) (fun _ => rfl) (fun _ => rfl) (k0_off361 k) (by rw [k0_off361_eq]; rfl) (by rw [k0_off361_eq]; rfl) f',
         pcR m d L hpre 0 8 16 (32 * k.val) (by omega) (by omega) (by omega) (by omega) (k0_off323 k) (by rw [k0_off323_eq]; rfl) k0_off358 (fun _ => rfl) (fun _ => rfl) (fun _ => rfl) (fun _ => rfl) (k0_off359 k) (by rw [k0_off359_eq]; rfl) (by rw [k0_off359_eq]; rfl) f',
         pcR m d L hpre 0 8 0 (32 * k.val) (by omega) (by omega) (by omega) (by omega) (k0_off323 k) (by rw [k0_off323_eq]; rfl) k0_off356 (fun _ => rfl) (fun _ => rfl) (fun _ => rfl) (fun _ => rfl) (k0_off357 k) (by rw [k0_off357_eq]; rfl) (by rw [k0_off357_eq]; rfl) f',
         pcR m d L hpre 0 7 16 (32 * k.val) (by omega) (by omega) (by omega) (by omega) (k0_off323 k) (by rw [k0_off323_eq]; rfl) k0_off354 (fun _ => rfl) (fun _ => rfl) (fun _ => rfl) (fun _ => rfl) (k0_off355 k) (by rw [k0_off355_eq]; rfl) (by rw [k0_off355_eq]; rfl) f',
         pcR m d L hpre 0 7 0 (32 * k.val) (by omega) (by omega) (by omega) (by omega) (k0_off323 k) (by rw [k0_off323_eq]; rfl) k0_off352 (fun _ => rfl) (fun _ => rfl) (fun _ => rfl) (fun _ => rfl) (k0_off353 k) (by rw [k0_off353_eq]; rfl) (by rw [k0_off353_eq]; rfl) f',
         pcR m d L hpre 0 6 16 (32 * k.val) (by omega) (by omega) (by omega) (by omega) (k0_off323 k) (by rw [k0_off323_eq]; rfl) k0_off350 (fun _ => rfl) (fun _ => rfl) (fun _ => rfl) (fun _ => rfl) (k0_off351 k) (by rw [k0_off351_eq]; rfl) (by rw [k0_off351_eq]; rfl) f',
         pcR m d L hpre 0 6 0 (32 * k.val) (by omega) (by omega) (by omega) (by omega) (k0_off323 k) (by rw [k0_off323_eq]; rfl) k0_off348 (fun _ => rfl) (fun _ => rfl) (fun _ => rfl) (fun _ => rfl) (k0_off349 k) (by rw [k0_off349_eq]; rfl) (by rw [k0_off349_eq]; rfl) f',
         pcR m d L hpre 0 5 16 (32 * k.val) (by omega) (by omega) (by omega) (by omega) (k0_off323 k) (by rw [k0_off323_eq]; rfl) k0_off346 (fun _ => rfl) (fun _ => rfl) (fun _ => rfl) (fun _ => rfl) (k0_off347 k) (by rw [k0_off347_eq]; rfl) (by rw [k0_off347_eq]; rfl) f',
         pcR m d L hpre 0 5 0 (32 * k.val) (by omega) (by omega) (by omega) (by omega) (k0_off323 k) (by rw [k0_off323_eq]; rfl) k0_off344 (fun _ => rfl) (fun _ => rfl) (fun _ => rfl) (fun _ => rfl) (k0_off345 k) (by rw [k0_off345_eq]; rfl) (by rw [k0_off345_eq]; rfl) f',
         pcR m d L hpre 0 4 16 (32 * k.val) (by omega) (by omega) (by omega) (by omega) (k0_off323 k) (by rw [k0_off323_eq]; rfl) k0_off342 (fun _ => rfl) (fun _ => rfl) (fun _ => rfl) (fun _ => rfl) (k0_off343 k) (by rw [k0_off343_eq]; rfl) (by rw [k0_off343_eq]; rfl) f',
         pcR m d L hpre 0 4 0 (32 * k.val) (by omega) (by omega) (by omega) (by omega) (k0_off323 k) (by rw [k0_off323_eq]; rfl) k0_off340 (fun _ => rfl) (fun _ => rfl) (fun _ => rfl) (fun _ => rfl) (k0_off341 k) (by rw [k0_off341_eq]; rfl) (by rw [k0_off341_eq]; rfl) f',
         pcR m d L hpre 0 3 16 (32 * k.val) (by omega) (by omega) (by omega) (by omega) (k0_off323 k) (by rw [k0_off323_eq]; rfl) k0_off338 (fun _ => rfl) (fun _ => rfl) (fun _ => rfl) (fun _ => rfl) (k0_off339 k) (by rw [k0_off339_eq]; rfl) (by rw [k0_off339_eq]; rfl) f',
         pcR m d L hpre 0 3 0 (32 * k.val) (by omega) (by omega) (by omega) (by omega) (k0_off323 k) (by rw [k0_off323_eq]; rfl) k0_off336 (fun _ => rfl) (fun _ => rfl) (fun _ => rfl) (fun _ => rfl) (k0_off337 k) (by rw [k0_off337_eq]; rfl) (by rw [k0_off337_eq]; rfl) f',
         pcR m d L hpre 0 2 16 (32 * k.val) (by omega) (by omega) (by omega) (by omega) (k0_off323 k) (by rw [k0_off323_eq]; rfl) k0_off334 (fun _ => rfl) (fun _ => rfl) (fun _ => rfl) (fun _ => rfl) (k0_off335 k) (by rw [k0_off335_eq]; rfl) (by rw [k0_off335_eq]; rfl) f',
         pcR m d L hpre 0 2 0 (32 * k.val) (by omega) (by omega) (by omega) (by omega) (k0_off323 k) (by rw [k0_off323_eq]; rfl) k0_off332 (fun _ => rfl) (fun _ => rfl) (fun _ => rfl) (fun _ => rfl) (k0_off333 k) (by rw [k0_off333_eq]; rfl) (by rw [k0_off333_eq]; rfl) f',
         pcR m d L hpre 0 1 16 (32 * k.val) (by omega) (by omega) (by omega) (by omega) (k0_off323 k) (by rw [k0_off323_eq]; rfl) k0_off330 (fun _ => rfl) (fun _ => rfl) (fun _ => rfl) (fun _ => rfl) (k0_off331 k) (by rw [k0_off331_eq]; rfl) (by rw [k0_off331_eq]; rfl) f',
         pcR m d L hpre 0 1 0 (32 * k.val) (by omega) (by omega) (by omega) (by omega) (k0_off323 k) (by rw [k0_off323_eq]; rfl) k0_off328 (fun _ => rfl) (fun _ => rfl) (fun _ => rfl) (fun _ => rfl) (k0_off329 k) (by rw [k0_off329_eq]; rfl) (by rw [k0_off329_eq]; rfl) f',
         pcR m d L hpre 0 0 16 (32 * k.val) (by omega) (by omega) (by omega) (by omega) (k0_off323 k) (by rw [k0_off323_eq]; rfl) k0_off326 (fun _ => rfl) (fun _ => rfl) (fun _ => rfl) (fun _ => rfl) (k0_off327 k) (by rw [k0_off327_eq]; rfl) (by rw [k0_off327_eq]; rfl) f',
         pcR m d L hpre 0 0 0 (32 * k.val) (by omega) (by omega) (by omega) (by omega) (k0_off323 k) (by rw [k0_off323_eq]; rfl) k0_off324 (fun _ => rfl) (fun _ => rfl) (fun _ => rfl) (fun _ => rfl) (k0_off325 k) (by rw [k0_off325_eq]; rfl) (by rw [k0_off325_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 12500) :
    ∀ a, off a + S1x8x32.size a ≤ S12500x8x32.size a := by
  intro a
  match a with
  | 0 => rw [t0]; show g + 1 ≤ 12500; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 12500 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab1 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KIS.T2

end
-- ==== Proof.KI2Loop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.KI2Loop3Val
import proofs.«207337_g69080253988965_cont_9to1c4b_173_32_alg».proof.Proof.KI2Inv

noncomputable section

namespace Cert.Proof.KIS.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 100000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 100000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S12500x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t7_loop.trips, k0_cond2 k = 1#1 ↔ k.val + 1 < 8 := by decide +kernel

omit [FloatOps F] in
theorem e54 : ∀ k : Fin k0_t7_loop.trips, (k0_off306 k) 0 = 16 * (2 * k.val + 1) := by decide +kernel
omit [FloatOps F] in
theorem e136 : ∀ k : Fin k0_t7_loop.trips, (k0_off388 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S12500x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab1 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t7_loop.trips → Fin 2 → Nat) (hg : ∀ k', g k' 0 < 256) (k : Fin k0_t7_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t7_loop.trips → Fin 2 → Nat) (hg : ∀ k', g k' 0 < 256) (k : Fin k0_t7_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t1W).view.loc (thr d L) ↦{q'} m (tab1 d))

theorem tabRest_elim : TabRest m d L ⊢ (iprop(∃ q' : PosShare TreeShare, (t1W).view.loc (thr d L) ↦{q'} m (tab1 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t1W).view.loc (thr d L) ↦{q'} m (tab1 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (xv0 : BitVec 32) (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t7_loop k0_t7_ok ⟨⟩ (k0_t7_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond2 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off306 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off306 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off306 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off306 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off306 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off306 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off306 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off306 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off306 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off306 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off306 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off306 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off306 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off306 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off306 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off306 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off388 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off388 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off388 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off388 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off388 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off388 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off388 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off388 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off388 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off388 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off388 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off388 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off388 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off388 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off388 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off388 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off306 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off306 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off306 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off306 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off306 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off306 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off306 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off306 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off306 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off306 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off306 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off306 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off306 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off306 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off306 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off306 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KIS.T2

end
-- ==== Proof.KI2Loop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.KI2Loop3
import proofs.«207337_g69080253988965_cont_9to1c4b_173_32_alg».proof.Proof.KI2Inv

noncomputable section

namespace Cert.Proof.KIS.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t1W).view.loc (thr d L) ↦{q'} m (tab1 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KIS.T2

end
-- ==== Proof.KI3Inv.lean ====
/-
  The definitions of KInv that speak of the first table, for table 3: the tile's piece of the index array as the body slices it,
  what the index scratch holds, what the staging buffer must hold in the end, and the phases' invariants.
-/
import proofs.«207337_g69080253988965_cont_9to1c4b_173_32_alg».proof.Proof.KIInv

noncomputable section

namespace Cert.Proof.KIS.T3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-- Table 1's piece of its index array, as the body slices it. -/
abbrev ids3Rect : Rect S16384 := Rect.unit (s := S16384) (k0_off505 L) S512.size (k0_off505_inb L)

abbrev ids3Slice : Memref sig .scVector .hbm S512 .i32 := (i5W).slice (ids3Rect L) (fun _ => rfl)

omit [FloatOps F] in
theorem ids3Rect_eq : ids3Rect L = idsPart (wL L) := by
  unfold ids3Rect idsPart Rect.part Rect.block
  congr 1 <;> funext a
  · rw [k0_off505_eq]
    match a with
    | 0 => simp [Shape.partIx, Shape.partSize, wid]; omega
  · match a with
    | 0 => simp [Shape.partSize]

omit [FloatOps F] in
theorem set_ids3Slice : (ids3Slice L).view.set = idsSet (wL L) := by
  show ((View.whole (main_arg5_scv : Ref sig .scVector)).slice (ids3Rect L)).set = _
  rw [View.set_slice, ids3Rect_eq]; exact Finset.map_refl

omit [FloatOps F] in
theorem pts_ids3Slice (f : Buf (Elt F) (ids2 d)) :
    ((ids3Slice L).view.loc (thr d L) ↦[(ids3Slice L).view.set]{fullShare} f : sProp 𝕄) = ids2 d ↦[idsSet (wL L)]{fullShare} f := by
  rw [set_ids3Slice]

omit [FloatOps F] in
theorem pts_tab2 (q : PosShare TreeShare) (f : Buf (Elt F) (tab2 d)) :
    ((t2W).view.loc (thr d L) ↦{q} f : sProp 𝕄) = tab2 d ↦{q} f := by
  simp only [Memref.view_whole, View.set_whole]

/-- The tile's 512 indices of the first table, as the copy into the index scratch reads them. -/
def IDX1 : Buf (Elt F) ((thr d L).loc cc0_scratch0) := (ids3Slice L).view.read (Elt F) (m (ids2 d))

/-- The same as a vector of words. -/
abbrev IDX1v : IVec S512 32 := IDX1 m d L

/-- What the staging buffer must hold in the end: row `r` is the row of the first table that index `r` names. -/
def want1 : Buf (Elt F) ((thr d L).loc cc0_scratch3) :=
  fun i => m (tab2 d) (ValueIdx.ix2 (Cert.Spec.rowL (IDX1v m d L (ValueIdx.ix1 (i 0)))) (i 1))

/-- What the `t`-th direct copy (staging row `256 + t`) delivers: that row, holding the named row of the table. -/
def Good1 (t : Nat) : sProp 𝕄 :=
  iprop(∃ g : Buf (Elt F) ((thr d L).loc cc0_scratch3), ((sOut).view.loc (thr d L) ↦[orow (256 + t)]{fullShare} g)
    ∗ ⌜∀ i ∈ orow (256 + t), g i = want1 m d L i⌝)

/-- The direct copies of the first table, all 256 started and `u` units waited for: the batch on the third DMA
    semaphore with its recorded deliveries, each of which is good. -/
def DS1 (u : Nat) : sProp 𝕄 :=
  iprop(∃ Ds : List (sProp 𝕄), Transfers.Batched (countersEmb (U := UU)) (thr d L) (SemLoc.dma cc0_scratch6.sem) (default : HIx 1) 1024 256 Ds u
    ∗ ⌜Ds.length = 256⌝ ∗ ⌜∀ t, t < 256 → (Ds.getD t iprop(emp) ⊢ Good1 m d L t)⌝)

/-- The staging buffer's rows below 256 filled: what the pair loop leaves. -/
def LOW1 : sProp 𝕄 :=
  iprop(∃ o : Buf (Elt F) ((thr d L).loc cc0_scratch3), ((sOut).view.loc (thr d L) ↦[orowsBelow 256]{fullShare} o)
    ∗ ⌜∀ i ∈ orowsBelow 256, o i = want1 m d L i⌝)

/-- The staging buffer's rows from 256 on filled: what the drain of the direct copies leaves. -/
def HIGH1 : sProp 𝕄 :=
  iprop(∃ o : Buf (Elt F) ((thr d L).loc cc0_scratch3), ((sOut).view.loc (thr d L) ↦[orowsFrom 256]{fullShare} o)
    ∗ ⌜∀ i ∈ orowsFrom 256, o i = want1 m d L i⌝)

/-- The group scratch filled: position `j` holds the group number of index `j`. -/
def GRP1 : sProp 𝕄 :=
  iprop(∃ g : Buf (Elt F) ((thr d L).loc cc0_scratch1), ((sGidx).view.loc (thr d L) ↦{fullShare} g)
    ∗ ⌜∀ j : S256.Idx, (g j : BitVec 32) = grp (IDX1v m d L (ValueIdx.ix1 ⟨(j 0).val, by have h : (j 0).val < 256 := (j 0).isLt; omega⟩))⌝)

end Tile

end Cert.Proof.KIS.T3

end
-- ==== Proof.KI3Loop4.lean ====
/-
  The drain of the direct copies of the first table on one tile, and what follows it.

  The loop that started the 256 direct copies (one per index of the tile's last 256, each one row of the table
  into one row of the staging buffer, all on one semaphore) left them as a batch with recorded deliveries. The
  drain loop waits 256 times for one row's units: 16 trips of 16 waits. No wait but the very last learns
  anything (transfers complete in any order; a wait only takes units off the counter), and the very last, which
  takes the counter to zero, hands back every recorded delivery at once. Each delivery is a staging row holding
  the row of the table that its index names; the 256 rows are pairwise disjoint and together are the rows from
  256 on. With the rows below 256 (filled by the group fetches) they are the whole staging buffer, row r holding
  the table's row ids[r]; copied out to rows [512 w, 512 w + 512) of the result, the result agrees there with the
  lookup of the launch memory.
-/
import proofs.«207337_g69080253988965_cont_9to1c4b_173_32_alg».proof.Proof.KIInv
import proofs.«207337_g69080253988965_cont_9to1c4b_173_32_alg».proof.Proof.KI3Inv

noncomputable section

namespace Cert.Proof.KIS.T3.L4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KIS

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- Every index the tile holds names a row of the first table: the range check before a row copy. -/
theorem idx_row_ok (hpre : PreOK m) (r : S512.Idx) :
    ∀ a : Fin 2, (![(IDX1v m d L r).toNat, 0] : Fin 2 → Nat) a + S1x32.size a ≤ S1000000x32.size a := by
  obtain ⟨h0, h1⟩ := (hpre d).2.2 ((ids3Slice L).view.emb r)
  have e : IDX1v m d L r = m (ids2 d) ((ids3Slice L).view.emb r) := rfl
  have hn : (IDX1v m d L r).toNat < 1000000 := by
    have hv := Cert.Spec.rowL_val _ h0 h1
    rw [e, ← hv]; exact (Cert.Spec.rowL _).isLt
  intro a
  match a with
  | 0 => show (IDX1v m d L r).toNat + 1 ≤ 1000000; omega
  | 1 => show 0 + 32 ≤ 32; omega

omit [FloatOps F] in
theorem orow_disj (t t' : Fin 256) (h : t ≠ t') : Disjoint (orow (256 + t.val)) (orow (256 + t'.val)) := by
  rw [Finset.disjoint_left]; intro i h1 h2
  simp only [orow, Finset.mem_filter, Finset.mem_univ, true_and] at h1 h2
  exact h (Fin.ext (by omega))
omit [FloatOps F] in
theorem orows_from_eq : (Finset.univ : Finset (Fin 256)).biUnion (fun t => orow (256 + t.val)) = orowsFrom 256 := by
  ext i
  have hi : (i 0).val < 512 := (i 0).isLt
  simp only [orow, orowsFrom, Finset.mem_biUnion, Finset.mem_filter, Finset.mem_univ, true_and]
  constructor
  · rintro ⟨t, ht⟩; omega
  · intro h; exact ⟨⟨(i 0).val - 256, by omega⟩, by show (i 0).val = 256 + ((i 0).val - 256); omega⟩

/-- All 256 recorded deliveries, each good, are the staging buffer's rows from 256 on filled as wanted. -/
theorem high_of_all (Ds : List (sProp 𝕄)) (hgood : ∀ t, t < 256 → (Ds.getD t iprop(emp) ⊢ Good1 m d L t)) :
    bigSep Finset.univ (Transfers.deliv (m := 256) Ds) ⊢ HIGH1 m d L := by
  have h1 : bigSep Finset.univ (Transfers.deliv (m := 256) Ds)
      ⊢ bigSep (Finset.univ : Finset (Fin 256)) (fun t => ((sOut).view.loc (thr d L) ↦[orow (256 + t.val)]{fullShare} want1 m d L : sProp 𝕄)) := by
    refine bigSep_mono fun t _ => ?_
    refine (hgood t.val t.isLt).trans ?_
    unfold Good1
    iintro ⟨%g, Hg, %hg⟩
    iapply (Entails.of_eq (pointsTo_congr (q := fullShare) hg)); iexact Hg
  refine h1.trans ?_
  refine (Entails.of_eq (pointsTo_biUnion (ℓ := (sOut).view.loc (thr d L)) (q := fullShare) (f := want1 m d L) Finset.univ
    (fun t : Fin 256 => orow (256 + t.val)) (fun t _ t' _ h => orow_disj t t' h)).symm).trans ?_
  rw [orows_from_eq]
  unfold HIGH1
  iintro H
  iexists (want1 m d L)
  isplitl [H]; · iexact H
  ipureintro; intro i _; rfl

omit [FloatOps F] in
/-- Recording one more wait at the index every wait here uses keeps the recorded waits within the allowed ones. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Before trip k of the drain: the index scratch, the batch with 16 k transfers' units consumed (or, after the last
    trip, the semaphore at zero and the rows from 256 on), and the waits recorded. -/
def inv4 (O : CellTallies nD τ sig (HIx 1)) (W : Waits sig (HIx 1)) (k : Nat) (_ : PUnit) : sProp 𝕄 :=
  iprop(⌜k ≤ 16⌝ ∗ Transfers.MayWaits (thr d L) (none : HIx 1) O
    ∗ ((sIdx).view.loc (thr d L) ↦{fullShare} IDX1 m d L)
    ∗ (if k < 16 then DS1 m d L (16 * k * 1024)
       else iprop(semVal (thr d L, SemLoc.dma cc0_scratch6.sem) 0 ∗ HIGH1 m d L))
    ∗ ∃ W', ⌜∀ p ∈ W', p ∈ W ∨ p.2 = none⌝ ∗ owes (thr d L) O W')

/-- The drain loop of the first table, in continuation form: from the index scratch, the batch of the 256 direct copies
    with nothing waited for, and what the thread owes, the sixteen trips of sixteen waits leave the index scratch, the
    staging rows from 256 on filled as wanted, the semaphore at zero, and only waits at the one index recorded. -/
theorem loop4 (hpre : PreOK m) (O : CellTallies nD τ sig (HIx 1)) (W : Waits sig (HIx 1)) (Q : PUnit → sProp 𝕄) :
    iprop(□ Transfers.MayWaits (thr d L) (none : HIx 1) O ∗ ((sIdx).view.loc (thr d L) ↦{fullShare} IDX1 m d L) ∗ DS1 m d L 0 ∗ owes (thr d L) O W
        ∗ ( ( ((sIdx).view.loc (thr d L) ↦{fullShare} IDX1 m d L) ∗ HIGH1 m d L ∗ semVal (thr d L, SemLoc.dma cc0_scratch6.sem) 0
              ∗ ∃ W', ⌜∀ p ∈ W', p ∈ W ∨ p.2 = none⌝ ∗ owes (thr d L) O W') -∗ Q ⟨⟩ ))
      ⊢ wp frame (wpE (defs₀ (F := F)) 𝒱₀ (thr d L) none) Set.univ
          (Scf.Loop.for k0_t12_loop k0_t12_ok ⟨⟩ (k0_t12_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨#Hmw, HsI, HDS, HO, HQ⟩
  sl_for (inv4 m d L O W) $$ [HsI HDS HO HQ]
  case region =>
    intro k _
    unfold inv4
    have hk : k.val < 16 := k.isLt
    rw [if_pos hk]
    unfold DS1
    iintro ⟨-, #Hmw, HsI, ⟨%Ds, HB, %hlen, %hgood⟩, %W', %hW', HO⟩
    -- fifteen waits that cannot drain the batch, whatever the trip
    sl_exec (disch := exact idx_row_ok m d L hpre _)
    iapply (Transfers.wp_waitBatchedO (countersEmb (U := UU)) 𝒱₀ (thr d L) none (default : HIx 1) (N := 1024) (u := 16 * k.val * 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024) rfl hlen (by omega)) $$ [HB HO]
    · isplitl [HB]; · iexact HB
      isplitl [HO]; · iexact HO
      iapply (Transfers.MayWaits.elim _); iexact Hmw
    iintro ⟨HB, HO⟩
    sl_exec (disch := exact idx_row_ok m d L hpre _)
    -- the sixteenth: short of draining before the last trip, draining in the last
    rcases Nat.lt_or_ge (k.val + 1) 16 with h1 | h1
    · iapply (Transfers.wp_waitBatchedO (countersEmb (U := UU)) 𝒱₀ (thr d L) none (default : HIx 1) (N := 1024) (u := 16 * k.val * 1024 + 1024 + 1024 + 1024 + 1024 + 1024 + 1024 + 1024 + 1024 + 1024 + 1024 + 1024 + 1024 + 1024 + 1024 + 1024) rfl hlen (by omega)) $$ [HB HO]
      · isplitl [HB]; · iexact HB
        isplitl [HO]; · iexact HO
        iapply (Transfers.MayWaits.elim _); iexact Hmw
      iintro ⟨HB, HO⟩
      sl_exec
      sl_step
      isplitr; · ipureintro; omega
      isplitr; · iexact Hmw
      isplitl [HsI]; · iexact HsI
      isplitl [HB]
      · rw [if_pos h1]
        iexists Ds
        isplitl [HB]
        · rw [show 16 * (k.val + 1) * 1024 = 16 * k.val * 1024 + 1024 + 1024 + 1024 + 1024 + 1024 + 1024 + 1024 + 1024 + 1024 + 1024 + 1024 + 1024 + 1024 + 1024 + 1024 + 1024 by omega]; iexact HB
        · isplitr <;> (ipureintro; assumption)
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
    · iapply (Transfers.wp_waitBatchedAllO (countersEmb (U := UU)) 𝒱₀ (thr d L) none (default : HIx 1) (N := 1024) (J := 1024) (u := 16 * k.val * 1024 + 1024 + 1024 + 1024 + 1024 + 1024 + 1024 + 1024 + 1024 + 1024 + 1024 + 1024 + 1024 + 1024 + 1024 + 1024) rfl (by omega) hlen (by omega)) $$ [HB HO]
      · isplitl [HB]; · iexact HB
        isplitl [HO]; · iexact HO
        iapply (Transfers.MayWaits.elim _); iexact Hmw
      iintro ⟨Hall, Hsem, HO⟩
      sl_exec
      sl_step
      isplitr; · ipureintro; omega
      isplitr; · iexact Hmw
      isplitl [HsI]; · iexact HsI
      isplitl [Hall Hsem]
      · rw [if_neg (Nat.not_lt.mpr h1)]
        isplitl [Hsem]; · iexact Hsem
        iapply (high_of_all m d L Ds hgood); iexact Hall
      iexists _; isplitr
      swap; · iexact HO
      ipureintro; exact waits_ins _ (waits_ins _ (waits_ins _ (waits_ins _ (waits_ins _ (waits_ins _ (waits_ins _ (waits_ins _ (waits_ins _ (waits_ins _ (waits_ins _ (waits_ins _ (waits_ins _ (waits_ins _ (waits_ins _ (waits_ins _ (hW'))))))))))))))))
  isplitl [HsI HDS HO]
  · unfold inv4
    isplitr; · ipureintro; omega
    isplitr; · iexact Hmw
    isplitl [HsI]; · iexact HsI
    isplitl [HDS]
    · rw [if_pos (by omega)]; iexact HDS
    iexists W; isplitr
    · ipureintro; exact fun p hp => .inl hp
    · iexact HO
  iintro %acc HL
  unfold inv4
  rw [if_neg (show ¬ (Scf.trips k0_t12_loop.lb k0_t12_loop.ub k0_t12_loop.st < 16) from Nat.lt_irrefl 16)]
  icases HL with ⟨-, -, HsI, ⟨Hsem, HH⟩, %W', %hW', HO⟩
  iapply HQ
  isplitl [HsI]; · iexact HsI
  isplitl [HH]; · iexact HH
  isplitl [Hsem]; · iexact Hsem
  iexists W'; isplitr
  · ipureintro; exact hW'
  · iexact HO

omit [FloatOps F] in
theorem orows_cover : orowsBelow 256 ∪ orowsFrom 256 = (Finset.univ : Finset S512x32.Idx) := by
  ext i; simp only [orowsBelow, orowsFrom, Finset.mem_union, Finset.mem_filter, Finset.mem_univ, true_and, iff_true]; omega
omit [FloatOps F] in
theorem orows_disj : Disjoint (orowsBelow 256) (orowsFrom 256 : Finset S512x32.Idx) := by
  rw [Finset.disjoint_left]; intro i h1 h2
  simp only [orowsBelow, orowsFrom, Finset.mem_filter, Finset.mem_univ, true_and] at h1 h2; omega

/-- The rows below 256 and the rows from 256 on, each filled as wanted, are the whole staging buffer filled as wanted. -/
theorem stage_whole :
    iprop(LOW1 m d L ∗ HIGH1 m d L)
      ⊢ (iprop(∃ o : Buf (Elt F) ((thr d L).loc cc0_scratch3), ((sOut).view.loc (thr d L) ↦{fullShare} o) ∗ ⌜∀ i, o i = want1 m d L i⌝) : sProp 𝕄) := by
  unfold LOW1 HIGH1
  iintro ⟨⟨%o1, H1, %h1⟩, ⟨%o2, H2, %h2⟩⟩
  ihave H1' := (Entails.of_eq (pointsTo_congr (q := fullShare) h1)) $$ H1
  ihave H2' := (Entails.of_eq (pointsTo_congr (q := fullShare) h2)) $$ H2
  iexists (want1 m d L)
  isplitl
  · iapply (Entails.of_eq (by rw [← orows_cover]) : ((sOut).view.loc (thr d L) ↦[orowsBelow 256 ∪ orowsFrom 256]{fullShare} want1 m d L : sProp 𝕄) ⊢ ((sOut).view.loc (thr d L) ↦{fullShare} want1 m d L))
    iapply (pointsTo_union orows_disj).2
    isplitl [H1']; · iexact H1'
    iexact H2'
  · ipureintro; intro i; rfl

/-! ### The copy-out: rows [512 w, 512 w + 512) of the result -/

/-- The first result's piece this tile writes, as the body slices it. -/
abbrev out3Rect : Rect S16384x32 := Rect.unit (s := S16384x32) (k0_off756 L) S512x32.size (k0_off756_inb L)
abbrev out3Slice : Memref sig .scVector .hbm S512x32 .f32 := (o2W).slice (out3Rect L) (fun _ => rfl)

omit [FloatOps F] in
theorem out3Rect_eq : out3Rect L = outPart (wL L) := by
  unfold out3Rect outPart Rect.part Rect.block
  congr 1 <;> funext a
  · rw [k0_off756_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_out3Slice : (out3Slice L).view.set = outSet (wL L) := by
  show ((View.whole (main_v0_2_scv : Ref sig .scVector)).slice (out3Rect L)).set = _
  rw [View.set_slice, out3Rect_eq]; exact Finset.map_refl

omit [FloatOps F] in
/-- Two windows at one row offset, of the index array (512 positions) and of the result (512 rows of 32): position
    `x 0` of the first is the row of the second's element `x`, whose column is `x 1`. -/
theorem emb_rows (o1 : Fin 1 → ℕ) (h1 : ∀ a, o1 a + S512.size a ≤ S16384.size a)
    (o2 : Fin 2 → ℕ) (h2 : ∀ a, o2 a + S512x32.size a ≤ S16384x32.size a)
    (e : o1 0 = o2 0) (z : o2 1 = 0) (x : S512x32.Idx) :
    (Rect.unit (s := S16384) o1 S512.size h1).emb (ValueIdx.ix1 (x 0))
        = ValueIdx.ix1 ((Rect.unit (s := S16384x32) o2 S512x32.size h2).emb x 0)
      ∧ (Rect.unit (s := S16384x32) o2 S512x32.size h2).emb x 1 = x 1 := by
  constructor
  · funext a
    match a with
    | ⟨0, _⟩ => apply Fin.ext; show o1 0 + 1 * (x 0).val = o2 0 + 1 * (x 0).val; omega
  · apply Fin.ext; show o2 1 + 1 * (x 1).val = (x 1).val; omega

omit [FloatOps F] in
/-- The result's piece, addressed through the tile's slice, is the result's own elements of the tile's part. -/
theorem pts_out3Slice (f : Buf (Elt F) (out2 d)) :
    ((out3Slice L).view.loc (thr d L) ↦[(out3Slice L).view.set]{fullShare} f : sProp 𝕄) = out2 d ↦[outSet (wL L)]{fullShare} f := by
  rw [set_out3Slice]

/-- The copy-out's value: the staging buffer, row r holding the table's row that index r names, written through the
    tile's slice of the result, agrees on the tile's part with the lookup of the launch memory: position r of the
    tile's indices is position 512 w + r of the index array, and row r of the slice is row 512 w + r of the result. -/
theorem copy_out_pay (fo : Buf (Elt F) (out2 d)) (p : S512x32.Idx → Elt F .f32) (hp : ∀ x, p x = want1 m d L x) :
    (((out3Slice L).view.loc (thr d L) ↦[(out3Slice L).view.set]{fullShare}
        (out3Slice L).view.writes (Elt F) fo [⟨Rect.whole S512x32, p⟩]) : sProp 𝕄)
      = out2 d ↦[outSet (wL L)]{fullShare} res2 m d := by
  rw [pts_out3Slice]
  refine pointsTo_congr fun i hi => ?_
  rw [← set_out3Slice] at hi
  obtain ⟨x, -, rfl⟩ := Finset.mem_map.mp hi
  have hw : (out3Slice L).view.writes (Elt F) fo [⟨Rect.whole S512x32, p⟩] ((out3Slice L).view.emb x) = p x := by
    have h := View.read_writes_cons_emb (out3Slice L).view fo (Rect.whole S512x32) p [] x
    rw [Rect.emb_whole_apply] at h
    exact h
  rw [hw, hp]
  obtain ⟨hA, hB⟩ := emb_rows (k0_off505 L) (k0_off505_inb L) (k0_off756 L) (k0_off756_inb L)
    (by rw [k0_off505_eq, k0_off756_eq]; rfl) (by rw [k0_off756_eq]; rfl) x
  have e1 : ((out3Slice L).view.emb x) 1 = x 1 := hB
  have e0 : IDX1v m d L (ValueIdx.ix1 (x 0)) = m (ids2 d) (ValueIdx.ix1 (((out3Slice L).view.emb x) 0)) :=
    congrArg (m (ids2 d)) hA
  show m (tab2 d) (ValueIdx.ix2 (Cert.Spec.rowL (IDX1v m d L (ValueIdx.ix1 (x 0)))) (x 1))
    = m (tab2 d) (ValueIdx.ix2 (Cert.Spec.rowL (m (ids2 d) (ValueIdx.ix1 (((out3Slice L).view.emb x) 0)))) (((out3Slice L).view.emb x) 1))
  rw [e0, e1]

/-- The same with the payload as the copy reads it off the staging buffer held at contents `o`. -/
theorem copy_out_value (fo : Buf (Elt F) (out2 d)) (o : Buf (Elt F) ((thr d L).loc cc0_scratch3)) (ho : ∀ i, o i = want1 m d L i) :
    (((out3Slice L).view.loc (thr d L) ↦[(out3Slice L).view.set]{fullShare}
        (out3Slice L).view.writes (Elt F) fo [⟨Rect.whole S512x32, ReadAs.same.apply ((sOut).view.read (Elt F) o)⟩]) : sProp 𝕄)
      = out2 d ↦[outSet (wL L)]{fullShare} res2 m d :=
  copy_out_pay m d L fo _ (fun x => ho x)

end Tile

end Cert.Proof.KIS.T3.L4

end
-- ==== Proof.KI3Tab.lean ====
/-
  The first table on one tile: the group-number loop's invariant and its one trip, and the ranges that the range
  checks of the copies ask for (an index names a row of the table; its group number names an eight-row group).
-/
import proofs.«207337_g69080253988965_cont_9to1c4b_173_32_alg».proof.Proof.KILemmas
import proofs.«207337_g69080253988965_cont_9to1c4b_173_32_alg».proof.Proof.KI3Loop4
import Idealize.ShloMosaic.Lib.Pipeline.Value
import Idealize.ShloMosaic.Lib.ValueIdx
import proofs.«207337_g69080253988965_cont_9to1c4b_173_32_alg».proof.Proof.KI3Inv

noncomputable section

namespace Cert.Proof.KIS.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-- The group-number loop after `k` trips: the index scratch at the tile's indices, the group scratch holding the
    group numbers of its first `16 k` positions. -/
def inv1 (O : CellTallies nD τ sig (HIx 1)) (k : Nat) (_ : PUnit) : sProp 𝕄 :=
  iprop(Transfers.MayWaits (thr d L) (none : HIx 1) O
    ∗ ((sIdx).view.loc (thr d L) ↦{fullShare} IDX1 m d L)
    ∗ ∃ g : Buf (Elt F) ((thr d L).loc cc0_scratch1), ((sGidx).view.loc (thr d L) ↦{fullShare} g)
        ∗ ⌜∀ j : S256.Idx, (j 0).val < 16 * k →
            (g j : BitVec 32) = grp (IDX1v m d L (ValueIdx.ix1 ⟨(j 0).val, by have h : (j 0).val < 256 := (j 0).isLt; omega⟩))⌝)

/-- One trip of the group-number loop: the 16 positions it writes hold the group numbers of the indices it read. -/
theorem grp_step (k : Fin k0_t9_loop.trips) (g : Buf (Elt F) ((thr d L).loc cc0_scratch1))
    (hg : ∀ j : S256.Idx, (j 0).val < 16 * k.val →
      (g j : BitVec 32) = grp (IDX1v m d L (ValueIdx.ix1 ⟨(j 0).val, by have h : (j 0).val < 256 := (j 0).isLt; omega⟩)))
    (j : S256.Idx) (hj : (j 0).val < 16 * (k.val + 1)) :
    ((sGidx).view.writes (Elt F) g [⟨Rect.unit (s := S256) (k0_off507 k) S16.size (k0_off507_inb k),
        k0_pay559 (View.readAt (Elt F) (sIdx).view (Rect.unit (s := S512) (k0_off506 k) S16.size (k0_off506_inb k)).toLoadRect (IDX1 m d L))⟩] j : BitVec 32)
      = grp (IDX1v m d L (ValueIdx.ix1 ⟨(j 0).val, by have h : (j 0).val < 256 := (j 0).isLt; omega⟩)) := by
  have hj256 : (j 0).val < 256 := (j 0).isLt
  have hk : k.val < 16 := k.isLt
  by_cases hlt : (j 0).val < 16 * k.val
  · have e := View.read_writes_apply_of_forall_not_mem (Val := Elt F) (sGidx).view g j
      [⟨Rect.unit (s := S256) (k0_off507 k) S16.size (k0_off507_inb k),
        k0_pay559 (View.readAt (Elt F) (sIdx).view (Rect.unit (s := S512) (k0_off506 k) S16.size (k0_off506_inb k)).toLoadRect (IDX1 m d L))⟩] (by
        intro p hp
        rw [List.mem_singleton] at hp; subst hp
        rw [Rect.mem_set_unit]; intro h
        have h0 := h 0; rw [k0_off507_eq] at h0; simp at h0; omega)
    simp only [Memref.view_whole, View.read_whole] at e
    rw [e]; exact hg j hlt
  · have hx : (j 0).val - 16 * k.val < 16 := by omega
    have e := View.read_writes_cons_emb (Val := Elt F) (sGidx).view g (Rect.unit (s := S256) (k0_off507 k) S16.size (k0_off507_inb k))
      (k0_pay559 (View.readAt (Elt F) (sIdx).view (Rect.unit (s := S512) (k0_off506 k) S16.size (k0_off506_inb k)).toLoadRect (IDX1 m d L)))
      [] (ValueIdx.ix1 ⟨(j 0).val - 16 * k.val, hx⟩)
    have hemb : (Rect.unit (s := S256) (k0_off507 k) S16.size (k0_off507_inb k)).emb (ValueIdx.ix1 ⟨(j 0).val - 16 * k.val, hx⟩) = j := by
      have ho : k0_off507 k 0 = 16 * k.val := by rw [k0_off507_eq]; rfl
      funext a; apply Fin.ext
      rw [Rect.emb_apply, Subsingleton.elim a 0]
      show k0_off507 k 0 + 1 * ((j 0).val - 16 * k.val) = (j 0).val
      rw [ho]; omega
    rw [hemb] at e
    simp only [Memref.view_whole, View.read_whole] at e
    rw [e]
    unfold k0_pay559
    rw [shapeCast_self, shapeCast_self]
    show IntOp.shrui .vector (View.readAt (Elt F) (sIdx).view (Rect.unit (s := S512) (k0_off506 k) S16.size (k0_off506_inb k)).toLoadRect (IDX1 m d L)
      (ValueIdx.ix1 ⟨(j 0).val - 16 * k.val, hx⟩)) 3#32 = _
    rw [View.readAt_apply]
    simp only [Memref.view_whole, View.read_whole]
    unfold grp
    have ho2 : k0_off506 k 0 = 16 * k.val := by rw [k0_off506_eq]; rfl
    have hidx : (Rect.unit (s := S512) (k0_off506 k) S16.size (k0_off506_inb k)).toLoadRect.idx (ValueIdx.ix1 ⟨(j 0).val - 16 * k.val, hx⟩)
        = ValueIdx.ix1 ⟨(j 0).val, by omega⟩ := by
      funext a; apply Fin.ext
      rw [LoadRect.idx_apply, Subsingleton.elim a 0]
      show k0_off506 k 0 + 1 * ((j 0).val - 16 * k.val) = (j 0).val
      rw [ho2]; omega
    rw [hidx]

/-! ### Ranges -/

/-- Every index of the tile names a row of the first table. -/
theorem IDX1_range (hpre : PreOK m) (j : S512.Idx) : 0 ≤ (IDX1v m d L j).toInt ∧ (IDX1v m d L j).toInt ≤ 999999 :=
  (hpre d).2.2 _

/-- The group number of a row of a million-row table is below 125000. -/
theorem grp_lt (w : BitVec 32) (h0 : 0 ≤ w.toInt) (h1 : w.toInt ≤ 999999) : (grp w).toNat < 125000 := by
  have hw : w.toInt = (w.toNat : Int) := by
    rw [BitVec.toInt_eq_toNat_cond]; split
    · rfl
    · rename_i h; exfalso; rw [BitVec.toInt_eq_toNat_cond] at h0; simp only [h, if_false] at h0; omega
  have hn : w.toNat ≤ 999999 := by omega
  unfold grp IntOp.shrui
  simp only [show (3#32 : BitVec 32).toNat < 32 from by decide, if_true]
  rw [show (w >>> (3#32 : BitVec 32)) = w >>> 3 from rfl, BitVec.toNat_ushiftRight, Nat.shiftRight_eq_div_pow]
  omega

/-- A group index below 125000 passes the gathers' range checks. -/
theorem chkG (v : BitVec 32) (hv : v.toNat < 125000) : ∀ a, (![v.toNat, 0, 0] : Fin 3 → Nat) a + S1x8x32.size a ≤ S125000x8x32.size a := by
  intro a
  match a with
  | 0 => show v.toNat + 1 ≤ 125000; omega
  | 1 => show 0 + 8 ≤ 8; omega
  | 2 => show 0 + 32 ≤ 32; omega

/-- All 256 group numbers in hand, each names a group of the table. -/
theorem grp_all (hpre : PreOK m) (g : Buf (Elt F) ((thr d L).loc cc0_scratch1))
    (hg : ∀ j : S256.Idx, (j 0).val < 16 * 16 →
      (g j : BitVec 32) = grp (IDX1v m d L (ValueIdx.ix1 ⟨(j 0).val, by have h : (j 0).val < 256 := (j 0).isLt; omega⟩)))
    (j : S256.Idx) : ((g j : BitVec 32)).toNat < 125000 := by
  rw [hg j (by have h : (j 0).val < 256 := (j 0).isLt; omega)]
  exact grp_lt _ (IDX1_range m d L hpre _).1 (IDX1_range m d L hpre _).2

/-- The copy-out's landing, whatever name its payload carries: the tile's rows of the result hold the lookup. -/
theorem copy_out_ent (fo : Buf (Elt F) (out2 d)) (p : S512x32.Idx → Elt F .f32) :
    iprop((((L4.out3Slice L).view.loc (thr d L) ↦[(L4.out3Slice L).view.set]{fullShare}
        (L4.out3Slice L).view.writes (Elt F) fo [⟨Rect.whole S512x32, p⟩]) : sProp 𝕄) ∗ ⌜∀ x, p x = want1 m d L x⌝)
      ⊢ (out2 d ↦[outSet (wL L)]{fullShare} res2 m d : sProp 𝕄) := by
  iintro ⟨H, %hp⟩
  iapply (Entails.of_eq (L4.copy_out_pay m d L fo p hp)); iexact H

end Tile

end Cert.Proof.KIS.T3

end
-- ==== Proof.KI3Loop2.lean ====
/-
  The loop that starts the direct copies of the first table: sixteen trips, each reading sixteen indices of the second
  half of the tile's piece and starting, for each, one copy of the named row of the table into the matching row of
  the staging buffer, all on one transfer semaphore; nothing is waited for here.

  The 256 copies are one recorded batch on that semaphore. Each issue is made with the batch's issue rule: a
  read share of the whole table is cut in two, one half lending the row; the staging row is carved out of what is held
  of the staging buffer, whose other elements keep their contents; the recorded delivery is the staging row with the
  table's row written into it. Because the index is in range (the precondition) the row read is the row the index
  names, so every delivery is what the staging buffer must hold there in the end.
-/
import proofs.«207337_g69080253988965_cont_9to1c4b_173_32_alg».proof.Proof.KILemmas
import proofs.«207337_g69080253988965_cont_9to1c4b_173_32_alg».proof.Proof.KI3Inv

noncomputable section

namespace Cert.Proof.KIS.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-! ## What is still held of the staging buffer -/

/-- The staging buffer's rows below 256 and its rows from 256 + n on: what is still held of it once the first n direct
    copies have taken their rows. -/
def restRows (n : ℕ) : Finset S512x32.Idx := Finset.univ.filter fun i => (i 0).val < 256 ∨ 256 + n ≤ (i 0).val

omit [FloatOps F] in
theorem restRows_zero : restRows 0 = Finset.univ := by
  ext i; simp only [restRows, Finset.mem_filter, Finset.mem_univ, true_and, iff_true]; omega
omit [FloatOps F] in
theorem restRows_all : restRows 256 = orowsBelow 256 := by
  ext i
  have h : (i 0).val < 512 := (i 0).isLt
  simp only [restRows, orowsBelow, Finset.mem_filter, Finset.mem_univ, true_and]; omega
omit [FloatOps F] in
theorem orow_sub_rest (n : ℕ) : orow (256 + n) ⊆ restRows n := by
  intro i hi
  simp only [orow, restRows, Finset.mem_filter, Finset.mem_univ, true_and] at hi ⊢; omega
omit [FloatOps F] in
theorem rest_succ_sub (n : ℕ) : restRows (n + 1) ⊆ restRows n \ orow (256 + n) := by
  intro i hi
  simp only [orow, restRows, Finset.mem_sdiff, Finset.mem_filter, Finset.mem_univ, true_and] at hi ⊢; omega

/-! ## The recorded deliveries, tracked -/

/-- The first n direct copies have been started and each recorded delivery is good. -/
def Tracked (n : ℕ) (Ds : List (sProp 𝕄)) : Prop := Ds.length = n ∧ ∀ t, t < n → (Ds.getD t iprop(emp) ⊢ Good1 m d L t)

theorem Tracked.nil : Tracked m d L 0 ([] : List (sProp 𝕄)) := ⟨rfl, fun _ h => absurd h (Nat.not_lt_zero _)⟩

theorem Tracked.snoc {n : ℕ} {Ds : List (sProp 𝕄)} (h : Tracked m d L n Ds) (D : sProp 𝕄) (hD : D ⊢ Good1 m d L n) :
    Tracked m d L (n + 1) (Ds ++ [D]) := by
  obtain ⟨rfl, hg⟩ := h
  refine ⟨by rw [List.length_append, List.length_singleton], fun t ht => ?_⟩
  rcases Nat.lt_succ_iff_lt_or_eq.mp ht with h1 | rfl
  · have e : (Ds ++ [D]).getD t iprop(emp) = Ds.getD t iprop(emp) := by
      simp only [List.getD_eq_getElem?_getD, List.getElem?_append_left h1]
    rw [e]; exact hg t h1
  · have e : (Ds ++ [D]).getD Ds.length iprop(emp) = D := by
      simp [List.getD_eq_getElem?_getD]
    rw [e]; exact hD

/-! ## The indices are in range -/

/-- Every index the tile holds names a row of the table (the precondition, at the tile's piece). -/
theorem idx_range (hpre : PreOK m) (j : S512.Idx) : 0 ≤ (IDX1v m d L j).toInt ∧ (IDX1v m d L j).toInt ≤ 999999 :=
  (hpre d).2.2 ((ids3Slice L).view.emb j)

omit [FloatOps F] in
/-- A word in range passes the body's check on the row it names. -/
theorem chk_of_range (w : BitVec 32) (h : 0 ≤ w.toInt ∧ w.toInt ≤ 999999) :
    ∀ a, (![w.toNat, 0] : Fin 2 → ℕ) a + S1x32.size a ≤ S1000000x32.size a := by
  have hw : w.toNat ≤ 999999 := by
    have : w.toInt = (w.toNat : Int) := by
      rw [BitVec.toInt_eq_toNat_cond]; split
      · rfl
      · rename_i hh; exfalso; have h0 := h.1; rw [BitVec.toInt_eq_toNat_cond] at h0; simp only [hh, if_false] at h0; omega
    omega
  intro a
  match a with
  | 0 => show w.toNat + 1 ≤ 1000000; omega
  | 1 => show 0 + 32 ≤ 32; omega

/-! ## One row of the table, one row of the staging buffer -/

/-- Row (offS 0) of the table and row (offD 0) of the staging buffer, as the body slices and squeezes them. -/
abbrev srcRow (offS : Fin 2 → ℕ) (hS : ∀ a, offS a + S1x32.size a ≤ S1000000x32.size a) : Memref sig .scVector .hbm S32 .f32 :=
  ((t2W).slice (Rect.unit (s := S1000000x32) offS S1x32.size hS) (fun _ => rfl)).squeeze S32 squeezes_S1x32_S32
abbrev dstRow (offD : Fin 2 → ℕ) (hD : ∀ a, offD a + S1x32.size a ≤ S512x32.size a) : Memref sig .scVector .vmem S32 .f32 :=
  ((sOut).slice (Rect.unit (s := S512x32) offD S1x32.size hD) (fun _ => rfl)).squeeze S32 squeezes_S1x32_S32

/-- What one direct copy delivers: the staging row with the table's row written into it, and the lent row of the table. -/
def deliv1 (offS : Fin 2 → ℕ) (hS : ∀ a, offS a + S1x32.size a ≤ S1000000x32.size a) (offD : Fin 2 → ℕ) (hD : ∀ a, offD a + S1x32.size a ≤ S512x32.size a)
    (q : PosShare TreeShare) (o : Buf (Elt F) ((thr d L).loc cc0_scratch3)) : sProp 𝕄 :=
  iprop(((dstRow offD hD).view.loc (thr d L) ↦[(dstRow offD hD).view.set]{fullShare}
        ((dstRow offD hD).view.write (Elt F) o (ReadAs.same.apply ((srcRow offS hS).view.read (Elt F) (m ((SparseCore.T d).loc main_arg2)))) Finset.univ))
    ∗ ((srcRow offS hS).view.loc (thr d L) ↦[(srcRow offS hS).view.set]{q} m ((SparseCore.T d).loc main_arg2)))

/-- The delivery of the copy of the row that index 256 + n names into staging row 256 + n is good: the index is in range,
    so the row read is the row it names. -/
theorem deliv_good (hpre : PreOK m) {offS : Fin 2 → ℕ} {hS : ∀ a, offS a + S1x32.size a ≤ S1000000x32.size a}
    {offD : Fin 2 → ℕ} {hD : ∀ a, offD a + S1x32.size a ≤ S512x32.size a}
    (q : PosShare TreeShare) (o : Buf (Elt F) ((thr d L).loc cc0_scratch3)) (n : ℕ)
    (hoffD : offD = ![256 + n, 0]) (j : S512.Idx) (hj : (j 0).val = 256 + n) (hoffS : offS = ![(IDX1v m d L j).toNat, 0]) :
    deliv1 m d L offS hS offD hD q o ⊢ Good1 m d L n := by
  subst hoffD hoffS
  unfold deliv1 Good1
  iintro ⟨Hd, -⟩
  iexists _
  isplitl [Hd]
  · rw [← set_outRow _ hD (256 + n) rfl rfl]
    iexact Hd
  · ipureintro
    intro i hi
    rw [← set_outRow _ hD (256 + n) rfl rfl] at hi
    obtain ⟨x, -, rfl⟩ := Finset.mem_map.mp hi
    rw [View.write_emb_of_mem _ _ (Finset.mem_univ x)]
    have hr := idx_range m d L hpre j
    unfold want1
    show m (tab2 d) ((srcRow _ hS).view.emb x)
      = m (tab2 d) (ValueIdx.ix2 (Cert.Spec.rowL (IDX1v m d L (ValueIdx.ix1 (((dstRow _ hD).view.emb x) 0)))) (((dstRow _ hD).view.emb x) 1))
    have ext2 : ∀ (u v : S1000000x32.Idx), (u 0).val = (v 0).val → (u 1).val = (v 1).val → u = v :=
      fun u v h0 h1 => funext fun a => Fin.ext (by match a with | 0 => exact h0 | 1 => exact h1)
    have hy : ((Shape.reshapeEquiv (s := ⟨2, S1x32.size⟩) (s' := S32) rfl x) 0).val < 1 := Fin.isLt _
    have ed0 : (((dstRow _ hD).view.emb x) 0).val = (256 + n) + 1 * ((Shape.reshapeEquiv (s := ⟨2, S1x32.size⟩) (s' := S32) rfl x) 0).val := rfl
    have es0 : (((srcRow _ hS).view.emb x) 0).val = (IDX1v m d L j).toNat + 1 * ((Shape.reshapeEquiv (s := ⟨2, S1x32.size⟩) (s' := S32) rfl x) 0).val := rfl
    have ed1 : (((dstRow _ hD).view.emb x) 1).val = 0 + 1 * ((Shape.reshapeEquiv (s := ⟨2, S1x32.size⟩) (s' := S32) rfl x) 1).val := rfl
    have es1 : (((srcRow _ hS).view.emb x) 1).val = 0 + 1 * ((Shape.reshapeEquiv (s := ⟨2, S1x32.size⟩) (s' := S32) rfl x) 1).val := rfl
    have hj' : (ValueIdx.ix1 (((dstRow _ hD).view.emb x) 0) : S512.Idx) = j := funext fun a => Fin.ext (by
      match a with
      | 0 => show (((dstRow _ hD).view.emb x) 0).val = (j 0).val; omega)
    rw [hj']
    congr 1
    refine ext2 _ _ ?_ ?_
    · show (((srcRow _ hS).view.emb x) 0).val = (Cert.Spec.rowL (IDX1v m d L j)).val
      rw [Cert.Spec.rowL_val _ hr.1 hr.2]; omega
    · show (((srcRow _ hS).view.emb x) 1).val = (((dstRow _ hD).view.emb x) 1).val
      omega

/-! ## One issue -/

/-- One direct copy, started on the recorded batch, number n of the 256: from a read share of the whole table
    (half of which is kept), what is still held of the staging buffer (row 256 + n leaves it) and the batch with n good
    deliveries, to the batch with n + 1. -/
theorem issueGood (hpre : PreOK m) {α : Type} {offS : Fin 2 → ℕ} {hS : ∀ a, offS a + S1x32.size a ≤ S1000000x32.size a}
    {offD : Fin 2 → ℕ} {hD : ∀ a, offD a + S1x32.size a ≤ S512x32.size a} {hsrc : _} {hdst : _} {hsem : _}
    {k : PUnit → Prog (TpuEff nD τ sig (Elt F) Λ₀ (thr d L).2) α} {Q : α → sProp 𝕄}
    {q : PosShare TreeShare} {n : ℕ} {o : Buf (Elt F) ((thr d L).loc cc0_scratch3)} :
    iprop(((t2W).view.loc (thr d L) ↦{q} m (tab2 d))
        ∗ ((sOut).view.loc (thr d L) ↦[restRows n]{fullShare} o)
        ∗ (∃ Ds : List (sProp 𝕄), Transfers.Batched (countersEmb (U := UU)) (thr d L) (SemLoc.dma cc0_scratch6.sem) (default : HIx 1) 1024 256 Ds 0
            ∗ ⌜Tracked m d L n Ds⌝)
        ∗ ⌜n < 256 ∧ offD = ![256 + n, 0] ∧ ∃ j : S512.Idx, (j 0).val = 256 + n ∧ offS = ![(IDX1v m d L j).toNat, 0]⌝
        ∗ ((((t2W).view.loc (thr d L) ↦{q.left} m (tab2 d))
            ∗ ((sOut).view.loc (thr d L) ↦[restRows (n + 1)]{fullShare} o)
            ∗ (∃ Ds : List (sProp 𝕄), Transfers.Batched (countersEmb (U := UU)) (thr d L) (SemLoc.dma cc0_scratch6.sem) (default : HIx 1) 1024 256 Ds 0
                ∗ ⌜Tracked m d L (n + 1) Ds⌝))
          -∗ wp frame (wpE (defs₀ (F := F)) 𝒱₀ (thr d L) none) Set.univ (k ⟨⟩) Q))
      ⊢ wp frame (wpE (defs₀ (F := F)) 𝒱₀ (thr d L) none) Set.univ
          (Prog.op (TpuEff.enqueueDma (srcRow offS hS) (DmaTarget.here (dstRow offD hD)) (SemLoc.dma cc0_scratch6.sem) hsrc hdst hsem) k) Q := by
  iintro ⟨Ht, Ho, ⟨%Ds, HB, %hT⟩, %hf, Hk⟩
  obtain ⟨hn, hoffD, j, hj, hoffS⟩ := hf
  have hrow : (dstRow offD hD).view.set = orow (256 + n) := set_outRow offD hD (256 + n) (by rw [hoffD]; rfl) (by rw [hoffD]; rfl)
  -- the share in two: the left half stays, the right half lends the row
  ihave Hc := (tok_cut q (m (tab2 d))) $$ Ht
  icases Hc with ⟨Hl, Hr⟩
  ihave Hts := ((pointsTo_split_subset (I := (srcRow offS hS).view.set) (Finset.subset_univ _)).1) $$ Hr
  icases Hts with ⟨Hsrc, -⟩
  -- the staging row out of what is held; the rest is kept, a little less of it
  ihave Hos := ((pointsTo_split_subset (show (dstRow offD hD).view.set ⊆ restRows n from hrow ▸ orow_sub_rest n)).1) $$ Ho
  icases Hos with ⟨Hdst, Hrest⟩
  ihave Hrest' := ((pointsTo_split_subset (show restRows (n + 1) ⊆ restRows n \ (dstRow offD hD).view.set from hrow ▸ rest_succ_sub n)).1) $$ Hrest
  icases Hrest' with ⟨Hrest, -⟩
  iapply (Transfers.wp_dmaBatched (EC := countersEmb (U := UU)) 𝒱₀ (thr d L) none (default : HIx 1) 1024 rfl (Finset.Subset.refl _)
      (show Ds.length < 256 by rw [hT.1]; exact hn) (Nat.zero_le _)) $$ [Hsrc Hdst HB]
  · isplitl [Hsrc]; · iexact Hsrc
    isplitl [Hdst]; · iexact Hdst
    iexact HB
  iintro HB'
  iapply Hk
  isplitl [Hl]; · iexact Hl
  isplitl [Hrest]; · iexact Hrest
  iexists _
  isplitl [HB']; · iexact HB'
  ipureintro
  exact hT.snoc m d L _ (deliv_good m d L hpre (q.right) o n hoffD j hj hoffS)

/-! ## The loop -/

omit [FloatOps F] in
theorem vec2_congr {a b : ℕ} (h : a = b) : (![a, 0] : Fin 2 → ℕ) = ![b, 0] := by rw [h]

/-- Before trip k: the index scratch at the tile's indices, a read share of the table, what is still held of the staging
    buffer (rows 256 .. 256 + 16 k have left), and the batch with 16 k good deliveries. -/
def inv2 (k : ℕ) (_ : Unit) : sProp 𝕄 :=
  iprop(((sIdx).view.loc (thr d L) ↦{fullShare} IDX1 m d L)
    ∗ (∃ q' : PosShare TreeShare, (t2W).view.loc (thr d L) ↦{q'} m (tab2 d))
    ∗ (∃ o : Buf (Elt F) ((thr d L).loc cc0_scratch3), (sOut).view.loc (thr d L) ↦[restRows (16 * k)]{fullShare} o)
    ∗ (∃ Ds : List (sProp 𝕄), Transfers.Batched (countersEmb (U := UU)) (thr d L) (SemLoc.dma cc0_scratch6.sem) (default : HIx 1) 1024 256 Ds 0
        ∗ ⌜Tracked m d L (16 * k) Ds⌝))

variable {xv0 : BitVec 32}

/-- One trip: sixteen indices read, sixteen copies started. -/
theorem trip2 (hpre : PreOK m) (k : Fin k0_t10_loop.trips) (acc : Unit) :
    inv2 m d L k.val acc ⊢ wp frame (wpE (defs₀ (F := F)) 𝒱₀ (thr d L) none) Set.univ
      (k0_t10_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0 k acc) (inv2 m d L (k.val + 1)) := by
  have hk : k.val < 16 := k.isLt
  unfold inv2 k0_t10_body
  iintro ⟨HsI, ⟨%q, Ht⟩, ⟨%o, HsO⟩, HB⟩
  sl_exec (disch := exact chk_of_range _ (idx_range m d L hpre _))
  -- copy 0 of the trip: row 256 + 16 k + 0
  iapply (issueGood m d L hpre)
  isplitl [Ht]; · iexact Ht
  isplitl [HsO]; · iexact HsO
  isplitl [HB]; · iexact HB
  isplitr
  · ipureintro
    refine ⟨by omega, (k0_off511_eq k ⟨0, by decide⟩).trans (vec2_congr (by show 16 * k.val + 0 + 256 = _; omega)), _, ?_, rfl⟩
    rw [Shape.reshapeEquiv_self]
    show (k0_off508 k) 0 + 1 * (0 + 0) = _
    rw [k0_off508_eq k]
    show 16 * k.val + 256 + 1 * (0 + 0) = _
    omega
  iintro ⟨Ht, HsO, HB⟩
  sl_exec (disch := exact chk_of_range _ (idx_range m d L hpre _))
  -- copy 1 of the trip: row 256 + 16 k + 1
  iapply (issueGood m d L hpre)
  isplitl [Ht]; · iexact Ht
  isplitl [HsO]; · iexact HsO
  isplitl [HB]; · iexact HB
  isplitr
  · ipureintro
    refine ⟨by omega, (k0_off513_eq k ⟨0, by decide⟩).trans (vec2_congr (by show 16 * k.val + 0 + 257 = _; omega)), _, ?_, rfl⟩
    rw [Shape.reshapeEquiv_self]
    show (k0_off508 k) 0 + 1 * (1 + 0) = _
    rw [k0_off508_eq k]
    show 16 * k.val + 256 + 1 * (1 + 0) = _
    omega
  iintro ⟨Ht, HsO, HB⟩
  sl_exec (disch := exact chk_of_range _ (idx_range m d L hpre _))
  -- copy 2 of the trip: row 256 + 16 k + 2
  iapply (issueGood m d L hpre)
  isplitl [Ht]; · iexact Ht
  isplitl [HsO]; · iexact HsO
  isplitl [HB]; · iexact HB
  isplitr
  · ipureintro
    refine ⟨by omega, (k0_off515_eq k ⟨0, by decide⟩).trans (vec2_congr (by show 16 * k.val + 0 + 258 = _; omega)), _, ?_, rfl⟩
    rw [Shape.reshapeEquiv_self]
    show (k0_off508 k) 0 + 1 * (2 + 0) = _
    rw [k0_off508_eq k]
    show 16 * k.val + 256 + 1 * (2 + 0) = _
    omega
  iintro ⟨Ht, HsO, HB⟩
  sl_exec (disch := exact chk_of_range _ (idx_range m d L hpre _))
  -- copy 3 of the trip: row 256 + 16 k + 3
  iapply (issueGood m d L hpre)
  isplitl [Ht]; · iexact Ht
  isplitl [HsO]; · iexact HsO
  isplitl [HB]; · iexact HB
  isplitr
  · ipureintro
    refine ⟨by omega, (k0_off517_eq k ⟨0, by decide⟩).trans (vec2_congr (by show 16 * k.val + 0 + 259 = _; omega)), _, ?_, rfl⟩
    rw [Shape.reshapeEquiv_self]
    show (k0_off508 k) 0 + 1 * (3 + 0) = _
    rw [k0_off508_eq k]
    show 16 * k.val + 256 + 1 * (3 + 0) = _
    omega
  iintro ⟨Ht, HsO, HB⟩
  sl_exec (disch := exact chk_of_range _ (idx_range m d L hpre _))
  -- copy 4 of the trip: row 256 + 16 k + 4
  iapply (issueGood m d L hpre)
  isplitl [Ht]; · iexact Ht
  isplitl [HsO]; · iexact HsO
  isplitl [HB]; · iexact HB
  isplitr
  · ipureintro
    refine ⟨by omega, (k0_off519_eq k ⟨0, by decide⟩).trans (vec2_congr (by show 16 * k.val + 0 + 260 = _; omega)), _, ?_, rfl⟩
    rw [Shape.reshapeEquiv_self]
    show (k0_off508 k) 0 + 1 * (4 + 0) = _
    rw [k0_off508_eq k]
    show 16 * k.val + 256 + 1 * (4 + 0) = _
    omega
  iintro ⟨Ht, HsO, HB⟩
  sl_exec (disch := exact chk_of_range _ (idx_range m d L hpre _))
  -- copy 5 of the trip: row 256 + 16 k + 5
  iapply (issueGood m d L hpre)
  isplitl [Ht]; · iexact Ht
  isplitl [HsO]; · iexact HsO
  isplitl [HB]; · iexact HB
  isplitr
  · ipureintro
    refine ⟨by omega, (k0_off521_eq k ⟨0, by decide⟩).trans (vec2_congr (by show 16 * k.val + 0 + 261 = _; omega)), _, ?_, rfl⟩
    rw [Shape.reshapeEquiv_self]
    show (k0_off508 k) 0 + 1 * (5 + 0) = _
    rw [k0_off508_eq k]
    show 16 * k.val + 256 + 1 * (5 + 0) = _
    omega
  iintro ⟨Ht, HsO, HB⟩
  sl_exec (disch := exact chk_of_range _ (idx_range m d L hpre _))
  -- copy 6 of the trip: row 256 + 16 k + 6
  iapply (issueGood m d L hpre)
  isplitl [Ht]; · iexact Ht
  isplitl [HsO]; · iexact HsO
  isplitl [HB]; · iexact HB
  isplitr
  · ipureintro
    refine ⟨by omega, (k0_off523_eq k ⟨0, by decide⟩).trans (vec2_congr (by show 16 * k.val + 0 + 262 = _; omega)), _, ?_, rfl⟩
    rw [Shape.reshapeEquiv_self]
    show (k0_off508 k) 0 + 1 * (6 + 0) = _
    rw [k0_off508_eq k]
    show 16 * k.val + 256 + 1 * (6 + 0) = _
    omega
  iintro ⟨Ht, HsO, HB⟩
  sl_exec (disch := exact chk_of_range _ (idx_range m d L hpre _))
  -- copy 7 of the trip: row 256 + 16 k + 7
  iapply (issueGood m d L hpre)
  isplitl [Ht]; · iexact Ht
  isplitl [HsO]; · iexact HsO
  isplitl [HB]; · iexact HB
  isplitr
  · ipureintro
    refine ⟨by omega, (k0_off525_eq k ⟨0, by decide⟩).trans (vec2_congr (by show 16 * k.val + 0 + 263 = _; omega)), _, ?_, rfl⟩
    rw [Shape.reshapeEquiv_self]
    show (k0_off508 k) 0 + 1 * (7 + 0) = _
    rw [k0_off508_eq k]
    show 16 * k.val + 256 + 1 * (7 + 0) = _
    omega
  iintro ⟨Ht, HsO, HB⟩
  sl_exec (disch := exact chk_of_range _ (idx_range m d L hpre _))
  -- copy 8 of the trip: row 256 + 16 k + 8
  iapply (issueGood m d L hpre)
  isplitl [Ht]; · iexact Ht
  isplitl [HsO]; · iexact HsO
  isplitl [HB]; · iexact HB
  isplitr
  · ipureintro
    refine ⟨by omega, (k0_off527_eq k ⟨0, by decide⟩).trans (vec2_congr (by show 16 * k.val + 0 + 264 = _; omega)), _, ?_, rfl⟩
    rw [Shape.reshapeEquiv_self]
    show (k0_off508 k) 0 + 1 * (8 + 0) = _
    rw [k0_off508_eq k]
    show 16 * k.val + 256 + 1 * (8 + 0) = _
    omega
  iintro ⟨Ht, HsO, HB⟩
  sl_exec (disch := exact chk_of_range _ (idx_range m d L hpre _))
  -- copy 9 of the trip: row 256 + 16 k + 9
  iapply (issueGood m d L hpre)
  isplitl [Ht]; · iexact Ht
  isplitl [HsO]; · iexact HsO
  isplitl [HB]; · iexact HB
  isplitr
  · ipureintro
    refine ⟨by omega, (k0_off529_eq k ⟨0, by decide⟩).trans (vec2_congr (by show 16 * k.val + 0 + 265 = _; omega)), _, ?_, rfl⟩
    rw [Shape.reshapeEquiv_self]
    show (k0_off508 k) 0 + 1 * (9 + 0) = _
    rw [k0_off508_eq k]
    show 16 * k.val + 256 + 1 * (9 + 0) = _
    omega
  iintro ⟨Ht, HsO, HB⟩
  sl_exec (disch := exact chk_of_range _ (idx_range m d L hpre _))
  -- copy 10 of the trip: row 256 + 16 k + 10
  iapply (issueGood m d L hpre)
  isplitl [Ht]; · iexact Ht
  isplitl [HsO]; · iexact HsO
  isplitl [HB]; · iexact HB
  isplitr
  · ipureintro
    refine ⟨by omega, (k0_off531_eq k ⟨0, by decide⟩).trans (vec2_congr (by show 16 * k.val + 0 + 266 = _; omega)), _, ?_, rfl⟩
    rw [Shape.reshapeEquiv_self]
    show (k0_off508 k) 0 + 1 * (10 + 0) = _
    rw [k0_off508_eq k]
    show 16 * k.val + 256 + 1 * (10 + 0) = _
    omega
  iintro ⟨Ht, HsO, HB⟩
  sl_exec (disch := exact chk_of_range _ (idx_range m d L hpre _))
  -- copy 11 of the trip: row 256 + 16 k + 11
  iapply (issueGood m d L hpre)
  isplitl [Ht]; · iexact Ht
  isplitl [HsO]; · iexact HsO
  isplitl [HB]; · iexact HB
  isplitr
  · ipureintro
    refine ⟨by omega, (k0_off533_eq k ⟨0, by decide⟩).trans (vec2_congr (by show 16 * k.val + 0 + 267 = _; omega)), _, ?_, rfl⟩
    rw [Shape.reshapeEquiv_self]
    show (k0_off508 k) 0 + 1 * (11 + 0) = _
    rw [k0_off508_eq k]
    show 16 * k.val + 256 + 1 * (11 + 0) = _
    omega
  iintro ⟨Ht, HsO, HB⟩
  sl_exec (disch := exact chk_of_range _ (idx_range m d L hpre _))
  -- copy 12 of the trip: row 256 + 16 k + 12
  iapply (issueGood m d L hpre)
  isplitl [Ht]; · iexact Ht
  isplitl [HsO]; · iexact HsO
  isplitl [HB]; · iexact HB
  isplitr
  · ipureintro
    refine ⟨by omega, (k0_off535_eq k ⟨0, by decide⟩).trans (vec2_congr (by show 16 * k.val + 0 + 268 = _; omega)), _, ?_, rfl⟩
    rw [Shape.reshapeEquiv_self]
    show (k0_off508 k) 0 + 1 * (12 + 0) = _
    rw [k0_off508_eq k]
    show 16 * k.val + 256 + 1 * (12 + 0) = _
    omega
  iintro ⟨Ht, HsO, HB⟩
  sl_exec (disch := exact chk_of_range _ (idx_range m d L hpre _))
  -- copy 13 of the trip: row 256 + 16 k + 13
  iapply (issueGood m d L hpre)
  isplitl [Ht]; · iexact Ht
  isplitl [HsO]; · iexact HsO
  isplitl [HB]; · iexact HB
  isplitr
  · ipureintro
    refine ⟨by omega, (k0_off537_eq k ⟨0, by decide⟩).trans (vec2_congr (by show 16 * k.val + 0 + 269 = _; omega)), _, ?_, rfl⟩
    rw [Shape.reshapeEquiv_self]
    show (k0_off508 k) 0 + 1 * (13 + 0) = _
    rw [k0_off508_eq k]
    show 16 * k.val + 256 + 1 * (13 + 0) = _
    omega
  iintro ⟨Ht, HsO, HB⟩
  sl_exec (disch := exact chk_of_range _ (idx_range m d L hpre _))
  -- copy 14 of the trip: row 256 + 16 k + 14
  iapply (issueGood m d L hpre)
  isplitl [Ht]; · iexact Ht
  isplitl [HsO]; · iexact HsO
  isplitl [HB]; · iexact HB
  isplitr
  · ipureintro
    refine ⟨by omega, (k0_off539_eq k ⟨0, by decide⟩).trans (vec2_congr (by show 16 * k.val + 0 + 270 = _; omega)), _, ?_, rfl⟩
    rw [Shape.reshapeEquiv_self]
    show (k0_off508 k) 0 + 1 * (14 + 0) = _
    rw [k0_off508_eq k]
    show 16 * k.val + 256 + 1 * (14 + 0) = _
    omega
  iintro ⟨Ht, HsO, HB⟩
  sl_exec (disch := exact chk_of_range _ (idx_range m d L hpre _))
  -- copy 15 of the trip: row 256 + 16 k + 15
  iapply (issueGood m d L hpre)
  isplitl [Ht]; · iexact Ht
  isplitl [HsO]; · iexact HsO
  isplitl [HB]; · iexact HB
  isplitr
  · ipureintro
    refine ⟨by omega, (k0_off541_eq k).trans (vec2_congr (by omega)), _, ?_, rfl⟩
    rw [Shape.reshapeEquiv_self]
    show (k0_off508 k) 0 + 1 * (15 + 0) = _
    rw [k0_off508_eq k]
    show 16 * k.val + 256 + 1 * (15 + 0) = _
    omega
  iintro ⟨Ht, HsO, HB⟩
  sl_exec (disch := exact chk_of_range _ (idx_range m d L hpre _))
  sl_step
  rw [show 16 * (k.val + 1) = 16 * k.val + 1 + 1 + 1 + 1 + 1 + 1 + 1 + 1 + 1 + 1 + 1 + 1 + 1 + 1 + 1 + 1 from by omega]
  isplitl [HsI]; · iexact HsI
  isplitl [Ht]; · iexists _; iexact Ht
  isplitl [HsO]; · iexists _; iexact HsO
  iexact HB

/-- The loop: from the index scratch filled, a read share of the table, the staging buffer whole and the third
    transfer semaphore at zero, to the 256 direct copies started: the batch with its 256 good deliveries, nothing
    waited for; the staging buffer's rows below 256 still held, a read share of the table kept. -/
theorem loop2 (hpre : PreOK m) (O : CellTallies nD τ sig (HIx 1)) (W : Waits sig (HIx 1)) (q : PosShare TreeShare)
    (fO : Buf (Elt F) ((thr d L).loc cc0_scratch3)) (Q : Unit → sProp 𝕄) :
    iprop(((sIdx).view.loc (thr d L) ↦{fullShare} IDX1 m d L) ∗ ((t2W).view.loc (thr d L) ↦{q} m (tab2 d))
        ∗ ((sOut).view.loc (thr d L) ↦{fullShare} fO) ∗ semVal (thr d L, SemLoc.dma cc0_scratch6.sem) 0
        ∗ ((((sIdx).view.loc (thr d L) ↦{fullShare} IDX1 m d L) ∗ (∃ q' : PosShare TreeShare, (t2W).view.loc (thr d L) ↦{q'} m (tab2 d))
            ∗ (∃ o : Buf (Elt F) ((thr d L).loc cc0_scratch3), (sOut).view.loc (thr d L) ↦[orowsBelow 256]{fullShare} o) ∗ DS1 m d L 0) -∗ Q ⟨⟩))
      ⊢ wp frame (wpE (defs₀ (F := F)) 𝒱₀ (thr d L) none) Set.univ
          (Scf.Loop.for k0_t10_loop k0_t10_ok ⟨⟩ (k0_t10_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2 xv0)) Q := by
  iintro ⟨HsI, Ht, HsO, Hsem, HQ⟩
  -- the recorded batch of the 256 copies, nothing issued
  imod (Transfers.batched_alloc (countersEmb (U := UU)) (thr d L) (default : HIx 1) 1024 256 (sm := SemLoc.dma cc0_scratch6.sem) (E := Set.univ)) $$ Hsem with HB
  sl_for (inv2 m d L) $$ [HsI Ht HsO HB HQ]
  · intro k acc; exact trip2 m d L hpre k acc
  isplitl [HsI Ht HsO HB]
  · unfold inv2
    rw [Nat.mul_zero, restRows_zero]
    isplitl [HsI]; · iexact HsI
    isplitl [Ht]; · iexists _; iexact Ht
    isplitl [HsO]; · iexists fO; iexact HsO
    iexists []
    isplitl [HB]; · iexact HB
    ipureintro; exact Tracked.nil m d L
  iintro %acc HL
  unfold inv2
  rw [show 16 * Scf.trips k0_t10_loop.lb k0_t10_loop.ub k0_t10_loop.st = 256 from (by first | rfl | decide), restRows_all]
  icases HL with ⟨HsI, Ht, HsO, ⟨%Ds, HB, %hT⟩⟩
  iapply HQ
  isplitl [HsI]; · iexact HsI
  isplitl [Ht]; · iexact Ht
  isplitl [HsO]; · iexact HsO
  unfold DS1
  iexists Ds
  isplitl [HB]; · iexact HB
  isplitr
  · ipureintro; exact hT.1
  · ipureintro; exact hT.2

end Tile

end Cert.Proof.KIS.T3

end
-- ==== Proof.KI3Loop3Val.lean ====
/-
  Values of the pair loop's extract step on one tile: pure facts, no program.

  An index w that lies in the table (0 ≤ w ≤ 999999 as a signed word) names row w; the kernel fetches the group of
  eight rows that holds it, group w >>> 3 of the table regrouped as [125000, 8, 32], into a window (slot p, place j)
  of a two-slot buffer, and then picks row "w rem 8" of that window. Since 8 * (w >>> 3) + (w rem 8) = w, the
  picked row is the table's row w. The regrouping and the squeezes of one-element axes are row-major
  re-indexings: element (g, s, c) of the regrouped table is element (8 g + s, c) of the table; position (s, c)
  of the window (p, j) is element (p, j, s, c) of the buffer.
-/
import proofs.«207337_g69080253988965_cont_9to1c4b_173_32_alg».proof.Proof.KILemmas
import proofs.«207337_g69080253988965_cont_9to1c4b_173_32_alg».proof.Proof.KI3Inv

noncomputable section

namespace Cert.Proof.KIS.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- The index at staging row `r` (rows wrap at 512 only to make the position total). -/
def idxAt (r : Nat) : BitVec 32 := IDX1v m d L (ValueIdx.ix1 ⟨r % 512, Nat.mod_lt _ (by decide)⟩)

omit [FloatOps F] in
/-- Row `s` of group `g` of the table (clamped only to make it a row for every pair). -/
def grow (g s : Nat) : Fin 1000000 := ⟨min (8 * g + s) 999999, by omega⟩

omit [FloatOps F] in
/-- The window of slot `p`, place `j` of the two-slot group buffer. -/
def winSet (p j : Nat) : Finset S2x16x8x32.Idx := Finset.univ.filter fun i => (i 0).val = p ∧ (i 1).val = j

omit [FloatOps F] in
/-- The place of a word's row within its group of eight, as the body computes it: the signed remainder by 8. -/
def slot (w : BitVec 32) : Nat := (Scalar.indexCast (Scalar.remsi w 8#32)).toNat

/-! ### Words: an index in range is eight times its group number plus its slot -/

omit [FloatOps F] in
theorem toNat_of_pre (w : BitVec 32) (h0 : 0 ≤ w.toInt) (h1 : w.toInt ≤ 999999) : w.toNat ≤ 999999 := by
  have hv := Cert.Spec.rowL_val w h0 h1
  have := (Cert.Spec.rowL w).isLt
  omega

omit [FloatOps F] in
theorem slot_eq (w : BitVec 32) (h0 : 0 ≤ w.toInt) (h1 : w.toInt ≤ 999999) : slot w = w.toNat % 8 := by
  have hw := toNat_of_pre w h0 h1
  exact IntOp.toNat_remsi .scalar (x := w) (by omega) 8 (by omega) (by omega)

omit [FloatOps F] in
theorem slot_lt (w : BitVec 32) (h0 : 0 ≤ w.toInt) (h1 : w.toInt ≤ 999999) : slot w < 8 := by
  rw [slot_eq w h0 h1]; omega

omit [FloatOps F] in
theorem grp_toNat (w : BitVec 32) : (grp w).toNat = w.toNat / 8 := by
  unfold grp IntOp.shrui
  rw [if_pos (by decide)]
  show (w >>> (3#32 : BitVec 32)).toNat = _
  simp [BitVec.toNat_ushiftRight, Nat.shiftRight_eq_div_pow]

omit [FloatOps F] in
theorem grp_le (w : BitVec 32) (h0 : 0 ≤ w.toInt) (h1 : w.toInt ≤ 999999) : (grp w).toNat ≤ 124999 := by
  have hw := toNat_of_pre w h0 h1
  rw [grp_toNat]; omega

omit [FloatOps F] in
theorem grp_slot (w : BitVec 32) (h0 : 0 ≤ w.toInt) (h1 : w.toInt ≤ 999999) : 8 * (grp w).toNat + slot w = w.toNat := by
  rw [grp_toNat, slot_eq w h0 h1]; omega

omit [FloatOps F] in
/-- The row an index names is row "slot" of group "index shifted right by three". -/
theorem grow_grp_slot (w : BitVec 32) (h0 : 0 ≤ w.toInt) (h1 : w.toInt ≤ 999999) :
    grow (grp w).toNat (slot w) = Cert.Spec.rowL w := by
  apply Fin.ext
  have hv := Cert.Spec.rowL_val w h0 h1
  have hw := toNat_of_pre w h0 h1
  have hs := grp_slot w h0 h1
  show min (8 * (grp w).toNat + slot w) 999999 = (Cert.Spec.rowL w).val
  omega

/-! ### Where the windows sit: the squeezes and the table's regrouping are row-major re-indexings -/

omit [FloatOps F] in
/-- Position (s, c) of a squeezed one-group window sits at coordinates (0, 0, s, c) of the unsqueezed window. -/
theorem squeeze_idx (x : S8x32.Idx) :
    Shape.reshapeEquiv (s := S1x1x8x32) (s' := S8x32) squeezes_S1x1x8x32_S8x32.numel_eq x
      = (ValueIdx.ix4 (0 : Fin 1) (0 : Fin 1) (x 0) (x 1) : S1x1x8x32.Idx) := by
  apply Shape.reshapeEquiv_eq_of_rowMajor
  show ((⟨4, ![1, 1, 8, 32]⟩ : Shape).rowMajor (ValueIdx.ix4 (0 : Fin 1) (0 : Fin 1) (x 0) (x 1)) : Nat) = ((⟨2, ![8, 32]⟩ : Shape).rowMajor x : Nat)
  rw [Shape.rowMajor_val_four, Shape.rowMajor_val_two]
  show ((0 * 1 + 0) * 8 + (x 0).val) * 32 + (x 1).val = (x 0).val * 32 + (x 1).val
  omega

omit [FloatOps F] in
/-- Where position (s, c) of the window of slot p, place j sits in the two-slot buffer: at (p, j, s, c). -/
theorem win_emb (off : Fin 4 → Nat) (inb : ∀ a, off a + S1x1x8x32.size a ≤ S2x16x8x32.size a) (x : S8x32.Idx) (a : Fin 4) :
    ((((sRows).slice (Rect.unit (s := S2x16x8x32) off S1x1x8x32.size inb) (fun _ => rfl)).squeeze S8x32 squeezes_S1x1x8x32_S8x32).view.emb x a : Nat)
      = off a + ((ValueIdx.ix4 (0 : Fin 1) (0 : Fin 1) (x 0) (x 1) : S1x1x8x32.Idx) a : Nat) := by
  show ((Rect.unit (s := S2x16x8x32) off S1x1x8x32.size inb).emb (Shape.reshapeEquiv (s := S1x1x8x32) (s' := S8x32) squeezes_S1x1x8x32_S8x32.numel_eq x) a : Nat) = _
  rw [squeeze_idx, Rect.emb_apply]
  show off a + 1 * _ = _
  rw [Nat.one_mul]

omit [FloatOps F] in
/-- Position (s, c) of a squeezed one-group piece of the regrouped table sits at (0, s, c) of the unsqueezed piece. -/
theorem squeeze3_idx (y : S8x32.Idx) :
    Shape.reshapeEquiv (s := S1x8x32) (s' := S8x32) squeezes_S1x8x32_S8x32.numel_eq y
      = (ValueIdx.ix3 (0 : Fin 1) (y 0) (y 1) : S1x8x32.Idx) := by
  apply Shape.reshapeEquiv_eq_of_rowMajor
  show ((⟨3, ![1, 8, 32]⟩ : Shape).rowMajor (ValueIdx.ix3 (0 : Fin 1) (y 0) (y 1)) : Nat) = ((⟨2, ![8, 32]⟩ : Shape).rowMajor y : Nat)
  rw [Shape.rowMajor_val_three, Shape.rowMajor_val_two]
  show (0 * 8 + (y 0).val) * 32 + (y 1).val = (y 0).val * 32 + (y 1).val
  omega

omit [FloatOps F] in
/-- Element (g, s, c) of the table regrouped in eights is element (8 g + s, c) of the table. -/
theorem regroup_idx (z : S125000x8x32.Idx) :
    Shape.reshapeEquiv (s := S1000000x32) (s' := S125000x8x32) reshapes_S1000000x32_S125000x8x32.1 z
      = (ValueIdx.ix2 (⟨8 * (z 0).val + (z 1).val, by
            have h0 : (z 0).val < 125000 := (z 0).isLt
            have h1 : (z 1).val < 8 := (z 1).isLt
            omega⟩ : Fin 1000000) (z 2) : S1000000x32.Idx) := by
  apply Shape.reshapeEquiv_eq_of_rowMajor
  show ((⟨2, ![1000000, 32]⟩ : Shape).rowMajor (ValueIdx.ix2 (⟨8 * (z 0).val + (z 1).val, _⟩ : Fin 1000000) (z 2)) : Nat)
    = ((⟨3, ![125000, 8, 32]⟩ : Shape).rowMajor z : Nat)
  rw [Shape.rowMajor_val_three, Shape.rowMajor_val_two]
  show (8 * (z 0).val + (z 1).val) * 32 + (z 2).val = ((z 0).val * 8 + (z 1).val) * 32 + (z 2).val
  omega

/-- One group of the table as the group copies read it: the table regrouped in eights, its group at `offT`, squeezed. -/
abbrev tabGrp (offT : Fin 3 → Nat) (inbT : ∀ a, offT a + S1x8x32.size a ≤ S125000x8x32.size a) : Memref sig .scVector .hbm S8x32 .f32 :=
  (((t2W).reshape S125000x8x32 reshapes_S1000000x32_S125000x8x32.1 reshapes_S1000000x32_S125000x8x32.2 (Memref.isWhole_whole _).contiguous).slice
    (Rect.unit (s := S125000x8x32) offT S1x8x32.size inbT) (fun _ => rfl)).squeeze S8x32 squeezes_S1x8x32_S8x32
/-- One window of the two-slot group buffer as the group copies write it. -/
abbrev rowsWin (off : Fin 4 → Nat) (inb : ∀ a, off a + S1x1x8x32.size a ≤ S2x16x8x32.size a) : Memref sig .scVector .vmem S8x32 .f32 :=
  ((sRows).slice (Rect.unit (s := S2x16x8x32) off S1x1x8x32.size inb) (fun _ => rfl)).squeeze S8x32 squeezes_S1x1x8x32_S8x32

omit [FloatOps F] in
/-- Position (s, c) of group g's piece is element (8 g + s, c) of the table. -/
theorem tab_emb (offT : Fin 3 → Nat) (inbT : ∀ a, offT a + S1x8x32.size a ≤ S125000x8x32.size a) (g : Nat)
    (t0 : offT 0 = g) (t1 : offT 1 = 0) (t2 : offT 2 = 0) (y : S8x32.Idx) :
    (tabGrp offT inbT).view.emb y = (ValueIdx.ix2 (grow g (y 0).val) (y 1) : S1000000x32.Idx) := by
  have hy0 : (y 0).val < 8 := (y 0).isLt
  have hg : g + 1 ≤ 125000 := by have := inbT 0; rw [t0] at this; exact this
  show Shape.reshapeEquiv (s := S1000000x32) (s' := S125000x8x32) reshapes_S1000000x32_S125000x8x32.1
      ((Rect.unit (s := S125000x8x32) offT S1x8x32.size inbT).emb
        (Shape.reshapeEquiv (s := S1x8x32) (s' := S8x32) squeezes_S1x8x32_S8x32.numel_eq y)) = _
  rw [squeeze3_idx, regroup_idx]
  funext a
  match a with
  | ⟨0, _⟩ =>
    apply Fin.ext
    show 8 * (offT 0 + 1 * 0) + (offT 1 + 1 * (y 0).val) = min (8 * g + (y 0).val) 999999
    rw [t0, t1]; omega
  | ⟨1, _⟩ =>
    apply Fin.ext
    show offT 2 + 1 * (y 1).val = (y 1).val
    rw [t2]; omega

/-! ### A delivered group is good; a later delivery leaves it alone -/

/-- The table read through group g's piece: position (s, c) is the table's element (8 g + s, c). -/
theorem tab_read (offT : Fin 3 → Nat) (inbT : ∀ a, offT a + S1x8x32.size a ≤ S125000x8x32.size a) (g : Nat)
    (t0 : offT 0 = g) (t1 : offT 1 = 0) (t2 : offT 2 = 0) (y : S8x32.Idx) :
    View.read (Elt F) (tabGrp offT inbT).view (m (tab2 d)) y = m (tab2 d) (ValueIdx.ix2 (grow g (y 0).val) (y 1)) := by
  show m (tab2 d) ((tabGrp offT inbT).view.emb y) = _
  rw [tab_emb offT inbT g t0 t1 t2]

/-- Group g of the table copied into the window of slot p, place j: element (p, j, s, c) of the buffer is the
    table's element (8 g + s, c), whatever the buffer held before. -/
theorem group_good (off : Fin 4 → Nat) (inb : ∀ a, off a + S1x1x8x32.size a ≤ S2x16x8x32.size a) (p j : Nat)
    (h0 : off 0 = p) (h1 : off 1 = j) (h2 : off 2 = 0) (h3 : off 3 = 0)
    (offT : Fin 3 → Nat) (inbT : ∀ a, offT a + S1x8x32.size a ≤ S125000x8x32.size a) (g : Nat)
    (t0 : offT 0 = g) (t1 : offT 1 = 0) (t2 : offT 2 = 0) (fprev : Buf (Elt F) ((thr d L).loc cc0_scratch2)) :
    ∀ i : S2x16x8x32.Idx, (i 0).val = p → (i 1).val = j →
      View.write (Elt F) (rowsWin off inb).view fprev
          (ReadAs.same.apply (View.read (Elt F) (tabGrp offT inbT).view (m (tab2 d)))) Finset.univ i
        = m (tab2 d) (ValueIdx.ix2 (grow g (i 2).val) (i 3)) := by
  intro i hi0 hi1
  obtain ⟨x, hx, hx0, hx1⟩ : ∃ x : S8x32.Idx, (rowsWin off inb).view.emb x = i ∧ (x 0).val = (i 2).val ∧ x 1 = i 3 := by
    refine ⟨ValueIdx.ix2 (i 2) (i 3), ?_, rfl, rfl⟩
    funext a; apply Fin.ext; rw [win_emb]
    match a with
    | ⟨0, _⟩ => show off 0 + 0 = (i 0).val; omega
    | ⟨1, _⟩ => show off 1 + 0 = (i 1).val; omega
    | ⟨2, _⟩ => show off 2 + (i 2).val = (i 2).val; omega
    | ⟨3, _⟩ => show off 3 + (i 3).val = (i 3).val; omega
  have key := View.write_emb_of_mem (v := (rowsWin off inb).view) fprev
    (ReadAs.same.apply (View.read (Elt F) (tabGrp offT inbT).view (m (tab2 d)))) (Finset.mem_univ x)
  rw [hx] at key
  rw [key]
  show View.read (Elt F) (tabGrp offT inbT).view (m (tab2 d)) x = _
  rw [tab_read m d offT inbT g t0 t1 t2, hx0, hx1]

omit [FloatOps F] in
/-- A write through the window of slot p', place j' leaves every element outside that window alone. -/
theorem group_keep (off : Fin 4 → Nat) (inb : ∀ a, off a + S1x1x8x32.size a ≤ S2x16x8x32.size a) (p' j' : Nat)
    (h0 : off 0 = p') (h1 : off 1 = j') (h2 : off 2 = 0) (h3 : off 3 = 0)
    (fprev : Buf (Elt F) ((thr d L).loc cc0_scratch2)) (pay : S8x32.Idx → Elt F .f32) :
    ∀ i : S2x16x8x32.Idx, ¬((i 0).val = p' ∧ (i 1).val = j') →
      View.write (Elt F) (rowsWin off inb).view fprev pay Finset.univ i = fprev i := by
  intro i hi
  refine View.write_of_not_mem _ _ _ ?_
  rw [View.setOn_univ]
  exact fun hmem => hi ((mem_rowsWin off inb p' j' h0 h1 h2 h3 i).mp hmem)

/-! ### An extract fills a row -/

omit [FloatOps F] in
/-- Lane c of a 16-lane vector cast from [1, 1, 1, 16] to [16] to [1, 16] is lane (0, 0, 0, c) of the original. -/
theorem lanes_idx (x : S1x16.Idx) :
    Shape.reshapeEquiv (s := S1x1x1x16) (s' := S16) shapeCasts_S1x1x1x16_S16
        (Shape.reshapeEquiv (s := S16) (s' := S1x16) shapeCasts_S16_S1x16 x)
      = (ValueIdx.ix4 (0 : Fin 1) (0 : Fin 1) (0 : Fin 1) (x 1) : S1x1x1x16.Idx) := by
  rw [Shape.reshapeEquiv_reshapeEquiv]
  apply Shape.reshapeEquiv_eq_of_rowMajor
  show ((⟨4, ![1, 1, 1, 16]⟩ : Shape).rowMajor (ValueIdx.ix4 (0 : Fin 1) (0 : Fin 1) (0 : Fin 1) (x 1)) : Nat) = ((⟨2, ![1, 16]⟩ : Shape).rowMajor x : Nat)
  rw [Shape.rowMajor_val_four, Shape.rowMajor_val_two]
  have h0 : (x 0).val < 1 := (x 0).isLt
  show ((0 * 1 + 0) * 1 + 0) * 16 + (x 1).val = (x 0).val * 16 + (x 1).val
  omega

/-- What one 16-lane store of an extract writes: the lanes [c0, c0 + 16) of row "slot" of the window (p, j), which
    holds the group of the index at staging row r, are the wanted contents of the piece (r, [c0, c0 + 16)). -/
theorem piece_good (hpre : PreOK m) (r p j c0 : Nat) (hr : r < 512)
    (offR : Fin 4 → Nat) (inbR : ∀ a, offR a + S1x1x1x16.size a ≤ S2x16x8x32.size a)
    (r0 : offR 0 = p) (r1 : offR 1 = j) (r2 : offR 2 = slot (idxAt m d L r)) (r3 : offR 3 = c0)
    (offO : Fin 2 → Nat) (inbO : ∀ a, offO a + S1x16.size a ≤ S512x32.size a) (o0 : offO 0 = r) (o1 : offO 1 = c0)
    (fR : Buf (Elt F) ((thr d L).loc cc0_scratch2))
    (hR : ∀ i : S2x16x8x32.Idx, (i 0).val = p → (i 1).val = j →
      fR i = m (tab2 d) (ValueIdx.ix2 (grow (grp (idxAt m d L r)).toNat (i 2).val) (i 3))) :
    ∀ x : S1x16.Idx,
      shapeCast S1x16 (shapeCast S16 (View.readAt (Elt F) (sRows).view
          (Rect.unit (s := S2x16x8x32) offR S1x1x1x16.size inbR).toLoadRect fR) shapeCasts_S1x1x1x16_S16) shapeCasts_S16_S1x16 x
        = want1 m d L ((Rect.unit (s := S512x32) offO S1x16.size inbO).emb x) := by
  intro x
  have hx1 : (x 1).val < 16 := (x 1).isLt
  have hc0 : c0 + 16 ≤ 32 := by have := inbR 3; rw [r3] at this; exact this
  -- the word at staging row r, in range by the precondition
  obtain ⟨hw0, hw1⟩ := (hpre d).2.2 ((ids3Slice L).view.emb (ValueIdx.ix1 ⟨r % 512, Nat.mod_lt _ (by decide)⟩))
  have hrow := grow_grp_slot (idxAt m d L r) hw0 hw1
  -- the loaded lane
  show fR ((Rect.unit (s := S2x16x8x32) offR S1x1x1x16.size inbR).toLoadRect.idx
      (Shape.reshapeEquiv (s := S1x1x1x16) (s' := S16) shapeCasts_S1x1x1x16_S16
        (Shape.reshapeEquiv (s := S16) (s' := S1x16) shapeCasts_S16_S1x16 x))) = _
  rw [lanes_idx, hR _ (by show offR 0 + 1 * 0 = p; omega) (by show offR 1 + 1 * 0 = j; omega)]
  -- the wanted element
  show _ = m (tab2 d) (ValueIdx.ix2 (Cert.Spec.rowL (IDX1v m d L (ValueIdx.ix1 (((Rect.unit (s := S512x32) offO S1x16.size inbO).emb x) 0))))
      (((Rect.unit (s := S512x32) offO S1x16.size inbO).emb x) 1))
  have e0 : IDX1v m d L (ValueIdx.ix1 (((Rect.unit (s := S512x32) offO S1x16.size inbO).emb x) 0)) = idxAt m d L r := by
    unfold idxAt
    congr 2
    apply Fin.ext
    have hx0 : (x 0).val < 1 := (x 0).isLt
    show offO 0 + 1 * (x 0).val = r % 512
    rw [o0, Nat.mod_eq_of_lt hr]; omega
  rw [e0, ← hrow]
  congr 2
  · apply Fin.ext
    show min (8 * (grp (idxAt m d L r)).toNat + (offR 2 + 1 * 0)) 999999 = min (8 * (grp (idxAt m d L r)).toNat + slot (idxAt m d L r)) 999999
    rw [r2]; rfl
  · apply Fin.ext
    show offR 3 + 1 * (x 1).val = offO 1 + 1 * (x 1).val
    rw [r3, o1]

omit [FloatOps F] in
/-- The staging buffer after a list of stores whose payloads are the wanted contents of their pieces: wanted wherever
    a piece covers, unchanged elsewhere. -/
theorem rows_filled (o : Buf (Elt F) ((thr d L).loc cc0_scratch3)) (G : S512x32.Idx → Elt F .f32)
    (Lp : List (View.Piece (Elt F) S512x32 .f32)) (hp : ∀ q ∈ Lp, ∀ x : q.1.shape.Idx, q.2 x = G (q.1.emb x)) :
    (∀ i : S512x32.Idx, (∃ q ∈ Lp, i ∈ q.1.set) → (sOut).view.writes (Elt F) o Lp i = G i)
      ∧ (∀ i : S512x32.Idx, (∀ q ∈ Lp, i ∉ q.1.set) → (sOut).view.writes (Elt F) o Lp i = o i) :=
  ⟨fun i hi => View.read_writes_apply_of_pieces (sOut).view o G Lp hp i hi,
   fun i hi => View.read_writes_apply_of_forall_not_mem (sOut).view o i Lp hi⟩

/-! ### A recorded delivery of a group copy is a good group -/

/-- What element i of the two-slot buffer holds once the groups of chunk c (indices 16 c .. 16 c + 15) have landed in
    its slot: place (i 1) holds the eight-row group of index 16 c + (i 1); the element is row (i 2), lane (i 3) of it. -/
def rowsVal (c : Nat) (i : S2x16x8x32.Idx) : Elt F .f32 :=
  m (tab2 d) (ValueIdx.ix2 (grow (grp (idxAt m d L (16 * c + (i 1).val))).toNat (i 2).val) (i 3))

/-- The window of slot p, place j holds the group of index 16 c + j. -/
def GoodG (c p j : Nat) : sProp 𝕄 :=
  iprop(∃ g : Buf (Elt F) ((thr d L).loc cc0_scratch2), ((sRows).view.loc (thr d L) ↦[winSet p j]{fullShare} g)
    ∗ ⌜∀ i ∈ winSet p j, g i = rowsVal m d L c i⌝)

omit [FloatOps F] in
/-- The staging buffer's rows below 256, spelt as the whole less the rows from 256 on (the form in which a run of the body
    finds them while the direct copies into the rows from 256 on are in flight). -/
theorem orowsBelow_eq : orowsBelow 256 = Finset.univ \ orowsFrom 256 := by
  ext i; unfold orowsBelow orowsFrom
  simp only [Finset.mem_filter, Finset.mem_univ, true_and, Finset.mem_sdiff, not_le]

omit [FloatOps F] in
theorem mem_winSet (p j : Nat) (i : S2x16x8x32.Idx) : i ∈ winSet p j ↔ (i 0).val = p ∧ (i 1).val = j := by
  unfold winSet; rw [Finset.mem_filter]; exact ⟨fun h => h.2, fun h => ⟨Finset.mem_univ _, h⟩⟩

omit [FloatOps F] in
/-- A one-group window, as the body slices and squeezes it, is the set of its slot and place. -/
theorem set_rowsWin (off : Fin 4 → Nat) (inb : ∀ a, off a + S1x1x8x32.size a ≤ S2x16x8x32.size a) (p j : Nat)
    (h0 : off 0 = p) (h1 : off 1 = j) (h2 : off 2 = 0) (h3 : off 3 = 0) : (rowsWin off inb).view.set = winSet p j := by
  ext i; rw [mem_winSet]; exact mem_rowsWin off inb p j h0 h1 h2 h3 i

/-- What a group copy delivers — its window written with the read of its group of the table — is the window good. -/
theorem gdeliv_good (c p j : Nat) (off : Fin 4 → Nat) (inb : ∀ a, off a + S1x1x8x32.size a ≤ S2x16x8x32.size a)
    (h0 : off 0 = p) (h1 : off 1 = j) (h2 : off 2 = 0) (h3 : off 3 = 0)
    (offT : Fin 3 → Nat) (inbT : ∀ a, offT a + S1x8x32.size a ≤ S125000x8x32.size a)
    (t0 : offT 0 = (grp (idxAt m d L (16 * c + j))).toNat) (t1 : offT 1 = 0) (t2 : offT 2 = 0)
    (fprev : Buf (Elt F) ((thr d L).loc cc0_scratch2)) :
    (((sRows).view.loc (thr d L) ↦[(rowsWin off inb).view.set]{fullShare}
            View.write (Elt F) (rowsWin off inb).view fprev
              (ReadAs.same.apply (View.read (Elt F) (tabGrp offT inbT).view (m (tab2 d)))) Finset.univ) : sProp 𝕄)
      ⊢ GoodG m d L c p j := by
  rw [set_rowsWin off inb p j h0 h1 h2 h3]
  iintro Hw
  unfold GoodG
  iexists _
  isplitl [Hw]
  · iexact Hw
  · ipureintro
    intro i hi
    rw [mem_winSet] at hi
    rw [group_good m d L off inb p j h0 h1 h2 h3 offT inbT _ t0 t1 t2 fprev i hi.1 hi.2]
    unfold rowsVal
    rw [hi.2]

/-! ### The words the body reads: the j-th of sixteen loaded at a row offset -/

/-- The j-th of the sixteen index words loaded at position r0 is the index at staging row r0 + j. -/
theorem idx_word (off : Fin 1 → Nat) (inb : ∀ a, off a + S16.size a ≤ S512.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sIdx).view (Rect.unit (s := S512) off S16.size inb).toLoadRect (IDX1 m d L)) hs1) hs2) hs3
      = idxAt m d L (r0 + j) := by
  have hj : j + 1 ≤ 16 := hs2.2 0
  have hr : r0 + j < 512 := by have := inb 0; rw [hoff] at this; show r0 + j < 512; have e : S16.size 0 = 16 := rfl; have e' : S512.size 0 = 512 := rfl; omega
  unfold extractAt extractStridedSlice shapeCast idxAt
  rw [Shape.reshapeEquiv_self]
  show IDX1v m d L _ = IDX1v m d L _
  congr 1
  funext a
  match a with
  | ⟨0, _⟩ =>
    apply Fin.ext
    show off 0 + 1 * (j + 0) = (r0 + j) % 512
    rw [hoff, Nat.mod_eq_of_lt hr]; omega

/-- The j-th of the sixteen group numbers loaded at position r0 of the group scratch (holding, at each position, the
    group number of the index there) is the group number of the index at staging row r0 + j. -/
theorem gidx_word (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (off : Fin 1 → Nat) (inb : ∀ a, off a + S16.size a ≤ S256.size a) (r0 j : Nat) (hoff : off 0 = r0)
    (hs1 : S16.ShapeCasts S16) (hs2 : S16.Slices ![j] S1) (hs3 : ∀ a, (![0] : Fin 1 → Nat) a < S1.size a) :
    extractAt ![0] (extractStridedSlice S1 ![j] (shapeCast S16
        (View.readAt (Elt F) (sGidx).view (Rect.unit (s := S256) off S16.size inb).toLoadRect fG) hs1) hs2) hs3
      = grp (idxAt m d L (r0 + j)) := by
  have hj : j + 1 ≤ 16 := hs2.2 0
  have hr : r0 + j < 256 := by have := inb 0; rw [hoff] at this; show r0 + j < 256; have e : S16.size 0 = 16 := rfl; have e' : S256.size 0 = 256 := rfl; omega
  unfold extractAt extractStridedSlice shapeCast idxAt
  rw [Shape.reshapeEquiv_self]
  refine (hG _).trans ?_
  congr 2
  funext a
  match a with
  | ⟨0, _⟩ =>
    apply Fin.ext
    show off 0 + 1 * (j + 0) = (r0 + j) % 512
    rw [hoff, Nat.mod_eq_of_lt (by omega)]; omega

/-- Every index the tile holds lies in the table, read as a signed word. -/
theorem idxAt_pre (hpre : PreOK m) (r : Nat) : 0 ≤ (idxAt m d L r).toInt ∧ (idxAt m d L r).toInt ≤ 999999 :=
  (hpre d).2.2 ((ids3Slice L).view.emb (ValueIdx.ix1 ⟨r % 512, Nat.mod_lt _ (by decide)⟩))

/-- The check before an extract's loads: an index word read as a non-negative number. -/
theorem idxAt_nn (hpre : PreOK m) (r : Nat) : 2 * (idxAt m d L r).toNat < 2 ^ 32 := by
  obtain ⟨h0, h1⟩ := idxAt_pre m d L hpre r
  have := toNat_of_pre _ h0 h1
  omega

/-- The check before a group copy: the group number of an index names a group of the regrouped table. -/
theorem grp_chk (hpre : PreOK m) (r : Nat) :
    ∀ a, (![(grp (idxAt m d L r)).toNat, 0, 0] : Fin 3 → Nat) a + S1x8x32.size a ≤ S125000x8x32.size a := by
  obtain ⟨h0, h1⟩ := idxAt_pre m d L hpre r
  have hg := grp_le _ h0 h1
  intro a
  match a with
  | 0 => show (grp (idxAt m d L r)).toNat + 1 ≤ 125000; omega
  | 1 => show 0 + 8 ≤ 8; omega
  | 2 => show 0 + 32 ≤ 32; omega

/-! ### The end of the group phase: the rows below 256 -/

/-- The staging rows outside those from 256 on, good below row 32 · 8, are the rows below 256 filled as wanted. -/
theorem low_of_below :
    (iprop(∃ o : Buf (Elt F) ((thr d L).loc cc0_scratch3), ((sOut).view.loc (thr d L) ↦[Finset.univ \ orowsFrom 256]{fullShare} o)
        ∗ ⌜∀ i : S512x32.Idx, (i 0).val < 32 * 8 → o i = want1 m d L i⌝) : sProp 𝕄) ⊢ LOW1 m d L := by
  rw [← orowsBelow_eq]
  unfold LOW1
  iintro ⟨%o, H, %ho⟩
  iexists o
  isplitl [H]; · iexact H
  ipureintro
  intro i hi
  apply ho
  unfold orowsBelow at hi
  rw [Finset.mem_filter] at hi
  omega

/-! ### A trip's stores, piece by piece and row by row

The rectangles below carry proofs that they lie inside their arrays; a statement here builds its own from the numeric
facts it is given, and fits any other proof of the same fact. -/

omit [FloatOps F] in
theorem inbI_of (off : Fin 1 → Nat) (r0 : Nat) (h : off 0 = r0) (hr : r0 + 16 ≤ 512) : ∀ a, off a + S16.size a ≤ S512.size a := by
  intro a
  match a with
  | 0 => rw [h]; show r0 + 16 ≤ 512; exact hr
omit [FloatOps F] in
theorem inbO_of (off : Fin 2 → Nat) (r c0 : Nat) (o0 : off 0 = r) (o1 : off 1 = c0) (hr : r < 512) (hc : c0 + 16 ≤ 32) :
    ∀ a, off a + S1x16.size a ≤ S512x32.size a := by
  intro a
  match a with
  | 0 => rw [o0]; show r + 1 ≤ 512; omega
  | 1 => rw [o1]; show c0 + 16 ≤ 32; exact hc
omit [FloatOps F] in
theorem inbR_of (off : Fin 4 → Nat) (p j s c0 : Nat) (e0 : off 0 = p) (e1 : off 1 = j) (e2 : off 2 = s) (e3 : off 3 = c0)
    (hp : p < 2) (hj : j < 16) (hs : s < 8) (hc : c0 + 16 ≤ 32) : ∀ a, off a + S1x1x1x16.size a ≤ S2x16x8x32.size a := by
  intro a
  match a with
  | 0 => rw [e0]; show p + 1 ≤ 2; omega
  | 1 => rw [e1]; show j + 1 ≤ 16; omega
  | 2 => rw [e2]; show s + 1 ≤ 8; omega
  | 3 => rw [e3]; show c0 + 16 ≤ 32; exact hc
omit [FloatOps F] in
theorem slices_of (j : Nat) (hj : j < 16) : S16.Slices ![j] S1 :=
  ⟨rfl, fun a => by match a with | 0 => show j + 1 ≤ 16; omega⟩

/-- The j-th of the sixteen index words loaded at the position `offI` names, as the body computes it. -/
abbrev wordAt (offI : Fin 1 → Nat) (r0 : Nat) (hI : offI 0 = r0) (hr0 : r0 + 16 ≤ 512) (j : Nat) (hj : j < 16) : BitVec 32 :=
  extractAt ![0] (extractStridedSlice S1 ![j] (shapeCast S16
    (View.readAt (Elt F) (sIdx).view (Rect.unit (s := S512) offI S16.size (inbI_of offI r0 hI hr0)).toLoadRect (IDX1 m d L))
    (rfl : S16.ShapeCasts S16)) (slices_of j hj)) (by decide)

theorem wordAt_eq (offI : Fin 1 → Nat) (r0 : Nat) (hI : offI 0 = r0) (hr0 : r0 + 16 ≤ 512) (j : Nat) (hj : j < 16) :
    wordAt m d L offI r0 hI hr0 j hj = idxAt m d L (r0 + j) :=
  idx_word m d L offI _ r0 j hI _ _ _

theorem slot_word_lt (hpre : PreOK m) (offI : Fin 1 → Nat) (r0 : Nat) (hI : offI 0 = r0) (hr0 : r0 + 16 ≤ 512) (j : Nat) (hj : j < 16) :
    slot (wordAt m d L offI r0 hI hr0 j hj) < 8 := by
  rw [wordAt_eq]
  obtain ⟨h0, h1⟩ := idxAt_pre m d L hpre (r0 + j)
  exact slot_lt _ h0 h1

/-- One 16-lane store of an extract, in the terms the body computes: the word is the j-th of the sixteen loaded at
    staging row r0 = 16 cc, the load reads lanes [c0, c0 + 16) of row "slot of the word" of window (p, j) of a buffer
    whose slot p holds the groups of chunk cc, and the store goes to the piece (r0 + j, [c0, c0 + 16)): its payload is
    the wanted contents of that piece. -/
theorem piece_raw (hpre : PreOK m) (p j c0 r0 cc : Nat) (hcc : 16 * cc = r0)
    (hp : p < 2) (hj : j < 16) (hc0 : c0 + 16 ≤ 32) (hr0 : r0 + 16 ≤ 512)
    (offI : Fin 1 → Nat) (hI : offI 0 = r0)
    (offR : Fin 4 → Nat) (e0 : offR 0 = p) (e1 : offR 1 = j)
    (e2 : offR 2 = slot (wordAt m d L offI r0 hI hr0 j hj)) (e3 : offR 3 = c0)
    (offO : Fin 2 → Nat) (o0 : offO 0 = r0 + j) (o1 : offO 1 = c0)
    (fR : Buf (Elt F) ((thr d L).loc cc0_scratch2))
    (hR : ∀ i : S2x16x8x32.Idx, (i 0).val = p → fR i = rowsVal m d L cc i) :
    ∀ x : S1x16.Idx,
      shapeCast S1x16 (shapeCast S16 (View.readAt (Elt F) (sRows).view
          (Rect.unit (s := S2x16x8x32) offR S1x1x1x16.size
            (inbR_of offR p j _ c0 e0 e1 e2 e3 hp hj (slot_word_lt m d L hpre offI r0 hI hr0 j hj) hc0)).toLoadRect fR)
          shapeCasts_S1x1x1x16_S16) shapeCasts_S16_S1x16 x
        = want1 m d L ((Rect.unit (s := S512x32) offO S1x16.size (inbO_of offO (r0 + j) c0 o0 o1 (by omega) hc0)).emb x) := by
  have hr : r0 + j < 512 := by omega
  have e2' := e2
  rw [wordAt_eq] at e2'
  refine piece_good m d L hpre (r0 + j) p j c0 hr offR _ e0 e1 e2' e3 offO _ o0 o1 fR ?_
  intro i hi0 hi1
  rw [hR i hi0]
  unfold rowsVal
  rw [hi1, hcc]

omit [FloatOps F] in
/-- The two 16-lane pieces of staging row r cover the row. -/
theorem cover_row (r : Nat) (hr : r < 512) (off1 off2 : Fin 2 → Nat)
    (a0 : off1 0 = r) (a1 : off1 1 = 0) (b0 : off2 0 = r) (b1 : off2 1 = 16) :
    ∀ i : S512x32.Idx, (i 0).val = r →
      i ∈ (Rect.unit (s := S512x32) off1 S1x16.size (inbO_of off1 r 0 a0 a1 hr (by omega))).set
        ∨ i ∈ (Rect.unit (s := S512x32) off2 S1x16.size (inbO_of off2 r 16 b0 b1 hr (by omega))).set := by
  intro i hi
  have hi1 : (i 1).val < 32 := (i 1).isLt
  rw [Rect.mem_set_unit, Rect.mem_set_unit]
  by_cases hl : (i 1).val < 16
  · left; intro a
    match a with
    | 0 => rw [a0]; have e : S1x16.size 0 = 1 := rfl; omega
    | 1 => rw [a1]; have e : S1x16.size 1 = 16 := rfl; omega
  · right; intro a
    match a with
    | 0 => rw [b0]; have e : S1x16.size 0 = 1 := rfl; omega
    | 1 => rw [b1]; have e : S1x16.size 1 = 16 := rfl; omega

/-- One more row: a buffer good below row n, then two stores whose payloads are the wanted contents of their pieces and
    whose pieces cover row n, is good below row n + 1. -/
theorem row_step (G : S512x32.Idx → Elt F .f32) (o : Buf (Elt F) ((thr d L).loc cc0_scratch3)) (n : Nat)
    (ho : ∀ i : S512x32.Idx, (i 0).val < n → o i = G i)
    (q2 q1 : View.Piece (Elt F) S512x32 .f32)
    (h1 : ∀ x : q1.1.shape.Idx, q1.2 x = G (q1.1.emb x)) (h2 : ∀ x : q2.1.shape.Idx, q2.2 x = G (q2.1.emb x))
    (hcov : ∀ i : S512x32.Idx, (i 0).val = n → i ∈ q1.1.set ∨ i ∈ q2.1.set) :
    ∀ i : S512x32.Idx, (i 0).val < n + 1 → (sOut).view.writes (Elt F) o [q2, q1] i = G i := by
  intro i hi
  have hp : ∀ q ∈ [q2, q1], ∀ x : q.1.shape.Idx, q.2 x = G (q.1.emb x) := by
    intro q hq
    rcases List.mem_cons.mp hq with rfl | hq
    · exact h2
    · rcases List.mem_cons.mp hq with rfl | hq
      · exact h1
      · exact absurd hq List.not_mem_nil
  obtain ⟨hin, hout⟩ := rows_filled d L o G [q2, q1] hp
  by_cases hc : ∃ q ∈ [q2, q1], i ∈ q.1.set
  · exact hin i hc
  · have hnot : ∀ q ∈ [q2, q1], i ∉ q.1.set := fun q hq hm => hc ⟨q, hq, hm⟩
    rw [hout i hnot]
    apply ho
    by_contra hge
    have hn : (i 0).val = n := by omega
    rcases hcov i hn with h | h
    · exact hnot q1 (List.mem_cons_of_mem _ List.mem_cons_self) h
    · exact hnot q2 List.mem_cons_self h

omit [FloatOps F] in
/-- Two more stores on top of a list of stores are two stores on top of the buffer the list leaves. -/
theorem writes_two (o : Buf (Elt F) ((thr d L).loc cc0_scratch3)) (q2 q1 : View.Piece (Elt F) S512x32 .f32)
    (rest : List (View.Piece (Elt F) S512x32 .f32)) :
    (sOut).view.writes (Elt F) o (q2 :: q1 :: rest) = (sOut).view.writes (Elt F) ((sOut).view.writes (Elt F) o rest) [q2, q1] := rfl

/-- A list of stores, latest first, that fills the rows from n up to n' two pieces a row: each piece's payload is the
    wanted contents of the piece, and each pair of pieces covers its row. -/
def RowsOK (G : S512x32.Idx → Elt F .f32) : List (View.Piece (Elt F) S512x32 .f32) → Nat → Nat → Prop
  | [], n, n' => n' = n
  | [_], _, _ => False
  | q2 :: q1 :: rest, n, n' => ∃ n'', n' = n'' + 1 ∧ RowsOK G rest n n''
      ∧ (∀ x : q1.1.shape.Idx, q1.2 x = G (q1.1.emb x)) ∧ (∀ x : q2.1.shape.Idx, q2.2 x = G (q2.1.emb x))
      ∧ ∀ i : S512x32.Idx, (i 0).val = n'' → i ∈ q1.1.set ∨ i ∈ q2.1.set

/-- A buffer good below row n, then such a list of stores, is good below row n'. -/
theorem rows_ok (G : S512x32.Idx → Elt F .f32) (o : Buf (Elt F) ((thr d L).loc cc0_scratch3)) (n : Nat)
    (ho : ∀ i : S512x32.Idx, (i 0).val < n → o i = G i) :
    ∀ (Lp : List (View.Piece (Elt F) S512x32 .f32)) (n' : Nat), RowsOK G Lp n n' →
      ∀ i : S512x32.Idx, (i 0).val < n' → (sOut).view.writes (Elt F) o Lp i = G i
  | [], n', h => by
    intro i hi
    have : n' = n := h
    subst this
    exact ho i hi
  | [_], _, h => False.elim h
  | q2 :: q1 :: rest, n', h => by
    obtain ⟨n'', rfl, hrest, h1, h2, hcov⟩ := h
    rw [writes_two]
    exact row_step d L G _ n'' (rows_ok G o n ho rest n'' hrest) q2 q1 h1 h2 hcov

/-! ### A whole trip of the pair loop: sixty-four stores fill thirty-two rows -/

/-- One 16-lane store of an extract as a piece: to lanes [c0, c0 + 16) of staging row r0 + j goes what the load reads
    off lanes [c0, c0 + 16) of row "slot of the word" of window (p, j); the word is the j-th loaded at row r0. -/
abbrev pcR (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) : View.Piece (Elt F) S512x32 .f32 :=
  ⟨Rect.unit (s := S512x32) offO S1x16.size (inbO_of offO (r0 + j) c0 o0 o1 (by omega) hc0),
   shapeCast S1x16 (shapeCast S16 (View.readAt (Elt F) (sRows).view
      (Rect.unit (s := S2x16x8x32) (offR (wordAt m d L offI r0 hI hr0 j hj)) S1x1x1x16.size
        (inbR_of _ p j _ c0 (e0 _) (e1 _) (e2 _) (e3 _) hp hj (slot_word_lt m d L hpre offI r0 hI hr0 j hj) hc0)).toLoadRect fR)
      shapeCasts_S1x1x1x16_S16) shapeCasts_S16_S1x16⟩

theorem pcR_good (hpre : PreOK m) (p j c0 r0 : Nat) (hp : p < 2) (hj : j < 16) (hc0 : c0 + 16 ≤ 32) (hr0 : r0 + 16 ≤ 512)
    (offI : Fin 1 → Nat) (hI : offI 0 = r0)
    (offR : BitVec 32 → Fin 4 → Nat) (e0 : ∀ w, offR w 0 = p) (e1 : ∀ w, offR w 1 = j) (e2 : ∀ w, offR w 2 = slot w) (e3 : ∀ w, offR w 3 = c0)
    (offO : Fin 2 → Nat) (o0 : offO 0 = r0 + j) (o1 : offO 1 = c0)
    (fR : Buf (Elt F) ((thr d L).loc cc0_scratch2)) (cc : Nat) (hcc : 16 * cc = r0)
    (hR : ∀ i : S2x16x8x32.Idx, (i 0).val = p → fR i = rowsVal m d L cc i) :
    ∀ x, (pcR m d L hpre p j c0 r0 hp hj hc0 hr0 offI hI offR e0 e1 e2 e3 offO o0 o1 fR).2 x
      = want1 m d L ((pcR m d L hpre p j c0 r0 hp hj hc0 hr0 offI hI offR e0 e1 e2 e3 offO o0 o1 fR).1.emb x) :=
  piece_raw m d L hpre p j c0 r0 cc hcc hp hj hc0 hr0 offI hI _ (e0 _) (e1 _) (e2 _) (e3 _) offO o0 o1 fR hR

theorem pcR_cover (hpre : PreOK m) (p j r0 : Nat) (hp : p < 2) (hj : j < 16) (hr0 : r0 + 16 ≤ 512)
    (offI : Fin 1 → Nat) (hI : offI 0 = r0)
    (offR1 offR2 : BitVec 32 → Fin 4 → Nat) (a0 : ∀ w, offR1 w 0 = p) (a1 : ∀ w, offR1 w 1 = j) (a2 : ∀ w, offR1 w 2 = slot w) (a3 : ∀ w, offR1 w 3 = 0)
    (b0 : ∀ w, offR2 w 0 = p) (b1 : ∀ w, offR2 w 1 = j) (b2 : ∀ w, offR2 w 2 = slot w) (b3 : ∀ w, offR2 w 3 = 16)
    (offO1 offO2 : Fin 2 → Nat) (c0 : offO1 0 = r0 + j) (c1 : offO1 1 = 0) (d0 : offO2 0 = r0 + j) (d1 : offO2 1 = 16)
    (fR : Buf (Elt F) ((thr d L).loc cc0_scratch2)) (n : Nat) (hn : n = r0 + j) :
    ∀ i : S512x32.Idx, (i 0).val = n →
      i ∈ (pcR m d L hpre p j 0 r0 hp hj (by omega) hr0 offI hI offR1 a0 a1 a2 a3 offO1 c0 c1 fR).1.set
        ∨ i ∈ (pcR m d L hpre p j 16 r0 hp hj (by omega) hr0 offI hI offR2 b0 b1 b2 b3 offO2 d0 d1 fR).1.set :=
  fun i hi => cover_row (r0 + j) (by omega) offO1 offO2 c0 c1 d0 d1 i (hn ▸ hi)

set_option maxHeartbeats 4000000 in
/-- A whole trip k of the pair loop: the staging buffer good below row 32 k, then the sixty-four 16-lane stores of the
    trip's two extracts (latest first: rows 32 k + 31 down to 32 k + 16 read off slot 1 holding the groups of chunk
    2 k + 1, then rows 32 k + 15 down to 32 k read off slot 0 holding the groups of chunk 2 k), is good below row
    32 (k + 1). -/
theorem trip_rows (hpre : PreOK m) (k : Fin k0_t11_loop.trips) (hk : k.val < 8)
    (f' f'' : Buf (Elt F) ((thr d L).loc cc0_scratch2))
    (hf' : ∀ i : S2x16x8x32.Idx, (i 0).val = 0 → f' i = rowsVal m d L (2 * k.val) i)
    (hf'' : ∀ i : S2x16x8x32.Idx, (i 0).val = 1 → f'' i = rowsVal m d L (2 * k.val + 1) i)
    (o : Buf (Elt F) ((thr d L).loc cc0_scratch3)) (ho : ∀ i : S512x32.Idx, (i 0).val < 32 * k.val → o i = want1 m d L i) :
    ∀ i : S512x32.Idx, (i 0).val < 32 * (k.val + 1) →
      (sOut).view.writes (Elt F) o
        [pcR m d L hpre 1 15 16 (32 * k.val + 16) (by omega) (by omega) (by omega) (by omega) (k0_off657 k) (by rw [k0_off657_eq]; rfl) k0_off720 (fun _ => rfl) (fun _ => rfl) (fun _ => rfl) (fun _ => rfl) (k0_off721 k) (by rw [k0_off721_eq]; rfl) (by rw [k0_off721_eq]; rfl) f'',
         pcR m d L hpre 1 15 0 (32 * k.val + 16) (by omega) (by omega) (by omega) (by omega) (k0_off657 k) (by rw [k0_off657_eq]; rfl) k0_off718 (fun _ => rfl) (fun _ => rfl) (fun _ => rfl) (fun _ => rfl) (k0_off719 k) (by rw [k0_off719_eq]; rfl) (by rw [k0_off719_eq]; rfl) f'',
         pcR m d L hpre 1 14 16 (32 * k.val + 16) (by omega) (by omega) (by omega) (by omega) (k0_off657 k) (by rw [k0_off657_eq]; rfl) k0_off716 (fun _ => rfl) (fun _ => rfl) (fun _ => rfl) (fun _ => rfl) (k0_off717 k) (by rw [k0_off717_eq]; rfl) (by rw [k0_off717_eq]; rfl) f'',
         pcR m d L hpre 1 14 0 (32 * k.val + 16) (by omega) (by omega) (by omega) (by omega) (k0_off657 k) (by rw [k0_off657_eq]; rfl) k0_off714 (fun _ => rfl) (fun _ => rfl) (fun _ => rfl) (fun _ => rfl) (k0_off715 k) (by rw [k0_off715_eq]; rfl) (by rw [k0_off715_eq]; rfl) f'',
         pcR m d L hpre 1 13 16 (32 * k.val + 16) (by omega) (by omega) (by omega) (by omega) (k0_off657 k) (by rw [k0_off657_eq]; rfl) k0_off712 (fun _ => rfl) (fun _ => rfl) (fun _ => rfl) (fun _ => rfl) (k0_off713 k) (by rw [k0_off713_eq]; rfl) (by rw [k0_off713_eq]; rfl) f'',
         pcR m d L hpre 1 13 0 (32 * k.val + 16) (by omega) (by omega) (by omega) (by omega) (k0_off657 k) (by rw [k0_off657_eq]; rfl) k0_off710 (fun _ => rfl) (fun _ => rfl) (fun _ => rfl) (fun _ => rfl) (k0_off711 k) (by rw [k0_off711_eq]; rfl) (by rw [k0_off711_eq]; rfl) f'',
         pcR m d L hpre 1 12 16 (32 * k.val + 16) (by omega) (by omega) (by omega) (by omega) (k0_off657 k) (by rw [k0_off657_eq]; rfl) k0_off708 (fun _ => rfl) (fun _ => rfl) (fun _ => rfl) (fun _ => rfl) (k0_off709 k) (by rw [k0_off709_eq]; rfl) (by rw [k0_off709_eq]; rfl) f'',
         pcR m d L hpre 1 12 0 (32 * k.val + 16) (by omega) (by omega) (by omega) (by omega) (k0_off657 k) (by rw [k0_off657_eq]; rfl) k0_off706 (fun _ => rfl) (fun _ => rfl) (fun _ => rfl) (fun _ => rfl) (k0_off707 k) (by rw [k0_off707_eq]; rfl) (by rw [k0_off707_eq]; rfl) f'',
         pcR m d L hpre 1 11 16 (32 * k.val + 16) (by omega) (by omega) (by omega) (by omega) (k0_off657 k) (by rw [k0_off657_eq]; rfl) k0_off704 (fun _ => rfl) (fun _ => rfl) (fun _ => rfl) (fun _ => rfl) (k0_off705 k) (by rw [k0_off705_eq]; rfl) (by rw [k0_off705_eq]; rfl) f'',
         pcR m d L hpre 1 11 0 (32 * k.val + 16) (by omega) (by omega) (by omega) (by omega) (k0_off657 k) (by rw [k0_off657_eq]; rfl) k0_off702 (fun _ => rfl) (fun _ => rfl) (fun _ => rfl) (fun _ => rfl) (k0_off703 k) (by rw [k0_off703_eq]; rfl) (by rw [k0_off703_eq]; rfl) f'',
         pcR m d L hpre 1 10 16 (32 * k.val + 16) (by omega) (by omega) (by omega) (by omega) (k0_off657 k) (by rw [k0_off657_eq]; rfl) k0_off700 (fun _ => rfl) (fun _ => rfl) (fun _ => rfl) (fun _ => rfl) (k0_off701 k) (by rw [k0_off701_eq]; rfl) (by rw [k0_off701_eq]; rfl) f'',
         pcR m d L hpre 1 10 0 (32 * k.val + 16) (by omega) (by omega) (by omega) (by omega) (k0_off657 k) (by rw [k0_off657_eq]; rfl) k0_off698 (fun _ => rfl) (fun _ => rfl) (fun _ => rfl) (fun _ => rfl) (k0_off699 k) (by rw [k0_off699_eq]; rfl) (by rw [k0_off699_eq]; rfl) f'',
         pcR m d L hpre 1 9 16 (32 * k.val + 16) (by omega) (by omega) (by omega) (by omega) (k0_off657 k) (by rw [k0_off657_eq]; rfl) k0_off696 (fun _ => rfl) (fun _ => rfl) (fun _ => rfl) (fun _ => rfl) (k0_off697 k) (by rw [k0_off697_eq]; rfl) (by rw [k0_off697_eq]; rfl) f'',
         pcR m d L hpre 1 9 0 (32 * k.val + 16) (by omega) (by omega) (by omega) (by omega) (k0_off657 k) (by rw [k0_off657_eq]; rfl) k0_off694 (fun _ => rfl) (fun _ => rfl) (fun _ => rfl) (fun _ => rfl) (k0_off695 k) (by rw [k0_off695_eq]; rfl) (by rw [k0_off695_eq]; rfl) f'',
         pcR m d L hpre 1 8 16 (32 * k.val + 16) (by omega) (by omega) (by omega) (by omega) (k0_off657 k) (by rw [k0_off657_eq]; rfl) k0_off692 (fun _ => rfl) (fun _ => rfl) (fun _ => rfl) (fun _ => rfl) (k0_off693 k) (by rw [k0_off693_eq]; rfl) (by rw [k0_off693_eq]; rfl) f'',
         pcR m d L hpre 1 8 0 (32 * k.val + 16) (by omega) (by omega) (by omega) (by omega) (k0_off657 k) (by rw [k0_off657_eq]; rfl) k0_off690 (fun _ => rfl) (fun _ => rfl) (fun _ => rfl) (fun _ => rfl) (k0_off691 k) (by rw [k0_off691_eq]; rfl) (by rw [k0_off691_eq]; rfl) f'',
         pcR m d L hpre 1 7 16 (32 * k.val + 16) (by omega) (by omega) (by omega) (by omega) (k0_off657 k) (by rw [k0_off657_eq]; rfl) k0_off688 (fun _ => rfl) (fun _ => rfl) (fun _ => rfl) (fun _ => rfl) (k0_off689 k) (by rw [k0_off689_eq]; rfl) (by rw [k0_off689_eq]; rfl) f'',
         pcR m d L hpre 1 7 0 (32 * k.val + 16) (by omega) (by omega) (by omega) (by omega) (k0_off657 k) (by rw [k0_off657_eq]; rfl) k0_off686 (fun _ => rfl) (fun _ => rfl) (fun _ => rfl) (fun _ => rfl) (k0_off687 k) (by rw [k0_off687_eq]; rfl) (by rw [k0_off687_eq]; rfl) f'',
         pcR m d L hpre 1 6 16 (32 * k.val + 16) (by omega) (by omega) (by omega) (by omega) (k0_off657 k) (by rw [k0_off657_eq]; rfl) k0_off684 (fun _ => rfl) (fun _ => rfl) (fun _ => rfl) (fun _ => rfl) (k0_off685 k) (by rw [k0_off685_eq]; rfl) (by rw [k0_off685_eq]; rfl) f'',
         pcR m d L hpre 1 6 0 (32 * k.val + 16) (by omega) (by omega) (by omega) (by omega) (k0_off657 k) (by rw [k0_off657_eq]; rfl) k0_off682 (fun _ => rfl) (fun _ => rfl) (fun _ => rfl) (fun _ => rfl) (k0_off683 k) (by rw [k0_off683_eq]; rfl) (by rw [k0_off683_eq]; rfl) f'',
         pcR m d L hpre 1 5 16 (32 * k.val + 16) (by omega) (by omega) (by omega) (by omega) (k0_off657 k) (by rw [k0_off657_eq]; rfl) k0_off680 (fun _ => rfl) (fun _ => rfl) (fun _ => rfl) (fun _ => rfl) (k0_off681 k) (by rw [k0_off681_eq]; rfl) (by rw [k0_off681_eq]; rfl) f'',
         pcR m d L hpre 1 5 0 (32 * k.val + 16) (by omega) (by omega) (by omega) (by omega) (k0_off657 k) (by rw [k0_off657_eq]; rfl) k0_off678 (fun _ => rfl) (fun _ => rfl) (fun _ => rfl) (fun _ => rfl) (k0_off679 k) (by rw [k0_off679_eq]; rfl) (by rw [k0_off679_eq]; rfl) f'',
         pcR m d L hpre 1 4 16 (32 * k.val + 16) (by omega) (by omega) (by omega) (by omega) (k0_off657 k) (by rw [k0_off657_eq]; rfl) k0_off676 (fun _ => rfl) (fun _ => rfl) (fun _ => rfl) (fun _ => rfl) (k0_off677 k) (by rw [k0_off677_eq]; rfl) (by rw [k0_off677_eq]; rfl) f'',
         pcR m d L hpre 1 4 0 (32 * k.val + 16) (by omega) (by omega) (by omega) (by omega) (k0_off657 k) (by rw [k0_off657_eq]; rfl) k0_off674 (fun _ => rfl) (fun _ => rfl) (fun _ => rfl) (fun _ => rfl) (k0_off675 k) (by rw [k0_off675_eq]; rfl) (by rw [k0_off675_eq]; rfl) f'',
         pcR m d L hpre 1 3 16 (32 * k.val + 16) (by omega) (by omega) (by omega) (by omega) (k0_off657 k) (by rw [k0_off657_eq]; rfl) k0_off672 (fun _ => rfl) (fun _ => rfl) (fun _ => rfl) (fun _ => rfl) (k0_off673 k) (by rw [k0_off673_eq]; rfl) (by rw [k0_off673_eq]; rfl) f'',
         pcR m d L hpre 1 3 0 (32 * k.val + 16) (by omega) (by omega) (by omega) (by omega) (k0_off657 k) (by rw [k0_off657_eq]; rfl) k0_off670 (fun _ => rfl) (fun _ => rfl) (fun _ => rfl) (fun _ => rfl) (k0_off671 k) (by rw [k0_off671_eq]; rfl) (by rw [k0_off671_eq]; rfl) f'',
         pcR m d L hpre 1 2 16 (32 * k.val + 16) (by omega) (by omega) (by omega) (by omega) (k0_off657 k) (by rw [k0_off657_eq]; rfl) k0_off668 (fun _ => rfl) (fun _ => rfl) (fun _ => rfl) (fun _ => rfl) (k0_off669 k) (by rw [k0_off669_eq]; rfl) (by rw [k0_off669_eq]; rfl) f'',
         pcR m d L hpre 1 2 0 (32 * k.val + 16) (by omega) (by omega) (by omega) (by omega) (k0_off657 k) (by rw [k0_off657_eq]; rfl) k0_off666 (fun _ => rfl) (fun _ => rfl) (fun _ => rfl) (fun _ => rfl) (k0_off667 k) (by rw [k0_off667_eq]; rfl) (by rw [k0_off667_eq]; rfl) f'',
         pcR m d L hpre 1 1 16 (32 * k.val + 16) (by omega) (by omega) (by omega) (by omega) (k0_off657 k) (by rw [k0_off657_eq]; rfl) k0_off664 (fun _ => rfl) (fun _ => rfl) (fun _ => rfl) (fun _ => rfl) (k0_off665 k) (by rw [k0_off665_eq]; rfl) (by rw [k0_off665_eq]; rfl) f'',
         pcR m d L hpre 1 1 0 (32 * k.val + 16) (by omega) (by omega) (by omega) (by omega) (k0_off657 k) (by rw [k0_off657_eq]; rfl) k0_off662 (fun _ => rfl) (fun _ => rfl) (fun _ => rfl) (fun _ => rfl) (k0_off663 k) (by rw [k0_off663_eq]; rfl) (by rw [k0_off663_eq]; rfl) f'',
         pcR m d L hpre 1 0 16 (32 * k.val + 16) (by omega) (by omega) (by omega) (by omega) (k0_off657 k) (by rw [k0_off657_eq]; rfl) k0_off660 (fun _ => rfl) (fun _ => rfl) (fun _ => rfl) (fun _ => rfl) (k0_off661 k) (by rw [k0_off661_eq]; rfl) (by rw [k0_off661_eq]; rfl) f'',
         pcR m d L hpre 1 0 0 (32 * k.val + 16) (by omega) (by omega) (by omega) (by omega) (k0_off657 k) (by rw [k0_off657_eq]; rfl) k0_off658 (fun _ => rfl) (fun _ => rfl) (fun _ => rfl) (fun _ => rfl) (k0_off659 k) (by rw [k0_off659_eq]; rfl) (by rw [k0_off659_eq]; rfl) f'',
         pcR m d L hpre 0 15 16 (32 * k.val) (by omega) (by omega) (by omega) (by omega) (k0_off575 k) (by rw [k0_off575_eq]; rfl) k0_off638 (fun _ => rfl) (fun _ => rfl) (fun _ => rfl) (fun _ => rfl) (k0_off639 k) (by rw [k0_off639_eq]; rfl) (by rw [k0_off639_eq]; rfl) f',
         pcR m d L hpre 0 15 0 (32 * k.val) (by omega) (by omega) (by omega) (by omega) (k0_off575 k) (by rw [k0_off575_eq]; rfl) k0_off636 (fun _ => rfl) (fun _ => rfl) (fun _ => rfl) (fun _ => rfl) (k0_off637 k) (by rw [k0_off637_eq]; rfl) (by rw [k0_off637_eq]; rfl) f',
         pcR m d L hpre 0 14 16 (32 * k.val) (by omega) (by omega) (by omega) (by omega) (k0_off575 k) (by rw [k0_off575_eq]; rfl) k0_off634 (fun _ => rfl) (fun _ => rfl) (fun _ => rfl) (fun _ => rfl) (k0_off635 k) (by rw [k0_off635_eq]; rfl) (by rw [k0_off635_eq]; rfl) f',
         pcR m d L hpre 0 14 0 (32 * k.val) (by omega) (by omega) (by omega) (by omega) (k0_off575 k) (by rw [k0_off575_eq]; rfl) k0_off632 (fun _ => rfl) (fun _ => rfl) (fun _ => rfl) (fun _ => rfl) (k0_off633 k) (by rw [k0_off633_eq]; rfl) (by rw [k0_off633_eq]; rfl) f',
         pcR m d L hpre 0 13 16 (32 * k.val) (by omega) (by omega) (by omega) (by omega) (k0_off575 k) (by rw [k0_off575_eq]; rfl) k0_off630 (fun _ => rfl) (fun _ => rfl) (fun _ => rfl) (fun _ => rfl) (k0_off631 k) (by rw [k0_off631_eq]; rfl) (by rw [k0_off631_eq]; rfl) f',
         pcR m d L hpre 0 13 0 (32 * k.val) (by omega) (by omega) (by omega) (by omega) (k0_off575 k) (by rw [k0_off575_eq]; rfl) k0_off628 (fun _ => rfl) (fun _ => rfl) (fun _ => rfl) (fun _ => rfl) (k0_off629 k) (by rw [k0_off629_eq]; rfl) (by rw [k0_off629_eq]; rfl) f',
         pcR m d L hpre 0 12 16 (32 * k.val) (by omega) (by omega) (by omega) (by omega) (k0_off575 k) (by rw [k0_off575_eq]; rfl) k0_off626 (fun _ => rfl) (fun _ => rfl) (fun _ => rfl) (fun _ => rfl) (k0_off627 k) (by rw [k0_off627_eq]; rfl) (by rw [k0_off627_eq]; rfl) f',
         pcR m d L hpre 0 12 0 (32 * k.val) (by omega) (by omega) (by omega) (by omega) (k0_off575 k) (by rw [k0_off575_eq]; rfl) k0_off624 (fun _ => rfl) (fun _ => rfl) (fun _ => rfl) (fun _ => rfl) (k0_off625 k) (by rw [k0_off625_eq]; rfl) (by rw [k0_off625_eq]; rfl) f',
         pcR m d L hpre 0 11 16 (32 * k.val) (by omega) (by omega) (by omega) (by omega) (k0_off575 k) (by rw [k0_off575_eq]; rfl) k0_off622 (fun _ => rfl) (fun _ => rfl) (fun _ => rfl) (fun _ => rfl) (k0_off623 k) (by rw [k0_off623_eq]; rfl) (by rw [k0_off623_eq]; rfl) f',
         pcR m d L hpre 0 11 0 (32 * k.val) (by omega) (by omega) (by omega) (by omega) (k0_off575 k) (by rw [k0_off575_eq]; rfl) k0_off620 (fun _ => rfl) (fun _ => rfl) (fun _ => rfl) (fun _ => rfl) (k0_off621 k) (by rw [k0_off621_eq]; rfl) (by rw [k0_off621_eq]; rfl) f',
         pcR m d L hpre 0 10 16 (32 * k.val) (by omega) (by omega) (by omega) (by omega) (k0_off575 k) (by rw [k0_off575_eq]; rfl) k0_off618 (fun _ => rfl) (fun _ => rfl) (fun _ => rfl) (fun _ => rfl) (k0_off619 k) (by rw [k0_off619_eq]; rfl) (by rw [k0_off619_eq]; rfl) f',
         pcR m d L hpre 0 10 0 (32 * k.val) (by omega) (by omega) (by omega) (by omega) (k0_off575 k) (by rw [k0_off575_eq]; rfl) k0_off616 (fun _ => rfl) (fun _ => rfl) (fun _ => rfl) (fun _ => rfl) (k0_off617 k) (by rw [k0_off617_eq]; rfl) (by rw [k0_off617_eq]; rfl) f',
         pcR m d L hpre 0 9 16 (32 * k.val) (by omega) (by omega) (by omega) (by omega) (k0_off575 k) (by rw [k0_off575_eq]; rfl) k0_off614 (fun _ => rfl) (fun _ => rfl) (fun _ => rfl) (fun _ => rfl) (k0_off615 k) (by rw [k0_off615_eq]; rfl) (by rw [k0_off615_eq]; rfl) f',
         pcR m d L hpre 0 9 0 (32 * k.val) (by omega) (by omega) (by omega) (by omega) (k0_off575 k) (by rw [k0_off575_eq]; rfl) k0_off612 (fun _ => rfl) (fun _ => rfl) (fun _ => rfl) (fun _ => rfl) (k0_off613 k) (by rw [k0_off613_eq]; rfl) (by rw [k0_off613_eq]; rfl) f',
         pcR m d L hpre 0 8 16 (32 * k.val) (by omega) (by omega) (by omega) (by omega) (k0_off575 k) (by rw [k0_off575_eq]; rfl) k0_off610 (fun _ => rfl) (fun _ => rfl) (fun _ => rfl) (fun _ => rfl) (k0_off611 k) (by rw [k0_off611_eq]; rfl) (by rw [k0_off611_eq]; rfl) f',
         pcR m d L hpre 0 8 0 (32 * k.val) (by omega) (by omega) (by omega) (by omega) (k0_off575 k) (by rw [k0_off575_eq]; rfl) k0_off608 (fun _ => rfl) (fun _ => rfl) (fun _ => rfl) (fun _ => rfl) (k0_off609 k) (by rw [k0_off609_eq]; rfl) (by rw [k0_off609_eq]; rfl) f',
         pcR m d L hpre 0 7 16 (32 * k.val) (by omega) (by omega) (by omega) (by omega) (k0_off575 k) (by rw [k0_off575_eq]; rfl) k0_off606 (fun _ => rfl) (fun _ => rfl) (fun _ => rfl) (fun _ => rfl) (k0_off607 k) (by rw [k0_off607_eq]; rfl) (by rw [k0_off607_eq]; rfl) f',
         pcR m d L hpre 0 7 0 (32 * k.val) (by omega) (by omega) (by omega) (by omega) (k0_off575 k) (by rw [k0_off575_eq]; rfl) k0_off604 (fun _ => rfl) (fun _ => rfl) (fun _ => rfl) (fun _ => rfl) (k0_off605 k) (by rw [k0_off605_eq]; rfl) (by rw [k0_off605_eq]; rfl) f',
         pcR m d L hpre 0 6 16 (32 * k.val) (by omega) (by omega) (by omega) (by omega) (k0_off575 k) (by rw [k0_off575_eq]; rfl) k0_off602 (fun _ => rfl) (fun _ => rfl) (fun _ => rfl) (fun _ => rfl) (k0_off603 k) (by rw [k0_off603_eq]; rfl) (by rw [k0_off603_eq]; rfl) f',
         pcR m d L hpre 0 6 0 (32 * k.val) (by omega) (by omega) (by omega) (by omega) (k0_off575 k) (by rw [k0_off575_eq]; rfl) k0_off600 (fun _ => rfl) (fun _ => rfl) (fun _ => rfl) (fun _ => rfl) (k0_off601 k) (by rw [k0_off601_eq]; rfl) (by rw [k0_off601_eq]; rfl) f',
         pcR m d L hpre 0 5 16 (32 * k.val) (by omega) (by omega) (by omega) (by omega) (k0_off575 k) (by rw [k0_off575_eq]; rfl) k0_off598 (fun _ => rfl) (fun _ => rfl) (fun _ => rfl) (fun _ => rfl) (k0_off599 k) (by rw [k0_off599_eq]; rfl) (by rw [k0_off599_eq]; rfl) f',
         pcR m d L hpre 0 5 0 (32 * k.val) (by omega) (by omega) (by omega) (by omega) (k0_off575 k) (by rw [k0_off575_eq]; rfl) k0_off596 (fun _ => rfl) (fun _ => rfl) (fun _ => rfl) (fun _ => rfl) (k0_off597 k) (by rw [k0_off597_eq]; rfl) (by rw [k0_off597_eq]; rfl) f',
         pcR m d L hpre 0 4 16 (32 * k.val) (by omega) (by omega) (by omega) (by omega) (k0_off575 k) (by rw [k0_off575_eq]; rfl) k0_off594 (fun _ => rfl) (fun _ => rfl) (fun _ => rfl) (fun _ => rfl) (k0_off595 k) (by rw [k0_off595_eq]; rfl) (by rw [k0_off595_eq]; rfl) f',
         pcR m d L hpre 0 4 0 (32 * k.val) (by omega) (by omega) (by omega) (by omega) (k0_off575 k) (by rw [k0_off575_eq]; rfl) k0_off592 (fun _ => rfl) (fun _ => rfl) (fun _ => rfl) (fun _ => rfl) (k0_off593 k) (by rw [k0_off593_eq]; rfl) (by rw [k0_off593_eq]; rfl) f',
         pcR m d L hpre 0 3 16 (32 * k.val) (by omega) (by omega) (by omega) (by omega) (k0_off575 k) (by rw [k0_off575_eq]; rfl) k0_off590 (fun _ => rfl) (fun _ => rfl) (fun _ => rfl) (fun _ => rfl) (k0_off591 k) (by rw [k0_off591_eq]; rfl) (by rw [k0_off591_eq]; rfl) f',
         pcR m d L hpre 0 3 0 (32 * k.val) (by omega) (by omega) (by omega) (by omega) (k0_off575 k) (by rw [k0_off575_eq]; rfl) k0_off588 (fun _ => rfl) (fun _ => rfl) (fun _ => rfl) (fun _ => rfl) (k0_off589 k) (by rw [k0_off589_eq]; rfl) (by rw [k0_off589_eq]; rfl) f',
         pcR m d L hpre 0 2 16 (32 * k.val) (by omega) (by omega) (by omega) (by omega) (k0_off575 k) (by rw [k0_off575_eq]; rfl) k0_off586 (fun _ => rfl) (fun _ => rfl) (fun _ => rfl) (fun _ => rfl) (k0_off587 k) (by rw [k0_off587_eq]; rfl) (by rw [k0_off587_eq]; rfl) f',
         pcR m d L hpre 0 2 0 (32 * k.val) (by omega) (by omega) (by omega) (by omega) (k0_off575 k) (by rw [k0_off575_eq]; rfl) k0_off584 (fun _ => rfl) (fun _ => rfl) (fun _ => rfl) (fun _ => rfl) (k0_off585 k) (by rw [k0_off585_eq]; rfl) (by rw [k0_off585_eq]; rfl) f',
         pcR m d L hpre 0 1 16 (32 * k.val) (by omega) (by omega) (by omega) (by omega) (k0_off575 k) (by rw [k0_off575_eq]; rfl) k0_off582 (fun _ => rfl) (fun _ => rfl) (fun _ => rfl) (fun _ => rfl) (k0_off583 k) (by rw [k0_off583_eq]; rfl) (by rw [k0_off583_eq]; rfl) f',
         pcR m d L hpre 0 1 0 (32 * k.val) (by omega) (by omega) (by omega) (by omega) (k0_off575 k) (by rw [k0_off575_eq]; rfl) k0_off580 (fun _ => rfl) (fun _ => rfl) (fun _ => rfl) (fun _ => rfl) (k0_off581 k) (by rw [k0_off581_eq]; rfl) (by rw [k0_off581_eq]; rfl) f',
         pcR m d L hpre 0 0 16 (32 * k.val) (by omega) (by omega) (by omega) (by omega) (k0_off575 k) (by rw [k0_off575_eq]; rfl) k0_off578 (fun _ => rfl) (fun _ => rfl) (fun _ => rfl) (fun _ => rfl) (k0_off579 k) (by rw [k0_off579_eq]; rfl) (by rw [k0_off579_eq]; rfl) f',
         pcR m d L hpre 0 0 0 (32 * k.val) (by omega) (by omega) (by omega) (by omega) (k0_off575 k) (by rw [k0_off575_eq]; rfl) k0_off576 (fun _ => rfl) (fun _ => rfl) (fun _ => rfl) (fun _ => rfl) (k0_off577 k) (by rw [k0_off577_eq]; rfl) (by rw [k0_off577_eq]; rfl) f'] i
        = want1 m d L i := by
  intro i hi
  refine rows_ok d L (want1 m d L) o (32 * k.val) ho _ (32 * k.val + 32) ?_ i (by omega)
  refine ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, ⟨_, rfl, rfl, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩, ?_, ?_, ?_⟩
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 0 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 1 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 2 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 3 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 4 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 5 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 6 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 7 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 8 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 9 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 10 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 11 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 12 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 13 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 14 (32 * k.val) _ _ _ _ _ _ _ _ _ _ _ _ _ _ _ _ _ _ _ _ _ _ _ (by omega)
  · exact pcR_good m d L hpre _ _ _ _ _ _ _ _ _ _ _ _ _ _ _ _ _ _ _ (2 * k.val) (by omega) hf'
  · exact pcR_good m d L hpre _ _ _ _ _ _ _ _ _ _ _ _ _ _ _ _ _ _ _ (2 * k.val) (by omega) hf'
  · exact pcR_cover m d L hpre 0 15 (32 * k.val) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 0 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 1 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 2 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 3 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 4 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 5 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 6 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 7 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 8 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 9 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 10 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 11 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 12 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 13 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 14 (32 * k.val + 16) _ _ _ _ _ _ _ _ _ _ _ _ _ _ _ _ _ _ _ _ _ _ _ (by omega)
  · exact pcR_good m d L hpre _ _ _ _ _ _ _ _ _ _ _ _ _ _ _ _ _ _ _ (2 * k.val + 1) (by omega) hf''
  · exact pcR_good m d L hpre _ _ _ _ _ _ _ _ _ _ _ _ _ _ _ _ _ _ _ (2 * k.val + 1) (by omega) hf''
  · exact pcR_cover m d L hpre 1 15 (32 * k.val + 16) _ _ _ _ _ _ _ _ _ _ _ _ _ _ _ _ _ _ _ _ _ _ _ (by omega)

/-! ### A group copy's delivery, in the terms the body computes -/

omit [FloatOps F] in
theorem inbG_of (off : Fin 1 → Nat) (r0 : Nat) (h : off 0 = r0) (hr : r0 + 16 ≤ 256) : ∀ a, off a + S16.size a ≤ S256.size a := by
  intro a
  match a with
  | 0 => rw [h]; show r0 + 16 ≤ 256; exact hr
omit [FloatOps F] in
theorem inbW_of (off : Fin 4 → Nat) (p j : Nat) (h0 : off 0 = p) (h1 : off 1 = j) (h2 : off 2 = 0) (h3 : off 3 = 0)
    (hp : p < 2) (hj : j < 16) : ∀ a, off a + S1x1x8x32.size a ≤ S2x16x8x32.size a := by
  intro a
  match a with
  | 0 => rw [h0]; show p + 1 ≤ 2; omega
  | 1 => rw [h1]; show j + 1 ≤ 16; omega
  | 2 => rw [h2]; show 0 + 8 ≤ 8; omega
  | 3 => rw [h3]; show 0 + 32 ≤ 32; omega
omit [FloatOps F] in
theorem inbT_of (off : Fin 3 → Nat) (g : Nat) (t0 : off 0 = g) (t1 : off 1 = 0) (t2 : off 2 = 0) (hg : g < 125000) :
    ∀ a, off a + S1x8x32.size a ≤ S125000x8x32.size a := by
  intro a
  match a with
  | 0 => rw [t0]; show g + 1 ≤ 125000; omega
  | 1 => rw [t1]; show 0 + 8 ≤ 8; omega
  | 2 => rw [t2]; show 0 + 32 ≤ 32; omega

/-- The j-th of the sixteen group numbers loaded at the position `offG` names, as the body computes it. -/
abbrev gwordAt (fG : Buf (Elt F) ((thr d L).loc cc0_scratch1)) (offG : Fin 1 → Nat) (r0 : Nat) (hG0 : offG 0 = r0)
    (hr0 : r0 + 16 ≤ 256) (j : Nat) (hj : j < 16) : BitVec 32 :=
  extractAt ![0] (extractStridedSlice S1 ![j] (shapeCast S16
    (View.readAt (Elt F) (sGidx).view (Rect.unit (s := S256) offG S16.size (inbG_of offG r0 hG0 hr0)).toLoadRect fG)
    (rfl : S16.ShapeCasts S16)) (slices_of j hj)) (by decide)

theorem gwordAt_eq (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    gwordAt d L fG offG r0 hG0 hr0 j hj = grp (idxAt m d L (r0 + j)) :=
  gidx_word m d L fG (fun j' => hG j' (by have h : (j' 0).val < 256 := (j' 0).isLt; omega)) offG _ r0 j hG0 _ _ _

theorem gwordAt_lt (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (offG : Fin 1 → Nat) (r0 : Nat) (hG0 : offG 0 = r0) (hr0 : r0 + 16 ≤ 256) (j : Nat) (hj : j < 16) :
    (gwordAt d L fG offG r0 hG0 hr0 j hj).toNat < 125000 := by
  rw [gwordAt_eq m d L fG hG]
  obtain ⟨h0, h1⟩ := idxAt_pre m d L hpre (r0 + j)
  have := grp_le _ h0 h1
  omega

/-- What the j-th group copy of chunk c into slot p delivers, in the terms the body computes — its window written with
    the read of the group its group number names, beside anything else — is the window good. -/
theorem deliv_word_good (hpre : PreOK m) (fG : Buf (Elt F) ((thr d L).loc cc0_scratch1))
    (hG : ∀ j : S256.Idx, (j 0).val < 16 * 16 →
      (fG j : BitVec 32) = grp (IDX1v m d L (ValueIdx.ix1 ⟨(j 0).val, by have h : (j 0).val < 256 := (j 0).isLt; omega⟩)))
    (c p j : Nat) (hc : 16 * c + 16 ≤ 256) (hp : p < 2) (hj : j < 16)
    (offG : Fin 1 → Nat) (hG0 : offG 0 = 16 * c)
    (off : Fin 4 → Nat) (h0 : off 0 = p) (h1 : off 1 = j) (h2 : off 2 = 0) (h3 : off 3 = 0)
    (offT : Fin 3 → Nat) (t0 : offT 0 = (gwordAt d L fG offG (16 * c) hG0 hc j hj).toNat) (t1 : offT 1 = 0) (t2 : offT 2 = 0)
    (fprev : Buf (Elt F) ((thr d L).loc cc0_scratch2)) (R : sProp 𝕄) :
    iprop(((sRows).view.loc (thr d L) ↦[(rowsWin off (inbW_of off p j h0 h1 h2 h3 hp hj)).view.set]{fullShare}
            View.write (Elt F) (rowsWin off (inbW_of off p j h0 h1 h2 h3 hp hj)).view fprev
              (ReadAs.same.apply (View.read (Elt F)
                (tabGrp offT (inbT_of offT _ t0 t1 t2 (gwordAt_lt m d L hpre fG hG offG (16 * c) hG0 hc j hj))).view (m (tab2 d))))
              Finset.univ) ∗ R)
      ⊢ GoodG m d L c p j := by
  have t0' := t0
  rw [gwordAt_eq m d L fG hG] at t0'
  iintro ⟨H, -⟩
  iapply (gdeliv_good m d L c p j off _ h0 h1 h2 h3 offT _ t0' t1 t2 fprev)
  iexact H

end Tile

end Cert.Proof.KIS.T3

end
-- ==== Proof.KI3Loop3.lean ====
/-
  The group phase of the first table on one tile: the eight "pairs" of the loop that fetches the eight-row groups of
  indices 0..255 sixteen at a time into a two-slot buffer and picks from each group the row "index mod 8" into the
  staging rows 0..255.

  One pair h: the copies of chunk 2 h + 1 are started into the second slot; the copies of chunk 2 h (started by the
  previous pair, or before the loop) are awaited and the first slot's sixteen windows come home, each holding the group
  of its index; rows 32 h .. 32 h + 15 are picked out of the first slot (row "index mod 8" of the group of index
  16 (2 h) + j: since 8 (i / 8) + i mod 8 = i this is row i of the table); if a pair follows, the copies of chunk
  2 h + 2 are started into the first slot; the second slot's copies are awaited, its windows come home, and rows
  32 h + 16 .. 32 h + 31 are picked out of it.

  The file has: the general lemmas on a buffer held less a list of windows and on windows coming home (sdiffL, rejoinL,
  rejoinLists, rejoin16x16, rejoin16x0); the facts on the windows of the two-slot buffer; the side conditions of the
  body's run-time checks from the precondition; the invariant PairInv; and the loop in continuation form, pair_loop.
-/
import proofs.«207337_g69080253988965_cont_9to1c4b_173_32_alg».proof.Proof.KI3Loop3Val
import proofs.«207337_g69080253988965_cont_9to1c4b_173_32_alg».proof.Proof.KI3Inv

noncomputable section

namespace Cert.Proof.KIS.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

omit [FloatOps F] in
/-- A row of a staged group named by "word mod 8" lies inside the two-slot buffer, for a word read as a non-negative number. -/
theorem slotchk (p j c : Nat) (hp : p < 2) (hj : j < 16) (hc : c ≤ 16) (v : BitVec 32) (hv : 2 * v.toNat < 2 ^ 32) :
    ∀ a, (![p, j, (Scalar.indexCast (Scalar.remsi v 8#32)).toNat, c] : Fin 4 → Nat) a + S1x1x1x16.size a ≤ S2x16x8x32.size a := by
  have h8 : (Scalar.indexCast (Scalar.remsi v 8#32)).toNat = v.toNat % 8 := IntOp.toNat_remsi .scalar hv 8 (by decide) (by decide)
  rw [h8]
  have h7 : v.toNat % 8 < 8 := Nat.mod_lt _ (by decide)
  intro a
  fin_cases a
  · show p + 1 ≤ 2; omega
  · show j + 1 ≤ 16; omega
  · show v.toNat % 8 + 1 ≤ 8; omega
  · show c + 16 ≤ 32; omega

section Lists
variable {ℓ : Loc nD τ sig}

/-- A set less the sets of a list, taken off one after the other. -/
def sdiffL (S : Finset (Idx ℓ)) : List (Finset (Idx ℓ)) → Finset (Idx ℓ)
  | [] => S
  | w :: ws => sdiffL (S \ w) ws

omit [FloatOps F] in
theorem sdiffL_nil (S : Finset (Idx ℓ)) : sdiffL S [] = S := rfl
omit [FloatOps F] in
theorem sdiffL_cons (S : Finset (Idx ℓ)) (w : Finset (Idx ℓ)) (ws : List (Finset (Idx ℓ))) : sdiffL S (w :: ws) = sdiffL (S \ w) ws := rfl

omit [FloatOps F] in
theorem mem_sdiffL (S : Finset (Idx ℓ)) (ws : List (Finset (Idx ℓ))) (i : Idx ℓ) :
    i ∈ sdiffL S ws ↔ i ∈ S ∧ ∀ w ∈ ws, i ∉ w := by
  induction ws generalizing S with
  | nil => simp [sdiffL]
  | cons w ws ih => simp only [sdiffL, ih, Finset.mem_sdiff, List.mem_cons, forall_eq_or_imp]; tauto

omit [FloatOps F] in
/-- Taking two lists of sets off a set, in either order. -/
theorem sdiffL_comm (S : Finset (Idx ℓ)) (l1 l2 : List (Finset (Idx ℓ))) : sdiffL (sdiffL S l1) l2 = sdiffL (sdiffL S l2) l1 := by
  ext i; simp only [mem_sdiffL]; tauto

/-- The separating conjunction of a list of assertions. -/
def sepL : List (sProp 𝕄) → sProp 𝕄
  | [] => iprop(emp)
  | a :: l => iprop(a ∗ sepL l)

omit [FloatOps F] in
theorem sepL_nil : sepL ([] : List (sProp 𝕄)) = iprop(emp) := rfl
omit [FloatOps F] in
theorem sepL_cons (a : sProp 𝕄) (l : List (sProp 𝕄)) : sepL (a :: l) = iprop(a ∗ sepL l) := rfl

omit [FloatOps F] in
/-- Pairwise disjoint pieces of a set, each held at contents of its own, join the rest of the set: the whole set is held
    at contents that agree with each piece's on the piece and with the rest's elsewhere. -/
theorem rejoinL (q : PosShare TreeShare) (ws : List (Finset (Idx ℓ) × Buf (Elt F) ℓ)) :
    ∀ (S : Finset (Idx ℓ)) (f : Buf (Elt F) ℓ), (∀ w ∈ ws.map Prod.fst, w ⊆ S) → (ws.map Prod.fst).Pairwise Disjoint →
    iprop((ℓ ↦[sdiffL S (ws.map Prod.fst)]{q} f) ∗ sepL (ws.map fun p => iprop(ℓ ↦[p.1]{q} p.2)))
      ⊢ (iprop(∃ f' : Buf (Elt F) ℓ, (ℓ ↦[S]{q} f') ∗ ⌜(∀ p ∈ ws, ∀ i ∈ p.1, f' i = p.2 i) ∧ ∀ i, (∀ p ∈ ws, i ∉ p.1) → f' i = f i⌝) : sProp 𝕄) := by
  induction ws with
  | nil =>
    intro S f _ _
    iintro ⟨H, -⟩
    iexists f
    isplitl [H]; · iexact H
    ipureintro; exact ⟨fun p hp => absurd hp (List.not_mem_nil), fun i _ => rfl⟩
  | cons p ws ih =>
    intro S f hsub hdis
    rw [List.map_cons] at hsub hdis
    have hp : p.1 ⊆ S := hsub p.1 (List.mem_cons_self ..)
    rw [List.pairwise_cons] at hdis
    have hsub' : ∀ w ∈ ws.map Prod.fst, w ⊆ S \ p.1 := fun w hw =>
      Finset.subset_sdiff.mpr ⟨hsub w (List.mem_cons_of_mem _ hw), (hdis.1 w hw).symm⟩
    rw [List.map_cons, List.map_cons, sdiffL_cons, sepL_cons]
    iintro ⟨H, Hp, Hws⟩
    ihave H1 := (ih (S \ p.1) f hsub' hdis.2) $$ [H Hws]
    · isplitl [H]; · iexact H
      iexact Hws
    icases H1 with ⟨%f1, H1, %h1⟩
    iexists (p.1.piecewise p.2 f1)
    isplitl [Hp H1]
    · iapply (pointsTo_join_subset hp)
      isplitl [Hp]; · iexact Hp
      iexact H1
    · ipureintro
      refine ⟨?_, ?_⟩
      · intro p' hp' i hi
        rcases List.mem_cons.mp hp' with rfl | hp'
        · exact Finset.piecewise_eq_of_mem _ _ _ hi
        · rw [Finset.piecewise_eq_of_notMem _ _ _ (Finset.disjoint_right.mp (hdis.1 p'.1 (List.mem_map_of_mem hp')) hi)]
          exact h1.1 p' hp' i hi
      · intro i hi
        rw [Finset.piecewise_eq_of_notMem _ _ _ (hi p (List.mem_cons_self ..))]
        exact h1.2 i fun p' hp' => hi p' (List.mem_cons_of_mem _ hp')

omit [FloatOps F] in
/-- The pieces of one list come home while those of another stay out. -/
theorem rejoinLists (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f') ∗ ⌜∀ p ∈ W.zip gs, ∀ i ∈ p.1, f' i = p.2 i⌝) : sProp 𝕄) := by
  have hfst : (W.zip gs).map Prod.fst = W := List.map_fst_zip hlen
  rw [sdiffL_comm]
  have key := rejoinL (F := F) q (W.zip gs) (sdiffL S W') f (by rw [hfst]; exact hsub) (by rw [hfst]; exact hdis)
  rw [hfst] at key
  refine key.trans ?_
  iintro ⟨%f', H, %h⟩
  iexists f'
  isplitl [H]; · iexact H
  ipureintro; exact h.1

omit [FloatOps F] in
/-- The same, the pieces named by their position in the list. -/
theorem rejoinListsAt (q : PosShare TreeShare) (W W' : List (Finset (Idx ℓ))) (S : Finset (Idx ℓ)) (gs : List (Buf (Elt F) ℓ))
    (hlen : W.length ≤ gs.length) (hsub : ∀ w ∈ W, w ⊆ sdiffL S W') (hdis : W.Pairwise Disjoint) (f : Buf (Elt F) ℓ) :
    iprop((ℓ ↦[sdiffL (sdiffL S W) W']{q} f) ∗ sepL ((W.zip gs).map fun p => iprop(ℓ ↦[p.1]{q} p.2)))
      ⊢ (iprop(∃ f' : Buf (Elt F) ℓ, (ℓ ↦[sdiffL S W']{q} f')
          ∗ ⌜∀ (n : Nat) (h1 : n < W.length) (h2 : n < gs.length), ∀ i ∈ W[n], f' i = gs[n] i⌝) : sProp 𝕄) := by
  refine (rejoinLists q W W' S gs hlen hsub hdis f).trans ?_
  iintro ⟨%f', H, %h⟩
  iexists f'
  isplitl [H]; · iexact H
  ipureintro
  intro n h1 h2 i hi
  have hz : n < (W.zip gs).length := by rw [List.length_zip]; omega
  have hmem : (W[n], gs[n]) ∈ W.zip gs := by
    have := List.getElem_mem hz
    rwa [List.getElem_zip] at this
  exact h (W[n], gs[n]) hmem i hi

end Lists

omit [FloatOps F] in
/-- A one-group window of the two-slot buffer, as the body slices and squeezes it, is the set of its slot and place. -/
theorem wS_eq (p j : Nat) (inb : ∀ a, (![p, j, 0, 0] : Fin 4 → Nat) a + S1x1x8x32.size a ≤ S2x16x8x32.size a) :
    (((sRows).slice (Rect.unit (s := S2x16x8x32) ![p, j, 0, 0] S1x1x8x32.size inb) (fun _ => rfl)).squeeze S8x32 squeezes_S1x1x8x32_S8x32).view.set
      = winSet p j := by
  ext i; rw [mem_winSet]; exact mem_rowsWin ![p, j, 0, 0] inb p j rfl rfl rfl rfl i

omit [FloatOps F] in
theorem winSet_disj (p j p' j' : Nat) (h : p ≠ p' ∨ j ≠ j') : Disjoint (winSet p j) (winSet p' j') := by
  rw [Finset.disjoint_left]; intro i hi hi'
  rw [mem_winSet] at hi hi'; omega

/-- The sixteen windows of a slot, in order. -/
def winL (p : Nat) : List (Finset S2x16x8x32.Idx) := ([0, 1, 2, 3, 4, 5, 6, 7, 8, 9, 10, 11, 12, 13, 14, 15] : List Nat).map (winSet p)

omit [FloatOps F] in
theorem winL_pairwise (p : Nat) : (winL p).Pairwise Disjoint := by
  unfold winL
  rw [List.pairwise_map]
  exact List.Pairwise.imp (fun h => winSet_disj _ _ _ _ (Or.inr h)) (by decide : List.Pairwise (· ≠ ·) ([0, 1, 2, 3, 4, 5, 6, 7, 8, 9, 10, 11, 12, 13, 14, 15] : List Nat))

omit [FloatOps F] in
theorem winL_sub (p p' : Nat) (h : p ≠ p') : ∀ w ∈ winL p, w ⊆ sdiffL (ℓ := (thr d L).loc cc0_scratch2) Finset.univ (winL p') := by
  intro w hw i hi
  unfold winL at hw
  obtain ⟨j, -, rfl⟩ := List.mem_map.mp hw
  rw [mem_sdiffL]
  refine ⟨Finset.mem_univ _, ?_⟩
  intro w' hw'
  unfold winL at hw'
  obtain ⟨j', -, rfl⟩ := List.mem_map.mp hw'
  exact Finset.disjoint_left.mp (winSet_disj p j p' j' (Or.inl h)) hi

section Rejoin16
variable {ℓ : Loc nD τ sig}

set_option maxHeartbeats 1000000 in
omit [FloatOps F] in
/-- Sixteen pairwise disjoint pieces come home while sixteen others stay out. -/
theorem rejoin16x16 (a0 a1 a2 a3 a4 a5 a6 a7 a8 a9 a10 a11 a12 a13 a14 a15 b0 b1 b2 b3 b4 b5 b6 b7 b8 b9 b10 b11 b12 b13 b14 b15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([b0, b1, b2, b3, b4, b5, b6, b7, b8, b9, b10, b11, b12, b13, b14, b15] : List (Finset (Idx ℓ))))
    (f g0 g1 g2 g3 g4 g5 g6 g7 g8 g9 g10 g11 g12 g13 g14 g15 : Buf (Elt F) ℓ) :
    ⊢ (iprop(((ℓ ↦[((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[((((((((((((((((Finset.univ \ b0) \ b1) \ b2) \ b3) \ b4) \ b5) \ b6) \ b7) \ b8) \ b9) \ b10) \ b11) \ b12) \ b13) \ b14) \ b15)]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((((((((((((((((((Finset.univ \ a0) \ a1) \ a2) \ a3) \ a4) \ a5) \ a6) \ a7) \ a8) \ a9) \ a10) \ a11) \ a12) \ a13) \ a14) \ a15) \ b0) \ b1) \ b2) \ b3) \ b4) \ b5) \ b6) \ b7) \ b8) \ b9) \ b10) \ b11) \ b12) \ b13) \ b14) \ b15) = sdiffL (sdiffL Finset.univ [a0, a1, a2, a3, a4, a5, a6, a7, a8, a9, a10, a11, a12, a13, a14, a15]) ([b0, b1, b2, b3, b4, b5, b6, b7, b8, b9, b10, b11, b12, b13, b14, b15] : List (Finset (Idx ℓ))) := rfl
  have eA : ((((((((((((((((Finset.univ \ b0) \ b1) \ b2) \ b3) \ b4) \ b5) \ b6) \ b7) \ b8) \ b9) \ b10) \ b11) \ b12) \ b13) \ b14) \ b15) = sdiffL Finset.univ ([b0, b1, b2, b3, b4, b5, b6, b7, b8, b9, b10, b11, b12, b13, b14, b15] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [b0, b1, b2, b3, b4, b5, b6, b7, b8, b9, b10, b11, b12, b13, b14, b15] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

set_option maxHeartbeats 1000000 in
omit [FloatOps F] in
/-- Sixteen pairwise disjoint pieces come home to a buffer otherwise whole. -/
theorem rejoin16x0 (a0 a1 a2 a3 a4 a5 a6 a7 a8 a9 a10 a11 a12 a13 a14 a15 : Finset (Idx ℓ))
    (hdis : [a0, a1, a2, a3, a4, a5, a6, a7, a8, a9, a10, a11, a12, a13, a14, a15].Pairwise Disjoint) (hsub : ∀ w ∈ [a0, a1, a2, a3, a4, a5, a6, a7, a8, a9, a10, a11, a12, a13, a14, a15], w ⊆ sdiffL Finset.univ ([] : List (Finset (Idx ℓ))))
    (f g0 g1 g2 g3 g4 g5 g6 g7 g8 g9 g10 g11 g12 g13 g14 g15 : Buf (Elt F) ℓ) :
    ⊢ (iprop(((ℓ ↦[((((((((((((((((Finset.univ \ a0) \ a1) \ a2) \ a3) \ a4) \ a5) \ a6) \ a7) \ a8) \ a9) \ a10) \ a11) \ a12) \ a13) \ a14) \ a15)]{fullShare} f) -∗ ((ℓ ↦[a0]{fullShare} g0) -∗ ((ℓ ↦[a1]{fullShare} g1) -∗ ((ℓ ↦[a2]{fullShare} g2) -∗ ((ℓ ↦[a3]{fullShare} g3) -∗ ((ℓ ↦[a4]{fullShare} g4) -∗ ((ℓ ↦[a5]{fullShare} g5) -∗ ((ℓ ↦[a6]{fullShare} g6) -∗ ((ℓ ↦[a7]{fullShare} g7) -∗ ((ℓ ↦[a8]{fullShare} g8) -∗ ((ℓ ↦[a9]{fullShare} g9) -∗ ((ℓ ↦[a10]{fullShare} g10) -∗ ((ℓ ↦[a11]{fullShare} g11) -∗ ((ℓ ↦[a12]{fullShare} g12) -∗ ((ℓ ↦[a13]{fullShare} g13) -∗ ((ℓ ↦[a14]{fullShare} g14) -∗ ((ℓ ↦[a15]{fullShare} g15) -∗ (∃ f' : Buf (Elt F) ℓ, (ℓ ↦[Finset.univ]{fullShare} f') ∗ ⌜(∀ i ∈ a0, f' i = g0 i) ∧ (∀ i ∈ a1, f' i = g1 i) ∧ (∀ i ∈ a2, f' i = g2 i) ∧ (∀ i ∈ a3, f' i = g3 i) ∧ (∀ i ∈ a4, f' i = g4 i) ∧ (∀ i ∈ a5, f' i = g5 i) ∧ (∀ i ∈ a6, f' i = g6 i) ∧ (∀ i ∈ a7, f' i = g7 i) ∧ (∀ i ∈ a8, f' i = g8 i) ∧ (∀ i ∈ a9, f' i = g9 i) ∧ (∀ i ∈ a10, f' i = g10 i) ∧ (∀ i ∈ a11, f' i = g11 i) ∧ (∀ i ∈ a12, f' i = g12 i) ∧ (∀ i ∈ a13, f' i = g13 i) ∧ (∀ i ∈ a14, f' i = g14 i) ∧ (∀ i ∈ a15, f' i = g15 i)⌝))))))))))))))))))) : sProp 𝕄) := by
  have eT : ((((((((((((((((Finset.univ \ a0) \ a1) \ a2) \ a3) \ a4) \ a5) \ a6) \ a7) \ a8) \ a9) \ a10) \ a11) \ a12) \ a13) \ a14) \ a15) = sdiffL (sdiffL Finset.univ [a0, a1, a2, a3, a4, a5, a6, a7, a8, a9, a10, a11, a12, a13, a14, a15]) ([] : List (Finset (Idx ℓ))) := rfl
  have eA : Finset.univ = sdiffL Finset.univ ([] : List (Finset (Idx ℓ))) := rfl
  rw [eT, eA]
  iintro H H0 H1 H2 H3 H4 H5 H6 H7 H8 H9 H10 H11 H12 H13 H14 H15
  ihave K := (rejoinListsAt (F := F) (ℓ := ℓ) fullShare [a0, a1, a2, a3, a4, a5, a6, a7, a8, a9, a10, a11, a12, a13, a14, a15] [] Finset.univ [g0, g1, g2, g3, g4, g5, g6, g7, g8, g9, g10, g11, g12, g13, g14, g15] (Nat.le_refl 16) hsub hdis f) $$ [H H0 H1 H2 H3 H4 H5 H6 H7 H8 H9 H10 H11 H12 H13 H14 H15]
  · isplitl [H]; · iexact H
    simp only [List.map_cons, List.map_nil, List.zip_cons_cons, List.zip_nil_left, sepL_cons, sepL_nil]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  icases K with ⟨%f', K, %hK⟩
  iexists f'
  isplitl [K]; · iexact K
  ipureintro
  exact ⟨hK 0 (by show (0 : Nat) < 16; decide) (by show (0 : Nat) < 16; decide), hK 1 (by show (1 : Nat) < 16; decide) (by show (1 : Nat) < 16; decide), hK 2 (by show (2 : Nat) < 16; decide) (by show (2 : Nat) < 16; decide), hK 3 (by show (3 : Nat) < 16; decide) (by show (3 : Nat) < 16; decide), hK 4 (by show (4 : Nat) < 16; decide) (by show (4 : Nat) < 16; decide), hK 5 (by show (5 : Nat) < 16; decide) (by show (5 : Nat) < 16; decide), hK 6 (by show (6 : Nat) < 16; decide) (by show (6 : Nat) < 16; decide), hK 7 (by show (7 : Nat) < 16; decide) (by show (7 : Nat) < 16; decide), hK 8 (by show (8 : Nat) < 16; decide) (by show (8 : Nat) < 16; decide), hK 9 (by show (9 : Nat) < 16; decide) (by show (9 : Nat) < 16; decide), hK 10 (by show (10 : Nat) < 16; decide) (by show (10 : Nat) < 16; decide), hK 11 (by show (11 : Nat) < 16; decide) (by show (11 : Nat) < 16; decide), hK 12 (by show (12 : Nat) < 16; decide) (by show (12 : Nat) < 16; decide), hK 13 (by show (13 : Nat) < 16; decide) (by show (13 : Nat) < 16; decide), hK 14 (by show (14 : Nat) < 16; decide) (by show (14 : Nat) < 16; decide), hK 15 (by show (15 : Nat) < 16; decide) (by show (15 : Nat) < 16; decide)⟩

end Rejoin16

/-- A slot check holds of a word that is one of the tile's indices. -/
theorem slot_ok (hpre : PreOK m) {v : BitVec 32} {r : Nat} (hv : v = idxAt m d L r) (p j c : Nat) (hp : p < 2) (hj : j < 16) (hc : c ≤ 16) :
    ∀ a, (![p, j, (Scalar.indexCast (Scalar.remsi v 8#32)).toNat, c] : Fin 4 → Nat) a + S1x1x1x16.size a ≤ S2x16x8x32.size a :=
  slotchk p j c hp hj hc v (hv ▸ idxAt_nn m d L hpre r)

/-- A group check holds of a word that is the group number of one of the tile's indices. -/
theorem grp_ok (hpre : PreOK m) {v : BitVec 32} {r : Nat} (hv : v = grp (idxAt m d L r)) :
    ∀ a, (![v.toNat, 0, 0] : Fin 3 → Nat) a + S1x8x32.size a ≤ S125000x8x32.size a :=
  hv ▸ grp_chk m d L hpre r

theorem goodG_elim (c p j : Nat) :
    GoodG m d L c p j ⊢ (iprop(∃ g : Buf (Elt F) ((thr d L).loc cc0_scratch2), ((sRows).view.loc (thr d L) ↦[winSet p j]{fullShare} g)
      ∗ ⌜∀ i ∈ winSet p j, g i = rowsVal m d L c i⌝) : sProp 𝕄) := by
  unfold GoodG; exact .rfl

omit [FloatOps F] in
theorem cond1_iff : ∀ k : Fin k0_t11_loop.trips, k0_cond3 k = 1#1 ↔ k.val + 1 < 8 := by decide +kernel

omit [FloatOps F] in
theorem e54 : ∀ k : Fin k0_t11_loop.trips, (k0_off558 k) 0 = 16 * (2 * k.val + 1) := by decide +kernel
omit [FloatOps F] in
theorem e136 : ∀ k : Fin k0_t11_loop.trips, (k0_off640 k) 0 = 16 * (2 * (k.val + 1)) := by decide +kernel

/-- A window of slot p, place j, written whole with the group that the j-th group word of chunk c names, holds the
    group of index 16 c + j. -/
theorem deliv_run (fG : Buf (Elt F) ((thr d L).loc cc0_scratch1))
    (hG : ∀ j : S256.Idx, (fG j : BitVec 32) = grp (IDX1v m d L (ValueIdx.ix1 ⟨(j 0).val, by have h : (j 0).val < 256 := (j 0).isLt; omega⟩)))
    (c p j : Nat) (off : Fin 4 → Nat) (inb : ∀ a, off a + S1x1x8x32.size a ≤ S2x16x8x32.size a)
    (h0 : off 0 = p) (h1 : off 1 = j) (h2 : off 2 = 0) (h3 : off 3 = 0)
    (offG : Fin 1 → Nat) (inbG : ∀ a, offG a + S16.size a ≤ S256.size a) (hoffG : offG 0 = 16 * c)
    (hs1 : S16.ShapeCasts S16) (hs2 : S16.Slices ![j] S1) (hs3 : ∀ a, (![0] : Fin 1 → Nat) a < S1.size a)
    (offT : Fin 3 → Nat) (inbT : ∀ a, offT a + S1x8x32.size a ≤ S125000x8x32.size a)
    (hT0 : offT 0 = (extractAt ![0] (extractStridedSlice S1 ![j] (shapeCast S16 (View.readAt (Elt F) (sGidx).view (Rect.unit (s := S256) offG S16.size inbG).toLoadRect fG) hs1) hs2) hs3).toNat)
    (hT1 : offT 1 = 0) (hT2 : offT 2 = 0) (fprev : Buf (Elt F) ((thr d L).loc cc0_scratch2)) :
    (((sRows).view.loc (thr d L) ↦[(rowsWin off inb).view.set]{fullShare}
        View.write (Elt F) (rowsWin off inb).view fprev (ReadAs.same.apply (View.read (Elt F) (tabGrp offT inbT).view (m (tab2 d)))) Finset.univ) : sProp 𝕄)
      ⊢ GoodG m d L c p j :=
  gdeliv_good m d L c p j off inb h0 h1 h2 h3 offT inbT
    (by rw [hT0, gidx_word m d L fG hG offG inbG (16 * c) j hoffG hs1 hs2 hs3]) hT1 hT2 fprev

omit [FloatOps F] in
theorem wlist0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)) = winL 0 := by
  show _ = [winSet 0 0, winSet 0 1, winSet 0 2, winSet 0 3, winSet 0 4, winSet 0 5, winSet 0 6, winSet 0 7, winSet 0 8, winSet 0 9, winSet 0 10, winSet 0 11, winSet 0 12, winSet 0 13, winSet 0 14, winSet 0 15]
  rw [wS_eq 0 0 inb_S2x16x8x32_S1x1x8x32_0_0_0_0, wS_eq 0 1 inb_S2x16x8x32_S1x1x8x32_0_1_0_0, wS_eq 0 2 inb_S2x16x8x32_S1x1x8x32_0_2_0_0, wS_eq 0 3 inb_S2x16x8x32_S1x1x8x32_0_3_0_0, wS_eq 0 4 inb_S2x16x8x32_S1x1x8x32_0_4_0_0, wS_eq 0 5 inb_S2x16x8x32_S1x1x8x32_0_5_0_0, wS_eq 0 6 inb_S2x16x8x32_S1x1x8x32_0_6_0_0, wS_eq 0 7 inb_S2x16x8x32_S1x1x8x32_0_7_0_0, wS_eq 0 8 inb_S2x16x8x32_S1x1x8x32_0_8_0_0, wS_eq 0 9 inb_S2x16x8x32_S1x1x8x32_0_9_0_0, wS_eq 0 10 inb_S2x16x8x32_S1x1x8x32_0_10_0_0, wS_eq 0 11 inb_S2x16x8x32_S1x1x8x32_0_11_0_0, wS_eq 0 12 inb_S2x16x8x32_S1x1x8x32_0_12_0_0, wS_eq 0 13 inb_S2x16x8x32_S1x1x8x32_0_13_0_0, wS_eq 0 14 inb_S2x16x8x32_S1x1x8x32_0_14_0_0, wS_eq 0 15 inb_S2x16x8x32_S1x1x8x32_0_15_0_0]

omit [FloatOps F] in
theorem wlist1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)) = winL 1 := by
  show _ = [winSet 1 0, winSet 1 1, winSet 1 2, winSet 1 3, winSet 1 4, winSet 1 5, winSet 1 6, winSet 1 7, winSet 1 8, winSet 1 9, winSet 1 10, winSet 1 11, winSet 1 12, winSet 1 13, winSet 1 14, winSet 1 15]
  rw [wS_eq 1 0 inb_S2x16x8x32_S1x1x8x32_1_0_0_0, wS_eq 1 1 inb_S2x16x8x32_S1x1x8x32_1_1_0_0, wS_eq 1 2 inb_S2x16x8x32_S1x1x8x32_1_2_0_0, wS_eq 1 3 inb_S2x16x8x32_S1x1x8x32_1_3_0_0, wS_eq 1 4 inb_S2x16x8x32_S1x1x8x32_1_4_0_0, wS_eq 1 5 inb_S2x16x8x32_S1x1x8x32_1_5_0_0, wS_eq 1 6 inb_S2x16x8x32_S1x1x8x32_1_6_0_0, wS_eq 1 7 inb_S2x16x8x32_S1x1x8x32_1_7_0_0, wS_eq 1 8 inb_S2x16x8x32_S1x1x8x32_1_8_0_0, wS_eq 1 9 inb_S2x16x8x32_S1x1x8x32_1_9_0_0, wS_eq 1 10 inb_S2x16x8x32_S1x1x8x32_1_10_0_0, wS_eq 1 11 inb_S2x16x8x32_S1x1x8x32_1_11_0_0, wS_eq 1 12 inb_S2x16x8x32_S1x1x8x32_1_12_0_0, wS_eq 1 13 inb_S2x16x8x32_S1x1x8x32_1_13_0_0, wS_eq 1 14 inb_S2x16x8x32_S1x1x8x32_1_14_0_0, wS_eq 1 15 inb_S2x16x8x32_S1x1x8x32_1_15_0_0]

omit [FloatOps F] in
theorem hdis0 : ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)).Pairwise Disjoint := by rw [wlist0]; exact winL_pairwise 0
omit [FloatOps F] in
theorem hdis1 : ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)).Pairwise Disjoint := by rw [wlist1]; exact winL_pairwise 1
omit [FloatOps F] in
theorem hsub01 : ∀ w ∈ ([(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] := by
  rw [wlist0, wlist1]; exact winL_sub d L 0 1 (by decide)
omit [FloatOps F] in
theorem hsub10 : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [(((sRows).slice (Rect.unit (s := S2x16x8x32) ![0, 0, 0, 0] S1x1x8x32.size inb_S2x16x8x32_S1x1x8x32_0_0_0_0) (fun _ => rfl)).squeeze S8x32 squeezes_S1x1x8x32_S8x32).view.set, (((sRows).slice (Rect.unit (s := S2x16x8x32) ![0, 1, 0, 0] S1x1x8x32.size inb_S2x16x8x32_S1x1x8x32_0_1_0_0) (fun _ => rfl)).squeeze S8x32 squeezes_S1x1x8x32_S8x32).view.set, (((sRows).slice (Rect.unit (s := S2x16x8x32) ![0, 2, 0, 0] S1x1x8x32.size inb_S2x16x8x32_S1x1x8x32_0_2_0_0) (fun _ => rfl)).squeeze S8x32 squeezes_S1x1x8x32_S8x32).view.set, (((sRows).slice (Rect.unit (s := S2x16x8x32) ![0, 3, 0, 0] S1x1x8x32.size inb_S2x16x8x32_S1x1x8x32_0_3_0_0) (fun _ => rfl)).squeeze S8x32 squeezes_S1x1x8x32_S8x32).view.set, (((sRows).slice (Rect.unit (s := S2x16x8x32) ![0, 4, 0, 0] S1x1x8x32.size inb_S2x16x8x32_S1x1x8x32_0_4_0_0) (fun _ => rfl)).squeeze S8x32 squeezes_S1x1x8x32_S8x32).view.set, (((sRows).slice (Rect.unit (s := S2x16x8x32) ![0, 5, 0, 0] S1x1x8x32.size inb_S2x16x8x32_S1x1x8x32_0_5_0_0) (fun _ => rfl)).squeeze S8x32 squeezes_S1x1x8x32_S8x32).view.set, (((sRows).slice (Rect.unit (s := S2x16x8x32) ![0, 6, 0, 0] S1x1x8x32.size inb_S2x16x8x32_S1x1x8x32_0_6_0_0) (fun _ => rfl)).squeeze S8x32 squeezes_S1x1x8x32_S8x32).view.set, (((sRows).slice (Rect.unit (s := S2x16x8x32) ![0, 7, 0, 0] S1x1x8x32.size inb_S2x16x8x32_S1x1x8x32_0_7_0_0) (fun _ => rfl)).squeeze S8x32 squeezes_S1x1x8x32_S8x32).view.set, (((sRows).slice (Rect.unit (s := S2x16x8x32) ![0, 8, 0, 0] S1x1x8x32.size inb_S2x16x8x32_S1x1x8x32_0_8_0_0) (fun _ => rfl)).squeeze S8x32 squeezes_S1x1x8x32_S8x32).view.set, (((sRows).slice (Rect.unit (s := S2x16x8x32) ![0, 9, 0, 0] S1x1x8x32.size inb_S2x16x8x32_S1x1x8x32_0_9_0_0) (fun _ => rfl)).squeeze S8x32 squeezes_S1x1x8x32_S8x32).view.set, (((sRows).slice (Rect.unit (s := S2x16x8x32) ![0, 10, 0, 0] S1x1x8x32.size inb_S2x16x8x32_S1x1x8x32_0_10_0_0) (fun _ => rfl)).squeeze S8x32 squeezes_S1x1x8x32_S8x32).view.set, (((sRows).slice (Rect.unit (s := S2x16x8x32) ![0, 11, 0, 0] S1x1x8x32.size inb_S2x16x8x32_S1x1x8x32_0_11_0_0) (fun _ => rfl)).squeeze S8x32 squeezes_S1x1x8x32_S8x32).view.set, (((sRows).slice (Rect.unit (s := S2x16x8x32) ![0, 12, 0, 0] S1x1x8x32.size inb_S2x16x8x32_S1x1x8x32_0_12_0_0) (fun _ => rfl)).squeeze S8x32 squeezes_S1x1x8x32_S8x32).view.set, (((sRows).slice (Rect.unit (s := S2x16x8x32) ![0, 13, 0, 0] S1x1x8x32.size inb_S2x16x8x32_S1x1x8x32_0_13_0_0) (fun _ => rfl)).squeeze S8x32 squeezes_S1x1x8x32_S8x32).view.set, (((sRows).slice (Rect.unit (s := S2x16x8x32) ![0, 14, 0, 0] S1x1x8x32.size inb_S2x16x8x32_S1x1x8x32_0_14_0_0) (fun _ => rfl)).squeeze S8x32 squeezes_S1x1x8x32_S8x32).view.set, (((sRows).slice (Rect.unit (s := S2x16x8x32) ![0, 15, 0, 0] S1x1x8x32.size inb_S2x16x8x32_S1x1x8x32_0_15_0_0) (fun _ => rfl)).squeeze S8x32 squeezes_S1x1x8x32_S8x32).view.set] := by
  rw [wlist0, wlist1]; exact winL_sub d L 1 0 (by decide)
omit [FloatOps F] in
theorem hsub1e : ∀ w ∈ ([(((sRows).slice (Rect.unit (s := S2x16x8x32) ![1, 0, 0, 0] S1x1x8x32.size inb_S2x16x8x32_S1x1x8x32_1_0_0_0) (fun _ => rfl)).squeeze S8x32 squeezes_S1x1x8x32_S8x32).view.set, (((sRows).slice (Rect.unit (s := S2x16x8x32) ![1, 1, 0, 0] S1x1x8x32.size inb_S2x16x8x32_S1x1x8x32_1_1_0_0) (fun _ => rfl)).squeeze S8x32 squeezes_S1x1x8x32_S8x32).view.set, (((sRows).slice (Rect.unit (s := S2x16x8x32) ![1, 2, 0, 0] S1x1x8x32.size inb_S2x16x8x32_S1x1x8x32_1_2_0_0) (fun _ => rfl)).squeeze S8x32 squeezes_S1x1x8x32_S8x32).view.set, (((sRows).slice (Rect.unit (s := S2x16x8x32) ![1, 3, 0, 0] S1x1x8x32.size inb_S2x16x8x32_S1x1x8x32_1_3_0_0) (fun _ => rfl)).squeeze S8x32 squeezes_S1x1x8x32_S8x32).view.set, (((sRows).slice (Rect.unit (s := S2x16x8x32) ![1, 4, 0, 0] S1x1x8x32.size inb_S2x16x8x32_S1x1x8x32_1_4_0_0) (fun _ => rfl)).squeeze S8x32 squeezes_S1x1x8x32_S8x32).view.set, (((sRows).slice (Rect.unit (s := S2x16x8x32) ![1, 5, 0, 0] S1x1x8x32.size inb_S2x16x8x32_S1x1x8x32_1_5_0_0) (fun _ => rfl)).squeeze S8x32 squeezes_S1x1x8x32_S8x32).view.set, (((sRows).slice (Rect.unit (s := S2x16x8x32) ![1, 6, 0, 0] S1x1x8x32.size inb_S2x16x8x32_S1x1x8x32_1_6_0_0) (fun _ => rfl)).squeeze S8x32 squeezes_S1x1x8x32_S8x32).view.set, (((sRows).slice (Rect.unit (s := S2x16x8x32) ![1, 7, 0, 0] S1x1x8x32.size inb_S2x16x8x32_S1x1x8x32_1_7_0_0) (fun _ => rfl)).squeeze S8x32 squeezes_S1x1x8x32_S8x32).view.set, (((sRows).slice (Rect.unit (s := S2x16x8x32) ![1, 8, 0, 0] S1x1x8x32.size inb_S2x16x8x32_S1x1x8x32_1_8_0_0) (fun _ => rfl)).squeeze S8x32 squeezes_S1x1x8x32_S8x32).view.set, (((sRows).slice (Rect.unit (s := S2x16x8x32) ![1, 9, 0, 0] S1x1x8x32.size inb_S2x16x8x32_S1x1x8x32_1_9_0_0) (fun _ => rfl)).squeeze S8x32 squeezes_S1x1x8x32_S8x32).view.set, (((sRows).slice (Rect.unit (s := S2x16x8x32) ![1, 10, 0, 0] S1x1x8x32.size inb_S2x16x8x32_S1x1x8x32_1_10_0_0) (fun _ => rfl)).squeeze S8x32 squeezes_S1x1x8x32_S8x32).view.set, (((sRows).slice (Rect.unit (s := S2x16x8x32) ![1, 11, 0, 0] S1x1x8x32.size inb_S2x16x8x32_S1x1x8x32_1_11_0_0) (fun _ => rfl)).squeeze S8x32 squeezes_S1x1x8x32_S8x32).view.set, (((sRows).slice (Rect.unit (s := S2x16x8x32) ![1, 12, 0, 0] S1x1x8x32.size inb_S2x16x8x32_S1x1x8x32_1_12_0_0) (fun _ => rfl)).squeeze S8x32 squeezes_S1x1x8x32_S8x32).view.set, (((sRows).slice (Rect.unit (s := S2x16x8x32) ![1, 13, 0, 0] S1x1x8x32.size inb_S2x16x8x32_S1x1x8x32_1_13_0_0) (fun _ => rfl)).squeeze S8x32 squeezes_S1x1x8x32_S8x32).view.set, (((sRows).slice (Rect.unit (s := S2x16x8x32) ![1, 14, 0, 0] S1x1x8x32.size inb_S2x16x8x32_S1x1x8x32_1_14_0_0) (fun _ => rfl)).squeeze S8x32 squeezes_S1x1x8x32_S8x32).view.set, (((sRows).slice (Rect.unit (s := S2x16x8x32) ![1, 15, 0, 0] S1x1x8x32.size inb_S2x16x8x32_S1x1x8x32_1_15_0_0) (fun _ => rfl)).squeeze S8x32 squeezes_S1x1x8x32_S8x32).view.set] : List (Finset S2x16x8x32.Idx)), w ⊆ sdiffL (ℓ := (thr d L).loc cc0_scratch2) Finset.univ [] :=
  fun w _ => Finset.subset_univ w

/-- Contents that are each window's own on the sixteen windows of slot 0, each window holding its group of chunk c,
    hold the groups of chunk c on the whole slot. -/
theorem rows_of_lit0 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![0, 0, 0, 0] S1x1x8x32.size inb_S2x16x8x32_S1x1x8x32_0_0_0_0) (fun _ => rfl)).squeeze S8x32 squeezes_S1x1x8x32_S8x32).view.set, f' i = g0 i) ∧ (∀ i ∈ (((sRows).slice (Rect.unit (s := S2x16x8x32) ![0, 1, 0, 0] S1x1x8x32.size inb_S2x16x8x32_S1x1x8x32_0_1_0_0) (fun _ => rfl)).squeeze S8x32 squeezes_S1x1x8x32_S8x32).view.set, f' i = g1 i) ∧ (∀ i ∈ (((sRows).slice (Rect.unit (s := S2x16x8x32) ![0, 2, 0, 0] S1x1x8x32.size inb_S2x16x8x32_S1x1x8x32_0_2_0_0) (fun _ => rfl)).squeeze S8x32 squeezes_S1x1x8x32_S8x32).view.set, f' i = g2 i) ∧ (∀ i ∈ (((sRows).slice (Rect.unit (s := S2x16x8x32) ![0, 3, 0, 0] S1x1x8x32.size inb_S2x16x8x32_S1x1x8x32_0_3_0_0) (fun _ => rfl)).squeeze S8x32 squeezes_S1x1x8x32_S8x32).view.set, f' i = g3 i) ∧ (∀ i ∈ (((sRows).slice (Rect.unit (s := S2x16x8x32) ![0, 4, 0, 0] S1x1x8x32.size inb_S2x16x8x32_S1x1x8x32_0_4_0_0) (fun _ => rfl)).squeeze S8x32 squeezes_S1x1x8x32_S8x32).view.set, f' i = g4 i) ∧ (∀ i ∈ (((sRows).slice (Rect.unit (s := S2x16x8x32) ![0, 5, 0, 0] S1x1x8x32.size inb_S2x16x8x32_S1x1x8x32_0_5_0_0) (fun _ => rfl)).squeeze S8x32 squeezes_S1x1x8x32_S8x32).view.set, f' i = g5 i) ∧ (∀ i ∈ (((sRows).slice (Rect.unit (s := S2x16x8x32) ![0, 6, 0, 0] S1x1x8x32.size inb_S2x16x8x32_S1x1x8x32_0_6_0_0) (fun _ => rfl)).squeeze S8x32 squeezes_S1x1x8x32_S8x32).view.set, f' i = g6 i) ∧ (∀ i ∈ (((sRows).slice (Rect.unit (s := S2x16x8x32) ![0, 7, 0, 0] S1x1x8x32.size inb_S2x16x8x32_S1x1x8x32_0_7_0_0) (fun _ => rfl)).squeeze S8x32 squeezes_S1x1x8x32_S8x32).view.set, f' i = g7 i) ∧ (∀ i ∈ (((sRows).slice (Rect.unit (s := S2x16x8x32) ![0, 8, 0, 0] S1x1x8x32.size inb_S2x16x8x32_S1x1x8x32_0_8_0_0) (fun _ => rfl)).squeeze S8x32 squeezes_S1x1x8x32_S8x32).view.set, f' i = g8 i) ∧ (∀ i ∈ (((sRows).slice (Rect.unit (s := S2x16x8x32) ![0, 9, 0, 0] S1x1x8x32.size inb_S2x16x8x32_S1x1x8x32_0_9_0_0) (fun _ => rfl)).squeeze S8x32 squeezes_S1x1x8x32_S8x32).view.set, f' i = g9 i) ∧ (∀ i ∈ (((sRows).slice (Rect.unit (s := S2x16x8x32) ![0, 10, 0, 0] S1x1x8x32.size inb_S2x16x8x32_S1x1x8x32_0_10_0_0) (fun _ => rfl)).squeeze S8x32 squeezes_S1x1x8x32_S8x32).view.set, f' i = g10 i) ∧ (∀ i ∈ (((sRows).slice (Rect.unit (s := S2x16x8x32) ![0, 11, 0, 0] S1x1x8x32.size inb_S2x16x8x32_S1x1x8x32_0_11_0_0) (fun _ => rfl)).squeeze S8x32 squeezes_S1x1x8x32_S8x32).view.set, f' i = g11 i) ∧ (∀ i ∈ (((sRows).slice (Rect.unit (s := S2x16x8x32) ![0, 12, 0, 0] S1x1x8x32.size inb_S2x16x8x32_S1x1x8x32_0_12_0_0) (fun _ => rfl)).squeeze S8x32 squeezes_S1x1x8x32_S8x32).view.set, f' i = g12 i) ∧ (∀ i ∈ (((sRows).slice (Rect.unit (s := S2x16x8x32) ![0, 13, 0, 0] S1x1x8x32.size inb_S2x16x8x32_S1x1x8x32_0_13_0_0) (fun _ => rfl)).squeeze S8x32 squeezes_S1x1x8x32_S8x32).view.set, f' i = g13 i) ∧ (∀ i ∈ (((sRows).slice (Rect.unit (s := S2x16x8x32) ![0, 14, 0, 0] S1x1x8x32.size inb_S2x16x8x32_S1x1x8x32_0_14_0_0) (fun _ => rfl)).squeeze S8x32 squeezes_S1x1x8x32_S8x32).view.set, f' i = g14 i) ∧ (∀ i ∈ (((sRows).slice (Rect.unit (s := S2x16x8x32) ![0, 15, 0, 0] S1x1x8x32.size inb_S2x16x8x32_S1x1x8x32_0_15_0_0) (fun _ => rfl)).squeeze S8x32 squeezes_S1x1x8x32_S8x32).view.set, f' i = g15 i))
    (hg0 : ∀ i ∈ winSet 0 0, g0 i = rowsVal m d L c i) (hg1 : ∀ i ∈ winSet 0 1, g1 i = rowsVal m d L c i) (hg2 : ∀ i ∈ winSet 0 2, g2 i = rowsVal m d L c i) (hg3 : ∀ i ∈ winSet 0 3, g3 i = rowsVal m d L c i) (hg4 : ∀ i ∈ winSet 0 4, g4 i = rowsVal m d L c i) (hg5 : ∀ i ∈ winSet 0 5, g5 i = rowsVal m d L c i) (hg6 : ∀ i ∈ winSet 0 6, g6 i = rowsVal m d L c i) (hg7 : ∀ i ∈ winSet 0 7, g7 i = rowsVal m d L c i) (hg8 : ∀ i ∈ winSet 0 8, g8 i = rowsVal m d L c i) (hg9 : ∀ i ∈ winSet 0 9, g9 i = rowsVal m d L c i) (hg10 : ∀ i ∈ winSet 0 10, g10 i = rowsVal m d L c i) (hg11 : ∀ i ∈ winSet 0 11, g11 i = rowsVal m d L c i) (hg12 : ∀ i ∈ winSet 0 12, g12 i = rowsVal m d L c i) (hg13 : ∀ i ∈ winSet 0 13, g13 i = rowsVal m d L c i) (hg14 : ∀ i ∈ winSet 0 14, g14 i = rowsVal m d L c i) (hg15 : ∀ i ∈ winSet 0 15, g15 i = rowsVal m d L c i) :
    ∀ i : S2x16x8x32.Idx, (i 0).val = 0 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 0 0 := (mem_winSet 0 0 i).mpr ⟨hi0, e⟩
    exact (k0 i ((wS_eq 0 0 inb_S2x16x8x32_S1x1x8x32_0_0_0_0).symm ▸ hm)).trans (hg0 i hm)
  · have hm : i ∈ winSet 0 1 := (mem_winSet 0 1 i).mpr ⟨hi0, e⟩
    exact (k1 i ((wS_eq 0 1 inb_S2x16x8x32_S1x1x8x32_0_1_0_0).symm ▸ hm)).trans (hg1 i hm)
  · have hm : i ∈ winSet 0 2 := (mem_winSet 0 2 i).mpr ⟨hi0, e⟩
    exact (k2 i ((wS_eq 0 2 inb_S2x16x8x32_S1x1x8x32_0_2_0_0).symm ▸ hm)).trans (hg2 i hm)
  · have hm : i ∈ winSet 0 3 := (mem_winSet 0 3 i).mpr ⟨hi0, e⟩
    exact (k3 i ((wS_eq 0 3 inb_S2x16x8x32_S1x1x8x32_0_3_0_0).symm ▸ hm)).trans (hg3 i hm)
  · have hm : i ∈ winSet 0 4 := (mem_winSet 0 4 i).mpr ⟨hi0, e⟩
    exact (k4 i ((wS_eq 0 4 inb_S2x16x8x32_S1x1x8x32_0_4_0_0).symm ▸ hm)).trans (hg4 i hm)
  · have hm : i ∈ winSet 0 5 := (mem_winSet 0 5 i).mpr ⟨hi0, e⟩
    exact (k5 i ((wS_eq 0 5 inb_S2x16x8x32_S1x1x8x32_0_5_0_0).symm ▸ hm)).trans (hg5 i hm)
  · have hm : i ∈ winSet 0 6 := (mem_winSet 0 6 i).mpr ⟨hi0, e⟩
    exact (k6 i ((wS_eq 0 6 inb_S2x16x8x32_S1x1x8x32_0_6_0_0).symm ▸ hm)).trans (hg6 i hm)
  · have hm : i ∈ winSet 0 7 := (mem_winSet 0 7 i).mpr ⟨hi0, e⟩
    exact (k7 i ((wS_eq 0 7 inb_S2x16x8x32_S1x1x8x32_0_7_0_0).symm ▸ hm)).trans (hg7 i hm)
  · have hm : i ∈ winSet 0 8 := (mem_winSet 0 8 i).mpr ⟨hi0, e⟩
    exact (k8 i ((wS_eq 0 8 inb_S2x16x8x32_S1x1x8x32_0_8_0_0).symm ▸ hm)).trans (hg8 i hm)
  · have hm : i ∈ winSet 0 9 := (mem_winSet 0 9 i).mpr ⟨hi0, e⟩
    exact (k9 i ((wS_eq 0 9 inb_S2x16x8x32_S1x1x8x32_0_9_0_0).symm ▸ hm)).trans (hg9 i hm)
  · have hm : i ∈ winSet 0 10 := (mem_winSet 0 10 i).mpr ⟨hi0, e⟩
    exact (k10 i ((wS_eq 0 10 inb_S2x16x8x32_S1x1x8x32_0_10_0_0).symm ▸ hm)).trans (hg10 i hm)
  · have hm : i ∈ winSet 0 11 := (mem_winSet 0 11 i).mpr ⟨hi0, e⟩
    exact (k11 i ((wS_eq 0 11 inb_S2x16x8x32_S1x1x8x32_0_11_0_0).symm ▸ hm)).trans (hg11 i hm)
  · have hm : i ∈ winSet 0 12 := (mem_winSet 0 12 i).mpr ⟨hi0, e⟩
    exact (k12 i ((wS_eq 0 12 inb_S2x16x8x32_S1x1x8x32_0_12_0_0).symm ▸ hm)).trans (hg12 i hm)
  · have hm : i ∈ winSet 0 13 := (mem_winSet 0 13 i).mpr ⟨hi0, e⟩
    exact (k13 i ((wS_eq 0 13 inb_S2x16x8x32_S1x1x8x32_0_13_0_0).symm ▸ hm)).trans (hg13 i hm)
  · have hm : i ∈ winSet 0 14 := (mem_winSet 0 14 i).mpr ⟨hi0, e⟩
    exact (k14 i ((wS_eq 0 14 inb_S2x16x8x32_S1x1x8x32_0_14_0_0).symm ▸ hm)).trans (hg14 i hm)
  · have hm : i ∈ winSet 0 15 := (mem_winSet 0 15 i).mpr ⟨hi0, e⟩
    exact (k15 i ((wS_eq 0 15 inb_S2x16x8x32_S1x1x8x32_0_15_0_0).symm ▸ hm)).trans (hg15 i hm)

/-- Contents that are each window's own on the sixteen windows of slot 1, each window holding its group of chunk c,
    hold the groups of chunk c on the whole slot. -/
theorem rows_of_lit1 (c : Nat) (f' g0 g1 g2 g3 g4 g5 g6 g7 g8 g9 g10 g11 g12 g13 g14 g15 : Buf (Elt F) ((thr d L).loc cc0_scratch2))
    (hK : (∀ i ∈ (((sRows).slice (Rect.unit (s := S2x16x8x32) ![1, 0, 0, 0] S1x1x8x32.size inb_S2x16x8x32_S1x1x8x32_1_0_0_0) (fun _ => rfl)).squeeze S8x32 squeezes_S1x1x8x32_S8x32).view.set, f' i = g0 i) ∧ (∀ i ∈ (((sRows).slice (Rect.unit (s := S2x16x8x32) ![1, 1, 0, 0] S1x1x8x32.size inb_S2x16x8x32_S1x1x8x32_1_1_0_0) (fun _ => rfl)).squeeze S8x32 squeezes_S1x1x8x32_S8x32).view.set, f' i = g1 i) ∧ (∀ i ∈ (((sRows).slice (Rect.unit (s := S2x16x8x32) ![1, 2, 0, 0] S1x1x8x32.size inb_S2x16x8x32_S1x1x8x32_1_2_0_0) (fun _ => rfl)).squeeze S8x32 squeezes_S1x1x8x32_S8x32).view.set, f' i = g2 i) ∧ (∀ i ∈ (((sRows).slice (Rect.unit (s := S2x16x8x32) ![1, 3, 0, 0] S1x1x8x32.size inb_S2x16x8x32_S1x1x8x32_1_3_0_0) (fun _ => rfl)).squeeze S8x32 squeezes_S1x1x8x32_S8x32).view.set, f' i = g3 i) ∧ (∀ i ∈ (((sRows).slice (Rect.unit (s := S2x16x8x32) ![1, 4, 0, 0] S1x1x8x32.size inb_S2x16x8x32_S1x1x8x32_1_4_0_0) (fun _ => rfl)).squeeze S8x32 squeezes_S1x1x8x32_S8x32).view.set, f' i = g4 i) ∧ (∀ i ∈ (((sRows).slice (Rect.unit (s := S2x16x8x32) ![1, 5, 0, 0] S1x1x8x32.size inb_S2x16x8x32_S1x1x8x32_1_5_0_0) (fun _ => rfl)).squeeze S8x32 squeezes_S1x1x8x32_S8x32).view.set, f' i = g5 i) ∧ (∀ i ∈ (((sRows).slice (Rect.unit (s := S2x16x8x32) ![1, 6, 0, 0] S1x1x8x32.size inb_S2x16x8x32_S1x1x8x32_1_6_0_0) (fun _ => rfl)).squeeze S8x32 squeezes_S1x1x8x32_S8x32).view.set, f' i = g6 i) ∧ (∀ i ∈ (((sRows).slice (Rect.unit (s := S2x16x8x32) ![1, 7, 0, 0] S1x1x8x32.size inb_S2x16x8x32_S1x1x8x32_1_7_0_0) (fun _ => rfl)).squeeze S8x32 squeezes_S1x1x8x32_S8x32).view.set, f' i = g7 i) ∧ (∀ i ∈ (((sRows).slice (Rect.unit (s := S2x16x8x32) ![1, 8, 0, 0] S1x1x8x32.size inb_S2x16x8x32_S1x1x8x32_1_8_0_0) (fun _ => rfl)).squeeze S8x32 squeezes_S1x1x8x32_S8x32).view.set, f' i = g8 i) ∧ (∀ i ∈ (((sRows).slice (Rect.unit (s := S2x16x8x32) ![1, 9, 0, 0] S1x1x8x32.size inb_S2x16x8x32_S1x1x8x32_1_9_0_0) (fun _ => rfl)).squeeze S8x32 squeezes_S1x1x8x32_S8x32).view.set, f' i = g9 i) ∧ (∀ i ∈ (((sRows).slice (Rect.unit (s := S2x16x8x32) ![1, 10, 0, 0] S1x1x8x32.size inb_S2x16x8x32_S1x1x8x32_1_10_0_0) (fun _ => rfl)).squeeze S8x32 squeezes_S1x1x8x32_S8x32).view.set, f' i = g10 i) ∧ (∀ i ∈ (((sRows).slice (Rect.unit (s := S2x16x8x32) ![1, 11, 0, 0] S1x1x8x32.size inb_S2x16x8x32_S1x1x8x32_1_11_0_0) (fun _ => rfl)).squeeze S8x32 squeezes_S1x1x8x32_S8x32).view.set, f' i = g11 i) ∧ (∀ i ∈ (((sRows).slice (Rect.unit (s := S2x16x8x32) ![1, 12, 0, 0] S1x1x8x32.size inb_S2x16x8x32_S1x1x8x32_1_12_0_0) (fun _ => rfl)).squeeze S8x32 squeezes_S1x1x8x32_S8x32).view.set, f' i = g12 i) ∧ (∀ i ∈ (((sRows).slice (Rect.unit (s := S2x16x8x32) ![1, 13, 0, 0] S1x1x8x32.size inb_S2x16x8x32_S1x1x8x32_1_13_0_0) (fun _ => rfl)).squeeze S8x32 squeezes_S1x1x8x32_S8x32).view.set, f' i = g13 i) ∧ (∀ i ∈ (((sRows).slice (Rect.unit (s := S2x16x8x32) ![1, 14, 0, 0] S1x1x8x32.size inb_S2x16x8x32_S1x1x8x32_1_14_0_0) (fun _ => rfl)).squeeze S8x32 squeezes_S1x1x8x32_S8x32).view.set, f' i = g14 i) ∧ (∀ i ∈ (((sRows).slice (Rect.unit (s := S2x16x8x32) ![1, 15, 0, 0] S1x1x8x32.size inb_S2x16x8x32_S1x1x8x32_1_15_0_0) (fun _ => rfl)).squeeze S8x32 squeezes_S1x1x8x32_S8x32).view.set, f' i = g15 i))
    (hg0 : ∀ i ∈ winSet 1 0, g0 i = rowsVal m d L c i) (hg1 : ∀ i ∈ winSet 1 1, g1 i = rowsVal m d L c i) (hg2 : ∀ i ∈ winSet 1 2, g2 i = rowsVal m d L c i) (hg3 : ∀ i ∈ winSet 1 3, g3 i = rowsVal m d L c i) (hg4 : ∀ i ∈ winSet 1 4, g4 i = rowsVal m d L c i) (hg5 : ∀ i ∈ winSet 1 5, g5 i = rowsVal m d L c i) (hg6 : ∀ i ∈ winSet 1 6, g6 i = rowsVal m d L c i) (hg7 : ∀ i ∈ winSet 1 7, g7 i = rowsVal m d L c i) (hg8 : ∀ i ∈ winSet 1 8, g8 i = rowsVal m d L c i) (hg9 : ∀ i ∈ winSet 1 9, g9 i = rowsVal m d L c i) (hg10 : ∀ i ∈ winSet 1 10, g10 i = rowsVal m d L c i) (hg11 : ∀ i ∈ winSet 1 11, g11 i = rowsVal m d L c i) (hg12 : ∀ i ∈ winSet 1 12, g12 i = rowsVal m d L c i) (hg13 : ∀ i ∈ winSet 1 13, g13 i = rowsVal m d L c i) (hg14 : ∀ i ∈ winSet 1 14, g14 i = rowsVal m d L c i) (hg15 : ∀ i ∈ winSet 1 15, g15 i = rowsVal m d L c i) :
    ∀ i : S2x16x8x32.Idx, (i 0).val = 1 → f' i = rowsVal m d L c i := by
  obtain ⟨k0, k1, k2, k3, k4, k5, k6, k7, k8, k9, k10, k11, k12, k13, k14, k15⟩ := hK
  intro i hi0
  have hi1 : (i 1).val < 16 := (i 1).isLt
  have hcases : (i 1).val = 0 ∨ (i 1).val = 1 ∨ (i 1).val = 2 ∨ (i 1).val = 3 ∨ (i 1).val = 4 ∨ (i 1).val = 5 ∨ (i 1).val = 6 ∨ (i 1).val = 7 ∨ (i 1).val = 8 ∨ (i 1).val = 9 ∨ (i 1).val = 10 ∨ (i 1).val = 11 ∨ (i 1).val = 12 ∨ (i 1).val = 13 ∨ (i 1).val = 14 ∨ (i 1).val = 15 := by omega
  rcases hcases with e | e | e | e | e | e | e | e | e | e | e | e | e | e | e | e
  · have hm : i ∈ winSet 1 0 := (mem_winSet 1 0 i).mpr ⟨hi0, e⟩
    exact (k0 i ((wS_eq 1 0 inb_S2x16x8x32_S1x1x8x32_1_0_0_0).symm ▸ hm)).trans (hg0 i hm)
  · have hm : i ∈ winSet 1 1 := (mem_winSet 1 1 i).mpr ⟨hi0, e⟩
    exact (k1 i ((wS_eq 1 1 inb_S2x16x8x32_S1x1x8x32_1_1_0_0).symm ▸ hm)).trans (hg1 i hm)
  · have hm : i ∈ winSet 1 2 := (mem_winSet 1 2 i).mpr ⟨hi0, e⟩
    exact (k2 i ((wS_eq 1 2 inb_S2x16x8x32_S1x1x8x32_1_2_0_0).symm ▸ hm)).trans (hg2 i hm)
  · have hm : i ∈ winSet 1 3 := (mem_winSet 1 3 i).mpr ⟨hi0, e⟩
    exact (k3 i ((wS_eq 1 3 inb_S2x16x8x32_S1x1x8x32_1_3_0_0).symm ▸ hm)).trans (hg3 i hm)
  · have hm : i ∈ winSet 1 4 := (mem_winSet 1 4 i).mpr ⟨hi0, e⟩
    exact (k4 i ((wS_eq 1 4 inb_S2x16x8x32_S1x1x8x32_1_4_0_0).symm ▸ hm)).trans (hg4 i hm)
  · have hm : i ∈ winSet 1 5 := (mem_winSet 1 5 i).mpr ⟨hi0, e⟩
    exact (k5 i ((wS_eq 1 5 inb_S2x16x8x32_S1x1x8x32_1_5_0_0).symm ▸ hm)).trans (hg5 i hm)
  · have hm : i ∈ winSet 1 6 := (mem_winSet 1 6 i).mpr ⟨hi0, e⟩
    exact (k6 i ((wS_eq 1 6 inb_S2x16x8x32_S1x1x8x32_1_6_0_0).symm ▸ hm)).trans (hg6 i hm)
  · have hm : i ∈ winSet 1 7 := (mem_winSet 1 7 i).mpr ⟨hi0, e⟩
    exact (k7 i ((wS_eq 1 7 inb_S2x16x8x32_S1x1x8x32_1_7_0_0).symm ▸ hm)).trans (hg7 i hm)
  · have hm : i ∈ winSet 1 8 := (mem_winSet 1 8 i).mpr ⟨hi0, e⟩
    exact (k8 i ((wS_eq 1 8 inb_S2x16x8x32_S1x1x8x32_1_8_0_0).symm ▸ hm)).trans (hg8 i hm)
  · have hm : i ∈ winSet 1 9 := (mem_winSet 1 9 i).mpr ⟨hi0, e⟩
    exact (k9 i ((wS_eq 1 9 inb_S2x16x8x32_S1x1x8x32_1_9_0_0).symm ▸ hm)).trans (hg9 i hm)
  · have hm : i ∈ winSet 1 10 := (mem_winSet 1 10 i).mpr ⟨hi0, e⟩
    exact (k10 i ((wS_eq 1 10 inb_S2x16x8x32_S1x1x8x32_1_10_0_0).symm ▸ hm)).trans (hg10 i hm)
  · have hm : i ∈ winSet 1 11 := (mem_winSet 1 11 i).mpr ⟨hi0, e⟩
    exact (k11 i ((wS_eq 1 11 inb_S2x16x8x32_S1x1x8x32_1_11_0_0).symm ▸ hm)).trans (hg11 i hm)
  · have hm : i ∈ winSet 1 12 := (mem_winSet 1 12 i).mpr ⟨hi0, e⟩
    exact (k12 i ((wS_eq 1 12 inb_S2x16x8x32_S1x1x8x32_1_12_0_0).symm ▸ hm)).trans (hg12 i hm)
  · have hm : i ∈ winSet 1 13 := (mem_winSet 1 13 i).mpr ⟨hi0, e⟩
    exact (k13 i ((wS_eq 1 13 inb_S2x16x8x32_S1x1x8x32_1_13_0_0).symm ▸ hm)).trans (hg13 i hm)
  · have hm : i ∈ winSet 1 14 := (mem_winSet 1 14 i).mpr ⟨hi0, e⟩
    exact (k14 i ((wS_eq 1 14 inb_S2x16x8x32_S1x1x8x32_1_14_0_0).symm ▸ hm)).trans (hg14 i hm)
  · have hm : i ∈ winSet 1 15 := (mem_winSet 1 15 i).mpr ⟨hi0, e⟩
    exact (k15 i ((wS_eq 1 15 inb_S2x16x8x32_S1x1x8x32_1_15_0_0).symm ▸ hm)).trans (hg15 i hm)

theorem goodG_elim_win (c p j : Nat) (off : Fin 4 → Nat) (inb : ∀ a, off a + S1x1x8x32.size a ≤ S2x16x8x32.size a)
    (h0 : off 0 = p) (h1 : off 1 = j) (h2 : off 2 = 0) (h3 : off 3 = 0) :
    GoodG m d L c p j ⊢ (iprop(∃ g : Buf (Elt F) ((thr d L).loc cc0_scratch2), ((sRows).view.loc (thr d L) ↦[(rowsWin off inb).view.set]{fullShare} g)
      ∗ ⌜∀ i ∈ winSet p j, g i = rowsVal m d L c i⌝) : sProp 𝕄) := by
  rw [set_rowsWin off inb p j h0 h1 h2 h3]; exact goodG_elim m d L c p j

omit [FloatOps F] in
/-- A window of the staging buffer that starts at a row below 256 (one row high) has no element in the rows from 256 on. -/
theorem out_disj (g : Fin k0_t11_loop.trips → Fin 2 → Nat) (hg : ∀ k', g k' 0 < 256) (k : Fin k0_t11_loop.trips)
    (sz : Fin 2 → Nat) (inb : ∀ a, g k a + sz a ≤ S512x32.size a) (hsz : sz 0 = 1) :
    Disjoint ((sOut).view.setOn (Rect.unit (s := S512x32) (g k) sz inb).set) (orowsFrom 256) := by
  rw [Finset.disjoint_left]
  intro i hi hi'
  have hset : (sOut).view.setOn (Rect.unit (s := S512x32) (g k) sz inb).set = (Rect.unit (s := S512x32) (g k) sz inb).set := Finset.map_refl
  rw [hset, Rect.mem_set_unit] at hi
  have h0 := hi 0
  unfold orowsFrom at hi'
  rw [Finset.mem_filter] at hi'
  have := hg k
  rw [hsz] at h0
  omega

omit [FloatOps F] in
/-- The same for the elements a store through such a window writes. -/
theorem out_disj_st (g : Fin k0_t11_loop.trips → Fin 2 → Nat) (hg : ∀ k', g k' 0 < 256) (k : Fin k0_t11_loop.trips)
    (sz : Fin 2 → Nat) (inb : ∀ a, g k a + sz a ≤ S512x32.size a) (hsz : sz 0 = 1) :
    Disjoint ((sOut).access (Rect.unit (s := S512x32) (g k) sz inb)).set (orowsFrom 256) := by
  have e : ((sOut).access (Rect.unit (s := S512x32) (g k) sz inb)).set = (sOut).view.setOn (Rect.unit (s := S512x32) (g k) sz inb).set :=
    View.set_slice _ _
  rw [e]; exact out_disj g hg k sz inb hsz

/-- What is left of the tile's read share of the first table once the tokens of a pair's copies are cut off it. -/
def TabRest : sProp 𝕄 := iprop(∃ q' : PosShare TreeShare, (t2W).view.loc (thr d L) ↦{q'} m (tab2 d))

theorem tabRest_elim : TabRest m d L ⊢ (iprop(∃ q' : PosShare TreeShare, (t2W).view.loc (thr d L) ↦{q'} m (tab2 d)) : sProp 𝕄) := by
  unfold TabRest; exact .rfl

/-- Before pair h of the group phase (and, at h = 8, after it): the indices and their group numbers in place; the table
    readable; the staging rows below 32 h filled; the second slot's semaphore at rest; while pairs remain, the first
    slot's sixteen windows out with the copies of chunk 2 h, each of which delivers its window holding its group; at the
    end both slots back and the first semaphore at rest. -/
def PairInv (O : CellTallies nD τ sig (HIx 1)) (W : Waits sig (HIx 1)) (h : Nat) (_ : PUnit) : sProp 𝕄 :=
  iprop(Transfers.MayWaits (thr d L) (none : HIx 1) O
    ∗ ((sIdx).view.loc (thr d L) ↦{fullShare} IDX1 m d L)
    ∗ GRP1 m d L
    ∗ (∃ q' : PosShare TreeShare, (t2W).view.loc (thr d L) ↦{q'} m (tab2 d))
    ∗ (∃ o : Buf (Elt F) ((thr d L).loc cc0_scratch3), ((sOut).view.loc (thr d L) ↦[Finset.univ \ orowsFrom 256]{fullShare} o)
        ∗ ⌜∀ i : S512x32.Idx, (i 0).val < 32 * h → o i = want1 m d L i⌝)
    ∗ semVal (thr d L, SemLoc.dma cc0_scratch5.sem) 0
    ∗ (if h < 8 then
        iprop(∃ (fR : Buf (Elt F) ((thr d L).loc cc0_scratch2)) (D0 D1 D2 D3 D4 D5 D6 D7 D8 D9 D10 D11 D12 D13 D14 D15 : sProp 𝕄),
          ((sRows).view.loc (thr d L) ↦[((((((((((((((((Finset.univ \ (((sRows).slice (Rect.unit (s := S2x16x8x32) ![0, 0, 0, 0] S1x1x8x32.size inb_S2x16x8x32_S1x1x8x32_0_0_0_0) (fun _ => rfl)).squeeze S8x32 squeezes_S1x1x8x32_S8x32).view.set) \ (((sRows).slice (Rect.unit (s := S2x16x8x32) ![0, 1, 0, 0] S1x1x8x32.size inb_S2x16x8x32_S1x1x8x32_0_1_0_0) (fun _ => rfl)).squeeze S8x32 squeezes_S1x1x8x32_S8x32).view.set) \ (((sRows).slice (Rect.unit (s := S2x16x8x32) ![0, 2, 0, 0] S1x1x8x32.size inb_S2x16x8x32_S1x1x8x32_0_2_0_0) (fun _ => rfl)).squeeze S8x32 squeezes_S1x1x8x32_S8x32).view.set) \ (((sRows).slice (Rect.unit (s := S2x16x8x32) ![0, 3, 0, 0] S1x1x8x32.size inb_S2x16x8x32_S1x1x8x32_0_3_0_0) (fun _ => rfl)).squeeze S8x32 squeezes_S1x1x8x32_S8x32).view.set) \ (((sRows).slice (Rect.unit (s := S2x16x8x32) ![0, 4, 0, 0] S1x1x8x32.size inb_S2x16x8x32_S1x1x8x32_0_4_0_0) (fun _ => rfl)).squeeze S8x32 squeezes_S1x1x8x32_S8x32).view.set) \ (((sRows).slice (Rect.unit (s := S2x16x8x32) ![0, 5, 0, 0] S1x1x8x32.size inb_S2x16x8x32_S1x1x8x32_0_5_0_0) (fun _ => rfl)).squeeze S8x32 squeezes_S1x1x8x32_S8x32).view.set) \ (((sRows).slice (Rect.unit (s := S2x16x8x32) ![0, 6, 0, 0] S1x1x8x32.size inb_S2x16x8x32_S1x1x8x32_0_6_0_0) (fun _ => rfl)).squeeze S8x32 squeezes_S1x1x8x32_S8x32).view.set) \ (((sRows).slice (Rect.unit (s := S2x16x8x32) ![0, 7, 0, 0] S1x1x8x32.size inb_S2x16x8x32_S1x1x8x32_0_7_0_0) (fun _ => rfl)).squeeze S8x32 squeezes_S1x1x8x32_S8x32).view.set) \ (((sRows).slice (Rect.unit (s := S2x16x8x32) ![0, 8, 0, 0] S1x1x8x32.size inb_S2x16x8x32_S1x1x8x32_0_8_0_0) (fun _ => rfl)).squeeze S8x32 squeezes_S1x1x8x32_S8x32).view.set) \ (((sRows).slice (Rect.unit (s := S2x16x8x32) ![0, 9, 0, 0] S1x1x8x32.size inb_S2x16x8x32_S1x1x8x32_0_9_0_0) (fun _ => rfl)).squeeze S8x32 squeezes_S1x1x8x32_S8x32).view.set) \ (((sRows).slice (Rect.unit (s := S2x16x8x32) ![0, 10, 0, 0] S1x1x8x32.size inb_S2x16x8x32_S1x1x8x32_0_10_0_0) (fun _ => rfl)).squeeze S8x32 squeezes_S1x1x8x32_S8x32).view.set) \ (((sRows).slice (Rect.unit (s := S2x16x8x32) ![0, 11, 0, 0] S1x1x8x32.size inb_S2x16x8x32_S1x1x8x32_0_11_0_0) (fun _ => rfl)).squeeze S8x32 squeezes_S1x1x8x32_S8x32).view.set) \ (((sRows).slice (Rect.unit (s := S2x16x8x32) ![0, 12, 0, 0] S1x1x8x32.size inb_S2x16x8x32_S1x1x8x32_0_12_0_0) (fun _ => rfl)).squeeze S8x32 squeezes_S1x1x8x32_S8x32).view.set) \ (((sRows).slice (Rect.unit (s := S2x16x8x32) ![0, 13, 0, 0] S1x1x8x32.size inb_S2x16x8x32_S1x1x8x32_0_13_0_0) (fun _ => rfl)).squeeze S8x32 squeezes_S1x1x8x32_S8x32).view.set) \ (((sRows).slice (Rect.unit (s := S2x16x8x32) ![0, 14, 0, 0] S1x1x8x32.size inb_S2x16x8x32_S1x1x8x32_0_14_0_0) (fun _ => rfl)).squeeze S8x32 squeezes_S1x1x8x32_S8x32).view.set) \ (((sRows).slice (Rect.unit (s := S2x16x8x32) ![0, 15, 0, 0] S1x1x8x32.size inb_S2x16x8x32_S1x1x8x32_0_15_0_0) (fun _ => rfl)).squeeze S8x32 squeezes_S1x1x8x32_S8x32).view.set)]{fullShare} fR)
          ∗ Transfers.Batched (countersEmb (U := UU)) (thr d L) (SemLoc.dma cc0_scratch4.sem) (default : HIx 1) 8192 16 [D0, D1, D2, D3, D4, D5, D6, D7, D8, D9, D10, D11, D12, D13, D14, D15] 0
          ∗ ⌜(D0 ⊢ GoodG m d L (2 * h) 0 0) ∧ (D1 ⊢ GoodG m d L (2 * h) 0 1) ∧ (D2 ⊢ GoodG m d L (2 * h) 0 2) ∧ (D3 ⊢ GoodG m d L (2 * h) 0 3) ∧ (D4 ⊢ GoodG m d L (2 * h) 0 4) ∧ (D5 ⊢ GoodG m d L (2 * h) 0 5) ∧ (D6 ⊢ GoodG m d L (2 * h) 0 6) ∧ (D7 ⊢ GoodG m d L (2 * h) 0 7) ∧ (D8 ⊢ GoodG m d L (2 * h) 0 8) ∧ (D9 ⊢ GoodG m d L (2 * h) 0 9) ∧ (D10 ⊢ GoodG m d L (2 * h) 0 10) ∧ (D11 ⊢ GoodG m d L (2 * h) 0 11) ∧ (D12 ⊢ GoodG m d L (2 * h) 0 12) ∧ (D13 ⊢ GoodG m d L (2 * h) 0 13) ∧ (D14 ⊢ GoodG m d L (2 * h) 0 14) ∧ (D15 ⊢ GoodG m d L (2 * h) 0 15)⌝)
      else
        iprop((∃ fR : Buf (Elt F) ((thr d L).loc cc0_scratch2), (sRows).view.loc (thr d L) ↦{fullShare} fR)
          ∗ semVal (thr d L, SemLoc.dma cc0_scratch4.sem) 0))
    ∗ ∃ W' : Waits sig (HIx 1), ⌜∀ p ∈ W', p ∈ W ∨ p.2 = none⌝ ∗ owes (thr d L) O W')

omit [FloatOps F] in
/-- Recording one more wait at the index every wait here uses keeps the recorded waits within the allowed ones. -/
theorem waits_ins3 {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxRecDepth 8192 in
set_option maxHeartbeats 0 in
/-- The group phase of the first table in continuation form: from the state before the first pair, the eight pairs
    leave the state after the last one.  One pair: the second slot's sixteen copies are started; the first slot's are
    awaited and its windows come home, each holding its group; sixteen rows are picked out of the first slot; if pairs
    remain the first slot's next copies are started; the second slot's are awaited, its windows come home, and sixteen
    rows are picked out of it. -/
theorem pair_loop (hpre : PreOK m) (O : CellTallies nD τ sig (HIx 1)) (W : Waits sig (HIx 1))
    (Q : PUnit → sProp 𝕄) :
    iprop(PairInv m d L O W 0 ⟨⟩ ∗ (PairInv m d L O W 8 ⟨⟩ -∗ Q ⟨⟩))
      ⊢ wp frame (wpE (defs₀ (F := F)) 𝒱₀ (thr d L) none) Set.univ
          (Scf.Loop.for k0_t11_loop k0_t11_ok ⟨⟩ (k0_t11_body L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)) Q := by
  iintro ⟨HI, HQ⟩
  sl_for (PairInv m d L O W) $$ [HI HQ]
  case region =>
    intro k acc
    have hk : k.val < 8 := k.isLt
    have _plan0 : Transfers.BatchOf (thr d L) (SemLoc.dma (sig := sig) cc0_scratch4.sem) 16 (windows := true) := trivial
    have _plan1 : Transfers.BatchOf (thr d L) (SemLoc.dma (sig := sig) cc0_scratch5.sem) 16 (windows := true) := trivial
    unfold PairInv GRP1
    rw [if_pos hk]
    iintro ⟨#Hmw, HsI, ⟨%fG, HsG, %hG⟩, ⟨%q', Ht⟩, ⟨%o, HsO, %ho⟩, Hg1, ⟨%fR, %D0, %D1, %D2, %D3, %D4, %D5, %D6, %D7, %D8, %D9, %D10, %D11, %D12, %D13, %D14, %D15, HsR, Hg0, %hD⟩, %W', %hW', HO⟩
    ihave Hc := (tok_cut _ _) $$ Ht; icases Hc with ⟨Ht, Ht0⟩
    ihave Hc := (tok_cut _ _) $$ Ht; icases Hc with ⟨Ht, Ht1⟩
    ihave Hc := (tok_cut _ _) $$ Ht; icases Hc with ⟨Ht, Ht2⟩
    ihave Hc := (tok_cut _ _) $$ Ht; icases Hc with ⟨Ht, Ht3⟩
    ihave Hc := (tok_cut _ _) $$ Ht; icases Hc with ⟨Ht, Ht4⟩
    ihave Hc := (tok_cut _ _) $$ Ht; icases Hc with ⟨Ht, Ht5⟩
    ihave Hc := (tok_cut _ _) $$ Ht; icases Hc with ⟨Ht, Ht6⟩
    ihave Hc := (tok_cut _ _) $$ Ht; icases Hc with ⟨Ht, Ht7⟩
    ihave Hc := (tok_cut _ _) $$ Ht; icases Hc with ⟨Ht, Ht8⟩
    ihave Hc := (tok_cut _ _) $$ Ht; icases Hc with ⟨Ht, Ht9⟩
    ihave Hc := (tok_cut _ _) $$ Ht; icases Hc with ⟨Ht, Ht10⟩
    ihave Hc := (tok_cut _ _) $$ Ht; icases Hc with ⟨Ht, Ht11⟩
    ihave Hc := (tok_cut _ _) $$ Ht; icases Hc with ⟨Ht, Ht12⟩
    ihave Hc := (tok_cut _ _) $$ Ht; icases Hc with ⟨Ht, Ht13⟩
    ihave Hc := (tok_cut _ _) $$ Ht; icases Hc with ⟨Ht, Ht14⟩
    ihave Hc := (tok_cut _ _) $$ Ht; icases Hc with ⟨Ht, Ht15⟩
    ihave Hc := (tok_cut _ _) $$ Ht; icases Hc with ⟨Ht, Ht16⟩
    ihave Hc := (tok_cut _ _) $$ Ht; icases Hc with ⟨Ht, Ht17⟩
    ihave Hc := (tok_cut _ _) $$ Ht; icases Hc with ⟨Ht, Ht18⟩
    ihave Hc := (tok_cut _ _) $$ Ht; icases Hc with ⟨Ht, Ht19⟩
    ihave Hc := (tok_cut _ _) $$ Ht; icases Hc with ⟨Ht, Ht20⟩
    ihave Hc := (tok_cut _ _) $$ Ht; icases Hc with ⟨Ht, Ht21⟩
    ihave Hc := (tok_cut _ _) $$ Ht; icases Hc with ⟨Ht, Ht22⟩
    ihave Hc := (tok_cut _ _) $$ Ht; icases Hc with ⟨Ht, Ht23⟩
    ihave Hc := (tok_cut _ _) $$ Ht; icases Hc with ⟨Ht, Ht24⟩
    ihave Hc := (tok_cut _ _) $$ Ht; icases Hc with ⟨Ht, Ht25⟩
    ihave Hc := (tok_cut _ _) $$ Ht; icases Hc with ⟨Ht, Ht26⟩
    ihave Hc := (tok_cut _ _) $$ Ht; icases Hc with ⟨Ht, Ht27⟩
    ihave Hc := (tok_cut _ _) $$ Ht; icases Hc with ⟨Ht, Ht28⟩
    ihave Hc := (tok_cut _ _) $$ Ht; icases Hc with ⟨Ht, Ht29⟩
    ihave Hc := (tok_cut _ _) $$ Ht; icases Hc with ⟨Ht, Ht30⟩
    ihave Hc := (tok_cut _ _) $$ Ht; icases Hc with ⟨Ht, Ht31⟩
    ihave Hrest : TabRest m d L $$ [Ht]
    · unfold TabRest; iexists _; iexact Ht
    sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
    obtain ⟨hD0, hD1, hD2, hD3, hD4, hD5, hD6, hD7, hD8, hD9, hD10, hD11, hD12, hD13, hD14, hD15⟩ := hD
    ihave G := (hD0.trans (goodG_elim_win m d L (2 * k.val) 0 0 ![0, 0, 0, 0] inb_S2x16x8x32_S1x1x8x32_0_0_0_0 rfl rfl rfl rfl)) $$ Hg0_0; icases G with ⟨%g0, Hw0, %hg0⟩
    ihave G := (hD1.trans (goodG_elim_win m d L (2 * k.val) 0 1 ![0, 1, 0, 0] inb_S2x16x8x32_S1x1x8x32_0_1_0_0 rfl rfl rfl rfl)) $$ Hg0_1; icases G with ⟨%g1, Hw1, %hg1⟩
    ihave G := (hD2.trans (goodG_elim_win m d L (2 * k.val) 0 2 ![0, 2, 0, 0] inb_S2x16x8x32_S1x1x8x32_0_2_0_0 rfl rfl rfl rfl)) $$ Hg0_2; icases G with ⟨%g2, Hw2, %hg2⟩
    ihave G := (hD3.trans (goodG_elim_win m d L (2 * k.val) 0 3 ![0, 3, 0, 0] inb_S2x16x8x32_S1x1x8x32_0_3_0_0 rfl rfl rfl rfl)) $$ Hg0_3; icases G with ⟨%g3, Hw3, %hg3⟩
    ihave G := (hD4.trans (goodG_elim_win m d L (2 * k.val) 0 4 ![0, 4, 0, 0] inb_S2x16x8x32_S1x1x8x32_0_4_0_0 rfl rfl rfl rfl)) $$ Hg0_4; icases G with ⟨%g4, Hw4, %hg4⟩
    ihave G := (hD5.trans (goodG_elim_win m d L (2 * k.val) 0 5 ![0, 5, 0, 0] inb_S2x16x8x32_S1x1x8x32_0_5_0_0 rfl rfl rfl rfl)) $$ Hg0_5; icases G with ⟨%g5, Hw5, %hg5⟩
    ihave G := (hD6.trans (goodG_elim_win m d L (2 * k.val) 0 6 ![0, 6, 0, 0] inb_S2x16x8x32_S1x1x8x32_0_6_0_0 rfl rfl rfl rfl)) $$ Hg0_6; icases G with ⟨%g6, Hw6, %hg6⟩
    ihave G := (hD7.trans (goodG_elim_win m d L (2 * k.val) 0 7 ![0, 7, 0, 0] inb_S2x16x8x32_S1x1x8x32_0_7_0_0 rfl rfl rfl rfl)) $$ Hg0_7; icases G with ⟨%g7, Hw7, %hg7⟩
    ihave G := (hD8.trans (goodG_elim_win m d L (2 * k.val) 0 8 ![0, 8, 0, 0] inb_S2x16x8x32_S1x1x8x32_0_8_0_0 rfl rfl rfl rfl)) $$ Hg0_8; icases G with ⟨%g8, Hw8, %hg8⟩
    ihave G := (hD9.trans (goodG_elim_win m d L (2 * k.val) 0 9 ![0, 9, 0, 0] inb_S2x16x8x32_S1x1x8x32_0_9_0_0 rfl rfl rfl rfl)) $$ Hg0_9; icases G with ⟨%g9, Hw9, %hg9⟩
    ihave G := (hD10.trans (goodG_elim_win m d L (2 * k.val) 0 10 ![0, 10, 0, 0] inb_S2x16x8x32_S1x1x8x32_0_10_0_0 rfl rfl rfl rfl)) $$ Hg0_10; icases G with ⟨%g10, Hw10, %hg10⟩
    ihave G := (hD11.trans (goodG_elim_win m d L (2 * k.val) 0 11 ![0, 11, 0, 0] inb_S2x16x8x32_S1x1x8x32_0_11_0_0 rfl rfl rfl rfl)) $$ Hg0_11; icases G with ⟨%g11, Hw11, %hg11⟩
    ihave G := (hD12.trans (goodG_elim_win m d L (2 * k.val) 0 12 ![0, 12, 0, 0] inb_S2x16x8x32_S1x1x8x32_0_12_0_0 rfl rfl rfl rfl)) $$ Hg0_12; icases G with ⟨%g12, Hw12, %hg12⟩
    ihave G := (hD13.trans (goodG_elim_win m d L (2 * k.val) 0 13 ![0, 13, 0, 0] inb_S2x16x8x32_S1x1x8x32_0_13_0_0 rfl rfl rfl rfl)) $$ Hg0_13; icases G with ⟨%g13, Hw13, %hg13⟩
    ihave G := (hD14.trans (goodG_elim_win m d L (2 * k.val) 0 14 ![0, 14, 0, 0] inb_S2x16x8x32_S1x1x8x32_0_14_0_0 rfl rfl rfl rfl)) $$ Hg0_14; icases G with ⟨%g14, Hw14, %hg14⟩
    ihave G := (hD15.trans (goodG_elim_win m d L (2 * k.val) 0 15 ![0, 15, 0, 0] inb_S2x16x8x32_S1x1x8x32_0_15_0_0 rfl rfl rfl rfl)) $$ Hg0_15; icases G with ⟨%g15, Hw15, %hg15⟩
    ihave Hj := (rejoin16x16 (F := F) (ℓ := (sRows).view.loc (thr d L)) (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis0 (hsub01 d L) _ g0 g1 g2 g3 g4 g5 g6 g7 g8 g9 g10 g11 g12 g13 g14 g15) $$ HsR Hw0 Hw1 Hw2 Hw3 Hw4 Hw5 Hw6 Hw7 Hw8 Hw9 Hw10 Hw11 Hw12 Hw13 Hw14 Hw15
    icases Hj with ⟨%f', HsR, %hK⟩
    have hf' := rows_of_lit0 m d L (2 * k.val) f' g0 g1 g2 g3 g4 g5 g6 g7 g8 g9 g10 g11 g12 g13 g14 g15 hK hg0 hg1 hg2 hg3 hg4 hg5 hg6 hg7 hg8 hg9 hg10 hg11 hg12 hg13 hg14 hg15
    by_cases hc : k0_cond3 k = 1#1
    · have hk1 : k.val + 1 < 8 := (cond1_iff k).mp hc
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off558 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off558 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off558 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off558 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off558 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off558 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off558 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off558 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off558 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off558 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off558 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off558 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off558 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off558 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off558 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off558 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x16 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set (((sRows).slice (Rect.unit (s := S2x16x8x32) ![0, 0, 0, 0] S1x1x8x32.size inb_S2x16x8x32_S1x1x8x32_0_0_0_0) (fun _ => rfl)).squeeze S8x32 squeezes_S1x1x8x32_S8x32).view.set (((sRows).slice (Rect.unit (s := S2x16x8x32) ![0, 1, 0, 0] S1x1x8x32.size inb_S2x16x8x32_S1x1x8x32_0_1_0_0) (fun _ => rfl)).squeeze S8x32 squeezes_S1x1x8x32_S8x32).view.set (((sRows).slice (Rect.unit (s := S2x16x8x32) ![0, 2, 0, 0] S1x1x8x32.size inb_S2x16x8x32_S1x1x8x32_0_2_0_0) (fun _ => rfl)).squeeze S8x32 squeezes_S1x1x8x32_S8x32).view.set (((sRows).slice (Rect.unit (s := S2x16x8x32) ![0, 3, 0, 0] S1x1x8x32.size inb_S2x16x8x32_S1x1x8x32_0_3_0_0) (fun _ => rfl)).squeeze S8x32 squeezes_S1x1x8x32_S8x32).view.set (((sRows).slice (Rect.unit (s := S2x16x8x32) ![0, 4, 0, 0] S1x1x8x32.size inb_S2x16x8x32_S1x1x8x32_0_4_0_0) (fun _ => rfl)).squeeze S8x32 squeezes_S1x1x8x32_S8x32).view.set (((sRows).slice (Rect.unit (s := S2x16x8x32) ![0, 5, 0, 0] S1x1x8x32.size inb_S2x16x8x32_S1x1x8x32_0_5_0_0) (fun _ => rfl)).squeeze S8x32 squeezes_S1x1x8x32_S8x32).view.set (((sRows).slice (Rect.unit (s := S2x16x8x32) ![0, 6, 0, 0] S1x1x8x32.size inb_S2x16x8x32_S1x1x8x32_0_6_0_0) (fun _ => rfl)).squeeze S8x32 squeezes_S1x1x8x32_S8x32).view.set (((sRows).slice (Rect.unit (s := S2x16x8x32) ![0, 7, 0, 0] S1x1x8x32.size inb_S2x16x8x32_S1x1x8x32_0_7_0_0) (fun _ => rfl)).squeeze S8x32 squeezes_S1x1x8x32_S8x32).view.set (((sRows).slice (Rect.unit (s := S2x16x8x32) ![0, 8, 0, 0] S1x1x8x32.size inb_S2x16x8x32_S1x1x8x32_0_8_0_0) (fun _ => rfl)).squeeze S8x32 squeezes_S1x1x8x32_S8x32).view.set (((sRows).slice (Rect.unit (s := S2x16x8x32) ![0, 9, 0, 0] S1x1x8x32.size inb_S2x16x8x32_S1x1x8x32_0_9_0_0) (fun _ => rfl)).squeeze S8x32 squeezes_S1x1x8x32_S8x32).view.set (((sRows).slice (Rect.unit (s := S2x16x8x32) ![0, 10, 0, 0] S1x1x8x32.size inb_S2x16x8x32_S1x1x8x32_0_10_0_0) (fun _ => rfl)).squeeze S8x32 squeezes_S1x1x8x32_S8x32).view.set (((sRows).slice (Rect.unit (s := S2x16x8x32) ![0, 11, 0, 0] S1x1x8x32.size inb_S2x16x8x32_S1x1x8x32_0_11_0_0) (fun _ => rfl)).squeeze S8x32 squeezes_S1x1x8x32_S8x32).view.set (((sRows).slice (Rect.unit (s := S2x16x8x32) ![0, 12, 0, 0] S1x1x8x32.size inb_S2x16x8x32_S1x1x8x32_0_12_0_0) (fun _ => rfl)).squeeze S8x32 squeezes_S1x1x8x32_S8x32).view.set (((sRows).slice (Rect.unit (s := S2x16x8x32) ![0, 13, 0, 0] S1x1x8x32.size inb_S2x16x8x32_S1x1x8x32_0_13_0_0) (fun _ => rfl)).squeeze S8x32 squeezes_S1x1x8x32_S8x32).view.set (((sRows).slice (Rect.unit (s := S2x16x8x32) ![0, 14, 0, 0] S1x1x8x32.size inb_S2x16x8x32_S1x1x8x32_0_14_0_0) (fun _ => rfl)).squeeze S8x32 squeezes_S1x1x8x32_S8x32).view.set (((sRows).slice (Rect.unit (s := S2x16x8x32) ![0, 15, 0, 0] S1x1x8x32.size inb_S2x16x8x32_S1x1x8x32_0_15_0_0) (fun _ => rfl)).squeeze S8x32 squeezes_S1x1x8x32_S8x32).view.set hdis1 (hsub10 d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_pos hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · iexists f''
        iexists _
        iexists _
        iexists _
        iexists _
        iexists _
        iexists _
        iexists _
        iexists _
        iexists _
        iexists _
        iexists _
        iexists _
        iexists _
        iexists _
        iexists _
        iexists _
        isplitl [HsR]; · iexact HsR
        isplitl [Hg0]; · iexact Hg0
        ipureintro
        refine ⟨?_, ?_, ?_, ?_, ?_, ?_, ?_, ?_, ?_, ?_, ?_, ?_, ?_, ?_, ?_, ?_⟩
        · exact sep_elim_left.trans (deliv_run m d L fG hG (2 * (k.val + 1)) 0 0 ![0, 0, 0, 0] inb_S2x16x8x32_S1x1x8x32_0_0_0_0 rfl rfl rfl rfl (k0_off640 k) _ (e136 k) _ _ _ _ _ (by rfl) (by rfl) (by rfl) _)
        · exact sep_elim_left.trans (deliv_run m d L fG hG (2 * (k.val + 1)) 0 1 ![0, 1, 0, 0] inb_S2x16x8x32_S1x1x8x32_0_1_0_0 rfl rfl rfl rfl (k0_off640 k) _ (e136 k) _ _ _ _ _ (by rfl) (by rfl) (by rfl) _)
        · exact sep_elim_left.trans (deliv_run m d L fG hG (2 * (k.val + 1)) 0 2 ![0, 2, 0, 0] inb_S2x16x8x32_S1x1x8x32_0_2_0_0 rfl rfl rfl rfl (k0_off640 k) _ (e136 k) _ _ _ _ _ (by rfl) (by rfl) (by rfl) _)
        · exact sep_elim_left.trans (deliv_run m d L fG hG (2 * (k.val + 1)) 0 3 ![0, 3, 0, 0] inb_S2x16x8x32_S1x1x8x32_0_3_0_0 rfl rfl rfl rfl (k0_off640 k) _ (e136 k) _ _ _ _ _ (by rfl) (by rfl) (by rfl) _)
        · exact sep_elim_left.trans (deliv_run m d L fG hG (2 * (k.val + 1)) 0 4 ![0, 4, 0, 0] inb_S2x16x8x32_S1x1x8x32_0_4_0_0 rfl rfl rfl rfl (k0_off640 k) _ (e136 k) _ _ _ _ _ (by rfl) (by rfl) (by rfl) _)
        · exact sep_elim_left.trans (deliv_run m d L fG hG (2 * (k.val + 1)) 0 5 ![0, 5, 0, 0] inb_S2x16x8x32_S1x1x8x32_0_5_0_0 rfl rfl rfl rfl (k0_off640 k) _ (e136 k) _ _ _ _ _ (by rfl) (by rfl) (by rfl) _)
        · exact sep_elim_left.trans (deliv_run m d L fG hG (2 * (k.val + 1)) 0 6 ![0, 6, 0, 0] inb_S2x16x8x32_S1x1x8x32_0_6_0_0 rfl rfl rfl rfl (k0_off640 k) _ (e136 k) _ _ _ _ _ (by rfl) (by rfl) (by rfl) _)
        · exact sep_elim_left.trans (deliv_run m d L fG hG (2 * (k.val + 1)) 0 7 ![0, 7, 0, 0] inb_S2x16x8x32_S1x1x8x32_0_7_0_0 rfl rfl rfl rfl (k0_off640 k) _ (e136 k) _ _ _ _ _ (by rfl) (by rfl) (by rfl) _)
        · exact sep_elim_left.trans (deliv_run m d L fG hG (2 * (k.val + 1)) 0 8 ![0, 8, 0, 0] inb_S2x16x8x32_S1x1x8x32_0_8_0_0 rfl rfl rfl rfl (k0_off640 k) _ (e136 k) _ _ _ _ _ (by rfl) (by rfl) (by rfl) _)
        · exact sep_elim_left.trans (deliv_run m d L fG hG (2 * (k.val + 1)) 0 9 ![0, 9, 0, 0] inb_S2x16x8x32_S1x1x8x32_0_9_0_0 rfl rfl rfl rfl (k0_off640 k) _ (e136 k) _ _ _ _ _ (by rfl) (by rfl) (by rfl) _)
        · exact sep_elim_left.trans (deliv_run m d L fG hG (2 * (k.val + 1)) 0 10 ![0, 10, 0, 0] inb_S2x16x8x32_S1x1x8x32_0_10_0_0 rfl rfl rfl rfl (k0_off640 k) _ (e136 k) _ _ _ _ _ (by rfl) (by rfl) (by rfl) _)
        · exact sep_elim_left.trans (deliv_run m d L fG hG (2 * (k.val + 1)) 0 11 ![0, 11, 0, 0] inb_S2x16x8x32_S1x1x8x32_0_11_0_0 rfl rfl rfl rfl (k0_off640 k) _ (e136 k) _ _ _ _ _ (by rfl) (by rfl) (by rfl) _)
        · exact sep_elim_left.trans (deliv_run m d L fG hG (2 * (k.val + 1)) 0 12 ![0, 12, 0, 0] inb_S2x16x8x32_S1x1x8x32_0_12_0_0 rfl rfl rfl rfl (k0_off640 k) _ (e136 k) _ _ _ _ _ (by rfl) (by rfl) (by rfl) _)
        · exact sep_elim_left.trans (deliv_run m d L fG hG (2 * (k.val + 1)) 0 13 ![0, 13, 0, 0] inb_S2x16x8x32_S1x1x8x32_0_13_0_0 rfl rfl rfl rfl (k0_off640 k) _ (e136 k) _ _ _ _ _ (by rfl) (by rfl) (by rfl) _)
        · exact sep_elim_left.trans (deliv_run m d L fG hG (2 * (k.val + 1)) 0 14 ![0, 14, 0, 0] inb_S2x16x8x32_S1x1x8x32_0_14_0_0 rfl rfl rfl rfl (k0_off640 k) _ (e136 k) _ _ _ _ _ (by rfl) (by rfl) (by rfl) _)
        · exact sep_elim_left.trans (deliv_run m d L fG hG (2 * (k.val + 1)) 0 15 ![0, 15, 0, 0] inb_S2x16x8x32_S1x1x8x32_0_15_0_0 rfl rfl rfl rfl (k0_off640 k) _ (e136 k) _ _ _ _ _ (by rfl) (by rfl) (by rfl) _)
      iexists _; isplitr
      swap; · iexact HO
      ipureintro; exact waits_ins3 _ (waits_ins3 _ hW')
    · have hk1 : ¬ (k.val + 1 < 8) := fun h => hc ((cond1_iff k).mpr h)
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      ihave ⟨%c0, Hv0, %hc0⟩ : (iprop(∃ g : Buf (Elt F) ((thr d L).loc cc0_scratch2), ((sRows).view.loc (thr d L) ↦[(rowsWin ![1, 0, 0, 0] inb_S2x16x8x32_S1x1x8x32_1_0_0_0).view.set]{fullShare} g) ∗ ⌜∀ i ∈ winSet 1 0, g i = rowsVal m d L (2 * k.val + 1) i⌝) : sProp 𝕄) $$ [HsR_17]
      · iapply ((deliv_run m d L fG hG (2 * k.val + 1) 1 0 ![1, 0, 0, 0] inb_S2x16x8x32_S1x1x8x32_1_0_0_0 rfl rfl rfl rfl (k0_off558 k) _ (e54 k) _ _ _ _ _ ?_ ?_ ?_ _).trans (goodG_elim_win m d L (2 * k.val + 1) 1 0 ![1, 0, 0, 0] inb_S2x16x8x32_S1x1x8x32_1_0_0_0 rfl rfl rfl rfl))
        any_goals iexact HsR_17
        all_goals rfl
      ihave ⟨%c1, Hv1, %hc1⟩ : (iprop(∃ g : Buf (Elt F) ((thr d L).loc cc0_scratch2), ((sRows).view.loc (thr d L) ↦[(rowsWin ![1, 1, 0, 0] inb_S2x16x8x32_S1x1x8x32_1_1_0_0).view.set]{fullShare} g) ∗ ⌜∀ i ∈ winSet 1 1, g i = rowsVal m d L (2 * k.val + 1) i⌝) : sProp 𝕄) $$ [HsR_16]
      · iapply ((deliv_run m d L fG hG (2 * k.val + 1) 1 1 ![1, 1, 0, 0] inb_S2x16x8x32_S1x1x8x32_1_1_0_0 rfl rfl rfl rfl (k0_off558 k) _ (e54 k) _ _ _ _ _ ?_ ?_ ?_ _).trans (goodG_elim_win m d L (2 * k.val + 1) 1 1 ![1, 1, 0, 0] inb_S2x16x8x32_S1x1x8x32_1_1_0_0 rfl rfl rfl rfl))
        any_goals iexact HsR_16
        all_goals rfl
      ihave ⟨%c2, Hv2, %hc2⟩ : (iprop(∃ g : Buf (Elt F) ((thr d L).loc cc0_scratch2), ((sRows).view.loc (thr d L) ↦[(rowsWin ![1, 2, 0, 0] inb_S2x16x8x32_S1x1x8x32_1_2_0_0).view.set]{fullShare} g) ∗ ⌜∀ i ∈ winSet 1 2, g i = rowsVal m d L (2 * k.val + 1) i⌝) : sProp 𝕄) $$ [HsR_15]
      · iapply ((deliv_run m d L fG hG (2 * k.val + 1) 1 2 ![1, 2, 0, 0] inb_S2x16x8x32_S1x1x8x32_1_2_0_0 rfl rfl rfl rfl (k0_off558 k) _ (e54 k) _ _ _ _ _ ?_ ?_ ?_ _).trans (goodG_elim_win m d L (2 * k.val + 1) 1 2 ![1, 2, 0, 0] inb_S2x16x8x32_S1x1x8x32_1_2_0_0 rfl rfl rfl rfl))
        any_goals iexact HsR_15
        all_goals rfl
      ihave ⟨%c3, Hv3, %hc3⟩ : (iprop(∃ g : Buf (Elt F) ((thr d L).loc cc0_scratch2), ((sRows).view.loc (thr d L) ↦[(rowsWin ![1, 3, 0, 0] inb_S2x16x8x32_S1x1x8x32_1_3_0_0).view.set]{fullShare} g) ∗ ⌜∀ i ∈ winSet 1 3, g i = rowsVal m d L (2 * k.val + 1) i⌝) : sProp 𝕄) $$ [HsR_14]
      · iapply ((deliv_run m d L fG hG (2 * k.val + 1) 1 3 ![1, 3, 0, 0] inb_S2x16x8x32_S1x1x8x32_1_3_0_0 rfl rfl rfl rfl (k0_off558 k) _ (e54 k) _ _ _ _ _ ?_ ?_ ?_ _).trans (goodG_elim_win m d L (2 * k.val + 1) 1 3 ![1, 3, 0, 0] inb_S2x16x8x32_S1x1x8x32_1_3_0_0 rfl rfl rfl rfl))
        any_goals iexact HsR_14
        all_goals rfl
      ihave ⟨%c4, Hv4, %hc4⟩ : (iprop(∃ g : Buf (Elt F) ((thr d L).loc cc0_scratch2), ((sRows).view.loc (thr d L) ↦[(rowsWin ![1, 4, 0, 0] inb_S2x16x8x32_S1x1x8x32_1_4_0_0).view.set]{fullShare} g) ∗ ⌜∀ i ∈ winSet 1 4, g i = rowsVal m d L (2 * k.val + 1) i⌝) : sProp 𝕄) $$ [HsR_13]
      · iapply ((deliv_run m d L fG hG (2 * k.val + 1) 1 4 ![1, 4, 0, 0] inb_S2x16x8x32_S1x1x8x32_1_4_0_0 rfl rfl rfl rfl (k0_off558 k) _ (e54 k) _ _ _ _ _ ?_ ?_ ?_ _).trans (goodG_elim_win m d L (2 * k.val + 1) 1 4 ![1, 4, 0, 0] inb_S2x16x8x32_S1x1x8x32_1_4_0_0 rfl rfl rfl rfl))
        any_goals iexact HsR_13
        all_goals rfl
      ihave ⟨%c5, Hv5, %hc5⟩ : (iprop(∃ g : Buf (Elt F) ((thr d L).loc cc0_scratch2), ((sRows).view.loc (thr d L) ↦[(rowsWin ![1, 5, 0, 0] inb_S2x16x8x32_S1x1x8x32_1_5_0_0).view.set]{fullShare} g) ∗ ⌜∀ i ∈ winSet 1 5, g i = rowsVal m d L (2 * k.val + 1) i⌝) : sProp 𝕄) $$ [HsR_12]
      · iapply ((deliv_run m d L fG hG (2 * k.val + 1) 1 5 ![1, 5, 0, 0] inb_S2x16x8x32_S1x1x8x32_1_5_0_0 rfl rfl rfl rfl (k0_off558 k) _ (e54 k) _ _ _ _ _ ?_ ?_ ?_ _).trans (goodG_elim_win m d L (2 * k.val + 1) 1 5 ![1, 5, 0, 0] inb_S2x16x8x32_S1x1x8x32_1_5_0_0 rfl rfl rfl rfl))
        any_goals iexact HsR_12
        all_goals rfl
      ihave ⟨%c6, Hv6, %hc6⟩ : (iprop(∃ g : Buf (Elt F) ((thr d L).loc cc0_scratch2), ((sRows).view.loc (thr d L) ↦[(rowsWin ![1, 6, 0, 0] inb_S2x16x8x32_S1x1x8x32_1_6_0_0).view.set]{fullShare} g) ∗ ⌜∀ i ∈ winSet 1 6, g i = rowsVal m d L (2 * k.val + 1) i⌝) : sProp 𝕄) $$ [HsR_11]
      · iapply ((deliv_run m d L fG hG (2 * k.val + 1) 1 6 ![1, 6, 0, 0] inb_S2x16x8x32_S1x1x8x32_1_6_0_0 rfl rfl rfl rfl (k0_off558 k) _ (e54 k) _ _ _ _ _ ?_ ?_ ?_ _).trans (goodG_elim_win m d L (2 * k.val + 1) 1 6 ![1, 6, 0, 0] inb_S2x16x8x32_S1x1x8x32_1_6_0_0 rfl rfl rfl rfl))
        any_goals iexact HsR_11
        all_goals rfl
      ihave ⟨%c7, Hv7, %hc7⟩ : (iprop(∃ g : Buf (Elt F) ((thr d L).loc cc0_scratch2), ((sRows).view.loc (thr d L) ↦[(rowsWin ![1, 7, 0, 0] inb_S2x16x8x32_S1x1x8x32_1_7_0_0).view.set]{fullShare} g) ∗ ⌜∀ i ∈ winSet 1 7, g i = rowsVal m d L (2 * k.val + 1) i⌝) : sProp 𝕄) $$ [HsR_10]
      · iapply ((deliv_run m d L fG hG (2 * k.val + 1) 1 7 ![1, 7, 0, 0] inb_S2x16x8x32_S1x1x8x32_1_7_0_0 rfl rfl rfl rfl (k0_off558 k) _ (e54 k) _ _ _ _ _ ?_ ?_ ?_ _).trans (goodG_elim_win m d L (2 * k.val + 1) 1 7 ![1, 7, 0, 0] inb_S2x16x8x32_S1x1x8x32_1_7_0_0 rfl rfl rfl rfl))
        any_goals iexact HsR_10
        all_goals rfl
      ihave ⟨%c8, Hv8, %hc8⟩ : (iprop(∃ g : Buf (Elt F) ((thr d L).loc cc0_scratch2), ((sRows).view.loc (thr d L) ↦[(rowsWin ![1, 8, 0, 0] inb_S2x16x8x32_S1x1x8x32_1_8_0_0).view.set]{fullShare} g) ∗ ⌜∀ i ∈ winSet 1 8, g i = rowsVal m d L (2 * k.val + 1) i⌝) : sProp 𝕄) $$ [HsR_9]
      · iapply ((deliv_run m d L fG hG (2 * k.val + 1) 1 8 ![1, 8, 0, 0] inb_S2x16x8x32_S1x1x8x32_1_8_0_0 rfl rfl rfl rfl (k0_off558 k) _ (e54 k) _ _ _ _ _ ?_ ?_ ?_ _).trans (goodG_elim_win m d L (2 * k.val + 1) 1 8 ![1, 8, 0, 0] inb_S2x16x8x32_S1x1x8x32_1_8_0_0 rfl rfl rfl rfl))
        any_goals iexact HsR_9
        all_goals rfl
      ihave ⟨%c9, Hv9, %hc9⟩ : (iprop(∃ g : Buf (Elt F) ((thr d L).loc cc0_scratch2), ((sRows).view.loc (thr d L) ↦[(rowsWin ![1, 9, 0, 0] inb_S2x16x8x32_S1x1x8x32_1_9_0_0).view.set]{fullShare} g) ∗ ⌜∀ i ∈ winSet 1 9, g i = rowsVal m d L (2 * k.val + 1) i⌝) : sProp 𝕄) $$ [HsR_8]
      · iapply ((deliv_run m d L fG hG (2 * k.val + 1) 1 9 ![1, 9, 0, 0] inb_S2x16x8x32_S1x1x8x32_1_9_0_0 rfl rfl rfl rfl (k0_off558 k) _ (e54 k) _ _ _ _ _ ?_ ?_ ?_ _).trans (goodG_elim_win m d L (2 * k.val + 1) 1 9 ![1, 9, 0, 0] inb_S2x16x8x32_S1x1x8x32_1_9_0_0 rfl rfl rfl rfl))
        any_goals iexact HsR_8
        all_goals rfl
      ihave ⟨%c10, Hv10, %hc10⟩ : (iprop(∃ g : Buf (Elt F) ((thr d L).loc cc0_scratch2), ((sRows).view.loc (thr d L) ↦[(rowsWin ![1, 10, 0, 0] inb_S2x16x8x32_S1x1x8x32_1_10_0_0).view.set]{fullShare} g) ∗ ⌜∀ i ∈ winSet 1 10, g i = rowsVal m d L (2 * k.val + 1) i⌝) : sProp 𝕄) $$ [HsR_7]
      · iapply ((deliv_run m d L fG hG (2 * k.val + 1) 1 10 ![1, 10, 0, 0] inb_S2x16x8x32_S1x1x8x32_1_10_0_0 rfl rfl rfl rfl (k0_off558 k) _ (e54 k) _ _ _ _ _ ?_ ?_ ?_ _).trans (goodG_elim_win m d L (2 * k.val + 1) 1 10 ![1, 10, 0, 0] inb_S2x16x8x32_S1x1x8x32_1_10_0_0 rfl rfl rfl rfl))
        any_goals iexact HsR_7
        all_goals rfl
      ihave ⟨%c11, Hv11, %hc11⟩ : (iprop(∃ g : Buf (Elt F) ((thr d L).loc cc0_scratch2), ((sRows).view.loc (thr d L) ↦[(rowsWin ![1, 11, 0, 0] inb_S2x16x8x32_S1x1x8x32_1_11_0_0).view.set]{fullShare} g) ∗ ⌜∀ i ∈ winSet 1 11, g i = rowsVal m d L (2 * k.val + 1) i⌝) : sProp 𝕄) $$ [HsR_6]
      · iapply ((deliv_run m d L fG hG (2 * k.val + 1) 1 11 ![1, 11, 0, 0] inb_S2x16x8x32_S1x1x8x32_1_11_0_0 rfl rfl rfl rfl (k0_off558 k) _ (e54 k) _ _ _ _ _ ?_ ?_ ?_ _).trans (goodG_elim_win m d L (2 * k.val + 1) 1 11 ![1, 11, 0, 0] inb_S2x16x8x32_S1x1x8x32_1_11_0_0 rfl rfl rfl rfl))
        any_goals iexact HsR_6
        all_goals rfl
      ihave ⟨%c12, Hv12, %hc12⟩ : (iprop(∃ g : Buf (Elt F) ((thr d L).loc cc0_scratch2), ((sRows).view.loc (thr d L) ↦[(rowsWin ![1, 12, 0, 0] inb_S2x16x8x32_S1x1x8x32_1_12_0_0).view.set]{fullShare} g) ∗ ⌜∀ i ∈ winSet 1 12, g i = rowsVal m d L (2 * k.val + 1) i⌝) : sProp 𝕄) $$ [HsR_5]
      · iapply ((deliv_run m d L fG hG (2 * k.val + 1) 1 12 ![1, 12, 0, 0] inb_S2x16x8x32_S1x1x8x32_1_12_0_0 rfl rfl rfl rfl (k0_off558 k) _ (e54 k) _ _ _ _ _ ?_ ?_ ?_ _).trans (goodG_elim_win m d L (2 * k.val + 1) 1 12 ![1, 12, 0, 0] inb_S2x16x8x32_S1x1x8x32_1_12_0_0 rfl rfl rfl rfl))
        any_goals iexact HsR_5
        all_goals rfl
      ihave ⟨%c13, Hv13, %hc13⟩ : (iprop(∃ g : Buf (Elt F) ((thr d L).loc cc0_scratch2), ((sRows).view.loc (thr d L) ↦[(rowsWin ![1, 13, 0, 0] inb_S2x16x8x32_S1x1x8x32_1_13_0_0).view.set]{fullShare} g) ∗ ⌜∀ i ∈ winSet 1 13, g i = rowsVal m d L (2 * k.val + 1) i⌝) : sProp 𝕄) $$ [HsR_4]
      · iapply ((deliv_run m d L fG hG (2 * k.val + 1) 1 13 ![1, 13, 0, 0] inb_S2x16x8x32_S1x1x8x32_1_13_0_0 rfl rfl rfl rfl (k0_off558 k) _ (e54 k) _ _ _ _ _ ?_ ?_ ?_ _).trans (goodG_elim_win m d L (2 * k.val + 1) 1 13 ![1, 13, 0, 0] inb_S2x16x8x32_S1x1x8x32_1_13_0_0 rfl rfl rfl rfl))
        any_goals iexact HsR_4
        all_goals rfl
      ihave ⟨%c14, Hv14, %hc14⟩ : (iprop(∃ g : Buf (Elt F) ((thr d L).loc cc0_scratch2), ((sRows).view.loc (thr d L) ↦[(rowsWin ![1, 14, 0, 0] inb_S2x16x8x32_S1x1x8x32_1_14_0_0).view.set]{fullShare} g) ∗ ⌜∀ i ∈ winSet 1 14, g i = rowsVal m d L (2 * k.val + 1) i⌝) : sProp 𝕄) $$ [HsR_3]
      · iapply ((deliv_run m d L fG hG (2 * k.val + 1) 1 14 ![1, 14, 0, 0] inb_S2x16x8x32_S1x1x8x32_1_14_0_0 rfl rfl rfl rfl (k0_off558 k) _ (e54 k) _ _ _ _ _ ?_ ?_ ?_ _).trans (goodG_elim_win m d L (2 * k.val + 1) 1 14 ![1, 14, 0, 0] inb_S2x16x8x32_S1x1x8x32_1_14_0_0 rfl rfl rfl rfl))
        any_goals iexact HsR_3
        all_goals rfl
      ihave ⟨%c15, Hv15, %hc15⟩ : (iprop(∃ g : Buf (Elt F) ((thr d L).loc cc0_scratch2), ((sRows).view.loc (thr d L) ↦[(rowsWin ![1, 15, 0, 0] inb_S2x16x8x32_S1x1x8x32_1_15_0_0).view.set]{fullShare} g) ∗ ⌜∀ i ∈ winSet 1 15, g i = rowsVal m d L (2 * k.val + 1) i⌝) : sProp 𝕄) $$ [HsR_2]
      · iapply ((deliv_run m d L fG hG (2 * k.val + 1) 1 15 ![1, 15, 0, 0] inb_S2x16x8x32_S1x1x8x32_1_15_0_0 rfl rfl rfl rfl (k0_off558 k) _ (e54 k) _ _ _ _ _ ?_ ?_ ?_ _).trans (goodG_elim_win m d L (2 * k.val + 1) 1 15 ![1, 15, 0, 0] inb_S2x16x8x32_S1x1x8x32_1_15_0_0 rfl rfl rfl rfl))
        any_goals iexact HsR_2
        all_goals rfl
      ihave Hj2 := (rejoin16x0 (F := F) (ℓ := (sRows).view.loc (thr d L)) (((sRows).slice (Rect.unit (s := S2x16x8x32) ![1, 0, 0, 0] S1x1x8x32.size inb_S2x16x8x32_S1x1x8x32_1_0_0_0) (fun _ => rfl)).squeeze S8x32 squeezes_S1x1x8x32_S8x32).view.set (((sRows).slice (Rect.unit (s := S2x16x8x32) ![1, 1, 0, 0] S1x1x8x32.size inb_S2x16x8x32_S1x1x8x32_1_1_0_0) (fun _ => rfl)).squeeze S8x32 squeezes_S1x1x8x32_S8x32).view.set (((sRows).slice (Rect.unit (s := S2x16x8x32) ![1, 2, 0, 0] S1x1x8x32.size inb_S2x16x8x32_S1x1x8x32_1_2_0_0) (fun _ => rfl)).squeeze S8x32 squeezes_S1x1x8x32_S8x32).view.set (((sRows).slice (Rect.unit (s := S2x16x8x32) ![1, 3, 0, 0] S1x1x8x32.size inb_S2x16x8x32_S1x1x8x32_1_3_0_0) (fun _ => rfl)).squeeze S8x32 squeezes_S1x1x8x32_S8x32).view.set (((sRows).slice (Rect.unit (s := S2x16x8x32) ![1, 4, 0, 0] S1x1x8x32.size inb_S2x16x8x32_S1x1x8x32_1_4_0_0) (fun _ => rfl)).squeeze S8x32 squeezes_S1x1x8x32_S8x32).view.set (((sRows).slice (Rect.unit (s := S2x16x8x32) ![1, 5, 0, 0] S1x1x8x32.size inb_S2x16x8x32_S1x1x8x32_1_5_0_0) (fun _ => rfl)).squeeze S8x32 squeezes_S1x1x8x32_S8x32).view.set (((sRows).slice (Rect.unit (s := S2x16x8x32) ![1, 6, 0, 0] S1x1x8x32.size inb_S2x16x8x32_S1x1x8x32_1_6_0_0) (fun _ => rfl)).squeeze S8x32 squeezes_S1x1x8x32_S8x32).view.set (((sRows).slice (Rect.unit (s := S2x16x8x32) ![1, 7, 0, 0] S1x1x8x32.size inb_S2x16x8x32_S1x1x8x32_1_7_0_0) (fun _ => rfl)).squeeze S8x32 squeezes_S1x1x8x32_S8x32).view.set (((sRows).slice (Rect.unit (s := S2x16x8x32) ![1, 8, 0, 0] S1x1x8x32.size inb_S2x16x8x32_S1x1x8x32_1_8_0_0) (fun _ => rfl)).squeeze S8x32 squeezes_S1x1x8x32_S8x32).view.set (((sRows).slice (Rect.unit (s := S2x16x8x32) ![1, 9, 0, 0] S1x1x8x32.size inb_S2x16x8x32_S1x1x8x32_1_9_0_0) (fun _ => rfl)).squeeze S8x32 squeezes_S1x1x8x32_S8x32).view.set (((sRows).slice (Rect.unit (s := S2x16x8x32) ![1, 10, 0, 0] S1x1x8x32.size inb_S2x16x8x32_S1x1x8x32_1_10_0_0) (fun _ => rfl)).squeeze S8x32 squeezes_S1x1x8x32_S8x32).view.set (((sRows).slice (Rect.unit (s := S2x16x8x32) ![1, 11, 0, 0] S1x1x8x32.size inb_S2x16x8x32_S1x1x8x32_1_11_0_0) (fun _ => rfl)).squeeze S8x32 squeezes_S1x1x8x32_S8x32).view.set (((sRows).slice (Rect.unit (s := S2x16x8x32) ![1, 12, 0, 0] S1x1x8x32.size inb_S2x16x8x32_S1x1x8x32_1_12_0_0) (fun _ => rfl)).squeeze S8x32 squeezes_S1x1x8x32_S8x32).view.set (((sRows).slice (Rect.unit (s := S2x16x8x32) ![1, 13, 0, 0] S1x1x8x32.size inb_S2x16x8x32_S1x1x8x32_1_13_0_0) (fun _ => rfl)).squeeze S8x32 squeezes_S1x1x8x32_S8x32).view.set (((sRows).slice (Rect.unit (s := S2x16x8x32) ![1, 14, 0, 0] S1x1x8x32.size inb_S2x16x8x32_S1x1x8x32_1_14_0_0) (fun _ => rfl)).squeeze S8x32 squeezes_S1x1x8x32_S8x32).view.set (((sRows).slice (Rect.unit (s := S2x16x8x32) ![1, 15, 0, 0] S1x1x8x32.size inb_S2x16x8x32_S1x1x8x32_1_15_0_0) (fun _ => rfl)).squeeze S8x32 squeezes_S1x1x8x32_S8x32).view.set hdis1 (hsub1e d L) _ c0 c1 c2 c3 c4 c5 c6 c7 c8 c9 c10 c11 c12 c13 c14 c15) $$ HsR Hv0 Hv1 Hv2 Hv3 Hv4 Hv5 Hv6 Hv7 Hv8 Hv9 Hv10 Hv11 Hv12 Hv13 Hv14 Hv15
      icases Hj2 with ⟨%f'', HsR, %hK2⟩
      have hf'' := rows_of_lit1 m d L (2 * k.val + 1) f'' c0 c1 c2 c3 c4 c5 c6 c7 c8 c9 c10 c11 c12 c13 c14 c15 hK2 hc0 hc1 hc2 hc3 hc4 hc5 hc6 hc7 hc8 hc9 hc10 hc11 hc12 hc13 hc14 hc15
      sl_exec (disch := first | (guard_target = Disjoint (View.setOn _ _) _; exact out_disj _ (by decide +kernel) _ _ _ rfl) | (guard_target = Disjoint (View.set _) _; exact out_disj_st _ (by decide +kernel) _ _ _ rfl) | exact grp_ok m d L hpre (gidx_word m d L fG hG _ _ _ _ rfl _ _ _) | exact fun _ => grp_ok m d L hpre (gidx_word m d L fG hG _ _ _ _ rfl _ _ _) | exact ⟨slot_ok m d L hpre (idx_word m d L _ _ _ _ rfl _ _ _) _ _ _ (by decide) (by decide) (by decide), slot_ok m d L hpre (idx_word m d L _ _ _ _ rfl _ _ _) _ _ _ (by decide) (by decide) (by decide)⟩)
      sl_step
      rw [if_neg hk1]
      isplitr; · iexact Hmw
      isplitl [HsI]; · iexact HsI
      isplitl [HsG]
      · iexists fG; isplitl [HsG]; · iexact HsG
        ipureintro; exact hG
      isplitl [Hrest]; · iapply (tabRest_elim m d L); iexact Hrest
      isplitl [HsO]
      · iexists _; isplitl [HsO]; · iexact HsO
        ipureintro; exact trip_rows m d L hpre k hk f' f'' hf' hf'' o ho
      isplitl [Hg1]; · iexact Hg1
      isplitl [HsR Hg0]
      · isplitl [HsR]; · iexists f''; iexact HsR
        iexact Hg0
      iexists _; isplitr
      swap; · iexact HO
      ipureintro; exact waits_ins3 _ (waits_ins3 _ hW')
  isplitl [HI]
  · iexact HI
  iintro %acc HL
  iapply HQ
  iexact HL

end Tile

end Cert.Proof.KIS.T3

end
-- ==== Proof.KI3Loop3Exit.lean ====
/-
  The end of the group phase of the first table on one tile: what the pair loop's invariant gives back after the last
  pair. The staging rows outside those from 256 on, good below row 32 · 8 = 256, are the rows below 256 filled as wanted.
-/
import proofs.«207337_g69080253988965_cont_9to1c4b_173_32_alg».proof.Proof.KI3Loop3
import proofs.«207337_g69080253988965_cont_9to1c4b_173_32_alg».proof.Proof.KI3Inv

noncomputable section

namespace Cert.Proof.KIS.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile
variable (d : Dev nD) (L : grid0.Coords)

/-- After the last pair: the invariant at 8 gives back the index scratch, the group numbers, the table, the staging rows
    below 256 filled as wanted, both slots' semaphores at rest, the two-slot buffer whole, and the waits recorded. -/
theorem pair_exit (O : CellTallies nD τ sig (HIx 1)) (W : Waits sig (HIx 1)) :
    PairInv m d L O W 8 ⟨⟩
      ⊢ iprop(Transfers.MayWaits (thr d L) (none : HIx 1) O
          ∗ ((sIdx).view.loc (thr d L) ↦{fullShare} IDX1 m d L)
          ∗ GRP1 m d L
          ∗ (∃ q' : PosShare TreeShare, (t2W).view.loc (thr d L) ↦{q'} m (tab2 d))
          ∗ LOW1 m d L
          ∗ semVal (thr d L, SemLoc.dma cc0_scratch5.sem) 0
          ∗ (∃ fR : Buf (Elt F) ((thr d L).loc cc0_scratch2), (sRows).view.loc (thr d L) ↦{fullShare} fR)
          ∗ semVal (thr d L, SemLoc.dma cc0_scratch4.sem) 0
          ∗ ∃ W' : Waits sig (HIx 1), ⌜∀ p ∈ W', p ∈ W ∨ p.2 = none⌝ ∗ owes (thr d L) O W') := by
  unfold PairInv
  rw [if_neg (by omega : ¬ (8 < 8))]
  iintro ⟨Hmw, HsI, HG, Ht, Ho, Hg1, ⟨HR, Hg0⟩, HW⟩
  isplitl [Hmw]; · iexact Hmw
  isplitl [HsI]; · iexact HsI
  isplitl [HG]; · iexact HG
  isplitl [Ht]; · iexact Ht
  isplitl [Ho]; · iapply (low_of_below m d L); iexact Ho
  isplitl [Hg1]; · iexact Hg1
  isplitl [HR]; · iexact HR
  isplitl [Hg0]; · iexact Hg0
  iexact HW

end Tile

end Cert.Proof.KIS.T3

end
-- ==== Proof.KIBody.lean ====
/-
  The body of the embedding-lookup kernel on one tile, as the launch theorem's obligation states it.

  Tile w copies its 512 indices of a table into a scratch, computes for the first 256 of them the number of the
  eight-row group that holds the named row (the index shifted right by three), starts one copy per index of the
  last 256 straight from the table into the staging rows 256..511, fetches the eight-row groups of the first 256
  sixteen at a time into a two-slot buffer and picks from each group the row "index mod 8" (so that row r of the
  staging buffer holds row ids[r] of the table: 8 * (i >>> 3) + i % 8 = i for a non-negative i), waits for the
  direct copies, and copies the 512 staged rows out to rows [512 w, 512 w + 512) of the result. Three tables in turn.
-/
import proofs.«207337_g69080253988965_cont_9to1c4b_173_32_alg».proof.Proof.KIGen
import proofs.«207337_g69080253988965_cont_9to1c4b_173_32_alg».proof.Proof.KITab
import proofs.«207337_g69080253988965_cont_9to1c4b_173_32_alg».proof.Proof.KILoop2
import proofs.«207337_g69080253988965_cont_9to1c4b_173_32_alg».proof.Proof.KILoop3
import proofs.«207337_g69080253988965_cont_9to1c4b_173_32_alg».proof.Proof.KILoop3Exit
import proofs.«207337_g69080253988965_cont_9to1c4b_173_32_alg».proof.Proof.KILoop4
import proofs.«207337_g69080253988965_cont_9to1c4b_173_32_alg».proof.Proof.KI2Tab
import proofs.«207337_g69080253988965_cont_9to1c4b_173_32_alg».proof.Proof.KI2Loop2
import proofs.«207337_g69080253988965_cont_9to1c4b_173_32_alg».proof.Proof.KI2Loop3
import proofs.«207337_g69080253988965_cont_9to1c4b_173_32_alg».proof.Proof.KI2Loop3Exit
import proofs.«207337_g69080253988965_cont_9to1c4b_173_32_alg».proof.Proof.KI2Loop4
import proofs.«207337_g69080253988965_cont_9to1c4b_173_32_alg».proof.Proof.KI3Tab
import proofs.«207337_g69080253988965_cont_9to1c4b_173_32_alg».proof.Proof.KI3Loop2
import proofs.«207337_g69080253988965_cont_9to1c4b_173_32_alg».proof.Proof.KI3Loop3
import proofs.«207337_g69080253988965_cont_9to1c4b_173_32_alg».proof.Proof.KI3Loop3Exit
import proofs.«207337_g69080253988965_cont_9to1c4b_173_32_alg».proof.Proof.KI3Loop4

noncomputable section

namespace Cert.Proof.KIS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "t0W" => (Memref.whole Cert.KernelIdeal.main_arg0_scv : Memref Cert.KernelIdeal.sig Kind.scVector Space.hbm Cert.KernelIdeal.S1000000x32 EltTy.f32)
local notation "t1W" => (Memref.whole Cert.KernelIdeal.main_arg1_scv : Memref Cert.KernelIdeal.sig Kind.scVector Space.hbm Cert.KernelIdeal.S100000x32 EltTy.f32)
local notation "t2W" => (Memref.whole Cert.KernelIdeal.main_arg2_scv : Memref Cert.KernelIdeal.sig Kind.scVector Space.hbm Cert.KernelIdeal.S1000000x32 EltTy.f32)
local notation "i3W" => (Memref.whole Cert.KernelIdeal.main_arg3_scv : Memref Cert.KernelIdeal.sig Kind.scVector Space.hbm Cert.KernelIdeal.S16384 EltTy.i32)
local notation "i4W" => (Memref.whole Cert.KernelIdeal.main_arg4_scv : Memref Cert.KernelIdeal.sig Kind.scVector Space.hbm Cert.KernelIdeal.S16384 EltTy.i32)
local notation "i5W" => (Memref.whole Cert.KernelIdeal.main_arg5_scv : Memref Cert.KernelIdeal.sig Kind.scVector Space.hbm Cert.KernelIdeal.S16384 EltTy.i32)
local notation "o0W" => (Memref.whole Cert.KernelIdeal.main_v0_0_scv : Memref Cert.KernelIdeal.sig Kind.scVector Space.hbm Cert.KernelIdeal.S16384x32 EltTy.f32)
local notation "o1W" => (Memref.whole Cert.KernelIdeal.main_v0_1_scv : Memref Cert.KernelIdeal.sig Kind.scVector Space.hbm Cert.KernelIdeal.S16384x32 EltTy.f32)
local notation "o2W" => (Memref.whole Cert.KernelIdeal.main_v0_2_scv : Memref Cert.KernelIdeal.sig Kind.scVector Space.hbm Cert.KernelIdeal.S16384x32 EltTy.f32)
local notation "sIdx" => (Memref.whole Cert.KernelIdeal.cc0_scratch0 : Memref Cert.KernelIdeal.sig Kind.scVector Space.vmem Cert.KernelIdeal.S512 EltTy.i32)
local notation "sGidx" => (Memref.whole Cert.KernelIdeal.cc0_scratch1 : Memref Cert.KernelIdeal.sig Kind.scVector Space.vmem Cert.KernelIdeal.S256 EltTy.i32)
local notation "sRows" => (Memref.whole Cert.KernelIdeal.cc0_scratch2 : Memref Cert.KernelIdeal.sig Kind.scVector Space.vmem Cert.KernelIdeal.S2x16x8x32 EltTy.f32)
local notation "sOut" => (Memref.whole Cert.KernelIdeal.cc0_scratch3 : Memref Cert.KernelIdeal.sig Kind.scVector Space.vmem Cert.KernelIdeal.S512x32 EltTy.f32)

variable [FloatOps F]

section Tile

variable (d : Dev nD) (L : grid0.Coords)

/-! ### The waits recorded along the way -/

omit [FloatOps F] in
theorem wk_refl {W : Waits sig (HIx 1)} : ∀ p ∈ W, p ∈ W ∨ p.2 = none := fun _ hp => .inl hp
omit [FloatOps F] in
theorem wk_insert {W A : Waits sig (HIx 1)} {sm : SemLoc sig} (h : ∀ p ∈ A, p ∈ W ∨ p.2 = none) :
    ∀ p ∈ insert (sm, (default : HIx 1)) A, p ∈ W ∨ p.2 = none := by
  intro p hp
  rcases Finset.mem_insert.mp hp with rfl | hp
  · exact .inr rfl
  · exact h p hp
omit [FloatOps F] in
theorem wk_trans {W A B : Waits sig (HIx 1)} (hBA : ∀ p ∈ B, p ∈ A ∨ p.2 = none) (hA : ∀ p ∈ A, p ∈ W ∨ p.2 = none) :
    ∀ p ∈ B, p ∈ W ∨ p.2 = none := by
  intro p hp
  rcases hBA p hp with h | h
  · exact hA p h
  · exact .inr h
omit [FloatOps F] in
theorem fin_owes {thr : Thread nD τ} {O : CellTallies nD τ sig (HIx 1)} {W Wc : Waits sig (HIx 1)} (h : ∀ p ∈ Wc, p ∈ W ∨ p.2 = none) :
    (owes thr O Wc : sProp 𝕄) ⊢ iprop(∃ W', ⌜∀ p ∈ W', p ∈ W ∨ p.2 = none⌝ ∗ owes thr O W') := by
  iintro HO
  iexists Wc; isplitr
  · ipureintro; exact h
  · iexact HO

set_option maxHeartbeats 16000000 in
/-- The task on the tile at grid coordinates `L`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (wL L)
        ∗ scopedBufs (thr d L) ∗ scopedSems0 (thr d L) ∗ owes (thr d L) O W)
      ⊢ wp frame (wpE (defs₀ (F := F)) 𝒱₀ (thr d L) none) Set.univ
          (cc0__gather3 L t0W (Memref.isWhole_whole _) t1W (Memref.isWhole_whole _) t2W (Memref.isWhole_whole _)
            i3W (Memref.isWhole_whole _) i4W (Memref.isWhole_whole _) i5W (Memref.isWhole_whole _)
            o0W (Memref.isWhole_whole _) o1W (Memref.isWhole_whole _) o2W (Memref.isWhole_whole _)
            sIdx (Memref.isWhole_whole _) sGidx (Memref.isWhole_whole _) sRows (Memref.isWhole_whole _) sOut (Memref.isWhole_whole _)
            cc0_scratch4 cc0_scratch5 cc0_scratch6 cc0_scratch7 cc0_scoped0 cc0_scoped1 cc0_scoped2)
          fun _ => iprop(tdT m d (wL L) ∗ scopedBufs (thr d L) ∗ scopedSems0 (thr d L)
            ∗ ∃ W', ⌜∀ p ∈ W', p ∈ W ∨ p.2 = none⌝ ∗ owes (thr d L) O W') := by
  rw [cc0__gather3_eq_skeleton]; unfold cc0__gather3_skel
  rw [(K (F := F)).scopedBufs_V hF d (cV L) (jV L), SparseCore.Cfg.scopedSems0_V (Val := Elt F) d (cV L) (jV L), ownSems0_V, ownBufs_V]
  unfold goT
  iintro ⟨#Hlv, -, ⟨Ht0, Ht1, Ht2, Hi0, Hi1, Hi2, Ho0, Ho1, Ho2⟩, ⟨⟨%fI, HsI⟩, ⟨%fG, HsG⟩, ⟨%fR, HsR⟩, ⟨%fO, HsO⟩, Hbufs⟩,
    ⟨Hg0, Hg1, Hds, Hos, Hr0, Hr1, Hr2, Hsems⟩, HO⟩
  ihave Hmw := ((K (F := F)).mayWaits_none (thr := thr d L) hO) $$ Hlv
  ihave HsI := (Entails.of_eq (pts_sIdx (F := F) d L _).symm) $$ HsI
  ihave HsG := (Entails.of_eq (pts_sGidx (F := F) d L _).symm) $$ HsG
  ihave HsR := (Entails.of_eq (pts_sRows (F := F) d L _).symm) $$ HsR
  ihave HsO := (Entails.of_eq (pts_sOut (F := F) d L _).symm) $$ HsO
  rw [k0_part130_eq_skeleton, k0_part136_eq_skeleton, k0_part137_eq_skeleton, k0_part144_eq_skeleton]
  have _plan0 : Transfers.BatchOf (thr d L) (SemLoc.dma (sig := sig) cc0_scratch4.sem) 16 (windows := true) := trivial
  have _plan1 : Transfers.BatchOf (thr d L) (SemLoc.dma (sig := sig) cc0_scratch5.sem) 16 (windows := true) := trivial

  -- ===== table 1 =====
  -- its indices copied in
  ihave Hi' := (Entails.of_eq (pts_ids3Slice (F := F) d L _).symm) $$ Hi0
  ihave Ht' := (Entails.of_eq (pts_tab0 (F := F) d L _ _).symm) $$ Ht0
  sl_exec
  rw [show View.write (Elt F) (sIdx).view _ _ Finset.univ = IDX1 m d L from by rw [View.write_whole_univ]; rfl]
  -- the group numbers
  sl_for (inv1 m d L O) $$ [Hmw HsI HsG]
  case region =>
    intro k _
    unfold inv1
    iintro ⟨#Hmw, HsI, %g, HsG, %hg⟩
    sl_exec
    sl_step
    isplitr; · iexact Hmw
    isplitl [HsI]; · iexact HsI
    iexists _; isplitl [HsG]; · iexact HsG
    ipureintro
    exact fun j hj => grp_step m d L k g hg j hj
  · unfold inv1
    isplitr; · iexact Hmw
    isplitl [HsI]; · iexact HsI
    iexists _; isplitl [HsG]; · iexact HsG
    ipureintro; intro j hj; omega
  iintro %_ HI
  unfold inv1
  icases HI with ⟨-, HsI, %g1, HsG, %hg1⟩
  -- the direct copies of the last 256 rows started
  delta tile_body.sl.prog.cont_1
  rw [wp_bind]
  iapply (loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR1 := grp_all m d L hpre g1 hg1
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht0 := (Entails.of_eq (pts_tab0 (F := F) d L _ _)) $$ Ht'
  sl_exec (disch := exact chkG _ (hgR1 _))
  -- the pair loop
  ihave Ht' := (Entails.of_eq (pts_tab0 (F := F) d L _ _).symm) $$ Ht0
  have hg1' : ∀ j : S256.Idx, (j 0).val < 16 * 16 →
      (g1 j : BitVec 32) = grp (IDX1v m d L (ValueIdx.ix1 ⟨(j 0).val, by have h : (j 0).val < 256 := (j 0).isLt; omega⟩)) := hg1
  rw [orowsBelow_eq]
  rw [wp_bind]
  iapply (pair_loop.{1} m d L hpre O _ _ _ _ _)
  isplitl [HsI HsG Ht' HsO Hg1 HsR Hg0 HO]
  · unfold PairInv
    isplitr; · iexact Hmw
    isplitl [HsI]; · iexact HsI
    isplitl [HsG]
    · unfold GRP1; iexists _; isplitl [HsG]; · iexact HsG
      ipureintro; exact fun j => hg1' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨deliv_word_good m d L hpre g1 hg1' (2 * 0) 0 0 (by omega) (by omega) (by omega) _ rfl _ rfl rfl rfl rfl _ rfl rfl rfl _ _,
        deliv_word_good m d L hpre g1 hg1' (2 * 0) 0 1 (by omega) (by omega) (by omega) _ rfl _ rfl rfl rfl rfl _ rfl rfl rfl _ _,
        deliv_word_good m d L hpre g1 hg1' (2 * 0) 0 2 (by omega) (by omega) (by omega) _ rfl _ rfl rfl rfl rfl _ rfl rfl rfl _ _,
        deliv_word_good m d L hpre g1 hg1' (2 * 0) 0 3 (by omega) (by omega) (by omega) _ rfl _ rfl rfl rfl rfl _ rfl rfl rfl _ _,
        deliv_word_good m d L hpre g1 hg1' (2 * 0) 0 4 (by omega) (by omega) (by omega) _ rfl _ rfl rfl rfl rfl _ rfl rfl rfl _ _,
        deliv_word_good m d L hpre g1 hg1' (2 * 0) 0 5 (by omega) (by omega) (by omega) _ rfl _ rfl rfl rfl rfl _ rfl rfl rfl _ _,
        deliv_word_good m d L hpre g1 hg1' (2 * 0) 0 6 (by omega) (by omega) (by omega) _ rfl _ rfl rfl rfl rfl _ rfl rfl rfl _ _,
        deliv_word_good m d L hpre g1 hg1' (2 * 0) 0 7 (by omega) (by omega) (by omega) _ rfl _ rfl rfl rfl rfl _ rfl rfl rfl _ _,
        deliv_word_good m d L hpre g1 hg1' (2 * 0) 0 8 (by omega) (by omega) (by omega) _ rfl _ rfl rfl rfl rfl _ rfl rfl rfl _ _,
        deliv_word_good m d L hpre g1 hg1' (2 * 0) 0 9 (by omega) (by omega) (by omega) _ rfl _ rfl rfl rfl rfl _ rfl rfl rfl _ _,
        deliv_word_good m d L hpre g1 hg1' (2 * 0) 0 10 (by omega) (by omega) (by omega) _ rfl _ rfl rfl rfl rfl _ rfl rfl rfl _ _,
        deliv_word_good m d L hpre g1 hg1' (2 * 0) 0 11 (by omega) (by omega) (by omega) _ rfl _ rfl rfl rfl rfl _ rfl rfl rfl _ _,
        deliv_word_good m d L hpre g1 hg1' (2 * 0) 0 12 (by omega) (by omega) (by omega) _ rfl _ rfl rfl rfl rfl _ rfl rfl rfl _ _,
        deliv_word_good m d L hpre g1 hg1' (2 * 0) 0 13 (by omega) (by omega) (by omega) _ rfl _ rfl rfl rfl rfl _ rfl rfl rfl _ _,
        deliv_word_good m d L hpre g1 hg1' (2 * 0) 0 14 (by omega) (by omega) (by omega) _ rfl _ rfl rfl rfl rfl _ rfl rfl rfl _ _,
        deliv_word_good m d L hpre g1 hg1' (2 * 0) 0 15 (by omega) (by omega) (by omega) _ rfl _ rfl rfl rfl rfl _ rfl rfl rfl _ _⟩
    iapply (fin_owes wk_refl) $$ HO
  iintro HP
  ihave HP := (pair_exit.{1} m d L O _) $$ HP
  icases HP with ⟨-, HsI, HGRP, ⟨%q2, Ht'⟩, HLOW, Hg1, ⟨%bR, HsR⟩, Hg0, %W3_1, %hW3_1, HO⟩
  unfold GRP1
  icases HGRP with ⟨%g1b, HsG, -⟩
  -- the direct copies drained
  sl_exec
  rw [wp_bind]
  iapply (L4.loop4 m d L hpre O _ _ _ _)
  isplitr; · iexact Hmw
  isplitl [HsI]; · iexact HsI
  isplitl [HDS]; · iexact HDS
  isplitl [HO]; · iexact HO
  iintro ⟨HsI, HHIGH, Hds, %W4_1, %hW4_1, HO⟩
  ihave Hw := (L4.stage_whole m d L) $$ [HLOW HHIGH]
  · isplitl [HLOW] <;> iassumption
  icases Hw with ⟨%ow1, HsO, %how1⟩
  -- the staged rows copied out
  ihave Ho' := (Entails.of_eq (L4.pts_out3Slice (F := F) d L _).symm) $$ Ho0
  sl_exec
  ihave Ho0 := (copy_out_ent m d L _ _) $$ [Ho']
  · isplitl [Ho']; · iexact Ho'
    ipureintro; exact fun x => how1 x
  ihave Hi0 := (Entails.of_eq (pts_ids3Slice (F := F) d L _)) $$ Hi'

  -- ===== table 2 =====
  -- its indices copied in
  ihave Hi' := (Entails.of_eq (T2.pts_ids3Slice (F := F) d L _).symm) $$ Hi1
  ihave Ht' := (Entails.of_eq (T2.pts_tab1 (F := F) d L _ _).symm) $$ Ht1
  sl_exec
  rw [show View.write (Elt F) (sIdx).view _ _ Finset.univ = T2.IDX1 m d L from by rw [View.write_whole_univ]; rfl]
  -- the group numbers
  sl_for (T2.inv1 m d L O) $$ [Hmw HsI HsG]
  case region =>
    intro k _
    unfold T2.inv1
    iintro ⟨#Hmw, HsI, %g, HsG, %hg⟩
    sl_exec
    sl_step
    isplitr; · iexact Hmw
    isplitl [HsI]; · iexact HsI
    iexists _; isplitl [HsG]; · iexact HsG
    ipureintro
    exact fun j hj => T2.grp_step m d L k g hg j hj
  · unfold T2.inv1
    isplitr; · iexact Hmw
    isplitl [HsI]; · iexact HsI
    iexists _; isplitl [HsG]; · iexact HsG
    ipureintro; intro j hj; omega
  iintro %_ HI
  unfold T2.inv1
  icases HI with ⟨-, HsI, %g2, HsG, %hg2⟩
  -- the direct copies of the last 256 rows started
  delta tile_body.sl.prog.cont_2
  rw [wp_bind]
  iapply (T2.loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR2 := T2.grp_all m d L hpre g2 hg2
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht1 := (Entails.of_eq (T2.pts_tab1 (F := F) d L _ _)) $$ Ht'
  sl_exec (disch := exact T2.chkG _ (hgR2 _))
  -- the pair loop
  ihave Ht' := (Entails.of_eq (T2.pts_tab1 (F := F) d L _ _).symm) $$ Ht1
  have hg2' : ∀ j : S256.Idx, (j 0).val < 16 * 16 →
      (g2 j : BitVec 32) = grp (T2.IDX1v m d L (ValueIdx.ix1 ⟨(j 0).val, by have h : (j 0).val < 256 := (j 0).isLt; omega⟩)) := hg2
  rw [orowsBelow_eq]
  rw [wp_bind]
  iapply (T2.pair_loop.{1} m d L hpre O _ _ _)
  isplitl [HsI HsG Ht' HsO Hg1 HsR Hg0 HO]
  · unfold T2.PairInv
    isplitr; · iexact Hmw
    isplitl [HsI]; · iexact HsI
    isplitl [HsG]
    · unfold T2.GRP1; iexists _; isplitl [HsG]; · iexact HsG
      ipureintro; exact fun j => hg2' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨T2.deliv_word_good m d L hpre g2 hg2' (2 * 0) 0 0 (by omega) (by omega) (by omega) _ rfl _ rfl rfl rfl rfl _ rfl rfl rfl _ _,
        T2.deliv_word_good m d L hpre g2 hg2' (2 * 0) 0 1 (by omega) (by omega) (by omega) _ rfl _ rfl rfl rfl rfl _ rfl rfl rfl _ _,
        T2.deliv_word_good m d L hpre g2 hg2' (2 * 0) 0 2 (by omega) (by omega) (by omega) _ rfl _ rfl rfl rfl rfl _ rfl rfl rfl _ _,
        T2.deliv_word_good m d L hpre g2 hg2' (2 * 0) 0 3 (by omega) (by omega) (by omega) _ rfl _ rfl rfl rfl rfl _ rfl rfl rfl _ _,
        T2.deliv_word_good m d L hpre g2 hg2' (2 * 0) 0 4 (by omega) (by omega) (by omega) _ rfl _ rfl rfl rfl rfl _ rfl rfl rfl _ _,
        T2.deliv_word_good m d L hpre g2 hg2' (2 * 0) 0 5 (by omega) (by omega) (by omega) _ rfl _ rfl rfl rfl rfl _ rfl rfl rfl _ _,
        T2.deliv_word_good m d L hpre g2 hg2' (2 * 0) 0 6 (by omega) (by omega) (by omega) _ rfl _ rfl rfl rfl rfl _ rfl rfl rfl _ _,
        T2.deliv_word_good m d L hpre g2 hg2' (2 * 0) 0 7 (by omega) (by omega) (by omega) _ rfl _ rfl rfl rfl rfl _ rfl rfl rfl _ _,
        T2.deliv_word_good m d L hpre g2 hg2' (2 * 0) 0 8 (by omega) (by omega) (by omega) _ rfl _ rfl rfl rfl rfl _ rfl rfl rfl _ _,
        T2.deliv_word_good m d L hpre g2 hg2' (2 * 0) 0 9 (by omega) (by omega) (by omega) _ rfl _ rfl rfl rfl rfl _ rfl rfl rfl _ _,
        T2.deliv_word_good m d L hpre g2 hg2' (2 * 0) 0 10 (by omega) (by omega) (by omega) _ rfl _ rfl rfl rfl rfl _ rfl rfl rfl _ _,
        T2.deliv_word_good m d L hpre g2 hg2' (2 * 0) 0 11 (by omega) (by omega) (by omega) _ rfl _ rfl rfl rfl rfl _ rfl rfl rfl _ _,
        T2.deliv_word_good m d L hpre g2 hg2' (2 * 0) 0 12 (by omega) (by omega) (by omega) _ rfl _ rfl rfl rfl rfl _ rfl rfl rfl _ _,
        T2.deliv_word_good m d L hpre g2 hg2' (2 * 0) 0 13 (by omega) (by omega) (by omega) _ rfl _ rfl rfl rfl rfl _ rfl rfl rfl _ _,
        T2.deliv_word_good m d L hpre g2 hg2' (2 * 0) 0 14 (by omega) (by omega) (by omega) _ rfl _ rfl rfl rfl rfl _ rfl rfl rfl _ _,
        T2.deliv_word_good m d L hpre g2 hg2' (2 * 0) 0 15 (by omega) (by omega) (by omega) _ rfl _ rfl rfl rfl rfl _ rfl rfl rfl _ _⟩
    iapply (fin_owes wk_refl) $$ HO
  iintro HP
  ihave HP := (T2.pair_exit.{1} m d L O _) $$ HP
  icases HP with ⟨-, HsI, HGRP, ⟨%q2, Ht'⟩, HLOW, Hg1, ⟨%bR, HsR⟩, Hg0, %W3_2, %hW3_2, HO⟩
  unfold T2.GRP1
  icases HGRP with ⟨%g2b, HsG, -⟩
  -- the direct copies drained
  sl_exec
  rw [wp_bind]
  iapply (T2.L4.loop4 m d L hpre O _ _ _)
  isplitr; · iexact Hmw
  isplitl [HsI]; · iexact HsI
  isplitl [HDS]; · iexact HDS
  isplitl [HO]; · iexact HO
  iintro ⟨HsI, HHIGH, Hds, %W4_2, %hW4_2, HO⟩
  ihave Hw := (T2.L4.stage_whole m d L) $$ [HLOW HHIGH]
  · isplitl [HLOW] <;> iassumption
  icases Hw with ⟨%ow2, HsO, %how2⟩
  -- the staged rows copied out
  ihave Ho' := (Entails.of_eq (T2.L4.pts_out3Slice (F := F) d L _).symm) $$ Ho1
  sl_exec
  ihave Ho1 := (T2.copy_out_ent m d L _ _) $$ [Ho']
  · isplitl [Ho']; · iexact Ho'
    ipureintro; exact fun x => how2 x
  ihave Hi1 := (Entails.of_eq (T2.pts_ids3Slice (F := F) d L _)) $$ Hi'

  -- ===== table 3 =====
  -- its indices copied in
  ihave Hi' := (Entails.of_eq (T3.pts_ids3Slice (F := F) d L _).symm) $$ Hi2
  ihave Ht' := (Entails.of_eq (T3.pts_tab2 (F := F) d L _ _).symm) $$ Ht2
  sl_exec
  rw [show View.write (Elt F) (sIdx).view _ _ Finset.univ = T3.IDX1 m d L from by rw [View.write_whole_univ]; rfl]
  -- the group numbers
  sl_for (T3.inv1 m d L O) $$ [Hmw HsI HsG]
  case region =>
    intro k _
    unfold T3.inv1
    iintro ⟨#Hmw, HsI, %g, HsG, %hg⟩
    sl_exec
    sl_step
    isplitr; · iexact Hmw
    isplitl [HsI]; · iexact HsI
    iexists _; isplitl [HsG]; · iexact HsG
    ipureintro
    exact fun j hj => T3.grp_step m d L k g hg j hj
  · unfold T3.inv1
    isplitr; · iexact Hmw
    isplitl [HsI]; · iexact HsI
    iexists _; isplitl [HsG]; · iexact HsG
    ipureintro; intro j hj; omega
  iintro %_ HI
  unfold T3.inv1
  icases HI with ⟨-, HsI, %g3, HsG, %hg3⟩
  -- the direct copies of the last 256 rows started
  delta tile_body.sl.prog.cont_3
  rw [wp_bind]
  iapply (T3.loop2 m d L hpre O W _ _ _)
  isplitl [HsI]; · iexact HsI
  isplitl [Ht']; · iexact Ht'
  isplitl [HsO]; · iexact HsO
  isplitl [Hds]; · iexact Hds
  iintro ⟨HsI, ⟨%q', Ht'⟩, ⟨%o, HsO⟩, HDS⟩
  -- the first sixteen groups started: one read token of the table each
  have hgR3 := T3.grp_all m d L hpre g3 hg3
  ihave Hk := (toks16 (F := F) q' _) $$ Ht'
  icases Hk with ⟨%q1, Ht', %p, Tk0, Tk1, Tk2, Tk3, Tk4, Tk5, Tk6, Tk7, Tk8, Tk9, Tk10, Tk11, Tk12, Tk13, Tk14, Tk15⟩
  ihave Ht2 := (Entails.of_eq (T3.pts_tab2 (F := F) d L _ _)) $$ Ht'
  sl_exec (disch := exact T3.chkG _ (hgR3 _))
  -- the pair loop
  ihave Ht' := (Entails.of_eq (T3.pts_tab2 (F := F) d L _ _).symm) $$ Ht2
  have hg3' : ∀ j : S256.Idx, (j 0).val < 16 * 16 →
      (g3 j : BitVec 32) = grp (T3.IDX1v m d L (ValueIdx.ix1 ⟨(j 0).val, by have h : (j 0).val < 256 := (j 0).isLt; omega⟩)) := hg3
  rw [orowsBelow_eq]
  rw [wp_bind]
  iapply (T3.pair_loop.{1} m d L hpre O _ _)
  isplitl [HsI HsG Ht' HsO Hg1 HsR Hg0 HO]
  · unfold T3.PairInv
    isplitr; · iexact Hmw
    isplitl [HsI]; · iexact HsI
    isplitl [HsG]
    · unfold T3.GRP1; iexists _; isplitl [HsG]; · iexact HsG
      ipureintro; exact fun j => hg3' j (by have h : (j 0).val < 256 := (j 0).isLt; omega)
    isplitl [Ht']; · iexists _; iexact Ht'
    isplitl [HsO]
    · iexists _; isplitl [HsO]; · iexact HsO
      ipureintro; intro i hi; omega
    isplitl [Hg1]; · iexact Hg1
    isplitl [HsR Hg0]
    · rw [if_pos (by omega : 0 < 8)]
      iexists _, _, _, _, _, _, _, _, _, _, _, _, _, _, _, _, _
      isplitl [HsR]; · iexact HsR
      isplitl [Hg0]; · iexact Hg0
      ipureintro
      exact ⟨T3.deliv_word_good m d L hpre g3 hg3' (2 * 0) 0 0 (by omega) (by omega) (by omega) _ rfl _ rfl rfl rfl rfl _ rfl rfl rfl _ _,
        T3.deliv_word_good m d L hpre g3 hg3' (2 * 0) 0 1 (by omega) (by omega) (by omega) _ rfl _ rfl rfl rfl rfl _ rfl rfl rfl _ _,
        T3.deliv_word_good m d L hpre g3 hg3' (2 * 0) 0 2 (by omega) (by omega) (by omega) _ rfl _ rfl rfl rfl rfl _ rfl rfl rfl _ _,
        T3.deliv_word_good m d L hpre g3 hg3' (2 * 0) 0 3 (by omega) (by omega) (by omega) _ rfl _ rfl rfl rfl rfl _ rfl rfl rfl _ _,
        T3.deliv_word_good m d L hpre g3 hg3' (2 * 0) 0 4 (by omega) (by omega) (by omega) _ rfl _ rfl rfl rfl rfl _ rfl rfl rfl _ _,
        T3.deliv_word_good m d L hpre g3 hg3' (2 * 0) 0 5 (by omega) (by omega) (by omega) _ rfl _ rfl rfl rfl rfl _ rfl rfl rfl _ _,
        T3.deliv_word_good m d L hpre g3 hg3' (2 * 0) 0 6 (by omega) (by omega) (by omega) _ rfl _ rfl rfl rfl rfl _ rfl rfl rfl _ _,
        T3.deliv_word_good m d L hpre g3 hg3' (2 * 0) 0 7 (by omega) (by omega) (by omega) _ rfl _ rfl rfl rfl rfl _ rfl rfl rfl _ _,
        T3.deliv_word_good m d L hpre g3 hg3' (2 * 0) 0 8 (by omega) (by omega) (by omega) _ rfl _ rfl rfl rfl rfl _ rfl rfl rfl _ _,
        T3.deliv_word_good m d L hpre g3 hg3' (2 * 0) 0 9 (by omega) (by omega) (by omega) _ rfl _ rfl rfl rfl rfl _ rfl rfl rfl _ _,
        T3.deliv_word_good m d L hpre g3 hg3' (2 * 0) 0 10 (by omega) (by omega) (by omega) _ rfl _ rfl rfl rfl rfl _ rfl rfl rfl _ _,
        T3.deliv_word_good m d L hpre g3 hg3' (2 * 0) 0 11 (by omega) (by omega) (by omega) _ rfl _ rfl rfl rfl rfl _ rfl rfl rfl _ _,
        T3.deliv_word_good m d L hpre g3 hg3' (2 * 0) 0 12 (by omega) (by omega) (by omega) _ rfl _ rfl rfl rfl rfl _ rfl rfl rfl _ _,
        T3.deliv_word_good m d L hpre g3 hg3' (2 * 0) 0 13 (by omega) (by omega) (by omega) _ rfl _ rfl rfl rfl rfl _ rfl rfl rfl _ _,
        T3.deliv_word_good m d L hpre g3 hg3' (2 * 0) 0 14 (by omega) (by omega) (by omega) _ rfl _ rfl rfl rfl rfl _ rfl rfl rfl _ _,
        T3.deliv_word_good m d L hpre g3 hg3' (2 * 0) 0 15 (by omega) (by omega) (by omega) _ rfl _ rfl rfl rfl rfl _ rfl rfl rfl _ _⟩
    iapply (fin_owes wk_refl) $$ HO
  iintro HP
  ihave HP := (T3.pair_exit.{1} m d L O _) $$ HP
  icases HP with ⟨-, HsI, HGRP, ⟨%q2, Ht'⟩, HLOW, Hg1, ⟨%bR, HsR⟩, Hg0, %W3_3, %hW3_3, HO⟩
  unfold T3.GRP1
  icases HGRP with ⟨%g3b, HsG, -⟩
  -- the direct copies drained
  sl_exec
  rw [wp_bind]
  iapply (T3.L4.loop4 m d L hpre O _ _)
  isplitr; · iexact Hmw
  isplitl [HsI]; · iexact HsI
  isplitl [HDS]; · iexact HDS
  isplitl [HO]; · iexact HO
  iintro ⟨HsI, HHIGH, Hds, %W4_3, %hW4_3, HO⟩
  ihave Hw := (T3.L4.stage_whole m d L) $$ [HLOW HHIGH]
  · isplitl [HLOW] <;> iassumption
  icases Hw with ⟨%ow3, HsO, %how3⟩
  -- the staged rows copied out
  ihave Ho' := (Entails.of_eq (T3.L4.pts_out3Slice (F := F) d L _).symm) $$ Ho2
  sl_exec
  ihave Ho2 := (T3.copy_out_ent m d L _ _) $$ [Ho']
  · isplitl [Ho']; · iexact Ho'
    ipureintro; exact fun x => how3 x
  ihave Hi2 := (Entails.of_eq (T3.pts_ids3Slice (F := F) d L _)) $$ Hi'

  -- ===== the task's end: everything handed back =====
  sl_step
  unfold tdT
  isplitl [Hi0 Hi1 Hi2 Ho0 Ho1 Ho2]
  · isplitl [Hi0]; · iexact Hi0
    isplitl [Hi1]; · iexact Hi1
    isplitl [Hi2]; · iexact Hi2
    isplitl [Ho0]; · iexact Ho0
    isplitl [Ho1]; · iexact Ho1
    iexact Ho2
  isplitl [HsI HsG HsR HsO Hbufs]
  · isplitl [HsI]; · iexists _; iapply (Entails.of_eq (pts_sIdx (F := F) d L _)); iexact HsI
    isplitl [HsG]; · iexists _; iapply (Entails.of_eq (pts_sGidx (F := F) d L _)); iexact HsG
    isplitl [HsR]; · iexists _; iapply (Entails.of_eq (pts_sRows (F := F) d L _)); iexact HsR
    isplitl [HsO]; · iexists _; iapply (Entails.of_eq (pts_sOut (F := F) d L _)); iexact HsO
    iexact Hbufs
  isplitl [Hg0 Hg1 Hds Hos Hr0 Hr1 Hr2 Hsems]
  · isplitl [Hg0]; · iexact Hg0
    isplitl [Hg1]; · iexact Hg1
    isplitl [Hds]; · iexact Hds
    isplitl [Hos]; · iexact Hos
    isplitl [Hr0]; · iexact Hr0
    isplitl [Hr1]; · iexact Hr1
    isplitl [Hr2]; · iexact Hr2
    iexact Hsems
  iapply (fin_owes (wk_insert (wk_trans hW4_3 (wk_trans hW3_3 (wk_insert (wk_insert (wk_trans hW4_2 (wk_trans hW3_2 (wk_insert
    (wk_insert (wk_trans hW4_1 (wk_trans hW3_1 (wk_insert wk_refl))))))))))))) $$ HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather3 (coordsV c s)
          t0W (Memref.isWhole_whole _) t1W (Memref.isWhole_whole _) t2W (Memref.isWhole_whole _)
          i3W (Memref.isWhole_whole _) i4W (Memref.isWhole_whole _) i5W (Memref.isWhole_whole _)
          o0W (Memref.isWhole_whole _) o1W (Memref.isWhole_whole _) o2W (Memref.isWhole_whole _)
          sIdx (Memref.isWhole_whole _) sGidx (Memref.isWhole_whole _) sRows (Memref.isWhole_whole _) sOut (Memref.isWhole_whole _)
          cc0_scratch4 cc0_scratch5 cc0_scratch6 cc0_scratch7 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KIS

end
-- ==== Proof.RefLemmas.lean ====
/-
  Two per-index reads of host operations on literal shapes, for the reference's run.

  A gather of whole rows: with the row axis collapsed and named by the start index map, the lane axis an offset axis,
  and the start indices an array [16384, 1] whose last axis is the index vector, result element (r, c) is the
  operand's element (clamp idx[r, 0], c), the start index read as a signed integer and clamped into the rows.

  An and-reduction along a unit axis: each result element folds exactly one operand element into the initial value, so
  with the initial value the all-ones bit it is that element.
-/
import Idealize.ShloMosaic.PureOps
import Idealize.ShloMosaic.Lib.ValueIdx
import Idealize.ShloMosaic.Lib.ReduceAll

namespace Cert.RefLemmas

open Idealize.ShloMosaic Idealize.ShloMosaic.ValueIdx

section Gather
variable {α : Type}

/-- The dimension numbers of a gather of whole rows of an operand [N, 32] at start indices [16384, 1]. -/
abbrev rowDims (N : Nat)
    (wf : GatherDims.WF ⟨2, ![N, 32]⟩ ⟨2, ![16384, 1]⟩ ⟨2, ![16384, 32]⟩ [1] [0] [] [0] [] 1 ![1, 32]) :
    GatherDims ⟨2, ![N, 32]⟩ ⟨2, ![16384, 1]⟩ ⟨2, ![16384, 32]⟩ where
  offsetDims := [1]
  collapsedSliceDims := [0]
  operandBatchingDims := []
  startIndicesBatchingDims := []
  startIndexMap := [0]
  indexVectorDim := 1
  sliceSizes := ![1, 32]
  wf := wf

/-- The gather read at (r, c): the operand at row "start index idx[r, 0], read signed and clamped into [0, N − 1]",
    lane c. -/
theorem gather_row_apply {N w : Nat} (hN : 0 < N)
    (wf : GatherDims.WF ⟨2, ![N, 32]⟩ ⟨2, ![16384, 1]⟩ ⟨2, ![16384, 32]⟩ [1] [0] [] [0] [] 1 ![1, 32])
    (x : (⟨2, ![N, 32]⟩ : Shape).Idx → α) (idx : IVec ⟨2, ![16384, 1]⟩ w) (j : (⟨2, ![16384, 32]⟩ : Shape).Idx) :
    Host.gather (rowDims N wf) x idx j
      = x (ix2 (⟨min (idx (ix2 (j 0) (0 : Fin 1))).toInt.toNat (N - 1), by omega⟩ : Fin N) (j 1)) := by
  unfold Host.gather
  congr 1
  funext a
  refine Fin.ext ?_
  show (rowDims N wf).start j idx a + (rowDims N wf).batchCoord j a + (rowDims N wf).offCoord j a = _
  rw [GatherDims.batchCoord_eq_zero _ _ _ List.not_mem_nil]
  have ha : a = 0 ∨ a = 1 := by
    rcases a with ⟨v, hv⟩
    have hv2 : v < 2 := hv
    rcases Nat.lt_or_ge v 1 with h | h
    · left; exact Fin.ext (by show v = 0; omega)
    · right; exact Fin.ext (by show v = 1; omega)
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx j ⟨List.idxOf (0 : Fin 2) (rowDims N wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  · have hs : (rowDims N wf).start j idx (1 : Fin 2) = 0 := by
      unfold GatherDims.start
      rw [dif_neg (show (1 : Fin 2) ∉ [(0 : Fin 2)] from by decide)]
    rw [hs]
    simp only [Nat.zero_add]
    rfl

end Gather

section Reduce

/-- A fold by `and` from the all-ones bit over all-ones bits is the all-ones bit. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- An and-reduction of all-ones bits from the all-ones bit is all ones, whatever the shapes and axes. -/
theorem reduce_andi_of_all {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun i _ => hx i

/-- An and-reduction along the unit axis of [16384, 1] from the all-ones bit: element r is the operand's (r, 0). -/
theorem reduce_and_unit (p : IVec ⟨2, ![16384, 1]⟩ 1) (init : IVec ⟨0, ![]⟩ 1) (hinit : ∀ i, init i = 1#1)
    (h : (⟨2, ![16384, 1]⟩ : Shape).ReducesTo [1] ⟨1, ![16384]⟩) (hu : 0 < (⟨0, ![]⟩ : Shape).numel)
    (j : (⟨1, ![16384]⟩ : Shape).Idx) :
    Host.reduce IntOp.andi p init h hu j = p (ix2 (j 0) (0 : Fin 1)) := by
  have hj : (j 0).val < 16384 := (j 0).isLt
  obtain ⟨a, ha⟩ : ∃ a : (⟨2, ![16384, 1]⟩ : Shape).Idx, a = ix2 (⟨(j 0).val, hj⟩ : Fin 16384) (0 : Fin 1) := ⟨_, rfl⟩
  have hset : (Finset.univ.filter fun i : (⟨2, ![16384, 1]⟩ : Shape).Idx => h.drop i = j) = {a} := by
    ext i
    rw [Finset.mem_filter, Finset.mem_singleton]
    constructor
    · rintro ⟨-, e⟩
      have e0 : ((h.drop i) 0).val = (j 0).val := congrArg Fin.val (congrFun e 0)
      rw [ha]
      funext b
      match b with
      | ⟨0, _⟩ => exact Fin.ext e0
      | ⟨1, _⟩ => exact Subsingleton.elim (α := Fin 1) _ _
    · intro e
      refine ⟨Finset.mem_univ _, ?_⟩
      rw [e, ha]
      funext b
      match b with
      | ⟨0, _⟩ => exact Fin.ext rfl
  rw [Host.reduce_eq_fold, hset, Finset.fold_singleton, hinit]
  have hb : ∀ b : BitVec 1, IntOp.andi b 1#1 = b := by decide
  rw [hb, ha]
  rfl

end Reduce

end Cert.RefLemmas
-- ==== Proof.RefRun.lean ====
/-
  The run of the reference program, written out.

  The reference's @main is three calls of an outlined lookup function (each of which calls an outlined select).
  Unfolding the calls at their sites, @main is one straight line of sixty-nine tensor operations, twenty-three per
  lookup: the index words are first moved into the table's range the way a negative index is read from the end
  (`select (ids < 0) (ids + rows) ids`), the rows they name are gathered, a mask says which of the moved indices lie
  in `[0, rows - 1]`, and the result is the gathered row where the mask holds and a fixed fill value elsewhere.

  First the straight line and its run: every fair execution terminates with each result buffer at the operations'
  composed term of the arguments, and the arguments unchanged. Then the value of that term: for index words that
  already lie in `[0, rows - 1]` (the hypotheses of `run`) the moved index is the index itself, the mask holds
  everywhere, and row `r` of the result is the row of the table that the `r`-th index word names.
-/
import proofs.«207337_g69080253988965_cont_9to1c4b_173_32_alg».proof.ReferenceIdeal
import proofs.«207337_g69080253988965_cont_9to1c4b_173_32_alg».proof.Proof.Gen.ReferenceIdeal
import proofs.«207337_g69080253988965_cont_9to1c4b_173_32_alg».proof.Proof.Spec
import proofs.«207337_g69080253988965_cont_9to1c4b_173_32_alg».proof.Proof.RefLemmas
import Idealize.ShloMosaic.Lib.StableHlo.Run
import Idealize.ShloMosaic.Lib.Pipeline.Regions
import Idealize.ShloMosaic.Lib.ValueIdx

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The straight line -/

/-- The first lookup's twenty-three operations, in order, the outlined select (the seventh) unfolded, over the
    buffers the call names. -/
abbrev ops0 [Cert.ReferenceIdeal.Facts] : List (HloOp τ sig (Elt F)) :=
  [ nullary main_call0_c (constantI S_ 32 0#32),
    unary main_call0_c main_call0_v0 (broadcastInDim S16384 ![] bcast_S_S16384 : (⟨S_, .i32⟩ : BufTy).Contents (Elt F) → (⟨S16384, .i32⟩ : BufTy).Contents (Elt F)),
    binary main_arg3 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 1000000#32),
    unary main_call0_c_0 main_call0_v2 (broadcastInDim S16384 ![] bcast_S_S16384 : (⟨S_, .i32⟩ : BufTy).Contents (Elt F) → (⟨S16384, .i32⟩ : BufTy).Contents (Elt F)),
    binary main_arg3 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_arg3 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 999999#32),
    nullary main_call0_c_2 (constantI S_ 32 0#32),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1),
    binary main_call0_v11 main_call0_c_3 main_call0_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg0 main_call0_v5 main_call0_v13 (fun x i => Host.gather gather_S1000000x32_S16384x1_S16384x32_1_0_n_n_0_1_132 x i : (⟨S1000000x32, .f32⟩ : BufTy).Contents (Elt F) → (⟨S16384x1, .i32⟩ : BufTy).Contents (Elt F) → (⟨S16384x32, .f32⟩ : BufTy).Contents (Elt F)),
    unary main_call0_v12 main_call0_v14 (broadcastInDim S16384x32 ![0] bcast_S16384_S16384x32_0 : (⟨S16384, .i1⟩ : BufTy).Contents (Elt F) → (⟨S16384x32, .i1⟩ : BufTy).Contents (Elt F)),
    nullary main_call0_cst (constant S_ .f32 0x7FC00000#32),
    unary main_call0_cst main_call0_v15 (broadcastInDim S16384x32 ![] bcast_S_S16384x32 : (⟨S_, .f32⟩ : BufTy).Contents (Elt F) → (⟨S16384x32, .f32⟩ : BufTy).Contents (Elt F)),
    ternary main_call0_v14 main_call0_v13 main_call0_v15 main_v0 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The second lookup's twenty-three operations. -/
abbrev ops1 [Cert.ReferenceIdeal.Facts] : List (HloOp τ sig (Elt F)) :=
  [ nullary main_call1_c (constantI S_ 32 0#32),
    unary main_call1_c main_call1_v0 (broadcastInDim S16384 ![] bcast_S_S16384 : (⟨S_, .i32⟩ : BufTy).Contents (Elt F) → (⟨S16384, .i32⟩ : BufTy).Contents (Elt F)),
    binary main_arg4 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 100000#32),
    unary main_call1_c_0 main_call1_v2 (broadcastInDim S16384 ![] bcast_S_S16384 : (⟨S_, .i32⟩ : BufTy).Contents (Elt F) → (⟨S16384, .i32⟩ : BufTy).Contents (Elt F)),
    binary main_arg4 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_arg4 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 99999#32),
    nullary main_call1_c_2 (constantI S_ 32 0#32),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1),
    binary main_call1_v11 main_call1_c_3 main_call1_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg1 main_call1_v5 main_call1_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call1_v12 main_call1_v14 (broadcastInDim S16384x32 ![0] bcast_S16384_S16384x32_0 : (⟨S16384, .i1⟩ : BufTy).Contents (Elt F) → (⟨S16384x32, .i1⟩ : BufTy).Contents (Elt F)),
    nullary main_call1_cst (constant S_ .f32 0x7FC00000#32),
    unary main_call1_cst main_call1_v15 (broadcastInDim S16384x32 ![] bcast_S_S16384x32 : (⟨S_, .f32⟩ : BufTy).Contents (Elt F) → (⟨S16384x32, .f32⟩ : BufTy).Contents (Elt F)),
    ternary main_call1_v14 main_call1_v13 main_call1_v15 main_v1 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The third lookup's twenty-three operations. -/
abbrev ops2 [Cert.ReferenceIdeal.Facts] : List (HloOp τ sig (Elt F)) :=
  [ nullary main_call2_c (constantI S_ 32 0#32),
    unary main_call2_c main_call2_v0 (broadcastInDim S16384 ![] bcast_S_S16384 : (⟨S_, .i32⟩ : BufTy).Contents (Elt F) → (⟨S16384, .i32⟩ : BufTy).Contents (Elt F)),
    binary main_arg5 main_call2_v0 main_call2_v1 (cmpi .slt : (⟨S16384, .i32⟩ : BufTy).Contents (Elt F) → (⟨S16384, .i32⟩ : BufTy).Contents (Elt F) → (⟨S16384, .i1⟩ : BufTy).Contents (Elt F)),
    nullary main_call2_c_0 (constantI S_ 32 1000000#32),
    unary main_call2_c_0 main_call2_v2 (broadcastInDim S16384 ![] bcast_S_S16384 : (⟨S_, .i32⟩ : BufTy).Contents (Elt F) → (⟨S16384, .i32⟩ : BufTy).Contents (Elt F)),
    binary main_arg5 main_call2_v2 main_call2_v3 (addi : (⟨S16384, .i32⟩ : BufTy).Contents (Elt F) → (⟨S16384, .i32⟩ : BufTy).Contents (Elt F) → (⟨S16384, .i32⟩ : BufTy).Contents (Elt F)),
    ternary main_call2_v1 main_call2_v3 main_arg5 main_call2_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call2_v4 main_call2_v5 (broadcastInDim S16384x1 ![0] bcast_S16384_S16384x1_0 : (⟨S16384, .i32⟩ : BufTy).Contents (Elt F) → (⟨S16384x1, .i32⟩ : BufTy).Contents (Elt F)),
    nullary main_call2_c_1 (constantI S1 32 999999#32),
    nullary main_call2_c_2 (constantI S_ 32 0#32),
    unary main_call2_c_2 main_call2_v6 (broadcastInDim S16384x1 ![] bcast_S_S16384x1 : (⟨S_, .i32⟩ : BufTy).Contents (Elt F) → (⟨S16384x1, .i32⟩ : BufTy).Contents (Elt F)),
    binary main_call2_v5 main_call2_v6 main_call2_v7 (cmpi .sge : (⟨S16384x1, .i32⟩ : BufTy).Contents (Elt F) → (⟨S16384x1, .i32⟩ : BufTy).Contents (Elt F) → (⟨S16384x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S16384x1 ![0, 1] bcast_S1x1_S16384x1_0_1 : (⟨S1x1, .i32⟩ : BufTy).Contents (Elt F) → (⟨S16384x1, .i32⟩ : BufTy).Contents (Elt F)),
    binary main_call2_v5 main_call2_v9 main_call2_v10 (cmpi .sle : (⟨S16384x1, .i32⟩ : BufTy).Contents (Elt F) → (⟨S16384x1, .i32⟩ : BufTy).Contents (Elt F) → (⟨S16384x1, .i1⟩ : BufTy).Contents (Elt F)),
    binary main_call2_v7 main_call2_v10 main_call2_v11 (andi : (⟨S16384x1, .i1⟩ : BufTy).Contents (Elt F) → (⟨S16384x1, .i1⟩ : BufTy).Contents (Elt F) → (⟨S16384x1, .i1⟩ : BufTy).Contents (Elt F)),
    nullary main_call2_c_3 (constantI S_ 1 1#1),
    binary main_call2_v11 main_call2_c_3 main_call2_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg2 main_call2_v5 main_call2_v13 (fun x i => Host.gather gather_S1000000x32_S16384x1_S16384x32_1_0_n_n_0_1_132 x i : (⟨S1000000x32, .f32⟩ : BufTy).Contents (Elt F) → (⟨S16384x1, .i32⟩ : BufTy).Contents (Elt F) → (⟨S16384x32, .f32⟩ : BufTy).Contents (Elt F)),
    unary main_call2_v12 main_call2_v14 (broadcastInDim S16384x32 ![0] bcast_S16384_S16384x32_0 : (⟨S16384, .i1⟩ : BufTy).Contents (Elt F) → (⟨S16384x32, .i1⟩ : BufTy).Contents (Elt F)),
    nullary main_call2_cst (constant S_ .f32 0x7FC00000#32),
    unary main_call2_cst main_call2_v15 (broadcastInDim S16384x32 ![] bcast_S_S16384x32 : (⟨S_, .f32⟩ : BufTy).Contents (Elt F) → (⟨S16384x32, .f32⟩ : BufTy).Contents (Elt F)),
    ternary main_call2_v14 main_call2_v13 main_call2_v15 main_v2 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- @main's sixty-nine operations in order, the calls unfolded: the three lookups' one after the other. -/
abbrev ops [Cert.ReferenceIdeal.Facts] : List (HloOp τ sig (Elt F)) :=
  [ nullary main_call0_c (constantI S_ 32 0#32),
    unary main_call0_c main_call0_v0 (broadcastInDim S16384 ![] bcast_S_S16384 : (⟨S_, .i32⟩ : BufTy).Contents (Elt F) → (⟨S16384, .i32⟩ : BufTy).Contents (Elt F)),
    binary main_arg3 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 1000000#32),
    unary main_call0_c_0 main_call0_v2 (broadcastInDim S16384 ![] bcast_S_S16384 : (⟨S_, .i32⟩ : BufTy).Contents (Elt F) → (⟨S16384, .i32⟩ : BufTy).Contents (Elt F)),
    binary main_arg3 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_arg3 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 999999#32),
    nullary main_call0_c_2 (constantI S_ 32 0#32),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1),
    binary main_call0_v11 main_call0_c_3 main_call0_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg0 main_call0_v5 main_call0_v13 (fun x i => Host.gather gather_S1000000x32_S16384x1_S16384x32_1_0_n_n_0_1_132 x i : (⟨S1000000x32, .f32⟩ : BufTy).Contents (Elt F) → (⟨S16384x1, .i32⟩ : BufTy).Contents (Elt F) → (⟨S16384x32, .f32⟩ : BufTy).Contents (Elt F)),
    unary main_call0_v12 main_call0_v14 (broadcastInDim S16384x32 ![0] bcast_S16384_S16384x32_0 : (⟨S16384, .i1⟩ : BufTy).Contents (Elt F) → (⟨S16384x32, .i1⟩ : BufTy).Contents (Elt F)),
    nullary main_call0_cst (constant S_ .f32 0x7FC00000#32),
    unary main_call0_cst main_call0_v15 (broadcastInDim S16384x32 ![] bcast_S_S16384x32 : (⟨S_, .f32⟩ : BufTy).Contents (Elt F) → (⟨S16384x32, .f32⟩ : BufTy).Contents (Elt F)),
    ternary main_call0_v14 main_call0_v13 main_call0_v15 main_v0 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nullary main_call1_c (constantI S_ 32 0#32),
    unary main_call1_c main_call1_v0 (broadcastInDim S16384 ![] bcast_S_S16384 : (⟨S_, .i32⟩ : BufTy).Contents (Elt F) → (⟨S16384, .i32⟩ : BufTy).Contents (Elt F)),
    binary main_arg4 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 100000#32),
    unary main_call1_c_0 main_call1_v2 (broadcastInDim S16384 ![] bcast_S_S16384 : (⟨S_, .i32⟩ : BufTy).Contents (Elt F) → (⟨S16384, .i32⟩ : BufTy).Contents (Elt F)),
    binary main_arg4 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_arg4 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 99999#32),
    nullary main_call1_c_2 (constantI S_ 32 0#32),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1),
    binary main_call1_v11 main_call1_c_3 main_call1_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg1 main_call1_v5 main_call1_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call1_v12 main_call1_v14 (broadcastInDim S16384x32 ![0] bcast_S16384_S16384x32_0 : (⟨S16384, .i1⟩ : BufTy).Contents (Elt F) → (⟨S16384x32, .i1⟩ : BufTy).Contents (Elt F)),
    nullary main_call1_cst (constant S_ .f32 0x7FC00000#32),
    unary main_call1_cst main_call1_v15 (broadcastInDim S16384x32 ![] bcast_S_S16384x32 : (⟨S_, .f32⟩ : BufTy).Contents (Elt F) → (⟨S16384x32, .f32⟩ : BufTy).Contents (Elt F)),
    ternary main_call1_v14 main_call1_v13 main_call1_v15 main_v1 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nullary main_call2_c (constantI S_ 32 0#32),
    unary main_call2_c main_call2_v0 (broadcastInDim S16384 ![] bcast_S_S16384 : (⟨S_, .i32⟩ : BufTy).Contents (Elt F) → (⟨S16384, .i32⟩ : BufTy).Contents (Elt F)),
    binary main_arg5 main_call2_v0 main_call2_v1 (cmpi .slt : (⟨S16384, .i32⟩ : BufTy).Contents (Elt F) → (⟨S16384, .i32⟩ : BufTy).Contents (Elt F) → (⟨S16384, .i1⟩ : BufTy).Contents (Elt F)),
    nullary main_call2_c_0 (constantI S_ 32 1000000#32),
    unary main_call2_c_0 main_call2_v2 (broadcastInDim S16384 ![] bcast_S_S16384 : (⟨S_, .i32⟩ : BufTy).Contents (Elt F) → (⟨S16384, .i32⟩ : BufTy).Contents (Elt F)),
    binary main_arg5 main_call2_v2 main_call2_v3 (addi : (⟨S16384, .i32⟩ : BufTy).Contents (Elt F) → (⟨S16384, .i32⟩ : BufTy).Contents (Elt F) → (⟨S16384, .i32⟩ : BufTy).Contents (Elt F)),
    ternary main_call2_v1 main_call2_v3 main_arg5 main_call2_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call2_v4 main_call2_v5 (broadcastInDim S16384x1 ![0] bcast_S16384_S16384x1_0 : (⟨S16384, .i32⟩ : BufTy).Contents (Elt F) → (⟨S16384x1, .i32⟩ : BufTy).Contents (Elt F)),
    nullary main_call2_c_1 (constantI S1 32 999999#32),
    nullary main_call2_c_2 (constantI S_ 32 0#32),
    unary main_call2_c_2 main_call2_v6 (broadcastInDim S16384x1 ![] bcast_S_S16384x1 : (⟨S_, .i32⟩ : BufTy).Contents (Elt F) → (⟨S16384x1, .i32⟩ : BufTy).Contents (Elt F)),
    binary main_call2_v5 main_call2_v6 main_call2_v7 (cmpi .sge : (⟨S16384x1, .i32⟩ : BufTy).Contents (Elt F) → (⟨S16384x1, .i32⟩ : BufTy).Contents (Elt F) → (⟨S16384x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S16384x1 ![0, 1] bcast_S1x1_S16384x1_0_1 : (⟨S1x1, .i32⟩ : BufTy).Contents (Elt F) → (⟨S16384x1, .i32⟩ : BufTy).Contents (Elt F)),
    binary main_call2_v5 main_call2_v9 main_call2_v10 (cmpi .sle : (⟨S16384x1, .i32⟩ : BufTy).Contents (Elt F) → (⟨S16384x1, .i32⟩ : BufTy).Contents (Elt F) → (⟨S16384x1, .i1⟩ : BufTy).Contents (Elt F)),
    binary main_call2_v7 main_call2_v10 main_call2_v11 (andi : (⟨S16384x1, .i1⟩ : BufTy).Contents (Elt F) → (⟨S16384x1, .i1⟩ : BufTy).Contents (Elt F) → (⟨S16384x1, .i1⟩ : BufTy).Contents (Elt F)),
    nullary main_call2_c_3 (constantI S_ 1 1#1),
    binary main_call2_v11 main_call2_c_3 main_call2_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg2 main_call2_v5 main_call2_v13 (fun x i => Host.gather gather_S1000000x32_S16384x1_S16384x32_1_0_n_n_0_1_132 x i : (⟨S1000000x32, .f32⟩ : BufTy).Contents (Elt F) → (⟨S16384x1, .i32⟩ : BufTy).Contents (Elt F) → (⟨S16384x32, .f32⟩ : BufTy).Contents (Elt F)),
    unary main_call2_v12 main_call2_v14 (broadcastInDim S16384x32 ![0] bcast_S16384_S16384x32_0 : (⟨S16384, .i1⟩ : BufTy).Contents (Elt F) → (⟨S16384x32, .i1⟩ : BufTy).Contents (Elt F)),
    nullary main_call2_cst (constant S_ .f32 0x7FC00000#32),
    unary main_call2_cst main_call2_v15 (broadcastInDim S16384x32 ![] bcast_S_S16384x32 : (⟨S_, .f32⟩ : BufTy).Contents (Elt F) → (⟨S16384x32, .f32⟩ : BufTy).Contents (Elt F)),
    ternary main_call2_v14 main_call2_v13 main_call2_v15 main_v2 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- @main is that straight line: a program is a tree of requests, sequencing grafts the rest onto its leaves by
    computation, and a call is its body; so both sides compute to the same chain of sixty-nine steps. -/
theorem main_eq [Cert.ReferenceIdeal.Facts] (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub [Cert.ReferenceIdeal.Facts] : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- From any memory with zero counters every fair execution of @main terminates, and every final state has each
    buffer at the fold of the operations' results over its launch contents. -/
theorem run_after [Cert.ReferenceIdeal.Facts] (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as terms of the arguments

What one lookup computes, as a function of its table and its index words, in four steps named here so that the
run can state the three results and the value lemmas can read them step by step. `V` is the table's number of
rows as a word and `L` the last row as a word. -/

section Terms
variable [Cert.ReferenceIdeal.Facts]

/-- The index words moved into the table's range the way a negative index is read from the end:
    `ids + V` where `ids < 0`, else `ids`. -/
def moved (V : BitVec 32) (ids : IVec S16384 32) : IVec S16384 32 :=
  select (cmpi .slt ids (broadcastInDim S16384 ![] bcast_S_S16384 (constantI S_ 32 0#32)))
    (addi ids (broadcastInDim S16384 ![] bcast_S_S16384 (constantI S_ 32 V))) ids

/-- The moved index words as a column `[16384, 1]`: the gather's start indices. -/
def col (V : BitVec 32) (ids : IVec S16384 32) : IVec S16384x1 32 :=
  broadcastInDim S16384x1 ![0] bcast_S16384_S16384x1_0 (moved V ids)

/-- Which moved index words lie in `[0, L]`: the conjunction along the column's unit axis of `0 ≤ ·` and `· ≤ L`. -/
def mask (V L : BitVec 32) (ids : IVec S16384 32) : IVec S16384 1 :=
  Host.reduce IntOp.andi
    (andi (cmpi .sge (col V ids) (broadcastInDim S16384x1 ![] bcast_S_S16384x1 (constantI S_ 32 0#32)))
      (cmpi .sle (col V ids) (broadcastInDim S16384x1 ![0, 1] bcast_S1x1_S16384x1_0_1
        (broadcastInDim S1x1 ![1] bcast_S1_S1x1_1 (constantI S1 32 L)))))
    (constantI S_ 1 1#1) reducesTo_S16384x1_S16384_d1 h_S_

/-- The lookup as the program computes it: the gathered rows where the mask holds, a fixed fill value elsewhere. -/
def take {s : Shape} (gd : GatherDims s S16384x1 S16384x32) (V L : BitVec 32) (T : s.Idx → Elt F .f32)
    (ids : IVec S16384 32) : S16384x32.Idx → Elt F .f32 :=
  select (broadcastInDim S16384x32 ![0] bcast_S16384_S16384x32_0 (mask V L ids)) (Host.gather gd T (col V ids))
    (broadcastInDim S16384x32 ![] bcast_S_S16384x32 (constant S_ .f32 0x7FC00000#32))

end Terms

/-! ## Each lookup's straight line, from any contents

Each of the three lines writes only its own call's buffers: from any contents `W` it leaves every argument of @main
(and every earlier result) as it was, and puts the lookup's term of its table and index words, as `W` has them, in
its result buffer. -/

section Calls
variable [Cert.ReferenceIdeal.Facts]

/-- Two lines one after the other fold as the second over the first's fold. -/
theorem after_app (l₁ l₂ : List (HloOp τ sig (Elt F))) (W : Valuation τ sig (Elt F)) :
    after (l₁ ++ l₂) W = after l₂ (after l₁ W) := by
  induction l₁ generalizing W with
  | nil => rfl
  | cons op l ih => exact ih (op.result W)

theorem ops_eq : (ops : List (HloOp τ sig (Elt F))) = ops0 ++ (ops1 ++ ops2) := by chain_rfl

theorem after_ops (W : Valuation τ sig (Elt F)) : after ops W = after ops2 (after ops1 (after ops0 W)) := by
  rw [ops_eq, after_app, after_app]

theorem call0_v (W : Valuation τ sig (Elt F)) :
    after ops0 W (main_v0 : DevRef τ sig) = take gather_S1000000x32_S16384x1_S16384x32_1_0_n_n_0_1_132 1000000#32 999999#32 (W (main_arg0 : DevRef τ sig)) (W (main_arg3 : DevRef τ sig)) := by
  after_results_simp
  rfl
theorem call1_v (W : Valuation τ sig (Elt F)) :
    after ops1 W (main_v1 : DevRef τ sig) = take gather_S100000x32_S16384x1_S16384x32_1_0_n_n_0_1_132 100000#32 99999#32 (W (main_arg1 : DevRef τ sig)) (W (main_arg4 : DevRef τ sig)) := by
  after_results_simp
  rfl
theorem call2_v (W : Valuation τ sig (Elt F)) :
    after ops2 W (main_v2 : DevRef τ sig) = take gather_S1000000x32_S16384x1_S16384x32_1_0_n_n_0_1_132 1000000#32 999999#32 (W (main_arg2 : DevRef τ sig)) (W (main_arg5 : DevRef τ sig)) := by
  after_results_simp
  rfl
theorem fr0_arg0 (W : Valuation τ sig (Elt F)) : after ops0 W (main_arg0 : DevRef τ sig) = W (main_arg0 : DevRef τ sig) := by after_results_simp
theorem fr0_arg1 (W : Valuation τ sig (Elt F)) : after ops0 W (main_arg1 : DevRef τ sig) = W (main_arg1 : DevRef τ sig) := by after_results_simp
theorem fr0_arg2 (W : Valuation τ sig (Elt F)) : after ops0 W (main_arg2 : DevRef τ sig) = W (main_arg2 : DevRef τ sig) := by after_results_simp
theorem fr0_arg3 (W : Valuation τ sig (Elt F)) : after ops0 W (main_arg3 : DevRef τ sig) = W (main_arg3 : DevRef τ sig) := by after_results_simp
theorem fr0_arg4 (W : Valuation τ sig (Elt F)) : after ops0 W (main_arg4 : DevRef τ sig) = W (main_arg4 : DevRef τ sig) := by after_results_simp
theorem fr0_arg5 (W : Valuation τ sig (Elt F)) : after ops0 W (main_arg5 : DevRef τ sig) = W (main_arg5 : DevRef τ sig) := by after_results_simp
theorem fr0_arg6 (W : Valuation τ sig (Elt F)) : after ops0 W (main_arg6 : DevRef τ sig) = W (main_arg6 : DevRef τ sig) := by after_results_simp
theorem fr1_arg0 (W : Valuation τ sig (Elt F)) : after ops1 W (main_arg0 : DevRef τ sig) = W (main_arg0 : DevRef τ sig) := by after_results_simp
theorem fr1_arg1 (W : Valuation τ sig (Elt F)) : after ops1 W (main_arg1 : DevRef τ sig) = W (main_arg1 : DevRef τ sig) := by after_results_simp
theorem fr1_arg2 (W : Valuation τ sig (Elt F)) : after ops1 W (main_arg2 : DevRef τ sig) = W (main_arg2 : DevRef τ sig) := by after_results_simp
theorem fr1_arg3 (W : Valuation τ sig (Elt F)) : after ops1 W (main_arg3 : DevRef τ sig) = W (main_arg3 : DevRef τ sig) := by after_results_simp
theorem fr1_arg4 (W : Valuation τ sig (Elt F)) : after ops1 W (main_arg4 : DevRef τ sig) = W (main_arg4 : DevRef τ sig) := by after_results_simp
theorem fr1_arg5 (W : Valuation τ sig (Elt F)) : after ops1 W (main_arg5 : DevRef τ sig) = W (main_arg5 : DevRef τ sig) := by after_results_simp
theorem fr1_arg6 (W : Valuation τ sig (Elt F)) : after ops1 W (main_arg6 : DevRef τ sig) = W (main_arg6 : DevRef τ sig) := by after_results_simp
theorem fr1_v0 (W : Valuation τ sig (Elt F)) : after ops1 W (main_v0 : DevRef τ sig) = W (main_v0 : DevRef τ sig) := by after_results_simp
theorem fr2_arg0 (W : Valuation τ sig (Elt F)) : after ops2 W (main_arg0 : DevRef τ sig) = W (main_arg0 : DevRef τ sig) := by after_results_simp
theorem fr2_arg1 (W : Valuation τ sig (Elt F)) : after ops2 W (main_arg1 : DevRef τ sig) = W (main_arg1 : DevRef τ sig) := by after_results_simp
theorem fr2_arg2 (W : Valuation τ sig (Elt F)) : after ops2 W (main_arg2 : DevRef τ sig) = W (main_arg2 : DevRef τ sig) := by after_results_simp
theorem fr2_arg3 (W : Valuation τ sig (Elt F)) : after ops2 W (main_arg3 : DevRef τ sig) = W (main_arg3 : DevRef τ sig) := by after_results_simp
theorem fr2_arg4 (W : Valuation τ sig (Elt F)) : after ops2 W (main_arg4 : DevRef τ sig) = W (main_arg4 : DevRef τ sig) := by after_results_simp
theorem fr2_arg5 (W : Valuation τ sig (Elt F)) : after ops2 W (main_arg5 : DevRef τ sig) = W (main_arg5 : DevRef τ sig) := by after_results_simp
theorem fr2_arg6 (W : Valuation τ sig (Elt F)) : after ops2 W (main_arg6 : DevRef τ sig) = W (main_arg6 : DevRef τ sig) := by after_results_simp
theorem fr2_v0 (W : Valuation τ sig (Elt F)) : after ops2 W (main_v0 : DevRef τ sig) = W (main_v0 : DevRef τ sig) := by after_results_simp
theorem fr2_v1 (W : Valuation τ sig (Elt F)) : after ops2 W (main_v1 : DevRef τ sig) = W (main_v1 : DevRef τ sig) := by after_results_simp

end Calls

/-! ## The run, the results as terms of the arguments -/

/-- On every device, for any float values, from any memory with zero counters: every fair execution of @main
    terminates with each result at the lookup's term of its table and index words, and the arguments unchanged. -/
theorem run_terms [Cert.ReferenceIdeal.Facts] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = take gather_S1000000x32_S16384x1_S16384x32_1_0_n_n_0_1_132 1000000#32 999999#32 (m ((c.tc : Thread nD τ).loc main_arg0)) (m ((c.tc : Thread nD τ).loc main_arg3))
      ∧ r.2.mem ((c.tc : Thread nD τ).loc main_v1) = take gather_S100000x32_S16384x1_S16384x32_1_0_n_n_0_1_132 100000#32 99999#32 (m ((c.tc : Thread nD τ).loc main_arg1)) (m ((c.tc : Thread nD τ).loc main_arg4))
      ∧ r.2.mem ((c.tc : Thread nD τ).loc main_v2) = take gather_S1000000x32_S16384x1_S16384x32_1_0_n_n_0_1_132 1000000#32 999999#32 (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (h c main_v0).trans (by rw [after_ops, fr2_v0, fr1_v0, call0_v]),
      (h c main_v1).trans (by rw [after_ops, fr2_v1, call1_v, fr0_arg1, fr0_arg4]),
      (h c main_v2).trans (by rw [after_ops, call2_v, fr1_arg2, fr1_arg5, fr0_arg2, fr0_arg5]),
      (h c main_arg0).trans (by rw [after_ops, fr2_arg0, fr1_arg0, fr0_arg0]),
      (h c main_arg1).trans (by rw [after_ops, fr2_arg1, fr1_arg1, fr0_arg1]),
      (h c main_arg2).trans (by rw [after_ops, fr2_arg2, fr1_arg2, fr0_arg2]),
      (h c main_arg3).trans (by rw [after_ops, fr2_arg3, fr1_arg3, fr0_arg3]),
      (h c main_arg4).trans (by rw [after_ops, fr2_arg4, fr1_arg4, fr0_arg4]),
      (h c main_arg5).trans (by rw [after_ops, fr2_arg5, fr1_arg5, fr0_arg5]),
      (h c main_arg6).trans (by rw [after_ops, fr2_arg6, fr1_arg6, fr0_arg6])⟩)
    (run_after m ρ)

/-! ## The value of a lookup on index words that lie in the table -/

section Value
variable [Cert.ReferenceIdeal.Facts]

open Idealize.ShloMosaic.ValueIdx

/-- A vector `[16384]` laid along axis 0 of an array `[16384, k]` reads, at `(r, c)`, its element `r`. -/
theorem rows_apply {α : Type} {k : Nat} (h : S16384.BroadcastsInDim ⟨2, ![16384, k]⟩ ![0]) (x : S16384.Idx → α)
    (j : (⟨2, ![16384, k]⟩ : Shape).Idx) : broadcastInDim ⟨2, ![16384, k]⟩ ![0] h x j = x (ix1 (j 0)) := by
  unfold broadcastInDim
  refine congrArg x (funext fun a => ?_)
  match a with
  | ⟨0, h0⟩ =>
    have hne : ¬ S16384.size ⟨0, h0⟩ = 1 := fun h => (by decide : ¬ (16384 : Nat) = 1) h
    rw [dif_neg hne]
    exact Fin.ext rfl

/-- A word that is not negative is not moved. -/
theorem moved_apply (V : BitVec 32) (ids : IVec S16384 32) (r : S16384.Idx) (h0 : 0 ≤ (ids r).toInt) :
    moved V ids r = ids r := by
  have hc : IntOp.cmpi .slt (ids r) 0#32 = 0#1 :=
    eq_zero_of_ne_one fun h => by
      have := IntOp.cmpi_slt.mp h
      rw [show (0#32 : BitVec 32).toInt = 0 by decide] at this
      omega
  show Scalar.select (IntOp.cmpi .slt (ids r) 0#32) (IntOp.addi (ids r) V) (ids r) = ids r
  rw [hc, select_zero]

/-- The column of start indices reads, at `(r, 0)`, the `r`-th word when it is not negative. -/
theorem col_apply (V : BitVec 32) (ids : IVec S16384 32) (j : S16384x1.Idx) (h0 : 0 ≤ (ids (ix1 (j 0))).toInt) :
    col V ids j = ids (ix1 (j 0)) := by
  unfold col
  rw [rows_apply, moved_apply V ids _ h0]

/-- The mask holds at `r` when the `r`-th word lies in `[0, L]`. -/
theorem mask_apply (V L : BitVec 32) (ids : IVec S16384 32) (r : S16384.Idx) (h0 : 0 ≤ (ids (ix1 (r 0))).toInt)
    (h1 : (ids (ix1 (r 0))).toInt ≤ L.toInt) : mask V L ids r = 1#1 := by
  unfold mask
  rw [Cert.RefLemmas.reduce_and_unit _ (constantI S_ 1 1#1) (fun _ => rfl)]
  show IntOp.andi (IntOp.cmpi .sge (col V ids (ix2 (r 0) (0 : Fin 1))) 0#32)
    (IntOp.cmpi .sle (col V ids (ix2 (r 0) (0 : Fin 1))) L) = 1#1
  rw [col_apply V ids _ h0]
  have hge : IntOp.cmpi .sge (ids (ix1 (r 0))) 0#32 = 1#1 :=
    IntOp.cmpi_sge.mpr (by rw [show (0#32 : BitVec 32).toInt = 0 by decide]; exact h0)
  have hle : IntOp.cmpi .sle (ids (ix1 (r 0))) L = 1#1 := IntOp.cmpi_sle.mpr h1
  show IntOp.andi (IntOp.cmpi .sge (ids (ix1 (r 0))) 0#32) (IntOp.cmpi .sle (ids (ix1 (r 0))) L) = 1#1
  rw [hge, hle]
  decide

/-- THE LOOKUP READ AT `(r, c)`, for a table of `N` rows with `L` its last row as a word: when the `r`-th index word
    lies in `[0, L]` the mask holds, the word is not moved, and the result is the table's entry at the row the
    word names (read signed and clamped into the table, the clamp the gather applies to every start index) and
    lane `c`. -/
theorem take_apply {N : Nat} (hN : 0 < N)
    (wf : GatherDims.WF ⟨2, ![N, 32]⟩ ⟨2, ![16384, 1]⟩ ⟨2, ![16384, 32]⟩ [1] [0] [] [0] [] 1 ![1, 32])
    (V L : BitVec 32) (T : (⟨2, ![N, 32]⟩ : Shape).Idx → Elt F .f32) (ids : IVec S16384 32) (i : S16384x32.Idx)
    (h0 : 0 ≤ (ids (ix1 (i 0))).toInt) (h1 : (ids (ix1 (i 0))).toInt ≤ L.toInt) :
    take (Cert.RefLemmas.rowDims N wf) V L T ids i
      = T (ix2 (⟨min (ids (ix1 (i 0))).toInt.toNat (N - 1), by omega⟩ : Fin N) (i 1)) := by
  unfold take
  rw [select_apply, rows_apply, mask_apply V L ids (ix1 (i 0)) h0 h1, select_one, Cert.RefLemmas.gather_row_apply hN wf]
  refine congrArg T (congrArg (fun a : Fin N => ix2 a (i 1)) (Fin.ext ?_))
  show min (col V ids (ix2 (i 0) (0 : Fin 1))).toInt.toNat (N - 1) = min (ids (ix1 (i 0))).toInt.toNat (N - 1)
  rw [col_apply V ids _ h0]

end Value

/-! ## The run, the results as lookups -/

section Run
variable [Cert.ReferenceIdeal.Facts]

open Idealize.ShloMosaic.ValueIdx

/-- A lookup in a million-row table on index words in `[0, 999999]` is the specification's lookup. -/
theorem take_eq_lookupL (T : S1000000x32.Idx → Elt F .f32) (ids : IVec S16384 32)
    (h : ∀ r : S16384.Idx, 0 ≤ (ids r).toInt ∧ (ids r).toInt ≤ 999999) :
    take gather_S1000000x32_S16384x1_S16384x32_1_0_n_n_0_1_132 1000000#32 999999#32 T ids = Cert.Spec.lookupL T ids :=
  funext fun i =>
    take_apply (N := 1000000) (by decide) gather_S1000000x32_S16384x1_S16384x32_1_0_n_n_0_1_132_wf 1000000#32 999999#32 T ids i (h _).1
      (by rw [show (999999#32 : BitVec 32).toInt = 999999 by decide]; exact (h _).2)

/-- A lookup in a hundred-thousand-row table on index words in `[0, 99999]` is the specification's lookup. -/
theorem take_eq_lookupS (T : S100000x32.Idx → Elt F .f32) (ids : IVec S16384 32)
    (h : ∀ r : S16384.Idx, 0 ≤ (ids r).toInt ∧ (ids r).toInt ≤ 99999) :
    take gather_S100000x32_S16384x1_S16384x32_1_0_n_n_0_1_132 100000#32 99999#32 T ids = Cert.Spec.lookupS T ids :=
  funext fun i =>
    take_apply (N := 100000) (by decide) gather_S100000x32_S16384x1_S16384x32_1_0_n_n_0_1_132_wf 100000#32 99999#32 T ids i (h _).1
      (by rw [show (99999#32 : BitVec 32).toInt = 99999 by decide]; exact (h _).2)

/-- THE REFERENCE'S RUN. On every device, from any memory with zero counters whose three index arrays hold words
    that lie in their tables: every fair execution of @main terminates with the three results the specification's
    lookups of the launch contents, and the arguments unchanged. -/
theorem run (m : (ℓ : Loc nD τ sig) → Buf (Elt Ideal) ℓ) (g : Dev nD → PrngReg)
    (h3 : ∀ (c : Dev nD) (r : S16384.Idx), 0 ≤ ((m ((c.tc : Thread nD τ).loc main_arg3) : IVec S16384 32) r).toInt ∧ ((m ((c.tc : Thread nD τ).loc main_arg3) : IVec S16384 32) r).toInt ≤ 999999)
    (h4 : ∀ (c : Dev nD) (r : S16384.Idx), 0 ≤ ((m ((c.tc : Thread nD τ).loc main_arg4) : IVec S16384 32) r).toInt ∧ ((m ((c.tc : Thread nD τ).loc main_arg4) : IVec S16384 32) r).toInt ≤ 99999)
    (h5 : ∀ (c : Dev nD) (r : S16384.Idx), 0 ≤ ((m ((c.tc : Thread nD τ).loc main_arg5) : IVec S16384 32) r).toInt ∧ ((m ((c.tc : Thread nD τ).loc main_arg5) : IVec S16384 32) r).toInt ≤ 999999) :
    θ_run (defs (F := Ideal)) (onTc (τ := τ) (main (F := Ideal))) ⟨m, fun _ => 0, g⟩ fun r => ∀ c : Dev nD,
      r.2.mem ((c.tc : Thread nD τ).loc main_v0) = Cert.Spec.lookupL (m ((c.tc : Thread nD τ).loc main_arg0)) (m ((c.tc : Thread nD τ).loc main_arg3))
      ∧ r.2.mem ((c.tc : Thread nD τ).loc main_v1) = Cert.Spec.lookupS (m ((c.tc : Thread nD τ).loc main_arg1)) (m ((c.tc : Thread nD τ).loc main_arg4))
      ∧ r.2.mem ((c.tc : Thread nD τ).loc main_v2) = Cert.Spec.lookupL (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨e0, e1, e2, rest⟩ := h c
      exact ⟨e0.trans (take_eq_lookupL _ _ (h3 c)), e1.trans (take_eq_lookupS _ _ (h4 c)),
        e2.trans (take_eq_lookupL _ _ (h5 c)), rest⟩)
    (run_terms m g)

end Run

end Cert.ReferenceIdeal.RefRun

end
-- ==== Proof.lean ====
/-
  The claim of the embedding-lookup certificate: three tables looked up at three index arrays, the kernel's staged
  copies against the reference's gathers.

  Each result row r of a table's lookup is row ids[r] of the table (the specification: Proof/Spec.lean). The kernel's
  side: the launch hands each of the 32 tiles its 512 positions (Proof/KLaunch.lean), the tile's body fills its rows
  (Proof/KBody.lean), once for the program as printed and once for its idealization, which are the same text read at
  two float instances. The reference's side: its run read back as the same lookup (Proof/RefRun.lean), the indices being rows of their tables
  by the precondition (Proof/PreFacts.lean). The two sides are one function of the arguments, so the results agree; the
  idealization rewrote nothing, so there is nothing to preserve.
-/
import proofs.«207337_g69080253988965_cont_9to1c4b_173_32_alg».proof.Defs
import proofs.«207337_g69080253988965_cont_9to1c4b_173_32_alg».proof.Proof.Gen.Kernel
import proofs.«207337_g69080253988965_cont_9to1c4b_173_32_alg».proof.Proof.Gen.Kernel.Skeleton
import proofs.«207337_g69080253988965_cont_9to1c4b_173_32_alg».proof.Proof.Gen.KernelIdeal
import proofs.«207337_g69080253988965_cont_9to1c4b_173_32_alg».proof.Proof.Gen.KernelIdeal.Skeleton
import proofs.«207337_g69080253988965_cont_9to1c4b_173_32_alg».proof.Proof.Gen.ReferenceIdeal
import proofs.«207337_g69080253988965_cont_9to1c4b_173_32_alg».proof.Proof.Gen.Pre_input_domain
import proofs.«207337_g69080253988965_cont_9to1c4b_173_32_alg».proof.Proof.PreFacts
import proofs.«207337_g69080253988965_cont_9to1c4b_173_32_alg».proof.Proof.KLaunch
import proofs.«207337_g69080253988965_cont_9to1c4b_173_32_alg».proof.Proof.KBody
import proofs.«207337_g69080253988965_cont_9to1c4b_173_32_alg».proof.Proof.KILaunch
import proofs.«207337_g69080253988965_cont_9to1c4b_173_32_alg».proof.Proof.KIBody
import proofs.«207337_g69080253988965_cont_9to1c4b_173_32_alg».proof.Proof.RefRun
import Idealize.ShloMosaic.Adequacy
import Idealize.ShloMosaic.Init

noncomputable section

namespace Cert.Proof

open Idealize.ShloMosaic Idealize.SL.Sem

/-- The precondition bounds every index by its table (the program as printed). -/
theorem preOK_K (m : (ℓ : Loc Cert.Kernel.nD Cert.Kernel.τ Cert.Kernel.sig) → Buf (Elt Bits) ℓ) (h : Cert.Pre_Kernel m) :
    Cert.Proof.KS.PreOK (F := Bits) m := fun d => Cert.PreFacts.ranges _ _ _ _ _ _ _ (h d)
/-- The same for the idealized program. -/
theorem preOK_KI (m : (ℓ : Loc Cert.KernelIdeal.nD Cert.KernelIdeal.τ Cert.KernelIdeal.sig) → Buf (Elt Ideal) ℓ) (h : Cert.Pre_KernelIdeal m) :
    Cert.Proof.KIS.PreOK (F := Ideal) m := fun d => Cert.PreFacts.ranges _ _ _ _ _ _ _ (h d)

theorem frame_K : Cert.frame_Kernel := fun m ρ hpre =>
  (θ_run Cert.Kernel.defs _ _).mono (fun _ h c => (h c).2.2.2.2)
    (Cert.Proof.KS.run_main (F := Bits) m ρ (Cert.Proof.KS.tileObl m Cert.Proof.KS.facts (preOK_K m hpre)))

theorem frame_KI : Cert.frame_KernelIdeal := fun m ρ hpre =>
  (θ_run Cert.KernelIdeal.defs _ _).mono (fun _ h c => (h c).2.2.2.2)
    (Cert.Proof.KIS.run_main (F := Ideal) m ρ (Cert.Proof.KIS.tileObl m Cert.Proof.KIS.facts (preOK_KI m hpre)))

theorem frame_RI : Cert.frame_ReferenceIdeal := fun m ρ hpre =>
  (θ_run Cert.ReferenceIdeal.defs _ _).mono (fun _ h c => (h c).2.2.2)
    (Cert.ReferenceIdeal.RefRun.run m ρ (fun c => (Cert.PreFacts.ranges _ _ _ _ _ _ _ (hpre c)).1)
      (fun c => (Cert.PreFacts.ranges _ _ _ _ _ _ _ (hpre c)).2.1) (fun c => (Cert.PreFacts.ranges _ _ _ _ _ _ _ (hpre c)).2.2))

/-- Both sides end at the lookups of the same arguments. -/
theorem algebraic : Cert.algebraic_KernelIdeal_ReferenceIdeal := by
  intro m ρ m' ρ' hpre hagree
  have hK := Cert.Proof.KIS.run_main (F := Ideal) m ρ (Cert.Proof.KIS.tileObl m Cert.Proof.KIS.facts (preOK_KI m hpre))
  have hr := fun c => Cert.PreFacts.ranges _ _ _ _ _ _ _ (hpre c)
  refine ⟨fun c => Cert.Proof.KIS.res0 m c, fun c => Cert.Proof.KIS.res1 m c, fun c => Cert.Proof.KIS.res2 m c,
    fun c => m ((c.tc : Thread Cert.KernelIdeal.nD Cert.KernelIdeal.τ).loc Cert.KernelIdeal.main_arg6), hK, ?_⟩
  refine (θ_run Cert.ReferenceIdeal.defs _ _).mono (fun r h c => ?_)
    (Cert.ReferenceIdeal.RefRun.run m' ρ'
      (fun c => by rw [(hagree c).2.2.2.1]; exact (hr c).1)
      (fun c => by rw [(hagree c).2.2.2.2.1]; exact (hr c).2.1)
      (fun c => by rw [(hagree c).2.2.2.2.2.1]; exact (hr c).2.2))
  obtain ⟨h0, h1, h2, ha⟩ := h c
  obtain ⟨a0, a1, a2, a3, a4, a5, a6⟩ := hagree c
  refine ⟨?_, ?_, ?_, ?_, ha⟩
  · rw [h0, a0, a3]; rfl
  · rw [h1, a1, a4]; rfl
  · rw [h2, a2, a5]; rfl
  · rw [ha.2.2.2.2.2.2, a6]

theorem claim : Cert.Claim := ⟨Cert.Kernel.Gen.facts, Cert.KernelIdeal.Gen.facts, Cert.ReferenceIdeal.Gen.facts, Cert.Pre_input_domain.Gen.facts,
  frame_K, frame_KI, frame_RI, trivial, algebraic⟩

end Cert.Proof

end
